-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x64 : Shape := ⟨2, ![100000, 64]⟩
abbrev S200x64 : Shape := ⟨2, ![200, 64]⟩
abbrev S10000x64 : Shape := ⟨2, ![10000, 64]⟩
abbrev S2x64 : Shape := ⟨2, ![2, 64]⟩
abbrev S4095 : Shape := ⟨1, ![4095]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200x64 : S_.BroadcastsInDim S200x64 (![] : Fin 0 → Fin S200x64.rank)
  reducesTo_S200x64_S_d0_1 : S200x64.ReducesTo [0, 1] S_
  bcast_S_S10000x64 : S_.BroadcastsInDim S10000x64 (![] : Fin 0 → Fin S10000x64.rank)
  reducesTo_S10000x64_S_d0_1 : S10000x64.ReducesTo [0, 1] S_
  bcast_S_S2x64 : S_.BroadcastsInDim S2x64 (![] : Fin 0 → Fin S2x64.rank)
  reducesTo_S2x64_S_d0_1 : S2x64.ReducesTo [0, 1] S_
  bcast_S_S4095 : S_.BroadcastsInDim S4095 (![] : Fin 0 → Fin S4095.rank)
  reducesTo_S4095_S_d0 : S4095.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg11 : IVec S1 32) (main_v65 : IVec S_ 1) (main_v66 : IVec S1 32) : IVec S_ 1 :=
  let main_v67 : IVec S1 1 := cmpi .sge main_arg11 main_v66
  let main_c_27 : IVec S_ 32 := constantI S_ 32 9999#32
  let main_v68 : IVec S1 32 := broadcastInDim S1 ![] bcast_S_S1 main_c_27
  let main_v69 : IVec S1 1 := cmpi .sle main_arg11 main_v68
  let main_v70 : IVec S1 1 := andi main_v67 main_v69
  let main_c_28 : IVec S_ 1 := constantI S_ 1 1#1
  let main_v71 : IVec S_ 1 := (fun x v => Host.reduce IntOp.andi x v reducesTo_S1_S_d0 h_S_) main_v70 main_c_28
  let main_v72 : IVec S_ 1 := andi main_v65 main_v71
  main_v72

def fn_part3 {F : FTy → Type} [FloatOps F] (main_arg9 : IVec S1 32) (main_arg10 : IVec S1 32) (main_arg11 : IVec S1 32) (main_v44 : IVec S_ 1) (main_v49 : IVec S4095 1) (main_c_19 : IVec S_ 1) : IVec S_ 1 :=
  let main_v50 : IVec S_ 1 := (fun x v => Host.reduce IntOp.andi x v reducesTo_S4095_S_d0 h_S_) main_v49 main_c_19
  let main_v51 : IVec S_ 1 := andi main_v44 main_v50
  let main_c_20 : IVec S_ 32 := constantI S_ 32 0#32
  let main_v52 : IVec S1 32 := broadcastInDim S1 ![] bcast_S_S1 main_c_20
  let main_v53 : IVec S1 1 := cmpi .sge main_arg9 main_v52
  let main_c_21 : IVec S_ 32 := constantI S_ 32 99999#32
  let main_v54 : IVec S1 32 := broadcastInDim S1 ![] bcast_S_S1 main_c_21
  let main_v55 : IVec S1 1 := cmpi .sle main_arg9 main_v54
  let main_v56 : IVec S1 1 := andi main_v53 main_v55
  let main_c_22 : IVec S_ 1 := constantI S_ 1 1#1
  let main_v57 : IVec S_ 1 := (fun x v => Host.reduce IntOp.andi x v reducesTo_S1_S_d0 h_S_) main_v56 main_c_22
  let main_v58 : IVec S_ 1 := andi main_v51 main_v57
  let main_c_23 : IVec S_ 32 := constantI S_ 32 0#32
  let main_v59 : IVec S1 32 := broadcastInDim S1 ![] bcast_S_S1 main_c_23
  let main_v60 : IVec S1 1 := cmpi .sge main_arg10 main_v59
  let main_c_24 : IVec S_ 32 := constantI S_ 32 199#32
  let main_v61 : IVec S1 32 := broadcastInDim S1 ![] bcast_S_S1 main_c_24
  let main_v62 : IVec S1 1 := cmpi .sle main_arg10 main_v61
  let main_v63 : IVec S1 1 := andi main_v60 main_v62
  let main_c_25 : IVec S_ 1 := constantI S_ 1 1#1
  let main_v64 : IVec S_ 1 := (fun x v => Host.reduce IntOp.andi x v reducesTo_S1_S_d0 h_S_) main_v63 main_c_25
  let main_v65 : IVec S_ 1 := andi main_v58 main_v64
  let main_c_26 : IVec S_ 32 := constantI S_ 32 0#32
  let main_v66 : IVec S1 32 := broadcastInDim S1 ![] bcast_S_S1 main_c_26
  fn_part4 (F := F) main_arg11 main_v65 main_v66

def fn_part2 {F : FTy → Type} [FloatOps F] (main_arg6 : IVec S4095 32) (main_arg7 : IVec S4095 32) (main_arg8 : IVec S4095 32) (main_arg9 : IVec S1 32) (main_arg10 : IVec S1 32) (main_arg11 : IVec S1 32) (main_v30 : IVec S_ 1) (main_v32 : IVec S4095 1) (main_c_12 : IVec S_ 32) : IVec S_ 1 :=
  let main_v33 : IVec S4095 32 := broadcastInDim S4095 ![] bcast_S_S4095 main_c_12
  let main_v34 : IVec S4095 1 := cmpi .sle main_arg6 main_v33
  let main_v35 : IVec S4095 1 := andi main_v32 main_v34
  let main_c_13 : IVec S_ 1 := constantI S_ 1 1#1
  let main_v36 : IVec S_ 1 := (fun x v => Host.reduce IntOp.andi x v reducesTo_S4095_S_d0 h_S_) main_v35 main_c_13
  let main_v37 : IVec S_ 1 := andi main_v30 main_v36
  let main_c_14 : IVec S_ 32 := constantI S_ 32 0#32
  let main_v38 : IVec S4095 32 := broadcastInDim S4095 ![] bcast_S_S4095 main_c_14
  let main_v39 : IVec S4095 1 := cmpi .sge main_arg7 main_v38
  let main_c_15 : IVec S_ 32 := constantI S_ 32 99999#32
  let main_v40 : IVec S4095 32 := broadcastInDim S4095 ![] bcast_S_S4095 main_c_15
  let main_v41 : IVec S4095 1 := cmpi .sle main_arg7 main_v40
  let main_v42 : IVec S4095 1 := andi main_v39 main_v41
  let main_c_16 : IVec S_ 1 := constantI S_ 1 1#1
  let main_v43 : IVec S_ 1 := (fun x v => Host.reduce IntOp.andi x v reducesTo_S4095_S_d0 h_S_) main_v42 main_c_16
  let main_v44 : IVec S_ 1 := andi main_v37 main_v43
  let main_c_17 : IVec S_ 32 := constantI S_ 32 0#32
  let main_v45 : IVec S4095 32 := broadcastInDim S4095 ![] bcast_S_S4095 main_c_17
  let main_v46 : IVec S4095 1 := cmpi .sge main_arg8 main_v45
  let main_c_18 : IVec S_ 32 := constantI S_ 32 9999#32
  let main_v47 : IVec S4095 32 := broadcastInDim S4095 ![] bcast_S_S4095 main_c_18
  let main_v48 : IVec S4095 1 := cmpi .sle main_arg8 main_v47
  let main_v49 : IVec S4095 1 := andi main_v46 main_v48
  let main_c_19 : IVec S_ 1 := constantI S_ 1 1#1
  fn_part3 (F := F) main_arg9 main_arg10 main_arg11 main_v44 main_v49 main_c_19

def fn_part1 {F : FTy → Type} [FloatOps F] (main_arg4 : FVec F S2x64 .f32) (main_arg5 : IVec S4095 32) (main_arg6 : IVec S4095 32) (main_arg7 : IVec S4095 32) (main_arg8 : IVec S4095 32) (main_arg9 : IVec S1 32) (main_arg10 : IVec S1 32) (main_arg11 : IVec S1 32) (main_v13 : IVec S_ 1) (main_v16 : IVec S10000x64 1) : IVec S_ 1 :=
  let main_c_5 : IVec S_ 1 := constantI S_ 1 1#1
  let main_v17 : IVec S_ 1 := (fun x v => Host.reduce IntOp.andi x v reducesTo_S10000x64_S_d0_1 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_c_8 : IVec S_ 32 := constantI S_ 32 0#32
  let main_v24 : IVec S4095 32 := broadcastInDim S4095 ![] bcast_S_S4095 main_c_8
  let main_v25 : IVec S4095 1 := cmpi .sge main_arg5 main_v24
  let main_c_9 : IVec S_ 32 := constantI S_ 32 99999#32
  let main_v26 : IVec S4095 32 := broadcastInDim S4095 ![] bcast_S_S4095 main_c_9
  let main_v27 : IVec S4095 1 := cmpi .sle main_arg5 main_v26
  let main_v28 : IVec S4095 1 := andi main_v25 main_v27
  let main_c_10 : IVec S_ 1 := constantI S_ 1 1#1
  let main_v29 : IVec S_ 1 := (fun x v => Host.reduce IntOp.andi x v reducesTo_S4095_S_d0 h_S_) main_v28 main_c_10
  let main_v30 : IVec S_ 1 := andi main_v23 main_v29
  let main_c_11 : IVec S_ 32 := constantI S_ 32 0#32
  let main_v31 : IVec S4095 32 := broadcastInDim S4095 ![] bcast_S_S4095 main_c_11
  let main_v32 : IVec S4095 1 := cmpi .sge main_arg6 main_v31
  let main_c_12 : IVec S_ 32 := constantI S_ 32 199#32
  fn_part2 (F := F) main_arg6 main_arg7 main_arg8 main_arg9 main_arg10 main_arg11 main_v30 main_v32 main_c_12

def fn {F : FTy → Type} [FloatOps F] (main_arg0 : FVec F S100000x64 .f32) (main_arg1 : FVec F S200x64 .f32) (main_arg2 : FVec F S100000x64 .f32) (main_arg3 : FVec F S10000x64 .f32) (main_arg4 : FVec F S2x64 .f32) (main_arg5 : IVec S4095 32) (main_arg6 : IVec S4095 32) (main_arg7 : IVec S4095 32) (main_arg8 : IVec S4095 32) (main_arg9 : IVec S1 32) (main_arg10 : IVec S1 32) (main_arg11 : IVec S1 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200x64 .f32 := Host.absf main_arg1
  let main_cst_0 : FVec F S_ .f32 := constant S_ .f32 0x7F800000#32
  let main_v5 : FVec F S200x64 .f32 := broadcastInDim S200x64 ![] bcast_S_S200x64 main_cst_0
  let main_v6 : IVec S200x64 1 := cmpf .olt main_v4 main_v5
  let main_c_1 : IVec S_ 1 := constantI S_ 1 1#1
  let main_v7 : IVec S_ 1 := (fun x v => Host.reduce IntOp.andi x v reducesTo_S200x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S10000x64 .f32 := Host.absf main_arg3
  let main_cst_4 : FVec F S_ .f32 := constant S_ .f32 0x7F800000#32
  let main_v15 : FVec F S10000x64 .f32 := broadcastInDim S10000x64 ![] bcast_S_S10000x64 main_cst_4
  let main_v16 : IVec S10000x64 1 := cmpf .olt main_v14 main_v15
  fn_part1 (F := F) main_arg4 main_arg5 main_arg6 main_arg7 main_arg8 main_arg9 main_arg10 main_arg11 main_v13 main_v16
-- ==== Kernel.lean ====
abbrev S100000x64 : Shape := ⟨2, ![100000, 64]⟩
abbrev S200x64 : Shape := ⟨2, ![200, 64]⟩
abbrev S10000x64 : Shape := ⟨2, ![10000, 64]⟩
abbrev S2x64 : Shape := ⟨2, ![2, 64]⟩
abbrev S4095 : Shape := ⟨1, ![4095]⟩
abbrev S1 : Shape := ⟨1, ![1]⟩
abbrev S4096 : Shape := ⟨1, ![4096]⟩
abbrev S_ : Shape := ⟨0, ![]⟩
abbrev S12500x8x64 : Shape := ⟨3, ![12500, 8, 64]⟩
abbrev S25x8x64 : Shape := ⟨3, ![25, 8, 64]⟩
abbrev S1250x8x64 : Shape := ⟨3, ![1250, 8, 64]⟩
abbrev S8x64 : Shape := ⟨2, ![8, 64]⟩
abbrev S1x8x64 : Shape := ⟨3, ![1, 8, 64]⟩
abbrev S4096x192 : Shape := ⟨2, ![4096, 192]⟩
abbrev S128 : Shape := ⟨1, ![128]⟩
abbrev S128x64 : Shape := ⟨2, ![128, 64]⟩
abbrev S128x192 : Shape := ⟨2, ![128, 192]⟩
abbrev S16 : Shape := ⟨1, ![16]⟩
abbrev S1x64 : Shape := ⟨2, ![1, 64]⟩
abbrev S64 : Shape := ⟨1, ![64]⟩
abbrev S1x1x64 : Shape := ⟨3, ![1, 1, 64]⟩
abbrev S1x16 : Shape := ⟨2, ![1, 16]⟩

abbrev nBuf : Table → Nat
  | .hbm => 27
  | .local .scVector .vmem => 9
  | _ => 0

abbrev bufTy : (tb : Table) → Fin (nBuf tb) → BufTy
  | .hbm, ⟨0, _⟩ => ⟨S100000x64, .f32⟩
  | .hbm, ⟨1, _⟩ => ⟨S200x64, .f32⟩
  | .hbm, ⟨2, _⟩ => ⟨S100000x64, .f32⟩
  | .hbm, ⟨3, _⟩ => ⟨S10000x64, .f32⟩
  | .hbm, ⟨4, _⟩ => ⟨S2x64, .f32⟩
  | .hbm, ⟨5, _⟩ => ⟨S4095, .i32⟩
  | .hbm, ⟨6, _⟩ => ⟨S4095, .i32⟩
  | .hbm, ⟨7, _⟩ => ⟨S4095, .i32⟩
  | .hbm, ⟨8, _⟩ => ⟨S4095, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S1, .i32⟩
  | .hbm, ⟨16, _⟩ => ⟨S4096, .i32⟩
  | .hbm, ⟨17, _⟩ => ⟨S4096, .i32⟩
  | .hbm, ⟨18, _⟩ => ⟨S12500x8x64, .f32⟩
  | .hbm, ⟨19, _⟩ => ⟨S25x8x64, .f32⟩
  | .hbm, ⟨20, _⟩ => ⟨S12500x8x64, .f32⟩
  | .hbm, ⟨21, _⟩ => ⟨S1250x8x64, .f32⟩
  | .hbm, ⟨22, _⟩ => ⟨S_, .i32⟩
  | .hbm, ⟨23, _⟩ => ⟨S_, .f32⟩
  | .hbm, ⟨24, _⟩ => ⟨S8x64, .f32⟩
  | .hbm, ⟨25, _⟩ => ⟨S1x8x64, .f32⟩
  | .hbm, ⟨26, _⟩ => ⟨S4096x192, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128x64, .f32⟩
  | .local .scVector .vmem, ⟨5, _⟩ => ⟨S128x64, .f32⟩
  | .local .scVector .vmem, ⟨6, _⟩ => ⟨S128x64, .f32⟩
  | .local .scVector .vmem, ⟨7, _⟩ => ⟨S128x64, .f32⟩
  | .local .scVector .vmem, ⟨8, _⟩ => ⟨S128x192, .f32⟩
  | _, _ => ⟨S100000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_call0_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v5_scv : Ref sig .scVector := ⟨.hbm, 18, rfl⟩
abbrev main_v6_scv : Ref sig .scVector := ⟨.hbm, 19, rfl⟩
abbrev main_v7_scv : Ref sig .scVector := ⟨.hbm, 20, rfl⟩
abbrev main_v8_scv : Ref sig .scVector := ⟨.hbm, 21, rfl⟩
abbrev main_v10_scv : Ref sig .scVector := ⟨.hbm, 25, rfl⟩
abbrev main_v0_scv : Ref sig .scVector := ⟨.hbm, 12, rfl⟩
abbrev main_v1_scv : Ref sig .scVector := ⟨.hbm, 13, rfl⟩
abbrev main_v3_scv : Ref sig .scVector := ⟨.hbm, 16, rfl⟩
abbrev main_v4_scv : Ref sig .scVector := ⟨.hbm, 17, rfl⟩
abbrev main_v11_scv : Ref sig .scVector := ⟨.hbm, 26, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k0_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v10 : Index := Scalar.indexCast v9
  ![v10.toNat]
def k0_off3 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c0_i32_19 : BitVec 32 := 0#32
  let v38 : BitVec 32 := Scalar.addi v9 c0_i32_19
  let c0_i32_20 : BitVec 32 := 0#32
  ![v38.toNat, 0]
def k0_off4 (v40 : BitVec 32) (v42 : BitVec 32) : Fin 3 → Nat :=
  let c0_i32_21 : BitVec 32 := 0#32
  ![v40.toNat, v42.toNat, 0]

def k0_chk1 (v40 : BitVec 32) (v42 : BitVec 32) : Prop :=
  (∀ a, (k0_off4 v40 v42) a + S1x1x64.size a ≤ S12500x8x64.size a)
instance k0_chk1.dec : ∀ (v40 : BitVec 32) (v42 : BitVec 32), Decidable (k0_chk1 v40 v42) := fun v40 v42 => decidable_of_iff' _ (Iff.of_eq (k0_chk1.eq_1 v40 v42))
theorem k0_off4_inb : ∀ (v40 : BitVec 32) (v42 : BitVec 32) (k0_hw1 : k0_chk1 v40 v42), ∀ a, (k0_off4 v40 v42) a + S1x1x64.size a ≤ S12500x8x64.size a := fun v40 v42 k0_hw1 => k0_hw1

def k0_off5 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c0_i32_19 : BitVec 32 := 0#32
  let v38 : BitVec 32 := Scalar.addi v9 c0_i32_19
  let c0_i32_22 : BitVec 32 := 0#32
  ![v38.toNat, 0]
def k0_off6 (v52 : BitVec 32) (v54 : BitVec 32) : Fin 3 → Nat :=
  let c0_i32_25 : BitVec 32 := 0#32
  ![v52.toNat, v54.toNat, 0]

def k0_chk2 (v52 : BitVec 32) (v54 : BitVec 32) : Prop :=
  (∀ a, (k0_off6 v52 v54) a + S1x1x64.size a ≤ S25x8x64.size a)
instance k0_chk2.dec : ∀ (v52 : BitVec 32) (v54 : BitVec 32), Decidable (k0_chk2 v52 v54) := fun v52 v54 => decidable_of_iff' _ (Iff.of_eq (k0_chk2.eq_1 v52 v54))
theorem k0_off6_inb : ∀ (v52 : BitVec 32) (v54 : BitVec 32) (k0_hw2 : k0_chk2 v52 v54), ∀ a, (k0_off6 v52 v54) a + S1x1x64.size a ≤ S25x8x64.size a := fun v52 v54 k0_hw2 => k0_hw2

def k0_off7 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c0_i32_19 : BitVec 32 := 0#32
  let v38 : BitVec 32 := Scalar.addi v9 c0_i32_19
  let c0_i32_26 : BitVec 32 := 0#32
  ![v38.toNat, 0]
def k0_off8 (v64 : BitVec 32) (v66 : BitVec 32) : Fin 3 → Nat :=
  let c0_i32_29 : BitVec 32 := 0#32
  ![v64.toNat, v66.toNat, 0]

def k0_chk3 (v64 : BitVec 32) (v66 : BitVec 32) : Prop :=
  (∀ a, (k0_off8 v64 v66) a + S1x1x64.size a ≤ S12500x8x64.size a)
instance k0_chk3.dec : ∀ (v64 : BitVec 32) (v66 : BitVec 32), Decidable (k0_chk3 v64 v66) := fun v64 v66 => decidable_of_iff' _ (Iff.of_eq (k0_chk3.eq_1 v64 v66))
theorem k0_off8_inb : ∀ (v64 : BitVec 32) (v66 : BitVec 32) (k0_hw3 : k0_chk3 v64 v66), ∀ a, (k0_off8 v64 v66) a + S1x1x64.size a ≤ S12500x8x64.size a := fun v64 v66 k0_hw3 => k0_hw3

def k0_off9 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c0_i32_19 : BitVec 32 := 0#32
  let v38 : BitVec 32 := Scalar.addi v9 c0_i32_19
  let c0_i32_30 : BitVec 32 := 0#32
  ![v38.toNat, 0]
def k0_off10 (v76 : BitVec 32) (v78 : BitVec 32) : Fin 3 → Nat :=
  let c0_i32_33 : BitVec 32 := 0#32
  ![v76.toNat, v78.toNat, 0]

def k0_chk4 (v76 : BitVec 32) (v78 : BitVec 32) : Prop :=
  (∀ a, (k0_off10 v76 v78) a + S1x1x64.size a ≤ S1250x8x64.size a)
instance k0_chk4.dec : ∀ (v76 : BitVec 32) (v78 : BitVec 32), Decidable (k0_chk4 v76 v78) := fun v76 v78 => decidable_of_iff' _ (Iff.of_eq (k0_chk4.eq_1 v76 v78))
theorem k0_off10_inb : ∀ (v76 : BitVec 32) (v78 : BitVec 32) (k0_hw4 : k0_chk4 v76 v78), ∀ a, (k0_off10 v76 v78) a + S1x1x64.size a ≤ S1250x8x64.size a := fun v76 v78 k0_hw4 => k0_hw4

def k0_off11 (k0_t1 : Fin k0_t1_loop.trips) (c0_i32_19 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v38 : BitVec 32 := Scalar.addi v9 c0_i32_19
  let c0_i32_34 : BitVec 32 := 0#32
  ![v38.toNat, 0]
def k0_off12 (v89 : BitVec 32) (v91 : BitVec 32) : Fin 3 → Nat :=
  let c0_i32_38 : BitVec 32 := 0#32
  ![v89.toNat, v91.toNat, 0]

def k0_chk5 (v89 : BitVec 32) (v91 : BitVec 32) : Prop :=
  (∀ a, (k0_off12 v89 v91) a + S1x1x64.size a ≤ S12500x8x64.size a)
instance k0_chk5.dec : ∀ (v89 : BitVec 32) (v91 : BitVec 32), Decidable (k0_chk5 v89 v91) := fun v89 v91 => decidable_of_iff' _ (Iff.of_eq (k0_chk5.eq_1 v89 v91))
theorem k0_off12_inb : ∀ (v89 : BitVec 32) (v91 : BitVec 32) (k0_hw5 : k0_chk5 v89 v91), ∀ a, (k0_off12 v89 v91) a + S1x1x64.size a ≤ S12500x8x64.size a := fun v89 v91 k0_hw5 => k0_hw5

def k0_off13 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c1_i32_36 : BitVec 32 := 1#32
  let v87 : BitVec 32 := Scalar.addi v9 c1_i32_36
  let c0_i32_39 : BitVec 32 := 0#32
  ![v87.toNat, 0]
def k0_off14 (v101 : BitVec 32) (v103 : BitVec 32) : Fin 3 → Nat :=
  let c0_i32_42 : BitVec 32 := 0#32
  ![v101.toNat, v103.toNat, 0]

def k0_chk6 (v101 : BitVec 32) (v103 : BitVec 32) : Prop :=
  (∀ a, (k0_off14 v101 v103) a + S1x1x64.size a ≤ S25x8x64.size a)
instance k0_chk6.dec : ∀ (v101 : BitVec 32) (v103 : BitVec 32), Decidable (k0_chk6 v101 v103) := fun v101 v103 => decidable_of_iff' _ (Iff.of_eq (k0_chk6.eq_1 v101 v103))
theorem k0_off14_inb : ∀ (v101 : BitVec 32) (v103 : BitVec 32) (k0_hw6 : k0_chk6 v101 v103), ∀ a, (k0_off14 v101 v103) a + S1x1x64.size a ≤ S25x8x64.size a := fun v101 v103 k0_hw6 => k0_hw6

def k0_off15 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c1_i32_36 : BitVec 32 := 1#32
  let v87 : BitVec 32 := Scalar.addi v9 c1_i32_36
  let c0_i32_43 : BitVec 32 := 0#32
  ![v87.toNat, 0]
def k0_off16 (v113 : BitVec 32) (v115 : BitVec 32) : Fin 3 → Nat :=
  let c0_i32_46 : BitVec 32 := 0#32
  ![v113.toNat, v115.toNat, 0]

def k0_chk7 (v113 : BitVec 32) (v115 : BitVec 32) : Prop :=
  (∀ a, (k0_off16 v113 v115) a + S1x1x64.size a ≤ S12500x8x64.size a)
instance k0_chk7.dec : ∀ (v113 : BitVec 32) (v115 : BitVec 32), Decidable (k0_chk7 v113 v115) := fun v113 v115 => decidable_of_iff' _ (Iff.of_eq (k0_chk7.eq_1 v113 v115))
theorem k0_off16_inb : ∀ (v113 : BitVec 32) (v115 : BitVec 32) (k0_hw7 : k0_chk7 v113 v115), ∀ a, (k0_off16 v113 v115) a + S1x1x64.size a ≤ S12500x8x64.size a := fun v113 v115 k0_hw7 => k0_hw7

def k0_off17 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c1_i32_36 : BitVec 32 := 1#32
  let v87 : BitVec 32 := Scalar.addi v9 c1_i32_36
  let c0_i32_47 : BitVec 32 := 0#32
  ![v87.toNat, 0]
def k0_off18 (v125 : BitVec 32) (v127 : BitVec 32) : Fin 3 → Nat :=
  let c0_i32_50 : BitVec 32 := 0#32
  ![v125.toNat, v127.toNat, 0]

def k0_chk8 (v125 : BitVec 32) (v127 : BitVec 32) : Prop :=
  (∀ a, (k0_off18 v125 v127) a + S1x1x64.size a ≤ S1250x8x64.size a)
instance k0_chk8.dec : ∀ (v125 : BitVec 32) (v127 : BitVec 32), Decidable (k0_chk8 v125 v127) := fun v125 v127 => decidable_of_iff' _ (Iff.of_eq (k0_chk8.eq_1 v125 v127))
theorem k0_off18_inb : ∀ (v125 : BitVec 32) (v127 : BitVec 32) (k0_hw8 : k0_chk8 v125 v127), ∀ a, (k0_off18 v125 v127) a + S1x1x64.size a ≤ S1250x8x64.size a := fun v125 v127 k0_hw8 => k0_hw8

def k0_off19 (k0_t1 : Fin k0_t1_loop.trips) (c1_i32_36 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v87 : BitVec 32 := Scalar.addi v9 c1_i32_36
  let c0_i32_51 : BitVec 32 := 0#32
  ![v87.toNat, 0]
def k0_off20 (v138 : BitVec 32) (v140 : BitVec 32) : Fin 3 → Nat :=
  let c0_i32_55 : BitVec 32 := 0#32
  ![v138.toNat, v140.toNat, 0]

def k0_chk9 (v138 : BitVec 32) (v140 : BitVec 32) : Prop :=
  (∀ a, (k0_off20 v138 v140) a + S1x1x64.size a ≤ S12500x8x64.size a)
instance k0_chk9.dec : ∀ (v138 : BitVec 32) (v140 : BitVec 32), Decidable (k0_chk9 v138 v140) := fun v138 v140 => decidable_of_iff' _ (Iff.of_eq (k0_chk9.eq_1 v138 v140))
theorem k0_off20_inb : ∀ (v138 : BitVec 32) (v140 : BitVec 32) (k0_hw9 : k0_chk9 v138 v140), ∀ a, (k0_off20 v138 v140) a + S1x1x64.size a ≤ S12500x8x64.size a := fun v138 v140 k0_hw9 => k0_hw9

def k0_off21 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c2_i32_53 : BitVec 32 := 2#32
  let v136 : BitVec 32 := Scalar.addi v9 c2_i32_53
  let c0_i32_56 : BitVec 32 := 0#32
  ![v136.toNat, 0]
def k0_off22 (v150 : BitVec 32) (v152 : BitVec 32) : Fin 3 → Nat :=
  let c0_i32_59 : BitVec 32 := 0#32
  ![v150.toNat, v152.toNat, 0]

def k0_chk10 (v150 : BitVec 32) (v152 : BitVec 32) : Prop :=
  (∀ a, (k0_off22 v150 v152) a + S1x1x64.size a ≤ S25x8x64.size a)
instance k0_chk10.dec : ∀ (v150 : BitVec 32) (v152 : BitVec 32), Decidable (k0_chk10 v150 v152) := fun v150 v152 => decidable_of_iff' _ (Iff.of_eq (k0_chk10.eq_1 v150 v152))
theorem k0_off22_inb : ∀ (v150 : BitVec 32) (v152 : BitVec 32) (k0_hw10 : k0_chk10 v150 v152), ∀ a, (k0_off22 v150 v152) a + S1x1x64.size a ≤ S25x8x64.size a := fun v150 v152 k0_hw10 => k0_hw10

def k0_off23 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c2_i32_53 : BitVec 32 := 2#32
  let v136 : BitVec 32 := Scalar.addi v9 c2_i32_53
  let c0_i32_60 : BitVec 32 := 0#32
  ![v136.toNat, 0]
def k0_off24 (v162 : BitVec 32) (v164 : BitVec 32) : Fin 3 → Nat :=
  let c0_i32_63 : BitVec 32 := 0#32
  ![v162.toNat, v164.toNat, 0]

def k0_chk11 (v162 : BitVec 32) (v164 : BitVec 32) : Prop :=
  (∀ a, (k0_off24 v162 v164) a + S1x1x64.size a ≤ S12500x8x64.size a)
instance k0_chk11.dec : ∀ (v162 : BitVec 32) (v164 : BitVec 32), Decidable (k0_chk11 v162 v164) := fun v162 v164 => decidable_of_iff' _ (Iff.of_eq (k0_chk11.eq_1 v162 v164))
theorem k0_off24_inb : ∀ (v162 : BitVec 32) (v164 : BitVec 32) (k0_hw11 : k0_chk11 v162 v164), ∀ a, (k0_off24 v162 v164) a + S1x1x64.size a ≤ S12500x8x64.size a := fun v162 v164 k0_hw11 => k0_hw11

def k0_off25 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c2_i32_53 : BitVec 32 := 2#32
  let v136 : BitVec 32 := Scalar.addi v9 c2_i32_53
  let c0_i32_64 : BitVec 32 := 0#32
  ![v136.toNat, 0]
def k0_off26 (v174 : BitVec 32) (v176 : BitVec 32) : Fin 3 → Nat :=
  let c0_i32_67 : BitVec 32 := 0#32
  ![v174.toNat, v176.toNat, 0]

def k0_chk12 (v174 : BitVec 32) (v176 : BitVec 32) : Prop :=
  (∀ a, (k0_off26 v174 v176) a + S1x1x64.size a ≤ S1250x8x64.size a)
instance k0_chk12.dec : ∀ (v174 : BitVec 32) (v176 : BitVec 32), Decidable (k0_chk12 v174 v176) := fun v174 v176 => decidable_of_iff' _ (Iff.of_eq (k0_chk12.eq_1 v174 v176))
theorem k0_off26_inb : ∀ (v174 : BitVec 32) (v176 : BitVec 32) (k0_hw12 : k0_chk12 v174 v176), ∀ a, (k0_off26 v174 v176) a + S1x1x64.size a ≤ S1250x8x64.size a := fun v174 v176 k0_hw12 => k0_hw12

def k0_off27 (k0_t1 : Fin k0_t1_loop.trips) (c2_i32_53 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v136 : BitVec 32 := Scalar.addi v9 c2_i32_53
  let c0_i32_68 : BitVec 32 := 0#32
  ![v136.toNat, 0]
def k0_off28 (v187 : BitVec 32) (v189 : BitVec 32) : Fin 3 → Nat :=
  let c0_i32_72 : BitVec 32 := 0#32
  ![v187.toNat, v189.toNat, 0]

def k0_chk13 (v187 : BitVec 32) (v189 : BitVec 32) : Prop :=
  (∀ a, (k0_off28 v187 v189) a + S1x1x64.size a ≤ S12500x8x64.size a)
instance k0_chk13.dec : ∀ (v187 : BitVec 32) (v189 : BitVec 32), Decidable (k0_chk13 v187 v189) := fun v187 v189 => decidable_of_iff' _ (Iff.of_eq (k0_chk13.eq_1 v187 v189))
theorem k0_off28_inb : ∀ (v187 : BitVec 32) (v189 : BitVec 32) (k0_hw13 : k0_chk13 v187 v189), ∀ a, (k0_off28 v187 v189) a + S1x1x64.size a ≤ S12500x8x64.size a := fun v187 v189 k0_hw13 => k0_hw13

def k0_off29 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c3_i32_70 : BitVec 32 := 3#32
  let v185 : BitVec 32 := Scalar.addi v9 c3_i32_70
  let c0_i32_73 : BitVec 32 := 0#32
  ![v185.toNat, 0]
def k0_off30 (v199 : BitVec 32) (v201 : BitVec 32) : Fin 3 → Nat :=
  let c0_i32_76 : BitVec 32 := 0#32
  ![v199.toNat, v201.toNat, 0]

def k0_chk14 (v199 : BitVec 32) (v201 : BitVec 32) : Prop :=
  (∀ a, (k0_off30 v199 v201) a + S1x1x64.size a ≤ S25x8x64.size a)
instance k0_chk14.dec : ∀ (v199 : BitVec 32) (v201 : BitVec 32), Decidable (k0_chk14 v199 v201) := fun v199 v201 => decidable_of_iff' _ (Iff.of_eq (k0_chk14.eq_1 v199 v201))
theorem k0_off30_inb : ∀ (v199 : BitVec 32) (v201 : BitVec 32) (k0_hw14 : k0_chk14 v199 v201), ∀ a, (k0_off30 v199 v201) a + S1x1x64.size a ≤ S25x8x64.size a := fun v199 v201 k0_hw14 => k0_hw14

def k0_off31 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c3_i32_70 : BitVec 32 := 3#32
  let v185 : BitVec 32 := Scalar.addi v9 c3_i32_70
  let c0_i32_77 : BitVec 32 := 0#32
  ![v185.toNat, 0]
def k0_off32 (v211 : BitVec 32) (v213 : BitVec 32) : Fin 3 → Nat :=
  let c0_i32_80 : BitVec 32 := 0#32
  ![v211.toNat, v213.toNat, 0]

def k0_chk15 (v211 : BitVec 32) (v213 : BitVec 32) : Prop :=
  (∀ a, (k0_off32 v211 v213) a + S1x1x64.size a ≤ S12500x8x64.size a)
instance k0_chk15.dec : ∀ (v211 : BitVec 32) (v213 : BitVec 32), Decidable (k0_chk15 v211 v213) := fun v211 v213 => decidable_of_iff' _ (Iff.of_eq (k0_chk15.eq_1 v211 v213))
theorem k0_off32_inb : ∀ (v211 : BitVec 32) (v213 : BitVec 32) (k0_hw15 : k0_chk15 v211 v213), ∀ a, (k0_off32 v211 v213) a + S1x1x64.size a ≤ S12500x8x64.size a := fun v211 v213 k0_hw15 => k0_hw15

def k0_off33 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c3_i32_70 : BitVec 32 := 3#32
  let v185 : BitVec 32 := Scalar.addi v9 c3_i32_70
  let c0_i32_81 : BitVec 32 := 0#32
  ![v185.toNat, 0]
def k0_off34 (v223 : BitVec 32) (v225 : BitVec 32) : Fin 3 → Nat :=
  let c0_i32_84 : BitVec 32 := 0#32
  ![v223.toNat, v225.toNat, 0]

def k0_chk16 (v223 : BitVec 32) (v225 : BitVec 32) : Prop :=
  (∀ a, (k0_off34 v223 v225) a + S1x1x64.size a ≤ S1250x8x64.size a)
instance k0_chk16.dec : ∀ (v223 : BitVec 32) (v225 : BitVec 32), Decidable (k0_chk16 v223 v225) := fun v223 v225 => decidable_of_iff' _ (Iff.of_eq (k0_chk16.eq_1 v223 v225))
theorem k0_off34_inb : ∀ (v223 : BitVec 32) (v225 : BitVec 32) (k0_hw16 : k0_chk16 v223 v225), ∀ a, (k0_off34 v223 v225) a + S1x1x64.size a ≤ S1250x8x64.size a := fun v223 v225 k0_hw16 => k0_hw16

def k0_off35 (k0_t1 : Fin k0_t1_loop.trips) (c3_i32_70 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v185 : BitVec 32 := Scalar.addi v9 c3_i32_70
  let c0_i32_85 : BitVec 32 := 0#32
  ![v185.toNat, 0]
def k0_off36 (v236 : BitVec 32) (v238 : BitVec 32) : Fin 3 → Nat :=
  let c0_i32_88 : BitVec 32 := 0#32
  ![v236.toNat, v238.toNat, 0]

def k0_chk17 (v236 : BitVec 32) (v238 : BitVec 32) : Prop :=
  (∀ a, (k0_off36 v236 v238) a + S1x1x64.size a ≤ S12500x8x64.size a)
instance k0_chk17.dec : ∀ (v236 : BitVec 32) (v238 : BitVec 32), Decidable (k0_chk17 v236 v238) := fun v236 v238 => decidable_of_iff' _ (Iff.of_eq (k0_chk17.eq_1 v236 v238))
theorem k0_off36_inb : ∀ (v236 : BitVec 32) (v238 : BitVec 32) (k0_hw17 : k0_chk17 v236 v238), ∀ a, (k0_off36 v236 v238) a + S1x1x64.size a ≤ S12500x8x64.size a := fun v236 v238 k0_hw17 => k0_hw17

def k0_off37 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c4_i32 : BitVec 32 := 4#32
  let v234 : BitVec 32 := Scalar.addi v9 c4_i32
  let c0_i32_89 : BitVec 32 := 0#32
  ![v234.toNat, 0]
def k0_off38 (v248 : BitVec 32) (v250 : BitVec 32) : Fin 3 → Nat :=
  let c0_i32_92 : BitVec 32 := 0#32
  ![v248.toNat, v250.toNat, 0]

def k0_chk18 (v248 : BitVec 32) (v250 : BitVec 32) : Prop :=
  (∀ a, (k0_off38 v248 v250) a + S1x1x64.size a ≤ S25x8x64.size a)
instance k0_chk18.dec : ∀ (v248 : BitVec 32) (v250 : BitVec 32), Decidable (k0_chk18 v248 v250) := fun v248 v250 => decidable_of_iff' _ (Iff.of_eq (k0_chk18.eq_1 v248 v250))
theorem k0_off38_inb : ∀ (v248 : BitVec 32) (v250 : BitVec 32) (k0_hw18 : k0_chk18 v248 v250), ∀ a, (k0_off38 v248 v250) a + S1x1x64.size a ≤ S25x8x64.size a := fun v248 v250 k0_hw18 => k0_hw18

def k0_off39 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c4_i32 : BitVec 32 := 4#32
  let v234 : BitVec 32 := Scalar.addi v9 c4_i32
  let c0_i32_93 : BitVec 32 := 0#32
  ![v234.toNat, 0]
def k0_off40 (v260 : BitVec 32) (v262 : BitVec 32) : Fin 3 → Nat :=
  let c0_i32_96 : BitVec 32 := 0#32
  ![v260.toNat, v262.toNat, 0]

def k0_chk19 (v260 : BitVec 32) (v262 : BitVec 32) : Prop :=
  (∀ a, (k0_off40 v260 v262) a + S1x1x64.size a ≤ S12500x8x64.size a)
instance k0_chk19.dec : ∀ (v260 : BitVec 32) (v262 : BitVec 32), Decidable (k0_chk19 v260 v262) := fun v260 v262 => decidable_of_iff' _ (Iff.of_eq (k0_chk19.eq_1 v260 v262))
theorem k0_off40_inb : ∀ (v260 : BitVec 32) (v262 : BitVec 32) (k0_hw19 : k0_chk19 v260 v262), ∀ a, (k0_off40 v260 v262) a + S1x1x64.size a ≤ S12500x8x64.size a := fun v260 v262 k0_hw19 => k0_hw19

def k0_off41 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c4_i32 : BitVec 32 := 4#32
  let v234 : BitVec 32 := Scalar.addi v9 c4_i32
  let c0_i32_97 : BitVec 32 := 0#32
  ![v234.toNat, 0]
def k0_off42 (v272 : BitVec 32) (v274 : BitVec 32) : Fin 3 → Nat :=
  let c0_i32_100 : BitVec 32 := 0#32
  ![v272.toNat, v274.toNat, 0]

def k0_chk20 (v272 : BitVec 32) (v274 : BitVec 32) : Prop :=
  (∀ a, (k0_off42 v272 v274) a + S1x1x64.size a ≤ S1250x8x64.size a)
instance k0_chk20.dec : ∀ (v272 : BitVec 32) (v274 : BitVec 32), Decidable (k0_chk20 v272 v274) := fun v272 v274 => decidable_of_iff' _ (Iff.of_eq (k0_chk20.eq_1 v272 v274))
theorem k0_off42_inb : ∀ (v272 : BitVec 32) (v274 : BitVec 32) (k0_hw20 : k0_chk20 v272 v274), ∀ a, (k0_off42 v272 v274) a + S1x1x64.size a ≤ S1250x8x64.size a := fun v272 v274 k0_hw20 => k0_hw20

def k0_off43 (k0_t1 : Fin k0_t1_loop.trips) (c4_i32 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v234 : BitVec 32 := Scalar.addi v9 c4_i32
  let c0_i32_101 : BitVec 32 := 0#32
  ![v234.toNat, 0]
def k0_off44 (v285 : BitVec 32) (v287 : BitVec 32) : Fin 3 → Nat :=
  let c0_i32_104 : BitVec 32 := 0#32
  ![v285.toNat, v287.toNat, 0]

def k0_chk21 (v285 : BitVec 32) (v287 : BitVec 32) : Prop :=
  (∀ a, (k0_off44 v285 v287) a + S1x1x64.size a ≤ S12500x8x64.size a)
instance k0_chk21.dec : ∀ (v285 : BitVec 32) (v287 : BitVec 32), Decidable (k0_chk21 v285 v287) := fun v285 v287 => decidable_of_iff' _ (Iff.of_eq (k0_chk21.eq_1 v285 v287))
theorem k0_off44_inb : ∀ (v285 : BitVec 32) (v287 : BitVec 32) (k0_hw21 : k0_chk21 v285 v287), ∀ a, (k0_off44 v285 v287) a + S1x1x64.size a ≤ S12500x8x64.size a := fun v285 v287 k0_hw21 => k0_hw21

def k0_off45 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c5_i32 : BitVec 32 := 5#32
  let v283 : BitVec 32 := Scalar.addi v9 c5_i32
  let c0_i32_105 : BitVec 32 := 0#32
  ![v283.toNat, 0]
def k0_off46 (v297 : BitVec 32) (v299 : BitVec 32) : Fin 3 → Nat :=
  let c0_i32_108 : BitVec 32 := 0#32
  ![v297.toNat, v299.toNat, 0]

def k0_chk22 (v297 : BitVec 32) (v299 : BitVec 32) : Prop :=
  (∀ a, (k0_off46 v297 v299) a + S1x1x64.size a ≤ S25x8x64.size a)
instance k0_chk22.dec : ∀ (v297 : BitVec 32) (v299 : BitVec 32), Decidable (k0_chk22 v297 v299) := fun v297 v299 => decidable_of_iff' _ (Iff.of_eq (k0_chk22.eq_1 v297 v299))
theorem k0_off46_inb : ∀ (v297 : BitVec 32) (v299 : BitVec 32) (k0_hw22 : k0_chk22 v297 v299), ∀ a, (k0_off46 v297 v299) a + S1x1x64.size a ≤ S25x8x64.size a := fun v297 v299 k0_hw22 => k0_hw22

def k0_off47 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c5_i32 : BitVec 32 := 5#32
  let v283 : BitVec 32 := Scalar.addi v9 c5_i32
  let c0_i32_109 : BitVec 32 := 0#32
  ![v283.toNat, 0]
def k0_off48 (v309 : BitVec 32) (v311 : BitVec 32) : Fin 3 → Nat :=
  let c0_i32_112 : BitVec 32 := 0#32
  ![v309.toNat, v311.toNat, 0]

def k0_chk23 (v309 : BitVec 32) (v311 : BitVec 32) : Prop :=
  (∀ a, (k0_off48 v309 v311) a + S1x1x64.size a ≤ S12500x8x64.size a)
instance k0_chk23.dec : ∀ (v309 : BitVec 32) (v311 : BitVec 32), Decidable (k0_chk23 v309 v311) := fun v309 v311 => decidable_of_iff' _ (Iff.of_eq (k0_chk23.eq_1 v309 v311))
theorem k0_off48_inb : ∀ (v309 : BitVec 32) (v311 : BitVec 32) (k0_hw23 : k0_chk23 v309 v311), ∀ a, (k0_off48 v309 v311) a + S1x1x64.size a ≤ S12500x8x64.size a := fun v309 v311 k0_hw23 => k0_hw23

def k0_off49 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c5_i32 : BitVec 32 := 5#32
  let v283 : BitVec 32 := Scalar.addi v9 c5_i32
  let c0_i32_113 : BitVec 32 := 0#32
  ![v283.toNat, 0]
def k0_off50 (v321 : BitVec 32) (v323 : BitVec 32) : Fin 3 → Nat :=
  let c0_i32_116 : BitVec 32 := 0#32
  ![v321.toNat, v323.toNat, 0]

def k0_chk24 (v321 : BitVec 32) (v323 : BitVec 32) : Prop :=
  (∀ a, (k0_off50 v321 v323) a + S1x1x64.size a ≤ S1250x8x64.size a)
instance k0_chk24.dec : ∀ (v321 : BitVec 32) (v323 : BitVec 32), Decidable (k0_chk24 v321 v323) := fun v321 v323 => decidable_of_iff' _ (Iff.of_eq (k0_chk24.eq_1 v321 v323))
theorem k0_off50_inb : ∀ (v321 : BitVec 32) (v323 : BitVec 32) (k0_hw24 : k0_chk24 v321 v323), ∀ a, (k0_off50 v321 v323) a + S1x1x64.size a ≤ S1250x8x64.size a := fun v321 v323 k0_hw24 => k0_hw24

def k0_off51 (k0_t1 : Fin k0_t1_loop.trips) (c5_i32 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v283 : BitVec 32 := Scalar.addi v9 c5_i32
  let c0_i32_117 : BitVec 32 := 0#32
  ![v283.toNat, 0]
def k0_off52 (v334 : BitVec 32) (v336 : BitVec 32) : Fin 3 → Nat :=
  let c0_i32_120 : BitVec 32 := 0#32
  ![v334.toNat, v336.toNat, 0]

def k0_chk25 (v334 : BitVec 32) (v336 : BitVec 32) : Prop :=
  (∀ a, (k0_off52 v334 v336) a + S1x1x64.size a ≤ S12500x8x64.size a)
instance k0_chk25.dec : ∀ (v334 : BitVec 32) (v336 : BitVec 32), Decidable (k0_chk25 v334 v336) := fun v334 v336 => decidable_of_iff' _ (Iff.of_eq (k0_chk25.eq_1 v334 v336))
theorem k0_off52_inb : ∀ (v334 : BitVec 32) (v336 : BitVec 32) (k0_hw25 : k0_chk25 v334 v336), ∀ a, (k0_off52 v334 v336) a + S1x1x64.size a ≤ S12500x8x64.size a := fun v334 v336 k0_hw25 => k0_hw25

def k0_off53 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c6_i32 : BitVec 32 := 6#32
  let v332 : BitVec 32 := Scalar.addi v9 c6_i32
  let c0_i32_121 : BitVec 32 := 0#32
  ![v332.toNat, 0]
def k0_off54 (v346 : BitVec 32) (v348 : BitVec 32) : Fin 3 → Nat :=
  let c0_i32_124 : BitVec 32 := 0#32
  ![v346.toNat, v348.toNat, 0]

def k0_chk26 (v346 : BitVec 32) (v348 : BitVec 32) : Prop :=
  (∀ a, (k0_off54 v346 v348) a + S1x1x64.size a ≤ S25x8x64.size a)
instance k0_chk26.dec : ∀ (v346 : BitVec 32) (v348 : BitVec 32), Decidable (k0_chk26 v346 v348) := fun v346 v348 => decidable_of_iff' _ (Iff.of_eq (k0_chk26.eq_1 v346 v348))
theorem k0_off54_inb : ∀ (v346 : BitVec 32) (v348 : BitVec 32) (k0_hw26 : k0_chk26 v346 v348), ∀ a, (k0_off54 v346 v348) a + S1x1x64.size a ≤ S25x8x64.size a := fun v346 v348 k0_hw26 => k0_hw26

def k0_off55 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c6_i32 : BitVec 32 := 6#32
  let v332 : BitVec 32 := Scalar.addi v9 c6_i32
  let c0_i32_125 : BitVec 32 := 0#32
  ![v332.toNat, 0]
def k0_off56 (v358 : BitVec 32) (v360 : BitVec 32) : Fin 3 → Nat :=
  let c0_i32_128 : BitVec 32 := 0#32
  ![v358.toNat, v360.toNat, 0]

def k0_chk27 (v358 : BitVec 32) (v360 : BitVec 32) : Prop :=
  (∀ a, (k0_off56 v358 v360) a + S1x1x64.size a ≤ S12500x8x64.size a)
instance k0_chk27.dec : ∀ (v358 : BitVec 32) (v360 : BitVec 32), Decidable (k0_chk27 v358 v360) := fun v358 v360 => decidable_of_iff' _ (Iff.of_eq (k0_chk27.eq_1 v358 v360))
theorem k0_off56_inb : ∀ (v358 : BitVec 32) (v360 : BitVec 32) (k0_hw27 : k0_chk27 v358 v360), ∀ a, (k0_off56 v358 v360) a + S1x1x64.size a ≤ S12500x8x64.size a := fun v358 v360 k0_hw27 => k0_hw27

def k0_off57 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c6_i32 : BitVec 32 := 6#32
  let v332 : BitVec 32 := Scalar.addi v9 c6_i32
  let c0_i32_129 : BitVec 32 := 0#32
  ![v332.toNat, 0]
def k0_off58 (v370 : BitVec 32) (v372 : BitVec 32) : Fin 3 → Nat :=
  let c0_i32_132 : BitVec 32 := 0#32
  ![v370.toNat, v372.toNat, 0]

def k0_chk28 (v370 : BitVec 32) (v372 : BitVec 32) : Prop :=
  (∀ a, (k0_off58 v370 v372) a + S1x1x64.size a ≤ S1250x8x64.size a)
instance k0_chk28.dec : ∀ (v370 : BitVec 32) (v372 : BitVec 32), Decidable (k0_chk28 v370 v372) := fun v370 v372 => decidable_of_iff' _ (Iff.of_eq (k0_chk28.eq_1 v370 v372))
theorem k0_off58_inb : ∀ (v370 : BitVec 32) (v372 : BitVec 32) (k0_hw28 : k0_chk28 v370 v372), ∀ a, (k0_off58 v370 v372) a + S1x1x64.size a ≤ S1250x8x64.size a := fun v370 v372 k0_hw28 => k0_hw28

def k0_off59 (k0_t1 : Fin k0_t1_loop.trips) (c6_i32 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v332 : BitVec 32 := Scalar.addi v9 c6_i32
  let c0_i32_133 : BitVec 32 := 0#32
  ![v332.toNat, 0]
def k0_off60 (v383 : BitVec 32) (v385 : BitVec 32) : Fin 3 → Nat :=
  let c0_i32_137 : BitVec 32 := 0#32
  ![v383.toNat, v385.toNat, 0]

def k0_chk29 (v383 : BitVec 32) (v385 : BitVec 32) : Prop :=
  (∀ a, (k0_off60 v383 v385) a + S1x1x64.size a ≤ S12500x8x64.size a)
instance k0_chk29.dec : ∀ (v383 : BitVec 32) (v385 : BitVec 32), Decidable (k0_chk29 v383 v385) := fun v383 v385 => decidable_of_iff' _ (Iff.of_eq (k0_chk29.eq_1 v383 v385))
theorem k0_off60_inb : ∀ (v383 : BitVec 32) (v385 : BitVec 32) (k0_hw29 : k0_chk29 v383 v385), ∀ a, (k0_off60 v383 v385) a + S1x1x64.size a ≤ S12500x8x64.size a := fun v383 v385 k0_hw29 => k0_hw29

def k0_off61 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c7_i32_135 : BitVec 32 := 7#32
  let v381 : BitVec 32 := Scalar.addi v9 c7_i32_135
  let c0_i32_138 : BitVec 32 := 0#32
  ![v381.toNat, 0]
def k0_off62 (v395 : BitVec 32) (v397 : BitVec 32) : Fin 3 → Nat :=
  let c0_i32_141 : BitVec 32 := 0#32
  ![v395.toNat, v397.toNat, 0]

def k0_chk30 (v395 : BitVec 32) (v397 : BitVec 32) : Prop :=
  (∀ a, (k0_off62 v395 v397) a + S1x1x64.size a ≤ S25x8x64.size a)
instance k0_chk30.dec : ∀ (v395 : BitVec 32) (v397 : BitVec 32), Decidable (k0_chk30 v395 v397) := fun v395 v397 => decidable_of_iff' _ (Iff.of_eq (k0_chk30.eq_1 v395 v397))
theorem k0_off62_inb : ∀ (v395 : BitVec 32) (v397 : BitVec 32) (k0_hw30 : k0_chk30 v395 v397), ∀ a, (k0_off62 v395 v397) a + S1x1x64.size a ≤ S25x8x64.size a := fun v395 v397 k0_hw30 => k0_hw30

def k0_off63 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c7_i32_135 : BitVec 32 := 7#32
  let v381 : BitVec 32 := Scalar.addi v9 c7_i32_135
  let c0_i32_142 : BitVec 32 := 0#32
  ![v381.toNat, 0]
def k0_off64 (v407 : BitVec 32) (v409 : BitVec 32) : Fin 3 → Nat :=
  let c0_i32_145 : BitVec 32 := 0#32
  ![v407.toNat, v409.toNat, 0]

def k0_chk31 (v407 : BitVec 32) (v409 : BitVec 32) : Prop :=
  (∀ a, (k0_off64 v407 v409) a + S1x1x64.size a ≤ S12500x8x64.size a)
instance k0_chk31.dec : ∀ (v407 : BitVec 32) (v409 : BitVec 32), Decidable (k0_chk31 v407 v409) := fun v407 v409 => decidable_of_iff' _ (Iff.of_eq (k0_chk31.eq_1 v407 v409))
theorem k0_off64_inb : ∀ (v407 : BitVec 32) (v409 : BitVec 32) (k0_hw31 : k0_chk31 v407 v409), ∀ a, (k0_off64 v407 v409) a + S1x1x64.size a ≤ S12500x8x64.size a := fun v407 v409 k0_hw31 => k0_hw31

def k0_off65 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c7_i32_135 : BitVec 32 := 7#32
  let v381 : BitVec 32 := Scalar.addi v9 c7_i32_135
  let c0_i32_146 : BitVec 32 := 0#32
  ![v381.toNat, 0]
def k0_off66 (v419 : BitVec 32) (v421 : BitVec 32) : Fin 3 → Nat :=
  let c0_i32_149 : BitVec 32 := 0#32
  ![v419.toNat, v421.toNat, 0]

def k0_chk32 (v419 : BitVec 32) (v421 : BitVec 32) : Prop :=
  (∀ a, (k0_off66 v419 v421) a + S1x1x64.size a ≤ S1250x8x64.size a)
instance k0_chk32.dec : ∀ (v419 : BitVec 32) (v421 : BitVec 32), Decidable (k0_chk32 v419 v421) := fun v419 v421 => decidable_of_iff' _ (Iff.of_eq (k0_chk32.eq_1 v419 v421))
theorem k0_off66_inb : ∀ (v419 : BitVec 32) (v421 : BitVec 32) (k0_hw32 : k0_chk32 v419 v421), ∀ a, (k0_off66 v419 v421) a + S1x1x64.size a ≤ S1250x8x64.size a := fun v419 v421 k0_hw32 => k0_hw32

def k0_off67 (k0_t1 : Fin k0_t1_loop.trips) (c7_i32_135 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v381 : BitVec 32 := Scalar.addi v9 c7_i32_135
  let c0_i32_150 : BitVec 32 := 0#32
  ![v381.toNat, 0]
def k0_off68 (v432 : BitVec 32) (v434 : BitVec 32) : Fin 3 → Nat :=
  let c0_i32_154 : BitVec 32 := 0#32
  ![v432.toNat, v434.toNat, 0]

def k0_chk33 (v432 : BitVec 32) (v434 : BitVec 32) : Prop :=
  (∀ a, (k0_off68 v432 v434) a + S1x1x64.size a ≤ S12500x8x64.size a)
instance k0_chk33.dec : ∀ (v432 : BitVec 32) (v434 : BitVec 32), Decidable (k0_chk33 v432 v434) := fun v432 v434 => decidable_of_iff' _ (Iff.of_eq (k0_chk33.eq_1 v432 v434))
theorem k0_off68_inb : ∀ (v432 : BitVec 32) (v434 : BitVec 32) (k0_hw33 : k0_chk33 v432 v434), ∀ a, (k0_off68 v432 v434) a + S1x1x64.size a ≤ S12500x8x64.size a := fun v432 v434 k0_hw33 => k0_hw33

def k0_off69 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c8_i32_152 : BitVec 32 := 8#32
  let v430 : BitVec 32 := Scalar.addi v9 c8_i32_152
  let c0_i32_155 : BitVec 32 := 0#32
  ![v430.toNat, 0]
def k0_off70 (v444 : BitVec 32) (v446 : BitVec 32) : Fin 3 → Nat :=
  let c0_i32_158 : BitVec 32 := 0#32
  ![v444.toNat, v446.toNat, 0]

def k0_chk34 (v444 : BitVec 32) (v446 : BitVec 32) : Prop :=
  (∀ a, (k0_off70 v444 v446) a + S1x1x64.size a ≤ S25x8x64.size a)
instance k0_chk34.dec : ∀ (v444 : BitVec 32) (v446 : BitVec 32), Decidable (k0_chk34 v444 v446) := fun v444 v446 => decidable_of_iff' _ (Iff.of_eq (k0_chk34.eq_1 v444 v446))
theorem k0_off70_inb : ∀ (v444 : BitVec 32) (v446 : BitVec 32) (k0_hw34 : k0_chk34 v444 v446), ∀ a, (k0_off70 v444 v446) a + S1x1x64.size a ≤ S25x8x64.size a := fun v444 v446 k0_hw34 => k0_hw34

def k0_off71 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c8_i32_152 : BitVec 32 := 8#32
  let v430 : BitVec 32 := Scalar.addi v9 c8_i32_152
  let c0_i32_159 : BitVec 32 := 0#32
  ![v430.toNat, 0]
def k0_off72 (v456 : BitVec 32) (v458 : BitVec 32) : Fin 3 → Nat :=
  let c0_i32_162 : BitVec 32 := 0#32
  ![v456.toNat, v458.toNat, 0]

def k0_chk35 (v456 : BitVec 32) (v458 : BitVec 32) : Prop :=
  (∀ a, (k0_off72 v456 v458) a + S1x1x64.size a ≤ S12500x8x64.size a)
instance k0_chk35.dec : ∀ (v456 : BitVec 32) (v458 : BitVec 32), Decidable (k0_chk35 v456 v458) := fun v456 v458 => decidable_of_iff' _ (Iff.of_eq (k0_chk35.eq_1 v456 v458))
theorem k0_off72_inb : ∀ (v456 : BitVec 32) (v458 : BitVec 32) (k0_hw35 : k0_chk35 v456 v458), ∀ a, (k0_off72 v456 v458) a + S1x1x64.size a ≤ S12500x8x64.size a := fun v456 v458 k0_hw35 => k0_hw35

def k0_off73 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c8_i32_152 : BitVec 32 := 8#32
  let v430 : BitVec 32 := Scalar.addi v9 c8_i32_152
  let c0_i32_163 : BitVec 32 := 0#32
  ![v430.toNat, 0]
def k0_off74 (v468 : BitVec 32) (v470 : BitVec 32) : Fin 3 → Nat :=
  let c0_i32_166 : BitVec 32 := 0#32
  ![v468.toNat, v470.toNat, 0]

def k0_chk36 (v468 : BitVec 32) (v470 : BitVec 32) : Prop :=
  (∀ a, (k0_off74 v468 v470) a + S1x1x64.size a ≤ S1250x8x64.size a)
instance k0_chk36.dec : ∀ (v468 : BitVec 32) (v470 : BitVec 32), Decidable (k0_chk36 v468 v470) := fun v468 v470 => decidable_of_iff' _ (Iff.of_eq (k0_chk36.eq_1 v468 v470))
theorem k0_off74_inb : ∀ (v468 : BitVec 32) (v470 : BitVec 32) (k0_hw36 : k0_chk36 v468 v470), ∀ a, (k0_off74 v468 v470) a + S1x1x64.size a ≤ S1250x8x64.size a := fun v468 v470 k0_hw36 => k0_hw36

def k0_off75 (k0_t1 : Fin k0_t1_loop.trips) (c8_i32_152 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v430 : BitVec 32 := Scalar.addi v9 c8_i32_152
  let c0_i32_167 : BitVec 32 := 0#32
  ![v430.toNat, 0]
def k0_off76 (v481 : BitVec 32) (v483 : BitVec 32) : Fin 3 → Nat :=
  let c0_i32_170 : BitVec 32 := 0#32
  ![v481.toNat, v483.toNat, 0]

def k0_chk37 (v481 : BitVec 32) (v483 : BitVec 32) : Prop :=
  (∀ a, (k0_off76 v481 v483) a + S1x1x64.size a ≤ S12500x8x64.size a)
instance k0_chk37.dec : ∀ (v481 : BitVec 32) (v483 : BitVec 32), Decidable (k0_chk37 v481 v483) := fun v481 v483 => decidable_of_iff' _ (Iff.of_eq (k0_chk37.eq_1 v481 v483))
theorem k0_off76_inb : ∀ (v481 : BitVec 32) (v483 : BitVec 32) (k0_hw37 : k0_chk37 v481 v483), ∀ a, (k0_off76 v481 v483) a + S1x1x64.size a ≤ S12500x8x64.size a := fun v481 v483 k0_hw37 => k0_hw37

def k0_off77 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c9_i32 : BitVec 32 := 9#32
  let v479 : BitVec 32 := Scalar.addi v9 c9_i32
  let c0_i32_171 : BitVec 32 := 0#32
  ![v479.toNat, 0]
def k0_off78 (v493 : BitVec 32) (v495 : BitVec 32) : Fin 3 → Nat :=
  let c0_i32_174 : BitVec 32 := 0#32
  ![v493.toNat, v495.toNat, 0]

def k0_chk38 (v493 : BitVec 32) (v495 : BitVec 32) : Prop :=
  (∀ a, (k0_off78 v493 v495) a + S1x1x64.size a ≤ S25x8x64.size a)
instance k0_chk38.dec : ∀ (v493 : BitVec 32) (v495 : BitVec 32), Decidable (k0_chk38 v493 v495) := fun v493 v495 => decidable_of_iff' _ (Iff.of_eq (k0_chk38.eq_1 v493 v495))
theorem k0_off78_inb : ∀ (v493 : BitVec 32) (v495 : BitVec 32) (k0_hw38 : k0_chk38 v493 v495), ∀ a, (k0_off78 v493 v495) a + S1x1x64.size a ≤ S25x8x64.size a := fun v493 v495 k0_hw38 => k0_hw38

def k0_off79 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c9_i32 : BitVec 32 := 9#32
  let v479 : BitVec 32 := Scalar.addi v9 c9_i32
  let c0_i32_175 : BitVec 32 := 0#32
  ![v479.toNat, 0]
def k0_off80 (v505 : BitVec 32) (v507 : BitVec 32) : Fin 3 → Nat :=
  let c0_i32_178 : BitVec 32 := 0#32
  ![v505.toNat, v507.toNat, 0]

def k0_chk39 (v505 : BitVec 32) (v507 : BitVec 32) : Prop :=
  (∀ a, (k0_off80 v505 v507) a + S1x1x64.size a ≤ S12500x8x64.size a)
instance k0_chk39.dec : ∀ (v505 : BitVec 32) (v507 : BitVec 32), Decidable (k0_chk39 v505 v507) := fun v505 v507 => decidable_of_iff' _ (Iff.of_eq (k0_chk39.eq_1 v505 v507))
theorem k0_off80_inb : ∀ (v505 : BitVec 32) (v507 : BitVec 32) (k0_hw39 : k0_chk39 v505 v507), ∀ a, (k0_off80 v505 v507) a + S1x1x64.size a ≤ S12500x8x64.size a := fun v505 v507 k0_hw39 => k0_hw39

def k0_off81 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c9_i32 : BitVec 32 := 9#32
  let v479 : BitVec 32 := Scalar.addi v9 c9_i32
  let c0_i32_179 : BitVec 32 := 0#32
  ![v479.toNat, 0]
def k0_off82 (v517 : BitVec 32) (v519 : BitVec 32) : Fin 3 → Nat :=
  let c0_i32_182 : BitVec 32 := 0#32
  ![v517.toNat, v519.toNat, 0]

def k0_chk40 (v517 : BitVec 32) (v519 : BitVec 32) : Prop :=
  (∀ a, (k0_off82 v517 v519) a + S1x1x64.size a ≤ S1250x8x64.size a)
instance k0_chk40.dec : ∀ (v517 : BitVec 32) (v519 : BitVec 32), Decidable (k0_chk40 v517 v519) := fun v517 v519 => decidable_of_iff' _ (Iff.of_eq (k0_chk40.eq_1 v517 v519))
theorem k0_off82_inb : ∀ (v517 : BitVec 32) (v519 : BitVec 32) (k0_hw40 : k0_chk40 v517 v519), ∀ a, (k0_off82 v517 v519) a + S1x1x64.size a ≤ S1250x8x64.size a := fun v517 v519 k0_hw40 => k0_hw40

def k0_off83 (k0_t1 : Fin k0_t1_loop.trips) (c9_i32 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v479 : BitVec 32 := Scalar.addi v9 c9_i32
  let c0_i32_183 : BitVec 32 := 0#32
  ![v479.toNat, 0]
def k0_off84 (v530 : BitVec 32) (v532 : BitVec 32) : Fin 3 → Nat :=
  let c0_i32_186 : BitVec 32 := 0#32
  ![v530.toNat, v532.toNat, 0]

def k0_chk41 (v530 : BitVec 32) (v532 : BitVec 32) : Prop :=
  (∀ a, (k0_off84 v530 v532) a + S1x1x64.size a ≤ S12500x8x64.size a)
instance k0_chk41.dec : ∀ (v530 : BitVec 32) (v532 : BitVec 32), Decidable (k0_chk41 v530 v532) := fun v530 v532 => decidable_of_iff' _ (Iff.of_eq (k0_chk41.eq_1 v530 v532))
theorem k0_off84_inb : ∀ (v530 : BitVec 32) (v532 : BitVec 32) (k0_hw41 : k0_chk41 v530 v532), ∀ a, (k0_off84 v530 v532) a + S1x1x64.size a ≤ S12500x8x64.size a := fun v530 v532 k0_hw41 => k0_hw41

def k0_off85 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c10_i32 : BitVec 32 := 10#32
  let v528 : BitVec 32 := Scalar.addi v9 c10_i32
  let c0_i32_187 : BitVec 32 := 0#32
  ![v528.toNat, 0]
def k0_off86 (v542 : BitVec 32) (v544 : BitVec 32) : Fin 3 → Nat :=
  let c0_i32_190 : BitVec 32 := 0#32
  ![v542.toNat, v544.toNat, 0]

def k0_chk42 (v542 : BitVec 32) (v544 : BitVec 32) : Prop :=
  (∀ a, (k0_off86 v542 v544) a + S1x1x64.size a ≤ S25x8x64.size a)
instance k0_chk42.dec : ∀ (v542 : BitVec 32) (v544 : BitVec 32), Decidable (k0_chk42 v542 v544) := fun v542 v544 => decidable_of_iff' _ (Iff.of_eq (k0_chk42.eq_1 v542 v544))
theorem k0_off86_inb : ∀ (v542 : BitVec 32) (v544 : BitVec 32) (k0_hw42 : k0_chk42 v542 v544), ∀ a, (k0_off86 v542 v544) a + S1x1x64.size a ≤ S25x8x64.size a := fun v542 v544 k0_hw42 => k0_hw42

def k0_off87 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c10_i32 : BitVec 32 := 10#32
  let v528 : BitVec 32 := Scalar.addi v9 c10_i32
  let c0_i32_191 : BitVec 32 := 0#32
  ![v528.toNat, 0]
def k0_off88 (v554 : BitVec 32) (v556 : BitVec 32) : Fin 3 → Nat :=
  let c0_i32_194 : BitVec 32 := 0#32
  ![v554.toNat, v556.toNat, 0]

def k0_chk43 (v554 : BitVec 32) (v556 : BitVec 32) : Prop :=
  (∀ a, (k0_off88 v554 v556) a + S1x1x64.size a ≤ S12500x8x64.size a)
instance k0_chk43.dec : ∀ (v554 : BitVec 32) (v556 : BitVec 32), Decidable (k0_chk43 v554 v556) := fun v554 v556 => decidable_of_iff' _ (Iff.of_eq (k0_chk43.eq_1 v554 v556))
theorem k0_off88_inb : ∀ (v554 : BitVec 32) (v556 : BitVec 32) (k0_hw43 : k0_chk43 v554 v556), ∀ a, (k0_off88 v554 v556) a + S1x1x64.size a ≤ S12500x8x64.size a := fun v554 v556 k0_hw43 => k0_hw43

def k0_off89 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c10_i32 : BitVec 32 := 10#32
  let v528 : BitVec 32 := Scalar.addi v9 c10_i32
  let c0_i32_195 : BitVec 32 := 0#32
  ![v528.toNat, 0]
def k0_off90 (v566 : BitVec 32) (v568 : BitVec 32) : Fin 3 → Nat :=
  let c0_i32_198 : BitVec 32 := 0#32
  ![v566.toNat, v568.toNat, 0]

def k0_chk44 (v566 : BitVec 32) (v568 : BitVec 32) : Prop :=
  (∀ a, (k0_off90 v566 v568) a + S1x1x64.size a ≤ S1250x8x64.size a)
instance k0_chk44.dec : ∀ (v566 : BitVec 32) (v568 : BitVec 32), Decidable (k0_chk44 v566 v568) := fun v566 v568 => decidable_of_iff' _ (Iff.of_eq (k0_chk44.eq_1 v566 v568))
theorem k0_off90_inb : ∀ (v566 : BitVec 32) (v568 : BitVec 32) (k0_hw44 : k0_chk44 v566 v568), ∀ a, (k0_off90 v566 v568) a + S1x1x64.size a ≤ S1250x8x64.size a := fun v566 v568 k0_hw44 => k0_hw44

def k0_off91 (k0_t1 : Fin k0_t1_loop.trips) (c10_i32 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v528 : BitVec 32 := Scalar.addi v9 c10_i32
  let c0_i32_199 : BitVec 32 := 0#32
  ![v528.toNat, 0]
def k0_off92 (v579 : BitVec 32) (v581 : BitVec 32) : Fin 3 → Nat :=
  let c0_i32_202 : BitVec 32 := 0#32
  ![v579.toNat, v581.toNat, 0]

def k0_chk45 (v579 : BitVec 32) (v581 : BitVec 32) : Prop :=
  (∀ a, (k0_off92 v579 v581) a + S1x1x64.size a ≤ S12500x8x64.size a)
instance k0_chk45.dec : ∀ (v579 : BitVec 32) (v581 : BitVec 32), Decidable (k0_chk45 v579 v581) := fun v579 v581 => decidable_of_iff' _ (Iff.of_eq (k0_chk45.eq_1 v579 v581))
theorem k0_off92_inb : ∀ (v579 : BitVec 32) (v581 : BitVec 32) (k0_hw45 : k0_chk45 v579 v581), ∀ a, (k0_off92 v579 v581) a + S1x1x64.size a ≤ S12500x8x64.size a := fun v579 v581 k0_hw45 => k0_hw45

def k0_off93 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c11_i32 : BitVec 32 := 11#32
  let v577 : BitVec 32 := Scalar.addi v9 c11_i32
  let c0_i32_203 : BitVec 32 := 0#32
  ![v577.toNat, 0]
def k0_off94 (v591 : BitVec 32) (v593 : BitVec 32) : Fin 3 → Nat :=
  let c0_i32_206 : BitVec 32 := 0#32
  ![v591.toNat, v593.toNat, 0]

def k0_chk46 (v591 : BitVec 32) (v593 : BitVec 32) : Prop :=
  (∀ a, (k0_off94 v591 v593) a + S1x1x64.size a ≤ S25x8x64.size a)
instance k0_chk46.dec : ∀ (v591 : BitVec 32) (v593 : BitVec 32), Decidable (k0_chk46 v591 v593) := fun v591 v593 => decidable_of_iff' _ (Iff.of_eq (k0_chk46.eq_1 v591 v593))
theorem k0_off94_inb : ∀ (v591 : BitVec 32) (v593 : BitVec 32) (k0_hw46 : k0_chk46 v591 v593), ∀ a, (k0_off94 v591 v593) a + S1x1x64.size a ≤ S25x8x64.size a := fun v591 v593 k0_hw46 => k0_hw46

def k0_off95 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c11_i32 : BitVec 32 := 11#32
  let v577 : BitVec 32 := Scalar.addi v9 c11_i32
  let c0_i32_207 : BitVec 32 := 0#32
  ![v577.toNat, 0]
def k0_off96 (v603 : BitVec 32) (v605 : BitVec 32) : Fin 3 → Nat :=
  let c0_i32_210 : BitVec 32 := 0#32
  ![v603.toNat, v605.toNat, 0]

def k0_chk47 (v603 : BitVec 32) (v605 : BitVec 32) : Prop :=
  (∀ a, (k0_off96 v603 v605) a + S1x1x64.size a ≤ S12500x8x64.size a)
instance k0_chk47.dec : ∀ (v603 : BitVec 32) (v605 : BitVec 32), Decidable (k0_chk47 v603 v605) := fun v603 v605 => decidable_of_iff' _ (Iff.of_eq (k0_chk47.eq_1 v603 v605))
theorem k0_off96_inb : ∀ (v603 : BitVec 32) (v605 : BitVec 32) (k0_hw47 : k0_chk47 v603 v605), ∀ a, (k0_off96 v603 v605) a + S1x1x64.size a ≤ S12500x8x64.size a := fun v603 v605 k0_hw47 => k0_hw47

def k0_off97 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c11_i32 : BitVec 32 := 11#32
  let v577 : BitVec 32 := Scalar.addi v9 c11_i32
  let c0_i32_211 : BitVec 32 := 0#32
  ![v577.toNat, 0]
def k0_off98 (v615 : BitVec 32) (v617 : BitVec 32) : Fin 3 → Nat :=
  let c0_i32_214 : BitVec 32 := 0#32
  ![v615.toNat, v617.toNat, 0]

def k0_chk48 (v615 : BitVec 32) (v617 : BitVec 32) : Prop :=
  (∀ a, (k0_off98 v615 v617) a + S1x1x64.size a ≤ S1250x8x64.size a)
instance k0_chk48.dec : ∀ (v615 : BitVec 32) (v617 : BitVec 32), Decidable (k0_chk48 v615 v617) := fun v615 v617 => decidable_of_iff' _ (Iff.of_eq (k0_chk48.eq_1 v615 v617))
theorem k0_off98_inb : ∀ (v615 : BitVec 32) (v617 : BitVec 32) (k0_hw48 : k0_chk48 v615 v617), ∀ a, (k0_off98 v615 v617) a + S1x1x64.size a ≤ S1250x8x64.size a := fun v615 v617 k0_hw48 => k0_hw48

def k0_off99 (k0_t1 : Fin k0_t1_loop.trips) (c11_i32 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v577 : BitVec 32 := Scalar.addi v9 c11_i32
  let c0_i32_215 : BitVec 32 := 0#32
  ![v577.toNat, 0]
def k0_off100 (v628 : BitVec 32) (v630 : BitVec 32) : Fin 3 → Nat :=
  let c0_i32_218 : BitVec 32 := 0#32
  ![v628.toNat, v630.toNat, 0]

def k0_chk49 (v628 : BitVec 32) (v630 : BitVec 32) : Prop :=
  (∀ a, (k0_off100 v628 v630) a + S1x1x64.size a ≤ S12500x8x64.size a)
instance k0_chk49.dec : ∀ (v628 : BitVec 32) (v630 : BitVec 32), Decidable (k0_chk49 v628 v630) := fun v628 v630 => decidable_of_iff' _ (Iff.of_eq (k0_chk49.eq_1 v628 v630))
theorem k0_off100_inb : ∀ (v628 : BitVec 32) (v630 : BitVec 32) (k0_hw49 : k0_chk49 v628 v630), ∀ a, (k0_off100 v628 v630) a + S1x1x64.size a ≤ S12500x8x64.size a := fun v628 v630 k0_hw49 => k0_hw49

def k0_off101 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c12_i32 : BitVec 32 := 12#32
  let v626 : BitVec 32 := Scalar.addi v9 c12_i32
  let c0_i32_219 : BitVec 32 := 0#32
  ![v626.toNat, 0]
def k0_off102 (v640 : BitVec 32) (v642 : BitVec 32) : Fin 3 → Nat :=
  let c0_i32_222 : BitVec 32 := 0#32
  ![v640.toNat, v642.toNat, 0]

def k0_chk50 (v640 : BitVec 32) (v642 : BitVec 32) : Prop :=
  (∀ a, (k0_off102 v640 v642) a + S1x1x64.size a ≤ S25x8x64.size a)
instance k0_chk50.dec : ∀ (v640 : BitVec 32) (v642 : BitVec 32), Decidable (k0_chk50 v640 v642) := fun v640 v642 => decidable_of_iff' _ (Iff.of_eq (k0_chk50.eq_1 v640 v642))
theorem k0_off102_inb : ∀ (v640 : BitVec 32) (v642 : BitVec 32) (k0_hw50 : k0_chk50 v640 v642), ∀ a, (k0_off102 v640 v642) a + S1x1x64.size a ≤ S25x8x64.size a := fun v640 v642 k0_hw50 => k0_hw50

def k0_off103 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c12_i32 : BitVec 32 := 12#32
  let v626 : BitVec 32 := Scalar.addi v9 c12_i32
  let c0_i32_223 : BitVec 32 := 0#32
  ![v626.toNat, 0]
def k0_off104 (v652 : BitVec 32) (v654 : BitVec 32) : Fin 3 → Nat :=
  let c0_i32_226 : BitVec 32 := 0#32
  ![v652.toNat, v654.toNat, 0]

def k0_chk51 (v652 : BitVec 32) (v654 : BitVec 32) : Prop :=
  (∀ a, (k0_off104 v652 v654) a + S1x1x64.size a ≤ S12500x8x64.size a)
instance k0_chk51.dec : ∀ (v652 : BitVec 32) (v654 : BitVec 32), Decidable (k0_chk51 v652 v654) := fun v652 v654 => decidable_of_iff' _ (Iff.of_eq (k0_chk51.eq_1 v652 v654))
theorem k0_off104_inb : ∀ (v652 : BitVec 32) (v654 : BitVec 32) (k0_hw51 : k0_chk51 v652 v654), ∀ a, (k0_off104 v652 v654) a + S1x1x64.size a ≤ S12500x8x64.size a := fun v652 v654 k0_hw51 => k0_hw51

def k0_off105 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c12_i32 : BitVec 32 := 12#32
  let v626 : BitVec 32 := Scalar.addi v9 c12_i32
  let c0_i32_227 : BitVec 32 := 0#32
  ![v626.toNat, 0]
def k0_off106 (v664 : BitVec 32) (v666 : BitVec 32) : Fin 3 → Nat :=
  let c0_i32_230 : BitVec 32 := 0#32
  ![v664.toNat, v666.toNat, 0]

def k0_chk52 (v664 : BitVec 32) (v666 : BitVec 32) : Prop :=
  (∀ a, (k0_off106 v664 v666) a + S1x1x64.size a ≤ S1250x8x64.size a)
instance k0_chk52.dec : ∀ (v664 : BitVec 32) (v666 : BitVec 32), Decidable (k0_chk52 v664 v666) := fun v664 v666 => decidable_of_iff' _ (Iff.of_eq (k0_chk52.eq_1 v664 v666))
theorem k0_off106_inb : ∀ (v664 : BitVec 32) (v666 : BitVec 32) (k0_hw52 : k0_chk52 v664 v666), ∀ a, (k0_off106 v664 v666) a + S1x1x64.size a ≤ S1250x8x64.size a := fun v664 v666 k0_hw52 => k0_hw52

def k0_off107 (k0_t1 : Fin k0_t1_loop.trips) (c12_i32 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v626 : BitVec 32 := Scalar.addi v9 c12_i32
  let c0_i32_231 : BitVec 32 := 0#32
  ![v626.toNat, 0]
def k0_off108 (v677 : BitVec 32) (v679 : BitVec 32) : Fin 3 → Nat :=
  let c0_i32_234 : BitVec 32 := 0#32
  ![v677.toNat, v679.toNat, 0]

def k0_chk53 (v677 : BitVec 32) (v679 : BitVec 32) : Prop :=
  (∀ a, (k0_off108 v677 v679) a + S1x1x64.size a ≤ S12500x8x64.size a)
instance k0_chk53.dec : ∀ (v677 : BitVec 32) (v679 : BitVec 32), Decidable (k0_chk53 v677 v679) := fun v677 v679 => decidable_of_iff' _ (Iff.of_eq (k0_chk53.eq_1 v677 v679))
theorem k0_off108_inb : ∀ (v677 : BitVec 32) (v679 : BitVec 32) (k0_hw53 : k0_chk53 v677 v679), ∀ a, (k0_off108 v677 v679) a + S1x1x64.size a ≤ S12500x8x64.size a := fun v677 v679 k0_hw53 => k0_hw53

def k0_off109 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c13_i32 : BitVec 32 := 13#32
  let v675 : BitVec 32 := Scalar.addi v9 c13_i32
  let c0_i32_235 : BitVec 32 := 0#32
  ![v675.toNat, 0]
def k0_off110 (v689 : BitVec 32) (v691 : BitVec 32) : Fin 3 → Nat :=
  let c0_i32_238 : BitVec 32 := 0#32
  ![v689.toNat, v691.toNat, 0]

def k0_chk54 (v689 : BitVec 32) (v691 : BitVec 32) : Prop :=
  (∀ a, (k0_off110 v689 v691) a + S1x1x64.size a ≤ S25x8x64.size a)
instance k0_chk54.dec : ∀ (v689 : BitVec 32) (v691 : BitVec 32), Decidable (k0_chk54 v689 v691) := fun v689 v691 => decidable_of_iff' _ (Iff.of_eq (k0_chk54.eq_1 v689 v691))
theorem k0_off110_inb : ∀ (v689 : BitVec 32) (v691 : BitVec 32) (k0_hw54 : k0_chk54 v689 v691), ∀ a, (k0_off110 v689 v691) a + S1x1x64.size a ≤ S25x8x64.size a := fun v689 v691 k0_hw54 => k0_hw54

def k0_off111 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c13_i32 : BitVec 32 := 13#32
  let v675 : BitVec 32 := Scalar.addi v9 c13_i32
  let c0_i32_239 : BitVec 32 := 0#32
  ![v675.toNat, 0]
def k0_off112 (v701 : BitVec 32) (v703 : BitVec 32) : Fin 3 → Nat :=
  let c0_i32_242 : BitVec 32 := 0#32
  ![v701.toNat, v703.toNat, 0]

def k0_chk55 (v701 : BitVec 32) (v703 : BitVec 32) : Prop :=
  (∀ a, (k0_off112 v701 v703) a + S1x1x64.size a ≤ S12500x8x64.size a)
instance k0_chk55.dec : ∀ (v701 : BitVec 32) (v703 : BitVec 32), Decidable (k0_chk55 v701 v703) := fun v701 v703 => decidable_of_iff' _ (Iff.of_eq (k0_chk55.eq_1 v701 v703))
theorem k0_off112_inb : ∀ (v701 : BitVec 32) (v703 : BitVec 32) (k0_hw55 : k0_chk55 v701 v703), ∀ a, (k0_off112 v701 v703) a + S1x1x64.size a ≤ S12500x8x64.size a := fun v701 v703 k0_hw55 => k0_hw55

def k0_off113 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c13_i32 : BitVec 32 := 13#32
  let v675 : BitVec 32 := Scalar.addi v9 c13_i32
  let c0_i32_243 : BitVec 32 := 0#32
  ![v675.toNat, 0]
def k0_off114 (v713 : BitVec 32) (v715 : BitVec 32) : Fin 3 → Nat :=
  let c0_i32_246 : BitVec 32 := 0#32
  ![v713.toNat, v715.toNat, 0]

def k0_chk56 (v713 : BitVec 32) (v715 : BitVec 32) : Prop :=
  (∀ a, (k0_off114 v713 v715) a + S1x1x64.size a ≤ S1250x8x64.size a)
instance k0_chk56.dec : ∀ (v713 : BitVec 32) (v715 : BitVec 32), Decidable (k0_chk56 v713 v715) := fun v713 v715 => decidable_of_iff' _ (Iff.of_eq (k0_chk56.eq_1 v713 v715))
theorem k0_off114_inb : ∀ (v713 : BitVec 32) (v715 : BitVec 32) (k0_hw56 : k0_chk56 v713 v715), ∀ a, (k0_off114 v713 v715) a + S1x1x64.size a ≤ S1250x8x64.size a := fun v713 v715 k0_hw56 => k0_hw56

def k0_off115 (k0_t1 : Fin k0_t1_loop.trips) (c13_i32 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v675 : BitVec 32 := Scalar.addi v9 c13_i32
  let c0_i32_247 : BitVec 32 := 0#32
  ![v675.toNat, 0]
def k0_off116 (v726 : BitVec 32) (v728 : BitVec 32) : Fin 3 → Nat :=
  let c0_i32_250 : BitVec 32 := 0#32
  ![v726.toNat, v728.toNat, 0]

def k0_chk57 (v726 : BitVec 32) (v728 : BitVec 32) : Prop :=
  (∀ a, (k0_off116 v726 v728) a + S1x1x64.size a ≤ S12500x8x64.size a)
instance k0_chk57.dec : ∀ (v726 : BitVec 32) (v728 : BitVec 32), Decidable (k0_chk57 v726 v728) := fun v726 v728 => decidable_of_iff' _ (Iff.of_eq (k0_chk57.eq_1 v726 v728))
theorem k0_off116_inb : ∀ (v726 : BitVec 32) (v728 : BitVec 32) (k0_hw57 : k0_chk57 v726 v728), ∀ a, (k0_off116 v726 v728) a + S1x1x64.size a ≤ S12500x8x64.size a := fun v726 v728 k0_hw57 => k0_hw57

def k0_off117 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c14_i32 : BitVec 32 := 14#32
  let v724 : BitVec 32 := Scalar.addi v9 c14_i32
  let c0_i32_251 : BitVec 32 := 0#32
  ![v724.toNat, 0]
def k0_off118 (v738 : BitVec 32) (v740 : BitVec 32) : Fin 3 → Nat :=
  let c0_i32_254 : BitVec 32 := 0#32
  ![v738.toNat, v740.toNat, 0]

def k0_chk58 (v738 : BitVec 32) (v740 : BitVec 32) : Prop :=
  (∀ a, (k0_off118 v738 v740) a + S1x1x64.size a ≤ S25x8x64.size a)
instance k0_chk58.dec : ∀ (v738 : BitVec 32) (v740 : BitVec 32), Decidable (k0_chk58 v738 v740) := fun v738 v740 => decidable_of_iff' _ (Iff.of_eq (k0_chk58.eq_1 v738 v740))
theorem k0_off118_inb : ∀ (v738 : BitVec 32) (v740 : BitVec 32) (k0_hw58 : k0_chk58 v738 v740), ∀ a, (k0_off118 v738 v740) a + S1x1x64.size a ≤ S25x8x64.size a := fun v738 v740 k0_hw58 => k0_hw58

def k0_off119 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c14_i32 : BitVec 32 := 14#32
  let v724 : BitVec 32 := Scalar.addi v9 c14_i32
  let c0_i32_255 : BitVec 32 := 0#32
  ![v724.toNat, 0]
def k0_off120 (v750 : BitVec 32) (v752 : BitVec 32) : Fin 3 → Nat :=
  let c0_i32_258 : BitVec 32 := 0#32
  ![v750.toNat, v752.toNat, 0]

def k0_chk59 (v750 : BitVec 32) (v752 : BitVec 32) : Prop :=
  (∀ a, (k0_off120 v750 v752) a + S1x1x64.size a ≤ S12500x8x64.size a)
instance k0_chk59.dec : ∀ (v750 : BitVec 32) (v752 : BitVec 32), Decidable (k0_chk59 v750 v752) := fun v750 v752 => decidable_of_iff' _ (Iff.of_eq (k0_chk59.eq_1 v750 v752))
theorem k0_off120_inb : ∀ (v750 : BitVec 32) (v752 : BitVec 32) (k0_hw59 : k0_chk59 v750 v752), ∀ a, (k0_off120 v750 v752) a + S1x1x64.size a ≤ S12500x8x64.size a := fun v750 v752 k0_hw59 => k0_hw59

def k0_off121 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c14_i32 : BitVec 32 := 14#32
  let v724 : BitVec 32 := Scalar.addi v9 c14_i32
  let c0_i32_259 : BitVec 32 := 0#32
  ![v724.toNat, 0]
def k0_off122 (v762 : BitVec 32) (v764 : BitVec 32) : Fin 3 → Nat :=
  let c0_i32_262 : BitVec 32 := 0#32
  ![v762.toNat, v764.toNat, 0]

def k0_chk60 (v762 : BitVec 32) (v764 : BitVec 32) : Prop :=
  (∀ a, (k0_off122 v762 v764) a + S1x1x64.size a ≤ S1250x8x64.size a)
instance k0_chk60.dec : ∀ (v762 : BitVec 32) (v764 : BitVec 32), Decidable (k0_chk60 v762 v764) := fun v762 v764 => decidable_of_iff' _ (Iff.of_eq (k0_chk60.eq_1 v762 v764))
theorem k0_off122_inb : ∀ (v762 : BitVec 32) (v764 : BitVec 32) (k0_hw60 : k0_chk60 v762 v764), ∀ a, (k0_off122 v762 v764) a + S1x1x64.size a ≤ S1250x8x64.size a := fun v762 v764 k0_hw60 => k0_hw60

def k0_off123 (k0_t1 : Fin k0_t1_loop.trips) (c14_i32 : BitVec 32) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let v724 : BitVec 32 := Scalar.addi v9 c14_i32
  let c0_i32_263 : BitVec 32 := 0#32
  ![v724.toNat, 0]
def k0_off124 (v775 : BitVec 32) (v777 : BitVec 32) : Fin 3 → Nat :=
  let c0_i32_266 : BitVec 32 := 0#32
  ![v775.toNat, v777.toNat, 0]

def k0_chk61 (v775 : BitVec 32) (v777 : BitVec 32) : Prop :=
  (∀ a, (k0_off124 v775 v777) a + S1x1x64.size a ≤ S12500x8x64.size a)
instance k0_chk61.dec : ∀ (v775 : BitVec 32) (v777 : BitVec 32), Decidable (k0_chk61 v775 v777) := fun v775 v777 => decidable_of_iff' _ (Iff.of_eq (k0_chk61.eq_1 v775 v777))
theorem k0_off124_inb : ∀ (v775 : BitVec 32) (v777 : BitVec 32) (k0_hw61 : k0_chk61 v775 v777), ∀ a, (k0_off124 v775 v777) a + S1x1x64.size a ≤ S12500x8x64.size a := fun v775 v777 k0_hw61 => k0_hw61

def k0_off125 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c15_i32 : BitVec 32 := 15#32
  let v773 : BitVec 32 := Scalar.addi v9 c15_i32
  let c0_i32_267 : BitVec 32 := 0#32
  ![v773.toNat, 0]
def k0_off126 (v787 : BitVec 32) (v789 : BitVec 32) : Fin 3 → Nat :=
  let c0_i32_270 : BitVec 32 := 0#32
  ![v787.toNat, v789.toNat, 0]

def k0_chk62 (v787 : BitVec 32) (v789 : BitVec 32) : Prop :=
  (∀ a, (k0_off126 v787 v789) a + S1x1x64.size a ≤ S25x8x64.size a)
instance k0_chk62.dec : ∀ (v787 : BitVec 32) (v789 : BitVec 32), Decidable (k0_chk62 v787 v789) := fun v787 v789 => decidable_of_iff' _ (Iff.of_eq (k0_chk62.eq_1 v787 v789))
theorem k0_off126_inb : ∀ (v787 : BitVec 32) (v789 : BitVec 32) (k0_hw62 : k0_chk62 v787 v789), ∀ a, (k0_off126 v787 v789) a + S1x1x64.size a ≤ S25x8x64.size a := fun v787 v789 k0_hw62 => k0_hw62

def k0_off127 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c15_i32 : BitVec 32 := 15#32
  let v773 : BitVec 32 := Scalar.addi v9 c15_i32
  let c0_i32_271 : BitVec 32 := 0#32
  ![v773.toNat, 0]
def k0_off128 (v799 : BitVec 32) (v801 : BitVec 32) : Fin 3 → Nat :=
  let c0_i32_274 : BitVec 32 := 0#32
  ![v799.toNat, v801.toNat, 0]

def k0_chk63 (v799 : BitVec 32) (v801 : BitVec 32) : Prop :=
  (∀ a, (k0_off128 v799 v801) a + S1x1x64.size a ≤ S12500x8x64.size a)
instance k0_chk63.dec : ∀ (v799 : BitVec 32) (v801 : BitVec 32), Decidable (k0_chk63 v799 v801) := fun v799 v801 => decidable_of_iff' _ (Iff.of_eq (k0_chk63.eq_1 v799 v801))
theorem k0_off128_inb : ∀ (v799 : BitVec 32) (v801 : BitVec 32) (k0_hw63 : k0_chk63 v799 v801), ∀ a, (k0_off128 v799 v801) a + S1x1x64.size a ≤ S12500x8x64.size a := fun v799 v801 k0_hw63 => k0_hw63

def k0_off129 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c15_i32 : BitVec 32 := 15#32
  let v773 : BitVec 32 := Scalar.addi v9 c15_i32
  let c0_i32_275 : BitVec 32 := 0#32
  ![v773.toNat, 0]
def k0_off130 (v811 : BitVec 32) (v813 : BitVec 32) : Fin 3 → Nat :=
  let c0_i32_278 : BitVec 32 := 0#32
  ![v811.toNat, v813.toNat, 0]

def k0_chk64 (v811 : BitVec 32) (v813 : BitVec 32) : Prop :=
  (∀ a, (k0_off130 v811 v813) a + S1x1x64.size a ≤ S1250x8x64.size a)
instance k0_chk64.dec : ∀ (v811 : BitVec 32) (v813 : BitVec 32), Decidable (k0_chk64 v811 v813) := fun v811 v813 => decidable_of_iff' _ (Iff.of_eq (k0_chk64.eq_1 v811 v813))
theorem k0_off130_inb : ∀ (v811 : BitVec 32) (v813 : BitVec 32) (k0_hw64 : k0_chk64 v811 v813), ∀ a, (k0_off130 v811 v813) a + S1x1x64.size a ≤ S1250x8x64.size a := fun v811 v813 k0_hw64 => k0_hw64

def k0_off131 (k0_t1 : Fin k0_t1_loop.trips) : Fin 2 → Nat :=
  let c0_i32_0 : BitVec 32 := 0#32
  let c1_i32 : BitVec 32 := 1#32
  let arg22 : BitVec 32 := Scf.iv c0_i32_0 c1_i32 k0_t1
  let c16_i32 : BitVec 32 := 16#32
  let v9 : BitVec 32 := Scalar.muli arg22 c16_i32
  let c15_i32 : BitVec 32 := 15#32
  let v773 : BitVec 32 := Scalar.addi v9 c15_i32
  let c0_i32_279 : BitVec 32 := 0#32
  ![v773.toNat, 0]
@[reducible] def k0_t2_loop : Scf.Loop 32 :=
  let c0_i32_3 : BitVec 32 := 0#32
  let c128_i32_4 : BitVec 32 := 128#32
  let v4 : BitVec 32 := Scalar.addi c0_i32_3 c128_i32_4
  let c1_i32_5 : BitVec 32 := 1#32
  ⟨c0_i32_3, v4, c1_i32_5⟩
@[reducible] def k0_t3_loop : Scf.Loop 32 :=
  let c0_i32_9 : BitVec 32 := 0#32
  let c128_i32_10 : BitVec 32 := 128#32
  let v8 : BitVec 32 := Scalar.addi c0_i32_9 c128_i32_10
  let c1_i32_11 : BitVec 32 := 1#32
  ⟨c0_i32_9, v8, c1_i32_11⟩
def k0_off132 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v9 : Index := Scalar.indexCast arg22
  let c0 : Index := 0#32
  ![v9.toNat, 0]
def k0_off133 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v16 : Index := Scalar.indexCast arg22
  let c0_14 : Index := 0#32
  ![v16.toNat, 0]
def k0_off134 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v23 : Index := Scalar.indexCast arg22
  let c64 : Index := 64#32
  ![v23.toNat, 64]
def k0_off135 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v31 : Index := Scalar.indexCast arg22
  let c128 : Index := 128#32
  ![v31.toNat, 128]
def k0_off136 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v35 : Index := Scalar.indexCast arg22
  let c16 : Index := 16#32
  ![v35.toNat, 16]
def k0_off137 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v42 : Index := Scalar.indexCast arg22
  let c16_18 : Index := 16#32
  ![v42.toNat, 16]
def k0_off138 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v49 : Index := Scalar.indexCast arg22
  let c80 : Index := 80#32
  ![v49.toNat, 80]
def k0_off139 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v57 : Index := Scalar.indexCast arg22
  let c144 : Index := 144#32
  ![v57.toNat, 144]
def k0_off140 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v61 : Index := Scalar.indexCast arg22
  let c32 : Index := 32#32
  ![v61.toNat, 32]
def k0_off141 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v68 : Index := Scalar.indexCast arg22
  let c32_22 : Index := 32#32
  ![v68.toNat, 32]
def k0_off142 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v75 : Index := Scalar.indexCast arg22
  let c96 : Index := 96#32
  ![v75.toNat, 96]
def k0_off143 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v83 : Index := Scalar.indexCast arg22
  let c160 : Index := 160#32
  ![v83.toNat, 160]
def k0_off144 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v87 : Index := Scalar.indexCast arg22
  let c48 : Index := 48#32
  ![v87.toNat, 48]
def k0_off145 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v94 : Index := Scalar.indexCast arg22
  let c48_26 : Index := 48#32
  ![v94.toNat, 48]
def k0_off146 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v101 : Index := Scalar.indexCast arg22
  let c112 : Index := 112#32
  ![v101.toNat, 112]
def k0_off147 (k0_t3 : Fin k0_t3_loop.trips) : Fin 2 → Nat :=
  let c0_i32_9 : BitVec 32 := 0#32
  let c1_i32_11 : BitVec 32 := 1#32
  let arg22 : BitVec 32 := Scf.iv c0_i32_9 c1_i32_11 k0_t3
  let v109 : Index := Scalar.indexCast arg22
  let c176 : Index := 176#32
  ![v109.toNat, 176]
def k0_off148 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_13_r5 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  concatenates_S4095_S1_S4096_d0 : Shape.Concatenates [S4095, S1] S4096 0
  bcast_S_S1 : S_.BroadcastsInDim S1 (![] : Fin 0 → Fin S1.rank)
  shapeCasts_S100000x64_S12500x8x64 : S100000x64.ShapeCasts S12500x8x64
  shapeCasts_S200x64_S25x8x64 : S200x64.ShapeCasts S25x8x64
  shapeCasts_S10000x64_S1250x8x64 : S10000x64.ShapeCasts S1250x8x64
  pads_S2x64_S8x64_060_000 : S2x64.Pads (![0, 0] : Fin 2 → Nat) ![6, 0] ![0, 0] S8x64
  h_S_ : 0 < S_.numel
  shapeCasts_S8x64_S1x8x64 : S8x64.ShapeCasts S1x8x64
  h_S16 : 0 < S16.numel
  shapeCasts_S16_S16 : S16.ShapeCasts S16
  slices_S16_o0_S1 : S16.Slices ![0] S1
  inpos_S1_p0 : ∀ a, (![0] : Fin 1 → Nat) a < S1.size a
  squeezes_S1x64_S64 : S1x64.Squeezes S64
  squeezes_S1x1x64_S64 : S1x1x64.Squeezes S64
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S128x64_S1x64_0_0 : ∀ a, (![0, 0] : Fin 2 → Nat) a + S1x64.size a ≤ S128x64.size a
  inb_S12500x8x64_S1x1x64_0_0_0 : ∀ a, (![0, 0, 0] : Fin 3 → Nat) a + S1x1x64.size a ≤ S12500x8x64.size a
  inb_S25x8x64_S1x1x64_0_0_0 : ∀ a, (![0, 0, 0] : Fin 3 → Nat) a + S1x1x64.size a ≤ S25x8x64.size a
  inb_S1250x8x64_S1x1x64_0_0_0 : ∀ a, (![0, 0, 0] : Fin 3 → Nat) a + S1x1x64.size a ≤ S1250x8x64.size a
  inb_S128x64_S1x64_127_0 : ∀ a, (![127, 0] : Fin 2 → Nat) a + S1x64.size a ≤ S128x64.size a
  inb_S1x8x64_S1x1x64_0_1_0 : ∀ a, (![0, 1, 0] : Fin 3 → Nat) a + S1x1x64.size a ≤ S1x8x64.size a
  h_S1x16 : 0 < S1x16.numel
  shapeCasts_S1x16_S16 : S1x16.ShapeCasts S16
  shapeCasts_S16_S1x16 : S16.ShapeCasts S1x16
  hcc0_scratch9 : 0 + S_.numel ≤ 7
  hcc0_scoped0 : 1 + S_.numel ≤ 7
  hcc0_scoped1 : 2 + S_.numel ≤ 7
  hcc0_scoped2 : 3 + S_.numel ≤ 7
  hcc0_scoped3 : 4 + S_.numel ≤ 7
  hcc0_scoped4 : 5 + S_.numel ≤ 7
  hcc0_scoped5 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S4096.size a
  k0_t1_ok : k0_t1_loop.OK
  k0_off2_inb : ∀ k0_t1 : Fin k0_t1_loop.trips, ∀ a, (k0_off2 k0_t1) a + S16.size a ≤ S128.size a
  k0_off3_inb : ∀ k0_t1 : Fin k0_t1_loop.trips, ∀ a, (k0_off3 k0_t1) a + S1x64.size a ≤ S128x64.size a
  k0_off5_inb : ∀ k0_t1 : Fin k0_t1_loop.trips, ∀ a, (k0_off5 k0_t1) a + S1x64.size a ≤ S128x64.size a
  k0_off7_inb : ∀ k0_t1 : Fin k0_t1_loop.trips, ∀ a, (k0_off7 k0_t1) a + S1x64.size a ≤ S128x64.size a
  k0_off9_inb : ∀ k0_t1 : Fin k0_t1_loop.trips, ∀ a, (k0_off9 k0_t1) a + S1x64.size a ≤ S128x64.size a
  k0_off11_inb : ∀ k0_t1 : Fin k0_t1_loop.trips, ∀ (r : Fin 2), ∀ a, (k0_off11 k0_t1 (BitVec.ofNat 32 r.val)) a + S1x64.size a ≤ S128x64.size a
  k0_off13_inb : ∀ k0_t1 : Fin k0_t1_loop.trips, ∀ a, (k0_off13 k0_t1) a + S1x64.size a ≤ S128x64.size a
  k0_off15_inb : ∀ k0_t1 : Fin k0_t1_loop.trips, ∀ a, (k0_off15 k0_t1) a + S1x64.size a ≤ S128x64.size a
  k0_off17_inb : ∀ k0_t1 : Fin k0_t1_loop.trips, ∀ a, (k0_off17 k0_t1) a + S1x64.size a ≤ S128x64.size a
  k0_off19_inb : ∀ k0_t1 : Fin k0_t1_loop.trips, ∀ (r : Fin 2), ∀ a, (k0_off19 k0_t1 (BitVec.ofNat 32 (1 + r.val))) a + S1x64.size a ≤ S128x64.size a
  k0_off21_inb : ∀ k0_t1 : Fin k0_t1_loop.trips, ∀ a, (k0_off21 k0_t1) a + S1x64.size a ≤ S128x64.size a
  k0_off23_inb : ∀ k0_t1 : Fin k0_t1_loop.trips, ∀ a, (k0_off23 k0_t1) a + S1x64.size a ≤ S128x64.size a
  k0_off25_inb : ∀ k0_t1 : Fin k0_t1_loop.trips, ∀ a, (k0_off25 k0_t1) a + S1x64.size a ≤ S128x64.size a
  k0_off27_inb : ∀ k0_t1 : Fin k0_t1_loop.trips, ∀ (r : Fin 2), ∀ a, (k0_off27 k0_t1 (BitVec.ofNat 32 (2 + r.val))) a + S1x64.size a ≤ S128x64.size a
  k0_off29_inb : ∀ k0_t1 : Fin k0_t1_loop.trips, ∀ a, (k0_off29 k0_t1) a + S1x64.size a ≤ S128x64.size a
  k0_off31_inb : ∀ k0_t1 : Fin k0_t1_loop.trips, ∀ a, (k0_off31 k0_t1) a + S1x64.size a ≤ S128x64.size a
  k0_off33_inb : ∀ k0_t1 : Fin k0_t1_loop.trips, ∀ a, (k0_off33 k0_t1) a + S1x64.size a ≤ S128x64.size a
  k0_off35_inb : ∀ k0_t1 : Fin k0_t1_loop.trips, ∀ (r : Fin 2), ∀ a, (k0_off35 k0_t1 (BitVec.ofNat 32 (3 + r.val))) a + S1x64.size a ≤ S128x64.size a
  k0_off37_inb : ∀ k0_t1 : Fin k0_t1_loop.trips, ∀ a, (k0_off37 k0_t1) a + S1x64.size a ≤ S128x64.size a
  k0_off39_inb : ∀ k0_t1 : Fin k0_t1_loop.trips, ∀ a, (k0_off39 k0_t1) a + S1x64.size a ≤ S128x64.size a
  k0_off41_inb : ∀ k0_t1 : Fin k0_t1_loop.trips, ∀ a, (k0_off41 k0_t1) a + S1x64.size a ≤ S128x64.size a
  k0_off43_inb : ∀ k0_t1 : Fin k0_t1_loop.trips, ∀ (r : Fin 2), ∀ a, (k0_off43 k0_t1 (BitVec.ofNat 32 (4 + r.val))) a + S1x64.size a ≤ S128x64.size a
  k0_off45_inb : ∀ k0_t1 : Fin k0_t1_loop.trips, ∀ a, (k0_off45 k0_t1) a + S1x64.size a ≤ S128x64.size a
  k0_off47_inb : ∀ k0_t1 : Fin k0_t1_loop.trips, ∀ a, (k0_off47 k0_t1) a + S1x64.size a ≤ S128x64.size a
  k0_off49_inb : ∀ k0_t1 : Fin k0_t1_loop.trips, ∀ a, (k0_off49 k0_t1) a + S1x64.size a ≤ S128x64.size a
  k0_off51_inb : ∀ k0_t1 : Fin k0_t1_loop.trips, ∀ (r : Fin 2), ∀ a, (k0_off51 k0_t1 (BitVec.ofNat 32 (5 + r.val))) a + S1x64.size a ≤ S128x64.size a
  k0_off53_inb : ∀ k0_t1 : Fin k0_t1_loop.trips, ∀ a, (k0_off53 k0_t1) a + S1x64.size a ≤ S128x64.size a
  k0_off55_inb : ∀ k0_t1 : Fin k0_t1_loop.trips, ∀ a, (k0_off55 k0_t1) a + S1x64.size a ≤ S128x64.size a
  k0_off57_inb : ∀ k0_t1 : Fin k0_t1_loop.trips, ∀ a, (k0_off57 k0_t1) a + S1x64.size a ≤ S128x64.size a
  k0_off59_inb : ∀ k0_t1 : Fin k0_t1_loop.trips, ∀ (r : Fin 2), ∀ a, (k0_off59 k0_t1 (BitVec.ofNat 32 (6 + r.val))) a + S1x64.size a ≤ S128x64.size a
  k0_off61_inb : ∀ k0_t1 : Fin k0_t1_loop.trips, ∀ a, (k0_off61 k0_t1) a + S1x64.size a ≤ S128x64.size a
  k0_off63_inb : ∀ k0_t1 : Fin k0_t1_loop.trips, ∀ a, (k0_off63 k0_t1) a + S1x64.size a ≤ S128x64.size a
  k0_off65_inb : ∀ k0_t1 : Fin k0_t1_loop.trips, ∀ a, (k0_off65 k0_t1) a + S1x64.size a ≤ S128x64.size a
  k0_off67_inb : ∀ k0_t1 : Fin k0_t1_loop.trips, ∀ (r : Fin 2), ∀ a, (k0_off67 k0_t1 (BitVec.ofNat 32 (7 + r.val))) a + S1x64.size a ≤ S128x64.size a
  k0_off69_inb : ∀ k0_t1 : Fin k0_t1_loop.trips, ∀ a, (k0_off69 k0_t1) a + S1x64.size a ≤ S128x64.size a
  k0_off71_inb : ∀ k0_t1 : Fin k0_t1_loop.trips, ∀ a, (k0_off71 k0_t1) a + S1x64.size a ≤ S128x64.size a
  k0_off73_inb : ∀ k0_t1 : Fin k0_t1_loop.trips, ∀ a, (k0_off73 k0_t1) a + S1x64.size a ≤ S128x64.size a
  k0_off75_inb : ∀ k0_t1 : Fin k0_t1_loop.trips, ∀ (r : Fin 2), ∀ a, (k0_off75 k0_t1 (BitVec.ofNat 32 (8 + r.val))) a + S1x64.size a ≤ S128x64.size a
  k0_off77_inb : ∀ k0_t1 : Fin k0_t1_loop.trips, ∀ a, (k0_off77 k0_t1) a + S1x64.size a ≤ S128x64.size a
  k0_off79_inb : ∀ k0_t1 : Fin k0_t1_loop.trips, ∀ a, (k0_off79 k0_t1) a + S1x64.size a ≤ S128x64.size a
  k0_off81_inb : ∀ k0_t1 : Fin k0_t1_loop.trips, ∀ a, (k0_off81 k0_t1) a + S1x64.size a ≤ S128x64.size a
  k0_off83_inb : ∀ k0_t1 : Fin k0_t1_loop.trips, ∀ (r : Fin 2), ∀ a, (k0_off83 k0_t1 (BitVec.ofNat 32 (9 + r.val))) a + S1x64.size a ≤ S128x64.size a
  k0_off85_inb : ∀ k0_t1 : Fin k0_t1_loop.trips, ∀ a, (k0_off85 k0_t1) a + S1x64.size a ≤ S128x64.size a
  k0_off87_inb : ∀ k0_t1 : Fin k0_t1_loop.trips, ∀ a, (k0_off87 k0_t1) a + S1x64.size a ≤ S128x64.size a
  k0_off89_inb : ∀ k0_t1 : Fin k0_t1_loop.trips, ∀ a, (k0_off89 k0_t1) a + S1x64.size a ≤ S128x64.size a
  k0_off91_inb : ∀ k0_t1 : Fin k0_t1_loop.trips, ∀ (r : Fin 2), ∀ a, (k0_off91 k0_t1 (BitVec.ofNat 32 (10 + r.val))) a + S1x64.size a ≤ S128x64.size a
  k0_off93_inb : ∀ k0_t1 : Fin k0_t1_loop.trips, ∀ a, (k0_off93 k0_t1) a + S1x64.size a ≤ S128x64.size a
  k0_off95_inb : ∀ k0_t1 : Fin k0_t1_loop.trips, ∀ a, (k0_off95 k0_t1) a + S1x64.size a ≤ S128x64.size a
  k0_off97_inb : ∀ k0_t1 : Fin k0_t1_loop.trips, ∀ a, (k0_off97 k0_t1) a + S1x64.size a ≤ S128x64.size a
  k0_off99_inb : ∀ k0_t1 : Fin k0_t1_loop.trips, ∀ (r : Fin 2), ∀ a, (k0_off99 k0_t1 (BitVec.ofNat 32 (11 + r.val))) a + S1x64.size a ≤ S128x64.size a
  k0_off101_inb : ∀ k0_t1 : Fin k0_t1_loop.trips, ∀ a, (k0_off101 k0_t1) a + S1x64.size a ≤ S128x64.size a
  k0_off103_inb : ∀ k0_t1 : Fin k0_t1_loop.trips, ∀ a, (k0_off103 k0_t1) a + S1x64.size a ≤ S128x64.size a
  k0_off105_inb : ∀ k0_t1 : Fin k0_t1_loop.trips, ∀ a, (k0_off105 k0_t1) a + S1x64.size a ≤ S128x64.size a
  k0_off107_inb : ∀ k0_t1 : Fin k0_t1_loop.trips, ∀ (r : Fin 2), ∀ a, (k0_off107 k0_t1 (BitVec.ofNat 32 (12 + r.val))) a + S1x64.size a ≤ S128x64.size a
  k0_off109_inb : ∀ k0_t1 : Fin k0_t1_loop.trips, ∀ a, (k0_off109 k0_t1) a + S1x64.size a ≤ S128x64.size a
  k0_off111_inb : ∀ k0_t1 : Fin k0_t1_loop.trips, ∀ a, (k0_off111 k0_t1) a + S1x64.size a ≤ S128x64.size a
  k0_off113_inb : ∀ k0_t1 : Fin k0_t1_loop.trips, ∀ a, (k0_off113 k0_t1) a + S1x64.size a ≤ S128x64.size a
  k0_off115_inb : ∀ k0_t1 : Fin k0_t1_loop.trips, ∀ (r : Fin 2), ∀ a, (k0_off115 k0_t1 (BitVec.ofNat 32 (13 + r.val))) a + S1x64.size a ≤ S128x64.size a
  k0_off117_inb : ∀ k0_t1 : Fin k0_t1_loop.trips, ∀ a, (k0_off117 k0_t1) a + S1x64.size a ≤ S128x64.size a
  k0_off119_inb : ∀ k0_t1 : Fin k0_t1_loop.trips, ∀ a, (k0_off119 k0_t1) a + S1x64.size a ≤ S128x64.size a
  k0_off121_inb : ∀ k0_t1 : Fin k0_t1_loop.trips, ∀ a, (k0_off121 k0_t1) a + S1x64.size a ≤ S128x64.size a
  k0_off123_inb : ∀ k0_t1 : Fin k0_t1_loop.trips, ∀ (r : Fin 2), ∀ a, (k0_off123 k0_t1 (BitVec.ofNat 32 (14 + r.val))) a + S1x64.size a ≤ S128x64.size a
  k0_off125_inb : ∀ k0_t1 : Fin k0_t1_loop.trips, ∀ a, (k0_off125 k0_t1) a + S1x64.size a ≤ S128x64.size a
  k0_off127_inb : ∀ k0_t1 : Fin k0_t1_loop.trips, ∀ a, (k0_off127 k0_t1) a + S1x64.size a ≤ S128x64.size a
  k0_off129_inb : ∀ k0_t1 : Fin k0_t1_loop.trips, ∀ a, (k0_off129 k0_t1) a + S1x64.size a ≤ S128x64.size a
  k0_off131_inb : ∀ k0_t1 : Fin k0_t1_loop.trips, ∀ a, (k0_off131 k0_t1) a + S1x64.size a ≤ S128x64.size a
  k0_t2_ok : k0_t2_loop.OK
  k0_t3_ok : k0_t3_loop.OK
  k0_off132_inb : ∀ k0_t3 : Fin k0_t3_loop.trips, ∀ a, (k0_off132 k0_t3) a + S1x16.size a ≤ S128x64.size a
  k0_off133_inb : ∀ k0_t3 : Fin k0_t3_loop.trips, ∀ a, (k0_off133 k0_t3) a + S1x16.size a ≤ S128x192.size a
  k0_off134_inb : ∀ k0_t3 : Fin k0_t3_loop.trips, ∀ a, (k0_off134 k0_t3) a + S1x16.size a ≤ S128x192.size a
  k0_off135_inb : ∀ k0_t3 : Fin k0_t3_loop.trips, ∀ a, (k0_off135 k0_t3) a + S1x16.size a ≤ S128x192.size a
  k0_off136_inb : ∀ k0_t3 : Fin k0_t3_loop.trips, ∀ a, (k0_off136 k0_t3) a + S1x16.size a ≤ S128x64.size a
  k0_off137_inb : ∀ k0_t3 : Fin k0_t3_loop.trips, ∀ a, (k0_off137 k0_t3) a + S1x16.size a ≤ S128x192.size a
  k0_off138_inb : ∀ k0_t3 : Fin k0_t3_loop.trips, ∀ a, (k0_off138 k0_t3) a + S1x16.size a ≤ S128x192.size a
  k0_off139_inb : ∀ k0_t3 : Fin k0_t3_loop.trips, ∀ a, (k0_off139 k0_t3) a + S1x16.size a ≤ S128x192.size a
  k0_off140_inb : ∀ k0_t3 : Fin k0_t3_loop.trips, ∀ a, (k0_off140 k0_t3) a + S1x16.size a ≤ S128x64.size a
  k0_off141_inb : ∀ k0_t3 : Fin k0_t3_loop.trips, ∀ a, (k0_off141 k0_t3) a + S1x16.size a ≤ S128x192.size a
  k0_off142_inb : ∀ k0_t3 : Fin k0_t3_loop.trips, ∀ a, (k0_off142 k0_t3) a + S1x16.size a ≤ S128x192.size a
  k0_off143_inb : ∀ k0_t3 : Fin k0_t3_loop.trips, ∀ a, (k0_off143 k0_t3) a + S1x16.size a ≤ S128x192.size a
  k0_off144_inb : ∀ k0_t3 : Fin k0_t3_loop.trips, ∀ a, (k0_off144 k0_t3) a + S1x16.size a ≤ S128x64.size a
  k0_off145_inb : ∀ k0_t3 : Fin k0_t3_loop.trips, ∀ a, (k0_off145 k0_t3) a + S1x16.size a ≤ S128x192.size a
  k0_off146_inb : ∀ k0_t3 : Fin k0_t3_loop.trips, ∀ a, (k0_off146 k0_t3) a + S1x16.size a ≤ S128x192.size a
  k0_off147_inb : ∀ k0_t3 : Fin k0_t3_loop.trips, ∀ a, (k0_off147 k0_t3) a + S1x16.size a ≤ S128x192.size a
  k0_off148_inb : ∀ i : grid0.Coords, ∀ a, (k0_off148 i) a + S128x192.size a ≤ S4096x192.size a

variable [Facts₀]

abbrev cc0_scratch9 : DmaSems sig S_ := SemArray.consecutive 0 S_ hcc0_scratch9
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc0_scoped4 : DmaSems sig S_ := SemArray.consecutive 5 S_ hcc0_scoped4
abbrev cc0_scoped5 : DmaSems sig S_ := SemArray.consecutive 6 S_ hcc0_scoped5

class Facts : Prop extends Facts₀ where

variable [Facts]
-- ==== ReferenceIdeal.lean ====
abbrev S100000x64 : Shape := ⟨2, ![100000, 64]⟩
abbrev S200x64 : Shape := ⟨2, ![200, 64]⟩
abbrev S10000x64 : Shape := ⟨2, ![10000, 64]⟩
abbrev S2x64 : Shape := ⟨2, ![2, 64]⟩
abbrev S4095 : Shape := ⟨1, ![4095]⟩
abbrev S1 : Shape := ⟨1, ![1]⟩
abbrev S_ : Shape := ⟨0, ![]⟩
abbrev S4095x1 : Shape := ⟨2, ![4095, 1]⟩
abbrev S1x1 : Shape := ⟨2, ![1, 1]⟩
abbrev S4095x64 : Shape := ⟨2, ![4095, 64]⟩
abbrev S4095x192 : Shape := ⟨2, ![4095, 192]⟩
abbrev S4096x192 : Shape := ⟨2, ![4096, 192]⟩
abbrev S1x64 : Shape := ⟨2, ![1, 64]⟩
abbrev S64 : Shape := ⟨1, ![64]⟩
abbrev S1x192 : Shape := ⟨2, ![1, 192]⟩
abbrev S192 : Shape := ⟨1, ![192]⟩

abbrev nBuf : Space → Nat
  | .hbm => 233
  | .vmem => 0
  | .smem => 0
  | _ => 0

abbrev hbmTy0_0 (i : Nat) : BufTy := match i % 128 with
  | 0 => ⟨S100000x64, .f32⟩
  | 1 => ⟨S200x64, .f32⟩
  | 2 => ⟨S100000x64, .f32⟩
  | 3 => ⟨S10000x64, .f32⟩
  | 4 => ⟨S2x64, .f32⟩
  | 5 => ⟨S4095, .i32⟩
  | 6 => ⟨S4095, .i32⟩
  | 7 => ⟨S4095, .i32⟩
  | 8 => ⟨S4095, .i32⟩
  | 9 => ⟨S1, .i32⟩
  | 10 => ⟨S1, .i32⟩
  | 11 => ⟨S1, .i32⟩
  | 12 => ⟨S_, .i32⟩
  | 13 => ⟨S4095, .i32⟩
  | 14 => ⟨S4095, .i1⟩
  | 15 => ⟨S_, .i32⟩
  | 16 => ⟨S4095, .i32⟩
  | 17 => ⟨S4095, .i32⟩
  | 18 => ⟨S4095, .i32⟩
  | 19 => ⟨S4095x1, .i32⟩
  | 20 => ⟨S1, .i32⟩
  | 21 => ⟨S_, .i32⟩
  | 22 => ⟨S4095x1, .i32⟩
  | 23 => ⟨S4095x1, .i1⟩
  | 24 => ⟨S1x1, .i32⟩
  | 25 => ⟨S4095x1, .i32⟩
  | 26 => ⟨S4095x1, .i1⟩
  | 27 => ⟨S4095x1, .i1⟩
  | 28 => ⟨S_, .i1⟩
  | 29 => ⟨S4095, .i1⟩
  | 30 => ⟨S4095x64, .f32⟩
  | 31 => ⟨S4095x64, .i1⟩
  | 32 => ⟨S_, .f32⟩
  | 33 => ⟨S4095x64, .f32⟩
  | 34 => ⟨S4095x64, .f32⟩
  | 35 => ⟨S_, .i32⟩
  | 36 => ⟨S4095, .i32⟩
  | 37 => ⟨S4095, .i1⟩
  | 38 => ⟨S_, .i32⟩
  | 39 => ⟨S4095, .i32⟩
  | 40 => ⟨S4095, .i32⟩
  | 41 => ⟨S4095, .i32⟩
  | 42 => ⟨S4095x1, .i32⟩
  | 43 => ⟨S1, .i32⟩
  | 44 => ⟨S_, .i32⟩
  | 45 => ⟨S4095x1, .i32⟩
  | 46 => ⟨S4095x1, .i1⟩
  | 47 => ⟨S1x1, .i32⟩
  | 48 => ⟨S4095x1, .i32⟩
  | 49 => ⟨S4095x1, .i1⟩
  | 50 => ⟨S4095x1, .i1⟩
  | 51 => ⟨S_, .i1⟩
  | 52 => ⟨S4095, .i1⟩
  | 53 => ⟨S4095x64, .f32⟩
  | 54 => ⟨S4095x64, .i1⟩
  | 55 => ⟨S_, .f32⟩
  | 56 => ⟨S4095x64, .f32⟩
  | 57 => ⟨S4095x64, .f32⟩
  | 58 => ⟨S4095x64, .f32⟩
  | 59 => ⟨S_, .i32⟩
  | 60 => ⟨S4095, .i32⟩
  | 61 => ⟨S4095, .i1⟩
  | 62 => ⟨S_, .i32⟩
  | 63 => ⟨S4095, .i32⟩
  | 64 => ⟨S4095, .i32⟩
  | 65 => ⟨S4095, .i32⟩
  | 66 => ⟨S4095x1, .i32⟩
  | 67 => ⟨S1, .i32⟩
  | 68 => ⟨S_, .i32⟩
  | 69 => ⟨S4095x1, .i32⟩
  | 70 => ⟨S4095x1, .i1⟩
  | 71 => ⟨S1x1, .i32⟩
  | 72 => ⟨S4095x1, .i32⟩
  | 73 => ⟨S4095x1, .i1⟩
  | 74 => ⟨S4095x1, .i1⟩
  | 75 => ⟨S_, .i1⟩
  | 76 => ⟨S4095, .i1⟩
  | 77 => ⟨S4095x64, .f32⟩
  | 78 => ⟨S4095x64, .i1⟩
  | 79 => ⟨S_, .f32⟩
  | 80 => ⟨S4095x64, .f32⟩
  | 81 => ⟨S4095x64, .f32⟩
  | 82 => ⟨S_, .i32⟩
  | 83 => ⟨S4095, .i32⟩
  | 84 => ⟨S4095, .i1⟩
  | 85 => ⟨S_, .i32⟩
  | 86 => ⟨S4095, .i32⟩
  | 87 => ⟨S4095, .i32⟩
  | 88 => ⟨S4095, .i32⟩
  | 89 => ⟨S4095x1, .i32⟩
  | 90 => ⟨S1, .i32⟩
  | 91 => ⟨S_, .i32⟩
  | 92 => ⟨S4095x1, .i32⟩
  | 93 => ⟨S4095x1, .i1⟩
  | 94 => ⟨S1x1, .i32⟩
  | 95 => ⟨S4095x1, .i32⟩
  | 96 => ⟨S4095x1, .i1⟩
  | 97 => ⟨S4095x1, .i1⟩
  | 98 => ⟨S_, .i1⟩
  | 99 => ⟨S4095, .i1⟩
  | 100 => ⟨S4095x64, .f32⟩
  | 101 => ⟨S4095x64, .i1⟩
  | 102 => ⟨S_, .f32⟩
  | 103 => ⟨S4095x64, .f32⟩
  | 104 => ⟨S4095x64, .f32⟩
  | 105 => ⟨S_, .i32⟩
  | 106 => ⟨S4095, .i32⟩
  | 107 => ⟨S4095, .i1⟩
  | 108 => ⟨S_, .i32⟩
  | 109 => ⟨S4095, .i32⟩
  | 110 => ⟨S4095, .i32⟩
  | 111 => ⟨S4095, .i32⟩
  | 112 => ⟨S4095x1, .i32⟩
  | 113 => ⟨S1, .i32⟩
  | 114 => ⟨S_, .i32⟩
  | 115 => ⟨S4095x1, .i32⟩
  | 116 => ⟨S4095x1, .i1⟩
  | 117 => ⟨S1x1, .i32⟩
  | 118 => ⟨S4095x1, .i32⟩
  | 119 => ⟨S4095x1, .i1⟩
  | 120 => ⟨S4095x1, .i1⟩
  | 121 => ⟨S_, .i1⟩
  | 122 => ⟨S4095, .i1⟩
  | 123 => ⟨S4095x64, .f32⟩
  | 124 => ⟨S4095x64, .i1⟩
  | 125 => ⟨S_, .f32⟩
  | 126 => ⟨S4095x64, .f32⟩
  | 127 => ⟨S4095x64, .f32⟩
  | _ => ⟨S100000x64, .f32⟩

abbrev hbmTy0_1 (i : Nat) : BufTy := match i % 128 with
  | 0 => ⟨S4095x64, .f32⟩
  | 1 => ⟨S4095x192, .f32⟩
  | 2 => ⟨S_, .f32⟩
  | 3 => ⟨S4096x192, .f32⟩
  | 4 => ⟨S_, .i32⟩
  | 5 => ⟨S1, .i32⟩
  | 6 => ⟨S4096x192, .f32⟩
  | 7 => ⟨S_, .i32⟩
  | 8 => ⟨S1, .i32⟩
  | 9 => ⟨S1, .i1⟩
  | 10 => ⟨S_, .i32⟩
  | 11 => ⟨S1, .i32⟩
  | 12 => ⟨S1, .i32⟩
  | 13 => ⟨S1, .i32⟩
  | 14 => ⟨S1x1, .i32⟩
  | 15 => ⟨S1, .i32⟩
  | 16 => ⟨S_, .i32⟩
  | 17 => ⟨S1x1, .i32⟩
  | 18 => ⟨S1x1, .i1⟩
  | 19 => ⟨S1x1, .i32⟩
  | 20 => ⟨S1x1, .i1⟩
  | 21 => ⟨S1x1, .i1⟩
  | 22 => ⟨S_, .i1⟩
  | 23 => ⟨S1, .i1⟩
  | 24 => ⟨S1x64, .f32⟩
  | 25 => ⟨S1x64, .i1⟩
  | 26 => ⟨S_, .f32⟩
  | 27 => ⟨S1x64, .f32⟩
  | 28 => ⟨S1x64, .f32⟩
  | 29 => ⟨S_, .i32⟩
  | 30 => ⟨S1, .i32⟩
  | 31 => ⟨S1, .i1⟩
  | 32 => ⟨S_, .i32⟩
  | 33 => ⟨S1, .i32⟩
  | 34 => ⟨S1, .i32⟩
  | 35 => ⟨S1, .i32⟩
  | 36 => ⟨S1x1, .i32⟩
  | 37 => ⟨S1, .i32⟩
  | 38 => ⟨S_, .i32⟩
  | 39 => ⟨S1x1, .i32⟩
  | 40 => ⟨S1x1, .i1⟩
  | 41 => ⟨S1x1, .i32⟩
  | 42 => ⟨S1x1, .i1⟩
  | 43 => ⟨S1x1, .i1⟩
  | 44 => ⟨S_, .i1⟩
  | 45 => ⟨S1, .i1⟩
  | 46 => ⟨S1x64, .f32⟩
  | 47 => ⟨S1x64, .i1⟩
  | 48 => ⟨S_, .f32⟩
  | 49 => ⟨S1x64, .f32⟩
  | 50 => ⟨S1x64, .f32⟩
  | 51 => ⟨S1x64, .f32⟩
  | 52 => ⟨S_, .i32⟩
  | 53 => ⟨S1, .i32⟩
  | 54 => ⟨S1, .i1⟩
  | 55 => ⟨S_, .i32⟩
  | 56 => ⟨S1, .i32⟩
  | 57 => ⟨S1, .i32⟩
  | 58 => ⟨S1, .i32⟩
  | 59 => ⟨S1x1, .i32⟩
  | 60 => ⟨S1, .i32⟩
  | 61 => ⟨S_, .i32⟩
  | 62 => ⟨S1x1, .i32⟩
  | 63 => ⟨S1x1, .i1⟩
  | 64 => ⟨S1x1, .i32⟩
  | 65 => ⟨S1x1, .i1⟩
  | 66 => ⟨S1x1, .i1⟩
  | 67 => ⟨S_, .i1⟩
  | 68 => ⟨S1, .i1⟩
  | 69 => ⟨S1x64, .f32⟩
  | 70 => ⟨S1x64, .i1⟩
  | 71 => ⟨S_, .f32⟩
  | 72 => ⟨S1x64, .f32⟩
  | 73 => ⟨S1x64, .f32⟩
  | 74 => ⟨S_, .i32⟩
  | 75 => ⟨S1, .i32⟩
  | 76 => ⟨S1, .i1⟩
  | 77 => ⟨S_, .i32⟩
  | 78 => ⟨S1, .i32⟩
  | 79 => ⟨S1, .i32⟩
  | 80 => ⟨S1, .i32⟩
  | 81 => ⟨S1x1, .i32⟩
  | 82 => ⟨S1, .i32⟩
  | 83 => ⟨S_, .i32⟩
  | 84 => ⟨S1x1, .i32⟩
  | 85 => ⟨S1x1, .i1⟩
  | 86 => ⟨S1x1, .i32⟩
  | 87 => ⟨S1x1, .i1⟩
  | 88 => ⟨S1x1, .i1⟩
  | 89 => ⟨S_, .i1⟩
  | 90 => ⟨S1, .i1⟩
  | 91 => ⟨S1x64, .f32⟩
  | 92 => ⟨S1x64, .i1⟩
  | 93 => ⟨S_, .f32⟩
  | 94 => ⟨S1x64, .f32⟩
  | 95 => ⟨S1x64, .f32⟩
  | 96 => ⟨S1x64, .f32⟩
  | 97 => ⟨S64, .f32⟩
  | 98 => ⟨S1x64, .f32⟩
  | 99 => ⟨S1x64, .f32⟩
  | 100 => ⟨S1x192, .f32⟩
  | 101 => ⟨S192, .f32⟩
  | 102 => ⟨S_, .i32⟩
  | 103 => ⟨S1, .i32⟩
  | 104 => ⟨S4096x192, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_v2 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v3 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v4 : Ref sig .tc := ⟨.hbm, 104, rfl⟩
abbrev main_call4_c : Ref sig .tc := ⟨.hbm, 105, rfl⟩
abbrev main_call4_v0 : Ref sig .tc := ⟨.hbm, 106, rfl⟩
abbrev main_call4_v1 : Ref sig .tc := ⟨.hbm, 107, rfl⟩
abbrev main_call4_c_0 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_v5 : Ref sig .tc := ⟨.hbm, 112, rfl⟩
abbrev main_call4_c_1 : Ref sig .tc := ⟨.hbm, 113, rfl⟩
abbrev main_call4_c_2 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_c_3 : Ref sig .tc := ⟨.hbm, 121, rfl⟩
abbrev main_call4_v12 : Ref sig .tc := ⟨.hbm, 122, rfl⟩
abbrev main_call4_v13 : Ref sig .tc := ⟨.hbm, 123, rfl⟩
abbrev main_call4_v14 : Ref sig .tc := ⟨.hbm, 124, rfl⟩
abbrev main_call4_cst : Ref sig .tc := ⟨.hbm, 125, rfl⟩
abbrev main_call4_v15 : Ref sig .tc := ⟨.hbm, 126, rfl⟩
abbrev main_v5 : Ref sig .tc := ⟨.hbm, 127, rfl⟩
abbrev main_v6 : Ref sig .tc := ⟨.hbm, 128, rfl⟩
abbrev main_v7 : Ref sig .tc := ⟨.hbm, 129, rfl⟩
abbrev main_cst : Ref sig .tc := ⟨.hbm, 130, rfl⟩
abbrev main_v8 : Ref sig .tc := ⟨.hbm, 131, rfl⟩
abbrev main_c : Ref sig .tc := ⟨.hbm, 132, rfl⟩
abbrev main_v9 : Ref sig .tc := ⟨.hbm, 133, rfl⟩
abbrev main_v10 : Ref sig .tc := ⟨.hbm, 134, rfl⟩
abbrev main_call5_c : Ref sig .tc := ⟨.hbm, 135, rfl⟩
abbrev main_call5_v0 : Ref sig .tc := ⟨.hbm, 136, rfl⟩
abbrev main_call5_v1 : Ref sig .tc := ⟨.hbm, 137, rfl⟩
abbrev main_call5_c_0 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_call5_v5 : Ref sig .tc := ⟨.hbm, 142, rfl⟩
abbrev main_call5_c_1 : Ref sig .tc := ⟨.hbm, 143, rfl⟩
abbrev main_call5_c_2 : Ref sig .tc := ⟨.hbm, 144, rfl⟩
abbrev main_call5_v6 : Ref sig .tc := ⟨.hbm, 145, rfl⟩
abbrev main_call5_v7 : Ref sig .tc := ⟨.hbm, 146, rfl⟩
abbrev main_call5_v8 : Ref sig .tc := ⟨.hbm, 147, rfl⟩
abbrev main_call5_v9 : Ref sig .tc := ⟨.hbm, 148, rfl⟩
abbrev main_call5_v10 : Ref sig .tc := ⟨.hbm, 149, rfl⟩
abbrev main_call5_c_3 : Ref sig .tc := ⟨.hbm, 150, rfl⟩
abbrev main_call5_v11 : Ref sig .tc := ⟨.hbm, 151, rfl⟩
abbrev main_call5_v12 : Ref sig .tc := ⟨.hbm, 152, rfl⟩
abbrev main_call5_v13 : Ref sig .tc := ⟨.hbm, 153, rfl⟩
abbrev main_call5_cst : Ref sig .tc := ⟨.hbm, 154, rfl⟩
abbrev main_call5_v14 : Ref sig .tc := ⟨.hbm, 155, rfl⟩
abbrev main_v11 : Ref sig .tc := ⟨.hbm, 156, rfl⟩
abbrev main_call6_c : Ref sig .tc := ⟨.hbm, 157, rfl⟩
abbrev main_call6_v0 : Ref sig .tc := ⟨.hbm, 158, rfl⟩
abbrev main_call6_v1 : Ref sig .tc := ⟨.hbm, 159, rfl⟩
abbrev main_call6_c_0 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_c_1 : Ref sig .tc := ⟨.hbm, 165, rfl⟩
abbrev main_call6_c_2 : Ref sig .tc := ⟨.hbm, 166, rfl⟩
abbrev main_call6_v6 : Ref sig .tc := ⟨.hbm, 167, rfl⟩
abbrev main_call6_v7 : Ref sig .tc := ⟨.hbm, 168, rfl⟩
abbrev main_call6_v8 : Ref sig .tc := ⟨.hbm, 169, rfl⟩
abbrev main_call6_v9 : Ref sig .tc := ⟨.hbm, 170, rfl⟩
abbrev main_call6_v10 : Ref sig .tc := ⟨.hbm, 171, rfl⟩
abbrev main_call6_c_3 : Ref sig .tc := ⟨.hbm, 172, rfl⟩
abbrev main_call6_v11 : Ref sig .tc := ⟨.hbm, 173, rfl⟩
abbrev main_call6_v12 : Ref sig .tc := ⟨.hbm, 174, rfl⟩
abbrev main_call6_v13 : Ref sig .tc := ⟨.hbm, 175, rfl⟩
abbrev main_call6_cst : Ref sig .tc := ⟨.hbm, 176, rfl⟩
abbrev main_call6_v14 : Ref sig .tc := ⟨.hbm, 177, rfl⟩
abbrev main_v12 : Ref sig .tc := ⟨.hbm, 178, rfl⟩
abbrev main_v13 : Ref sig .tc := ⟨.hbm, 179, rfl⟩
abbrev main_call7_c : Ref sig .tc := ⟨.hbm, 180, rfl⟩
abbrev main_call7_v0 : Ref sig .tc := ⟨.hbm, 181, rfl⟩
abbrev main_call7_v1 : Ref sig .tc := ⟨.hbm, 182, rfl⟩
abbrev main_call7_c_0 : Ref sig .tc := ⟨.hbm, 183, rfl⟩
abbrev main_call7_v2 : Ref sig .tc := ⟨.hbm, 184, rfl⟩
abbrev main_call7_v3 : Ref sig .tc := ⟨.hbm, 185, rfl⟩
abbrev main_call7_v4 : Ref sig .tc := ⟨.hbm, 186, rfl⟩
abbrev main_call7_v5 : Ref sig .tc := ⟨.hbm, 187, rfl⟩
abbrev main_call7_c_1 : Ref sig .tc := ⟨.hbm, 188, rfl⟩
abbrev main_call7_c_2 : Ref sig .tc := ⟨.hbm, 189, rfl⟩
abbrev main_call7_v6 : Ref sig .tc := ⟨.hbm, 190, rfl⟩
abbrev main_call7_v7 : Ref sig .tc := ⟨.hbm, 191, rfl⟩
abbrev main_call7_v8 : Ref sig .tc := ⟨.hbm, 192, rfl⟩
abbrev main_call7_v9 : Ref sig .tc := ⟨.hbm, 193, rfl⟩
abbrev main_call7_v10 : Ref sig .tc := ⟨.hbm, 194, rfl⟩
abbrev main_call7_c_3 : Ref sig .tc := ⟨.hbm, 195, rfl⟩
abbrev main_call7_v11 : Ref sig .tc := ⟨.hbm, 196, rfl⟩
abbrev main_call7_v12 : Ref sig .tc := ⟨.hbm, 197, rfl⟩
abbrev main_call7_v13 : Ref sig .tc := ⟨.hbm, 198, rfl⟩
abbrev main_call7_cst : Ref sig .tc := ⟨.hbm, 199, rfl⟩
abbrev main_call7_v14 : Ref sig .tc := ⟨.hbm, 200, rfl⟩
abbrev main_v14 : Ref sig .tc := ⟨.hbm, 201, rfl⟩
abbrev main_call8_c : Ref sig .tc := ⟨.hbm, 202, rfl⟩
abbrev main_call8_v0 : Ref sig .tc := ⟨.hbm, 203, rfl⟩
abbrev main_call8_v1 : Ref sig .tc := ⟨.hbm, 204, rfl⟩
abbrev main_call8_c_0 : Ref sig .tc := ⟨.hbm, 205, rfl⟩
abbrev main_call8_v2 : Ref sig .tc := ⟨.hbm, 206, rfl⟩
abbrev main_call8_v3 : Ref sig .tc := ⟨.hbm, 207, rfl⟩
abbrev main_call8_v4 : Ref sig .tc := ⟨.hbm, 208, rfl⟩
abbrev main_call8_v5 : Ref sig .tc := ⟨.hbm, 209, rfl⟩
abbrev main_call8_c_1 : Ref sig .tc := ⟨.hbm, 210, rfl⟩
abbrev main_call8_c_2 : Ref sig .tc := ⟨.hbm, 211, rfl⟩
abbrev main_call8_v6 : Ref sig .tc := ⟨.hbm, 212, rfl⟩
abbrev main_call8_v7 : Ref sig .tc := ⟨.hbm, 213, rfl⟩
abbrev main_call8_v8 : Ref sig .tc := ⟨.hbm, 214, rfl⟩
abbrev main_call8_v9 : Ref sig .tc := ⟨.hbm, 215, rfl⟩
abbrev main_call8_v10 : Ref sig .tc := ⟨.hbm, 216, rfl⟩
abbrev main_call8_c_3 : Ref sig .tc := ⟨.hbm, 217, rfl⟩
abbrev main_call8_v11 : Ref sig .tc := ⟨.hbm, 218, rfl⟩
abbrev main_call8_v12 : Ref sig .tc := ⟨.hbm, 219, rfl⟩
abbrev main_call8_v13 : Ref sig .tc := ⟨.hbm, 220, rfl⟩
abbrev main_call8_cst : Ref sig .tc := ⟨.hbm, 221, rfl⟩
abbrev main_call8_v14 : Ref sig .tc := ⟨.hbm, 222, rfl⟩
abbrev main_v15 : Ref sig .tc := ⟨.hbm, 223, rfl⟩
abbrev main_v16 : Ref sig .tc := ⟨.hbm, 224, rfl⟩
abbrev main_v17 : Ref sig .tc := ⟨.hbm, 225, rfl⟩
abbrev main_v18 : Ref sig .tc := ⟨.hbm, 226, rfl⟩
abbrev main_v19 : Ref sig .tc := ⟨.hbm, 227, rfl⟩
abbrev main_v20 : Ref sig .tc := ⟨.hbm, 228, rfl⟩
abbrev main_v21 : Ref sig .tc := ⟨.hbm, 229, rfl⟩
abbrev main_c_0 : Ref sig .tc := ⟨.hbm, 230, rfl⟩
abbrev main_v22 : Ref sig .tc := ⟨.hbm, 231, rfl⟩
abbrev main_v23 : Ref sig .tc := ⟨.hbm, 232, rfl⟩

abbrev nD : Nat := 1
abbrev τ : Topo := Topo.v7x

variable {F : FTy → Type} [FloatOps F]

class Facts₀ : Prop where
  bcast_S_S4095 : S_.BroadcastsInDim S4095 (![] : Fin 0 → Fin S4095.rank)
  bcast_S4095_S4095x1_0 : S4095.BroadcastsInDim S4095x1 (![0] : Fin 1 → Fin S4095x1.rank)
  bcast_S_S4095x1 : S_.BroadcastsInDim S4095x1 (![] : Fin 0 → Fin S4095x1.rank)
  bcast_S1_S1x1_1 : S1.BroadcastsInDim S1x1 (![1] : Fin 1 → Fin S1x1.rank)
  bcast_S1x1_S4095x1_0_1 : S1x1.BroadcastsInDim S4095x1 (![0, 1] : Fin 2 → Fin S4095x1.rank)
  reducesTo_S4095x1_S4095_d1 : S4095x1.ReducesTo [1] S4095
  h_S_ : 0 < S_.numel
  bcast_S4095_S4095x64_0 : S4095.BroadcastsInDim S4095x64 (![0] : Fin 1 → Fin S4095x64.rank)
  bcast_S_S4095x64 : S_.BroadcastsInDim S4095x64 (![] : Fin 0 → Fin S4095x64.rank)
  concatenates_S4095x64_S4095x64_S4095x64_S4095x192_d1 : Shape.Concatenates [S4095x64, S4095x64, S4095x64] S4095x192 1
  bcast_S_S4096x192 : S_.BroadcastsInDim S4096x192 (![] : Fin 0 → Fin S4096x192.rank)
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  reducesTo_S1x1_S1_d1 : S1x1.ReducesTo [1] S1
  bcast_S1_S1x64_0 : S1.BroadcastsInDim S1x64 (![0] : Fin 1 → Fin S1x64.rank)
  bcast_S_S1x64 : S_.BroadcastsInDim S1x64 (![] : Fin 0 → Fin S1x64.rank)
  slices_S2x64_S1x64_1_0 : S2x64.Slices ![1, 0] S1x64
  shapeCasts_S1x64_S64 : S1x64.ShapeCasts S64
  bcast_S64_S1x64_1 : S64.BroadcastsInDim S1x64 (![1] : Fin 1 → Fin S1x64.rank)
  concatenates_S1x64_S1x64_S1x64_S1x192_d1 : Shape.Concatenates [S1x64, S1x64, S1x64] S1x192 1
  shapeCasts_S1x192_S192 : S1x192.ShapeCasts S192
  gather_S10000x64_S4095x1_S4095x64_1_0_n_n_0_1_164_wf : GatherDims.WF S10000x64 S4095x1 S4095x64 [1] [0] [] [0] [] 1 ![1, 64]
  gather_S100000x64_S4095x1_S4095x64_1_0_n_n_0_1_164_wf : GatherDims.WF S100000x64 S4095x1 S4095x64 [1] [0] [] [0] [] 1 ![1, 64]
  gather_S200x64_S4095x1_S4095x64_1_0_n_n_0_1_164_wf : GatherDims.WF S200x64 S4095x1 S4095x64 [1] [0] [] [0] [] 1 ![1, 64]
  scatter_S4096x192_S1_S4095x192_01_n_0_0_wf : ScatterDims.WF S4096x192 S1 S4095x192 [0, 1] [] [0] 0
  gather_S10000x64_S1x1_S1x64_1_0_n_n_0_1_164_wf : GatherDims.WF S10000x64 S1x1 S1x64 [1] [0] [] [0] [] 1 ![1, 64]
  gather_S100000x64_S1x1_S1x64_1_0_n_n_0_1_164_wf : GatherDims.WF S100000x64 S1x1 S1x64 [1] [0] [] [0] [] 1 ![1, 64]
  gather_S200x64_S1x1_S1x64_1_0_n_n_0_1_164_wf : GatherDims.WF S200x64 S1x1 S1x64 [1] [0] [] [0] [] 1 ![1, 64]
  scatter_S4096x192_S1_S192_0_0_0_0_wf : ScatterDims.WF S4096x192 S1 S192 [0] [0] [0] 0

variable [Facts₀]

def gather_S10000x64_S4095x1_S4095x64_1_0_n_n_0_1_164 : GatherDims S10000x64 S4095x1 S4095x64 where
  offsetDims := [1]
  collapsedSliceDims := [0]
  operandBatchingDims := []
  startIndicesBatchingDims := []
  startIndexMap := [0]
  indexVectorDim := 1
  sliceSizes := ![1, 64]
  wf := gather_S10000x64_S4095x1_S4095x64_1_0_n_n_0_1_164_wf
def gather_S100000x64_S4095x1_S4095x64_1_0_n_n_0_1_164 : GatherDims S100000x64 S4095x1 S4095x64 where
  offsetDims := [1]
  collapsedSliceDims := [0]
  operandBatchingDims := []
  startIndicesBatchingDims := []
  startIndexMap := [0]
  indexVectorDim := 1
  sliceSizes := ![1, 64]
  wf := gather_S100000x64_S4095x1_S4095x64_1_0_n_n_0_1_164_wf
def gather_S200x64_S4095x1_S4095x64_1_0_n_n_0_1_164 : GatherDims S200x64 S4095x1 S4095x64 where
  offsetDims := [1]
  collapsedSliceDims := [0]
  operandBatchingDims := []
  startIndicesBatchingDims := []
  startIndexMap := [0]
  indexVectorDim := 1
  sliceSizes := ![1, 64]
  wf := gather_S200x64_S4095x1_S4095x64_1_0_n_n_0_1_164_wf
def scatter_S4096x192_S1_S4095x192_01_n_0_0 : ScatterDims S4096x192 S1 S4095x192 where
  updateWindowDims := [0, 1]
  insertedWindowDims := []
  scatterDimsToOperandDims := [0]
  indexVectorDim := 0
  wf := scatter_S4096x192_S1_S4095x192_01_n_0_0_wf
def gather_S10000x64_S1x1_S1x64_1_0_n_n_0_1_164 : GatherDims S10000x64 S1x1 S1x64 where
  offsetDims := [1]
  collapsedSliceDims := [0]
  operandBatchingDims := []
  startIndicesBatchingDims := []
  startIndexMap := [0]
  indexVectorDim := 1
  sliceSizes := ![1, 64]
  wf := gather_S10000x64_S1x1_S1x64_1_0_n_n_0_1_164_wf
def gather_S100000x64_S1x1_S1x64_1_0_n_n_0_1_164 : GatherDims S100000x64 S1x1 S1x64 where
  offsetDims := [1]
  collapsedSliceDims := [0]
  operandBatchingDims := []
  startIndicesBatchingDims := []
  startIndexMap := [0]
  indexVectorDim := 1
  sliceSizes := ![1, 64]
  wf := gather_S100000x64_S1x1_S1x64_1_0_n_n_0_1_164_wf
def gather_S200x64_S1x1_S1x64_1_0_n_n_0_1_164 : GatherDims S200x64 S1x1 S1x64 where
  offsetDims := [1]
  collapsedSliceDims := [0]
  operandBatchingDims := []
  startIndicesBatchingDims := []
  startIndexMap := [0]
  indexVectorDim := 1
  sliceSizes := ![1, 64]
  wf := gather_S200x64_S1x1_S1x64_1_0_n_n_0_1_164_wf
def scatter_S4096x192_S1_S192_0_0_0_0 : ScatterDims S4096x192 S1 S192 where
  updateWindowDims := [0]
  insertedWindowDims := [0]
  scatterDimsToOperandDims := [0]
  indexVectorDim := 0
  wf := scatter_S4096x192_S1_S192_0_0_0_0_wf

class Facts : Prop extends Facts₀ where

variable [Facts]
-- ==== Proof.RefRunOps.lean ====
/-
  The reference program's @main as a list of its 221 host operations, in program order, every call of an outlined
  function (`jnp.take`, and the `jnp.where` inside it) replaced by the callee's operations over that call's own
  buffers. The list is cut where the program's text is: one piece per call of `jnp.take`, one per stretch of @main's
  own operations between calls. A program that is such a straight line runs to the end from any memory, and every
  buffer then holds the fold of the operations over the launch contents (`run_main`).
-/
import proofs.«206817_g64347200028782_cont_9to1_m_612_22_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Piece 1: names[name_idx]: the first `jnp.take` of the head columns (rows of the names table). -/
abbrev ops1 : List (HloOp τ sig (Elt F)) :=
  [ StableHlo.TRef.nullary main_call0.c (constantI S_ 32 0#32),
    StableHlo.TRef.unary main_call0.c main_call0.v0 (broadcastInDim S4095 ![] bcast_S_S4095),
    StableHlo.TRef.binary (.of main_arg8) main_call0.v0 main_call0.v1 (cmpi .slt),
    StableHlo.TRef.nullary main_call0.c_0 (constantI S_ 32 10000#32),
    StableHlo.TRef.unary main_call0.c_0 main_call0.v2 (broadcastInDim S4095 ![] bcast_S_S4095),
    StableHlo.TRef.binary (.of main_arg8) main_call0.v2 main_call0.v3 addi,
    StableHlo.TRef.ternary main_call0.v1 main_call0.v3 (.of main_arg8) main_call0.call0.v0 select,
    StableHlo.TRef.unary main_call0.call0.v0 main_call0.v5 (broadcastInDim S4095x1 ![0] bcast_S4095_S4095x1_0),
    StableHlo.TRef.nullary main_call0.c_1 (constantI S1 32 9999#32),
    StableHlo.TRef.nullary main_call0.c_2 (constantI S_ 32 0#32),
    StableHlo.TRef.unary main_call0.c_2 main_call0.v6 (broadcastInDim S4095x1 ![] bcast_S_S4095x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S4095x1 ![0, 1] bcast_S1x1_S4095x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4095x1_S4095_d1 h_S_),
    StableHlo.TRef.binary (.of main_arg3) main_call0.v5 main_call0.v13 (fun x i => Host.gather gather_S10000x64_S4095x1_S4095x64_1_0_n_n_0_1_164 x i),
    StableHlo.TRef.unary main_call0.v12 main_call0.v14 (broadcastInDim S4095x64 ![0] bcast_S4095_S4095x64_0),
    StableHlo.TRef.nullary main_call0.cst (constant S_ .f32 0x7FC00000#32),
    StableHlo.TRef.unary main_call0.cst main_call0.v15 (broadcastInDim S4095x64 ![] bcast_S_S4095x64),
    StableHlo.TRef.ternary main_call0.v14 main_call0.v13 main_call0.v15 main_call0.v16 select ]

/-- Piece 2: heads[head_idx]: the second `jnp.take` of the head columns. -/
abbrev ops2 : List (HloOp τ sig (Elt F)) :=
  [ StableHlo.TRef.nullary main_call1.c (constantI S_ 32 0#32),
    StableHlo.TRef.unary main_call1.c main_call1.v0 (broadcastInDim S4095 ![] bcast_S_S4095),
    StableHlo.TRef.binary (.of main_arg5) main_call1.v0 main_call1.v1 (cmpi .slt),
    StableHlo.TRef.nullary main_call1.c_0 (constantI S_ 32 100000#32),
    StableHlo.TRef.unary main_call1.c_0 main_call1.v2 (broadcastInDim S4095 ![] bcast_S_S4095),
    StableHlo.TRef.binary (.of main_arg5) main_call1.v2 main_call1.v3 addi,
    StableHlo.TRef.ternary main_call1.v1 main_call1.v3 (.of main_arg5) main_call1.call0.v0 select,
    StableHlo.TRef.unary main_call1.call0.v0 main_call1.v5 (broadcastInDim S4095x1 ![0] bcast_S4095_S4095x1_0),
    StableHlo.TRef.nullary main_call1.c_1 (constantI S1 32 99999#32),
    StableHlo.TRef.nullary main_call1.c_2 (constantI S_ 32 0#32),
    StableHlo.TRef.unary main_call1.c_2 main_call1.v6 (broadcastInDim S4095x1 ![] bcast_S_S4095x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S4095x1 ![0, 1] bcast_S1x1_S4095x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4095x1_S4095_d1 h_S_),
    StableHlo.TRef.binary (.of main_arg0) main_call1.v5 main_call1.v13 (fun x i => Host.gather gather_S100000x64_S4095x1_S4095x64_1_0_n_n_0_1_164 x i),
    StableHlo.TRef.unary main_call1.v12 main_call1.v14 (broadcastInDim S4095x64 ![0] bcast_S4095_S4095x64_0),
    StableHlo.TRef.nullary main_call1.cst (constant S_ .f32 0x7FC00000#32),
    StableHlo.TRef.unary main_call1.cst main_call1.v15 (broadcastInDim S4095x64 ![] bcast_S_S4095x64),
    StableHlo.TRef.ternary main_call1.v14 main_call1.v13 main_call1.v15 main_call1.v16 select ]

/-- Piece 3: the head columns' sum. -/
abbrev ops3 : List (HloOp τ sig (Elt F)) :=
  [ StableHlo.binary main_v0 main_v1 main_v2 (addf : (⟨S4095x64, .f32⟩ : BufTy).Contents (Elt F) → (⟨S4095x64, .f32⟩ : BufTy).Contents (Elt F) → (⟨S4095x64, .f32⟩ : BufTy).Contents (Elt F)) ]

/-- Piece 4: relations[rel_idx]: the relation columns. -/
abbrev ops4 : List (HloOp τ sig (Elt F)) :=
  [ StableHlo.TRef.nullary main_call2.c (constantI S_ 32 0#32),
    StableHlo.TRef.unary main_call2.c main_call2.v0 (broadcastInDim S4095 ![] bcast_S_S4095),
    StableHlo.TRef.binary (.of main_arg6) main_call2.v0 main_call2.v1 (cmpi .slt),
    StableHlo.TRef.nullary main_call2.c_0 (constantI S_ 32 200#32),
    StableHlo.TRef.unary main_call2.c_0 main_call2.v2 (broadcastInDim S4095 ![] bcast_S_S4095),
    StableHlo.TRef.binary (.of main_arg6) main_call2.v2 main_call2.v3 addi,
    StableHlo.TRef.ternary main_call2.v1 main_call2.v3 (.of main_arg6) main_call2.call0.v0 select,
    StableHlo.TRef.unary main_call2.call0.v0 main_call2.v5 (broadcastInDim S4095x1 ![0] bcast_S4095_S4095x1_0),
    StableHlo.TRef.nullary main_call2.c_1 (constantI S1 32 199#32),
    StableHlo.TRef.nullary main_call2.c_2 (constantI S_ 32 0#32),
    StableHlo.TRef.unary main_call2.c_2 main_call2.v6 (broadcastInDim S4095x1 ![] bcast_S_S4095x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S4095x1 ![0, 1] bcast_S1x1_S4095x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S4095x1_S4095_d1 h_S_),
    StableHlo.TRef.binary (.of main_arg1) main_call2.v5 main_call2.v13 (fun x i => Host.gather gather_S200x64_S4095x1_S4095x64_1_0_n_n_0_1_164 x i),
    StableHlo.TRef.unary main_call2.v12 main_call2.v14 (broadcastInDim S4095x64 ![0] bcast_S4095_S4095x64_0),
    StableHlo.TRef.nullary main_call2.cst (constant S_ .f32 0x7FC00000#32),
    StableHlo.TRef.unary main_call2.cst main_call2.v15 (broadcastInDim S4095x64 ![] bcast_S_S4095x64),
    StableHlo.TRef.ternary main_call2.v14 main_call2.v13 main_call2.v15 main_call2.v16 select ]

/-- Piece 5: names[name_idx] again, for the tail columns. -/
abbrev ops5 : List (HloOp τ sig (Elt F)) :=
  [ StableHlo.TRef.nullary main_call3.c (constantI S_ 32 0#32),
    StableHlo.TRef.unary main_call3.c main_call3.v0 (broadcastInDim S4095 ![] bcast_S_S4095),
    StableHlo.TRef.binary (.of main_arg8) main_call3.v0 main_call3.v1 (cmpi .slt),
    StableHlo.TRef.nullary main_call3.c_0 (constantI S_ 32 10000#32),
    StableHlo.TRef.unary main_call3.c_0 main_call3.v2 (broadcastInDim S4095 ![] bcast_S_S4095),
    StableHlo.TRef.binary (.of main_arg8) main_call3.v2 main_call3.v3 addi,
    StableHlo.TRef.ternary main_call3.v1 main_call3.v3 (.of main_arg8) main_call3.call0.v0 select,
    StableHlo.TRef.unary main_call3.call0.v0 main_call3.v5 (broadcastInDim S4095x1 ![0] bcast_S4095_S4095x1_0),
    StableHlo.TRef.nullary main_call3.c_1 (constantI S1 32 9999#32),
    StableHlo.TRef.nullary main_call3.c_2 (constantI S_ 32 0#32),
    StableHlo.TRef.unary main_call3.c_2 main_call3.v6 (broadcastInDim S4095x1 ![] bcast_S_S4095x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S4095x1 ![0, 1] bcast_S1x1_S4095x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S4095x1_S4095_d1 h_S_),
    StableHlo.TRef.binary (.of main_arg3) main_call3.v5 main_call3.v13 (fun x i => Host.gather gather_S10000x64_S4095x1_S4095x64_1_0_n_n_0_1_164 x i),
    StableHlo.TRef.unary main_call3.v12 main_call3.v14 (broadcastInDim S4095x64 ![0] bcast_S4095_S4095x64_0),
    StableHlo.TRef.nullary main_call3.cst (constant S_ .f32 0x7FC00000#32),
    StableHlo.TRef.unary main_call3.cst main_call3.v15 (broadcastInDim S4095x64 ![] bcast_S_S4095x64),
    StableHlo.TRef.ternary main_call3.v14 main_call3.v13 main_call3.v15 main_call3.v16 select ]

/-- Piece 6: tails[tail_idx]. -/
abbrev ops6 : List (HloOp τ sig (Elt F)) :=
  [ StableHlo.TRef.nullary main_call4.c (constantI S_ 32 0#32),
    StableHlo.TRef.unary main_call4.c main_call4.v0 (broadcastInDim S4095 ![] bcast_S_S4095),
    StableHlo.TRef.binary (.of main_arg7) main_call4.v0 main_call4.v1 (cmpi .slt),
    StableHlo.TRef.nullary main_call4.c_0 (constantI S_ 32 100000#32),
    StableHlo.TRef.unary main_call4.c_0 main_call4.v2 (broadcastInDim S4095 ![] bcast_S_S4095),
    StableHlo.TRef.binary (.of main_arg7) main_call4.v2 main_call4.v3 addi,
    StableHlo.TRef.ternary main_call4.v1 main_call4.v3 (.of main_arg7) main_call4.call0.v0 select,
    StableHlo.TRef.unary main_call4.call0.v0 main_call4.v5 (broadcastInDim S4095x1 ![0] bcast_S4095_S4095x1_0),
    StableHlo.TRef.nullary main_call4.c_1 (constantI S1 32 99999#32),
    StableHlo.TRef.nullary main_call4.c_2 (constantI S_ 32 0#32),
    StableHlo.TRef.unary main_call4.c_2 main_call4.v6 (broadcastInDim S4095x1 ![] bcast_S_S4095x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S4095x1 ![0, 1] bcast_S1x1_S4095x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S4095x1_S4095_d1 h_S_),
    StableHlo.TRef.binary (.of main_arg2) main_call4.v5 main_call4.v13 (fun x i => Host.gather gather_S100000x64_S4095x1_S4095x64_1_0_n_n_0_1_164 x i),
    StableHlo.TRef.unary main_call4.v12 main_call4.v14 (broadcastInDim S4095x64 ![0] bcast_S4095_S4095x64_0),
    StableHlo.TRef.nullary main_call4.cst (constant S_ .f32 0x7FC00000#32),
    StableHlo.TRef.unary main_call4.cst main_call4.v15 (broadcastInDim S4095x64 ![] bcast_S_S4095x64),
    StableHlo.TRef.ternary main_call4.v14 main_call4.v13 main_call4.v15 main_call4.v16 select ]

/-- Piece 7: the tail columns' sum, the three column blocks side by side, the zero array, and the first 4095 rows written. -/
abbrev ops7 : List (HloOp τ sig (Elt F)) :=
  [ StableHlo.binary main_v4 main_v5 main_v6 (addf : (⟨S4095x64, .f32⟩ : BufTy).Contents (Elt F) → (⟨S4095x64, .f32⟩ : BufTy).Contents (Elt F) → (⟨S4095x64, .f32⟩ : BufTy).Contents (Elt F)),
    StableHlo.nary ![main_v2, main_v3, main_v6] main_v7 (fun u => concatenate S4095x192 1 [⟨S4095x64, u 0⟩, ⟨S4095x64, u 1⟩, ⟨S4095x64, u 2⟩] concatenates_S4095x64_S4095x64_S4095x64_S4095x192_d1),
    StableHlo.nullary main_cst (constant S_ .f32 0x00000000#32),
    StableHlo.unary main_cst main_v8 (broadcastInDim S4096x192 ![] bcast_S_S4096x192 : (⟨S_, .f32⟩ : BufTy).Contents (Elt F) → (⟨S4096x192, .f32⟩ : BufTy).Contents (Elt F)),
    StableHlo.nullary main_c (constantI S_ 32 0#32),
    StableHlo.unary main_c main_v9 (broadcastInDim S1 ![] bcast_S_S1 : (⟨S_, .i32⟩ : BufTy).Contents (Elt F) → (⟨S1, .i32⟩ : BufTy).Contents (Elt F)),
    StableHlo.ternary main_v8 main_v9 main_v7 main_v10 ((fun x i u => Host.scatter scatter_S4096x192_S1_S4095x192_01_n_0_0 (fun _ b => b) x i u) : (⟨S4096x192, .f32⟩ : BufTy).Contents (Elt F) → (⟨S1, .i32⟩ : BufTy).Contents (Elt F) → (⟨S4095x192, .f32⟩ : BufTy).Contents (Elt F) → (⟨S4096x192, .f32⟩ : BufTy).Contents (Elt F)) ]

/-- Piece 8: names[q_name]: the question row's head columns, first summand. -/
abbrev ops8 : List (HloOp τ sig (Elt F)) :=
  [ StableHlo.TRef.nullary main_call5.c (constantI S_ 32 0#32),
    StableHlo.TRef.unary main_call5.c main_call5.v0 (broadcastInDim S1 ![] bcast_S_S1),
    StableHlo.TRef.binary (.of main_arg11) main_call5.v0 main_call5.v1 (cmpi .slt),
    StableHlo.TRef.nullary main_call5.c_0 (constantI S_ 32 10000#32),
    StableHlo.TRef.unary main_call5.c_0 main_call5.v2 (broadcastInDim S1 ![] bcast_S_S1),
    StableHlo.TRef.binary (.of main_arg11) main_call5.v2 main_call5.v3 addi,
    StableHlo.TRef.ternary main_call5.v1 main_call5.v3 (.of main_arg11) main_call5.call0.v0 select,
    StableHlo.TRef.unary main_call5.call0.v0 main_call5.v5 (broadcastInDim S1x1 ![0] bcast_S1_S1x1_0),
    StableHlo.TRef.nullary main_call5.c_1 (constantI S1 32 9999#32),
    StableHlo.TRef.nullary main_call5.c_2 (constantI S_ 32 0#32),
    StableHlo.TRef.unary main_call5.c_2 main_call5.v6 (broadcastInDim S1x1 ![] bcast_S_S1x1),
    StableHlo.TRef.binary main_call5.v5 main_call5.v6 main_call5.v7 (cmpi .sge),
    StableHlo.TRef.unary main_call5.c_1 main_call5.v8 (broadcastInDim S1x1 ![1] bcast_S1_S1x1_1),
    StableHlo.TRef.binary main_call5.v5 main_call5.v8 main_call5.v9 (cmpi .sle),
    StableHlo.TRef.binary main_call5.v7 main_call5.v9 main_call5.v10 andi,
    StableHlo.TRef.nullary main_call5.c_3 (constantI S_ 1 1#1),
    StableHlo.TRef.binary main_call5.v10 main_call5.c_3 main_call5.v11 (fun x v => Host.reduce IntOp.andi x v reducesTo_S1x1_S1_d1 h_S_),
    StableHlo.TRef.binary (.of main_arg3) main_call5.v5 main_call5.v12 (fun x i => Host.gather gather_S10000x64_S1x1_S1x64_1_0_n_n_0_1_164 x i),
    StableHlo.TRef.unary main_call5.v11 main_call5.v13 (broadcastInDim S1x64 ![0] bcast_S1_S1x64_0),
    StableHlo.TRef.nullary main_call5.cst (constant S_ .f32 0x7FC00000#32),
    StableHlo.TRef.unary main_call5.cst main_call5.v14 (broadcastInDim S1x64 ![] bcast_S_S1x64),
    StableHlo.TRef.ternary main_call5.v13 main_call5.v12 main_call5.v14 main_call5.v15 select ]

/-- Piece 9: heads[q_head]. -/
abbrev ops9 : List (HloOp τ sig (Elt F)) :=
  [ StableHlo.TRef.nullary main_call6.c (constantI S_ 32 0#32),
    StableHlo.TRef.unary main_call6.c main_call6.v0 (broadcastInDim S1 ![] bcast_S_S1),
    StableHlo.TRef.binary (.of main_arg9) main_call6.v0 main_call6.v1 (cmpi .slt),
    StableHlo.TRef.nullary main_call6.c_0 (constantI S_ 32 100000#32),
    StableHlo.TRef.unary main_call6.c_0 main_call6.v2 (broadcastInDim S1 ![] bcast_S_S1),
    StableHlo.TRef.binary (.of main_arg9) main_call6.v2 main_call6.v3 addi,
    StableHlo.TRef.ternary main_call6.v1 main_call6.v3 (.of main_arg9) main_call6.call0.v0 select,
    StableHlo.TRef.unary main_call6.call0.v0 main_call6.v5 (broadcastInDim S1x1 ![0] bcast_S1_S1x1_0),
    StableHlo.TRef.nullary main_call6.c_1 (constantI S1 32 99999#32),
    StableHlo.TRef.nullary main_call6.c_2 (constantI S_ 32 0#32),
    StableHlo.TRef.unary main_call6.c_2 main_call6.v6 (broadcastInDim S1x1 ![] bcast_S_S1x1),
    StableHlo.TRef.binary main_call6.v5 main_call6.v6 main_call6.v7 (cmpi .sge),
    StableHlo.TRef.unary main_call6.c_1 main_call6.v8 (broadcastInDim S1x1 ![1] bcast_S1_S1x1_1),
    StableHlo.TRef.binary main_call6.v5 main_call6.v8 main_call6.v9 (cmpi .sle),
    StableHlo.TRef.binary main_call6.v7 main_call6.v9 main_call6.v10 andi,
    StableHlo.TRef.nullary main_call6.c_3 (constantI S_ 1 1#1),
    StableHlo.TRef.binary main_call6.v10 main_call6.c_3 main_call6.v11 (fun x v => Host.reduce IntOp.andi x v reducesTo_S1x1_S1_d1 h_S_),
    StableHlo.TRef.binary (.of main_arg0) main_call6.v5 main_call6.v12 (fun x i => Host.gather gather_S100000x64_S1x1_S1x64_1_0_n_n_0_1_164 x i),
    StableHlo.TRef.unary main_call6.v11 main_call6.v13 (broadcastInDim S1x64 ![0] bcast_S1_S1x64_0),
    StableHlo.TRef.nullary main_call6.cst (constant S_ .f32 0x7FC00000#32),
    StableHlo.TRef.unary main_call6.cst main_call6.v14 (broadcastInDim S1x64 ![] bcast_S_S1x64),
    StableHlo.TRef.ternary main_call6.v13 main_call6.v12 main_call6.v14 main_call6.v15 select ]

/-- Piece 10: the question row's head columns. -/
abbrev ops10 : List (HloOp τ sig (Elt F)) :=
  [ StableHlo.binary main_v11 main_v12 main_v13 (addf : (⟨S1x64, .f32⟩ : BufTy).Contents (Elt F) → (⟨S1x64, .f32⟩ : BufTy).Contents (Elt F) → (⟨S1x64, .f32⟩ : BufTy).Contents (Elt F)) ]

/-- Piece 11: relations[q_rel]. -/
abbrev ops11 : List (HloOp τ sig (Elt F)) :=
  [ StableHlo.TRef.nullary main_call7.c (constantI S_ 32 0#32),
    StableHlo.TRef.unary main_call7.c main_call7.v0 (broadcastInDim S1 ![] bcast_S_S1),
    StableHlo.TRef.binary (.of main_arg10) main_call7.v0 main_call7.v1 (cmpi .slt),
    StableHlo.TRef.nullary main_call7.c_0 (constantI S_ 32 200#32),
    StableHlo.TRef.unary main_call7.c_0 main_call7.v2 (broadcastInDim S1 ![] bcast_S_S1),
    StableHlo.TRef.binary (.of main_arg10) main_call7.v2 main_call7.v3 addi,
    StableHlo.TRef.ternary main_call7.v1 main_call7.v3 (.of main_arg10) main_call7.call0.v0 select,
    StableHlo.TRef.unary main_call7.call0.v0 main_call7.v5 (broadcastInDim S1x1 ![0] bcast_S1_S1x1_0),
    StableHlo.TRef.nullary main_call7.c_1 (constantI S1 32 199#32),
    StableHlo.TRef.nullary main_call7.c_2 (constantI S_ 32 0#32),
    StableHlo.TRef.unary main_call7.c_2 main_call7.v6 (broadcastInDim S1x1 ![] bcast_S_S1x1),
    StableHlo.TRef.binary main_call7.v5 main_call7.v6 main_call7.v7 (cmpi .sge),
    StableHlo.TRef.unary main_call7.c_1 main_call7.v8 (broadcastInDim S1x1 ![1] bcast_S1_S1x1_1),
    StableHlo.TRef.binary main_call7.v5 main_call7.v8 main_call7.v9 (cmpi .sle),
    StableHlo.TRef.binary main_call7.v7 main_call7.v9 main_call7.v10 andi,
    StableHlo.TRef.nullary main_call7.c_3 (constantI S_ 1 1#1),
    StableHlo.TRef.binary main_call7.v10 main_call7.c_3 main_call7.v11 (fun x v => Host.reduce IntOp.andi x v reducesTo_S1x1_S1_d1 h_S_),
    StableHlo.TRef.binary (.of main_arg1) main_call7.v5 main_call7.v12 (fun x i => Host.gather gather_S200x64_S1x1_S1x64_1_0_n_n_0_1_164 x i),
    StableHlo.TRef.unary main_call7.v11 main_call7.v13 (broadcastInDim S1x64 ![0] bcast_S1_S1x64_0),
    StableHlo.TRef.nullary main_call7.cst (constant S_ .f32 0x7FC00000#32),
    StableHlo.TRef.unary main_call7.cst main_call7.v14 (broadcastInDim S1x64 ![] bcast_S_S1x64),
    StableHlo.TRef.ternary main_call7.v13 main_call7.v12 main_call7.v14 main_call7.v15 select ]

/-- Piece 12: names[q_name] again, for the question row's tail columns. -/
abbrev ops12 : List (HloOp τ sig (Elt F)) :=
  [ StableHlo.TRef.nullary main_call8.c (constantI S_ 32 0#32),
    StableHlo.TRef.unary main_call8.c main_call8.v0 (broadcastInDim S1 ![] bcast_S_S1),
    StableHlo.TRef.binary (.of main_arg11) main_call8.v0 main_call8.v1 (cmpi .slt),
    StableHlo.TRef.nullary main_call8.c_0 (constantI S_ 32 10000#32),
    StableHlo.TRef.unary main_call8.c_0 main_call8.v2 (broadcastInDim S1 ![] bcast_S_S1),
    StableHlo.TRef.binary (.of main_arg11) main_call8.v2 main_call8.v3 addi,
    StableHlo.TRef.ternary main_call8.v1 main_call8.v3 (.of main_arg11) main_call8.call0.v0 select,
    StableHlo.TRef.unary main_call8.call0.v0 main_call8.v5 (broadcastInDim S1x1 ![0] bcast_S1_S1x1_0),
    StableHlo.TRef.nullary main_call8.c_1 (constantI S1 32 9999#32),
    StableHlo.TRef.nullary main_call8.c_2 (constantI S_ 32 0#32),
    StableHlo.TRef.unary main_call8.c_2 main_call8.v6 (broadcastInDim S1x1 ![] bcast_S_S1x1),
    StableHlo.TRef.binary main_call8.v5 main_call8.v6 main_call8.v7 (cmpi .sge),
    StableHlo.TRef.unary main_call8.c_1 main_call8.v8 (broadcastInDim S1x1 ![1] bcast_S1_S1x1_1),
    StableHlo.TRef.binary main_call8.v5 main_call8.v8 main_call8.v9 (cmpi .sle),
    StableHlo.TRef.binary main_call8.v7 main_call8.v9 main_call8.v10 andi,
    StableHlo.TRef.nullary main_call8.c_3 (constantI S_ 1 1#1),
    StableHlo.TRef.binary main_call8.v10 main_call8.c_3 main_call8.v11 (fun x v => Host.reduce IntOp.andi x v reducesTo_S1x1_S1_d1 h_S_),
    StableHlo.TRef.binary (.of main_arg3) main_call8.v5 main_call8.v12 (fun x i => Host.gather gather_S10000x64_S1x1_S1x64_1_0_n_n_0_1_164 x i),
    StableHlo.TRef.unary main_call8.v11 main_call8.v13 (broadcastInDim S1x64 ![0] bcast_S1_S1x64_0),
    StableHlo.TRef.nullary main_call8.cst (constant S_ .f32 0x7FC00000#32),
    StableHlo.TRef.unary main_call8.cst main_call8.v14 (broadcastInDim S1x64 ![] bcast_S_S1x64),
    StableHlo.TRef.ternary main_call8.v13 main_call8.v12 main_call8.v14 main_call8.v15 select ]

/-- Piece 13: row 1 of the specials table, the question row's tail columns, the question row assembled and written at row 4095. -/
abbrev ops13 : List (HloOp τ sig (Elt F)) :=
  [ StableHlo.unary main_arg4 main_v16 ((extractStridedSlice S1x64 ![1, 0] · slices_S2x64_S1x64_1_0) : (⟨S2x64, .f32⟩ : BufTy).Contents (Elt F) → (⟨S1x64, .f32⟩ : BufTy).Contents (Elt F)),
    StableHlo.reshape main_v16 main_v17 rfl shapeCasts_S1x64_S64,
    StableHlo.unary main_v17 main_v18 (broadcastInDim S1x64 ![1] bcast_S64_S1x64_1 : (⟨S64, .f32⟩ : BufTy).Contents (Elt F) → (⟨S1x64, .f32⟩ : BufTy).Contents (Elt F)),
    StableHlo.binary main_v15 main_v18 main_v19 (addf : (⟨S1x64, .f32⟩ : BufTy).Contents (Elt F) → (⟨S1x64, .f32⟩ : BufTy).Contents (Elt F) → (⟨S1x64, .f32⟩ : BufTy).Contents (Elt F)),
    StableHlo.nary ![main_v13, main_v14, main_v19] main_v20 (fun u => concatenate S1x192 1 [⟨S1x64, u 0⟩, ⟨S1x64, u 1⟩, ⟨S1x64, u 2⟩] concatenates_S1x64_S1x64_S1x64_S1x192_d1),
    StableHlo.reshape main_v20 main_v21 rfl shapeCasts_S1x192_S192,
    StableHlo.nullary main_c_0 (constantI S_ 32 4095#32),
    StableHlo.unary main_c_0 main_v22 (broadcastInDim S1 ![] bcast_S_S1 : (⟨S_, .i32⟩ : BufTy).Contents (Elt F) → (⟨S1, .i32⟩ : BufTy).Contents (Elt F)),
    StableHlo.ternary main_v10 main_v22 main_v21 main_v23 ((fun x i u => Host.scatter scatter_S4096x192_S1_S192_0_0_0_0 (fun _ b => b) x i u) : (⟨S4096x192, .f32⟩ : BufTy).Contents (Elt F) → (⟨S1, .i32⟩ : BufTy).Contents (Elt F) → (⟨S192, .f32⟩ : BufTy).Contents (Elt F) → (⟨S4096x192, .f32⟩ : BufTy).Contents (Elt F)) ]

/-- @main's operations, in order. -/
abbrev ops : List (HloOp τ sig (Elt F)) :=
  ops1 ++ (ops2 ++ (ops3 ++ (ops4 ++ (ops5 ++ (ops6 ++ (ops7 ++ (ops8 ++ (ops9 ++ (ops10 ++ (ops11 ++ (ops12 ++ (ops13))))))))))))

/-! ## Every operation touches TensorCore buffers only -/

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops3_sub : (ops3 : List (HloOp τ sig (Elt F))).Forall fun op => op.bufs ⊆ tcRefs τ sig :=
  binary_bufs_sub ..
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops7_sub : (ops7 : List (HloOp τ sig (Elt F))).Forall fun op => op.bufs ⊆ tcRefs τ sig :=
  ⟨binary_bufs_sub .., nary_bufs_sub .., nullary_bufs_sub .., unary_bufs_sub .., nullary_bufs_sub .., unary_bufs_sub .., ternary_bufs_sub ..⟩
theorem ops8_sub : (ops8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops9_sub : (ops9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops10_sub : (ops10 : List (HloOp τ sig (Elt F))).Forall fun op => op.bufs ⊆ tcRefs τ sig :=
  binary_bufs_sub ..
theorem ops11_sub : (ops11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops12_sub : (ops12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem ops13_sub : (ops13 : List (HloOp τ sig (Elt F))).Forall fun op => op.bufs ⊆ tcRefs τ sig :=
  ⟨unary_bufs_sub .., reshape_bufs_sub .., unary_bufs_sub .., binary_bufs_sub .., nary_bufs_sub .., reshape_bufs_sub .., nullary_bufs_sub .., unary_bufs_sub .., ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h
    exacts [List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h, List.forall_iff_forall_mem.mp ops13_sub op h]

/-! ## @main is that straight line

A call is its callee's body over the call's buffers; once sequencing is re-associated each body is the line of its
operations, and @main the concatenation. -/

theorem call1_eq : fn_take.body (F := F) (.of main_arg3) (.of main_arg8) main_call0 = seq ops1 := by
  simp only [fn_take.body, fn_where.body, seq, bind_assoc, pure_bind]
theorem call2_eq : fn_take_0.body (F := F) (.of main_arg0) (.of main_arg5) main_call1 = seq ops2 := by
  simp only [fn_take_0.body, fn_where.body, seq, bind_assoc, pure_bind]
theorem call4_eq : fn_take_1.body (F := F) (.of main_arg1) (.of main_arg6) main_call2 = seq ops4 := by
  simp only [fn_take_1.body, fn_where.body, seq, bind_assoc, pure_bind]
theorem call5_eq : fn_take.body (F := F) (.of main_arg3) (.of main_arg8) main_call3 = seq ops5 := by
  simp only [fn_take.body, fn_where.body, seq, bind_assoc, pure_bind]
theorem call6_eq : fn_take_0.body (F := F) (.of main_arg2) (.of main_arg7) main_call4 = seq ops6 := by
  simp only [fn_take_0.body, fn_where.body, seq, bind_assoc, pure_bind]
theorem call8_eq : fn_take_2.body (F := F) (.of main_arg3) (.of main_arg11) main_call5 = seq ops8 := by
  simp only [fn_take_2.body, fn_where_3.body, seq, bind_assoc, pure_bind]
theorem call9_eq : fn_take_4.body (F := F) (.of main_arg0) (.of main_arg9) main_call6 = seq ops9 := by
  simp only [fn_take_4.body, fn_where_3.body, seq, bind_assoc, pure_bind]
theorem call11_eq : fn_take_5.body (F := F) (.of main_arg1) (.of main_arg10) main_call7 = seq ops11 := by
  simp only [fn_take_5.body, fn_where_3.body, seq, bind_assoc, pure_bind]
theorem call12_eq : fn_take_2.body (F := F) (.of main_arg3) (.of main_arg11) main_call8 = seq ops12 := by
  simp only [fn_take_2.body, fn_where_3.body, seq, bind_assoc, pure_bind]

set_option maxRecDepth 4096 in
theorem main_eq (c : Dev nD) : main (F := F) c = seq ops := by
  simp only [main, call1_eq, call2_eq, call4_eq, call5_eq, call6_eq, call8_eq, call9_eq, call11_eq, call12_eq, ops, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every buffer then
    holds the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRunVals.lean ====
/-
  What each buffer holds after the reference's operations, as a pure term of the launch contents.

  The terms first: `jnp.take` of a table by a list of index words (a word negative as a signed number is wrapped by the
  table's row count; a word that then names no row selects the NaN fill instead of the gathered row), the 4095 memory
  rows (three 64-wide column blocks side by side, written over rows 0 … 4094 of a zero array), and the question row
  (written at row 4095). Then the fold of the operations, piece by piece: after piece k every buffer that piece does not
  write keeps what it held (`valK_keep`), and the piece's result buffer holds the piece's term of the buffers it reads.
-/
import proofs.«206817_g64347200028782_cont_9to1_m_612_22_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The terms -/

/-- The index column of `jnp.take` over a list of 4095 words: a word negative as a signed number has the table's
    row count `n` added; the list is then laid out as a 4095 × 1 column. -/
def wrapCol (n : BitVec 32) (idx : IVec S4095 32) : IVec S4095x1 32 :=
  broadcastInDim S4095x1 ![0] bcast_S4095_S4095x1_0
    (select (cmpi .slt idx (broadcastInDim S4095 ![] bcast_S_S4095 (constantI S_ 32 0#32)))
      (addi idx (broadcastInDim S4095 ![] bcast_S_S4095 (constantI S_ 32 n))) idx)

/-- Which entries of the column name a row of the table: `0 ≤ w ≤ hi` as signed numbers (the conjunction along the
    column's one entry). -/
def inRows (hi : BitVec 32) (col : IVec S4095x1 32) : IVec S4095 1 :=
  Host.reduce IntOp.andi
    (andi (cmpi .sge col (broadcastInDim S4095x1 ![] bcast_S_S4095x1 (constantI S_ 32 0#32)))
      (cmpi .sle col (broadcastInDim S4095x1 ![0, 1] bcast_S1x1_S4095x1_0_1
        (broadcastInDim S1x1 ![1] bcast_S1_S1x1_1 (constantI S1 32 hi)))))
    (constantI S_ 1 1#1) reducesTo_S4095x1_S4095_d1 h_S_

/-- `jnp.take(tbl, idx, axis=0)` over 4095 words: the gathered rows where the word names a row, the NaN fill elsewhere. -/
def takeRows {S : Shape} (gd : GatherDims S S4095x1 S4095x64) (n hi : BitVec 32) (tbl : FVec F S .f32) (idx : IVec S4095 32) :
    FVec F S4095x64 .f32 :=
  select (broadcastInDim S4095x64 ![0] bcast_S4095_S4095x64_0 (inRows hi (wrapCol n idx)))
    (Host.gather gd tbl (wrapCol n idx))
    (broadcastInDim S4095x64 ![] bcast_S_S4095x64 (constant S_ .f32 0x7FC00000#32))

/-- The same index column over ONE word. -/
def wrapCol1 (n : BitVec 32) (idx : IVec S1 32) : IVec S1x1 32 :=
  broadcastInDim S1x1 ![0] bcast_S1_S1x1_0
    (select (cmpi .slt idx (broadcastInDim S1 ![] bcast_S_S1 (constantI S_ 32 0#32)))
      (addi idx (broadcastInDim S1 ![] bcast_S_S1 (constantI S_ 32 n))) idx)

/-- Whether the one word names a row of the table. -/
def inRows1 (hi : BitVec 32) (col : IVec S1x1 32) : IVec S1 1 :=
  Host.reduce IntOp.andi
    (andi (cmpi .sge col (broadcastInDim S1x1 ![] bcast_S_S1x1 (constantI S_ 32 0#32)))
      (cmpi .sle col (broadcastInDim S1x1 ![1] bcast_S1_S1x1_1 (constantI S1 32 hi))))
    (constantI S_ 1 1#1) reducesTo_S1x1_S1_d1 h_S_

/-- `jnp.take(tbl, q, axis=0)` over one word: one row. -/
def takeRow {S : Shape} (gd : GatherDims S S1x1 S1x64) (n hi : BitVec 32) (tbl : FVec F S .f32) (idx : IVec S1 32) :
    FVec F S1x64 .f32 :=
  select (broadcastInDim S1x64 ![0] bcast_S1_S1x64_0 (inRows1 hi (wrapCol1 n idx)))
    (Host.gather gd tbl (wrapCol1 n idx))
    (broadcastInDim S1x64 ![] bcast_S_S1x64 (constant S_ .f32 0x7FC00000#32))

/-- Three 4095 × 64 column blocks side by side. -/
def cat3 (a b c : FVec F S4095x64 .f32) : FVec F S4095x192 .f32 :=
  concatenate S4095x192 1 [⟨S4095x64, a⟩, ⟨S4095x64, b⟩, ⟨S4095x64, c⟩] concatenates_S4095x64_S4095x64_S4095x64_S4095x192_d1

/-- Three 1 × 64 column blocks side by side. -/
def cat3q (a b c : FVec F S1x64 .f32) : FVec F S1x192 .f32 :=
  concatenate S1x192 1 [⟨S1x64, a⟩, ⟨S1x64, b⟩, ⟨S1x64, c⟩] concatenates_S1x64_S1x64_S1x64_S1x192_d1

/-- The 4095 memory rows written over rows 0 … 4094 of the zero array: head, relation and tail column blocks side by side. -/
def memRows (hd rl tl : FVec F S4095x64 .f32) : FVec F S4096x192 .f32 :=
  Host.scatter scatter_S4096x192_S1_S4095x192_01_n_0_0 (fun _ b => b)
    (broadcastInDim S4096x192 ![] bcast_S_S4096x192 (constant S_ .f32 0x00000000#32))
    (broadcastInDim S1 ![] bcast_S_S1 (constantI S_ 32 0#32))
    (cat3 hd rl tl)

/-- Row 1 of the specials table as a 1 × 64 row. -/
def maskRow (sp : FVec F S2x64 .f32) : FVec F S1x64 .f32 :=
  broadcastInDim S1x64 ![1] bcast_S64_S1x64_1
    (shapeCast S64 (extractStridedSlice S1x64 ![1, 0] sp slices_S2x64_S1x64_1_0) shapeCasts_S1x64_S64)

/-- The question row written at row 4095 of `x`. -/
def withQRow (x : FVec F S4096x192 .f32) (qh qr qt : FVec F S1x64 .f32) : FVec F S4096x192 .f32 :=
  Host.scatter scatter_S4096x192_S1_S192_0_0_0_0 (fun _ b => b) x
    (broadcastInDim S1 ![] bcast_S_S1 (constantI S_ 32 4095#32))
    (shapeCast S192 (cat3q qh qr qt) shapeCasts_S1x192_S192)

/-- The result array as a term of the twelve arguments: the operations composed. -/
def refTermF (a0 : FVec F S100000x64 .f32) (a1 : FVec F S200x64 .f32) (a2 : FVec F S100000x64 .f32) (a3 : FVec F S10000x64 .f32)
    (a4 : FVec F S2x64 .f32) (a5 a6 a7 a8 : IVec S4095 32) (a9 a10 a11 : IVec S1 32) : FVec F S4096x192 .f32 :=
  withQRow
    (memRows
      (addf (takeRows gather_S10000x64_S4095x1_S4095x64_1_0_n_n_0_1_164 10000#32 9999#32 a3 a8) (takeRows gather_S100000x64_S4095x1_S4095x64_1_0_n_n_0_1_164 100000#32 99999#32 a0 a5))
      (takeRows gather_S200x64_S4095x1_S4095x64_1_0_n_n_0_1_164 200#32 199#32 a1 a6)
      (addf (takeRows gather_S10000x64_S4095x1_S4095x64_1_0_n_n_0_1_164 10000#32 9999#32 a3 a8) (takeRows gather_S100000x64_S4095x1_S4095x64_1_0_n_n_0_1_164 100000#32 99999#32 a2 a7)))
    (addf (takeRow gather_S10000x64_S1x1_S1x64_1_0_n_n_0_1_164 10000#32 9999#32 a3 a11) (takeRow gather_S100000x64_S1x1_S1x64_1_0_n_n_0_1_164 100000#32 99999#32 a0 a9))
    (takeRow gather_S200x64_S1x1_S1x64_1_0_n_n_0_1_164 200#32 199#32 a1 a10)
    (addf (takeRow gather_S10000x64_S1x1_S1x64_1_0_n_n_0_1_164 10000#32 9999#32 a3 a11) (maskRow a4))

/-! ## The fold, piece by piece -/

/-- One operation writes one buffer, and that buffer is in the piece's list. -/
local macro "writes_step" : tactic =>
  `(tactic| (simp only [nullary_writes, unary_writes, binary_writes, ternary_writes, reshape_writes, nary_writes,
      Finset.singleton_subset_iff, List.mem_toFinset]; exact List.mem_map_of_mem (by decide)))

/-- The buffers piece 1 writes. -/
abbrev ops1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem ops1_writes : (ops1 : List (HloOp τ sig (Elt F))).Forall fun op =>
    op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> writes_step
/-- The buffers' contents after pieces 1 … 1. -/
def val1 (V : Valuation τ sig (Elt F)) : Valuation τ sig (Elt F) := after ops1 V
theorem val1_keep (V : Valuation τ sig (Elt F)) (r : Ref sig .tc) (h : r ∉ ops1_W) :
    val1 V (Proc.devRef .tc r) = V (Proc.devRef .tc r) :=
  after_of_writes_sub ops1 _ ops1_writes h

/-- The buffers piece 2 writes. -/
abbrev ops2_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]
theorem ops2_writes : (ops2 : List (HloOp τ sig (Elt F))).Forall fun op =>
    op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> writes_step
/-- The buffers' contents after pieces 1 … 2. -/
def val2 (V : Valuation τ sig (Elt F)) : Valuation τ sig (Elt F) := after ops2 (val1 V)
theorem val2_keep (V : Valuation τ sig (Elt F)) (r : Ref sig .tc) (h : r ∉ ops2_W) :
    val2 V (Proc.devRef .tc r) = (val1 V) (Proc.devRef .tc r) :=
  after_of_writes_sub ops2 _ ops2_writes h

/-- The buffers piece 3 writes. -/
abbrev ops3_W : List (Ref sig .tc) := [main_v2]
theorem ops3_writes : (ops3 : List (HloOp τ sig (Elt F))).Forall fun op =>
    op.writes ⊆ (ops3_W.map (Proc.devRef (τ := τ) .tc)).toFinset := by
  simp only [List.Forall]
  writes_step
/-- The buffers' contents after pieces 1 … 3. -/
def val3 (V : Valuation τ sig (Elt F)) : Valuation τ sig (Elt F) := after ops3 (val2 V)
theorem val3_keep (V : Valuation τ sig (Elt F)) (r : Ref sig .tc) (h : r ∉ ops3_W) :
    val3 V (Proc.devRef .tc r) = (val2 V) (Proc.devRef .tc r) :=
  after_of_writes_sub ops3 _ ops3_writes h

/-- The buffers piece 4 writes. -/
abbrev ops4_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v3]
theorem ops4_writes : (ops4 : List (HloOp τ sig (Elt F))).Forall fun op =>
    op.writes ⊆ (ops4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> writes_step
/-- The buffers' contents after pieces 1 … 4. -/
def val4 (V : Valuation τ sig (Elt F)) : Valuation τ sig (Elt F) := after ops4 (val3 V)
theorem val4_keep (V : Valuation τ sig (Elt F)) (r : Ref sig .tc) (h : r ∉ ops4_W) :
    val4 V (Proc.devRef .tc r) = (val3 V) (Proc.devRef .tc r) :=
  after_of_writes_sub ops4 _ ops4_writes h

/-- The buffers piece 5 writes. -/
abbrev ops5_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v4]
theorem ops5_writes : (ops5 : List (HloOp τ sig (Elt F))).Forall fun op =>
    op.writes ⊆ (ops5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> writes_step
/-- The buffers' contents after pieces 1 … 5. -/
def val5 (V : Valuation τ sig (Elt F)) : Valuation τ sig (Elt F) := after ops5 (val4 V)
theorem val5_keep (V : Valuation τ sig (Elt F)) (r : Ref sig .tc) (h : r ∉ ops5_W) :
    val5 V (Proc.devRef .tc r) = (val4 V) (Proc.devRef .tc r) :=
  after_of_writes_sub ops5 _ ops5_writes h

/-- The buffers piece 6 writes. -/
abbrev ops6_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v5]
theorem ops6_writes : (ops6 : List (HloOp τ sig (Elt F))).Forall fun op =>
    op.writes ⊆ (ops6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> writes_step
/-- The buffers' contents after pieces 1 … 6. -/
def val6 (V : Valuation τ sig (Elt F)) : Valuation τ sig (Elt F) := after ops6 (val5 V)
theorem val6_keep (V : Valuation τ sig (Elt F)) (r : Ref sig .tc) (h : r ∉ ops6_W) :
    val6 V (Proc.devRef .tc r) = (val5 V) (Proc.devRef .tc r) :=
  after_of_writes_sub ops6 _ ops6_writes h

/-- The buffers piece 7 writes. -/
abbrev ops7_W : List (Ref sig .tc) := [main_v6, main_v7, main_cst, main_v8, main_c, main_v9, main_v10]
theorem ops7_writes : (ops7 : List (HloOp τ sig (Elt F))).Forall fun op =>
    op.writes ⊆ (ops7_W.map (Proc.devRef (τ := τ) .tc)).toFinset := by
  simp only [List.Forall]
  refine ⟨?_, ?_, ?_, ?_, ?_, ?_, ?_⟩ <;> writes_step
/-- The buffers' contents after pieces 1 … 7. -/
def val7 (V : Valuation τ sig (Elt F)) : Valuation τ sig (Elt F) := after ops7 (val6 V)
theorem val7_keep (V : Valuation τ sig (Elt F)) (r : Ref sig .tc) (h : r ∉ ops7_W) :
    val7 V (Proc.devRef .tc r) = (val6 V) (Proc.devRef .tc r) :=
  after_of_writes_sub ops7 _ ops7_writes h

/-- The buffers piece 8 writes. -/
abbrev ops8_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_c_3, main_call5_v11, main_call5_v12, main_call5_v13, main_call5_cst, main_call5_v14, main_v11]
theorem ops8_writes : (ops8 : List (HloOp τ sig (Elt F))).Forall fun op =>
    op.writes ⊆ (ops8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> writes_step
/-- The buffers' contents after pieces 1 … 8. -/
def val8 (V : Valuation τ sig (Elt F)) : Valuation τ sig (Elt F) := after ops8 (val7 V)
theorem val8_keep (V : Valuation τ sig (Elt F)) (r : Ref sig .tc) (h : r ∉ ops8_W) :
    val8 V (Proc.devRef .tc r) = (val7 V) (Proc.devRef .tc r) :=
  after_of_writes_sub ops8 _ ops8_writes h

/-- The buffers piece 9 writes. -/
abbrev ops9_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_c_3, main_call6_v11, main_call6_v12, main_call6_v13, main_call6_cst, main_call6_v14, main_v12]
theorem ops9_writes : (ops9 : List (HloOp τ sig (Elt F))).Forall fun op =>
    op.writes ⊆ (ops9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> writes_step
/-- The buffers' contents after pieces 1 … 9. -/
def val9 (V : Valuation τ sig (Elt F)) : Valuation τ sig (Elt F) := after ops9 (val8 V)
theorem val9_keep (V : Valuation τ sig (Elt F)) (r : Ref sig .tc) (h : r ∉ ops9_W) :
    val9 V (Proc.devRef .tc r) = (val8 V) (Proc.devRef .tc r) :=
  after_of_writes_sub ops9 _ ops9_writes h

/-- The buffers piece 10 writes. -/
abbrev ops10_W : List (Ref sig .tc) := [main_v13]
theorem ops10_writes : (ops10 : List (HloOp τ sig (Elt F))).Forall fun op =>
    op.writes ⊆ (ops10_W.map (Proc.devRef (τ := τ) .tc)).toFinset := by
  simp only [List.Forall]
  writes_step
/-- The buffers' contents after pieces 1 … 10. -/
def val10 (V : Valuation τ sig (Elt F)) : Valuation τ sig (Elt F) := after ops10 (val9 V)
theorem val10_keep (V : Valuation τ sig (Elt F)) (r : Ref sig .tc) (h : r ∉ ops10_W) :
    val10 V (Proc.devRef .tc r) = (val9 V) (Proc.devRef .tc r) :=
  after_of_writes_sub ops10 _ ops10_writes h

/-- The buffers piece 11 writes. -/
abbrev ops11_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_c_3, main_call7_v11, main_call7_v12, main_call7_v13, main_call7_cst, main_call7_v14, main_v14]
theorem ops11_writes : (ops11 : List (HloOp τ sig (Elt F))).Forall fun op =>
    op.writes ⊆ (ops11_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> writes_step
/-- The buffers' contents after pieces 1 … 11. -/
def val11 (V : Valuation τ sig (Elt F)) : Valuation τ sig (Elt F) := after ops11 (val10 V)
theorem val11_keep (V : Valuation τ sig (Elt F)) (r : Ref sig .tc) (h : r ∉ ops11_W) :
    val11 V (Proc.devRef .tc r) = (val10 V) (Proc.devRef .tc r) :=
  after_of_writes_sub ops11 _ ops11_writes h

/-- The buffers piece 12 writes. -/
abbrev ops12_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_c_3, main_call8_v11, main_call8_v12, main_call8_v13, main_call8_cst, main_call8_v14, main_v15]
theorem ops12_writes : (ops12 : List (HloOp τ sig (Elt F))).Forall fun op =>
    op.writes ⊆ (ops12_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> writes_step
/-- The buffers' contents after pieces 1 … 12. -/
def val12 (V : Valuation τ sig (Elt F)) : Valuation τ sig (Elt F) := after ops12 (val11 V)
theorem val12_keep (V : Valuation τ sig (Elt F)) (r : Ref sig .tc) (h : r ∉ ops12_W) :
    val12 V (Proc.devRef .tc r) = (val11 V) (Proc.devRef .tc r) :=
  after_of_writes_sub ops12 _ ops12_writes h

/-- The buffers piece 13 writes. -/
abbrev ops13_W : List (Ref sig .tc) := [main_v16, main_v17, main_v18, main_v19, main_v20, main_v21, main_c_0, main_v22, main_v23]
theorem ops13_writes : (ops13 : List (HloOp τ sig (Elt F))).Forall fun op =>
    op.writes ⊆ (ops13_W.map (Proc.devRef (τ := τ) .tc)).toFinset := by
  simp only [List.Forall]
  refine ⟨?_, ?_, ?_, ?_, ?_, ?_, ?_, ?_, ?_⟩ <;> writes_step
/-- The buffers' contents after pieces 1 … 13. -/
def val13 (V : Valuation τ sig (Elt F)) : Valuation τ sig (Elt F) := after ops13 (val12 V)
theorem val13_keep (V : Valuation τ sig (Elt F)) (r : Ref sig .tc) (h : r ∉ ops13_W) :
    val13 V (Proc.devRef .tc r) = (val12 V) (Proc.devRef .tc r) :=
  after_of_writes_sub ops13 _ ops13_writes h

/-- A buffer no piece writes: an argument of @main. -/
def Untouched (r : Ref sig .tc) : Prop :=
  r ∉ ops1_W ∧ r ∉ ops2_W ∧ r ∉ ops3_W ∧ r ∉ ops4_W ∧ r ∉ ops5_W ∧ r ∉ ops6_W ∧ r ∉ ops7_W ∧ r ∉ ops8_W ∧ r ∉ ops9_W ∧ r ∉ ops10_W ∧ r ∉ ops11_W ∧ r ∉ ops12_W ∧ r ∉ ops13_W
instance (r : Ref sig .tc) : Decidable (Untouched r) := by unfold Untouched; infer_instance

theorem val1_arg (V : Valuation τ sig (Elt F)) (r : Ref sig .tc) (h : Untouched r) : val1 V (Proc.devRef .tc r) = V (Proc.devRef .tc r) :=
  val1_keep V r h.1
theorem val2_arg (V : Valuation τ sig (Elt F)) (r : Ref sig .tc) (h : Untouched r) : val2 V (Proc.devRef .tc r) = V (Proc.devRef .tc r) :=
  (val2_keep V r h.2.1).trans (val1_arg V r h)
theorem val3_arg (V : Valuation τ sig (Elt F)) (r : Ref sig .tc) (h : Untouched r) : val3 V (Proc.devRef .tc r) = V (Proc.devRef .tc r) :=
  (val3_keep V r h.2.2.1).trans (val2_arg V r h)
theorem val4_arg (V : Valuation τ sig (Elt F)) (r : Ref sig .tc) (h : Untouched r) : val4 V (Proc.devRef .tc r) = V (Proc.devRef .tc r) :=
  (val4_keep V r h.2.2.2.1).trans (val3_arg V r h)
theorem val5_arg (V : Valuation τ sig (Elt F)) (r : Ref sig .tc) (h : Untouched r) : val5 V (Proc.devRef .tc r) = V (Proc.devRef .tc r) :=
  (val5_keep V r h.2.2.2.2.1).trans (val4_arg V r h)
theorem val6_arg (V : Valuation τ sig (Elt F)) (r : Ref sig .tc) (h : Untouched r) : val6 V (Proc.devRef .tc r) = V (Proc.devRef .tc r) :=
  (val6_keep V r h.2.2.2.2.2.1).trans (val5_arg V r h)
theorem val7_arg (V : Valuation τ sig (Elt F)) (r : Ref sig .tc) (h : Untouched r) : val7 V (Proc.devRef .tc r) = V (Proc.devRef .tc r) :=
  (val7_keep V r h.2.2.2.2.2.2.1).trans (val6_arg V r h)
theorem val8_arg (V : Valuation τ sig (Elt F)) (r : Ref sig .tc) (h : Untouched r) : val8 V (Proc.devRef .tc r) = V (Proc.devRef .tc r) :=
  (val8_keep V r h.2.2.2.2.2.2.2.1).trans (val7_arg V r h)
theorem val9_arg (V : Valuation τ sig (Elt F)) (r : Ref sig .tc) (h : Untouched r) : val9 V (Proc.devRef .tc r) = V (Proc.devRef .tc r) :=
  (val9_keep V r h.2.2.2.2.2.2.2.2.1).trans (val8_arg V r h)
theorem val10_arg (V : Valuation τ sig (Elt F)) (r : Ref sig .tc) (h : Untouched r) : val10 V (Proc.devRef .tc r) = V (Proc.devRef .tc r) :=
  (val10_keep V r h.2.2.2.2.2.2.2.2.2.1).trans (val9_arg V r h)
theorem val11_arg (V : Valuation τ sig (Elt F)) (r : Ref sig .tc) (h : Untouched r) : val11 V (Proc.devRef .tc r) = V (Proc.devRef .tc r) :=
  (val11_keep V r h.2.2.2.2.2.2.2.2.2.2.1).trans (val10_arg V r h)
theorem val12_arg (V : Valuation τ sig (Elt F)) (r : Ref sig .tc) (h : Untouched r) : val12 V (Proc.devRef .tc r) = V (Proc.devRef .tc r) :=
  (val12_keep V r h.2.2.2.2.2.2.2.2.2.2.2.1).trans (val11_arg V r h)
theorem val13_arg (V : Valuation τ sig (Elt F)) (r : Ref sig .tc) (h : Untouched r) : val13 V (Proc.devRef .tc r) = V (Proc.devRef .tc r) :=
  (val13_keep V r h.2.2.2.2.2.2.2.2.2.2.2.2).trans (val12_arg V r h)

/-! ### The pieces' results -/

theorem val1_v0 (V : Valuation τ sig (Elt F)) : val1 V (no_index (Proc.devRef .tc main_v0)) = (takeRows gather_S10000x64_S4095x1_S4095x64_1_0_n_n_0_1_164 10000#32 9999#32 (V (Proc.devRef .tc main_arg3)) (V (Proc.devRef .tc main_arg8))) := by
  unfold val1
  simp only [ops1]
  after_results_simp
  rfl

theorem val2_v1 (V : Valuation τ sig (Elt F)) : val2 V (no_index (Proc.devRef .tc main_v1)) = (takeRows gather_S100000x64_S4095x1_S4095x64_1_0_n_n_0_1_164 100000#32 99999#32 (V (Proc.devRef .tc main_arg0)) (V (Proc.devRef .tc main_arg5))) := by
  unfold val2
  simp only [ops2]
  after_results_simp
  simp only [val1_arg V main_arg0 (by decide), val1_arg V main_arg5 (by decide)]
  rfl
theorem val2_v0 (V : Valuation τ sig (Elt F)) : val2 V (no_index (Proc.devRef .tc main_v0)) = (takeRows gather_S10000x64_S4095x1_S4095x64_1_0_n_n_0_1_164 10000#32 9999#32 (V (Proc.devRef .tc main_arg3)) (V (Proc.devRef .tc main_arg8))) :=
  (val2_keep V main_v0 (by decide)).trans (val1_v0 V)

theorem val3_v2 (V : Valuation τ sig (Elt F)) : val3 V (no_index (Proc.devRef .tc main_v2)) = (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg0)) (V (Proc.devRef .tc main_arg5)))) := by
  unfold val3
  simp only [ops3]
  after_results_simp
  simp only [val2_v0, val2_v1]

theorem val4_v3 (V : Valuation τ sig (Elt F)) : val4 V (no_index (Proc.devRef .tc main_v3)) = (takeRows gather_S200x64_S4095x1_S4095x64_1_0_n_n_0_1_164 200#32 199#32 (V (Proc.devRef .tc main_arg1)) (V (Proc.devRef .tc main_arg6))) := by
  unfold val4
  simp only [ops4]
  after_results_simp
  simp only [val3_arg V main_arg1 (by decide), val3_arg V main_arg6 (by decide)]
  rfl
theorem val4_v2 (V : Valuation τ sig (Elt F)) : val4 V (no_index (Proc.devRef .tc main_v2)) = (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg0)) (V (Proc.devRef .tc main_arg5)))) :=
  (val4_keep V main_v2 (by decide)).trans (val3_v2 V)

theorem val5_v4 (V : Valuation τ sig (Elt F)) : val5 V (no_index (Proc.devRef .tc main_v4)) = (takeRows gather_S10000x64_S4095x1_S4095x64_1_0_n_n_0_1_164 10000#32 9999#32 (V (Proc.devRef .tc main_arg3)) (V (Proc.devRef .tc main_arg8))) := by
  unfold val5
  simp only [ops5]
  after_results_simp
  simp only [val4_arg V main_arg3 (by decide), val4_arg V main_arg8 (by decide)]
  rfl
theorem val5_v2 (V : Valuation τ sig (Elt F)) : val5 V (no_index (Proc.devRef .tc main_v2)) = (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg0)) (V (Proc.devRef .tc main_arg5)))) :=
  (val5_keep V main_v2 (by decide)).trans (val4_v2 V)
theorem val5_v3 (V : Valuation τ sig (Elt F)) : val5 V (no_index (Proc.devRef .tc main_v3)) = (takeRows gather_S200x64_S4095x1_S4095x64_1_0_n_n_0_1_164 200#32 199#32 (V (Proc.devRef .tc main_arg1)) (V (Proc.devRef .tc main_arg6))) :=
  (val5_keep V main_v3 (by decide)).trans (val4_v3 V)

theorem val6_v5 (V : Valuation τ sig (Elt F)) : val6 V (no_index (Proc.devRef .tc main_v5)) = (takeRows gather_S100000x64_S4095x1_S4095x64_1_0_n_n_0_1_164 100000#32 99999#32 (V (Proc.devRef .tc main_arg2)) (V (Proc.devRef .tc main_arg7))) := by
  unfold val6
  simp only [ops6]
  after_results_simp
  simp only [val5_arg V main_arg2 (by decide), val5_arg V main_arg7 (by decide)]
  rfl
theorem val6_v2 (V : Valuation τ sig (Elt F)) : val6 V (no_index (Proc.devRef .tc main_v2)) = (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg0)) (V (Proc.devRef .tc main_arg5)))) :=
  (val6_keep V main_v2 (by decide)).trans (val5_v2 V)
theorem val6_v3 (V : Valuation τ sig (Elt F)) : val6 V (no_index (Proc.devRef .tc main_v3)) = (takeRows gather_S200x64_S4095x1_S4095x64_1_0_n_n_0_1_164 200#32 199#32 (V (Proc.devRef .tc main_arg1)) (V (Proc.devRef .tc main_arg6))) :=
  (val6_keep V main_v3 (by decide)).trans (val5_v3 V)
theorem val6_v4 (V : Valuation τ sig (Elt F)) : val6 V (no_index (Proc.devRef .tc main_v4)) = (takeRows gather_S10000x64_S4095x1_S4095x64_1_0_n_n_0_1_164 10000#32 9999#32 (V (Proc.devRef .tc main_arg3)) (V (Proc.devRef .tc main_arg8))) :=
  (val6_keep V main_v4 (by decide)).trans (val5_v4 V)

theorem val7_v10 (V : Valuation τ sig (Elt F)) : val7 V (no_index (Proc.devRef .tc main_v10)) = (memRows (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg0)) (V (Proc.devRef .tc main_arg5)))) (takeRows gather_S200x64_S4095x1_S4095x64_1_0_n_n_0_1_164 200#32 199#32 (V (Proc.devRef .tc main_arg1)) (V (Proc.devRef .tc main_arg6))) (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg2)) (V (Proc.devRef .tc main_arg7))))) := by
  unfold val7
  simp only [ops7]
  after_results_simp
  -- the update is the three column blocks side by side (`cat3`), each block a buffer's contents before this piece
  dsimp only [Matrix.cons_val]
  show Host.scatter _ _ _ _ (cat3 _ _ _) = _
  after_results_simp
  simp only [val6_v2, val6_v3, val6_v4, val6_v5]
  rfl

theorem val8_v11 (V : Valuation τ sig (Elt F)) : val8 V (no_index (Proc.devRef .tc main_v11)) = (takeRow gather_S10000x64_S1x1_S1x64_1_0_n_n_0_1_164 10000#32 9999#32 (V (Proc.devRef .tc main_arg3)) (V (Proc.devRef .tc main_arg11))) := by
  unfold val8
  simp only [ops8]
  after_results_simp
  simp only [val7_arg V main_arg3 (by decide), val7_arg V main_arg11 (by decide)]
  rfl
theorem val8_v10 (V : Valuation τ sig (Elt F)) : val8 V (no_index (Proc.devRef .tc main_v10)) = (memRows (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg0)) (V (Proc.devRef .tc main_arg5)))) (takeRows gather_S200x64_S4095x1_S4095x64_1_0_n_n_0_1_164 200#32 199#32 (V (Proc.devRef .tc main_arg1)) (V (Proc.devRef .tc main_arg6))) (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg2)) (V (Proc.devRef .tc main_arg7))))) :=
  (val8_keep V main_v10 (by decide)).trans (val7_v10 V)

theorem val9_v12 (V : Valuation τ sig (Elt F)) : val9 V (no_index (Proc.devRef .tc main_v12)) = (takeRow gather_S100000x64_S1x1_S1x64_1_0_n_n_0_1_164 100000#32 99999#32 (V (Proc.devRef .tc main_arg0)) (V (Proc.devRef .tc main_arg9))) := by
  unfold val9
  simp only [ops9]
  after_results_simp
  simp only [val8_arg V main_arg0 (by decide), val8_arg V main_arg9 (by decide)]
  rfl
theorem val9_v10 (V : Valuation τ sig (Elt F)) : val9 V (no_index (Proc.devRef .tc main_v10)) = (memRows (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg0)) (V (Proc.devRef .tc main_arg5)))) (takeRows gather_S200x64_S4095x1_S4095x64_1_0_n_n_0_1_164 200#32 199#32 (V (Proc.devRef .tc main_arg1)) (V (Proc.devRef .tc main_arg6))) (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg2)) (V (Proc.devRef .tc main_arg7))))) :=
  (val9_keep V main_v10 (by decide)).trans (val8_v10 V)
theorem val9_v11 (V : Valuation τ sig (Elt F)) : val9 V (no_index (Proc.devRef .tc main_v11)) = (takeRow gather_S10000x64_S1x1_S1x64_1_0_n_n_0_1_164 10000#32 9999#32 (V (Proc.devRef .tc main_arg3)) (V (Proc.devRef .tc main_arg11))) :=
  (val9_keep V main_v11 (by decide)).trans (val8_v11 V)

theorem val10_v13 (V : Valuation τ sig (Elt F)) : val10 V (no_index (Proc.devRef .tc main_v13)) = (addf (takeRow gather_S10000x64_S1x1_S1x64_1_0_n_n_0_1_164 10000#32 9999#32 (V (Proc.devRef .tc main_arg3)) (V (Proc.devRef .tc main_arg11))) (takeRow gather_S100000x64_S1x1_S1x64_1_0_n_n_0_1_164 100000#32 99999#32 (V (Proc.devRef .tc main_arg0)) (V (Proc.devRef .tc main_arg9)))) := by
  unfold val10
  simp only [ops10]
  after_results_simp
  simp only [val9_v11, val9_v12]
theorem val10_v10 (V : Valuation τ sig (Elt F)) : val10 V (no_index (Proc.devRef .tc main_v10)) = (memRows (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg0)) (V (Proc.devRef .tc main_arg5)))) (takeRows gather_S200x64_S4095x1_S4095x64_1_0_n_n_0_1_164 200#32 199#32 (V (Proc.devRef .tc main_arg1)) (V (Proc.devRef .tc main_arg6))) (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg2)) (V (Proc.devRef .tc main_arg7))))) :=
  (val10_keep V main_v10 (by decide)).trans (val9_v10 V)

theorem val11_v14 (V : Valuation τ sig (Elt F)) : val11 V (no_index (Proc.devRef .tc main_v14)) = (takeRow gather_S200x64_S1x1_S1x64_1_0_n_n_0_1_164 200#32 199#32 (V (Proc.devRef .tc main_arg1)) (V (Proc.devRef .tc main_arg10))) := by
  unfold val11
  simp only [ops11]
  after_results_simp
  simp only [val10_arg V main_arg1 (by decide), val10_arg V main_arg10 (by decide)]
  rfl
theorem val11_v10 (V : Valuation τ sig (Elt F)) : val11 V (no_index (Proc.devRef .tc main_v10)) = (memRows (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg0)) (V (Proc.devRef .tc main_arg5)))) (takeRows gather_S200x64_S4095x1_S4095x64_1_0_n_n_0_1_164 200#32 199#32 (V (Proc.devRef .tc main_arg1)) (V (Proc.devRef .tc main_arg6))) (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg2)) (V (Proc.devRef .tc main_arg7))))) :=
  (val11_keep V main_v10 (by decide)).trans (val10_v10 V)
theorem val11_v13 (V : Valuation τ sig (Elt F)) : val11 V (no_index (Proc.devRef .tc main_v13)) = (addf (takeRow gather_S10000x64_S1x1_S1x64_1_0_n_n_0_1_164 10000#32 9999#32 (V (Proc.devRef .tc main_arg3)) (V (Proc.devRef .tc main_arg11))) (takeRow gather_S100000x64_S1x1_S1x64_1_0_n_n_0_1_164 100000#32 99999#32 (V (Proc.devRef .tc main_arg0)) (V (Proc.devRef .tc main_arg9)))) :=
  (val11_keep V main_v13 (by decide)).trans (val10_v13 V)

theorem val12_v15 (V : Valuation τ sig (Elt F)) : val12 V (no_index (Proc.devRef .tc main_v15)) = (takeRow gather_S10000x64_S1x1_S1x64_1_0_n_n_0_1_164 10000#32 9999#32 (V (Proc.devRef .tc main_arg3)) (V (Proc.devRef .tc main_arg11))) := by
  unfold val12
  simp only [ops12]
  after_results_simp
  simp only [val11_arg V main_arg3 (by decide), val11_arg V main_arg11 (by decide)]
  rfl
theorem val12_v10 (V : Valuation τ sig (Elt F)) : val12 V (no_index (Proc.devRef .tc main_v10)) = (memRows (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg0)) (V (Proc.devRef .tc main_arg5)))) (takeRows gather_S200x64_S4095x1_S4095x64_1_0_n_n_0_1_164 200#32 199#32 (V (Proc.devRef .tc main_arg1)) (V (Proc.devRef .tc main_arg6))) (addf (takeRows gather_S10000x64_S4095x1_S4095x64_1_0_n_n_0_1_164 10000#32 9999#32 (V (Proc.devRef .tc main_arg3)) (V (Proc.devRef .tc main_arg8))) (takeRows gather_S100000x64_S4095x1_S4095x64_1_0_n_n_0_1_164 100000#32 99999#32 (V (Proc.devRef .tc main_arg2)) (V (Proc.devRef .tc main_arg7))))) :=
  (val12_keep V main_v10 (by decide)).trans (val11_v10 V)
theorem val12_v13 (V : Valuation τ sig (Elt F)) : val12 V (no_index (Proc.devRef .tc main_v13)) = (addf (takeRow gather_S10000x64_S1x1_S1x64_1_0_n_n_0_1_164 10000#32 9999#32 (V (Proc.devRef .tc main_arg3)) (V (Proc.devRef .tc main_arg11))) (takeRow gather_S100000x64_S1x1_S1x64_1_0_n_n_0_1_164 100000#32 99999#32 (V (Proc.devRef .tc main_arg0)) (V (Proc.devRef .tc main_arg9)))) :=
  (val12_keep V main_v13 (by decide)).trans (val11_v13 V)
theorem val12_v14 (V : Valuation τ sig (Elt F)) : val12 V (no_index (Proc.devRef .tc main_v14)) = (takeRow gather_S200x64_S1x1_S1x64_1_0_n_n_0_1_164 200#32 199#32 (V (Proc.devRef .tc main_arg1)) (V (Proc.devRef .tc main_arg10))) :=
  (val12_keep V main_v14 (by decide)).trans (val11_v14 V)

theorem val13_v23 (V : Valuation τ sig (Elt F)) : val13 V (no_index (Proc.devRef .tc main_v23)) = refTermF (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold val13
  simp only [ops13]
  after_results_simp
  -- the update is the question row's three column blocks side by side (`cat3q`), flattened to one row of 192
  dsimp only [Matrix.cons_val]
  show Host.scatter _ _ _ _ (fun i => shapeCast _ (cat3q _ _ _) _ i) = _
  after_results_simp
  simp only [val12_v10, val12_v13, val12_v14, val12_v15, val12_arg V main_arg4 (by decide)]
  rfl

/-- The fold of all the operations is the last of the piecewise folds. -/
theorem after_ops (V : Valuation τ sig (Elt F)) : after ops V = val13 V := by
  simp only [ops, after_append]
  rfl

end Cert.ReferenceIdeal.RefRun

end
-- ==== Proof.RefRun.lean ====
/-
  The reference's run at the ideal instance: from any memory with zero counters every weakly fair execution of @main
  terminates, the result buffer then holds `refTerm` of the arguments' launch contents — the operations composed —
  and the twelve arguments are unchanged.
-/
import proofs.«206817_g64347200028782_cont_9to1_m_612_22_alg».proof.Proof.RefRunVals
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The result array as a term of the twelve arguments, floats read as extended reals. -/
def refTerm (a0 : FVec Ideal S100000x64 .f32) (a1 : FVec Ideal S200x64 .f32) (a2 : FVec Ideal S100000x64 .f32)
    (a3 : FVec Ideal S10000x64 .f32) (a4 : FVec Ideal S2x64 .f32) (a5 a6 a7 a8 : IVec S4095 32) (a9 a10 a11 : IVec S1 32) :
    FVec Ideal S4096x192 .f32 :=
  refTermF (F := Ideal) a0 a1 a2 a3 a4 a5 a6 a7 a8 a9 a10 a11

theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v23) = refTerm
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c main_v23).trans (by rw [after_ops]; exact val13_v23 _),
      (h c main_arg0).trans (by rw [after_ops]; exact val13_arg _ main_arg0 (by decide)),
      (h c main_arg1).trans (by rw [after_ops]; exact val13_arg _ main_arg1 (by decide)),
      (h c main_arg2).trans (by rw [after_ops]; exact val13_arg _ main_arg2 (by decide)),
      (h c main_arg3).trans (by rw [after_ops]; exact val13_arg _ main_arg3 (by decide)),
      (h c main_arg4).trans (by rw [after_ops]; exact val13_arg _ main_arg4 (by decide)),
      (h c main_arg5).trans (by rw [after_ops]; exact val13_arg _ main_arg5 (by decide)),
      (h c main_arg6).trans (by rw [after_ops]; exact val13_arg _ main_arg6 (by decide)),
      (h c main_arg7).trans (by rw [after_ops]; exact val13_arg _ main_arg7 (by decide)),
      (h c main_arg8).trans (by rw [after_ops]; exact val13_arg _ main_arg8 (by decide)),
      (h c main_arg9).trans (by rw [after_ops]; exact val13_arg _ main_arg9 (by decide)),
      (h c main_arg10).trans (by rw [after_ops]; exact val13_arg _ main_arg10 (by decide)),
      (h c main_arg11).trans (by rw [after_ops]; exact val13_arg _ main_arg11 (by decide))⟩)
    (run_main (F := Ideal) m ρ)

end Cert.ReferenceIdeal.RefRun

end
-- ==== Proof.RefClaims.lean ====
/-
  The reference's frame claim: it runs to the end from any memory with zero counters and leaves its twelve arguments
  unchanged — the run with the value dropped.
-/
import proofs.«206817_g64347200028782_cont_9to1_m_612_22_alg».proof.Defs
import proofs.«206817_g64347200028782_cont_9to1_m_612_22_alg».proof.Proof.Gen.ReferenceIdeal
import proofs.«206817_g64347200028782_cont_9to1_m_612_22_alg».proof.Proof.Gen.Pre_input_domain
import proofs.«206817_g64347200028782_cont_9to1_m_612_22_alg».proof.Proof.RefRun

noncomputable section

namespace Cert.Proof.RefClaims

open Idealize.ShloMosaic Idealize.SL.Sem

theorem frame_ri : Cert.frame_ReferenceIdeal := fun m ρ _ =>
  (θ_run Cert.ReferenceIdeal.defs _ _).mono (fun _ h c => (h c).2) (Cert.ReferenceIdeal.RefRun.run m ρ)

end Cert.Proof.RefClaims

end
-- ==== Proof.RefValueScatter.lean ====
/-
  A scatter read at one index. `stablehlo.scatter` is a left fold over the update indices in row-major order, each
  update replacing the element at its result index (or dropped when that index leaves the operand). At an index that
  exactly one update lands on, the fold's value is the body applied to the operand's element and that update; at an
  index no update lands on, it is the operand's element.
-/
import Idealize.ShloMosaic.PureOps

noncomputable section

namespace Cert.ReferenceIdeal.RefValue

open Idealize.ShloMosaic

variable {α : Type} {s si u : Shape} {w : Nat}

/-- One step of the fold: update `n` (in row-major order) lands at its result index, or is dropped. -/
def scStep (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (scStep d f idx upd) x := rfl

theorem scStep_at_ne (d : ScatterDims s si u) (f : α → α → α) (idx : IVec si w) (upd : u.Idx → α) (r : s.Idx → α)
    (n : Fin u.numel) (i : s.Idx) (h : d.resultIdx? (u.rowMajor.symm n) idx ≠ some i) : scStep d f idx upd r n i = r i := by
  unfold scStep
  cases hg : d.resultIdx? (u.rowMajor.symm n) idx with
  | none => rfl
  | some i0 =>
    have hne : i ≠ i0 := fun e => h (by rw [hg, e])
    dsimp only
    exact if_neg hne

theorem scStep_at_eq (d : ScatterDims s si u) (f : α → α → α) (idx : IVec si w) (upd : u.Idx → α) (r : s.Idx → α)
    (n : Fin u.numel) (i : s.Idx) (h : d.resultIdx? (u.rowMajor.symm n) idx = some i) :
    scStep d f idx upd r n i = f (r i) (upd (u.rowMajor.symm n)) := by
  unfold scStep
  rw [h]
  dsimp only
  exact if_pos rfl

/-- No update of the list lands on `i`: the fold leaves the element at `i`. -/
theorem foldl_miss (d : ScatterDims s si u) (f : α → α → α) (idx : IVec si w) (upd : u.Idx → α) (i : s.Idx) :
    ∀ (l : List (Fin u.numel)) (r : s.Idx → α), (∀ n ∈ l, d.resultIdx? (u.rowMajor.symm n) idx ≠ some i) →
      l.foldl (scStep d f idx upd) r i = r i
  | [], _, _ => rfl
  | n :: l, r, h => by
    rw [List.foldl_cons, foldl_miss d f idx upd i l _ (fun m hm => h m (List.mem_cons_of_mem _ hm)),
      scStep_at_ne d f idx upd r n i (h n List.mem_cons_self)]

/-- Exactly one update of the list, `n`, lands on `i`: the fold's element at `i` is the body of the element before and
    that update. -/
theorem foldl_hit (d : ScatterDims s si u) (f : α → α → α) (idx : IVec si w) (upd : u.Idx → α) (i : s.Idx) (n : Fin u.numel)
    (hn : d.resultIdx? (u.rowMajor.symm n) idx = some i) :
    ∀ (l : List (Fin u.numel)) (r : s.Idx → α), l.Nodup → n ∈ l →
      (∀ m ∈ l, d.resultIdx? (u.rowMajor.symm m) idx = some i → m = n) →
      l.foldl (scStep d f idx upd) r i = f (r i) (upd (u.rowMajor.symm n))
  | [], _, _, hmem, _ => absurd hmem List.not_mem_nil
  | m :: l, r, hnd, hmem, huniq => by
    rw [List.foldl_cons]
    have hnd' := List.nodup_cons.mp hnd
    rcases List.mem_cons.mp hmem with e | hl
    · subst e
      rw [foldl_miss d f idx upd i l _ (fun m' hm' hg =>
          hnd'.1 (huniq m' (List.mem_cons_of_mem _ hm') hg ▸ hm')),
        scStep_at_eq d f idx upd r n i hn]
    · have hne : d.resultIdx? (u.rowMajor.symm m) idx ≠ some i := fun hg =>
        hnd'.1 (huniq m List.mem_cons_self hg ▸ hl)
      rw [foldl_hit d f idx upd i n hn l _ hnd'.2 hl (fun m' hm' => huniq m' (List.mem_cons_of_mem _ hm')),
        scStep_at_ne d f idx upd r m i hne]

/-- The scatter at an index exactly one update lands on. -/
theorem scatter_hit (d : ScatterDims s si u) (f : α → α → α) (x : s.Idx → α) (idx : IVec si w) (upd : u.Idx → α)
    (j : u.Idx) (i : s.Idx) (hj : d.resultIdx? j idx = some i) (huniq : ∀ j', d.resultIdx? j' idx = some i → j' = j) :
    Host.scatter d f x idx upd i = f (x i) (upd j) := by
  have e : u.rowMajor.symm (u.rowMajor j) = j := Equiv.symm_apply_apply _ _
  rw [scatter_eq_foldl, foldl_hit d f idx upd i (u.rowMajor j) (by rw [e]; exact hj) _ x (List.nodup_finRange _)
    (List.mem_finRange _) (fun m _ hm => by rw [← huniq _ hm, Equiv.apply_symm_apply]), e]

/-- The scatter at an index no update lands on. -/
theorem scatter_miss (d : ScatterDims s si u) (f : α → α → α) (x : s.Idx → α) (idx : IVec si w) (upd : u.Idx → α)
    (i : s.Idx) (h : ∀ j, d.resultIdx? j idx ≠ some i) : Host.scatter d f x idx upd i = x i := by
  rw [scatter_eq_foldl, foldl_miss d f idx upd i _ x (fun n _ => h _)]

end Cert.ReferenceIdeal.RefValue

end
-- ==== Proof.RefValueRows.lean ====
/-
  The result array read at an index, down to the column blocks: the last write puts the question row at row 4095 and
  leaves rows 0 … 4094 as the first write made them — the three 64-wide column blocks side by side —; a column block
  read at column `c` is its own column `c mod 64`.
-/
import proofs.«206817_g64347200028782_cont_9to1_m_612_22_alg».proof.Proof.RefRunVals
import proofs.«206817_g64347200028782_cont_9to1_m_612_22_alg».proof.Proof.RefValueScatter
import Idealize.ShloMosaic.Lib.ValueIdx
import Idealize.ShloMosaic.Lib.ValueLayout

noncomputable section

namespace Cert.ReferenceIdeal.RefValue

open Cert.ReferenceIdeal Cert.ReferenceIdeal.Gen Cert.ReferenceIdeal.RefRun Idealize.ShloMosaic Idealize.ShloMosaic.ValueIdx

variable {F : FTy → Type} [FloatOps F]

/-! ## The two writes -/

/-- The start index of the first write: row 0. -/
abbrev idx0 : IVec S1 32 := broadcastInDim S1 ![] bcast_S_S1 (constantI S_ 32 0#32)
/-- The start index of the second write: row 4095. -/
abbrev idxL : IVec S1 32 := broadcastInDim S1 ![] bcast_S_S1 (constantI S_ 32 4095#32)

/-- Element `(r, c)` of the 4095 × 192 block lands at `(r, c)`. -/
theorem memRows_resultIdx (j : S4095x192.Idx) :
    scatter_S4096x192_S1_S4095x192_01_n_0_0.resultIdx? j idx0
      = some (ix2 (⟨(j 0).val, Nat.lt_trans (j 0).isLt (by decide)⟩ : Fin 4096) (⟨(j 1).val, (j 1).isLt⟩ : Fin 192)) := by
  have h0 : (j 0).val < 4095 := (j 0).isLt
  have h1 : (j 1).val < 192 := (j 1).isLt
  unfold ScatterDims.resultIdx?
  split
  · congr 1
    funext a
    refine Fin.ext ?_
    match a with
    | ⟨0, _⟩ => show ((0 : Int) + ((j 0).val : Int)).toNat = (j 0).val; omega
    | ⟨1, _⟩ => show ((0 : Int) + ((j 1).val : Int)).toNat = (j 1).val; omega
  · next h =>
    refine absurd (Fin.forall_fin_two.mpr ⟨?_, ?_⟩) h
    · show 0 ≤ (0 : Int) + ((j 0).val : Int) ∧ (0 : Int) + ((j 0).val : Int) < ((4096 : Nat) : Int); omega
    · show 0 ≤ (0 : Int) + ((j 1).val : Int) ∧ (0 : Int) + ((j 1).val : Int) < ((192 : Nat) : Int); omega

/-- Element `c` of the 192-long row lands at `(4095, c)`. -/
theorem withQRow_resultIdx (j : S192.Idx) :
    scatter_S4096x192_S1_S192_0_0_0_0.resultIdx? j idxL
      = some (ix2 (⟨4095, by decide⟩ : Fin 4096) (⟨(j 0).val, (j 0).isLt⟩ : Fin 192)) := by
  have h0 : (j 0).val < 192 := (j 0).isLt
  unfold ScatterDims.resultIdx?
  split
  · congr 1
    funext a
    refine Fin.ext ?_
    match a with
    | ⟨0, _⟩ => show ((4095 : Int) + ((0 : Nat) : Int)).toNat = 4095; omega
    | ⟨1, _⟩ => show ((0 : Int) + ((j 0).val : Int)).toNat = (j 0).val; omega
  · next h =>
    refine absurd (Fin.forall_fin_two.mpr ⟨?_, ?_⟩) h
    · show 0 ≤ (4095 : Int) + ((0 : Nat) : Int) ∧ (4095 : Int) + ((0 : Nat) : Int) < ((4096 : Nat) : Int); omega
    · show 0 ≤ (0 : Int) + ((j 0).val : Int) ∧ (0 : Int) + ((j 0).val : Int) < ((192 : Nat) : Int); omega

/-- Rows 0 … 4094 after the first write: the three column blocks side by side. -/
theorem memRows_apply (hd rl tl : FVec F S4095x64 .f32) (r : Fin 4096) (c : Fin 192) (h : r.val < 4095) :
    memRows hd rl tl (ix2 r c) = cat3 hd rl tl (ix2 (⟨r.val, h⟩ : Fin 4095) c) := by
  unfold memRows
  refine scatter_hit _ _ _ _ _ (ix2 (⟨r.val, h⟩ : Fin 4095) c) _ ?_ ?_
  · rw [memRows_resultIdx]
  · intro j' hj'
    rw [memRows_resultIdx] at hj'
    have e := Option.some.inj hj'
    rw [eq_ix2 j']
    have e0 := congrArg (fun i => (i 0).val) e
    have e1 := congrArg (fun i => (i 1).val) e
    congr 1
    · exact Fin.ext e0
    · exact Fin.ext e1

/-- Rows 0 … 4094 are not touched by the second write. -/
theorem withQRow_apply_mem (x : FVec F S4096x192 .f32) (qh qr qt : FVec F S1x64 .f32) (r : Fin 4096) (c : Fin 192)
    (h : r.val < 4095) : withQRow x qh qr qt (ix2 r c) = x (ix2 r c) := by
  unfold withQRow
  refine scatter_miss _ _ _ _ _ _ ?_
  intro j hj
  rw [withQRow_resultIdx] at hj
  have e0 := congrArg (fun i => (i 0).val) (Option.some.inj hj)
  have : (4095 : Nat) = r.val := e0
  omega

/-- Row 4095 after the second write: the question row's three column blocks side by side. -/
theorem withQRow_apply_last (x : FVec F S4096x192 .f32) (qh qr qt : FVec F S1x64 .f32) (r : Fin 4096) (c : Fin 192)
    (h : r.val = 4095) : withQRow x qh qr qt (ix2 r c) = cat3q qh qr qt (ix2 (0 : Fin 1) c) := by
  unfold withQRow
  rw [scatter_hit _ _ _ _ _ (ix1 c) (ix2 r c) (by
      rw [withQRow_resultIdx]; congr 1; congr 1; exact Fin.ext h.symm) (by
      intro j' hj'
      rw [withQRow_resultIdx] at hj'
      have e1 := congrArg (fun i => (i 1).val) (Option.some.inj hj')
      rw [eq_ix1 j']
      congr 1
      exact Fin.ext e1)]
  exact shapeCast_1a_a_apply _ _ c

end Cert.ReferenceIdeal.RefValue

end
-- ==== Proof.RefValueCols.lean ====
/-
  Three 64-wide column blocks side by side, read at a column: block `k` at its own column, for the column `64 k + c`.
-/
import proofs.«206817_g64347200028782_cont_9to1_m_612_22_alg».proof.Proof.RefRunVals
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx

variable {F : FTy → Type} [FloatOps F]

/-- One lemma for the three blocks of the 4095-row array: block `k` (with the blocks before it `pre = 64 k` columns wide). -/
theorem cat3_piece (a b c : FVec F S4095x64 .f32) (r : Fin 4095) (col : Fin 192) (c' : Fin 64)
    (k : Nat) (hk : k < 3) (x : FVec F S4095x64 .f32)
    (hx : ([⟨S4095x64, a⟩, ⟨S4095x64, b⟩, ⟨S4095x64, c⟩] : List ((s : Shape) × (s.Idx → F .f32)))[k]'hk = ⟨S4095x64, x⟩)
    (hcol : 64 * k + c'.val = col.val) : cat3 a b c (ix2 r col) = x (ix2 r c') := by
  unfold cat3
  refine concatenate_apply_piece (t := S4095x192) 1 [⟨S4095x64, a⟩, ⟨S4095x64, b⟩, ⟨S4095x64, c⟩] _ (ix2 r col) k hk S4095x64 x hx rfl (64 * k) ?_ (ix2 r c') ?_ hcol
  · match k, hk with
    | 0, _ => rfl
    | 1, _ => rfl
    | 2, _ => rfl
  · intro b' hb'
    match b' with
    | ⟨0, _⟩ => rfl
    | ⟨1, _⟩ => exact absurd rfl hb'

theorem cat3_left (a b c : FVec F S4095x64 .f32) (r : Fin 4095) (col : Fin 192) (h : col.val < 64) :
    cat3 a b c (ix2 r col) = a (ix2 r (⟨col.val, h⟩ : Fin 64)) :=
  cat3_piece a b c r col ⟨col.val, h⟩ 0 (by decide) a rfl (by simp)

theorem cat3_mid (a b c : FVec F S4095x64 .f32) (r : Fin 4095) (col : Fin 192) (h1 : 64 ≤ col.val) (h2 : col.val < 128) :
    cat3 a b c (ix2 r col) = b (ix2 r (⟨col.val - 64, by omega⟩ : Fin 64)) :=
  cat3_piece a b c r col ⟨col.val - 64, by omega⟩ 1 (by decide) b rfl (by show 64 * 1 + (col.val - 64) = col.val; omega)

theorem cat3_right (a b c : FVec F S4095x64 .f32) (r : Fin 4095) (col : Fin 192) (h1 : 128 ≤ col.val) :
    cat3 a b c (ix2 r col) = c (ix2 r (⟨col.val - 128, by have := col.isLt; omega⟩ : Fin 64)) :=
  cat3_piece a b c r col ⟨col.val - 128, by have := col.isLt; omega⟩ 2 (by decide) c rfl
    (by show 64 * 2 + (col.val - 128) = col.val; omega)

/-- The same for the one-row array. -/
theorem cat3q_piece (a b c : FVec F S1x64 .f32) (r : Fin 1) (col : Fin 192) (c' : Fin 64)
    (k : Nat) (hk : k < 3) (x : FVec F S1x64 .f32)
    (hx : ([⟨S1x64, a⟩, ⟨S1x64, b⟩, ⟨S1x64, c⟩] : List ((s : Shape) × (s.Idx → F .f32)))[k]'hk = ⟨S1x64, x⟩)
    (hcol : 64 * k + c'.val = col.val) : cat3q a b c (ix2 r col) = x (ix2 r c') := by
  unfold cat3q
  refine concatenate_apply_piece (t := S1x192) 1 [⟨S1x64, a⟩, ⟨S1x64, b⟩, ⟨S1x64, c⟩] _ (ix2 r col) k hk S1x64 x hx rfl (64 * k) ?_ (ix2 r c') ?_ hcol
  · match k, hk with
    | 0, _ => rfl
    | 1, _ => rfl
    | 2, _ => rfl
  · intro b' hb'
    match b' with
    | ⟨0, _⟩ => rfl
    | ⟨1, _⟩ => exact absurd rfl hb'

theorem cat3q_left (a b c : FVec F S1x64 .f32) (r : Fin 1) (col : Fin 192) (h : col.val < 64) :
    cat3q a b c (ix2 r col) = a (ix2 r (⟨col.val, h⟩ : Fin 64)) :=
  cat3q_piece a b c r col ⟨col.val, h⟩ 0 (by decide) a rfl (by simp)

theorem cat3q_mid (a b c : FVec F S1x64 .f32) (r : Fin 1) (col : Fin 192) (h1 : 64 ≤ col.val) (h2 : col.val < 128) :
    cat3q a b c (ix2 r col) = b (ix2 r (⟨col.val - 64, by omega⟩ : Fin 64)) :=
  cat3q_piece a b c r col ⟨col.val - 64, by omega⟩ 1 (by decide) b rfl (by show 64 * 1 + (col.val - 64) = col.val; omega)

theorem cat3q_right (a b c : FVec F S1x64 .f32) (r : Fin 1) (col : Fin 192) (h1 : 128 ≤ col.val) :
    cat3q a b c (ix2 r col) = c (ix2 r (⟨col.val - 128, by have := col.isLt; omega⟩ : Fin 64)) :=
  cat3q_piece a b c r col ⟨col.val - 128, by have := col.isLt; omega⟩ 2 (by decide) c rfl
    (by show 64 * 2 + (col.val - 128) = col.val; omega)

end Cert.ReferenceIdeal.RefValue

end
-- ==== Proof.RefValueTake.lean ====
/-
  `jnp.take` read at an index when every index word names a row of the table.

  A word below the table's row count `N ≤ 2^31` is non-negative as a signed number, so the wrap of negative words leaves
  it alone, both bound checks `0 ≤ w` and `w ≤ N - 1` hold, the mask that chooses between the gathered row and the NaN
  fill is all ones, and the gather's clamp of the start index into `[0, N - 1]` is the identity: the result at
  `(r, c)` is the table's row `w_r` at column `c`.
-/
import proofs.«206817_g64347200028782_cont_9to1_m_612_22_alg».proof.Proof.RefRunVals
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.ValueIdx

variable {F : FTy → Type} [FloatOps F]

/-! ## Index words as signed numbers -/

theorem toInt_of_lt (w : BitVec 32) (h : w.toNat < 2 ^ 31) : w.toInt = (w.toNat : Int) :=
  BitVec.toInt_eq_toNat_of_lt (by omega)

theorem cmpi_slt_zero (w : BitVec 32) (h : w.toNat < 2 ^ 31) : IntOp.cmpi .slt w 0#32 = 0#1 := by
  have e : w.slt 0#32 = false := by
    rw [BitVec.slt_eq_decide, toInt_of_lt w h, BitVec.toInt_zero]
    exact decide_eq_false (by omega)
  show BitVec.ofBool (w.slt 0#32) = 0#1
  rw [e]; rfl

theorem cmpi_sge_zero (w : BitVec 32) (h : w.toNat < 2 ^ 31) : IntOp.cmpi .sge w 0#32 = 1#1 := by
  have e : (0#32).sle w = true := by
    rw [BitVec.sle_eq_decide, toInt_of_lt w h, BitVec.toInt_zero]
    exact decide_eq_true (by omega)
  show BitVec.ofBool ((0#32).sle w) = 1#1
  rw [e]; rfl

theorem cmpi_sle_of_le (w hi : BitVec 32) (h : w.toNat ≤ hi.toNat) (hh : hi.toNat < 2 ^ 31) : IntOp.cmpi .sle w hi = 1#1 := by
  have e : w.sle hi = true := by
    rw [BitVec.sle_eq_decide, toInt_of_lt w (by omega), toInt_of_lt hi hh]
    exact decide_eq_true (by omega)
  show BitVec.ofBool (w.sle hi) = 1#1
  rw [e]; rfl

/-- The wrap of negative words leaves a non-negative word alone. -/
theorem wrap_apply {s : Shape} (idx zeros ns : IVec s 32) (i : s.Idx) (hz : zeros i = 0#32) (h : (idx i).toNat < 2 ^ 31) :
    select (cmpi .slt idx zeros) (addi idx ns) idx i = idx i := by
  show Scalar.select (IntOp.cmpi .slt (idx i) (zeros i)) _ _ = _
  rw [hz, cmpi_slt_zero _ h]
  exact select_zero _ _

/-- Both bound checks hold at a word in `[0, hi]`. -/
theorem bounds_apply {s : Shape} (col zeros his : IVec s 32) (hi : BitVec 32) (i : s.Idx) (hz : zeros i = 0#32) (hh : his i = hi)
    (h : (col i).toNat ≤ hi.toNat) (hhi : hi.toNat < 2 ^ 31) :
    andi (cmpi .sge col zeros) (cmpi .sle col his) i = 1#1 := by
  show IntOp.andi (IntOp.cmpi .sge (col i) (zeros i)) (IntOp.cmpi .sle (col i) (his i)) = 1#1
  rw [hz, hh, cmpi_sge_zero _ (by omega), cmpi_sle_of_le _ _ h hhi]
  rfl

/-- A conjunction of ones, from one, is one. -/
theorem foldl_andi_one {ι : Type} (g : ι → BitVec 1) : ∀ (l : List ι), (∀ n ∈ l, g n = 1#1) →
    l.foldl (fun r n => IntOp.andi r (g n)) 1#1 = 1#1
  | [], _ => rfl
  | n :: l, h => by
    rw [List.foldl_cons, h n List.mem_cons_self]
    exact foldl_andi_one g l (fun m hm => h m (List.mem_cons_of_mem _ hm))

/-- The conjunction of an all-ones mask along any axes, from one, is all ones. -/
theorem reduce_andi_ones {s t u : Shape} {axes : List (Fin s.rank)} (x : IVec s 1) (init : IVec u 1) (h : s.ReducesTo axes t)
    (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) _ (fun n _ => hx _)

/-! ## A gather of whole rows -/

/-- The dimension numbers of `tbl[idx]` over a table `[N, 64]` and a column `[R, 1]` of start indices: result
    `[R, 64]`, one row per start index. -/
abbrev rowDims (N R : Nat)
    (wf : GatherDims.WF ⟨2, ![N, 64]⟩ ⟨2, ![R, 1]⟩ ⟨2, ![R, 64]⟩ [1] [0] [] [0] [] 1 ![1, 64]) :
    GatherDims ⟨2, ![N, 64]⟩ ⟨2, ![R, 1]⟩ ⟨2, ![R, 64]⟩ where
  offsetDims := [1]
  collapsedSliceDims := [0]
  operandBatchingDims := []
  startIndicesBatchingDims := []
  startIndexMap := [0]
  indexVectorDim := 1
  sliceSizes := ![1, 64]
  wf := wf

/-- The row gather read at `(r, c)`: the table at the start index of row `r`, read signed and clamped into
    `[0, N - 1]`, and column `c`. -/
theorem gather_rows_apply {α : Type} {N R : Nat} (hN : 0 < N)
    (wf : GatherDims.WF ⟨2, ![N, 64]⟩ ⟨2, ![R, 1]⟩ ⟨2, ![R, 64]⟩ [1] [0] [] [0] [] 1 ![1, 64])
    (x : (⟨2, ![N, 64]⟩ : Shape).Idx → α) (idx : IVec ⟨2, ![R, 1]⟩ 32) (r : Fin R) (c : Fin 64) :
    Host.gather (rowDims N R wf) x idx (ix2 r c)
      = x (ix2 (⟨min (idx (ix2 r (0 : Fin 1))).toInt.toNat (N - 1), by omega⟩ : Fin N) c) := by
  unfold Host.gather
  congr 1
  funext a
  refine Fin.ext ?_
  have hsi : (rowDims N R wf).siIdx (ix2 r c) ⟨List.idxOf (0 : Fin 2) (rowDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  match a with
  | ⟨0, _⟩ =>
    show (rowDims N R wf).start (ix2 r c) idx 0 + (rowDims N R wf).batchCoord (ix2 r c) 0
      + (rowDims N R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R wf).startIndexMap from List.mem_singleton.mpr rfl), hsi]
    rfl
  | ⟨1, _⟩ =>
    show (rowDims N R wf).start (ix2 r c) idx 1 + (rowDims N R wf).batchCoord (ix2 r c) 1
      + (rowDims N R wf).offCoord (ix2 r c) 1 = c.val
    rw [GatherDims.batchCoord_eq_zero _ _ _ List.not_mem_nil]
    unfold GatherDims.start
    rw [dif_neg (show (1 : Fin 2) ∉ (rowDims N R wf).startIndexMap from (by decide : (1 : Fin 2) ∉ ([0] : List (Fin 2))))]
    simp only [Nat.zero_add, Nat.add_zero]
    rfl

/-! ## `jnp.take` at an index -/

/-- Over 4095 words, each naming a row of an `N`-row table: the result at `(r, c)` is the table's row `idx r`, column `c`. -/
theorem takeRows_apply {N : Nat}
    (wf : GatherDims.WF ⟨2, ![N, 64]⟩ ⟨2, ![4095, 1]⟩ ⟨2, ![4095, 64]⟩ [1] [0] [] [0] [] 1 ![1, 64])
    (n hi : BitVec 32) (tbl : FVec F ⟨2, ![N, 64]⟩ .f32) (idx : IVec S4095 32)
    (hhi : hi.toNat + 1 = N) (hN31 : N ≤ 2 ^ 31) (hidx : ∀ i, (idx i).toNat < N) (r : Fin 4095) (c : Fin 64) :
    takeRows (rowDims N 4095 wf) n hi tbl idx (ix2 r c) = tbl (ix2 (⟨(idx (ix1 r)).toNat, hidx _⟩ : Fin N) c) := by
  have hcol : ∀ k : S4095x1.Idx, wrapCol n idx k = idx (ix1 (k 0)) := by
    intro k
    unfold wrapCol broadcastInDim
    dsimp only
    rw [wrap_apply _ _ _ _ rfl (Nat.lt_of_lt_of_le (hidx _) hN31)]
    congr 1
    funext a
    match a with
    | ⟨0, _⟩ => rfl
  have hok : ∀ k : S4095.Idx, inRows hi (wrapCol n idx) k = 1#1 := by
    intro k
    unfold inRows
    refine reduce_andi_ones _ _ _ _ (fun i => ?_) (fun _ => rfl) k
    refine bounds_apply _ _ _ hi i rfl rfl ?_ (by omega)
    rw [hcol]
    have := hidx (ix1 (i 0))
    omega
  unfold takeRows
  show Scalar.select (inRows hi (wrapCol n idx) _) (Host.gather (rowDims N 4095 wf) tbl (wrapCol n idx) (ix2 r c)) _ = _
  rw [hok, select_one, gather_rows_apply (by omega) wf tbl _ r c]
  congr 2
  refine Fin.ext ?_
  show min (wrapCol n idx (ix2 r (0 : Fin 1))).toInt.toNat (N - 1) = (idx (ix1 r)).toNat
  rw [hcol]
  show min (idx (ix1 r)).toInt.toNat (N - 1) = (idx (ix1 r)).toNat
  have := hidx (ix1 r)
  rw [toInt_of_lt _ (by omega)]
  omega

/-- Over one word naming a row of an `N`-row table: the result's one row is that row. -/
theorem takeRow_apply {N : Nat}
    (wf : GatherDims.WF ⟨2, ![N, 64]⟩ ⟨2, ![1, 1]⟩ ⟨2, ![1, 64]⟩ [1] [0] [] [0] [] 1 ![1, 64])
    (n hi : BitVec 32) (tbl : FVec F ⟨2, ![N, 64]⟩ .f32) (idx : IVec S1 32)
    (hhi : hi.toNat + 1 = N) (hN31 : N ≤ 2 ^ 31) (hidx : ∀ i, (idx i).toNat < N) (c : Fin 64) :
    takeRow (rowDims N 1 wf) n hi tbl idx (ix2 (0 : Fin 1) c)
      = tbl (ix2 (⟨(idx (ix1 (0 : Fin 1))).toNat, hidx _⟩ : Fin N) c) := by
  have hcol : ∀ k : S1x1.Idx, wrapCol1 n idx k = idx (ix1 (0 : Fin 1)) := by
    intro k
    unfold wrapCol1 broadcastInDim
    dsimp only
    rw [wrap_apply _ _ _ _ rfl (Nat.lt_of_lt_of_le (hidx _) hN31)]
    congr 1
    funext a
    match a with
    | ⟨0, _⟩ => rfl
  have hok : ∀ k : S1.Idx, inRows1 hi (wrapCol1 n idx) k = 1#1 := by
    intro k
    unfold inRows1
    refine reduce_andi_ones _ _ _ _ (fun i => ?_) (fun _ => rfl) k
    refine bounds_apply _ _ _ hi i rfl rfl ?_ (by omega)
    rw [hcol]
    have := hidx (ix1 (0 : Fin 1))
    omega
  unfold takeRow
  show Scalar.select (inRows1 hi (wrapCol1 n idx) _) (Host.gather (rowDims N 1 wf) tbl (wrapCol1 n idx) (ix2 (0 : Fin 1) c)) _ = _
  rw [hok, select_one, gather_rows_apply (by omega) wf tbl _ (0 : Fin 1) c]
  congr 2
  refine Fin.ext ?_
  show min (wrapCol1 n idx (ix2 (0 : Fin 1) (0 : Fin 1))).toInt.toNat (N - 1) = (idx (ix1 (0 : Fin 1))).toNat
  rw [hcol]
  have := hidx (ix1 (0 : Fin 1))
  rw [toInt_of_lt _ (by omega)]
  omega

end Cert.ReferenceIdeal.RefValue

end
-- ==== Proof.Spec.lean ====
/-
  The result as ONE function of the argument arrays, for any float instance.

  Output row `r` of the 4096 × 192 array is built from four table rows named by index words: for `r < 4095` the words are
  entry `r` of the four index lists, for `r = 4095` the three query words (and no tail word). Columns 0–63 hold
  `names[n] + heads[h]`, columns 64–127 hold `relations[l]`, columns 128–191 hold `names[n] + tails[t]` for `r < 4095`
  and `names[n] + specials[1]` for the last row. A word names row `w mod (number of rows)`; under the certificate's
  precondition every word is below its table's number of rows, so the reduction is the identity there.
-/
import Idealize.ShloMosaic.PureOps
import Idealize.ShloMosaic.Lib.ValueIdx

noncomputable section

namespace Cert.Spec

open Idealize.ShloMosaic Idealize.ShloMosaic.ValueIdx

variable {F : FTy → Type} [FloatOps F]

/-- The table row a 32-bit word names, reduced into the table. -/
def rowOf (n : Nat) (hn : 0 < n) (w : BitVec 32) : Fin n := ⟨w.toNat % n, Nat.mod_lt _ hn⟩

theorem rowOf_val (n : Nat) (hn : 0 < n) (w : BitVec 32) (h : w.toNat < n) : (rowOf n hn w).val = w.toNat :=
  Nat.mod_eq_of_lt h

/-- The index word of output row `r`: the list's entry below 4095, the query's word at 4095. -/
def idxWord (lst : IVec ⟨1, ![4095]⟩ 32) (q : IVec ⟨1, ![1]⟩ 32) (r : Fin 4096) : BitVec 32 :=
  if h : r.val < 4095 then lst (ix1 ⟨r.val, h⟩) else q (ix1 (0 : Fin 1))

/-- The column inside a 64-wide third of an output row. -/
def col64 (c : Fin 192) : Fin 64 := ⟨c.val % 64, Nat.mod_lt _ (by decide)⟩

/-- The result at row `r`, column `c`. -/
def Gat (heads : FVec F ⟨2, ![100000, 64]⟩ .f32) (rels : FVec F ⟨2, ![200, 64]⟩ .f32) (tails : FVec F ⟨2, ![100000, 64]⟩ .f32)
    (names : FVec F ⟨2, ![10000, 64]⟩ .f32) (specials : FVec F ⟨2, ![2, 64]⟩ .f32)
    (hidx ridx tidx nidx : IVec ⟨1, ![4095]⟩ 32) (qh qr qn : IVec ⟨1, ![1]⟩ 32) (r : Fin 4096) (c : Fin 192) : F .f32 :=
  let nm : F .f32 := names (ix2 (rowOf 10000 (by decide) (idxWord nidx qn r)) (col64 c))
  if c.val < 64 then FloatOps.addf nm (heads (ix2 (rowOf 100000 (by decide) (idxWord hidx qh r)) (col64 c)))
  else if c.val < 128 then rels (ix2 (rowOf 200 (by decide) (idxWord ridx qr r)) (col64 c))
  else FloatOps.addf nm (if h : r.val < 4095 then tails (ix2 (rowOf 100000 (by decide) (tidx (ix1 ⟨r.val, h⟩))) (col64 c))
    else specials (ix2 (1 : Fin 2) (col64 c)))

/-- The whole result array. -/
def G (heads : FVec F ⟨2, ![100000, 64]⟩ .f32) (rels : FVec F ⟨2, ![200, 64]⟩ .f32) (tails : FVec F ⟨2, ![100000, 64]⟩ .f32)
    (names : FVec F ⟨2, ![10000, 64]⟩ .f32) (specials : FVec F ⟨2, ![2, 64]⟩ .f32)
    (hidx ridx tidx nidx : IVec ⟨1, ![4095]⟩ 32) (qh qr qn : IVec ⟨1, ![1]⟩ 32) : FVec F ⟨2, ![4096, 192]⟩ .f32 :=
  fun j => Gat heads rels tails names specials hidx ridx tidx nidx qh qr qn (j 0) (j 1)

/-- The integer inputs are in range of the tables they index (what the precondition says of them, as plain inequalities). -/
structure InRange (hidx ridx tidx nidx : IVec ⟨1, ![4095]⟩ 32) (qh qr qn : IVec ⟨1, ![1]⟩ 32) : Prop where
  h : ∀ i, (hidx i).toNat < 100000
  r : ∀ i, (ridx i).toNat < 200
  t : ∀ i, (tidx i).toNat < 100000
  n : ∀ i, (nidx i).toNat < 10000
  qh : ∀ i, (qh i).toNat < 100000
  qr : ∀ i, (qr i).toNat < 200
  qn : ∀ i, (qn i).toNat < 10000

end Cert.Spec

end
-- ==== Proof.RefValue.lean ====
/-
  The reference's result is the specification's array.

  Index by index. The last write decides by the row: row 4095 is the question row, rows 0 … 4094 are the memory rows
  of the first write. Either is three 64-wide column blocks side by side, and a column `c` reads block `c / 64` at its
  own column `c mod 64`. A block is a sum of table rows taken by index words (or one such row; or, for the question
  row's last block, a row of the names table plus row 1 of the specials table), and under the precondition every index
  word names a row of its table, so `jnp.take` reads exactly that row: no wrap of a negative word, no NaN fill, no
  clamp. At the ideal instance the sum of two floats is the sum of two extended reals on both sides.
-/
import proofs.«206817_g64347200028782_cont_9to1_m_612_22_alg».proof.Proof.RefRun
import proofs.«206817_g64347200028782_cont_9to1_m_612_22_alg».proof.Proof.RefValueRows
import proofs.«206817_g64347200028782_cont_9to1_m_612_22_alg».proof.Proof.RefValueCols
import proofs.«206817_g64347200028782_cont_9to1_m_612_22_alg».proof.Proof.RefValueTake
import proofs.«206817_g64347200028782_cont_9to1_m_612_22_alg».proof.Proof.Spec

noncomputable section

namespace Cert.ReferenceIdeal.RefValue

open Cert.ReferenceIdeal Cert.ReferenceIdeal.Gen Cert.ReferenceIdeal.RefRun Idealize.ShloMosaic Idealize.ShloMosaic.ValueIdx Cert.Spec

/-! ## The program's six gathers are row gathers -/

theorem gN : gather_S10000x64_S4095x1_S4095x64_1_0_n_n_0_1_164 = rowDims 10000 4095 gather_S10000x64_S4095x1_S4095x64_1_0_n_n_0_1_164_wf := rfl
theorem gH : gather_S100000x64_S4095x1_S4095x64_1_0_n_n_0_1_164 = rowDims 100000 4095 gather_S100000x64_S4095x1_S4095x64_1_0_n_n_0_1_164_wf := rfl
theorem gR : gather_S200x64_S4095x1_S4095x64_1_0_n_n_0_1_164 = rowDims 200 4095 gather_S200x64_S4095x1_S4095x64_1_0_n_n_0_1_164_wf := rfl
theorem gN1 : gather_S10000x64_S1x1_S1x64_1_0_n_n_0_1_164 = rowDims 10000 1 gather_S10000x64_S1x1_S1x64_1_0_n_n_0_1_164_wf := rfl
theorem gH1 : gather_S100000x64_S1x1_S1x64_1_0_n_n_0_1_164 = rowDims 100000 1 gather_S100000x64_S1x1_S1x64_1_0_n_n_0_1_164_wf := rfl
theorem gR1 : gather_S200x64_S1x1_S1x64_1_0_n_n_0_1_164 = rowDims 200 1 gather_S200x64_S1x1_S1x64_1_0_n_n_0_1_164_wf := rfl

/-! ## The specification's side: a word in range names its own row, a column its own place in its block -/

theorem at_rowOf {α : Type} {N : Nat} (tbl : (⟨2, ![N, 64]⟩ : Shape).Idx → α) (hn : 0 < N) (w : BitVec 32) (h : w.toNat < N)
    (c : Fin 64) : tbl (ix2 (rowOf N hn w) c) = tbl (ix2 (⟨w.toNat, h⟩ : Fin N) c) := by
  congr 2
  exact Fin.ext (rowOf_val N hn w h)

theorem col64_left (c : Fin 192) (h : c.val < 64) : col64 c = ⟨c.val, h⟩ := Fin.ext (Nat.mod_eq_of_lt h)
theorem col64_mid (c : Fin 192) (h1 : 64 ≤ c.val) (h2 : c.val < 128) : col64 c = ⟨c.val - 64, by omega⟩ :=
  Fin.ext (by show c.val % 64 = c.val - 64; omega)
theorem col64_right (c : Fin 192) (h1 : 128 ≤ c.val) : col64 c = ⟨c.val - 128, by have := c.isLt; omega⟩ :=
  Fin.ext (by show c.val % 64 = c.val - 128; have := c.isLt; omega)

theorem idxWord_mem (lst : IVec S4095 32) (q : IVec S1 32) (r : Fin 4096) (h : r.val < 4095) :
    idxWord lst q r = lst (ix1 (⟨r.val, h⟩ : Fin 4095)) := dif_pos h
theorem idxWord_last (lst : IVec S4095 32) (q : IVec S1 32) (r : Fin 4096) (h : ¬r.val < 4095) :
    idxWord lst q r = q (ix1 (0 : Fin 1)) := dif_neg h

/-! ## Row 1 of the specials table -/

theorem maskRow_apply {F : FTy → Type} [FloatOps F] (sp : FVec F S2x64 .f32) (c : Fin 64) :
    maskRow sp (ix2 (0 : Fin 1) c) = sp (ix2 (1 : Fin 2) c) := by
  have key : ∀ (y : FVec F S64 .f32) (k : S1x64.Idx),
      broadcastInDim S1x64 ![1] bcast_S64_S1x64_1 y k = y (ix1 (k 1)) := by
    intro y k
    unfold broadcastInDim
    congr 1
    funext a
    match a with
    | ⟨0, _⟩ => rfl
  unfold maskRow
  rw [key]
  show shapeCast S64 _ _ (ix1 c) = _
  rw [shapeCast_1a_a_apply]
  unfold extractStridedSlice
  congr 1
  funext a
  match a with
  | ⟨0, _⟩ => rfl
  | ⟨1, _⟩ => exact Fin.ext (Nat.zero_add _)

theorem result_eq (a0 : FVec Ideal S100000x64 .f32) (a1 : FVec Ideal S200x64 .f32) (a2 : FVec Ideal S100000x64 .f32)
    (a3 : FVec Ideal S10000x64 .f32) (a4 : FVec Ideal S2x64 .f32) (a5 a6 a7 a8 : IVec S4095 32) (a9 a10 a11 : IVec S1 32)
    (hr : Cert.Spec.InRange a5 a6 a7 a8 a9 a10 a11) :
    Cert.ReferenceIdeal.RefRun.refTerm a0 a1 a2 a3 a4 a5 a6 a7 a8 a9 a10 a11
      = Cert.Spec.G (F := Ideal) a0 a1 a2 a3 a4 a5 a6 a7 a8 a9 a10 a11 := by
  funext j
  rw [eq_ix2 j]
  generalize j 0 = r
  generalize j 1 = c
  show refTermF (F := Ideal) a0 a1 a2 a3 a4 a5 a6 a7 a8 a9 a10 a11 (ix2 r c) = Gat a0 a1 a2 a3 a4 a5 a6 a7 a8 a9 a10 a11 r c
  unfold refTermF
  rw [gN, gH, gR, gN1, gH1, gR1]
  by_cases hrow : r.val < 4095
  · -- a memory row
    rw [withQRow_apply_mem _ _ _ _ r c hrow, memRows_apply _ _ _ r c hrow]
    by_cases hc1 : c.val < 64
    · rw [cat3_left _ _ _ _ c hc1]
      show FloatOps.addf (takeRows _ _ _ a3 a8 _) (takeRows _ _ _ a0 a5 _) = _
      rw [takeRows_apply _ _ _ a3 a8 rfl (by norm_num) hr.n, takeRows_apply _ _ _ a0 a5 rfl (by norm_num) hr.h]
      rw [show Gat a0 a1 a2 a3 a4 a5 a6 a7 a8 a9 a10 a11 r c
          = FloatOps.addf (a3 (ix2 (rowOf 10000 (by decide) (idxWord a8 a11 r)) (col64 c)))
              (a0 (ix2 (rowOf 100000 (by decide) (idxWord a5 a9 r)) (col64 c))) from if_pos hc1]
      rw [idxWord_mem a8 a11 r hrow, idxWord_mem a5 a9 r hrow, col64_left c hc1,
        at_rowOf a3 _ _ (hr.n _), at_rowOf a0 _ _ (hr.h _)]
    · by_cases hc2 : c.val < 128
      · rw [cat3_mid _ _ _ _ c (by omega) hc2, takeRows_apply _ _ _ a1 a6 rfl (by norm_num) hr.r]
        rw [show Gat a0 a1 a2 a3 a4 a5 a6 a7 a8 a9 a10 a11 r c
            = a1 (ix2 (rowOf 200 (by decide) (idxWord a6 a10 r)) (col64 c)) from (if_neg hc1).trans (if_pos hc2)]
        rw [idxWord_mem a6 a10 r hrow, col64_mid c (by omega) hc2, at_rowOf a1 _ _ (hr.r _)]
      · rw [cat3_right _ _ _ _ c (by omega)]
        show FloatOps.addf (takeRows _ _ _ a3 a8 _) (takeRows _ _ _ a2 a7 _) = _
        rw [takeRows_apply _ _ _ a3 a8 rfl (by norm_num) hr.n, takeRows_apply _ _ _ a2 a7 rfl (by norm_num) hr.t]
        rw [show Gat a0 a1 a2 a3 a4 a5 a6 a7 a8 a9 a10 a11 r c
            = FloatOps.addf (a3 (ix2 (rowOf 10000 (by decide) (idxWord a8 a11 r)) (col64 c)))
                (if h : r.val < 4095 then a2 (ix2 (rowOf 100000 (by decide) (a7 (ix1 ⟨r.val, h⟩))) (col64 c))
                  else a4 (ix2 (1 : Fin 2) (col64 c))) from (if_neg hc1).trans (if_neg hc2)]
        rw [dif_pos hrow, idxWord_mem a8 a11 r hrow, col64_right c (by omega), at_rowOf a3 _ _ (hr.n _),
          at_rowOf a2 _ _ (hr.t _)]
  · -- the question row
    have hlt : r.val < 4096 := r.isLt
    have hlast : r.val = 4095 := by omega
    rw [withQRow_apply_last _ _ _ _ r c hlast]
    by_cases hc1 : c.val < 64
    · rw [cat3q_left _ _ _ _ c hc1]
      show FloatOps.addf (takeRow _ _ _ a3 a11 _) (takeRow _ _ _ a0 a9 _) = _
      rw [takeRow_apply _ _ _ a3 a11 rfl (by norm_num) hr.qn, takeRow_apply _ _ _ a0 a9 rfl (by norm_num) hr.qh]
      rw [show Gat a0 a1 a2 a3 a4 a5 a6 a7 a8 a9 a10 a11 r c
          = FloatOps.addf (a3 (ix2 (rowOf 10000 (by decide) (idxWord a8 a11 r)) (col64 c)))
              (a0 (ix2 (rowOf 100000 (by decide) (idxWord a5 a9 r)) (col64 c))) from if_pos hc1]
      rw [idxWord_last a8 a11 r hrow, idxWord_last a5 a9 r hrow, col64_left c hc1,
        at_rowOf a3 _ _ (hr.qn _), at_rowOf a0 _ _ (hr.qh _)]
    · by_cases hc2 : c.val < 128
      · rw [cat3q_mid _ _ _ _ c (by omega) hc2, takeRow_apply _ _ _ a1 a10 rfl (by norm_num) hr.qr]
        rw [show Gat a0 a1 a2 a3 a4 a5 a6 a7 a8 a9 a10 a11 r c
            = a1 (ix2 (rowOf 200 (by decide) (idxWord a6 a10 r)) (col64 c)) from (if_neg hc1).trans (if_pos hc2)]
        rw [idxWord_last a6 a10 r hrow, col64_mid c (by omega) hc2, at_rowOf a1 _ _ (hr.qr _)]
      · rw [cat3q_right _ _ _ _ c (by omega)]
        show FloatOps.addf (takeRow _ _ _ a3 a11 _) (maskRow a4 _) = _
        rw [takeRow_apply _ _ _ a3 a11 rfl (by norm_num) hr.qn, maskRow_apply]
        rw [show Gat a0 a1 a2 a3 a4 a5 a6 a7 a8 a9 a10 a11 r c
            = FloatOps.addf (a3 (ix2 (rowOf 10000 (by decide) (idxWord a8 a11 r)) (col64 c)))
                (if h : r.val < 4095 then a2 (ix2 (rowOf 100000 (by decide) (a7 (ix1 ⟨r.val, h⟩))) (col64 c))
                  else a4 (ix2 (1 : Fin 2) (col64 c))) from (if_neg hc1).trans (if_neg hc2)]
        rw [dif_neg hrow, idxWord_last a8 a11 r hrow, col64_right c (by omega), at_rowOf a3 _ _ (hr.qn _)]

end Cert.ReferenceIdeal.RefValue

end
-- ==== Proof.PreFacts.lean ====
/-
  The precondition, read back as plain inequalities on the integer inputs.

  The precondition is a conjunction of twelve "all elements satisfy p" tests, each a reduction by "and" of a one-bit array
  from the constant 1, and-ed together. Its value being 1 makes every conjunct 1, and a reduction by "and" that is 1 had
  a 1 at every element. For the seven integer inputs the element test is 0 ≤ x (signed) and x ≤ bound (signed), with
  bound one less than the number of rows of the table the input indexes; a 32-bit word that is nonnegative read signed has
  the same value read unsigned, so x.toNat ≤ bound, that is x.toNat < number of rows.
-/
import Idealize.ShloMosaic.Lib.ReduceAll
import Idealize.ShloMosaic.Lib.ValueIdx
import proofs.«206817_g64347200028782_cont_9to1_m_612_22_alg».proof.Pre_input_domain
import proofs.«206817_g64347200028782_cont_9to1_m_612_22_alg».proof.Proof.Spec

noncomputable section

namespace Cert.PreFacts

open Idealize.ShloMosaic Cert.Pre_input_domain

/-- The rank-zero shape has one index. -/
instance : Subsingleton S_.Idx := ⟨fun a b => funext fun d => d.elim0⟩

/-- A word between 0 and the word c, both comparisons signed, is at most c's value read unsigned. -/
theorem toNat_le (w c : BitVec 32) (n : Nat) (hc : c.toInt = n)
    (h0 : IntOp.cmpi .sge w 0#32 = 1#1) (h1 : IntOp.cmpi .sle w c = 1#1) : w.toNat ≤ n := by
  rw [IntOp.cmpi_sge] at h0
  rw [IntOp.cmpi_sle, hc] at h1
  have hz : (0#32 : BitVec 32).toInt = 0 := by decide
  rw [hz] at h0
  have h32 := w.isLt
  rw [BitVec.toInt_eq_toNat_cond] at h0 h1
  split at h0 <;> omega

/-- An "all elements in [0, bound]" test that came out 1: every word of the array is at most the bound, read unsigned. -/
theorem all_le {s : Shape} {axes : List (Fin s.rank)} (a lo hi : IVec s 32) (init : IVec S_ 1) (hr : s.ReducesTo axes S_)
    (hu : 0 < S_.numel) (j : S_.Idx) (n : Nat) (hlo : ∀ i, lo i = 0#32) (hhi : ∀ i, (hi i).toInt = n)
    (e : Host.reduce IntOp.andi (andi (cmpi .sge a lo) (cmpi .sle a hi)) init hr hu j = 1#1) (i : s.Idx) :
    (a i).toNat ≤ n := by
  have hi1 : IntOp.andi (IntOp.cmpi .sge (a i) (lo i)) (IntOp.cmpi .sle (a i) (hi i)) = 1#1 :=
    Host.reduce_andi_all _ _ hr hu j e i
  rw [IntOp.andi_eq_one, hlo i] at hi1
  exact toNat_le _ _ n (hhi i) hi1.1 hi1.2

/-- Each integer input's words are below the number of rows of the table it indexes. -/
theorem inRange {F : FTy → Type} [FloatOps F] [Cert.Pre_input_domain.Facts]
    (a0 : FVec F S100000x64 .f32) (a1 : FVec F S200x64 .f32) (a2 : FVec F S100000x64 .f32) (a3 : FVec F S10000x64 .f32)
    (a4 : FVec F S2x64 .f32) (a5 a6 a7 a8 : IVec S4095 32) (a9 a10 a11 : IVec S1 32)
    (h : Cert.Pre_input_domain.fn (F := F) a0 a1 a2 a3 a4 a5 a6 a7 a8 a9 a10 a11 = fun _ => 1#1) :
    Cert.Spec.InRange a5 a6 a7 a8 a9 a10 a11 := by
  have e := congrFun h ValueIdx.ix0
  dsimp only [fn, fn_part1, fn_part2, fn_part3, fn_part4] at e
  simp only [andi, IntOp.andi_eq_one] at e
  obtain ⟨⟨⟨⟨⟨⟨⟨-, e5⟩, e6⟩, e7⟩, e8⟩, e9⟩, e10⟩, e11⟩ := e
  have c99999 : (99999#32 : BitVec 32).toInt = (99999 : Nat) := by decide
  have c9999 : (9999#32 : BitVec 32).toInt = (9999 : Nat) := by decide
  have c199 : (199#32 : BitVec 32).toInt = (199 : Nat) := by decide
  exact ⟨fun i => Nat.lt_succ_of_le (all_le a5 _ _ _ _ _ _ 99999 (fun _ => rfl) (fun _ => c99999) e5 i),
    fun i => Nat.lt_succ_of_le (all_le a6 _ _ _ _ _ _ 199 (fun _ => rfl) (fun _ => c199) e6 i),
    fun i => Nat.lt_succ_of_le (all_le a7 _ _ _ _ _ _ 99999 (fun _ => rfl) (fun _ => c99999) e7 i),
    fun i => Nat.lt_succ_of_le (all_le a8 _ _ _ _ _ _ 9999 (fun _ => rfl) (fun _ => c9999) e8 i),
    fun i => Nat.lt_succ_of_le (all_le a9 _ _ _ _ _ _ 99999 (fun _ => rfl) (fun _ => c99999) e9 i),
    fun i => Nat.lt_succ_of_le (all_le a10 _ _ _ _ _ _ 199 (fun _ => rfl) (fun _ => c199) e10 i),
    fun i => Nat.lt_succ_of_le (all_le a11 _ _ _ _ _ _ 9999 (fun _ => rfl) (fun _ => c9999) e11 i)⟩

end Cert.PreFacts

end
-- ==== Proof.KSpec.lean ====
/-
  What the SparseCore kernel leaves in its output array, as ONE function of the nine arrays it is called with:
  the four tables re-laid as [rows/8, 8, 64] (row `w` of a table sits at tile `w / 8`, sublane `w mod 8`), the special
  table padded to one tile of eight rows, and the four index lists of 4096 words.

  Output row `r` reads the four words at position `r` of the index lists. Columns 0–63 are the names row plus the heads
  row, columns 64–127 the relations row, columns 128–191 the names row plus the tails row — except in the very last row
  (`r = 4095`, the last worker's last entry), whose tails row is overwritten by sublane 1 of the special tile before
  the rows are combined.
-/
import proofs.«206817_g64347200028782_cont_9to1_m_612_22_alg».proof.Proof.Spec

noncomputable section

namespace Cert.KSpec

open Idealize.ShloMosaic Idealize.ShloMosaic.ValueIdx Cert.Spec

variable {F : FTy → Type} [FloatOps F]

/-- Row `w` of a table laid out as `n` tiles of eight sublanes, at column `k` (the tile number reduced into the table; it
    is in range whenever `w < 8 n`). -/
def tileRow (n : Nat) (hn : 0 < n) (T : FVec F ⟨3, ![n, 8, 64]⟩ .f32) (w : BitVec 32) (k : Fin 64) : F .f32 :=
  T (ix3 (⟨(w.toNat / 8) % n, Nat.mod_lt _ hn⟩ : Fin n) (⟨w.toNat % 8, Nat.mod_lt _ (by decide)⟩ : Fin 8) k)

/-- The kernel's result at row `r`, column `c`. -/
def Kat (T5 : FVec F ⟨3, ![12500, 8, 64]⟩ .f32) (T6 : FVec F ⟨3, ![25, 8, 64]⟩ .f32) (T7 : FVec F ⟨3, ![12500, 8, 64]⟩ .f32)
    (T8 : FVec F ⟨3, ![1250, 8, 64]⟩ .f32) (T10 : FVec F ⟨3, ![1, 8, 64]⟩ .f32)
    (I0 I1 I3 I4 : IVec ⟨1, ![4096]⟩ 32) (r : Fin 4096) (c : Fin 192) : F .f32 :=
  let nm : F .f32 := tileRow 1250 (by decide) T8 (I4 (ix1 r)) (col64 c)
  if c.val < 64 then FloatOps.addf nm (tileRow 12500 (by decide) T5 (I0 (ix1 r)) (col64 c))
  else if c.val < 128 then tileRow 25 (by decide) T6 (I1 (ix1 r)) (col64 c)
  else FloatOps.addf nm (if r.val < 4095 then tileRow 12500 (by decide) T7 (I3 (ix1 r)) (col64 c)
    else T10 (ix3 (0 : Fin 1) (1 : Fin 8) (col64 c)))

/-- The kernel's whole result array. -/
def Kout (T5 : FVec F ⟨3, ![12500, 8, 64]⟩ .f32) (T6 : FVec F ⟨3, ![25, 8, 64]⟩ .f32) (T7 : FVec F ⟨3, ![12500, 8, 64]⟩ .f32)
    (T8 : FVec F ⟨3, ![1250, 8, 64]⟩ .f32) (T10 : FVec F ⟨3, ![1, 8, 64]⟩ .f32)
    (I0 I1 I3 I4 : IVec ⟨1, ![4096]⟩ 32) : FVec F ⟨2, ![4096, 192]⟩ .f32 :=
  fun j => Kat T5 T6 T7 T8 T10 I0 I1 I3 I4 (j 0) (j 1)

/-- The index lists name rows inside the tables (the first four: heads, relations, tails, names). -/
structure ListsInRange (I0 I1 I3 I4 : IVec ⟨1, ![4096]⟩ 32) : Prop where
  h : ∀ i, (I0 i).toNat < 100000
  r : ∀ i, (I1 i).toNat < 200
  t : ∀ i, (I3 i).toNat < 100000
  n : ∀ i, (I4 i).toNat < 10000

end Cert.KSpec

end
-- ==== Proof.HostArgs.lean ====
/-
  The arrays the kernel program's entry function computes on the host before its one kernel call, as pure functions of
  the arguments, read at an index.

  Four index lists are each a 4095-word list with one more word appended (4096 words): entry r is the list's entry r
  below 4095 and the appended word at 4095. Four tables of N rows of 64 are regrouped, in row-major order, as N/8 tiles
  of 8 rows of 64: row s of tile t is row 8 t + s. The two special rows are followed by six rows of the padding value
  and regrouped as one tile of 8 rows: row s of that tile, for s below 2, is special row s.
-/
import Idealize.ShloMosaic.Lib.Pipeline.Value
import Idealize.ShloMosaic.Lib.KernelVsHost
import Idealize.ShloMosaic.Lib.ValueIdx
import proofs.«206817_g64347200028782_cont_9to1_m_612_22_alg».proof.Proof.Spec

noncomputable section

namespace Cert.HostArgs

open Idealize.ShloMosaic Idealize.ShloMosaic.ValueIdx

variable {α : Type}

/-! ## A list with one word appended -/

/-- A two-piece concatenation of a 4095-entry and a 1-entry vector along their one axis, at entry r: the first
    piece's entry r below 4095, the second piece's one entry at 4095. Stated for any axis name and any evidence, so
    that it applies to the term whichever program spells it. -/
theorem concatenate_apply (ax : Fin (⟨1, ![4096]⟩ : Shape).rank)
    (h : Shape.Concatenates [(⟨1, ![4095]⟩ : Shape), (⟨1, ![1]⟩ : Shape)] ⟨1, ![4096]⟩ ax)
    (a : (⟨1, ![4095]⟩ : Shape).Idx → α) (b : (⟨1, ![1]⟩ : Shape).Idx → α) (r : Fin 4096) :
    concatenate ⟨1, ![4096]⟩ ax [⟨⟨1, ![4095]⟩, a⟩, ⟨⟨1, ![1]⟩, b⟩] h (ix1 r)
      = if hr : r.val < 4095 then a (ix1 ⟨r.val, hr⟩) else b (ix1 (0 : Fin 1)) := by
  obtain rfl : ax = (0 : Fin 1) := Subsingleton.elim _ _
  split
  · next hr =>
    exact concatenate_pair_apply_left _ a b h (ix1 r) rfl (ix1 ⟨r.val, hr⟩) (fun c => by
      match c with | ⟨0, _⟩ => rfl)
  · next hr =>
    refine concatenate_pair_apply_right _ a b h (ix1 r) rfl rfl (ix1 (0 : Fin 1)) (fun c hc => ?_) ?_
    · match c with | ⟨0, _⟩ => exact absurd rfl hc
    · show 0 + 4095 = r.val
      have := r.isLt
      omega

/-- An index list with a query word appended. -/
def cat (h : Shape.Concatenates [(⟨1, ![4095]⟩ : Shape), (⟨1, ![1]⟩ : Shape)] ⟨1, ![4096]⟩ 0)
    (a : IVec ⟨1, ![4095]⟩ 32) (b : IVec ⟨1, ![1]⟩ 32) : IVec ⟨1, ![4096]⟩ 32 :=
  concatenate ⟨1, ![4096]⟩ 0 [⟨⟨1, ![4095]⟩, a⟩, ⟨⟨1, ![1]⟩, b⟩] h

/-- Entry r of the appended list is the index word of output row r. -/
theorem cat_apply (h : Shape.Concatenates [(⟨1, ![4095]⟩ : Shape), (⟨1, ![1]⟩ : Shape)] ⟨1, ![4096]⟩ 0)
    (a : IVec ⟨1, ![4095]⟩ 32) (b : IVec ⟨1, ![1]⟩ 32) (r : Fin 4096) :
    cat h a b (ix1 r) = Cert.Spec.idxWord a b r :=
  concatenate_apply 0 h a b r

/-- The same at any index of the 4096-entry shape. -/
theorem cat_apply_idx (h : Shape.Concatenates [(⟨1, ![4095]⟩ : Shape), (⟨1, ![1]⟩ : Shape)] ⟨1, ![4096]⟩ 0)
    (a : IVec ⟨1, ![4095]⟩ 32) (b : IVec ⟨1, ![1]⟩ 32) (j : (⟨1, ![4096]⟩ : Shape).Idx) :
    cat h a b j = Cert.Spec.idxWord a b (j 0) := by
  rw [eq_ix1 j]; exact cat_apply h a b (j 0)

/-! ## A table regrouped in tiles of eight rows -/

/-- A table of N = 8 M rows of 64, regrouped in row-major order as M tiles of 8 rows of 64, at tile t, row s,
    column k: the table at row 8 t + s, column k. -/
theorem reshape_apply {N M : Nat} (x : (⟨2, ![N, 64]⟩ : Shape).Idx → α)
    (h : (⟨2, ![N, 64]⟩ : Shape).ShapeCasts ⟨3, ![M, 8, 64]⟩) (t : Fin M) (s : Fin 8) (k : Fin 64)
    (hlt : 8 * t.val + s.val < N) :
    shapeCast ⟨3, ![M, 8, 64]⟩ x h (ix3 t s k) = x (ix2 ⟨8 * t.val + s.val, hlt⟩ k) := by
  refine shapeCast_apply x h _ _ ?_
  rw [Shape.rowMajor_val_two, Shape.rowMajor_val_three]
  show (8 * t.val + s.val) * 64 + k.val = (t.val * 8 + s.val) * 64 + k.val
  omega

/-- The row bound the regrouping needs, from the two shapes having the same number of entries. -/
theorem row_lt {N M : Nat} (h : (⟨2, ![N, 64]⟩ : Shape).ShapeCasts ⟨3, ![M, 8, 64]⟩) (t : Fin M) (s : Fin 8) :
    8 * t.val + s.val < N := by
  have e : M * 8 * 64 = N * 64 := by
    have := h
    simpa [Shape.ShapeCasts, Shape.numel, Fin.prod_univ_succ, Nat.mul_assoc] using this
  have := t.isLt; have := s.isLt
  omega

/-- The three tables of the program, at their literal sizes. -/
theorem reshape_apply_100000 (x : (⟨2, ![100000, 64]⟩ : Shape).Idx → α)
    (h : (⟨2, ![100000, 64]⟩ : Shape).ShapeCasts ⟨3, ![12500, 8, 64]⟩) (t : Fin 12500) (s : Fin 8) (k : Fin 64) :
    shapeCast ⟨3, ![12500, 8, 64]⟩ x h (ix3 t s k) = x (ix2 ⟨8 * t.val + s.val, by omega⟩ k) :=
  reshape_apply x h t s k _

theorem reshape_apply_200 (x : (⟨2, ![200, 64]⟩ : Shape).Idx → α)
    (h : (⟨2, ![200, 64]⟩ : Shape).ShapeCasts ⟨3, ![25, 8, 64]⟩) (t : Fin 25) (s : Fin 8) (k : Fin 64) :
    shapeCast ⟨3, ![25, 8, 64]⟩ x h (ix3 t s k) = x (ix2 ⟨8 * t.val + s.val, by omega⟩ k) :=
  reshape_apply x h t s k _

theorem reshape_apply_10000 (x : (⟨2, ![10000, 64]⟩ : Shape).Idx → α)
    (h : (⟨2, ![10000, 64]⟩ : Shape).ShapeCasts ⟨3, ![1250, 8, 64]⟩) (t : Fin 1250) (s : Fin 8) (k : Fin 64) :
    shapeCast ⟨3, ![1250, 8, 64]⟩ x h (ix3 t s k) = x (ix2 ⟨8 * t.val + s.val, by omega⟩ k) :=
  reshape_apply x h t s k _

/-! ## The two special rows, padded to one tile -/

/-- Two rows of 64 followed by six rows of the padding value, regrouped as one tile of 8 rows, at row s below 2:
    the operand's row s. -/
theorem pad_reshape_apply (x : (⟨2, ![2, 64]⟩ : Shape).Idx → α) {u : Shape} (v : u.Idx → α)
    (hp : (⟨2, ![2, 64]⟩ : Shape).Pads (![0, 0] : Fin 2 → Nat) ![6, 0] ![0, 0] ⟨2, ![8, 64]⟩) (hu : 0 < u.numel)
    (hc : (⟨2, ![8, 64]⟩ : Shape).ShapeCasts ⟨3, ![1, 8, 64]⟩) (z : Fin 1) (s : Fin 8) (k : Fin 64) (hs : s.val < 2) :
    shapeCast ⟨3, ![1, 8, 64]⟩ (pad ⟨2, ![8, 64]⟩ ![0, 0] ![6, 0] ![0, 0] x v hp hu) hc (ix3 z s k)
      = x (ix2 ⟨s.val, hs⟩ k) := by
  have e1 : shapeCast ⟨3, ![1, 8, 64]⟩ (pad ⟨2, ![8, 64]⟩ ![0, 0] ![6, 0] ![0, 0] x v hp hu) hc (ix3 z s k)
      = pad ⟨2, ![8, 64]⟩ ![0, 0] ![6, 0] ![0, 0] x v hp hu (ix2 s k) := by
    refine shapeCast_apply _ hc _ _ ?_
    rw [Shape.rowMajor_val_two, Shape.rowMajor_val_three]
    show s.val * 64 + k.val = (z.val * 8 + s.val) * 64 + k.val
    have := z.isLt
    omega
  rw [e1]
  refine pad_apply_of_inside _ _ _ x v hp hu (ix2 s k) (ix2 ⟨s.val, hs⟩ k) (fun a => ?_)
  match a with
  | ⟨0, _⟩ => show s.val = 0 + s.val * (0 + 1); omega
  | ⟨1, _⟩ => show k.val = 0 + k.val * (0 + 1); omega

/-- Read at tile 0, row 1, column k: special row 1. -/
theorem pad_apply (x : (⟨2, ![2, 64]⟩ : Shape).Idx → α) {u : Shape} (v : u.Idx → α)
    (hp : (⟨2, ![2, 64]⟩ : Shape).Pads (![0, 0] : Fin 2 → Nat) ![6, 0] ![0, 0] ⟨2, ![8, 64]⟩) (hu : 0 < u.numel)
    (hc : (⟨2, ![8, 64]⟩ : Shape).ShapeCasts ⟨3, ![1, 8, 64]⟩) (k : Fin 64) :
    shapeCast ⟨3, ![1, 8, 64]⟩ (pad ⟨2, ![8, 64]⟩ ![0, 0] ![6, 0] ![0, 0] x v hp hu) hc (ix3 (0 : Fin 1) (1 : Fin 8) k)
      = x (ix2 (1 : Fin 2) k) :=
  pad_reshape_apply x v hp hu hc 0 1 k (by decide)

/-! ## The nine arrays by name -/

variable {F : FTy → Type} [FloatOps F]

/-- A table regrouped in tiles of eight rows. -/
def RS {N M : Nat} (h : (⟨2, ![N, 64]⟩ : Shape).ShapeCasts ⟨3, ![M, 8, 64]⟩) (x : FVec F ⟨2, ![N, 64]⟩ .f32) :
    FVec F ⟨3, ![M, 8, 64]⟩ .f32 :=
  shapeCast ⟨3, ![M, 8, 64]⟩ x h

theorem RS_apply {N M : Nat} (h : (⟨2, ![N, 64]⟩ : Shape).ShapeCasts ⟨3, ![M, 8, 64]⟩) (x : FVec F ⟨2, ![N, 64]⟩ .f32)
    (t : Fin M) (s : Fin 8) (k : Fin 64) : RS h x (ix3 t s k) = x (ix2 ⟨8 * t.val + s.val, row_lt h t s⟩ k) :=
  reshape_apply x h t s k _

/-- The one-word list holding the word zero: the scalar constant 0 broadcast to one entry. -/
def zero1 (h : (⟨0, ![]⟩ : Shape).BroadcastsInDim ⟨1, ![1]⟩ (![] : Fin 0 → Fin (⟨1, ![1]⟩ : Shape).rank)) : IVec ⟨1, ![1]⟩ 32 :=
  broadcastInDim ⟨1, ![1]⟩ ![] h (constantI ⟨0, ![]⟩ 32 0#32)

theorem zero1_apply (h : (⟨0, ![]⟩ : Shape).BroadcastsInDim ⟨1, ![1]⟩ (![] : Fin 0 → Fin (⟨1, ![1]⟩ : Shape).rank))
    (i : (⟨1, ![1]⟩ : Shape).Idx) : zero1 h i = 0#32 := rfl

/-- The special rows padded with six rows of the converted integer zero and regrouped as one tile. -/
def PAD (hp : (⟨2, ![2, 64]⟩ : Shape).Pads (![0, 0] : Fin 2 → Nat) ![6, 0] ![0, 0] ⟨2, ![8, 64]⟩)
    (hu : 0 < (⟨0, ![]⟩ : Shape).numel) (hc : (⟨2, ![8, 64]⟩ : Shape).ShapeCasts ⟨3, ![1, 8, 64]⟩)
    (x : FVec F ⟨2, ![2, 64]⟩ .f32) : FVec F ⟨3, ![1, 8, 64]⟩ .f32 :=
  shapeCast ⟨3, ![1, 8, 64]⟩
    (pad ⟨2, ![8, 64]⟩ ![0, 0] ![6, 0] ![0, 0] x (sitofp .f32 (constantI ⟨0, ![]⟩ 32 0#32) : FVec F ⟨0, ![]⟩ .f32) hp hu) hc

theorem PAD_apply (hp : (⟨2, ![2, 64]⟩ : Shape).Pads (![0, 0] : Fin 2 → Nat) ![6, 0] ![0, 0] ⟨2, ![8, 64]⟩)
    (hu : 0 < (⟨0, ![]⟩ : Shape).numel) (hc : (⟨2, ![8, 64]⟩ : Shape).ShapeCasts ⟨3, ![1, 8, 64]⟩)
    (x : FVec F ⟨2, ![2, 64]⟩ .f32) (k : Fin 64) :
    PAD hp hu hc x (ix3 (0 : Fin 1) (1 : Fin 8) k) = x (ix2 (1 : Fin 2) k) :=
  pad_apply x _ hp hu hc k

end Cert.HostArgs

end
-- ==== Proof.KValue.lean ====
/-
  The kernel's result function, applied to the nine arrays the entry function computes on the host, is the result
  function of the arguments.

  A table row w below the number of rows N = 8 M sits, after the regrouping in tiles of eight rows, at tile w / 8 and
  row w mod 8 of the tile, and 8 (w / 8) + w mod 8 = w; both reductions (of the tile number into M, of the word into N)
  are the identity for such a word. The appended index lists read at row r are the index words of row r; the padded
  special tile read at row 1 is special row 1. The range hypotheses supply w < N for every word read.
-/
import proofs.«206817_g64347200028782_cont_9to1_m_612_22_alg».proof.Proof.Spec
import proofs.«206817_g64347200028782_cont_9to1_m_612_22_alg».proof.Proof.KSpec
import proofs.«206817_g64347200028782_cont_9to1_m_612_22_alg».proof.Proof.HostArgs

noncomputable section

namespace Cert.KValue

open Idealize.ShloMosaic Idealize.ShloMosaic.ValueIdx Cert.Spec Cert.KSpec Cert.HostArgs

variable {F : FTy → Type} [FloatOps F]

/-- The index word of a row is in range when the list and the query are. -/
theorem idxWord_lt (n : Nat) (a : IVec ⟨1, ![4095]⟩ 32) (q : IVec ⟨1, ![1]⟩ 32) (ha : ∀ i, (a i).toNat < n)
    (hq : ∀ i, (q i).toNat < n) (r : Fin 4096) : (idxWord a q r).toNat < n := by
  unfold idxWord
  split
  · exact ha _
  · exact hq _

/-- Row w of a table, read through its regrouping in tiles of eight rows, for a word below the number of rows. -/
theorem tileRow_RS {N M : Nat} (hN : 0 < N) (hM : 0 < M) (h : (⟨2, ![N, 64]⟩ : Shape).ShapeCasts ⟨3, ![M, 8, 64]⟩)
    (x : FVec F ⟨2, ![N, 64]⟩ .f32) (w : BitVec 32) (hw : w.toNat < N) (k : Fin 64) :
    tileRow M hM (RS h x) w k = x (ix2 (rowOf N hN w) k) := by
  unfold tileRow
  rw [RS_apply]
  have e : M * 8 * 64 = N * 64 := by
    have := h
    simpa [Shape.ShapeCasts, Shape.numel, Fin.prod_univ_succ, Nat.mul_assoc] using this
  have h1 : w.toNat / 8 < M := by omega
  congr 1
  refine congrArg (fun a => ix2 a k) (Fin.ext ?_)
  show 8 * (w.toNat / 8 % M) + w.toNat % 8 = w.toNat % N
  rw [Nat.mod_eq_of_lt h1, Nat.mod_eq_of_lt hw]
  omega

/-- Under the range hypotheses, the kernel's result function of the nine host arrays is the result function of the arguments. -/
theorem kout_eq (hcat : Shape.Concatenates [(⟨1, ![4095]⟩ : Shape), (⟨1, ![1]⟩ : Shape)] ⟨1, ![4096]⟩ 0)
    (hb : (⟨0, ![]⟩ : Shape).BroadcastsInDim ⟨1, ![1]⟩ (![] : Fin 0 → Fin (⟨1, ![1]⟩ : Shape).rank))
    (h100k : (⟨2, ![100000, 64]⟩ : Shape).ShapeCasts ⟨3, ![12500, 8, 64]⟩)
    (h200 : (⟨2, ![200, 64]⟩ : Shape).ShapeCasts ⟨3, ![25, 8, 64]⟩)
    (h10k : (⟨2, ![10000, 64]⟩ : Shape).ShapeCasts ⟨3, ![1250, 8, 64]⟩)
    (hp : (⟨2, ![2, 64]⟩ : Shape).Pads (![0, 0] : Fin 2 → Nat) ![6, 0] ![0, 0] ⟨2, ![8, 64]⟩)
    (hu : 0 < (⟨0, ![]⟩ : Shape).numel) (hc : (⟨2, ![8, 64]⟩ : Shape).ShapeCasts ⟨3, ![1, 8, 64]⟩)
    (a0 : FVec F ⟨2, ![100000, 64]⟩ .f32) (a1 : FVec F ⟨2, ![200, 64]⟩ .f32) (a2 : FVec F ⟨2, ![100000, 64]⟩ .f32)
    (a3 : FVec F ⟨2, ![10000, 64]⟩ .f32) (a4 : FVec F ⟨2, ![2, 64]⟩ .f32)
    (a5 a6 a7 a8 : IVec ⟨1, ![4095]⟩ 32) (a9 a10 a11 : IVec ⟨1, ![1]⟩ 32)
    (hr : InRange a5 a6 a7 a8 a9 a10 a11) :
    Kout (RS h100k a0) (RS h200 a1) (RS h100k a2) (RS h10k a3) (PAD hp hu hc a4)
        (cat hcat a5 a9) (cat hcat a6 a10) (cat hcat a7 (zero1 hb)) (cat hcat a8 a11)
      = G a0 a1 a2 a3 a4 a5 a6 a7 a8 a9 a10 a11 := by
  funext j
  obtain ⟨r, c, rfl⟩ : ∃ (r : Fin 4096) (c : Fin 192), j = ix2 r c := ⟨j 0, j 1, eq_ix2 j⟩
  show Kat _ _ _ _ _ _ _ _ _ r c = Gat a0 a1 a2 a3 a4 a5 a6 a7 a8 a9 a10 a11 r c
  have hn := idxWord_lt 10000 a8 a11 hr.n hr.qn r
  have hh := idxWord_lt 100000 a5 a9 hr.h hr.qh r
  have hl := idxWord_lt 200 a6 a10 hr.r hr.qr r
  have en := tileRow_RS (by decide) (by decide) h10k a3 _ hn (col64 c)
  have eh := tileRow_RS (by decide) (by decide) h100k a0 _ hh (col64 c)
  have el := tileRow_RS (by decide) (by decide) h200 a1 _ hl (col64 c)
  simp only [Kat, Gat, cat_apply]
  have et : (if r.val < 4095 then tileRow 12500 (by decide) (RS h100k a2) (idxWord a7 (zero1 hb) r) (col64 c)
        else PAD hp hu hc a4 (ix3 (0 : Fin 1) (1 : Fin 8) (col64 c)))
      = (if h : r.val < 4095 then a2 (ix2 (rowOf 100000 (by decide) (a7 (ix1 ⟨r.val, h⟩))) (col64 c))
        else a4 (ix2 (1 : Fin 2) (col64 c))) := by
    by_cases h : r.val < 4095
    · rw [if_pos h, dif_pos h]
      have e : idxWord a7 (zero1 hb) r = a7 (ix1 ⟨r.val, h⟩) := dif_pos h
      rw [e]
      exact tileRow_RS _ _ h100k a2 _ (hr.t _) _
    · rw [if_neg h, dif_neg h]
      exact PAD_apply hp hu hc a4 _
  rw [en, eh, el, et]

/-- The four 4096-word index lists name rows inside their tables (the appended zero word does too). -/
theorem lists_inRange (hcat : Shape.Concatenates [(⟨1, ![4095]⟩ : Shape), (⟨1, ![1]⟩ : Shape)] ⟨1, ![4096]⟩ 0)
    (hb : (⟨0, ![]⟩ : Shape).BroadcastsInDim ⟨1, ![1]⟩ (![] : Fin 0 → Fin (⟨1, ![1]⟩ : Shape).rank))
    (a5 a6 a7 a8 : IVec ⟨1, ![4095]⟩ 32) (a9 a10 a11 : IVec ⟨1, ![1]⟩ 32)
    (hr : InRange a5 a6 a7 a8 a9 a10 a11) :
    ListsInRange (cat hcat a5 a9) (cat hcat a6 a10) (cat hcat a7 (zero1 hb)) (cat hcat a8 a11) where
  h i := by rw [cat_apply_idx]; exact idxWord_lt _ _ _ hr.h hr.qh _
  r i := by rw [cat_apply_idx]; exact idxWord_lt _ _ _ hr.r hr.qr _
  t i := by rw [cat_apply_idx]; exact idxWord_lt _ _ _ hr.t (fun _ => (by decide : (0#32 : BitVec 32).toNat < 100000)) _
  n i := by rw [cat_apply_idx]; exact idxWord_lt _ _ _ hr.n hr.qn _

end Cert.KValue

end
-- ==== Proof.Tile.lean ====
/-
  The SparseCore call as the launch theorem sees it, and what one vector subcore's task is handed and hands back.

  The call runs on 2 SparseCores × 16 vector subcores. Worker `(c, s)` has number `2 s + c` and owns rows
  `128 (2 s + c) … 128 (2 s + c) + 127` of the 4096 × 192 output. Every worker reads the nine input arrays (five
  tables, four index lists) and writes only its own 128 output rows. So a task is handed a read share of each of the
  nine arrays and its 128 output rows outright, and hands back those rows holding the kernel's result function there.
-/
import proofs.«206817_g64347200028782_cont_9to1_m_612_22_alg».proof.KernelIdeal
import proofs.«206817_g64347200028782_cont_9to1_m_612_22_alg».proof.Proof.Gen.KernelIdeal
import proofs.«206817_g64347200028782_cont_9to1_m_612_22_alg».proof.Proof.Gen.KernelIdeal.Skeleton
import proofs.«206817_g64347200028782_cont_9to1_m_612_22_alg».proof.Proof.KSpec
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev t5Loc (d : Dev nD) : Loc nD τ sig := (SparseCore.T d).loc main_v5
abbrev t6Loc (d : Dev nD) : Loc nD τ sig := (SparseCore.T d).loc main_v6
abbrev t7Loc (d : Dev nD) : Loc nD τ sig := (SparseCore.T d).loc main_v7
abbrev t8Loc (d : Dev nD) : Loc nD τ sig := (SparseCore.T d).loc main_v8
abbrev t10Loc (d : Dev nD) : Loc nD τ sig := (SparseCore.T d).loc main_v10
abbrev i0Loc (d : Dev nD) : Loc nD τ sig := (SparseCore.T d).loc main_v0
abbrev i1Loc (d : Dev nD) : Loc nD τ sig := (SparseCore.T d).loc main_v1
abbrev i3Loc (d : Dev nD) : Loc nD τ sig := (SparseCore.T d).loc main_v3
abbrev i4Loc (d : Dev nD) : Loc nD τ sig := (SparseCore.T d).loc main_v4
abbrev oLoc (d : Dev nD) : Loc nD τ sig := (SparseCore.T d).loc main_v11

/-- The contents of the nine arrays the kernel reads. -/
structure Tabs (F : FTy → Type) where
  T5 : FVec F S12500x8x64 .f32
  T6 : FVec F S25x8x64 .f32
  T7 : FVec F S12500x8x64 .f32
  T8 : FVec F S1250x8x64 .f32
  T10 : FVec F S1x8x64 .f32
  I0 : IVec S4096 32
  I1 : IVec S4096 32
  I3 : IVec S4096 32
  I4 : IVec S4096 32

variable [FloatOps F]

/-- The kernel's result function of those contents. -/
def Tabs.out (X : Tabs F) : FVec F S4096x192 .f32 := Cert.KSpec.Kout X.T5 X.T6 X.T7 X.T8 X.T10 X.I0 X.I1 X.I3 X.I4

abbrev oV : Memref sig .scVector .hbm S4096x192 .f32 := Memref.whole main_v11_scv

/-- Worker `L`'s rows of the output, as the kernel slices them. -/
abbrev outRect (L : grid0.Coords) : Rect S4096x192 := Rect.unit (s := S4096x192) (k0_off148 L) S128x192.size (k0_off148_inb L)
abbrev outSlice (L : grid0.Coords) : Memref sig .scVector .hbm S128x192 .f32 := (oV).slice (outRect L) (fun _ => rfl)
abbrev outRows (L : grid0.Coords) : Finset S4096x192.Idx := (outSlice L).view.set

/-- The grid point of worker `(c, s)`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The read share worker `L` holds of each input array: the call's share cut in two for the SparseCores, each half in
    sixteen for its vector subcores. -/
def rshare (L : grid0.Coords) : PosShare TreeShare :=
  Transfers.shareTokN (Transfers.shareTokN fullShare (L 0).val) (L 1).val

section
variable (d : Dev nD) (L : grid0.Coords) (X : Tabs F)

/-- What worker `L`'s task is handed: a read share of the nine arrays at contents `X`, its output rows at `f₀`. -/
def tileIn (f₀ : FVec F S4096x192 .f32) : sProp 𝕄 :=
  iprop((t5Loc d ↦{rshare L} (X.T5 : Buf (Elt F) (t5Loc d))) ∗ (t6Loc d ↦{rshare L} (X.T6 : Buf (Elt F) (t6Loc d)))
    ∗ (t7Loc d ↦{rshare L} (X.T7 : Buf (Elt F) (t7Loc d))) ∗ (t8Loc d ↦{rshare L} (X.T8 : Buf (Elt F) (t8Loc d)))
    ∗ (t10Loc d ↦{rshare L} (X.T10 : Buf (Elt F) (t10Loc d)))
    ∗ (i0Loc d ↦{rshare L} (X.I0 : Buf (Elt F) (i0Loc d))) ∗ (i1Loc d ↦{rshare L} (X.I1 : Buf (Elt F) (i1Loc d)))
    ∗ (i3Loc d ↦{rshare L} (X.I3 : Buf (Elt F) (i3Loc d))) ∗ (i4Loc d ↦{rshare L} (X.I4 : Buf (Elt F) (i4Loc d)))
    ∗ (oLoc d ↦[outRows L]{fullShare} (f₀ : Buf (Elt F) (oLoc d))))

/-- What it hands back: its output rows holding the kernel's result function. -/
def tileOut : sProp 𝕄 := oLoc d ↦[outRows L]{fullShare} (X.out : Buf (Elt F) (oLoc d))

end

/-- The kernel function on worker `L`, called as the body table calls it. -/
abbrev kernelAt (L : grid0.Coords) :=
  cc0__emb_kernel (F := F) L (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v10_scv) (Memref.isWhole_whole _) (Memref.whole main_v0_scv) (Memref.isWhole_whole _) (Memref.whole main_v1_scv) (Memref.isWhole_whole _) (Memref.whole main_v3_scv) (Memref.isWhole_whole _) (Memref.whole main_v4_scv) (Memref.isWhole_whole _) (Memref.whole main_v11_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scoped0 cc0_scoped1 cc0_scoped2 cc0_scoped3 cc0_scoped4 cc0_scoped5

/-- One task, run: from what it is handed and the vector subcore's own scratch and semaphores to what it hands back,
    for index lists that name rows inside the tables. -/
def TileBody (X : Tabs F) : Prop :=
  ∀ (d : Dev nD) (L : grid0.Coords) (f₀ : FVec F S4096x192 .f32) (O : CellTallies nD τ sig (HIx 1)) (W : Waits sig (HIx 1)), (∀ g, O g none = 0) →
    iprop(levAts (K (F := F)).L (K (F := F)).lev ∗ emp ∗ tileIn d L X f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (kernelAt (F := F) L)
          fun _ => iprop(tileOut d L X ∗ scopedBufs (V d (cV L) (jV L)) ∗ scopedSems0 (V d (cV L) (jV L))
            ∗ ∃ W', ⌜∀ p ∈ W', p ∈ W ∨ p.2 = none⌝ ∗ owes (V d (cV L) (jV L)) O W')

end Cert.KernelIdeal.Tile

end
-- ==== Proof.LaunchHost.lean ====
/-
  The host operations of @main that stand before the SparseCore call: the straight line they form, the buffers the
  TensorCore holds while they run, and what each buffer holds once they have run — the argument arrays untouched,
  the nine arrays the call reads as pure terms of the arguments, the call's result array as the launch left it.
-/
import proofs.«206817_g64347200028782_cont_9to1_m_612_22_alg».proof.KernelIdeal
import proofs.«206817_g64347200028782_cont_9to1_m_612_22_alg».proof.Proof.Gen.KernelIdeal
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Launch

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The host operations of @main before the call, in program order. -/
def hostOps : List (HloOp τ sig (Elt F)) :=
  [ StableHlo.binary main_arg5 main_arg9 main_v0 ((fun a b => concatenate S4096 0 [⟨S4095, a⟩, ⟨S1, b⟩] concatenates_S4095_S1_S4096_d0) : (⟨S4095, .i32⟩ : BufTy).Contents (Elt F) → (⟨S1, .i32⟩ : BufTy).Contents (Elt F) → (⟨S4096, .i32⟩ : BufTy).Contents (Elt F)),
    StableHlo.binary main_arg6 main_arg10 main_v1 ((fun a b => concatenate S4096 0 [⟨S4095, a⟩, ⟨S1, b⟩] concatenates_S4095_S1_S4096_d0) : (⟨S4095, .i32⟩ : BufTy).Contents (Elt F) → (⟨S1, .i32⟩ : BufTy).Contents (Elt F) → (⟨S4096, .i32⟩ : BufTy).Contents (Elt F)),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.binary main_arg7 main_v2 main_v3 ((fun a b => concatenate S4096 0 [⟨S4095, a⟩, ⟨S1, b⟩] concatenates_S4095_S1_S4096_d0) : (⟨S4095, .i32⟩ : BufTy).Contents (Elt F) → (⟨S1, .i32⟩ : BufTy).Contents (Elt F) → (⟨S4096, .i32⟩ : BufTy).Contents (Elt F)),
    StableHlo.binary main_arg8 main_arg11 main_v4 ((fun a b => concatenate S4096 0 [⟨S4095, a⟩, ⟨S1, b⟩] concatenates_S4095_S1_S4096_d0) : (⟨S4095, .i32⟩ : BufTy).Contents (Elt F) → (⟨S1, .i32⟩ : BufTy).Contents (Elt F) → (⟨S4096, .i32⟩ : BufTy).Contents (Elt F)),
    StableHlo.reshape main_arg0 main_v5 rfl shapeCasts_S100000x64_S12500x8x64,
    StableHlo.reshape main_arg1 main_v6 rfl shapeCasts_S200x64_S25x8x64,
    StableHlo.reshape main_arg2 main_v7 rfl shapeCasts_S100000x64_S12500x8x64,
    StableHlo.reshape main_arg3 main_v8 rfl shapeCasts_S10000x64_S1250x8x64,
    StableHlo.nullary main_c_0 (constantI S_ 32 0#32),
    StableHlo.TRef.unary (StableHlo.TRef.of main_c_0 : StableHlo.TRef sig ⟨S_, .i32⟩) main_call0.v0 (sitofp .f32),
    StableHlo.TRef.binary (StableHlo.TRef.of main_arg4 : StableHlo.TRef sig ⟨S2x64, .f32⟩) main_call0.v0 main_call0.v1 (fun x v => pad S8x64 ![0, 0] ![6, 0] ![0, 0] x v pads_S2x64_S8x64_060_000 h_S_),
    StableHlo.reshape main_v9 main_v10 rfl shapeCasts_S8x64_S1x8x64 ]

theorem main_eq (d : Dev nD) : main (F := F) d = StableHlo.seq (hostOps (F := F)) >>= fun _ => (sc (F := F)).run d 0 >>= fun _ => pure ⟨⟩ := rfl

theorem hostOps_sub : ∀ op ∈ hostOps (F := F), op.bufs ⊆ StableHlo.tcRefs τ sig :=
  List.forall_mem_cons.2 ⟨StableHlo.binary_bufs_sub _ _ _ _ _ _ _, List.forall_mem_cons.2 ⟨StableHlo.binary_bufs_sub _ _ _ _ _ _ _, List.forall_mem_cons.2 ⟨StableHlo.nullary_bufs_sub _ _ _, List.forall_mem_cons.2 ⟨StableHlo.unary_bufs_sub _ _ _ _ _, List.forall_mem_cons.2 ⟨StableHlo.binary_bufs_sub _ _ _ _ _ _ _, List.forall_mem_cons.2 ⟨StableHlo.binary_bufs_sub _ _ _ _ _ _ _, List.forall_mem_cons.2 ⟨StableHlo.reshape_bufs_sub _ _ _ _ _ _, List.forall_mem_cons.2 ⟨StableHlo.reshape_bufs_sub _ _ _ _ _ _, List.forall_mem_cons.2 ⟨StableHlo.reshape_bufs_sub _ _ _ _ _ _, List.forall_mem_cons.2 ⟨StableHlo.reshape_bufs_sub _ _ _ _ _ _, List.forall_mem_cons.2 ⟨StableHlo.nullary_bufs_sub _ _ _, List.forall_mem_cons.2 ⟨StableHlo.unary_bufs_sub _ _ _ _ _, List.forall_mem_cons.2 ⟨StableHlo.binary_bufs_sub _ _ _ _ _ _ _, List.forall_mem_cons.2 ⟨StableHlo.reshape_bufs_sub _ _ _ _ _ _, fun _ h => absurd h List.not_mem_nil⟩⟩⟩⟩⟩⟩⟩⟩⟩⟩⟩⟩⟩⟩

theorem hostOps_fresh : ∀ op ∈ hostOps (F := F), op.fresh = ∅ :=
  List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, fun _ h => absurd h List.not_mem_nil⟩⟩⟩⟩⟩⟩⟩⟩⟩⟩⟩⟩⟩⟩

variable (m : (ℓ : Loc nD τ sig) → Buf (Elt F) ℓ)

/-- The launch memory as device `d`'s buffer contents. -/
def V0 (d : Dev nD) : Valuation τ sig (Elt F) := fun b => m (d, b)

local notation "𝕄" => MT nD τ sig (SparseCore.Cfg.HIx 1) (Elt F) ℕ (URounds (GSem nD τ sig) ℕ × Counters) ℕ

omit [FloatOps F] in
theorem refs_univ : (Finset.univ : Finset (Ref sig .tc)) = {main_arg0, main_arg1, main_arg2, main_arg3, main_arg4, main_arg5, main_arg6, main_arg7, main_arg8, main_arg9, main_arg10, main_arg11, main_v0, main_v1, main_c, main_v2, main_v3, main_v4, main_v5, main_v6, main_v7, main_v8, main_c_0, main_call0_v0, main_v9, main_v10, main_v11} := by decide

set_option maxHeartbeats 4000000 in
omit [FloatOps F] in
/-- The TensorCore's buffers held whole, one by one. -/
theorem held_list (d : Dev nD) (W : Valuation τ sig (Elt F)) :
    (StableHlo.held (SparseCore.T d) (StableHlo.tcRefs τ sig) W : sProp 𝕄)
      = iprop(((SparseCore.T d).loc main_arg0 ↦{fullShare} W (Proc.devRef .tc main_arg0))
      ∗ ((SparseCore.T d).loc main_arg1 ↦{fullShare} W (Proc.devRef .tc main_arg1))
      ∗ ((SparseCore.T d).loc main_arg2 ↦{fullShare} W (Proc.devRef .tc main_arg2))
      ∗ ((SparseCore.T d).loc main_arg3 ↦{fullShare} W (Proc.devRef .tc main_arg3))
      ∗ ((SparseCore.T d).loc main_arg4 ↦{fullShare} W (Proc.devRef .tc main_arg4))
      ∗ ((SparseCore.T d).loc main_arg5 ↦{fullShare} W (Proc.devRef .tc main_arg5))
      ∗ ((SparseCore.T d).loc main_arg6 ↦{fullShare} W (Proc.devRef .tc main_arg6))
      ∗ ((SparseCore.T d).loc main_arg7 ↦{fullShare} W (Proc.devRef .tc main_arg7))
      ∗ ((SparseCore.T d).loc main_arg8 ↦{fullShare} W (Proc.devRef .tc main_arg8))
      ∗ ((SparseCore.T d).loc main_arg9 ↦{fullShare} W (Proc.devRef .tc main_arg9))
      ∗ ((SparseCore.T d).loc main_arg10 ↦{fullShare} W (Proc.devRef .tc main_arg10))
      ∗ ((SparseCore.T d).loc main_arg11 ↦{fullShare} W (Proc.devRef .tc main_arg11))
      ∗ ((SparseCore.T d).loc main_v0 ↦{fullShare} W (Proc.devRef .tc main_v0))
      ∗ ((SparseCore.T d).loc main_v1 ↦{fullShare} W (Proc.devRef .tc main_v1))
      ∗ ((SparseCore.T d).loc main_c ↦{fullShare} W (Proc.devRef .tc main_c))
      ∗ ((SparseCore.T d).loc main_v2 ↦{fullShare} W (Proc.devRef .tc main_v2))
      ∗ ((SparseCore.T d).loc main_v3 ↦{fullShare} W (Proc.devRef .tc main_v3))
      ∗ ((SparseCore.T d).loc main_v4 ↦{fullShare} W (Proc.devRef .tc main_v4))
      ∗ ((SparseCore.T d).loc main_v5 ↦{fullShare} W (Proc.devRef .tc main_v5))
      ∗ ((SparseCore.T d).loc main_v6 ↦{fullShare} W (Proc.devRef .tc main_v6))
      ∗ ((SparseCore.T d).loc main_v7 ↦{fullShare} W (Proc.devRef .tc main_v7))
      ∗ ((SparseCore.T d).loc main_v8 ↦{fullShare} W (Proc.devRef .tc main_v8))
      ∗ ((SparseCore.T d).loc main_c_0 ↦{fullShare} W (Proc.devRef .tc main_c_0))
      ∗ ((SparseCore.T d).loc main_call0_v0 ↦{fullShare} W (Proc.devRef .tc main_call0_v0))
      ∗ ((SparseCore.T d).loc main_v9 ↦{fullShare} W (Proc.devRef .tc main_v9))
      ∗ ((SparseCore.T d).loc main_v10 ↦{fullShare} W (Proc.devRef .tc main_v10))
      ∗ ((SparseCore.T d).loc main_v11 ↦{fullShare} W (Proc.devRef .tc main_v11))) := by
  unfold StableHlo.held StableHlo.tcRefs
  rw [bigSep_map, refs_univ]
  iterate 26 rw [SparseCore.bigSep_insert' (by decide +kernel)]
  rw [bigSep_singleton]
  rfl

omit [FloatOps F] in
/-- What the launch deals the TensorCore of its arrays is all of them, whole. -/
theorem unscoped_held (d : Dev nD) :
    (unscopedBufs d (fun b => m ((SparseCore.T d).loc b)) : sProp 𝕄) = StableHlo.held (SparseCore.T d) (StableHlo.tcRefs τ sig) (V0 m d) := by
  unfold unscopedBufs StableHlo.held StableHlo.tcRefs
  rw [bigSep_map, show (Finset.univ.filter fun b : Ref sig .tc => ¬ b.isScoped) = Finset.univ by decide]
  rfl

theorem after_main_v5 (d : Dev nD) :
    StableHlo.after (hostOps (F := F)) (V0 m d) (Proc.devRef .tc main_v5) = (shapeCast S12500x8x64 (V0 m d (Proc.devRef .tc main_arg0)) shapeCasts_S100000x64_S12500x8x64 : (main_v5 : Ref sig .tc).ty.Contents (Elt F)) := by
  unfold hostOps; after_results <;> rfl
theorem after_main_v6 (d : Dev nD) :
    StableHlo.after (hostOps (F := F)) (V0 m d) (Proc.devRef .tc main_v6) = (shapeCast S25x8x64 (V0 m d (Proc.devRef .tc main_arg1)) shapeCasts_S200x64_S25x8x64 : (main_v6 : Ref sig .tc).ty.Contents (Elt F)) := by
  unfold hostOps; after_results <;> rfl
theorem after_main_v7 (d : Dev nD) :
    StableHlo.after (hostOps (F := F)) (V0 m d) (Proc.devRef .tc main_v7) = (shapeCast S12500x8x64 (V0 m d (Proc.devRef .tc main_arg2)) shapeCasts_S100000x64_S12500x8x64 : (main_v7 : Ref sig .tc).ty.Contents (Elt F)) := by
  unfold hostOps; after_results <;> rfl
theorem after_main_v8 (d : Dev nD) :
    StableHlo.after (hostOps (F := F)) (V0 m d) (Proc.devRef .tc main_v8) = (shapeCast S1250x8x64 (V0 m d (Proc.devRef .tc main_arg3)) shapeCasts_S10000x64_S1250x8x64 : (main_v8 : Ref sig .tc).ty.Contents (Elt F)) := by
  unfold hostOps; after_results <;> rfl
theorem after_main_v10 (d : Dev nD) :
    StableHlo.after (hostOps (F := F)) (V0 m d) (Proc.devRef .tc main_v10) = (shapeCast S1x8x64 (pad S8x64 ![0, 0] ![6, 0] ![0, 0] (V0 m d (Proc.devRef .tc main_arg4)) (sitofp .f32 (constantI S_ 32 0#32)) pads_S2x64_S8x64_060_000 h_S_) shapeCasts_S8x64_S1x8x64 : (main_v10 : Ref sig .tc).ty.Contents (Elt F)) := by
  unfold hostOps; after_results <;> rfl
theorem after_main_v0 (d : Dev nD) :
    StableHlo.after (hostOps (F := F)) (V0 m d) (Proc.devRef .tc main_v0) = (concatenate S4096 0 [⟨S4095, V0 m d (Proc.devRef .tc main_arg5)⟩, ⟨S1, V0 m d (Proc.devRef .tc main_arg9)⟩] concatenates_S4095_S1_S4096_d0 : (main_v0 : Ref sig .tc).ty.Contents (Elt F)) := by
  unfold hostOps; after_results <;> rfl
theorem after_main_v1 (d : Dev nD) :
    StableHlo.after (hostOps (F := F)) (V0 m d) (Proc.devRef .tc main_v1) = (concatenate S4096 0 [⟨S4095, V0 m d (Proc.devRef .tc main_arg6)⟩, ⟨S1, V0 m d (Proc.devRef .tc main_arg10)⟩] concatenates_S4095_S1_S4096_d0 : (main_v1 : Ref sig .tc).ty.Contents (Elt F)) := by
  unfold hostOps; after_results <;> rfl
theorem after_main_v3 (d : Dev nD) :
    StableHlo.after (hostOps (F := F)) (V0 m d) (Proc.devRef .tc main_v3) = (concatenate S4096 0 [⟨S4095, V0 m d (Proc.devRef .tc main_arg7)⟩, ⟨S1, broadcastInDim S1 ![] bcast_S_S1 (constantI S_ 32 0#32)⟩] concatenates_S4095_S1_S4096_d0 : (main_v3 : Ref sig .tc).ty.Contents (Elt F)) := by
  unfold hostOps; after_results <;> rfl
theorem after_main_v4 (d : Dev nD) :
    StableHlo.after (hostOps (F := F)) (V0 m d) (Proc.devRef .tc main_v4) = (concatenate S4096 0 [⟨S4095, V0 m d (Proc.devRef .tc main_arg8)⟩, ⟨S1, V0 m d (Proc.devRef .tc main_arg11)⟩] concatenates_S4095_S1_S4096_d0 : (main_v4 : Ref sig .tc).ty.Contents (Elt F)) := by
  unfold hostOps; after_results <;> rfl
theorem after_main_arg0 (d : Dev nD) : StableHlo.after (hostOps (F := F)) (V0 m d) (Proc.devRef .tc main_arg0) = V0 m d (Proc.devRef .tc main_arg0) := by
  unfold hostOps; after_results
theorem after_main_arg1 (d : Dev nD) : StableHlo.after (hostOps (F := F)) (V0 m d) (Proc.devRef .tc main_arg1) = V0 m d (Proc.devRef .tc main_arg1) := by
  unfold hostOps; after_results
theorem after_main_arg2 (d : Dev nD) : StableHlo.after (hostOps (F := F)) (V0 m d) (Proc.devRef .tc main_arg2) = V0 m d (Proc.devRef .tc main_arg2) := by
  unfold hostOps; after_results
theorem after_main_arg3 (d : Dev nD) : StableHlo.after (hostOps (F := F)) (V0 m d) (Proc.devRef .tc main_arg3) = V0 m d (Proc.devRef .tc main_arg3) := by
  unfold hostOps; after_results
theorem after_main_arg4 (d : Dev nD) : StableHlo.after (hostOps (F := F)) (V0 m d) (Proc.devRef .tc main_arg4) = V0 m d (Proc.devRef .tc main_arg4) := by
  unfold hostOps; after_results
theorem after_main_arg5 (d : Dev nD) : StableHlo.after (hostOps (F := F)) (V0 m d) (Proc.devRef .tc main_arg5) = V0 m d (Proc.devRef .tc main_arg5) := by
  unfold hostOps; after_results
theorem after_main_arg6 (d : Dev nD) : StableHlo.after (hostOps (F := F)) (V0 m d) (Proc.devRef .tc main_arg6) = V0 m d (Proc.devRef .tc main_arg6) := by
  unfold hostOps; after_results
theorem after_main_arg7 (d : Dev nD) : StableHlo.after (hostOps (F := F)) (V0 m d) (Proc.devRef .tc main_arg7) = V0 m d (Proc.devRef .tc main_arg7) := by
  unfold hostOps; after_results
theorem after_main_arg8 (d : Dev nD) : StableHlo.after (hostOps (F := F)) (V0 m d) (Proc.devRef .tc main_arg8) = V0 m d (Proc.devRef .tc main_arg8) := by
  unfold hostOps; after_results
theorem after_main_arg9 (d : Dev nD) : StableHlo.after (hostOps (F := F)) (V0 m d) (Proc.devRef .tc main_arg9) = V0 m d (Proc.devRef .tc main_arg9) := by
  unfold hostOps; after_results
theorem after_main_arg10 (d : Dev nD) : StableHlo.after (hostOps (F := F)) (V0 m d) (Proc.devRef .tc main_arg10) = V0 m d (Proc.devRef .tc main_arg10) := by
  unfold hostOps; after_results
theorem after_main_arg11 (d : Dev nD) : StableHlo.after (hostOps (F := F)) (V0 m d) (Proc.devRef .tc main_arg11) = V0 m d (Proc.devRef .tc main_arg11) := by
  unfold hostOps; after_results
theorem after_main_v11 (d : Dev nD) : StableHlo.after (hostOps (F := F)) (V0 m d) (Proc.devRef .tc main_v11) = V0 m d (Proc.devRef .tc main_v11) := by
  unfold hostOps; after_results

end Cert.KernelIdeal.Launch

end
-- ==== Proof.Launch.lean ====
/-
  The launch of the SparseCore program.

  @main runs on each device's TensorCore: fourteen host operations build, from the twelve argument arrays, the nine arrays
  the one SparseCore call reads — the four tables regrouped in tiles of eight rows, the two special rows padded to one
  tile, the four index lists each with one word appended — and then the call runs on 2 SparseCores × 16 vector subcores.
  The call is handed a read share of each of the nine arrays, cut in two for the SparseCores and each half in sixteen
  for its vector subcores, and the result array cut into the 32 blocks of 128 rows the workers own: block
  `2 s + c` to worker `(c, s)`. The blocks are pairwise disjoint and cover the array, so the 32 blocks handed back,
  each holding the kernel's result function on its rows, are the whole result array holding that one function.
  The argument arrays are never written: they end as they were launched.
-/
import proofs.«206817_g64347200028782_cont_9to1_m_612_22_alg».proof.Proof.Tile
import proofs.«206817_g64347200028782_cont_9to1_m_612_22_alg».proof.Proof.HostArgs
import proofs.«206817_g64347200028782_cont_9to1_m_612_22_alg».proof.Proof.LaunchHost

noncomputable section

namespace Cert.KernelIdeal.Launch

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The nine arrays the call reads, as functions of the arguments -/

/-- What the host operations before the call leave in the nine arrays the call reads. -/
def hostTabs (a0 : FVec F S100000x64 .f32) (a1 : FVec F S200x64 .f32) (a2 : FVec F S100000x64 .f32) (a3 : FVec F S10000x64 .f32)
    (a4 : FVec F S2x64 .f32) (a5 a6 a7 a8 : IVec S4095 32) (a9 a10 a11 : IVec S1 32) : Tabs F where
  T5 := Cert.HostArgs.RS shapeCasts_S100000x64_S12500x8x64 a0
  T6 := Cert.HostArgs.RS shapeCasts_S200x64_S25x8x64 a1
  T7 := Cert.HostArgs.RS shapeCasts_S100000x64_S12500x8x64 a2
  T8 := Cert.HostArgs.RS shapeCasts_S10000x64_S1250x8x64 a3
  T10 := Cert.HostArgs.PAD pads_S2x64_S8x64_060_000 h_S_ shapeCasts_S8x64_S1x8x64 a4
  I0 := Cert.HostArgs.cat concatenates_S4095_S1_S4096_d0 a5 a9
  I1 := Cert.HostArgs.cat concatenates_S4095_S1_S4096_d0 a6 a10
  I3 := Cert.HostArgs.cat concatenates_S4095_S1_S4096_d0 a7 (Cert.HostArgs.zero1 bcast_S_S1)
  I4 := Cert.HostArgs.cat concatenates_S4095_S1_S4096_d0 a8 a11

variable (m : (ℓ : Loc nD τ sig) → Buf (Elt F) ℓ) (ρ : Dev nD → PrngReg)

/-- The nine arrays on device `d`, from the launch memory. -/
abbrev XT (d : Dev nD) : Tabs F :=
  hostTabs (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11))

/-! ## What the handshakes carry -/

theorem nCore_grid : (K (F := F)).nCore 0 = grid0.bound 0 := rfl
theorem nSub_grid : (K (F := F)).nSub 0 = grid0.bound 1 := rfl

/-- The call hands SparseCore `c` its sixteen tasks' shares and blocks and gets the sixteen blocks back; the
    sequencer hands task `(c, i)` on and back unchanged. -/
def P : (K (F := F)).Pay (nD := nD) (Val := Elt F) (Name := ℕ) (U := UU) where
  st := fun q d c => match q with
    | 0 => bigSep Finset.univ fun i : Fin ((K (F := F)).nSub 0) =>
        tileIn d (coordsV (Fin.cast nCore_grid c) (Fin.cast nSub_grid i)) (XT m d) (m (oLoc d))
  dn := fun q d c => match q with
    | 0 => bigSep Finset.univ fun i : Fin ((K (F := F)).nSub 0) =>
        tileOut d (coordsV (Fin.cast nCore_grid c) (Fin.cast nSub_grid i)) (XT m d)
  go := fun q d c i => match q with
    | 0 => tileIn d (coordsV (Fin.cast nCore_grid c) (Fin.cast nSub_grid i)) (XT m d) (m (oLoc d))
  td := fun q d c i => match q with
    | 0 => tileOut d (coordsV (Fin.cast nCore_grid c) (Fin.cast nSub_grid i)) (XT m d)
  x := fun _ _ => iprop(emp)

omit [FloatOps F] in
instance tileIn_storable (d : Dev nD) (L : grid0.Coords) (X : Tabs F) (f₀ : FVec F S4096x192 .f32) :
    BI.Storable (upEmb : UEmb _ 𝕄) (tileIn d L X f₀) := by unfold tileIn; infer_instance
instance tileOut_storable (d : Dev nD) (L : grid0.Coords) (X : Tabs F) :
    BI.Storable (upEmb : UEmb _ 𝕄) (tileOut d L X) := by unfold tileOut; infer_instance

instance P_storable : (P (F := F) m).IsStorable where
  st q d c := match q with
    | 0 => (inferInstance : BI.Storable (upEmb : UEmb _ 𝕄) (bigSep Finset.univ fun i : Fin ((K (F := F)).nSub 0) =>
        tileIn d (coordsV (Fin.cast nCore_grid c) (Fin.cast nSub_grid i)) (XT m d) (m (oLoc d))))
  dn q d c := match q with
    | 0 => (inferInstance : BI.Storable (upEmb : UEmb _ 𝕄) (bigSep Finset.univ fun i : Fin ((K (F := F)).nSub 0) =>
        tileOut d (coordsV (Fin.cast nCore_grid c) (Fin.cast nSub_grid i)) (XT m d)))
  go q d c i := match q with
    | 0 => (inferInstance : BI.Storable (upEmb : UEmb _ 𝕄) (tileIn d (coordsV (Fin.cast nCore_grid c) (Fin.cast nSub_grid i)) (XT m d) (m (oLoc d))))
  td q d c i := match q with
    | 0 => (inferInstance : BI.Storable (upEmb : UEmb _ 𝕄) (tileOut d (coordsV (Fin.cast nCore_grid c) (Fin.cast nSub_grid i)) (XT m d)))

/-! ## The launch theorem's obligations -/

theorem defs₀_vector (c : Fin τ.nSC) (s : Fin τ.nSub) :
    defs₀ (F := F) (.scVector c s) 0 ()
      = SparseCore.onTile hcore0 hsub0 (fun c s => kernelAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : ∀ d : Dev nD, TileBody (XT m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d d (coordsV ⟨_, hc.1⟩ ⟨_, hc.2⟩) (m (oLoc d)) O W hO).trans (wp_mono frame _ _ fun _ => obl_post)

theorem vecSplit : (K (F := F)).VecSplit' (P m) 0 := by
  intro d c
  have h : ((P m).st 0 d c : sProp 𝕄) = bigSep Finset.univ fun i : Fin ((K (F := F)).nSub 0) => (P m).go 0 d c i := rfl
  have h' : ((P m).dn 0 d c : sProp 𝕄) = bigSep Finset.univ fun i : Fin ((K (F := F)).nSub 0) => (P m).td 0 d c i := rfl
  rw [h, h']
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The result array in 32 blocks of 128 rows -/

omit [FloatOps F] in
theorem outRows_eq (L : grid0.Coords) : outRows L = (outRect L).set := by
  show ((View.whole (main_v11_scv : Ref sig .scVector)).slice (outRect L)).set = _
  exact View.set_slice_whole _ _

omit [FloatOps F] in
/-- Row `r`, column `k` lies in worker `(c, i)`'s block exactly when `r` lies in `[128 (2 i + c), 128 (2 i + c) + 128)`. -/
theorem mem_outRows (c : Fin (grid0.bound 0)) (i : Fin (grid0.bound 1)) (j : S4096x192.Idx) :
    j ∈ outRows (coordsV c i) ↔ 256 * i.val + 128 * c.val ≤ (j 0).val ∧ (j 0).val < 256 * i.val + 128 * c.val + 128 := by
  rw [outRows_eq, Rect.mem_set_unit, k0_off148_eq]
  constructor
  · intro h; exact h 0
  · intro h a
    match a with
    | ⟨0, _⟩ => exact h
    | ⟨1, _⟩ =>
      have h1 : (j 1).val < 192 := (j 1).isLt
      exact ⟨Nat.zero_le _, show (j 1).val < 0 + 192 by omega⟩

/-- The 32 workers as pairs. -/
abbrev rowsOf (p : Fin (grid0.bound 0) × Fin (grid0.bound 1)) : Finset S4096x192.Idx := outRows (coordsV p.1 p.2)

omit [FloatOps F] in
theorem rows_disjoint : ∀ p ∈ (Finset.univ : Finset (Fin (grid0.bound 0) × Fin (grid0.bound 1))), ∀ p' ∈ (Finset.univ : Finset (Fin (grid0.bound 0) × Fin (grid0.bound 1))),
    p ≠ p' → Disjoint (rowsOf p) (rowsOf p') := by
  intro p _ p' _ hne
  refine Finset.disjoint_left.mpr fun j hj hj' => hne ?_
  have h1 := (mem_outRows p.1 p.2 j).mp hj
  have h2 := (mem_outRows p'.1 p'.2 j).mp hj'
  have hc : p.1.val < 2 := p.1.isLt
  have hc' : p'.1.val < 2 := p'.1.isLt
  exact Prod.ext (Fin.ext (by omega)) (Fin.ext (by omega))

omit [FloatOps F] in
theorem rows_cover : (Finset.univ : Finset (Fin (grid0.bound 0) × Fin (grid0.bound 1))).biUnion rowsOf = Finset.univ := by
  refine Finset.eq_univ_iff_forall.mpr fun j => Finset.mem_biUnion.mpr ?_
  have hj : (j 0).val < 4096 := (j 0).isLt
  refine ⟨(⟨(j 0).val / 128 % 2, Nat.mod_lt _ (by decide)⟩, ⟨(j 0).val / 256, by show (j 0).val / 256 < 16; omega⟩), Finset.mem_univ _, ?_⟩
  refine (mem_outRows _ _ j).mpr ?_
  show 256 * ((j 0).val / 256) + 128 * ((j 0).val / 128 % 2) ≤ (j 0).val ∧ (j 0).val < 256 * ((j 0).val / 256) + 128 * ((j 0).val / 128 % 2) + 128
  omega

omit [FloatOps F] in
/-- The result array whole is its 32 blocks, at any one contents. -/
theorem oPts_rows (d : Dev nD) (f : Buf (Elt F) (oLoc d)) :
    (oLoc d ↦{fullShare} f : sProp 𝕄)
      = bigSep Finset.univ fun c : Fin (grid0.bound 0) => bigSep Finset.univ fun i : Fin (grid0.bound 1) => oLoc d ↦[outRows (coordsV c i)]{fullShare} f := by
  rw [← bigSep_univ_prod (fun p : Fin (grid0.bound 0) × Fin (grid0.bound 1) => (oLoc d ↦[rowsOf p]{fullShare} f : sProp 𝕄)),
    ← pointsTo_biUnion Finset.univ (ℓ := oLoc d) rowsOf rows_disjoint, rows_cover]

/-! ## The read shares -/

omit [FloatOps F] in
/-- An array held whole gives every worker its read share (what is left over is dropped). -/
theorem share_cut (ℓ : Loc nD τ sig) (f : Buf (Elt F) ℓ) :
    (ℓ ↦{fullShare} f : sProp 𝕄)
      ⊢ bigSep Finset.univ fun c : Fin (grid0.bound 0) => bigSep Finset.univ fun i : Fin (grid0.bound 1) => ℓ ↦{rshare (coordsV c i)} f :=
  (Transfers.pointsTo_toks_split fullShare 2).trans (sep_elim_right.trans (bigSep_mono fun c _ =>
    (Transfers.pointsTo_toks_split (Transfers.shareTokN fullShare c.val) 16).trans sep_elim_right))

/-- The ten arrays whole give the 32 workers what their tasks are handed. -/
theorem st_intro (d : Dev nD) (X : Tabs F) (f₀ : FVec F S4096x192 .f32) :
    iprop((t5Loc d ↦{fullShare} (X.T5 : Buf (Elt F) (t5Loc d)))
        ∗ (t6Loc d ↦{fullShare} (X.T6 : Buf (Elt F) (t6Loc d)))
        ∗ (t7Loc d ↦{fullShare} (X.T7 : Buf (Elt F) (t7Loc d)))
        ∗ (t8Loc d ↦{fullShare} (X.T8 : Buf (Elt F) (t8Loc d)))
        ∗ (t10Loc d ↦{fullShare} (X.T10 : Buf (Elt F) (t10Loc d)))
        ∗ (i0Loc d ↦{fullShare} (X.I0 : Buf (Elt F) (i0Loc d)))
        ∗ (i1Loc d ↦{fullShare} (X.I1 : Buf (Elt F) (i1Loc d)))
        ∗ (i3Loc d ↦{fullShare} (X.I3 : Buf (Elt F) (i3Loc d)))
        ∗ (i4Loc d ↦{fullShare} (X.I4 : Buf (Elt F) (i4Loc d)))
        ∗ (oLoc d ↦{fullShare} (f₀ : Buf (Elt F) (oLoc d))))
      ⊢ (bigSep Finset.univ fun c : Fin (grid0.bound 0) => bigSep Finset.univ fun i : Fin (grid0.bound 1) => tileIn d (coordsV c i) X f₀ : sProp 𝕄) := by
  unfold tileIn
  simp only [bigSep_sep']
  rw [← oPts_rows]
  iintro ⟨H5, H6, H7, H8, H10, H0, H1, H3, H4, Ho⟩
  isplitl [H5]; · iapply (share_cut _ _); iexact H5
  isplitl [H6]; · iapply (share_cut _ _); iexact H6
  isplitl [H7]; · iapply (share_cut _ _); iexact H7
  isplitl [H8]; · iapply (share_cut _ _); iexact H8
  isplitl [H10]; · iapply (share_cut _ _); iexact H10
  isplitl [H0]; · iapply (share_cut _ _); iexact H0
  isplitl [H1]; · iapply (share_cut _ _); iexact H1
  isplitl [H3]; · iapply (share_cut _ _); iexact H3
  isplitl [H4]; · iapply (share_cut _ _); iexact H4
  iexact Ho

theorem st0_eq (d : Dev nD) :
    (bigSep Finset.univ fun c : Fin ((K (F := F)).nCore 0) => (P m).st 0 d c)
      = bigSep Finset.univ fun c : Fin (grid0.bound 0) => bigSep Finset.univ fun i : Fin (grid0.bound 1) => tileIn d (coordsV c i) (XT m d) (m (oLoc d)) :=
  bigSep_congr fun _ _ => rfl

/-- The 32 blocks handed back are the result array whole, at the kernel's result function. -/
theorem dn0_eq (d : Dev nD) :
    (bigSep Finset.univ fun c : Fin ((K (F := F)).nCore 0) => (P m).dn 0 d c) = (oLoc d ↦{fullShare} ((XT m d).out : Buf (Elt F) (oLoc d)) : sProp 𝕄) := by
  rw [oPts_rows]
  exact bigSep_congr fun _ _ => rfl

/-! ## @main on the TensorCore -/

/-- The twelve argument arrays at their launch contents. -/
abbrev ARGS (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ ((SparseCore.T d).loc main_arg5 ↦{fullShare} m ((SparseCore.T d).loc main_arg5))
    ∗ ((SparseCore.T d).loc main_arg6 ↦{fullShare} m ((SparseCore.T d).loc main_arg6))
    ∗ ((SparseCore.T d).loc main_arg7 ↦{fullShare} m ((SparseCore.T d).loc main_arg7))
    ∗ ((SparseCore.T d).loc main_arg8 ↦{fullShare} m ((SparseCore.T d).loc main_arg8))
    ∗ ((SparseCore.T d).loc main_arg9 ↦{fullShare} m ((SparseCore.T d).loc main_arg9))
    ∗ ((SparseCore.T d).loc main_arg10 ↦{fullShare} m ((SparseCore.T d).loc main_arg10))
    ∗ ((SparseCore.T d).loc main_arg11 ↦{fullShare} m ((SparseCore.T d).loc main_arg11)))

/-- What @main leaves the claim: the result array at the kernel's result function, the arguments as launched. -/
abbrev FIN (d : Dev nD) : sProp 𝕄 := iprop((oLoc d ↦{fullShare} ((XT m d).out : Buf (Elt F) (oLoc d))) ∗ ARGS m d)

/-- After the host operations: the nine arrays the call reads at `XT`, the result array as launched, the arguments as launched. -/
theorem held_after (d : Dev nD) :
    (StableHlo.held (SparseCore.T d) (StableHlo.tcRefs τ sig) (StableHlo.after (hostOps (F := F)) (V0 m d)) : sProp 𝕄)
      ⊢ iprop(((t5Loc d ↦{fullShare} ((XT m d).T5 : Buf (Elt F) (t5Loc d)))
        ∗ (t6Loc d ↦{fullShare} ((XT m d).T6 : Buf (Elt F) (t6Loc d)))
        ∗ (t7Loc d ↦{fullShare} ((XT m d).T7 : Buf (Elt F) (t7Loc d)))
        ∗ (t8Loc d ↦{fullShare} ((XT m d).T8 : Buf (Elt F) (t8Loc d)))
        ∗ (t10Loc d ↦{fullShare} ((XT m d).T10 : Buf (Elt F) (t10Loc d)))
        ∗ (i0Loc d ↦{fullShare} ((XT m d).I0 : Buf (Elt F) (i0Loc d)))
        ∗ (i1Loc d ↦{fullShare} ((XT m d).I1 : Buf (Elt F) (i1Loc d)))
        ∗ (i3Loc d ↦{fullShare} ((XT m d).I3 : Buf (Elt F) (i3Loc d)))
        ∗ (i4Loc d ↦{fullShare} ((XT m d).I4 : Buf (Elt F) (i4Loc d)))
        ∗ (oLoc d ↦{fullShare} m (oLoc d))) ∗ ARGS m d) := by
  rw [held_list, after_main_arg0 m d, after_main_arg1 m d, after_main_arg2 m d, after_main_arg3 m d, after_main_arg4 m d, after_main_arg5 m d, after_main_arg6 m d, after_main_arg7 m d, after_main_arg8 m d, after_main_arg9 m d, after_main_arg10 m d, after_main_arg11 m d, after_main_v0 m d, after_main_v1 m d, after_main_v3 m d, after_main_v4 m d, after_main_v5 m d, after_main_v6 m d, after_main_v7 m d, after_main_v8 m d, after_main_v10 m d, after_main_v11 m d]
  iintro ⟨H_arg0, H_arg1, H_arg2, H_arg3, H_arg4, H_arg5, H_arg6, H_arg7, H_arg8, H_arg9, H_arg10, H_arg11, H_v0, H_v1, -, -, H_v3, H_v4, H_v5, H_v6, H_v7, H_v8, -, -, -, H_v10, H_v11⟩
  isplitr [H_arg0 H_arg1 H_arg2 H_arg3 H_arg4 H_arg5 H_arg6 H_arg7 H_arg8 H_arg9 H_arg10 H_arg11]
  · isplitl [H_v5]; · iexact H_v5
    isplitl [H_v6]; · iexact H_v6
    isplitl [H_v7]; · iexact H_v7
    isplitl [H_v8]; · iexact H_v8
    isplitl [H_v10]; · iexact H_v10
    isplitl [H_v0]; · iexact H_v0
    isplitl [H_v1]; · iexact H_v1
    isplitl [H_v3]; · iexact H_v3
    isplitl [H_v4]; · iexact H_v4
    iexact H_v11
  · isplitl [H_arg0]; · iexact H_arg0
    isplitl [H_arg1]; · iexact H_arg1
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg10]; · iexact H_arg10
    iexact H_arg11

/-- @main on device `d`'s TensorCore: the host operations as one straight line over all its arrays held whole, the
    call from the shares and blocks, the blocks back as the whole result array; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d (StableHlo.tcRefs τ sig) _ (hostOps (F := F)) hostOps_sub hostOps_fresh (V0 m d)) $$ [Hb Hheld]
  · isplitl [Hb]; · iexact Hb
    iexact Hheld
  iintro ⟨Hb, Hheld⟩
  ihave Hh := (held_after m d) $$ Hheld
  icases Hh with ⟨Hin, Hargs⟩
  simp only [wp_bind, wp_pure]
  iapply ((K (F := F)).wp_run (D (F := F)) 𝒱 (EH := EH) (P := P m) κ d 0) $$ [Hst Hin Hargs]
  isplitr; · iexact Hctx
  isplitl [Hst]; · iexact Hst
  isplitl [Hin]
  · rw [st0_eq]
    iapply (st_intro d (XT m d) (m (oLoc d))); iexact Hin
  iintro ⟨Hst, Hdn⟩
  ihave Hdn' := (Entails.of_eq (dn0_eq m d)) $$ Hdn
  imodintro
  isplitl [Hst]; · iexact Hst
  isplitl [Hdn']; · iexact Hdn'
  iexact Hargs

/-- What the final memory holds on device `d`. -/
def fq (d : Dev nD) (s' : Phys nD τ sig (Elt F)) : Prop :=
  s'.mem.mem (oLoc d) = ((XT m d).out : Buf (Elt F) (oLoc d))
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)
    ∧ s'.mem.mem ((SparseCore.T d).loc main_arg6) = m ((SparseCore.T d).loc main_arg6)
    ∧ s'.mem.mem ((SparseCore.T d).loc main_arg7) = m ((SparseCore.T d).loc main_arg7)
    ∧ s'.mem.mem ((SparseCore.T d).loc main_arg8) = m ((SparseCore.T d).loc main_arg8)
    ∧ s'.mem.mem ((SparseCore.T d).loc main_arg9) = m ((SparseCore.T d).loc main_arg9)
    ∧ s'.mem.mem ((SparseCore.T d).loc main_arg10) = m ((SparseCore.T d).loc main_arg10)
    ∧ s'.mem.mem ((SparseCore.T d).loc main_arg11) = m ((SparseCore.T d).loc main_arg11)

theorem hfin (d : Dev nD) (s' : Phys nD τ sig (Elt F)) : iprop(FIN m d ∗ SI s') ⊢ (⌜fq m d s'⌝ : sProp 𝕄) := by
  iintro ⟨⟨Ho, A0, A1, A2, A3, A4, A5, A6, A7, A8, A9, A10, A11⟩, HSI⟩
  ihave H := (persistent_entails_right (SI_pointsTo_agree (st := s') (ℓ := oLoc d) (I := Finset.univ) (q := fullShare) (f := ((XT m d).out : Buf (Elt F) (oLoc d))))) $$ [HSI Ho]
  · isplitl [HSI] <;> iassumption
  icases H with ⟨%ho, HSI, -⟩
  ihave H := (persistent_entails_right (SI_pointsTo_agree (st := s') (ℓ := (SparseCore.T d).loc main_arg0) (I := Finset.univ) (q := fullShare) (f := m ((SparseCore.T d).loc main_arg0)))) $$ [HSI A0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI A1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI A2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI A3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI A4]
  · isplitl [HSI] <;> iassumption
  icases H with ⟨%h4, HSI, -⟩
  ihave H := (persistent_entails_right (SI_pointsTo_agree (st := s') (ℓ := (SparseCore.T d).loc main_arg5) (I := Finset.univ) (q := fullShare) (f := m ((SparseCore.T d).loc main_arg5)))) $$ [HSI A5]
  · isplitl [HSI] <;> iassumption
  icases H with ⟨%h5, HSI, -⟩
  ihave H := (persistent_entails_right (SI_pointsTo_agree (st := s') (ℓ := (SparseCore.T d).loc main_arg6) (I := Finset.univ) (q := fullShare) (f := m ((SparseCore.T d).loc main_arg6)))) $$ [HSI A6]
  · isplitl [HSI] <;> iassumption
  icases H with ⟨%h6, HSI, -⟩
  ihave H := (persistent_entails_right (SI_pointsTo_agree (st := s') (ℓ := (SparseCore.T d).loc main_arg7) (I := Finset.univ) (q := fullShare) (f := m ((SparseCore.T d).loc main_arg7)))) $$ [HSI A7]
  · isplitl [HSI] <;> iassumption
  icases H with ⟨%h7, HSI, -⟩
  ihave H := (persistent_entails_right (SI_pointsTo_agree (st := s') (ℓ := (SparseCore.T d).loc main_arg8) (I := Finset.univ) (q := fullShare) (f := m ((SparseCore.T d).loc main_arg8)))) $$ [HSI A8]
  · isplitl [HSI] <;> iassumption
  icases H with ⟨%h8, HSI, -⟩
  ihave H := (persistent_entails_right (SI_pointsTo_agree (st := s') (ℓ := (SparseCore.T d).loc main_arg9) (I := Finset.univ) (q := fullShare) (f := m ((SparseCore.T d).loc main_arg9)))) $$ [HSI A9]
  · isplitl [HSI] <;> iassumption
  icases H with ⟨%h9, HSI, -⟩
  ihave H := (persistent_entails_right (SI_pointsTo_agree (st := s') (ℓ := (SparseCore.T d).loc main_arg10) (I := Finset.univ) (q := fullShare) (f := m ((SparseCore.T d).loc main_arg10)))) $$ [HSI A10]
  · isplitl [HSI] <;> iassumption
  icases H with ⟨%h10, HSI, -⟩
  ihave H := (SI_pointsTo_agree (st := s') (ℓ := (SparseCore.T d).loc main_arg11) (I := Finset.univ) (q := fullShare) (f := m ((SparseCore.T d).loc main_arg11))) $$ [HSI A11]
  · isplitl [HSI] <;> iassumption
  icases H with %h11
  ipureintro
  exact ⟨funext fun i => ho i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i), funext fun i => h11 i (Finset.mem_univ i)⟩

/-! ## The program's run -/

theorem run_main [∀ e, Nonempty (Elt F e)]
    (hbody : ∀ d : Dev nD, TileBody (hostTabs (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)))) :
    θ_run (Cert.KernelIdeal.defs (F := F)) (Cert.KernelIdeal.threads (F := F)) ⟨m, fun _ => 0, ρ⟩
      (fun r => ∀ c : Dev nD, r.2.mem ((c.tc : Thread nD τ).loc main_v11) = (hostTabs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).out
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.KernelIdeal.Launch

end
-- ==== Proof.TileRes.lean ====
/-
  A vector subcore's own storage, named: its nine scratch buffers (four index lists of 128 words, four gathered-row
  buffers of 128 × 64, the 128 × 192 staging buffer of output rows) and its seven DMA semaphores (the gather's and one
  per synchronous copy), each split off the subcore's pool of buffers and of semaphore cells.
-/
import proofs.«206817_g64347200028782_cont_9to1_m_612_22_alg».proof.Proof.Tile

noncomputable section

namespace Cert.KernelIdeal.TileRes

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- Worker `L`'s thread. -/
abbrev thr : Thread nD τ := V d (cV L) (jV L)

abbrev bref (r : Ref sig .scVector) : DevRef τ sig := (Proc.scVector (cV L) (jV L)).devRef r
abbrev cell (s : DmaSems sig S_) : GSem nD τ sig := (V d (cV L) (jV L), .dma s.sem)

/-- The nine scratch buffers, as device references. -/
def bufSet : Finset (DevRef τ sig) := {bref L cc0_scratch0, bref L cc0_scratch1, bref L cc0_scratch2, bref L cc0_scratch3, bref L cc0_scratch4, bref L cc0_scratch5, bref L cc0_scratch6, bref L cc0_scratch7, bref L cc0_scratch8}
/-- The seven DMA semaphore cells. -/
def cellSet : Finset (GSem nD τ sig) := {cell d L cc0_scratch9, cell d L cc0_scoped0, cell d L cc0_scoped1, cell d L cc0_scoped2, cell d L cc0_scoped3, cell d L cc0_scoped4, cell d L cc0_scoped5}

theorem bufSet_sub : bufSet L ⊆ ownRefs (τ := τ) (.scVector (cV L) (jV L)) := by
  intro b hb
  simp only [bufSet, Finset.mem_insert, Finset.mem_singleton] at hb
  rcases hb with rfl | rfl | rfl | rfl | rfl | rfl | rfl | rfl | rfl <;>
    exact SparseCore.Cfg.mem_ownRefs_of_owner rfl

theorem cellSet_sub : cellSet d L ⊆ ownCells (V d (cV L) (jV L)) := by
  intro g hg
  simp only [cellSet, Finset.mem_insert, Finset.mem_singleton] at hg
  rcases hg with rfl | rfl | rfl | rfl | rfl | rfl | rfl
  · exact mem_ownCells.mpr ⟨rfl, by show (SemLoc.dma cc0_scratch9.sem : SemLoc sig).isScoped .scVector = true; decide⟩
  · exact mem_ownCells.mpr ⟨rfl, by show (SemLoc.dma cc0_scoped0.sem : SemLoc sig).isScoped .scVector = true; decide⟩
  · exact mem_ownCells.mpr ⟨rfl, by show (SemLoc.dma cc0_scoped1.sem : SemLoc sig).isScoped .scVector = true; decide⟩
  · exact mem_ownCells.mpr ⟨rfl, by show (SemLoc.dma cc0_scoped2.sem : SemLoc sig).isScoped .scVector = true; decide⟩
  · exact mem_ownCells.mpr ⟨rfl, by show (SemLoc.dma cc0_scoped3.sem : SemLoc sig).isScoped .scVector = true; decide⟩
  · exact mem_ownCells.mpr ⟨rfl, by show (SemLoc.dma cc0_scoped4.sem : SemLoc sig).isScoped .scVector = true; decide⟩
  · exact mem_ownCells.mpr ⟨rfl, by show (SemLoc.dma cc0_scoped5.sem : SemLoc sig).isScoped .scVector = true; decide⟩

/-! ## The pools split -/

/-- Separating conjunction reassociated, as an equation. -/
theorem sep_assoc_eq (P Q R : sProp 𝕄) : (iprop((P ∗ Q) ∗ R) : sProp 𝕄) = iprop(P ∗ Q ∗ R) :=
  Idealize.SL.BI.equiv_iff.mp ⟨Idealize.SL.BI.sep_assoc, Idealize.SL.BI.sep_assoc'⟩

/-- Distinct buffer names are distinct device references of the subcore. -/
theorem bref_ne {r r' : Ref sig .scVector} (h : r ≠ r') : bref L r ≠ bref L r' :=
  fun e => h (Proc.devRef_injective _ e)

/-- The subcore's pool of buffers: the nine scratch buffers, each whole at some contents, and the rest. -/
theorem ownBufs_split :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ bigSep (ownRefs (τ := τ) (.scVector (cV L) (jV L)) \ bufSet L) fun b => iprop(∃ f, ((d, b) : Loc nD τ sig) ↦{fullShare} f)) := by
  have h0 : bref L cc0_scratch0 ∉ ({bref L cc0_scratch1, bref L cc0_scratch2, bref L cc0_scratch3, bref L cc0_scratch4, bref L cc0_scratch5, bref L cc0_scratch6, bref L cc0_scratch7, bref L cc0_scratch8} : Finset (DevRef τ sig)) := by
    simp only [Finset.mem_insert, Finset.mem_singleton, not_or]
    exact ⟨bref_ne L (show (cc0_scratch0 : Ref sig .scVector) ≠ cc0_scratch1 by decide),
      bref_ne L (show (cc0_scratch0 : Ref sig .scVector) ≠ cc0_scratch2 by decide),
      bref_ne L (show (cc0_scratch0 : Ref sig .scVector) ≠ cc0_scratch3 by decide),
      bref_ne L (show (cc0_scratch0 : Ref sig .scVector) ≠ cc0_scratch4 by decide),
      bref_ne L (show (cc0_scratch0 : Ref sig .scVector) ≠ cc0_scratch5 by decide),
      bref_ne L (show (cc0_scratch0 : Ref sig .scVector) ≠ cc0_scratch6 by decide),
      bref_ne L (show (cc0_scratch0 : Ref sig .scVector) ≠ cc0_scratch7 by decide),
      bref_ne L (show (cc0_scratch0 : Ref sig .scVector) ≠ cc0_scratch8 by decide)⟩
  have h1 : bref L cc0_scratch1 ∉ ({bref L cc0_scratch2, bref L cc0_scratch3, bref L cc0_scratch4, bref L cc0_scratch5, bref L cc0_scratch6, bref L cc0_scratch7, bref L cc0_scratch8} : Finset (DevRef τ sig)) := by
    simp only [Finset.mem_insert, Finset.mem_singleton, not_or]
    exact ⟨bref_ne L (show (cc0_scratch1 : Ref sig .scVector) ≠ cc0_scratch2 by decide),
      bref_ne L (show (cc0_scratch1 : Ref sig .scVector) ≠ cc0_scratch3 by decide),
      bref_ne L (show (cc0_scratch1 : Ref sig .scVector) ≠ cc0_scratch4 by decide),
      bref_ne L (show (cc0_scratch1 : Ref sig .scVector) ≠ cc0_scratch5 by decide),
      bref_ne L (show (cc0_scratch1 : Ref sig .scVector) ≠ cc0_scratch6 by decide),
      bref_ne L (show (cc0_scratch1 : Ref sig .scVector) ≠ cc0_scratch7 by decide),
      bref_ne L (show (cc0_scratch1 : Ref sig .scVector) ≠ cc0_scratch8 by decide)⟩
  have h2 : bref L cc0_scratch2 ∉ ({bref L cc0_scratch3, bref L cc0_scratch4, bref L cc0_scratch5, bref L cc0_scratch6, bref L cc0_scratch7, bref L cc0_scratch8} : Finset (DevRef τ sig)) := by
    simp only [Finset.mem_insert, Finset.mem_singleton, not_or]
    exact ⟨bref_ne L (show (cc0_scratch2 : Ref sig .scVector) ≠ cc0_scratch3 by decide),
      bref_ne L (show (cc0_scratch2 : Ref sig .scVector) ≠ cc0_scratch4 by decide),
      bref_ne L (show (cc0_scratch2 : Ref sig .scVector) ≠ cc0_scratch5 by decide),
      bref_ne L (show (cc0_scratch2 : Ref sig .scVector) ≠ cc0_scratch6 by decide),
      bref_ne L (show (cc0_scratch2 : Ref sig .scVector) ≠ cc0_scratch7 by decide),
      bref_ne L (show (cc0_scratch2 : Ref sig .scVector) ≠ cc0_scratch8 by decide)⟩
  have h3 : bref L cc0_scratch3 ∉ ({bref L cc0_scratch4, bref L cc0_scratch5, bref L cc0_scratch6, bref L cc0_scratch7, bref L cc0_scratch8} : Finset (DevRef τ sig)) := by
    simp only [Finset.mem_insert, Finset.mem_singleton, not_or]
    exact ⟨bref_ne L (show (cc0_scratch3 : Ref sig .scVector) ≠ cc0_scratch4 by decide),
      bref_ne L (show (cc0_scratch3 : Ref sig .scVector) ≠ cc0_scratch5 by decide),
      bref_ne L (show (cc0_scratch3 : Ref sig .scVector) ≠ cc0_scratch6 by decide),
      bref_ne L (show (cc0_scratch3 : Ref sig .scVector) ≠ cc0_scratch7 by decide),
      bref_ne L (show (cc0_scratch3 : Ref sig .scVector) ≠ cc0_scratch8 by decide)⟩
  have h4 : bref L cc0_scratch4 ∉ ({bref L cc0_scratch5, bref L cc0_scratch6, bref L cc0_scratch7, bref L cc0_scratch8} : Finset (DevRef τ sig)) := by
    simp only [Finset.mem_insert, Finset.mem_singleton, not_or]
    exact ⟨bref_ne L (show (cc0_scratch4 : Ref sig .scVector) ≠ cc0_scratch5 by decide),
      bref_ne L (show (cc0_scratch4 : Ref sig .scVector) ≠ cc0_scratch6 by decide),
      bref_ne L (show (cc0_scratch4 : Ref sig .scVector) ≠ cc0_scratch7 by decide),
      bref_ne L (show (cc0_scratch4 : Ref sig .scVector) ≠ cc0_scratch8 by decide)⟩
  have h5 : bref L cc0_scratch5 ∉ ({bref L cc0_scratch6, bref L cc0_scratch7, bref L cc0_scratch8} : Finset (DevRef τ sig)) := by
    simp only [Finset.mem_insert, Finset.mem_singleton, not_or]
    exact ⟨bref_ne L (show (cc0_scratch5 : Ref sig .scVector) ≠ cc0_scratch6 by decide),
      bref_ne L (show (cc0_scratch5 : Ref sig .scVector) ≠ cc0_scratch7 by decide),
      bref_ne L (show (cc0_scratch5 : Ref sig .scVector) ≠ cc0_scratch8 by decide)⟩
  have h6 : bref L cc0_scratch6 ∉ ({bref L cc0_scratch7, bref L cc0_scratch8} : Finset (DevRef τ sig)) := by
    simp only [Finset.mem_insert, Finset.mem_singleton, not_or]
    exact ⟨bref_ne L (show (cc0_scratch6 : Ref sig .scVector) ≠ cc0_scratch7 by decide),
      bref_ne L (show (cc0_scratch6 : Ref sig .scVector) ≠ cc0_scratch8 by decide)⟩
  have h7 : bref L cc0_scratch7 ∉ ({bref L cc0_scratch8} : Finset (DevRef τ sig)) := by
    simp only [Finset.mem_insert, Finset.mem_singleton, not_or]
    exact bref_ne L (show (cc0_scratch7 : Ref sig .scVector) ≠ cc0_scratch8 by decide)
  unfold SparseCore.Cfg.ownBufs
  rw [SparseCore.bigSep_sdiff_split' (bufSet_sub L)]
  unfold bufSet
  rw [SparseCore.bigSep_insert' h0, SparseCore.bigSep_insert' h1, SparseCore.bigSep_insert' h2, SparseCore.bigSep_insert' h3,
    SparseCore.bigSep_insert' h4, SparseCore.bigSep_insert' h5, SparseCore.bigSep_insert' h6, SparseCore.bigSep_insert' h7,
    bigSep_singleton]
  simp only [sep_assoc_eq]

/-- The subcore's pool of semaphore cells: the seven DMA semaphores at zero, and the rest. -/
theorem ownSems0_split :
    (ownSems0 (V d (cV L) (jV L)) : sProp 𝕄)
      = iprop(semVal (cell d L cc0_scratch9) 0 ∗ semVal (cell d L cc0_scoped0) 0 ∗ semVal (cell d L cc0_scoped1) 0 ∗ semVal (cell d L cc0_scoped2) 0 ∗ semVal (cell d L cc0_scoped3) 0 ∗ semVal (cell d L cc0_scoped4) 0 ∗ semVal (cell d L cc0_scoped5) 0
          ∗ bigSep (ownCells (V d (cV L) (jV L)) \ cellSet d L) fun g => semVal g 0) := by
  have h0 : cell d L cc0_scratch9 ∉ ({cell d L cc0_scoped0, cell d L cc0_scoped1, cell d L cc0_scoped2, cell d L cc0_scoped3, cell d L cc0_scoped4, cell d L cc0_scoped5} : Finset (GSem nD τ sig)) := by
    simp only [Finset.mem_insert, Finset.mem_singleton, Prod.mk.injEq, true_and, SemLoc.dma.injEq]; decide
  have h1 : cell d L cc0_scoped0 ∉ ({cell d L cc0_scoped1, cell d L cc0_scoped2, cell d L cc0_scoped3, cell d L cc0_scoped4, cell d L cc0_scoped5} : Finset (GSem nD τ sig)) := by
    simp only [Finset.mem_insert, Finset.mem_singleton, Prod.mk.injEq, true_and, SemLoc.dma.injEq]; decide
  have h2 : cell d L cc0_scoped1 ∉ ({cell d L cc0_scoped2, cell d L cc0_scoped3, cell d L cc0_scoped4, cell d L cc0_scoped5} : Finset (GSem nD τ sig)) := by
    simp only [Finset.mem_insert, Finset.mem_singleton, Prod.mk.injEq, true_and, SemLoc.dma.injEq]; decide
  have h3 : cell d L cc0_scoped2 ∉ ({cell d L cc0_scoped3, cell d L cc0_scoped4, cell d L cc0_scoped5} : Finset (GSem nD τ sig)) := by
    simp only [Finset.mem_insert, Finset.mem_singleton, Prod.mk.injEq, true_and, SemLoc.dma.injEq]; decide
  have h4 : cell d L cc0_scoped3 ∉ ({cell d L cc0_scoped4, cell d L cc0_scoped5} : Finset (GSem nD τ sig)) := by
    simp only [Finset.mem_insert, Finset.mem_singleton, Prod.mk.injEq, true_and, SemLoc.dma.injEq]; decide
  have h5 : cell d L cc0_scoped4 ∉ ({cell d L cc0_scoped5} : Finset (GSem nD τ sig)) := by
    simp only [Finset.mem_insert, Finset.mem_singleton, Prod.mk.injEq, true_and, SemLoc.dma.injEq]; decide
  unfold SparseCore.Cfg.ownSems0
  rw [SparseCore.bigSep_sdiff_split' (cellSet_sub d L)]
  unfold cellSet
  rw [SparseCore.bigSep_insert' h0, SparseCore.bigSep_insert' h1, SparseCore.bigSep_insert' h2, SparseCore.bigSep_insert' h3,
    SparseCore.bigSep_insert' h4, SparseCore.bigSep_insert' h5, bigSep_singleton]
  simp only [sep_assoc_eq]

end Cert.KernelIdeal.TileRes

end
-- ==== Proof.TileCoreStmt.lean ====
/-
  One task's run stated over its resources laid out by name: the nine input arrays as the task addresses them (each at
  the task's read share), its output rows, its nine scratch buffers whole, its seven DMA semaphore cells at zero.
-/
import proofs.«206817_g64347200028782_cont_9to1_m_612_22_alg».proof.Proof.TileRes

noncomputable section

namespace Cert.KernelIdeal.TileCore

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes

variable [FloatOps F] (d : Dev nD) (L : grid0.Coords) (X : Tabs F)

/-- An input array as the task addresses it, at the task's read share. -/
abbrev inT5 : sProp 𝕄 := (Memref.whole main_v5_scv : Memref sig .scVector .hbm S12500x8x64 .f32).view.loc (thr d L) ↦{rshare L} (X.T5 : Buf (Elt F) ((Memref.whole main_v5_scv : Memref sig .scVector .hbm S12500x8x64 .f32).view.loc (thr d L)))
abbrev inT6 : sProp 𝕄 := (Memref.whole main_v6_scv : Memref sig .scVector .hbm S25x8x64 .f32).view.loc (thr d L) ↦{rshare L} (X.T6 : Buf (Elt F) ((Memref.whole main_v6_scv : Memref sig .scVector .hbm S25x8x64 .f32).view.loc (thr d L)))
abbrev inT7 : sProp 𝕄 := (Memref.whole main_v7_scv : Memref sig .scVector .hbm S12500x8x64 .f32).view.loc (thr d L) ↦{rshare L} (X.T7 : Buf (Elt F) ((Memref.whole main_v7_scv : Memref sig .scVector .hbm S12500x8x64 .f32).view.loc (thr d L)))
abbrev inT8 : sProp 𝕄 := (Memref.whole main_v8_scv : Memref sig .scVector .hbm S1250x8x64 .f32).view.loc (thr d L) ↦{rshare L} (X.T8 : Buf (Elt F) ((Memref.whole main_v8_scv : Memref sig .scVector .hbm S1250x8x64 .f32).view.loc (thr d L)))
abbrev inT10 : sProp 𝕄 := (Memref.whole main_v10_scv : Memref sig .scVector .hbm S1x8x64 .f32).view.loc (thr d L) ↦{rshare L} (X.T10 : Buf (Elt F) ((Memref.whole main_v10_scv : Memref sig .scVector .hbm S1x8x64 .f32).view.loc (thr d L)))
abbrev inI0 : sProp 𝕄 := (Memref.whole main_v0_scv : Memref sig .scVector .hbm S4096 .i32).view.loc (thr d L) ↦{rshare L} (X.I0 : Buf (Elt F) ((Memref.whole main_v0_scv : Memref sig .scVector .hbm S4096 .i32).view.loc (thr d L)))
abbrev inI1 : sProp 𝕄 := (Memref.whole main_v1_scv : Memref sig .scVector .hbm S4096 .i32).view.loc (thr d L) ↦{rshare L} (X.I1 : Buf (Elt F) ((Memref.whole main_v1_scv : Memref sig .scVector .hbm S4096 .i32).view.loc (thr d L)))
abbrev inI3 : sProp 𝕄 := (Memref.whole main_v3_scv : Memref sig .scVector .hbm S4096 .i32).view.loc (thr d L) ↦{rshare L} (X.I3 : Buf (Elt F) ((Memref.whole main_v3_scv : Memref sig .scVector .hbm S4096 .i32).view.loc (thr d L)))
abbrev inI4 : sProp 𝕄 := (Memref.whole main_v4_scv : Memref sig .scVector .hbm S4096 .i32).view.loc (thr d L) ↦{rshare L} (X.I4 : Buf (Elt F) ((Memref.whole main_v4_scv : Memref sig .scVector .hbm S4096 .i32).view.loc (thr d L)))

/-- A scratch buffer whole at `f`. -/
abbrev sc0 (f : Buf (Elt F) ((thr d L).loc cc0_scratch0)) : sProp 𝕄 := (Memref.whole cc0_scratch0 : Memref sig .scVector .vmem S128 .i32).view.loc (thr d L) ↦{fullShare} f
abbrev sc1 (f : Buf (Elt F) ((thr d L).loc cc0_scratch1)) : sProp 𝕄 := (Memref.whole cc0_scratch1 : Memref sig .scVector .vmem S128 .i32).view.loc (thr d L) ↦{fullShare} f
abbrev sc2 (f : Buf (Elt F) ((thr d L).loc cc0_scratch2)) : sProp 𝕄 := (Memref.whole cc0_scratch2 : Memref sig .scVector .vmem S128 .i32).view.loc (thr d L) ↦{fullShare} f
abbrev sc3 (f : Buf (Elt F) ((thr d L).loc cc0_scratch3)) : sProp 𝕄 := (Memref.whole cc0_scratch3 : Memref sig .scVector .vmem S128 .i32).view.loc (thr d L) ↦{fullShare} f
abbrev sc4 (f : Buf (Elt F) ((thr d L).loc cc0_scratch4)) : sProp 𝕄 := (Memref.whole cc0_scratch4 : Memref sig .scVector .vmem S128x64 .f32).view.loc (thr d L) ↦{fullShare} f
abbrev sc5 (f : Buf (Elt F) ((thr d L).loc cc0_scratch5)) : sProp 𝕄 := (Memref.whole cc0_scratch5 : Memref sig .scVector .vmem S128x64 .f32).view.loc (thr d L) ↦{fullShare} f
abbrev sc6 (f : Buf (Elt F) ((thr d L).loc cc0_scratch6)) : sProp 𝕄 := (Memref.whole cc0_scratch6 : Memref sig .scVector .vmem S128x64 .f32).view.loc (thr d L) ↦{fullShare} f
abbrev sc7 (f : Buf (Elt F) ((thr d L).loc cc0_scratch7)) : sProp 𝕄 := (Memref.whole cc0_scratch7 : Memref sig .scVector .vmem S128x64 .f32).view.loc (thr d L) ↦{fullShare} f
abbrev sc8 (f : Buf (Elt F) ((thr d L).loc cc0_scratch8)) : sProp 𝕄 := (Memref.whole cc0_scratch8 : Memref sig .scVector .vmem S128x192 .f32).view.loc (thr d L) ↦{fullShare} f

/-- The task's output rows at `f`, as the task addresses them. -/
abbrev outAt (f : FVec F S4096x192 .f32) : sProp 𝕄 :=
  (outSlice L).view.loc (thr d L) ↦[(outSlice L).view.set]{fullShare} (f : Buf (Elt F) ((outSlice L).view.loc (thr d L)))

/-- The run, from named resources to named resources. -/
def BodyCore : Prop :=
  ∀ (d : Dev nD) (L : grid0.Coords) (f₀ : FVec F S4096x192 .f32)
    (O : CellTallies nD τ sig (HIx 1)) (W : Waits sig (HIx 1))
    (g0 : Buf (Elt F) ((thr d L).loc cc0_scratch0)) (g1 : Buf (Elt F) ((thr d L).loc cc0_scratch1)) (g2 : Buf (Elt F) ((thr d L).loc cc0_scratch2)) (g3 : Buf (Elt F) ((thr d L).loc cc0_scratch3)) (g4 : Buf (Elt F) ((thr d L).loc cc0_scratch4)) (g5 : Buf (Elt F) ((thr d L).loc cc0_scratch5)) (g6 : Buf (Elt F) ((thr d L).loc cc0_scratch6)) (g7 : Buf (Elt F) ((thr d L).loc cc0_scratch7)) (g8 : Buf (Elt F) ((thr d L).loc cc0_scratch8)),
    iprop(Transfers.MayWaits (thr d L) (none : HIx 1) O
        ∗ inT5 d L X ∗ inT6 d L X ∗ inT7 d L X ∗ inT8 d L X ∗ inT10 d L X ∗ inI0 d L X ∗ inI1 d L X ∗ inI3 d L X ∗ inI4 d L X
        ∗ outAt d L f₀
        ∗ sc0 d L g0 ∗ sc1 d L g1 ∗ sc2 d L g2 ∗ sc3 d L g3 ∗ sc4 d L g4 ∗ sc5 d L g5 ∗ sc6 d L g6 ∗ sc7 d L g7 ∗ sc8 d L g8
        ∗ semVal (cell d L cc0_scratch9) 0 ∗ semVal (cell d L cc0_scoped0) 0 ∗ semVal (cell d L cc0_scoped1) 0 ∗ semVal (cell d L cc0_scoped2) 0 ∗ semVal (cell d L cc0_scoped3) 0 ∗ semVal (cell d L cc0_scoped4) 0 ∗ semVal (cell d L cc0_scoped5) 0
        ∗ owes (thr d L) O W)
      ⊢ wp frame (wpE (defs₀ (F := F)) 𝒱₀ (thr d L) none) Set.univ (kernelAt (F := F) L)
          fun _ => iprop(outAt d L X.out
            ∗ (∃ f, sc0 d L f) ∗ (∃ f, sc1 d L f) ∗ (∃ f, sc2 d L f) ∗ (∃ f, sc3 d L f) ∗ (∃ f, sc4 d L f) ∗ (∃ f, sc5 d L f) ∗ (∃ f, sc6 d L f) ∗ (∃ f, sc7 d L f) ∗ (∃ f, sc8 d L f)
            ∗ semVal (cell d L cc0_scratch9) 0 ∗ semVal (cell d L cc0_scoped0) 0 ∗ semVal (cell d L cc0_scoped1) 0 ∗ semVal (cell d L cc0_scoped2) 0 ∗ semVal (cell d L cc0_scoped3) 0 ∗ semVal (cell d L cc0_scoped4) 0 ∗ semVal (cell d L cc0_scoped5) 0
            ∗ ∃ W', ⌜∀ p ∈ W', p ∈ W ∨ p.2 = none⌝ ∗ owes (thr d L) O W')

end Cert.KernelIdeal.TileCore

end
-- ==== Proof.TileWrap.lean ====
/-
  One task's run over the vector subcore's pools, from its run over named resources: the pools are split into the
  nine scratch buffers and seven semaphore cells the task uses and the rest, the task is run on the named ones, and the
  rest is framed around the run and joined back.
-/
import proofs.«206817_g64347200028782_cont_9to1_m_612_22_alg».proof.Proof.TileCoreStmt

noncomputable section

namespace Cert.KernelIdeal.TileWrap

open Cert.KernelIdeal Cert.KernelIdeal.Gen Cert.KernelIdeal.Tile Cert.KernelIdeal.TileRes Cert.KernelIdeal.TileCore

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (X : Tabs F)

/-- The task run over the subcore's pools, from its run over the named resources. -/
theorem tile_body (X : Tabs F) (hcore : BodyCore X) : TileBody X := by
  intro d L f₀ O W hO
  rw [(K (F := F)).scopedBufs_V facts d (cV L) (jV L), SparseCore.Cfg.scopedSems0_V (Val := Elt F) d (cV L) (jV L),
    ownSems0_split, ownBufs_split]
  unfold tileIn tileOut
  iintro ⟨#Hlv, -, ⟨H5, H6, H7, H8, H10, H0, H1, H3, H4, Ho⟩,
    ⟨⟨%g0, B0⟩, ⟨%g1, B1⟩, ⟨%g2, B2⟩, ⟨%g3, B3⟩, ⟨%g4, B4⟩, ⟨%g5, B5⟩, ⟨%g6, B6⟩, ⟨%g7, B7⟩, ⟨%g8, B8⟩, Hbufs⟩, ⟨C0, C1, C2, C3, C4, C5, C6, Hsems⟩, HO⟩
  ihave Hmw := (show levAts (K (F := F)).L (K (F := F)).lev ⊢ Transfers.MayWaits (thr d L) (none : HIx 1) O from
    (K (F := F)).mayWaits_none (thr := thr d L) hO) $$ Hlv
  iapply (wp_wand_r Idealize.ShloMosaic.frame (wpE (defs₀ (F := F)) 𝒱₀ (thr d L) none) Set.univ)
  isplitl [H5 H6 H7 H8 H10 H0 H1 H3 H4 Ho B0 B1 B2 B3 B4 B5 B6 B7 B8 C0 C1 C2 C3 C4 C5 C6 HO]
  · iapply (hcore d L f₀ O W g0 g1 g2 g3 g4 g5 g6 g7 g8)
    isplitr; · iexact Hmw
    isplitl [H5]; · iexact H5
    isplitl [H6]; · iexact H6
    isplitl [H7]; · iexact H7
    isplitl [H8]; · iexact H8
    isplitl [H10]; · iexact H10
    isplitl [H0]; · iexact H0
    isplitl [H1]; · iexact H1
    isplitl [H3]; · iexact H3
    isplitl [H4]; · iexact H4
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [C0]; · iexact C0
    isplitl [C1]; · iexact C1
    isplitl [C2]; · iexact C2
    isplitl [C3]; · iexact C3
    isplitl [C4]; · iexact C4
    isplitl [C5]; · iexact C5
    isplitl [C6]; · iexact C6
    iexact HO
  iintro %_ ⟨Ho, ⟨%f0, B0⟩, ⟨%f1, B1⟩, ⟨%f2, B2⟩, ⟨%f3, B3⟩, ⟨%f4, B4⟩, ⟨%f5, B5⟩, ⟨%f6, B6⟩, ⟨%f7, B7⟩, ⟨%f8, B8⟩, C0, C1, C2, C3, C4, C5, C6, ⟨%W', HO⟩⟩
  isplitl [Ho]; · iexact Ho
  isplitl [B0 B1 B2 B3 B4 B5 B6 B7 B8 Hbufs]
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexists _; iexact B7
    isplitl [B8]; · iexists _; iexact B8
    iexact Hbufs
  isplitl [C0 C1 C2 C3 C4 C5 C6 Hsems]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact Hsems
  iexists W'; iexact HO

end Cert.KernelIdeal.TileWrap

end
-- ==== Proof.TileVals.lean ====
/-
  The contents of a task's scratch buffers at the stages of its run, as whole-buffer functions of the nine input arrays.

  Worker `L` handles output rows `base L … base L + 127`, `base L = 128 (2 s + c)`. After the gather, row `e` of the four
  row buffers holds the table rows named by the index words at position `base L + e`; on the last worker the last row
  of the tails buffer is then overwritten by sublane 1 of the special tile; the staging buffer is filled row by row with
  the three 64-wide thirds of the output.
-/
import proofs.«206817_g64347200028782_cont_9to1_m_612_22_alg».proof.Proof.TileCoreStmt

noncomputable section

namespace Cert.KernelIdeal.TileVals

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes Cert.KernelIdeal.TileCore Cert.KSpec Cert.Spec
open Idealize.ShloMosaic.ValueIdx

variable [FloatOps F] (L : grid0.Coords) (X : Tabs F)

/-- The worker's number, `2 s + c`, and its first output row. -/
def wid : ℕ := 2 * (L 1).val + (L 0).val
def base : ℕ := 128 * wid L
theorem wid_lt : wid L < 32 := by
  have h0 : (L 0).val < 2 := (L 0).isLt
  have h1 : (L 1).val < 16 := (L 1).isLt
  unfold wid; omega
theorem base_add_lt (e : Fin 128) : base L + e.val < 4096 := by
  have := wid_lt L; have := e.isLt; unfold base; omega

/-- Output row of the worker's entry `e`. -/
def rowOfEntry (e : Fin 128) : Fin 4096 := ⟨base L + e.val, base_add_lt L e⟩

/-- The row buffers after the gather: heads, relations, tails, names. -/
def G4 : FVec F S128x64 .f32 := fun idx => tileRow 12500 (by decide) X.T5 (X.I0 (ix1 (rowOfEntry L (idx 0)))) (idx 1)
def G5 : FVec F S128x64 .f32 := fun idx => tileRow 25 (by decide) X.T6 (X.I1 (ix1 (rowOfEntry L (idx 0)))) (idx 1)
def G6 : FVec F S128x64 .f32 := fun idx => tileRow 12500 (by decide) X.T7 (X.I3 (ix1 (rowOfEntry L (idx 0)))) (idx 1)
def G7 : FVec F S128x64 .f32 := fun idx => tileRow 1250 (by decide) X.T8 (X.I4 (ix1 (rowOfEntry L (idx 0)))) (idx 1)

/-- The tails buffer as the rows are combined: on the last worker its last row is sublane 1 of the special tile. -/
def G6' : FVec F S128x64 .f32 := fun idx =>
  if wid L = 31 ∧ (idx 0).val = 127 then X.T10 (ix3 (0 : Fin 1) (1 : Fin 8) (idx 1)) else G6 L X idx

/-- The staging buffer before row `k` is combined: rows below `k` hold the kernel's result, the others what they held. -/
def R8 (g8 : FVec F S128x192 .f32) (k : ℕ) : FVec F S128x192 .f32 := fun idx =>
  if (idx 0).val < k then Kat X.T5 X.T6 X.T7 X.T8 X.T10 X.I0 X.I1 X.I3 X.I4 (rowOfEntry L (idx 0)) (idx 1) else g8 idx

end Cert.KernelIdeal.TileVals

end
-- ==== Proof.TileGather0.lean ====
/-
  The gather as a batch of 512 row copies on one DMA semaphore: the vocabulary.

  Copy number `t` (in issue order) lands entry `t / 4`'s row of table `t mod 4` (heads, relations, tails, names) in row
  `t / 4` of that table's row buffer. What a copy delivers when the batch is drained is stated by its number: the
  destination row holding the row buffer's after-gather function there.
-/
import proofs.«206817_g64347200028782_cont_9to1_m_612_22_alg».proof.Proof.TileVals
import Idealize.ShloMosaic.Lib.Ring

noncomputable section

namespace Cert.KernelIdeal.TileGather

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes Cert.KernelIdeal.TileCore Cert.KernelIdeal.TileVals Cert.KSpec Cert.Spec
open Idealize.ShloMosaic.ValueIdx

variable [FloatOps F] (d : Dev nD) (L : grid0.Coords) (X : Tabs F)

/-- The transfers' counters inside the certificate's resource algebra. -/
abbrev EC : UEmb Counters (MT nD τ sig (HIx 1) (Elt F) ℕ UU ℕ) := countersEmb (U := UU)

/-- Row `e` of a 128 × 64 row buffer, as a set of its indices. -/
theorem row_inb (e : Fin 128) : ∀ a, (![e.val, 0] : Fin 2 → Nat) a + S1x64.size a ≤ S128x64.size a := by
  have := e.isLt; intro a; fin_cases a
  · show e.val + 1 ≤ 128; omega
  · show 0 + 64 ≤ 64; omega
abbrev rowRect (e : Fin 128) : Rect S128x64 := Rect.unit (s := S128x64) ![e.val, 0] S1x64.size (row_inb e)
def rowSet (e : Fin 128) : Finset S128x64.Idx := (rowRect e).set

/-- The four row buffers' locations and after-gather functions, by table number (0 heads, 1 relations, 2 tails, 3 names). -/
def bufLoc : Fin 4 → Loc nD τ sig
  | 0 => (thr d L).loc cc0_scratch4
  | 1 => (thr d L).loc cc0_scratch5
  | 2 => (thr d L).loc cc0_scratch6
  | 3 => (thr d L).loc cc0_scratch7

/-- Row `e` of a row buffer held at `f`. -/
abbrev rowAt4 (e : Fin 128) (f : FVec F S128x64 .f32) : sProp 𝕄 := (thr d L).loc cc0_scratch4 ↦[rowSet e]{fullShare} (f : Buf (Elt F) ((thr d L).loc cc0_scratch4))
abbrev rowAt5 (e : Fin 128) (f : FVec F S128x64 .f32) : sProp 𝕄 := (thr d L).loc cc0_scratch5 ↦[rowSet e]{fullShare} (f : Buf (Elt F) ((thr d L).loc cc0_scratch5))
abbrev rowAt6 (e : Fin 128) (f : FVec F S128x64 .f32) : sProp 𝕄 := (thr d L).loc cc0_scratch6 ↦[rowSet e]{fullShare} (f : Buf (Elt F) ((thr d L).loc cc0_scratch6))
abbrev rowAt7 (e : Fin 128) (f : FVec F S128x64 .f32) : sProp 𝕄 := (thr d L).loc cc0_scratch7 ↦[rowSet e]{fullShare} (f : Buf (Elt F) ((thr d L).loc cc0_scratch7))

/-- What copy number `t` delivers. -/
def deliv (t : ℕ) : sProp 𝕄 :=
  if h : t / 4 < 128 then
    (if t % 4 = 0 then rowAt4 d L ⟨t / 4, h⟩ (G4 L X)
     else if t % 4 = 1 then rowAt5 d L ⟨t / 4, h⟩ (G5 L X)
     else if t % 4 = 2 then rowAt6 d L ⟨t / 4, h⟩ (G6 L X)
     else rowAt7 d L ⟨t / 4, h⟩ (G7 L X))
  else iprop(emp)

def D4 : Fin 512 → sProp 𝕄 := fun t => deliv d L X t.val

instance deliv_storable (t : ℕ) : BI.Storable (upEmb : UEmb _ 𝕄) (deliv d L X t) := by
  unfold deliv; split
  · split; · infer_instance
    split; · infer_instance
    split <;> infer_instance
  · infer_instance
instance D4_storable (t : Fin 512) : BI.Storable (upEmb : UEmb _ 𝕄) (D4 d L X t) := by unfold D4; infer_instance

end Cert.KernelIdeal.TileGather

end
-- ==== Proof.Words.lean ====
/-
  Two facts about 32-bit index words below 2^31 (non-negative as signed numbers): the arithmetic shift right by three is
  the quotient by eight, and the mask with seven is the remainder modulo eight.
-/
import Idealize.ShloMosaic.PureOps

namespace Cert.Words

open Idealize.ShloMosaic

theorem shrsi3_toNat (w : BitVec 32) (h : w.toNat < 2 ^ 31) : (IntOp.shrsi .vector w 3#32).toNat = w.toNat / 8 := by
  have hmsb : w.msb = false := by
    rw [BitVec.msb_eq_false_iff_two_mul_lt]; omega
  simp only [IntOp.shrsi, BitVec.toNat_ofNat, Nat.reducePow, Nat.reduceMod, Nat.reduceLT, ↓reduceIte]
  show (w.sshiftRight (3#32).toNat).toNat = _
  rw [BitVec.sshiftRight_eq_of_msb_false hmsb, BitVec.toNat_ushiftRight, Nat.shiftRight_eq_div_pow]
  rfl

theorem andi7_toNat (w : BitVec 32) : (IntOp.andi w 7#32).toNat = w.toNat % 8 := by
  simp only [IntOp.andi, BitVec.toNat_and, BitVec.toNat_ofNat, Nat.reducePow, Nat.reduceMod]
  exact Nat.and_two_pow_sub_one_eq_mod w.toNat 3

/-- The side condition of a row copy out of a table of `n` tiles of eight sublanes: for an index word `x < 8 n` the
    tile number `x / 8`, the sublane `x mod 8` and the whole 64-wide row lie inside the table. -/
theorem chk_of (n : ℕ) (v w x : BitVec 32) (hx : x.toNat < 8 * n) (hn : 8 * n ≤ 2 ^ 31)
    (hv : v = IntOp.shrsi .vector x 3#32) (hw : w = IntOp.andi x 7#32) :
    ∀ a : Fin 3, (![v.toNat, w.toNat, 0] : Fin 3 → ℕ) a + (![1, 1, 64] : Fin 3 → ℕ) a ≤ (![n, 8, 64] : Fin 3 → ℕ) a := by
  subst hv hw
  have h1 := shrsi3_toNat x (by omega)
  have h2 := andi7_toNat x
  intro a; fin_cases a
  · show (IntOp.shrsi .vector x 3#32).toNat + 1 ≤ n; rw [h1]; omega
  · show (IntOp.andi x 7#32).toNat + 1 ≤ 8; rw [h2]; omega
  · show 0 + 64 ≤ 64; omega

end Cert.Words
-- ==== Proof.TileGatherLib.lean ====
/-
  The gather's pure facts: a row buffer as its 128 rows, the 512 deliveries joined back into the four row buffers, the
  index scratch after its copy, and the value one row copy lands.
-/
import proofs.«206817_g64347200028782_cont_9to1_m_612_22_alg».proof.Proof.TileGather0
import proofs.«206817_g64347200028782_cont_9to1_m_612_22_alg».proof.Proof.Words

noncomputable section

namespace Cert.KernelIdeal.TileGather

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes Cert.KernelIdeal.TileCore Cert.KernelIdeal.TileVals Cert.KSpec Cert.Spec
open Idealize.ShloMosaic.ValueIdx

variable [FloatOps F] (d : Dev nD) (L : grid0.Coords) (X : Tabs F)

/-! ## The index scratch after its copy -/

/-- Where worker L's 128-word slice of an index list starts: its first output row. -/
theorem off1_eq : k0_off1 L = ![base L] := by
  rw [Gen.k0_off1_eq]; unfold base wid
  congr 1; omega

/-- Entry e of index scratch 0 after the copy of worker L's slice of its index list: the list's word at the
    worker's output row e. -/
theorem idx_copy0 (I : IVec S4096 32) (g0 : IVec S128 32) (e : Fin 128) :
    (View.write (Elt F) (Memref.whole cc0_scratch0 : Memref sig .scVector .vmem S128 .i32).view g0
      (ReadAs.same.apply (View.read (Elt F) ((Memref.whole main_v0_scv : Memref sig .scVector .hbm S4096 .i32).slice
        (Rect.unit (s := S4096) (k0_off1 L) S128.size (k0_off1_inb L)) (fun _ => rfl)).view I)) Finset.univ : IVec S128 32) (ix1 e)
      = I (ix1 (rowOfEntry L e)) := by
  change (View.whole (cc0_scratch0 : Ref sig .scVector)).write (Elt F) g0 _ Finset.univ (ix1 e) = _
  rw [View.write_whole_univ, ReadAs.apply_same, View.read_apply]
  have he : ((Memref.whole main_v0_scv : Memref sig .scVector .hbm S4096 .i32).slice
      (Rect.unit (s := S4096) (k0_off1 L) S128.size (k0_off1_inb L)) (fun _ => rfl)).view.emb (ix1 e) = ix1 (rowOfEntry L e) := by
    funext a; apply Fin.ext
    match a with
    | ⟨0, _⟩ =>
      show (k0_off1 L) 0 + 1 * e.val = base L + e.val
      rw [off1_eq]; show base L + 1 * e.val = _; omega
  rw [he]; rfl

/-- Entry e of index scratch 1 after the copy of worker L's slice of its index list: the list's word at the
    worker's output row e. -/
theorem idx_copy1 (I : IVec S4096 32) (g0 : IVec S128 32) (e : Fin 128) :
    (View.write (Elt F) (Memref.whole cc0_scratch1 : Memref sig .scVector .vmem S128 .i32).view g0
      (ReadAs.same.apply (View.read (Elt F) ((Memref.whole main_v1_scv : Memref sig .scVector .hbm S4096 .i32).slice
        (Rect.unit (s := S4096) (k0_off1 L) S128.size (k0_off1_inb L)) (fun _ => rfl)).view I)) Finset.univ : IVec S128 32) (ix1 e)
      = I (ix1 (rowOfEntry L e)) := by
  change (View.whole (cc0_scratch1 : Ref sig .scVector)).write (Elt F) g0 _ Finset.univ (ix1 e) = _
  rw [View.write_whole_univ, ReadAs.apply_same, View.read_apply]
  have he : ((Memref.whole main_v1_scv : Memref sig .scVector .hbm S4096 .i32).slice
      (Rect.unit (s := S4096) (k0_off1 L) S128.size (k0_off1_inb L)) (fun _ => rfl)).view.emb (ix1 e) = ix1 (rowOfEntry L e) := by
    funext a; apply Fin.ext
    match a with
    | ⟨0, _⟩ =>
      show (k0_off1 L) 0 + 1 * e.val = base L + e.val
      rw [off1_eq]; show base L + 1 * e.val = _; omega
  rw [he]; rfl

/-- Entry e of index scratch 2 after the copy of worker L's slice of its index list: the list's word at the
    worker's output row e. -/
theorem idx_copy2 (I : IVec S4096 32) (g0 : IVec S128 32) (e : Fin 128) :
    (View.write (Elt F) (Memref.whole cc0_scratch2 : Memref sig .scVector .vmem S128 .i32).view g0
      (ReadAs.same.apply (View.read (Elt F) ((Memref.whole main_v3_scv : Memref sig .scVector .hbm S4096 .i32).slice
        (Rect.unit (s := S4096) (k0_off1 L) S128.size (k0_off1_inb L)) (fun _ => rfl)).view I)) Finset.univ : IVec S128 32) (ix1 e)
      = I (ix1 (rowOfEntry L e)) := by
  change (View.whole (cc0_scratch2 : Ref sig .scVector)).write (Elt F) g0 _ Finset.univ (ix1 e) = _
  rw [View.write_whole_univ, ReadAs.apply_same, View.read_apply]
  have he : ((Memref.whole main_v3_scv : Memref sig .scVector .hbm S4096 .i32).slice
      (Rect.unit (s := S4096) (k0_off1 L) S128.size (k0_off1_inb L)) (fun _ => rfl)).view.emb (ix1 e) = ix1 (rowOfEntry L e) := by
    funext a; apply Fin.ext
    match a with
    | ⟨0, _⟩ =>
      show (k0_off1 L) 0 + 1 * e.val = base L + e.val
      rw [off1_eq]; show base L + 1 * e.val = _; omega
  rw [he]; rfl

/-- Entry e of index scratch 3 after the copy of worker L's slice of its index list: the list's word at the
    worker's output row e. -/
theorem idx_copy3 (I : IVec S4096 32) (g0 : IVec S128 32) (e : Fin 128) :
    (View.write (Elt F) (Memref.whole cc0_scratch3 : Memref sig .scVector .vmem S128 .i32).view g0
      (ReadAs.same.apply (View.read (Elt F) ((Memref.whole main_v4_scv : Memref sig .scVector .hbm S4096 .i32).slice
        (Rect.unit (s := S4096) (k0_off1 L) S128.size (k0_off1_inb L)) (fun _ => rfl)).view I)) Finset.univ : IVec S128 32) (ix1 e)
      = I (ix1 (rowOfEntry L e)) := by
  change (View.whole (cc0_scratch3 : Ref sig .scVector)).write (Elt F) g0 _ Finset.univ (ix1 e) = _
  rw [View.write_whole_univ, ReadAs.apply_same, View.read_apply]
  have he : ((Memref.whole main_v4_scv : Memref sig .scVector .hbm S4096 .i32).slice
      (Rect.unit (s := S4096) (k0_off1 L) S128.size (k0_off1_inb L)) (fun _ => rfl)).view.emb (ix1 e) = ix1 (rowOfEntry L e) := by
    funext a; apply Fin.ext
    match a with
    | ⟨0, _⟩ =>
      show (k0_off1 L) 0 + 1 * e.val = base L + e.val
      rw [off1_eq]; show base L + 1 * e.val = _; omega
  rw [he]; rfl

/-! ## One row copy -/

/-- A 64-entry vector regrouped as one row of 64: entry k sits at row 0, column k. -/
theorem reshape_1x64 (h : (⟨1, ![64]⟩ : Shape).numel = (⟨2, ![1, 64]⟩ : Shape).numel) (k : Fin 64) :
    Shape.reshapeEquiv h (ix1 k) = ix2 (0 : Fin 1) k := by
  apply Shape.reshapeEquiv_eq_of_rowMajor
  rw [Shape.rowMajor_val_two, Shape.rowMajor_val_one]
  show 0 * 64 + k.val = k.val
  omega

/-- A 64-entry vector regrouped as one row of one tile: entry k sits at tile 0, row 0, column k. -/
theorem reshape_1x1x64 (h : (⟨1, ![64]⟩ : Shape).numel = (⟨3, ![1, 1, 64]⟩ : Shape).numel) (k : Fin 64) :
    Shape.reshapeEquiv h (ix1 k) = ix3 (0 : Fin 1) (0 : Fin 1) k := by
  apply Shape.reshapeEquiv_eq_of_rowMajor
  rw [Shape.rowMajor_val_three, Shape.rowMajor_val_one]
  show (0 * 1 + 0) * 64 + k.val = k.val
  omega

/-- The bounds a row copy's source offsets carry: the tile number below the number of tiles, the sublane below 8. -/
theorem off3_bounds {n : ℕ} (o3 : Fin 3 → ℕ) (v w : BitVec 32) (ho : o3 = ![v.toNat, w.toNat, 0])
    (inb3 : ∀ a, o3 a + S1x1x64.size a ≤ (⟨3, ![n, 8, 64]⟩ : Shape).size a) : v.toNat < n ∧ w.toNat < 8 := by
  subst ho
  have h0 := inb3 0; have h1 := inb3 1
  change v.toNat + 1 ≤ n at h0; change w.toNat + 1 ≤ 8 at h1
  omega

/-- A table row named by its tile and sublane words, when those are the quotient and remainder by eight of an index
    word below the number of rows: the table's row at that word. -/
theorem tileRow_of_words {n : ℕ} (hn : 0 < n) (T : FVec F ⟨3, ![n, 8, 64]⟩ .f32) (x v w : BitVec 32)
    (hx : x.toNat < 8 * n) (hx31 : x.toNat < 2 ^ 31) (hv : v = IntOp.shrsi .vector x 3#32) (hw : w = IntOp.andi x 7#32)
    (hvn : v.toNat < n) (hw8 : w.toNat < 8) (k : Fin 64) :
    T (ix3 ⟨v.toNat, hvn⟩ ⟨w.toNat, hw8⟩ k) = tileRow n hn T x k := by
  subst hv hw
  unfold tileRow
  have h1 := Cert.Words.shrsi3_toNat x hx31
  have h2 := Cert.Words.andi7_toNat x
  have h3 : x.toNat / 8 < n := by omega
  congr 1
  refine congrArg₂ (fun a b => ix3 a b k) (Fin.ext ?_) (Fin.ext ?_)
  · show (IntOp.shrsi .vector x 3#32).toNat = x.toNat / 8 % n
    rw [h1, Nat.mod_eq_of_lt h3]
  · show (IntOp.andi x 7#32).toNat = x.toNat % 8
    exact h2

section Row4
variable (o3 : Fin 3 → ℕ) (inb3 : ∀ a, o3 a + S1x1x64.size a ≤ S12500x8x64.size a) (v w : BitVec 32)
  (e : Fin 128) (off : Fin 2 → ℕ) (inb : ∀ a, off a + S1x64.size a ≤ S128x64.size a)

/-- The source of a heads-row copy: one sublane of one tile of the table, as a 64-entry vector. -/
abbrev src4 : Memref sig .scVector .hbm S64 .f32 :=
  ((Memref.whole main_v5_scv : Memref sig .scVector .hbm S12500x8x64 .f32).slice
    (Rect.unit (s := S12500x8x64) o3 S1x1x64.size inb3) (fun _ => rfl)).squeeze S64 squeezes_S1x1x64_S64
/-- Its destination: one row of the row buffer, as a 64-entry vector. -/
abbrev dst4 : Memref sig .scVector .vmem S64 .f32 :=
  ((Memref.whole cc0_scratch4 : Memref sig .scVector .vmem S128x64 .f32).slice
    (Rect.unit (s := S128x64) off S1x64.size inb) (fun _ => rfl)).squeeze S64 squeezes_S1x64_S64

/-- The destination is row e of the row buffer. -/
theorem dst4_set (heq : off = ![e.val, 0]) : (dst4 off inb).view.set = rowSet e := by
  subst heq
  show (((View.whole (cc0_scratch4 : Ref sig .scVector)).slice _).reshape S64 _).set = _
  rw [View.set_reshape, View.set_slice_whole]
  rfl

theorem dst4_emb (heq : off = ![e.val, 0]) (k : Fin 64) : (dst4 off inb).view.emb (ix1 k) = ix2 e k := by
  subst heq
  show (Rect.unit (s := S128x64) ![e.val, 0] S1x64.size inb).emb (Shape.reshapeEquiv _ (ix1 k)) = _
  refine (congrArg (Rect.unit (s := S128x64) ![e.val, 0] S1x64.size inb).emb (reshape_1x64 _ k)).trans ?_
  funext a; apply Fin.ext
  match a with
  | ⟨0, _⟩ => show e.val + 1 * 0 = e.val; omega
  | ⟨1, _⟩ => show 0 + 1 * k.val = k.val; omega

theorem src4_emb (ho : o3 = ![v.toNat, w.toNat, 0]) (hv : v.toNat < 12500) (hw : w.toNat < 8) (k : Fin 64) :
    (src4 o3 inb3).view.emb (ix1 k) = ix3 ⟨v.toNat, hv⟩ ⟨w.toNat, hw⟩ k := by
  subst ho
  show (Rect.unit (s := S12500x8x64) ![v.toNat, w.toNat, 0] S1x1x64.size inb3).emb (Shape.reshapeEquiv _ (ix1 k)) = _
  refine (congrArg (Rect.unit (s := S12500x8x64) ![v.toNat, w.toNat, 0] S1x1x64.size inb3).emb (reshape_1x1x64 _ k)).trans ?_
  funext a; apply Fin.ext
  match a with
  | ⟨0, _⟩ => show v.toNat + 1 * 0 = v.toNat; omega
  | ⟨1, _⟩ => show w.toNat + 1 * 0 = w.toNat; omega
  | ⟨2, _⟩ => show 0 + 1 * k.val = k.val; omega

/-- What a heads-row copy lands in row e: the table's row at tile v, sublane w. -/
theorem row_write4 (ho : o3 = ![v.toNat, w.toNat, 0]) (hv : v.toNat < 12500) (hw : w.toNat < 8) (heq : off = ![e.val, 0])
    (T : FVec F S12500x8x64 .f32) (g : FVec F S128x64 .f32) (idx : S128x64.Idx) (hidx : idx ∈ rowSet e) :
    (dst4 off inb).view.write (Elt F) g (ReadAs.same.apply ((src4 o3 inb3).view.read (Elt F) T)) Finset.univ idx
      = T (ix3 ⟨v.toNat, hv⟩ ⟨w.toNat, hw⟩ (idx 1)) := by
  rw [← dst4_set e off inb heq] at hidx
  obtain ⟨x, -, rfl⟩ := Finset.mem_map.mp hidx
  obtain ⟨k, rfl⟩ : ∃ k : Fin 64, x = ix1 k := ⟨x 0, eq_ix1 x⟩
  rw [View.write_emb_of_mem _ _ (Finset.mem_univ _), ReadAs.apply_same, View.read_apply, src4_emb o3 inb3 v w ho hv hw,
    dst4_emb e off inb heq]
  rfl

/-- The same with the tile and sublane words computed from an index word below the number of rows: the row the
    word names. -/
theorem row_write4_word (x : BitVec 32) (hx : x.toNat < 100000) (hvx : v = IntOp.shrsi .vector x 3#32) (hwx : w = IntOp.andi x 7#32)
    (ho : o3 = ![v.toNat, w.toNat, 0]) (heq : off = ![e.val, 0])
    (T : FVec F S12500x8x64 .f32) (g : FVec F S128x64 .f32) (idx : S128x64.Idx) (hidx : idx ∈ rowSet e) :
    (dst4 off inb).view.write (Elt F) g (ReadAs.same.apply ((src4 o3 inb3).view.read (Elt F) T)) Finset.univ idx
      = tileRow 12500 (by decide) T x (idx 1) := by
  obtain ⟨hv, hw⟩ := off3_bounds (n := 12500) o3 v w ho inb3
  rw [row_write4 o3 inb3 v w e off inb ho hv hw heq T g idx hidx]
  exact tileRow_of_words (by decide) T x v w (by omega) (by omega) hvx hwx hv hw (idx 1)

end Row4

section Row5
variable (o3 : Fin 3 → ℕ) (inb3 : ∀ a, o3 a + S1x1x64.size a ≤ S25x8x64.size a) (v w : BitVec 32)
  (e : Fin 128) (off : Fin 2 → ℕ) (inb : ∀ a, off a + S1x64.size a ≤ S128x64.size a)

/-- The source of a relations-row copy: one sublane of one tile of the table, as a 64-entry vector. -/
abbrev src5 : Memref sig .scVector .hbm S64 .f32 :=
  ((Memref.whole main_v6_scv : Memref sig .scVector .hbm S25x8x64 .f32).slice
    (Rect.unit (s := S25x8x64) o3 S1x1x64.size inb3) (fun _ => rfl)).squeeze S64 squeezes_S1x1x64_S64
/-- Its destination: one row of the row buffer, as a 64-entry vector. -/
abbrev dst5 : Memref sig .scVector .vmem S64 .f32 :=
  ((Memref.whole cc0_scratch5 : Memref sig .scVector .vmem S128x64 .f32).slice
    (Rect.unit (s := S128x64) off S1x64.size inb) (fun _ => rfl)).squeeze S64 squeezes_S1x64_S64

/-- The destination is row e of the row buffer. -/
theorem dst5_set (heq : off = ![e.val, 0]) : (dst5 off inb).view.set = rowSet e := by
  subst heq
  show (((View.whole (cc0_scratch5 : Ref sig .scVector)).slice _).reshape S64 _).set = _
  rw [View.set_reshape, View.set_slice_whole]
  rfl

theorem dst5_emb (heq : off = ![e.val, 0]) (k : Fin 64) : (dst5 off inb).view.emb (ix1 k) = ix2 e k := by
  subst heq
  show (Rect.unit (s := S128x64) ![e.val, 0] S1x64.size inb).emb (Shape.reshapeEquiv _ (ix1 k)) = _
  refine (congrArg (Rect.unit (s := S128x64) ![e.val, 0] S1x64.size inb).emb (reshape_1x64 _ k)).trans ?_
  funext a; apply Fin.ext
  match a with
  | ⟨0, _⟩ => show e.val + 1 * 0 = e.val; omega
  | ⟨1, _⟩ => show 0 + 1 * k.val = k.val; omega

theorem src5_emb (ho : o3 = ![v.toNat, w.toNat, 0]) (hv : v.toNat < 25) (hw : w.toNat < 8) (k : Fin 64) :
    (src5 o3 inb3).view.emb (ix1 k) = ix3 ⟨v.toNat, hv⟩ ⟨w.toNat, hw⟩ k := by
  subst ho
  show (Rect.unit (s := S25x8x64) ![v.toNat, w.toNat, 0] S1x1x64.size inb3).emb (Shape.reshapeEquiv _ (ix1 k)) = _
  refine (congrArg (Rect.unit (s := S25x8x64) ![v.toNat, w.toNat, 0] S1x1x64.size inb3).emb (reshape_1x1x64 _ k)).trans ?_
  funext a; apply Fin.ext
  match a with
  | ⟨0, _⟩ => show v.toNat + 1 * 0 = v.toNat; omega
  | ⟨1, _⟩ => show w.toNat + 1 * 0 = w.toNat; omega
  | ⟨2, _⟩ => show 0 + 1 * k.val = k.val; omega

/-- What a relations-row copy lands in row e: the table's row at tile v, sublane w. -/
theorem row_write5 (ho : o3 = ![v.toNat, w.toNat, 0]) (hv : v.toNat < 25) (hw : w.toNat < 8) (heq : off = ![e.val, 0])
    (T : FVec F S25x8x64 .f32) (g : FVec F S128x64 .f32) (idx : S128x64.Idx) (hidx : idx ∈ rowSet e) :
    (dst5 off inb).view.write (Elt F) g (ReadAs.same.apply ((src5 o3 inb3).view.read (Elt F) T)) Finset.univ idx
      = T (ix3 ⟨v.toNat, hv⟩ ⟨w.toNat, hw⟩ (idx 1)) := by
  rw [← dst5_set e off inb heq] at hidx
  obtain ⟨x, -, rfl⟩ := Finset.mem_map.mp hidx
  obtain ⟨k, rfl⟩ : ∃ k : Fin 64, x = ix1 k := ⟨x 0, eq_ix1 x⟩
  rw [View.write_emb_of_mem _ _ (Finset.mem_univ _), ReadAs.apply_same, View.read_apply, src5_emb o3 inb3 v w ho hv hw,
    dst5_emb e off inb heq]
  rfl

/-- The same with the tile and sublane words computed from an index word below the number of rows: the row the
    word names. -/
theorem row_write5_word (x : BitVec 32) (hx : x.toNat < 200) (hvx : v = IntOp.shrsi .vector x 3#32) (hwx : w = IntOp.andi x 7#32)
    (ho : o3 = ![v.toNat, w.toNat, 0]) (heq : off = ![e.val, 0])
    (T : FVec F S25x8x64 .f32) (g : FVec F S128x64 .f32) (idx : S128x64.Idx) (hidx : idx ∈ rowSet e) :
    (dst5 off inb).view.write (Elt F) g (ReadAs.same.apply ((src5 o3 inb3).view.read (Elt F) T)) Finset.univ idx
      = tileRow 25 (by decide) T x (idx 1) := by
  obtain ⟨hv, hw⟩ := off3_bounds (n := 25) o3 v w ho inb3
  rw [row_write5 o3 inb3 v w e off inb ho hv hw heq T g idx hidx]
  exact tileRow_of_words (by decide) T x v w (by omega) (by omega) hvx hwx hv hw (idx 1)

end Row5

section Row6
variable (o3 : Fin 3 → ℕ) (inb3 : ∀ a, o3 a + S1x1x64.size a ≤ S12500x8x64.size a) (v w : BitVec 32)
  (e : Fin 128) (off : Fin 2 → ℕ) (inb : ∀ a, off a + S1x64.size a ≤ S128x64.size a)

/-- The source of a tails-row copy: one sublane of one tile of the table, as a 64-entry vector. -/
abbrev src6 : Memref sig .scVector .hbm S64 .f32 :=
  ((Memref.whole main_v7_scv : Memref sig .scVector .hbm S12500x8x64 .f32).slice
    (Rect.unit (s := S12500x8x64) o3 S1x1x64.size inb3) (fun _ => rfl)).squeeze S64 squeezes_S1x1x64_S64
/-- Its destination: one row of the row buffer, as a 64-entry vector. -/
abbrev dst6 : Memref sig .scVector .vmem S64 .f32 :=
  ((Memref.whole cc0_scratch6 : Memref sig .scVector .vmem S128x64 .f32).slice
    (Rect.unit (s := S128x64) off S1x64.size inb) (fun _ => rfl)).squeeze S64 squeezes_S1x64_S64

/-- The destination is row e of the row buffer. -/
theorem dst6_set (heq : off = ![e.val, 0]) : (dst6 off inb).view.set = rowSet e := by
  subst heq
  show (((View.whole (cc0_scratch6 : Ref sig .scVector)).slice _).reshape S64 _).set = _
  rw [View.set_reshape, View.set_slice_whole]
  rfl

theorem dst6_emb (heq : off = ![e.val, 0]) (k : Fin 64) : (dst6 off inb).view.emb (ix1 k) = ix2 e k := by
  subst heq
  show (Rect.unit (s := S128x64) ![e.val, 0] S1x64.size inb).emb (Shape.reshapeEquiv _ (ix1 k)) = _
  refine (congrArg (Rect.unit (s := S128x64) ![e.val, 0] S1x64.size inb).emb (reshape_1x64 _ k)).trans ?_
  funext a; apply Fin.ext
  match a with
  | ⟨0, _⟩ => show e.val + 1 * 0 = e.val; omega
  | ⟨1, _⟩ => show 0 + 1 * k.val = k.val; omega

theorem src6_emb (ho : o3 = ![v.toNat, w.toNat, 0]) (hv : v.toNat < 12500) (hw : w.toNat < 8) (k : Fin 64) :
    (src6 o3 inb3).view.emb (ix1 k) = ix3 ⟨v.toNat, hv⟩ ⟨w.toNat, hw⟩ k := by
  subst ho
  show (Rect.unit (s := S12500x8x64) ![v.toNat, w.toNat, 0] S1x1x64.size inb3).emb (Shape.reshapeEquiv _ (ix1 k)) = _
  refine (congrArg (Rect.unit (s := S12500x8x64) ![v.toNat, w.toNat, 0] S1x1x64.size inb3).emb (reshape_1x1x64 _ k)).trans ?_
  funext a; apply Fin.ext
  match a with
  | ⟨0, _⟩ => show v.toNat + 1 * 0 = v.toNat; omega
  | ⟨1, _⟩ => show w.toNat + 1 * 0 = w.toNat; omega
  | ⟨2, _⟩ => show 0 + 1 * k.val = k.val; omega

/-- What a tails-row copy lands in row e: the table's row at tile v, sublane w. -/
theorem row_write6 (ho : o3 = ![v.toNat, w.toNat, 0]) (hv : v.toNat < 12500) (hw : w.toNat < 8) (heq : off = ![e.val, 0])
    (T : FVec F S12500x8x64 .f32) (g : FVec F S128x64 .f32) (idx : S128x64.Idx) (hidx : idx ∈ rowSet e) :
    (dst6 off inb).view.write (Elt F) g (ReadAs.same.apply ((src6 o3 inb3).view.read (Elt F) T)) Finset.univ idx
      = T (ix3 ⟨v.toNat, hv⟩ ⟨w.toNat, hw⟩ (idx 1)) := by
  rw [← dst6_set e off inb heq] at hidx
  obtain ⟨x, -, rfl⟩ := Finset.mem_map.mp hidx
  obtain ⟨k, rfl⟩ : ∃ k : Fin 64, x = ix1 k := ⟨x 0, eq_ix1 x⟩
  rw [View.write_emb_of_mem _ _ (Finset.mem_univ _), ReadAs.apply_same, View.read_apply, src6_emb o3 inb3 v w ho hv hw,
    dst6_emb e off inb heq]
  rfl

/-- The same with the tile and sublane words computed from an index word below the number of rows: the row the
    word names. -/
theorem row_write6_word (x : BitVec 32) (hx : x.toNat < 100000) (hvx : v = IntOp.shrsi .vector x 3#32) (hwx : w = IntOp.andi x 7#32)
    (ho : o3 = ![v.toNat, w.toNat, 0]) (heq : off = ![e.val, 0])
    (T : FVec F S12500x8x64 .f32) (g : FVec F S128x64 .f32) (idx : S128x64.Idx) (hidx : idx ∈ rowSet e) :
    (dst6 off inb).view.write (Elt F) g (ReadAs.same.apply ((src6 o3 inb3).view.read (Elt F) T)) Finset.univ idx
      = tileRow 12500 (by decide) T x (idx 1) := by
  obtain ⟨hv, hw⟩ := off3_bounds (n := 12500) o3 v w ho inb3
  rw [row_write6 o3 inb3 v w e off inb ho hv hw heq T g idx hidx]
  exact tileRow_of_words (by decide) T x v w (by omega) (by omega) hvx hwx hv hw (idx 1)

end Row6

section Row7
variable (o3 : Fin 3 → ℕ) (inb3 : ∀ a, o3 a + S1x1x64.size a ≤ S1250x8x64.size a) (v w : BitVec 32)
  (e : Fin 128) (off : Fin 2 → ℕ) (inb : ∀ a, off a + S1x64.size a ≤ S128x64.size a)

/-- The source of a names-row copy: one sublane of one tile of the table, as a 64-entry vector. -/
abbrev src7 : Memref sig .scVector .hbm S64 .f32 :=
  ((Memref.whole main_v8_scv : Memref sig .scVector .hbm S1250x8x64 .f32).slice
    (Rect.unit (s := S1250x8x64) o3 S1x1x64.size inb3) (fun _ => rfl)).squeeze S64 squeezes_S1x1x64_S64
/-- Its destination: one row of the row buffer, as a 64-entry vector. -/
abbrev dst7 : Memref sig .scVector .vmem S64 .f32 :=
  ((Memref.whole cc0_scratch7 : Memref sig .scVector .vmem S128x64 .f32).slice
    (Rect.unit (s := S128x64) off S1x64.size inb) (fun _ => rfl)).squeeze S64 squeezes_S1x64_S64

/-- The destination is row e of the row buffer. -/
theorem dst7_set (heq : off = ![e.val, 0]) : (dst7 off inb).view.set = rowSet e := by
  subst heq
  show (((View.whole (cc0_scratch7 : Ref sig .scVector)).slice _).reshape S64 _).set = _
  rw [View.set_reshape, View.set_slice_whole]
  rfl

theorem dst7_emb (heq : off = ![e.val, 0]) (k : Fin 64) : (dst7 off inb).view.emb (ix1 k) = ix2 e k := by
  subst heq
  show (Rect.unit (s := S128x64) ![e.val, 0] S1x64.size inb).emb (Shape.reshapeEquiv _ (ix1 k)) = _
  refine (congrArg (Rect.unit (s := S128x64) ![e.val, 0] S1x64.size inb).emb (reshape_1x64 _ k)).trans ?_
  funext a; apply Fin.ext
  match a with
  | ⟨0, _⟩ => show e.val + 1 * 0 = e.val; omega
  | ⟨1, _⟩ => show 0 + 1 * k.val = k.val; omega

theorem src7_emb (ho : o3 = ![v.toNat, w.toNat, 0]) (hv : v.toNat < 1250) (hw : w.toNat < 8) (k : Fin 64) :
    (src7 o3 inb3).view.emb (ix1 k) = ix3 ⟨v.toNat, hv⟩ ⟨w.toNat, hw⟩ k := by
  subst ho
  show (Rect.unit (s := S1250x8x64) ![v.toNat, w.toNat, 0] S1x1x64.size inb3).emb (Shape.reshapeEquiv _ (ix1 k)) = _
  refine (congrArg (Rect.unit (s := S1250x8x64) ![v.toNat, w.toNat, 0] S1x1x64.size inb3).emb (reshape_1x1x64 _ k)).trans ?_
  funext a; apply Fin.ext
  match a with
  | ⟨0, _⟩ => show v.toNat + 1 * 0 = v.toNat; omega
  | ⟨1, _⟩ => show w.toNat + 1 * 0 = w.toNat; omega
  | ⟨2, _⟩ => show 0 + 1 * k.val = k.val; omega

/-- What a names-row copy lands in row e: the table's row at tile v, sublane w. -/
theorem row_write7 (ho : o3 = ![v.toNat, w.toNat, 0]) (hv : v.toNat < 1250) (hw : w.toNat < 8) (heq : off = ![e.val, 0])
    (T : FVec F S1250x8x64 .f32) (g : FVec F S128x64 .f32) (idx : S128x64.Idx) (hidx : idx ∈ rowSet e) :
    (dst7 off inb).view.write (Elt F) g (ReadAs.same.apply ((src7 o3 inb3).view.read (Elt F) T)) Finset.univ idx
      = T (ix3 ⟨v.toNat, hv⟩ ⟨w.toNat, hw⟩ (idx 1)) := by
  rw [← dst7_set e off inb heq] at hidx
  obtain ⟨x, -, rfl⟩ := Finset.mem_map.mp hidx
  obtain ⟨k, rfl⟩ : ∃ k : Fin 64, x = ix1 k := ⟨x 0, eq_ix1 x⟩
  rw [View.write_emb_of_mem _ _ (Finset.mem_univ _), ReadAs.apply_same, View.read_apply, src7_emb o3 inb3 v w ho hv hw,
    dst7_emb e off inb heq]
  rfl

/-- The same with the tile and sublane words computed from an index word below the number of rows: the row the
    word names. -/
theorem row_write7_word (x : BitVec 32) (hx : x.toNat < 10000) (hvx : v = IntOp.shrsi .vector x 3#32) (hwx : w = IntOp.andi x 7#32)
    (ho : o3 = ![v.toNat, w.toNat, 0]) (heq : off = ![e.val, 0])
    (T : FVec F S1250x8x64 .f32) (g : FVec F S128x64 .f32) (idx : S128x64.Idx) (hidx : idx ∈ rowSet e) :
    (dst7 off inb).view.write (Elt F) g (ReadAs.same.apply ((src7 o3 inb3).view.read (Elt F) T)) Finset.univ idx
      = tileRow 1250 (by decide) T x (idx 1) := by
  obtain ⟨hv, hw⟩ := off3_bounds (n := 1250) o3 v w ho inb3
  rw [row_write7 o3 inb3 v w e off inb ho hv hw heq T g idx hidx]
  exact tileRow_of_words (by decide) T x v w (by omega) (by omega) hvx hwx hv hw (idx 1)

end Row7

/-! ## A row buffer as its 128 rows -/

/-- Row e of a row buffer is the indices whose row coordinate is e. -/
theorem mem_rowSet (e : Fin 128) (idx : S128x64.Idx) : idx ∈ rowSet e ↔ (idx 0).val = e.val := by
  unfold rowSet
  rw [Rect.mem_set_unit]
  constructor
  · intro h
    have h0 := h 0
    change e.val ≤ (idx 0).val ∧ (idx 0).val < e.val + 1 at h0
    omega
  · intro h a
    match a with
    | ⟨0, _⟩ => show e.val ≤ (idx 0).val ∧ (idx 0).val < e.val + 1; omega
    | ⟨1, _⟩ => show 0 ≤ (idx 1).val ∧ (idx 1).val < 0 + 64; exact ⟨Nat.zero_le _, by have := (idx 1).isLt; simpa using this⟩

theorem rowSet_disjoint : ∀ e e' : Fin 128, e ≠ e' → Disjoint (rowSet e) (rowSet e') := fun e e' hne => by
  rw [Finset.disjoint_left]; intro y hy hy'; rw [mem_rowSet] at hy hy'; exact hne (Fin.ext (by omega))

theorem rowSet_cover : Finset.univ.biUnion rowSet = (Finset.univ : Finset S128x64.Idx) := by
  ext y; simp only [Finset.mem_biUnion, Finset.mem_univ, true_and, iff_true]; exact ⟨y 0, (mem_rowSet _ _).mpr rfl⟩

/-- Row buffer 4 held whole is held row by row. -/
theorem rows_eq4 (g : FVec F S128x64 .f32) :
    (sc4 d L g : sProp 𝕄) = bigSep Finset.univ fun e : Fin 128 => rowAt4 d L e g := by
  have h := Ring.pointsTo_blocks (nD := nD) (τ := τ) (sig := sig) (Ix := HIx 1) (Val := Elt F) (Name := ℕ) (U := UU) (Lvl := ℕ)
    (ℓ := (thr d L).loc cc0_scratch4) (q := fullShare)
    (I := fun e : Fin 128 => (rowSet e : Finset (Idx ((thr d L).loc cc0_scratch4))))
    (fun e e' hne => rowSet_disjoint e e' hne) rowSet_cover (g : Buf (Elt F) ((thr d L).loc cc0_scratch4))
  exact h

theorem rows_split4 (g : FVec F S128x64 .f32) :
    sc4 d L g ⊢ (bigSep Finset.univ fun e : Fin 128 => rowAt4 d L e g : sProp 𝕄) :=
  Entails.of_eq (rows_eq4 d L g)

/-- Row buffer 5 held whole is held row by row. -/
theorem rows_eq5 (g : FVec F S128x64 .f32) :
    (sc5 d L g : sProp 𝕄) = bigSep Finset.univ fun e : Fin 128 => rowAt5 d L e g := by
  have h := Ring.pointsTo_blocks (nD := nD) (τ := τ) (sig := sig) (Ix := HIx 1) (Val := Elt F) (Name := ℕ) (U := UU) (Lvl := ℕ)
    (ℓ := (thr d L).loc cc0_scratch5) (q := fullShare)
    (I := fun e : Fin 128 => (rowSet e : Finset (Idx ((thr d L).loc cc0_scratch5))))
    (fun e e' hne => rowSet_disjoint e e' hne) rowSet_cover (g : Buf (Elt F) ((thr d L).loc cc0_scratch5))
  exact h

theorem rows_split5 (g : FVec F S128x64 .f32) :
    sc5 d L g ⊢ (bigSep Finset.univ fun e : Fin 128 => rowAt5 d L e g : sProp 𝕄) :=
  Entails.of_eq (rows_eq5 d L g)

/-- Row buffer 6 held whole is held row by row. -/
theorem rows_eq6 (g : FVec F S128x64 .f32) :
    (sc6 d L g : sProp 𝕄) = bigSep Finset.univ fun e : Fin 128 => rowAt6 d L e g := by
  have h := Ring.pointsTo_blocks (nD := nD) (τ := τ) (sig := sig) (Ix := HIx 1) (Val := Elt F) (Name := ℕ) (U := UU) (Lvl := ℕ)
    (ℓ := (thr d L).loc cc0_scratch6) (q := fullShare)
    (I := fun e : Fin 128 => (rowSet e : Finset (Idx ((thr d L).loc cc0_scratch6))))
    (fun e e' hne => rowSet_disjoint e e' hne) rowSet_cover (g : Buf (Elt F) ((thr d L).loc cc0_scratch6))
  exact h

theorem rows_split6 (g : FVec F S128x64 .f32) :
    sc6 d L g ⊢ (bigSep Finset.univ fun e : Fin 128 => rowAt6 d L e g : sProp 𝕄) :=
  Entails.of_eq (rows_eq6 d L g)

/-- Row buffer 7 held whole is held row by row. -/
theorem rows_eq7 (g : FVec F S128x64 .f32) :
    (sc7 d L g : sProp 𝕄) = bigSep Finset.univ fun e : Fin 128 => rowAt7 d L e g := by
  have h := Ring.pointsTo_blocks (nD := nD) (τ := τ) (sig := sig) (Ix := HIx 1) (Val := Elt F) (Name := ℕ) (U := UU) (Lvl := ℕ)
    (ℓ := (thr d L).loc cc0_scratch7) (q := fullShare)
    (I := fun e : Fin 128 => (rowSet e : Finset (Idx ((thr d L).loc cc0_scratch7))))
    (fun e e' hne => rowSet_disjoint e e' hne) rowSet_cover (g : Buf (Elt F) ((thr d L).loc cc0_scratch7))
  exact h

theorem rows_split7 (g : FVec F S128x64 .f32) :
    sc7 d L g ⊢ (bigSep Finset.univ fun e : Fin 128 => rowAt7 d L e g : sProp 𝕄) :=
  Entails.of_eq (rows_eq7 d L g)

/-! ## The 512 deliveries joined back -/

/-- What copy number t delivers, for t's entry known: one of the four rows of that entry, by t's remainder modulo 4. -/
theorem deliv_eq (t : ℕ) (e : Fin 128) (he : t / 4 = e.val) :
    deliv d L X t = (if t % 4 = 0 then rowAt4 d L e (G4 L X) else if t % 4 = 1 then rowAt5 d L e (G5 L X)
      else if t % 4 = 2 then rowAt6 d L e (G6 L X) else rowAt7 d L e (G7 L X)) := by
  unfold deliv
  have h : t / 4 < 128 := he ▸ e.isLt
  rw [dif_pos h]
  have e1 : (⟨t / 4, h⟩ : Fin 128) = e := Fin.ext he
  rw [e1]

/-- A separating conjunction over four indices. -/
theorem bigSep_fin_four (Φ : Fin 4 → sProp 𝕄) :
    bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

/-- The four copies of entry e deliver its row of each row buffer. -/
theorem deliv_entry (e : Fin 128) :
    (bigSep Finset.univ fun a : Fin 4 => D4 d L X (finProdFinEquiv (e, a)) : sProp 𝕄)
      = iprop(rowAt4 d L e (G4 L X) ∗ rowAt5 d L e (G5 L X) ∗ rowAt6 d L e (G6 L X) ∗ rowAt7 d L e (G7 L X)) := by
  rw [bigSep_fin_four]
  have h0 : D4 d L X (finProdFinEquiv (e, (0 : Fin 4))) = rowAt4 d L e (G4 L X) := by
    show deliv d L X (0 + 4 * e.val) = _
    rw [deliv_eq d L X _ e (by omega), if_pos (by omega)]
  have h1 : D4 d L X (finProdFinEquiv (e, (1 : Fin 4))) = rowAt5 d L e (G5 L X) := by
    show deliv d L X (1 + 4 * e.val) = _
    rw [deliv_eq d L X _ e (by omega), if_neg (by omega), if_pos (by omega)]
  have h2 : D4 d L X (finProdFinEquiv (e, (2 : Fin 4))) = rowAt6 d L e (G6 L X) := by
    show deliv d L X (2 + 4 * e.val) = _
    rw [deliv_eq d L X _ e (by omega), if_neg (by omega), if_neg (by omega), if_pos (by omega)]
  have h3 : D4 d L X (finProdFinEquiv (e, (3 : Fin 4))) = rowAt7 d L e (G7 L X) := by
    show deliv d L X (3 + 4 * e.val) = _
    rw [deliv_eq d L X _ e (by omega), if_neg (by omega), if_neg (by omega), if_neg (by omega)]
  rw [h0, h1, h2, h3]

/-- A separating conjunction of pairs is the pair of separating conjunctions. -/
theorem bigSep_sep' {I : Type} (s : Finset I) (Φ Ψ : I → sProp 𝕄) :
    bigSep s (fun i => iprop(Φ i ∗ Ψ i)) = iprop(bigSep s Φ ∗ bigSep s Ψ) := BI.bigSep_sep s Φ Ψ

/-- The 512 deliveries are the four row buffers whole, each at its after-gather function. -/
theorem deliveries_eq :
    (bigSep Finset.univ (D4 d L X) : sProp 𝕄)
      = iprop(sc4 d L (G4 L X) ∗ sc5 d L (G5 L X) ∗ sc6 d L (G6 L X) ∗ sc7 d L (G7 L X)) := by
  rw [BI.bigSep_univ_equiv (finProdFinEquiv : Fin 128 × Fin 4 ≃ Fin 512) (D4 d L X), BI.bigSep_univ_prod]
  simp only [deliv_entry]
  rw [rows_eq4, rows_eq5, rows_eq6, rows_eq7]
  rw [bigSep_sep', bigSep_sep', bigSep_sep']

theorem deliveries_join :
    bigSep Finset.univ (D4 d L X) ⊢ (iprop(sc4 d L (G4 L X) ∗ sc5 d L (G5 L X) ∗ sc6 d L (G6 L X) ∗ sc7 d L (G7 L X)) : sProp 𝕄) :=
  Entails.of_eq (deliveries_eq d L X)

end Cert.KernelIdeal.TileGather

end
-- ==== Proof.TileIssue.lean ====
/-
  One row copy of the gather, issued: the next transfer of the batch. Copy number `4 e + a` reads the row of table `a`
  named by the index word at entry `e` (tile `word / 8`, sublane `word mod 8`) and writes row `e` of the table's row
  buffer; what it will deliver is that row holding the after-gather function of the buffer.
-/
import proofs.«206817_g64347200028782_cont_9to1_m_612_22_alg».proof.Proof.TileGatherLib

noncomputable section

namespace Cert.KernelIdeal.TileGather

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes Cert.KernelIdeal.TileCore Cert.KernelIdeal.TileVals Cert.KSpec Cert.Spec
open Idealize.ShloMosaic.ValueIdx

variable [FloatOps F] (d : Dev nD) (L : grid0.Coords) (X : Tabs F)

/-- An index of row `e` has row coordinate `e`. -/
theorem row_of_mem (e : Fin 128) (idx : S128x64.Idx) (h : idx ∈ rowSet e) : idx 0 = e := by
  unfold rowSet at h
  rw [Rect.mem_set_unit] at h
  have h0 : e.val ≤ (idx 0).val ∧ (idx 0).val < e.val + 1 := h 0
  exact Fin.ext (by omega)

/-- One row's credit on the gather's semaphore (64 words of 32 bits). -/
abbrev NN : ℕ := 2048

/-- The gather's batch: 512 copies, `j` issued, `u` units consumed by waits. -/
abbrev batch (j u : ℕ) : sProp 𝕄 :=
  Transfers.Batch (EC (F := F)) (thr d L) (SemLoc.dma cc0_scratch9.sem) (none : HIx 1) NN (D4 d L X) j u

/-- Copy number `4 e + 0`: entry `e`'s row of table 0 into row `e` of its row buffer. -/
theorem issue0 (g : FVec F S128x64 .f32) (e : Fin 128) (v w : BitVec 32)
    (offs : Fin 3 → ℕ) (inbs : ∀ a, offs a + S1x1x64.size a ≤ S12500x8x64.size a) (hoffs : offs = ![v.toNat, w.toNat, 0])
    (off : Fin 2 → ℕ) (inb : ∀ a, off a + S1x64.size a ≤ S128x64.size a) (heq : off = ![e.val, 0])
    (x : BitVec 32) (hx : x = X.I0 (ix1 (rowOfEntry L e))) (hxlt : x.toNat < 100000) (hv : v = IntOp.shrsi .vector x 3#32) (hw : w = IntOp.andi x 7#32)
    (j : ℕ) (hj : j = 4 * e.val + 0) (q : PosShare TreeShare)
    {α : Type} {kont : PUnit → Prog (TpuEff nD τ sig (Elt F) Λ₀ (thr d L).2) α} {Q : α → sProp 𝕄}
    {hs hd hsem} :
    iprop(((Memref.whole main_v5_scv : Memref sig .scVector .hbm S12500x8x64 .f32).view.loc (thr d L) ↦{q} (X.T5 : Buf (Elt F) ((Memref.whole main_v5_scv : Memref sig .scVector .hbm S12500x8x64 .f32).view.loc (thr d L))))
        ∗ rowAt4 d L e g ∗ batch d L X j 0)
      ⊢ iprop((batch d L X (j + 1) 0 -∗ wp frame (wpE (defs₀ (F := F)) 𝒱₀ (thr d L) none) Set.univ (kont ⟨⟩) Q)
          -∗ wp frame (wpE (defs₀ (F := F)) 𝒱₀ (thr d L) none) Set.univ
              (.op (.enqueueDmaAs (((Memref.whole main_v5_scv : Memref sig .scVector .hbm S12500x8x64 .f32).slice (Rect.unit (s := S12500x8x64) offs S1x1x64.size inbs) (fun _ => rfl)).squeeze S64 squeezes_S1x1x64_S64)
                 (.here (((Memref.whole cc0_scratch4 : Memref sig .scVector .vmem S128x64 .f32).slice (Rect.unit (s := S128x64) off S1x64.size inb) (fun _ => rfl)).squeeze S64 squeezes_S1x64_S64))
                 .same (SemLoc.dma cc0_scratch9.sem) hs hd hsem) kont) Q) := by
  subst heq hj
  have hjlt : 4 * e.val + 0 < 512 := by have := e.isLt; omega
  have hD : iprop(((((Memref.whole cc0_scratch4 : Memref sig .scVector .vmem S128x64 .f32).slice (Rect.unit (s := S128x64) ![e.val, 0] S1x64.size inb) (fun _ => rfl)).squeeze S64 squeezes_S1x64_S64).view.loc (thr d L)
            ↦[(((Memref.whole cc0_scratch4 : Memref sig .scVector .vmem S128x64 .f32).slice (Rect.unit (s := S128x64) ![e.val, 0] S1x64.size inb) (fun _ => rfl)).squeeze S64 squeezes_S1x64_S64).view.set]{fullShare}
              ((((Memref.whole cc0_scratch4 : Memref sig .scVector .vmem S128x64 .f32).slice (Rect.unit (s := S128x64) ![e.val, 0] S1x64.size inb) (fun _ => rfl)).squeeze S64 squeezes_S1x64_S64).view.write (Elt F) g
                (ReadAs.same.apply ((((Memref.whole main_v5_scv : Memref sig .scVector .hbm S12500x8x64 .f32).slice (Rect.unit (s := S12500x8x64) offs S1x1x64.size inbs) (fun _ => rfl)).squeeze S64 squeezes_S1x1x64_S64).view.read (Elt F) X.T5)) Finset.univ))
          ∗ ((((Memref.whole main_v5_scv : Memref sig .scVector .hbm S12500x8x64 .f32).slice (Rect.unit (s := S12500x8x64) offs S1x1x64.size inbs) (fun _ => rfl)).squeeze S64 squeezes_S1x1x64_S64).view.loc (thr d L) ↦[(((Memref.whole main_v5_scv : Memref sig .scVector .hbm S12500x8x64 .f32).slice (Rect.unit (s := S12500x8x64) offs S1x1x64.size inbs) (fun _ => rfl)).squeeze S64 squeezes_S1x1x64_S64).view.set]{q} X.T5))
        ⊢ D4 d L X ⟨4 * e.val + 0, hjlt⟩ := by
    have hdiv : (4 * e.val + 0) / 4 = e.val := by omega
    have hmod : (4 * e.val + 0) % 4 = 0 := by omega
    have helt : e.val < 128 := e.isLt
    have hval : ∀ idx ∈ rowSet e, (dst4 ![e.val, 0] inb).view.write (Elt F) g (ReadAs.same.apply ((src4 offs inbs).view.read (Elt F) X.T5)) Finset.univ idx = G4 L X idx := by
      intro idx hidx
      rw [row_write4_word offs inbs v w e ![e.val, 0] inb x hxlt hv hw hoffs rfl X.T5 g idx hidx, hx]
      show tileRow _ _ _ (X.I0 (ix1 (rowOfEntry L e))) (idx 1) = tileRow _ _ _ (X.I0 (ix1 (rowOfEntry L (idx 0)))) (idx 1)
      rw [row_of_mem e idx hidx]
    have heqn : ((dst4 ![e.val, 0] inb).view.loc (thr d L) ↦[(dst4 ![e.val, 0] inb).view.set]{fullShare}
          ((dst4 ![e.val, 0] inb).view.write (Elt F) g (ReadAs.same.apply ((src4 offs inbs).view.read (Elt F) X.T5)) Finset.univ) : sProp 𝕄)
        = rowAt4 d L e (G4 L X) := by
      rw [dst4_set e ![e.val, 0] inb rfl, pointsTo_congr hval]
    iintro ⟨Hd, -⟩
    unfold D4 deliv
    simp only [hdiv, hmod, helt, ↓reduceDIte, Fin.eta, OfNat.ofNat_ne_zero, OfNat.ofNat_ne_one, ↓reduceIte, Nat.reduceEqDiff, Nat.succ_ne_zero, one_ne_zero]
    iapply (Entails.of_eq heqn) $$ Hd
  iintro ⟨Hs, Hd, HB⟩
  ihave Hs' := (pointsTo_split_subset (Finset.subset_univ (((Memref.whole main_v5_scv : Memref sig .scVector .hbm S12500x8x64 .f32).slice (Rect.unit (s := S12500x8x64) offs S1x1x64.size inbs) (fun _ => rfl)).squeeze S64 squeezes_S1x1x64_S64).view.set)).1 $$ Hs
  icases Hs' with ⟨Hs1, -⟩
  iapply (Transfers.wp_dmaBatch (EC (F := F)) 𝒱₀ (thr d L) none (none : HIx 1) NN rfl (Finset.Subset.refl _) hjlt (Nat.zero_le _) hD) $$ [Hs1 Hd HB]
  isplitl [Hs1]; · iexact Hs1
  isplitl [Hd]
  · have heq2 : (rowAt4 d L e g : sProp 𝕄) = ((dst4 ![e.val, 0] inb).view.loc (thr d L) ↦[(dst4 ![e.val, 0] inb).view.set]{fullShare} g) := by
      rw [dst4_set e ![e.val, 0] inb rfl]
    iapply (Entails.of_eq heq2) $$ Hd
  iexact HB

/-- Copy number `4 e + 1`: entry `e`'s row of table 1 into row `e` of its row buffer. -/
theorem issue1 (g : FVec F S128x64 .f32) (e : Fin 128) (v w : BitVec 32)
    (offs : Fin 3 → ℕ) (inbs : ∀ a, offs a + S1x1x64.size a ≤ S25x8x64.size a) (hoffs : offs = ![v.toNat, w.toNat, 0])
    (off : Fin 2 → ℕ) (inb : ∀ a, off a + S1x64.size a ≤ S128x64.size a) (heq : off = ![e.val, 0])
    (x : BitVec 32) (hx : x = X.I1 (ix1 (rowOfEntry L e))) (hxlt : x.toNat < 200) (hv : v = IntOp.shrsi .vector x 3#32) (hw : w = IntOp.andi x 7#32)
    (j : ℕ) (hj : j = 4 * e.val + 1) (q : PosShare TreeShare)
    {α : Type} {kont : PUnit → Prog (TpuEff nD τ sig (Elt F) Λ₀ (thr d L).2) α} {Q : α → sProp 𝕄}
    {hs hd hsem} :
    iprop(((Memref.whole main_v6_scv : Memref sig .scVector .hbm S25x8x64 .f32).view.loc (thr d L) ↦{q} (X.T6 : Buf (Elt F) ((Memref.whole main_v6_scv : Memref sig .scVector .hbm S25x8x64 .f32).view.loc (thr d L))))
        ∗ rowAt5 d L e g ∗ batch d L X j 0)
      ⊢ iprop((batch d L X (j + 1) 0 -∗ wp frame (wpE (defs₀ (F := F)) 𝒱₀ (thr d L) none) Set.univ (kont ⟨⟩) Q)
          -∗ wp frame (wpE (defs₀ (F := F)) 𝒱₀ (thr d L) none) Set.univ
              (.op (.enqueueDmaAs (((Memref.whole main_v6_scv : Memref sig .scVector .hbm S25x8x64 .f32).slice (Rect.unit (s := S25x8x64) offs S1x1x64.size inbs) (fun _ => rfl)).squeeze S64 squeezes_S1x1x64_S64)
                 (.here (((Memref.whole cc0_scratch5 : Memref sig .scVector .vmem S128x64 .f32).slice (Rect.unit (s := S128x64) off S1x64.size inb) (fun _ => rfl)).squeeze S64 squeezes_S1x64_S64))
                 .same (SemLoc.dma cc0_scratch9.sem) hs hd hsem) kont) Q) := by
  subst heq hj
  have hjlt : 4 * e.val + 1 < 512 := by have := e.isLt; omega
  have hD : iprop(((((Memref.whole cc0_scratch5 : Memref sig .scVector .vmem S128x64 .f32).slice (Rect.unit (s := S128x64) ![e.val, 0] S1x64.size inb) (fun _ => rfl)).squeeze S64 squeezes_S1x64_S64).view.loc (thr d L)
            ↦[(((Memref.whole cc0_scratch5 : Memref sig .scVector .vmem S128x64 .f32).slice (Rect.unit (s := S128x64) ![e.val, 0] S1x64.size inb) (fun _ => rfl)).squeeze S64 squeezes_S1x64_S64).view.set]{fullShare}
              ((((Memref.whole cc0_scratch5 : Memref sig .scVector .vmem S128x64 .f32).slice (Rect.unit (s := S128x64) ![e.val, 0] S1x64.size inb) (fun _ => rfl)).squeeze S64 squeezes_S1x64_S64).view.write (Elt F) g
                (ReadAs.same.apply ((((Memref.whole main_v6_scv : Memref sig .scVector .hbm S25x8x64 .f32).slice (Rect.unit (s := S25x8x64) offs S1x1x64.size inbs) (fun _ => rfl)).squeeze S64 squeezes_S1x1x64_S64).view.read (Elt F) X.T6)) Finset.univ))
          ∗ ((((Memref.whole main_v6_scv : Memref sig .scVector .hbm S25x8x64 .f32).slice (Rect.unit (s := S25x8x64) offs S1x1x64.size inbs) (fun _ => rfl)).squeeze S64 squeezes_S1x1x64_S64).view.loc (thr d L) ↦[(((Memref.whole main_v6_scv : Memref sig .scVector .hbm S25x8x64 .f32).slice (Rect.unit (s := S25x8x64) offs S1x1x64.size inbs) (fun _ => rfl)).squeeze S64 squeezes_S1x1x64_S64).view.set]{q} X.T6))
        ⊢ D4 d L X ⟨4 * e.val + 1, hjlt⟩ := by
    have hdiv : (4 * e.val + 1) / 4 = e.val := by omega
    have hmod : (4 * e.val + 1) % 4 = 1 := by omega
    have helt : e.val < 128 := e.isLt
    have hval : ∀ idx ∈ rowSet e, (dst5 ![e.val, 0] inb).view.write (Elt F) g (ReadAs.same.apply ((src5 offs inbs).view.read (Elt F) X.T6)) Finset.univ idx = G5 L X idx := by
      intro idx hidx
      rw [row_write5_word offs inbs v w e ![e.val, 0] inb x hxlt hv hw hoffs rfl X.T6 g idx hidx, hx]
      show tileRow _ _ _ (X.I1 (ix1 (rowOfEntry L e))) (idx 1) = tileRow _ _ _ (X.I1 (ix1 (rowOfEntry L (idx 0)))) (idx 1)
      rw [row_of_mem e idx hidx]
    have heqn : ((dst5 ![e.val, 0] inb).view.loc (thr d L) ↦[(dst5 ![e.val, 0] inb).view.set]{fullShare}
          ((dst5 ![e.val, 0] inb).view.write (Elt F) g (ReadAs.same.apply ((src5 offs inbs).view.read (Elt F) X.T6)) Finset.univ) : sProp 𝕄)
        = rowAt5 d L e (G5 L X) := by
      rw [dst5_set e ![e.val, 0] inb rfl, pointsTo_congr hval]
    iintro ⟨Hd, -⟩
    unfold D4 deliv
    simp only [hdiv, hmod, helt, ↓reduceDIte, Fin.eta, OfNat.ofNat_ne_zero, OfNat.ofNat_ne_one, ↓reduceIte, Nat.reduceEqDiff, Nat.succ_ne_zero, one_ne_zero]
    iapply (Entails.of_eq heqn) $$ Hd
  iintro ⟨Hs, Hd, HB⟩
  ihave Hs' := (pointsTo_split_subset (Finset.subset_univ (((Memref.whole main_v6_scv : Memref sig .scVector .hbm S25x8x64 .f32).slice (Rect.unit (s := S25x8x64) offs S1x1x64.size inbs) (fun _ => rfl)).squeeze S64 squeezes_S1x1x64_S64).view.set)).1 $$ Hs
  icases Hs' with ⟨Hs1, -⟩
  iapply (Transfers.wp_dmaBatch (EC (F := F)) 𝒱₀ (thr d L) none (none : HIx 1) NN rfl (Finset.Subset.refl _) hjlt (Nat.zero_le _) hD) $$ [Hs1 Hd HB]
  isplitl [Hs1]; · iexact Hs1
  isplitl [Hd]
  · have heq2 : (rowAt5 d L e g : sProp 𝕄) = ((dst5 ![e.val, 0] inb).view.loc (thr d L) ↦[(dst5 ![e.val, 0] inb).view.set]{fullShare} g) := by
      rw [dst5_set e ![e.val, 0] inb rfl]
    iapply (Entails.of_eq heq2) $$ Hd
  iexact HB

/-- Copy number `4 e + 2`: entry `e`'s row of table 2 into row `e` of its row buffer. -/
theorem issue2 (g : FVec F S128x64 .f32) (e : Fin 128) (v w : BitVec 32)
    (offs : Fin 3 → ℕ) (inbs : ∀ a, offs a + S1x1x64.size a ≤ S12500x8x64.size a) (hoffs : offs = ![v.toNat, w.toNat, 0])
    (off : Fin 2 → ℕ) (inb : ∀ a, off a + S1x64.size a ≤ S128x64.size a) (heq : off = ![e.val, 0])
    (x : BitVec 32) (hx : x = X.I3 (ix1 (rowOfEntry L e))) (hxlt : x.toNat < 100000) (hv : v = IntOp.shrsi .vector x 3#32) (hw : w = IntOp.andi x 7#32)
    (j : ℕ) (hj : j = 4 * e.val + 2) (q : PosShare TreeShare)
    {α : Type} {kont : PUnit → Prog (TpuEff nD τ sig (Elt F) Λ₀ (thr d L).2) α} {Q : α → sProp 𝕄}
    {hs hd hsem} :
    iprop(((Memref.whole main_v7_scv : Memref sig .scVector .hbm S12500x8x64 .f32).view.loc (thr d L) ↦{q} (X.T7 : Buf (Elt F) ((Memref.whole main_v7_scv : Memref sig .scVector .hbm S12500x8x64 .f32).view.loc (thr d L))))
        ∗ rowAt6 d L e g ∗ batch d L X j 0)
      ⊢ iprop((batch d L X (j + 1) 0 -∗ wp frame (wpE (defs₀ (F := F)) 𝒱₀ (thr d L) none) Set.univ (kont ⟨⟩) Q)
          -∗ wp frame (wpE (defs₀ (F := F)) 𝒱₀ (thr d L) none) Set.univ
              (.op (.enqueueDmaAs (((Memref.whole main_v7_scv : Memref sig .scVector .hbm S12500x8x64 .f32).slice (Rect.unit (s := S12500x8x64) offs S1x1x64.size inbs) (fun _ => rfl)).squeeze S64 squeezes_S1x1x64_S64)
                 (.here (((Memref.whole cc0_scratch6 : Memref sig .scVector .vmem S128x64 .f32).slice (Rect.unit (s := S128x64) off S1x64.size inb) (fun _ => rfl)).squeeze S64 squeezes_S1x64_S64))
                 .same (SemLoc.dma cc0_scratch9.sem) hs hd hsem) kont) Q) := by
  subst heq hj
  have hjlt : 4 * e.val + 2 < 512 := by have := e.isLt; omega
  have hD : iprop(((((Memref.whole cc0_scratch6 : Memref sig .scVector .vmem S128x64 .f32).slice (Rect.unit (s := S128x64) ![e.val, 0] S1x64.size inb) (fun _ => rfl)).squeeze S64 squeezes_S1x64_S64).view.loc (thr d L)
            ↦[(((Memref.whole cc0_scratch6 : Memref sig .scVector .vmem S128x64 .f32).slice (Rect.unit (s := S128x64) ![e.val, 0] S1x64.size inb) (fun _ => rfl)).squeeze S64 squeezes_S1x64_S64).view.set]{fullShare}
              ((((Memref.whole cc0_scratch6 : Memref sig .scVector .vmem S128x64 .f32).slice (Rect.unit (s := S128x64) ![e.val, 0] S1x64.size inb) (fun _ => rfl)).squeeze S64 squeezes_S1x64_S64).view.write (Elt F) g
                (ReadAs.same.apply ((((Memref.whole main_v7_scv : Memref sig .scVector .hbm S12500x8x64 .f32).slice (Rect.unit (s := S12500x8x64) offs S1x1x64.size inbs) (fun _ => rfl)).squeeze S64 squeezes_S1x1x64_S64).view.read (Elt F) X.T7)) Finset.univ))
          ∗ ((((Memref.whole main_v7_scv : Memref sig .scVector .hbm S12500x8x64 .f32).slice (Rect.unit (s := S12500x8x64) offs S1x1x64.size inbs) (fun _ => rfl)).squeeze S64 squeezes_S1x1x64_S64).view.loc (thr d L) ↦[(((Memref.whole main_v7_scv : Memref sig .scVector .hbm S12500x8x64 .f32).slice (Rect.unit (s := S12500x8x64) offs S1x1x64.size inbs) (fun _ => rfl)).squeeze S64 squeezes_S1x1x64_S64).view.set]{q} X.T7))
        ⊢ D4 d L X ⟨4 * e.val + 2, hjlt⟩ := by
    have hdiv : (4 * e.val + 2) / 4 = e.val := by omega
    have hmod : (4 * e.val + 2) % 4 = 2 := by omega
    have helt : e.val < 128 := e.isLt
    have hval : ∀ idx ∈ rowSet e, (dst6 ![e.val, 0] inb).view.write (Elt F) g (ReadAs.same.apply ((src6 offs inbs).view.read (Elt F) X.T7)) Finset.univ idx = G6 L X idx := by
      intro idx hidx
      rw [row_write6_word offs inbs v w e ![e.val, 0] inb x hxlt hv hw hoffs rfl X.T7 g idx hidx, hx]
      show tileRow _ _ _ (X.I3 (ix1 (rowOfEntry L e))) (idx 1) = tileRow _ _ _ (X.I3 (ix1 (rowOfEntry L (idx 0)))) (idx 1)
      rw [row_of_mem e idx hidx]
    have heqn : ((dst6 ![e.val, 0] inb).view.loc (thr d L) ↦[(dst6 ![e.val, 0] inb).view.set]{fullShare}
          ((dst6 ![e.val, 0] inb).view.write (Elt F) g (ReadAs.same.apply ((src6 offs inbs).view.read (Elt F) X.T7)) Finset.univ) : sProp 𝕄)
        = rowAt6 d L e (G6 L X) := by
      rw [dst6_set e ![e.val, 0] inb rfl, pointsTo_congr hval]
    iintro ⟨Hd, -⟩
    unfold D4 deliv
    simp only [hdiv, hmod, helt, ↓reduceDIte, Fin.eta, OfNat.ofNat_ne_zero, OfNat.ofNat_ne_one, ↓reduceIte, Nat.reduceEqDiff, Nat.succ_ne_zero, one_ne_zero]
    iapply (Entails.of_eq heqn) $$ Hd
  iintro ⟨Hs, Hd, HB⟩
  ihave Hs' := (pointsTo_split_subset (Finset.subset_univ (((Memref.whole main_v7_scv : Memref sig .scVector .hbm S12500x8x64 .f32).slice (Rect.unit (s := S12500x8x64) offs S1x1x64.size inbs) (fun _ => rfl)).squeeze S64 squeezes_S1x1x64_S64).view.set)).1 $$ Hs
  icases Hs' with ⟨Hs1, -⟩
  iapply (Transfers.wp_dmaBatch (EC (F := F)) 𝒱₀ (thr d L) none (none : HIx 1) NN rfl (Finset.Subset.refl _) hjlt (Nat.zero_le _) hD) $$ [Hs1 Hd HB]
  isplitl [Hs1]; · iexact Hs1
  isplitl [Hd]
  · have heq2 : (rowAt6 d L e g : sProp 𝕄) = ((dst6 ![e.val, 0] inb).view.loc (thr d L) ↦[(dst6 ![e.val, 0] inb).view.set]{fullShare} g) := by
      rw [dst6_set e ![e.val, 0] inb rfl]
    iapply (Entails.of_eq heq2) $$ Hd
  iexact HB

/-- Copy number `4 e + 3`: entry `e`'s row of table 3 into row `e` of its row buffer. -/
theorem issue3 (g : FVec F S128x64 .f32) (e : Fin 128) (v w : BitVec 32)
    (offs : Fin 3 → ℕ) (inbs : ∀ a, offs a + S1x1x64.size a ≤ S1250x8x64.size a) (hoffs : offs = ![v.toNat, w.toNat, 0])
    (off : Fin 2 → ℕ) (inb : ∀ a, off a + S1x64.size a ≤ S128x64.size a) (heq : off = ![e.val, 0])
    (x : BitVec 32) (hx : x = X.I4 (ix1 (rowOfEntry L e))) (hxlt : x.toNat < 10000) (hv : v = IntOp.shrsi .vector x 3#32) (hw : w = IntOp.andi x 7#32)
    (j : ℕ) (hj : j = 4 * e.val + 3) (q : PosShare TreeShare)
    {α : Type} {kont : PUnit → Prog (TpuEff nD τ sig (Elt F) Λ₀ (thr d L).2) α} {Q : α → sProp 𝕄}
    {hs hd hsem} :
    iprop(((Memref.whole main_v8_scv : Memref sig .scVector .hbm S1250x8x64 .f32).view.loc (thr d L) ↦{q} (X.T8 : Buf (Elt F) ((Memref.whole main_v8_scv : Memref sig .scVector .hbm S1250x8x64 .f32).view.loc (thr d L))))
        ∗ rowAt7 d L e g ∗ batch d L X j 0)
      ⊢ iprop((batch d L X (j + 1) 0 -∗ wp frame (wpE (defs₀ (F := F)) 𝒱₀ (thr d L) none) Set.univ (kont ⟨⟩) Q)
          -∗ wp frame (wpE (defs₀ (F := F)) 𝒱₀ (thr d L) none) Set.univ
              (.op (.enqueueDmaAs (((Memref.whole main_v8_scv : Memref sig .scVector .hbm S1250x8x64 .f32).slice (Rect.unit (s := S1250x8x64) offs S1x1x64.size inbs) (fun _ => rfl)).squeeze S64 squeezes_S1x1x64_S64)
                 (.here (((Memref.whole cc0_scratch7 : Memref sig .scVector .vmem S128x64 .f32).slice (Rect.unit (s := S128x64) off S1x64.size inb) (fun _ => rfl)).squeeze S64 squeezes_S1x64_S64))
                 .same (SemLoc.dma cc0_scratch9.sem) hs hd hsem) kont) Q) := by
  subst heq hj
  have hjlt : 4 * e.val + 3 < 512 := by have := e.isLt; omega
  have hD : iprop(((((Memref.whole cc0_scratch7 : Memref sig .scVector .vmem S128x64 .f32).slice (Rect.unit (s := S128x64) ![e.val, 0] S1x64.size inb) (fun _ => rfl)).squeeze S64 squeezes_S1x64_S64).view.loc (thr d L)
            ↦[(((Memref.whole cc0_scratch7 : Memref sig .scVector .vmem S128x64 .f32).slice (Rect.unit (s := S128x64) ![e.val, 0] S1x64.size inb) (fun _ => rfl)).squeeze S64 squeezes_S1x64_S64).view.set]{fullShare}
              ((((Memref.whole cc0_scratch7 : Memref sig .scVector .vmem S128x64 .f32).slice (Rect.unit (s := S128x64) ![e.val, 0] S1x64.size inb) (fun _ => rfl)).squeeze S64 squeezes_S1x64_S64).view.write (Elt F) g
                (ReadAs.same.apply ((((Memref.whole main_v8_scv : Memref sig .scVector .hbm S1250x8x64 .f32).slice (Rect.unit (s := S1250x8x64) offs S1x1x64.size inbs) (fun _ => rfl)).squeeze S64 squeezes_S1x1x64_S64).view.read (Elt F) X.T8)) Finset.univ))
          ∗ ((((Memref.whole main_v8_scv : Memref sig .scVector .hbm S1250x8x64 .f32).slice (Rect.unit (s := S1250x8x64) offs S1x1x64.size inbs) (fun _ => rfl)).squeeze S64 squeezes_S1x1x64_S64).view.loc (thr d L) ↦[(((Memref.whole main_v8_scv : Memref sig .scVector .hbm S1250x8x64 .f32).slice (Rect.unit (s := S1250x8x64) offs S1x1x64.size inbs) (fun _ => rfl)).squeeze S64 squeezes_S1x1x64_S64).view.set]{q} X.T8))
        ⊢ D4 d L X ⟨4 * e.val + 3, hjlt⟩ := by
    have hdiv : (4 * e.val + 3) / 4 = e.val := by omega
    have hmod : (4 * e.val + 3) % 4 = 3 := by omega
    have helt : e.val < 128 := e.isLt
    have hval : ∀ idx ∈ rowSet e, (dst7 ![e.val, 0] inb).view.write (Elt F) g (ReadAs.same.apply ((src7 offs inbs).view.read (Elt F) X.T8)) Finset.univ idx = G7 L X idx := by
      intro idx hidx
      rw [row_write7_word offs inbs v w e ![e.val, 0] inb x hxlt hv hw hoffs rfl X.T8 g idx hidx, hx]
      show tileRow _ _ _ (X.I4 (ix1 (rowOfEntry L e))) (idx 1) = tileRow _ _ _ (X.I4 (ix1 (rowOfEntry L (idx 0)))) (idx 1)
      rw [row_of_mem e idx hidx]
    have heqn : ((dst7 ![e.val, 0] inb).view.loc (thr d L) ↦[(dst7 ![e.val, 0] inb).view.set]{fullShare}
          ((dst7 ![e.val, 0] inb).view.write (Elt F) g (ReadAs.same.apply ((src7 offs inbs).view.read (Elt F) X.T8)) Finset.univ) : sProp 𝕄)
        = rowAt7 d L e (G7 L X) := by
      rw [dst7_set e ![e.val, 0] inb rfl, pointsTo_congr hval]
    iintro ⟨Hd, -⟩
    unfold D4 deliv
    simp only [hdiv, hmod, helt, ↓reduceDIte, Fin.eta, OfNat.ofNat_ne_zero, OfNat.ofNat_ne_one, ↓reduceIte, Nat.reduceEqDiff, Nat.succ_ne_zero, one_ne_zero]
    iapply (Entails.of_eq heqn) $$ Hd
  iintro ⟨Hs, Hd, HB⟩
  ihave Hs' := (pointsTo_split_subset (Finset.subset_univ (((Memref.whole main_v8_scv : Memref sig .scVector .hbm S1250x8x64 .f32).slice (Rect.unit (s := S1250x8x64) offs S1x1x64.size inbs) (fun _ => rfl)).squeeze S64 squeezes_S1x1x64_S64).view.set)).1 $$ Hs
  icases Hs' with ⟨Hs1, -⟩
  iapply (Transfers.wp_dmaBatch (EC (F := F)) 𝒱₀ (thr d L) none (none : HIx 1) NN rfl (Finset.Subset.refl _) hjlt (Nat.zero_le _) hD) $$ [Hs1 Hd HB]
  isplitl [Hs1]; · iexact Hs1
  isplitl [Hd]
  · have heq2 : (rowAt7 d L e g : sProp 𝕄) = ((dst7 ![e.val, 0] inb).view.loc (thr d L) ↦[(dst7 ![e.val, 0] inb).view.set]{fullShare} g) := by
      rw [dst7_set e ![e.val, 0] inb rfl]
    iapply (Entails.of_eq heq2) $$ Hd
  iexact HB

end Cert.KernelIdeal.TileGather

end
-- ==== Proof.TileDrain.lean ====
/-
  The gather's drain loop: 128 trips of four waits, each for one row's credit; the very last wait hands every copy's
  delivery back at once.
-/
import proofs.«206817_g64347200028782_cont_9to1_m_612_22_alg».proof.Proof.TileIssue

set_option pp.maxSteps 4000
set_option pp.deepTerms false

noncomputable section

namespace Cert.KernelIdeal.TileGather

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes Cert.KernelIdeal.TileCore Cert.KernelIdeal.TileVals Cert.KSpec Cert.Spec
open Idealize.ShloMosaic.ValueIdx

variable [FloatOps F] (d : Dev nD) (L : grid0.Coords) (X : Tabs F)

theorem t2_trips : k0_t2_loop.trips = 128 := by decide +kernel

/-- Before trip `k` of the drain: the waits so far recorded; before the last trip has run the batch with `4 k` rows'
    credit consumed, after it the semaphore back at zero and every delivery. -/
def drainInv (O : CellTallies nD τ sig (HIx 1)) (W : Waits sig (HIx 1)) (k : ℕ) (_ : PUnit) : sProp 𝕄 :=
  iprop(⌜k ≤ 128⌝ ∗ Transfers.MayWaits (thr d L) (none : HIx 1) O
    ∗ (∃ W', ⌜∀ p ∈ W', p ∈ W ∨ p.2 = none⌝ ∗ owes (thr d L) O W')
    ∗ (if k < 128 then batch d L X 512 (4 * k * NN)
       else iprop(semVal (cell d L cc0_scratch9) 0 ∗ bigSep Finset.univ (D4 d L X))))

theorem drain_step (O : CellTallies nD τ sig (HIx 1)) (W : Waits sig (HIx 1)) (k : Fin k0_t2_loop.trips) (acc : PUnit) :
    drainInv d L X O W k.val acc
      ⊢ wp frame (wpE (defs₀ (F := F)) 𝒱₀ (thr d L) none) Set.univ (k0_t2_body (F := F) L (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v10_scv) (Memref.isWhole_whole _) (Memref.whole main_v0_scv) (Memref.isWhole_whole _) (Memref.whole main_v1_scv) (Memref.isWhole_whole _) (Memref.whole main_v3_scv) (Memref.isWhole_whole _) (Memref.whole main_v4_scv) (Memref.isWhole_whole _) (Memref.whole main_v11_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scoped0 cc0_scoped1 cc0_scoped2 cc0_scoped3 cc0_scoped4 cc0_scoped5 k acc)
          (fun _ => drainInv d L X O W (k.val + 1) ⟨⟩) := by
  have hk : k.val < 128 := lt_of_lt_of_eq k.isLt t2_trips
  unfold drainInv
  simp only [if_pos hk]
  rcases Nat.lt_or_ge (k.val + 1) 128 with h1 | h1
  · simp only [if_pos h1]
    iintro ⟨-, Hmw, ⟨%W', %hW', HO⟩, HB⟩
    unfold k0_t2_body
    sl_exec
    sl_step
    isplitr; · ipureintro; omega
    isplitl [Hmw]; · iexact Hmw
    isplitl [HO]
    · iexists (insert (SemLoc.dma cc0_scratch9.sem, (default : HIx 1)) (insert (SemLoc.dma cc0_scratch9.sem, (default : HIx 1)) (insert (SemLoc.dma cc0_scratch9.sem, (default : HIx 1)) (insert (SemLoc.dma cc0_scratch9.sem, (default : HIx 1)) W')))); isplitr
      · ipureintro; intro p hp
        simp only [Finset.mem_insert] at hp
        rcases hp with rfl | rfl | rfl | rfl | hp
        · exact .inr rfl
        · exact .inr rfl
        · exact .inr rfl
        · exact .inr rfl
        · exact hW' p hp
      · iexact HO
    rw [show 4 * (k.val + 1) * NN = 4 * k.val * NN + NN + NN + NN + NN by simp only [NN]; omega]
    iexact HB
  · simp only [if_neg (Nat.not_lt.mpr h1)]
    iintro ⟨-, Hmw, ⟨%W', %hW', HO⟩, HB⟩
    unfold k0_t2_body
    sl_exec
    sl_step
    isplitr; · ipureintro; omega
    isplitl [Hmw]; · iexact Hmw
    isplitl [HO]
    · iexists (insert (SemLoc.dma cc0_scratch9.sem, (default : HIx 1)) (insert (SemLoc.dma cc0_scratch9.sem, (default : HIx 1)) (insert (SemLoc.dma cc0_scratch9.sem, (default : HIx 1)) (insert (SemLoc.dma cc0_scratch9.sem, (default : HIx 1)) W')))); isplitr
      · ipureintro; intro p hp
        simp only [Finset.mem_insert] at hp
        rcases hp with rfl | rfl | rfl | rfl | hp
        · exact .inr rfl
        · exact .inr rfl
        · exact .inr rfl
        · exact .inr rfl
        · exact hW' p hp
      · iexact HO
    isplitl [HB]; · iexact HB
    iexact HB_all

end Cert.KernelIdeal.TileGather

end
-- ==== Proof.TileRows.lean ====
/-
  One trip of the row-combining loop of a task.

  Trip `k` reads row `k` of the four row buffers (heads, relations, tails, names) in four pieces of sixteen lanes and
  writes row `k` of the 128 × 192 staging buffer in twelve: columns 0–63 names + heads, columns 64–127 relations,
  columns 128–191 names + tails. Rows below `k` of the staging buffer already hold the kernel's result; after the
  trip so does row `k`, and the rows above are untouched.
-/
import proofs.«206817_g64347200028782_cont_9to1_m_612_22_alg».proof.Proof.TileVals
import Idealize.ShloMosaic.Lib.Writes
import Idealize.ShloMosaic.Lib.Pipeline.Value

noncomputable section

namespace Cert.KernelIdeal.TileRows

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes Cert.KernelIdeal.TileCore Cert.KernelIdeal.TileVals Cert.KSpec Cert.Spec
open Idealize.ShloMosaic.ValueIdx

variable [FloatOps F]

/-- Before trip `k`: the four row buffers at their gathered contents, the staging buffer done below row `k`. -/
def rowInv (d : Dev nD) (L : grid0.Coords) (X : Tabs F) (g8 : FVec F S128x192 .f32) (k : ℕ) (_ : PUnit) : sProp 𝕄 :=
  iprop(sc4 d L (G4 L X : Buf (Elt F) ((thr d L).loc cc0_scratch4)) ∗ sc5 d L (G5 L X : Buf (Elt F) ((thr d L).loc cc0_scratch5))
    ∗ sc6 d L (G6' L X : Buf (Elt F) ((thr d L).loc cc0_scratch6)) ∗ sc7 d L (G7 L X : Buf (Elt F) ((thr d L).loc cc0_scratch7))
    ∗ sc8 d L (R8 L X g8 k : Buf (Elt F) ((thr d L).loc cc0_scratch8)))

/-! ## Sixteen lanes as one row of sixteen, and back -/

theorem cast16 {α : Type} (a : S1x16.Idx → α) (x : S1x16.Idx) :
    shapeCast S16 a shapeCasts_S1x16_S16 (Shape.reshapeEquiv shapeCasts_S16_S1x16 x) = a x :=
  congrFun (shapeCast_shapeCast a shapeCasts_S1x16_S16 shapeCasts_S16_S1x16) x

/-- Two rows of sixteen added lane by lane. -/
theorem pay_add (a b : S1x16.Idx → F .f32) (x : S1x16.Idx) :
    shapeCast S1x16 (addf (shapeCast S16 a shapeCasts_S1x16_S16) (shapeCast S16 b shapeCasts_S1x16_S16) : FVec F S16 .f32) shapeCasts_S16_S1x16 x
      = FloatOps.addf (a x) (b x) := by
  show FloatOps.addf (shapeCast S16 a shapeCasts_S1x16_S16 (Shape.reshapeEquiv shapeCasts_S16_S1x16 x))
      (shapeCast S16 b shapeCasts_S1x16_S16 (Shape.reshapeEquiv shapeCasts_S16_S1x16 x)) = _
  rw [cast16, cast16]

theorem pay_id {α : Type} (a : S1x16.Idx → α) (x : S1x16.Idx) :
    shapeCast S1x16 (shapeCast S16 a shapeCasts_S1x16_S16) shapeCasts_S16_S1x16 x = a x :=
  congrFun (shapeCast_shapeCast a shapeCasts_S1x16_S16 shapeCasts_S16_S1x16) x

section Values

variable (L : grid0.Coords) (X : Tabs F) (g8 : FVec F S128x192 .f32)

/-! ## What the row buffers and the staging buffer hold at row `k` -/

theorem G7_at (idx : S128x64.Idx) (r : Fin 128) (c : Fin 64) (h0 : (idx 0).val = r.val) (h1 : (idx 1).val = c.val) :
    G7 L X idx = tileRow 1250 (by decide) X.T8 (X.I4 (ix1 (rowOfEntry L r))) c := by
  have e0 : idx 0 = r := Fin.ext h0
  have e1 : idx 1 = c := Fin.ext h1
  unfold G7; rw [e0, e1]
theorem G4_at (idx : S128x64.Idx) (r : Fin 128) (c : Fin 64) (h0 : (idx 0).val = r.val) (h1 : (idx 1).val = c.val) :
    G4 L X idx = tileRow 12500 (by decide) X.T5 (X.I0 (ix1 (rowOfEntry L r))) c := by
  have e0 : idx 0 = r := Fin.ext h0
  have e1 : idx 1 = c := Fin.ext h1
  unfold G4; rw [e0, e1]
theorem G5_at (idx : S128x64.Idx) (r : Fin 128) (c : Fin 64) (h0 : (idx 0).val = r.val) (h1 : (idx 1).val = c.val) :
    G5 L X idx = tileRow 25 (by decide) X.T6 (X.I1 (ix1 (rowOfEntry L r))) c := by
  have e0 : idx 0 = r := Fin.ext h0
  have e1 : idx 1 = c := Fin.ext h1
  unfold G5; rw [e0, e1]
theorem G6'_at (idx : S128x64.Idx) (r : Fin 128) (c : Fin 64) (h0 : (idx 0).val = r.val) (h1 : (idx 1).val = c.val) :
    G6' L X idx = if (rowOfEntry L r).val < 4095 then tileRow 12500 (by decide) X.T7 (X.I3 (ix1 (rowOfEntry L r))) c
      else X.T10 (ix3 (0 : Fin 1) (1 : Fin 8) c) := by
  have e0 : idx 0 = r := Fin.ext h0
  have e1 : idx 1 = c := Fin.ext h1
  have hw := wid_lt L
  have hr := r.isLt
  unfold G6' G6
  rw [e0, e1]
  by_cases h : wid L = 31 ∧ r.val = 127
  · rw [if_pos h, if_neg (by show ¬ (base L + r.val < 4095); unfold base; omega)]
  · rw [if_neg h, if_pos (by show base L + r.val < 4095; unfold base; omega)]

/-- Row `k` of the staging buffer once it is combined, by thirds. -/
theorem R8_at (k : Fin 128) (y : S128x192.Idx) (h0 : (y 0).val = k.val) :
    R8 L X g8 (k.val + 1) y = Kat X.T5 X.T6 X.T7 X.T8 X.T10 X.I0 X.I1 X.I3 X.I4 (rowOfEntry L k) (y 1) := by
  have e0 : y 0 = k := Fin.ext h0
  unfold R8; rw [if_pos (by omega), e0]

/-! ## The kernel's result by thirds of a row -/

theorem Kat_nh (r : Fin 4096) (c : Fin 192) (c' : Fin 64) (h : c.val < 64) (hc : c'.val = c.val) :
    Kat X.T5 X.T6 X.T7 X.T8 X.T10 X.I0 X.I1 X.I3 X.I4 r c
      = FloatOps.addf (tileRow 1250 (by decide) X.T8 (X.I4 (ix1 r)) c') (tileRow 12500 (by decide) X.T5 (X.I0 (ix1 r)) c') := by
  have e : col64 c = c' := Fin.ext (by show c.val % 64 = c'.val; omega)
  unfold Kat; simp only [e]; rw [if_pos h]
theorem Kat_r (r : Fin 4096) (c : Fin 192) (c' : Fin 64) (h : 64 ≤ c.val) (h' : c.val < 128) (hc : c'.val + 64 = c.val) :
    Kat X.T5 X.T6 X.T7 X.T8 X.T10 X.I0 X.I1 X.I3 X.I4 r c = tileRow 25 (by decide) X.T6 (X.I1 (ix1 r)) c' := by
  have e : col64 c = c' := Fin.ext (by show c.val % 64 = c'.val; omega)
  unfold Kat; simp only [e]; rw [if_neg (by omega), if_pos h']
theorem Kat_nt (r : Fin 4096) (c : Fin 192) (c' : Fin 64) (h : 128 ≤ c.val) (hc : c'.val + 128 = c.val) :
    Kat X.T5 X.T6 X.T7 X.T8 X.T10 X.I0 X.I1 X.I3 X.I4 r c
      = FloatOps.addf (tileRow 1250 (by decide) X.T8 (X.I4 (ix1 r)) c')
          (if r.val < 4095 then tileRow 12500 (by decide) X.T7 (X.I3 (ix1 r)) c' else X.T10 (ix3 (0 : Fin 1) (1 : Fin 8) c')) := by
  have hlt := c.isLt
  have e : col64 c = c' := Fin.ext (by show c.val % 64 = c'.val; omega)
  unfold Kat; simp only [e]; rw [if_neg (by omega), if_neg (by omega)]

/-! ## One sixteen-lane piece of row `k` is the kernel's result there -/

section Pieces

variable (d : Dev nD) (k : Fin 128) (c0 : ℕ)
  (o8 : Fin 2 → ℕ) (i8 : ∀ a, o8 a + S1x16.size a ≤ S128x192.size a)
  (o4 : Fin 2 → ℕ) (i4 : ∀ a, o4 a + S1x16.size a ≤ S128x64.size a) (h4 : o4 = ![k.val, c0]) (x : S1x16.Idx)

include h4

theorem piece_nh (hc0 : c0 + 16 ≤ 64) (h8 : o8 = ![k.val, c0]) :
    FloatOps.addf (View.readAt (Elt F) (Memref.whole cc0_scratch7 : Memref sig .scVector .vmem S128x64 .f32).view (Rect.unit (s := S128x64) o4 S1x16.size i4).toLoadRect (G7 L X : Buf (Elt F) ((Memref.whole cc0_scratch7 : Memref sig .scVector .vmem S128x64 .f32).view.loc (thr d L))) x) (View.readAt (Elt F) (Memref.whole cc0_scratch4 : Memref sig .scVector .vmem S128x64 .f32).view (Rect.unit (s := S128x64) o4 S1x16.size i4).toLoadRect (G4 L X : Buf (Elt F) ((Memref.whole cc0_scratch4 : Memref sig .scVector .vmem S128x64 .f32).view.loc (thr d L))) x)
      = R8 L X g8 (k.val + 1) ((Rect.unit (s := S128x192) o8 S1x16.size i8).emb x) := by
  show FloatOps.addf (G7 L X ((Rect.unit (s := S128x64) o4 S1x16.size i4).emb x)) (G4 L X ((Rect.unit (s := S128x64) o4 S1x16.size i4).emb x)) = _
  subst h8; subst h4
  have hx1 : (x 1).val < 16 := (x 1).isLt
  have hx0 : (x 0).val = 0 := Nat.lt_one_iff.mp (x 0).isLt
  have hc' : c0 + (x 1).val < 64 := by omega
  rw [R8_at L X g8 k _ (by show k.val + 1 * (x 0).val = k.val; omega),
    G7_at L X _ k ⟨c0 + (x 1).val, hc'⟩ (by show k.val + 1 * (x 0).val = k.val; omega) (by show c0 + 1 * (x 1).val = c0 + (x 1).val; omega),
    G4_at L X _ k ⟨c0 + (x 1).val, hc'⟩ (by show k.val + 1 * (x 0).val = k.val; omega) (by show c0 + 1 * (x 1).val = c0 + (x 1).val; omega)]
  exact (Kat_nh X _ _ ⟨c0 + (x 1).val, hc'⟩ (by show c0 + 1 * (x 1).val < 64; omega) (by show c0 + (x 1).val = c0 + 1 * (x 1).val; omega)).symm

theorem piece_r (hc0 : c0 + 16 ≤ 64) (h8 : o8 = ![k.val, 64 + c0]) :
    (View.readAt (Elt F) (Memref.whole cc0_scratch5 : Memref sig .scVector .vmem S128x64 .f32).view (Rect.unit (s := S128x64) o4 S1x16.size i4).toLoadRect (G5 L X : Buf (Elt F) ((Memref.whole cc0_scratch5 : Memref sig .scVector .vmem S128x64 .f32).view.loc (thr d L))) x)
      = R8 L X g8 (k.val + 1) ((Rect.unit (s := S128x192) o8 S1x16.size i8).emb x) := by
  show G5 L X ((Rect.unit (s := S128x64) o4 S1x16.size i4).emb x) = _
  subst h8; subst h4
  have hx1 : (x 1).val < 16 := (x 1).isLt
  have hx0 : (x 0).val = 0 := Nat.lt_one_iff.mp (x 0).isLt
  have hc' : c0 + (x 1).val < 64 := by omega
  rw [R8_at L X g8 k _ (by show k.val + 1 * (x 0).val = k.val; omega),
    G5_at L X _ k ⟨c0 + (x 1).val, hc'⟩ (by show k.val + 1 * (x 0).val = k.val; omega) (by show c0 + 1 * (x 1).val = c0 + (x 1).val; omega)]
  exact (Kat_r X _ _ ⟨c0 + (x 1).val, hc'⟩ (by show 64 ≤ 64 + c0 + 1 * (x 1).val; omega) (by show 64 + c0 + 1 * (x 1).val < 128; omega)
      (by show c0 + (x 1).val + 64 = 64 + c0 + 1 * (x 1).val; omega)).symm

theorem piece_nt (hc0 : c0 + 16 ≤ 64) (h8 : o8 = ![k.val, 128 + c0]) :
    FloatOps.addf (View.readAt (Elt F) (Memref.whole cc0_scratch7 : Memref sig .scVector .vmem S128x64 .f32).view (Rect.unit (s := S128x64) o4 S1x16.size i4).toLoadRect (G7 L X : Buf (Elt F) ((Memref.whole cc0_scratch7 : Memref sig .scVector .vmem S128x64 .f32).view.loc (thr d L))) x) (View.readAt (Elt F) (Memref.whole cc0_scratch6 : Memref sig .scVector .vmem S128x64 .f32).view (Rect.unit (s := S128x64) o4 S1x16.size i4).toLoadRect (G6' L X : Buf (Elt F) ((Memref.whole cc0_scratch6 : Memref sig .scVector .vmem S128x64 .f32).view.loc (thr d L))) x)
      = R8 L X g8 (k.val + 1) ((Rect.unit (s := S128x192) o8 S1x16.size i8).emb x) := by
  show FloatOps.addf (G7 L X ((Rect.unit (s := S128x64) o4 S1x16.size i4).emb x)) (G6' L X ((Rect.unit (s := S128x64) o4 S1x16.size i4).emb x)) = _
  subst h8; subst h4
  have hx1 : (x 1).val < 16 := (x 1).isLt
  have hx0 : (x 0).val = 0 := Nat.lt_one_iff.mp (x 0).isLt
  have hc' : c0 + (x 1).val < 64 := by omega
  rw [R8_at L X g8 k _ (by show k.val + 1 * (x 0).val = k.val; omega),
    G7_at L X _ k ⟨c0 + (x 1).val, hc'⟩ (by show k.val + 1 * (x 0).val = k.val; omega) (by show c0 + 1 * (x 1).val = c0 + (x 1).val; omega),
    G6'_at L X _ k ⟨c0 + (x 1).val, hc'⟩ (by show k.val + 1 * (x 0).val = k.val; omega) (by show c0 + 1 * (x 1).val = c0 + (x 1).val; omega)]
  exact (Kat_nt X _ _ ⟨c0 + (x 1).val, hc'⟩ (by show 128 ≤ 128 + c0 + 1 * (x 1).val; omega)
      (by show c0 + (x 1).val + 128 = 128 + c0 + 1 * (x 1).val; omega)).symm

end Pieces

/-! ## Reading the staging buffer after a list of stores -/

omit [FloatOps F] in
theorem writes8_of_pieces (f : (Memref.whole cc0_scratch8 : Memref sig .scVector .vmem S128x192 .f32).view.ty.Contents (Elt F))
    (G : S128x192.Idx → Elt F .f32) (Lst : List (View.Piece (Elt F) S128x192 .f32))
    (hG : ∀ p ∈ Lst, ∀ x : p.1.shape.Idx, p.2 x = G (p.1.emb x)) (y : S128x192.Idx) (hcov : ∃ p ∈ Lst, y ∈ p.1.set) :
    (Memref.whole cc0_scratch8 : Memref sig .scVector .vmem S128x192 .f32).view.writes (Elt F) f Lst y = G y :=
  View.read_writes_apply_of_pieces (Val := Elt F) (Memref.whole cc0_scratch8 : Memref sig .scVector .vmem S128x192 .f32).view f G Lst hG y hcov

omit [FloatOps F] in
theorem writes8_of_not_mem (f : (Memref.whole cc0_scratch8 : Memref sig .scVector .vmem S128x192 .f32).view.ty.Contents (Elt F))
    (Lst : List (View.Piece (Elt F) S128x192 .f32)) (y : S128x192.Idx) (hn : ∀ p ∈ Lst, y ∉ p.1.set) :
    (Memref.whole cc0_scratch8 : Memref sig .scVector .vmem S128x192 .f32).view.writes (Elt F) f Lst y = f y :=
  View.read_writes_apply_of_forall_not_mem (Val := Elt F) (Memref.whole cc0_scratch8 : Memref sig .scVector .vmem S128x192 .f32).view f y Lst hn

/-! ## The trip -/

omit [FloatOps F] in
theorem sc8_congr (d : Dev nD) (f g : Buf (Elt F) ((thr d L).loc cc0_scratch8)) (h : ∀ y, f y = g y) :
    (sc8 d L f : sProp 𝕄) ⊢ sc8 d L g := Entails.of_eq (pointsTo_congr fun i _ => h i)

end Values

/-- Trip `k` of the row-combining loop: from the staging buffer done below row `k` to done below row `k + 1`, the four
    row buffers read and kept. -/
theorem row_step [∀ e, Nonempty (Elt F e)] (d : Dev nD) (L : grid0.Coords) (X : Tabs F) (g8 : FVec F S128x192 .f32)
    (k : Fin k0_t3_loop.trips) (acc : PUnit) :
    rowInv d L X g8 k.val acc ⊢ wp frame (wpE (defs₀ (F := F)) 𝒱₀ (thr d L) none) Set.univ
      (k0_t3_body (F := F) L (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v10_scv) (Memref.isWhole_whole _) (Memref.whole main_v0_scv) (Memref.isWhole_whole _) (Memref.whole main_v1_scv) (Memref.isWhole_whole _) (Memref.whole main_v3_scv) (Memref.isWhole_whole _) (Memref.whole main_v4_scv) (Memref.isWhole_whole _) (Memref.whole main_v11_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scoped0 cc0_scoped1 cc0_scoped2 cc0_scoped3 cc0_scoped4 cc0_scoped5 k acc)
      (fun _ => rowInv d L X g8 (k.val + 1) ⟨⟩) := by
  unfold rowInv
  iintro ⟨H4, H5, H6, H7, H8⟩
  unfold k0_t3_body
  sl_exec
  sl_step
  isplitl [H4]; · iexact H4
  isplitl [H5]; · iexact H5
  isplitl [H6]; · iexact H6
  isplitl [H7]; · iexact H7
  iapply (sc8_congr L d _ _ ?_) $$ H8
  intro y
  sl_unfold_run_names
  have hk : k.val < 128 := k.isLt
  let kk : Fin 128 := ⟨k.val, hk⟩
  by_cases hy : (y 0).val = k.val
  · -- row `k`: every element lies under one of the twelve pieces, and each piece is the result there
    have hc : (y 1).val < 192 := (y 1).isLt
    have mem : ∀ (o : Fin 2 → ℕ) (i : ∀ a, o a + S1x16.size a ≤ S128x192.size a) (c0 : ℕ), o = ![k.val, c0] → c0 ≤ (y 1).val → (y 1).val < c0 + 16 →
        y ∈ (Rect.unit (s := S128x192) o S1x16.size i).set := by
      intro o i c0 ho h1 h2; subst ho
      rw [Rect.mem_set_unit]; intro a
      match a with
      | ⟨0, _⟩ => exact ⟨by show k.val ≤ (y 0).val; omega, by show (y 0).val < k.val + 1; omega⟩
      | ⟨1, _⟩ => exact ⟨h1, h2⟩
    refine writes8_of_pieces _ (R8 L X g8 (k.val + 1)) _ ?hG y ?hcov
    case hG =>
      exact List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nt L X g8 kk 48 _ _ _ _ (k0_off144_eq k) x (by decide) (k0_off147_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_id (α := F .f32) _ x).trans ?_
        exact piece_r L X g8 kk 48 _ _ _ _ (k0_off144_eq k) x (by decide) (k0_off146_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nh L X g8 kk 48 _ _ _ _ (k0_off144_eq k) x (by decide) (k0_off145_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nt L X g8 kk 32 _ _ _ _ (k0_off140_eq k) x (by decide) (k0_off143_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_id (α := F .f32) _ x).trans ?_
        exact piece_r L X g8 kk 32 _ _ _ _ (k0_off140_eq k) x (by decide) (k0_off142_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nh L X g8 kk 32 _ _ _ _ (k0_off140_eq k) x (by decide) (k0_off141_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nt L X g8 kk 16 _ _ _ _ (k0_off136_eq k) x (by decide) (k0_off139_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_id (α := F .f32) _ x).trans ?_
        exact piece_r L X g8 kk 16 _ _ _ _ (k0_off136_eq k) x (by decide) (k0_off138_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nh L X g8 kk 16 _ _ _ _ (k0_off136_eq k) x (by decide) (k0_off137_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nt L X g8 kk 0 _ _ _ _ (k0_off132_eq k) x (by decide) (k0_off135_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_id (α := F .f32) _ x).trans ?_
        exact piece_r L X g8 kk 0 _ _ _ _ (k0_off132_eq k) x (by decide) (k0_off134_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nh L X g8 kk 0 _ _ _ _ (k0_off132_eq k) x (by decide) (k0_off133_eq k), fun _ h => absurd h List.not_mem_nil⟩⟩⟩⟩⟩⟩⟩⟩⟩⟩⟩⟩
    case hcov =>
      by_cases h0 : (y 1).val < 16
      · exact ⟨_, .tail _ (.tail _ (.tail _ (.tail _ (.tail _ (.tail _ (.tail _ (.tail _ (.tail _ (.tail _ (.tail _ (.head _))))))))))), mem _ (k0_off133_inb k) 0 (k0_off133_eq k) (by omega) (by omega)⟩
      by_cases h1 : (y 1).val < 32
      · exact ⟨_, .tail _ (.tail _ (.tail _ (.tail _ (.tail _ (.tail _ (.tail _ (.tail _ (.head _)))))))), mem _ (k0_off137_inb k) 16 (k0_off137_eq k) (by omega) (by omega)⟩
      by_cases h2 : (y 1).val < 48
      · exact ⟨_, .tail _ (.tail _ (.tail _ (.tail _ (.tail _ (.head _))))), mem _ (k0_off141_inb k) 32 (k0_off141_eq k) (by omega) (by omega)⟩
      by_cases h3 : (y 1).val < 64
      · exact ⟨_, .tail _ (.tail _ (.head _)), mem _ (k0_off145_inb k) 48 (k0_off145_eq k) (by omega) (by omega)⟩
      by_cases h4 : (y 1).val < 80
      · exact ⟨_, .tail _ (.tail _ (.tail _ (.tail _ (.tail _ (.tail _ (.tail _ (.tail _ (.tail _ (.tail _ (.head _)))))))))), mem _ (k0_off134_inb k) 64 (k0_off134_eq k) (by omega) (by omega)⟩
      by_cases h5 : (y 1).val < 96
      · exact ⟨_, .tail _ (.tail _ (.tail _ (.tail _ (.tail _ (.tail _ (.tail _ (.head _))))))), mem _ (k0_off138_inb k) 80 (k0_off138_eq k) (by omega) (by omega)⟩
      by_cases h6 : (y 1).val < 112
      · exact ⟨_, .tail _ (.tail _ (.tail _ (.tail _ (.head _)))), mem _ (k0_off142_inb k) 96 (k0_off142_eq k) (by omega) (by omega)⟩
      by_cases h7 : (y 1).val < 128
      · exact ⟨_, .tail _ (.head _), mem _ (k0_off146_inb k) 112 (k0_off146_eq k) (by omega) (by omega)⟩
      by_cases h8 : (y 1).val < 144
      · exact ⟨_, .tail _ (.tail _ (.tail _ (.tail _ (.tail _ (.tail _ (.tail _ (.tail _ (.tail _ (.head _))))))))), mem _ (k0_off135_inb k) 128 (k0_off135_eq k) (by omega) (by omega)⟩
      by_cases h9 : (y 1).val < 160
      · exact ⟨_, .tail _ (.tail _ (.tail _ (.tail _ (.tail _ (.tail _ (.head _)))))), mem _ (k0_off139_inb k) 144 (k0_off139_eq k) (by omega) (by omega)⟩
      by_cases h10 : (y 1).val < 176
      · exact ⟨_, .tail _ (.tail _ (.tail _ (.head _))), mem _ (k0_off143_inb k) 160 (k0_off143_eq k) (by omega) (by omega)⟩
      exact ⟨_, .head _, mem _ (k0_off147_inb k) 176 (k0_off147_eq k) (by omega) (by omega)⟩
  · -- the other rows: no piece touches them
    have nmem : ∀ (o : Fin 2 → ℕ) (i : ∀ a, o a + S1x16.size a ≤ S128x192.size a) (c0 : ℕ), o = ![k.val, c0] →
        y ∉ (Rect.unit (s := S128x192) o S1x16.size i).set := by
      intro o i c0 ho hm; subst ho
      have h0 := (Rect.mem_set_unit.mp hm) 0
      have h1 : k.val ≤ (y 0).val := h0.1
      have h2 : (y 0).val < k.val + 1 := h0.2
      exact hy (by omega)
    refine (writes8_of_not_mem _ _ y ?hn).trans ?_
    case hn =>
      exact List.forall_mem_cons.2 ⟨nmem _ (k0_off147_inb k) _ (k0_off147_eq k), List.forall_mem_cons.2 ⟨nmem _ (k0_off146_inb k) _ (k0_off146_eq k), List.forall_mem_cons.2 ⟨nmem _ (k0_off145_inb k) _ (k0_off145_eq k), List.forall_mem_cons.2 ⟨nmem _ (k0_off143_inb k) _ (k0_off143_eq k), List.forall_mem_cons.2 ⟨nmem _ (k0_off142_inb k) _ (k0_off142_eq k), List.forall_mem_cons.2 ⟨nmem _ (k0_off141_inb k) _ (k0_off141_eq k), List.forall_mem_cons.2 ⟨nmem _ (k0_off139_inb k) _ (k0_off139_eq k), List.forall_mem_cons.2 ⟨nmem _ (k0_off138_inb k) _ (k0_off138_eq k), List.forall_mem_cons.2 ⟨nmem _ (k0_off137_inb k) _ (k0_off137_eq k), List.forall_mem_cons.2 ⟨nmem _ (k0_off135_inb k) _ (k0_off135_eq k), List.forall_mem_cons.2 ⟨nmem _ (k0_off134_inb k) _ (k0_off134_eq k), List.forall_mem_cons.2 ⟨nmem _ (k0_off133_inb k) _ (k0_off133_eq k), fun _ h => absurd h List.not_mem_nil⟩⟩⟩⟩⟩⟩⟩⟩⟩⟩⟩⟩
    show R8 L X g8 k.val y = R8 L X g8 (k.val + 1) y
    unfold R8
    by_cases hlt : (y 0).val < k.val
    · rw [if_pos hlt, if_pos (by omega)]
    · rw [if_neg hlt, if_neg (by omega)]

end Cert.KernelIdeal.TileRows

end
-- ==== Proof.TileIssueInv.lean ====
/-
  The gather's issue loop: eight trips of sixteen entries, four row copies per entry.
-/
import proofs.«206817_g64347200028782_cont_9to1_m_612_22_alg».proof.Proof.TileIssue
import proofs.«206817_g64347200028782_cont_9to1_m_612_22_alg».proof.Proof.Words

set_option pp.maxSteps 4000
set_option pp.deepTerms false

noncomputable section

namespace Cert.KernelIdeal.TileGather

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes Cert.KernelIdeal.TileCore Cert.KernelIdeal.TileVals Cert.KSpec Cert.Spec
open Idealize.ShloMosaic.ValueIdx

variable [FloatOps F] (d : Dev nD) (L : grid0.Coords) (X : Tabs F)

/-- Read token number `e` of a table: the task's share of it cut by entry. -/
abbrev tok0 (e : ℕ) : sProp 𝕄 := (Memref.whole main_v5_scv : Memref sig .scVector .hbm S12500x8x64 .f32).view.loc (thr d L) ↦{Transfers.shareTokN (rshare L) e} (X.T5 : Buf (Elt F) ((Memref.whole main_v5_scv : Memref sig .scVector .hbm S12500x8x64 .f32).view.loc (thr d L)))
abbrev tok1 (e : ℕ) : sProp 𝕄 := (Memref.whole main_v6_scv : Memref sig .scVector .hbm S25x8x64 .f32).view.loc (thr d L) ↦{Transfers.shareTokN (rshare L) e} (X.T6 : Buf (Elt F) ((Memref.whole main_v6_scv : Memref sig .scVector .hbm S25x8x64 .f32).view.loc (thr d L)))
abbrev tok2 (e : ℕ) : sProp 𝕄 := (Memref.whole main_v7_scv : Memref sig .scVector .hbm S12500x8x64 .f32).view.loc (thr d L) ↦{Transfers.shareTokN (rshare L) e} (X.T7 : Buf (Elt F) ((Memref.whole main_v7_scv : Memref sig .scVector .hbm S12500x8x64 .f32).view.loc (thr d L)))
abbrev tok3 (e : ℕ) : sProp 𝕄 := (Memref.whole main_v8_scv : Memref sig .scVector .hbm S1250x8x64 .f32).view.loc (thr d L) ↦{Transfers.shareTokN (rshare L) e} (X.T8 : Buf (Elt F) ((Memref.whole main_v8_scv : Memref sig .scVector .hbm S1250x8x64 .f32).view.loc (thr d L)))

/-- What entry `e`'s four copies need: row `e` of each row buffer and a read token of each table. -/
def bundle (g4 g5 g6 g7 : FVec F S128x64 .f32) (e : Fin 128) : sProp 𝕄 :=
  iprop(rowAt4 d L e g4 ∗ rowAt5 d L e g5 ∗ rowAt6 d L e g6 ∗ rowAt7 d L e g7 ∗ tok0 d L X e.val ∗ tok1 d L X e.val ∗ tok2 d L X e.val ∗ tok3 d L X e.val)

/-- Before trip `k`: `64 k` copies issued, none waited for; the index lists as copied in; the entries from `16 k` on
    still holding their rows and tokens. -/
def issueInv (c0 : Buf (Elt F) ((thr d L).loc cc0_scratch0)) (c1 : Buf (Elt F) ((thr d L).loc cc0_scratch1)) (c2 : Buf (Elt F) ((thr d L).loc cc0_scratch2)) (c3 : Buf (Elt F) ((thr d L).loc cc0_scratch3))
    (g4 g5 g6 g7 : FVec F S128x64 .f32) (k : ℕ) (_ : PUnit) : sProp 𝕄 :=
  iprop(batch d L X (64 * k) 0 ∗ sc0 d L c0 ∗ sc1 d L c1 ∗ sc2 d L c2 ∗ sc3 d L c3
    ∗ bigSep (Ring.rangeSet 128 (16 * k) 128) (bundle d L X g4 g5 g6 g7))

end Cert.KernelIdeal.TileGather

end
-- ==== Proof.TileLanes.lean ====
/-
  The index words as the first loop reads them. Trip `k` loads sixteen consecutive words of each index list, starting
  at word `16 k`, shifts them right by 3 (arithmetically) and masks them with 7, and takes lane `l` of either result:
  that is the word at position `16 k + l` of the list, shifted or masked.
-/
import proofs.«206817_g64347200028782_cont_9to1_m_612_22_alg».proof.Proof.TileGather0

noncomputable section

namespace Cert.KernelIdeal.TileGather

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes Cert.KernelIdeal.TileCore Cert.KernelIdeal.TileVals Cert.KSpec Cert.Spec
open Idealize.ShloMosaic.ValueIdx

variable [FloatOps F]

/-- Position `16 k + l` is inside the 128-word list. -/
theorem lane_pos_lt (k : Fin k0_t1_loop.trips) (lane : Fin 16) : 16 * k.val + lane.val < 128 := by
  have hk : k.val < 8 := Nat.lt_of_lt_of_le k.isLt k0_t1_abs.2.1
  have hl := lane.isLt
  omega

/-- The position as an index of the list. -/
abbrev lanePos (k : Fin k0_t1_loop.trips) (lane : Fin 16) : S128.Idx := ix1 (⟨16 * k.val + lane.val, lane_pos_lt k lane⟩ : Fin 128)

/-! ## Lane `l` of the sixteen words, shifted or masked -/

theorem lane_core_shr (R : IVec S16 32) (lane : Fin 16) (hcast : S16.ShapeCasts S16) (hsl : S16.Slices ![lane.val] S1)
    (hpos : ∀ a, (![0] : Fin S1.rank → Nat) a < S1.size a) :
    extractAt ![0] (extractStridedSlice S1 ![lane.val] (shrsi (shapeCast S16 R hcast) (broadcast S16 3#32)) hsl) hpos
      = IntOp.shrsi .vector (R (ix1 lane)) 3#32 := by
  rw [show shapeCast S16 R hcast = R from funext fun i => congrArg R (Shape.reshapeEquiv_self _ i)]
  unfold extractAt extractStridedSlice shrsi broadcast
  congr 2
  funext a
  match a with
  | ⟨0, _⟩ => rfl

theorem lane_core_and (R : IVec S16 32) (lane : Fin 16) (hcast : S16.ShapeCasts S16) (hsl : S16.Slices ![lane.val] S1)
    (hpos : ∀ a, (![0] : Fin S1.rank → Nat) a < S1.size a) :
    extractAt ![0] (extractStridedSlice S1 ![lane.val] (andi (shapeCast S16 R hcast) (broadcast S16 7#32)) hsl) hpos
      = IntOp.andi (R (ix1 lane)) 7#32 := by
  rw [show shapeCast S16 R hcast = R from funext fun i => congrArg R (Shape.reshapeEquiv_self _ i)]
  unfold extractAt extractStridedSlice andi broadcast
  congr 2
  funext a
  match a with
  | ⟨0, _⟩ => rfl

/-! ## The sixteen words of trip `k` -/

theorem read_lane0 (c : IVec S128 32) (k : Fin k0_t1_loop.trips) (lane : Fin 16) :
    View.readAt (Elt F) (Memref.whole cc0_scratch0 : Memref sig .scVector .vmem S128 .i32).view
        (Rect.unit (s := S128) (k0_off2 k) S16.size (k0_off2_inb k)).toLoadRect c (ix1 lane)
      = c (lanePos k lane) := by
  rw [View.readAt_apply, View.read_apply]
  show c _ = c _
  congr 1
  funext a
  match a with
  | ⟨0, _⟩ =>
    refine Fin.ext ?_
    show (k0_off2 k) 0 + 1 * lane.val = 16 * k.val + lane.val
    rw [k0_off2_eq]
    show 16 * k.val + 1 * lane.val = 16 * k.val + lane.val
    omega

theorem read_lane1 (c : IVec S128 32) (k : Fin k0_t1_loop.trips) (lane : Fin 16) :
    View.readAt (Elt F) (Memref.whole cc0_scratch1 : Memref sig .scVector .vmem S128 .i32).view
        (Rect.unit (s := S128) (k0_off2 k) S16.size (k0_off2_inb k)).toLoadRect c (ix1 lane)
      = c (lanePos k lane) := by
  rw [View.readAt_apply, View.read_apply]
  show c _ = c _
  congr 1
  funext a
  match a with
  | ⟨0, _⟩ =>
    refine Fin.ext ?_
    show (k0_off2 k) 0 + 1 * lane.val = 16 * k.val + lane.val
    rw [k0_off2_eq]
    show 16 * k.val + 1 * lane.val = 16 * k.val + lane.val
    omega

theorem read_lane2 (c : IVec S128 32) (k : Fin k0_t1_loop.trips) (lane : Fin 16) :
    View.readAt (Elt F) (Memref.whole cc0_scratch2 : Memref sig .scVector .vmem S128 .i32).view
        (Rect.unit (s := S128) (k0_off2 k) S16.size (k0_off2_inb k)).toLoadRect c (ix1 lane)
      = c (lanePos k lane) := by
  rw [View.readAt_apply, View.read_apply]
  show c _ = c _
  congr 1
  funext a
  match a with
  | ⟨0, _⟩ =>
    refine Fin.ext ?_
    show (k0_off2 k) 0 + 1 * lane.val = 16 * k.val + lane.val
    rw [k0_off2_eq]
    show 16 * k.val + 1 * lane.val = 16 * k.val + lane.val
    omega

theorem read_lane3 (c : IVec S128 32) (k : Fin k0_t1_loop.trips) (lane : Fin 16) :
    View.readAt (Elt F) (Memref.whole cc0_scratch3 : Memref sig .scVector .vmem S128 .i32).view
        (Rect.unit (s := S128) (k0_off2 k) S16.size (k0_off2_inb k)).toLoadRect c (ix1 lane)
      = c (lanePos k lane) := by
  rw [View.readAt_apply, View.read_apply]
  show c _ = c _
  congr 1
  funext a
  match a with
  | ⟨0, _⟩ =>
    refine Fin.ext ?_
    show (k0_off2 k) 0 + 1 * lane.val = 16 * k.val + lane.val
    rw [k0_off2_eq]
    show 16 * k.val + 1 * lane.val = 16 * k.val + lane.val
    omega

/-! ## The lane words of the four index lists -/

theorem lane_shr0 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (shrsi (shapeCast S16
        (View.readAt (Elt F) (Memref.whole cc0_scratch0 : Memref sig .scVector .vmem S128 .i32).view
          (Rect.unit (s := S128) (k0_off2 k) S16.size (k0_off2_inb k)).toLoadRect c) hcast) (broadcast S16 3#32)) hsl) hpos
      = IntOp.shrsi .vector (c (lanePos k lane)) 3#32 := by
  rw [lane_core_shr, read_lane0]

theorem lane_and0 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (andi (shapeCast S16
        (View.readAt (Elt F) (Memref.whole cc0_scratch0 : Memref sig .scVector .vmem S128 .i32).view
          (Rect.unit (s := S128) (k0_off2 k) S16.size (k0_off2_inb k)).toLoadRect c) hcast) (broadcast S16 7#32)) hsl) hpos
      = IntOp.andi (c (lanePos k lane)) 7#32 := by
  rw [lane_core_and, read_lane0]

theorem lane_shr1 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (shrsi (shapeCast S16
        (View.readAt (Elt F) (Memref.whole cc0_scratch1 : Memref sig .scVector .vmem S128 .i32).view
          (Rect.unit (s := S128) (k0_off2 k) S16.size (k0_off2_inb k)).toLoadRect c) hcast) (broadcast S16 3#32)) hsl) hpos
      = IntOp.shrsi .vector (c (lanePos k lane)) 3#32 := by
  rw [lane_core_shr, read_lane1]

theorem lane_and1 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (andi (shapeCast S16
        (View.readAt (Elt F) (Memref.whole cc0_scratch1 : Memref sig .scVector .vmem S128 .i32).view
          (Rect.unit (s := S128) (k0_off2 k) S16.size (k0_off2_inb k)).toLoadRect c) hcast) (broadcast S16 7#32)) hsl) hpos
      = IntOp.andi (c (lanePos k lane)) 7#32 := by
  rw [lane_core_and, read_lane1]

theorem lane_shr2 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (shrsi (shapeCast S16
        (View.readAt (Elt F) (Memref.whole cc0_scratch2 : Memref sig .scVector .vmem S128 .i32).view
          (Rect.unit (s := S128) (k0_off2 k) S16.size (k0_off2_inb k)).toLoadRect c) hcast) (broadcast S16 3#32)) hsl) hpos
      = IntOp.shrsi .vector (c (lanePos k lane)) 3#32 := by
  rw [lane_core_shr, read_lane2]

theorem lane_and2 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (andi (shapeCast S16
        (View.readAt (Elt F) (Memref.whole cc0_scratch2 : Memref sig .scVector .vmem S128 .i32).view
          (Rect.unit (s := S128) (k0_off2 k) S16.size (k0_off2_inb k)).toLoadRect c) hcast) (broadcast S16 7#32)) hsl) hpos
      = IntOp.andi (c (lanePos k lane)) 7#32 := by
  rw [lane_core_and, read_lane2]

theorem lane_shr3 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (shrsi (shapeCast S16
        (View.readAt (Elt F) (Memref.whole cc0_scratch3 : Memref sig .scVector .vmem S128 .i32).view
          (Rect.unit (s := S128) (k0_off2 k) S16.size (k0_off2_inb k)).toLoadRect c) hcast) (broadcast S16 3#32)) hsl) hpos
      = IntOp.shrsi .vector (c (lanePos k lane)) 3#32 := by
  rw [lane_core_shr, read_lane3]

theorem lane_and3 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (andi (shapeCast S16
        (View.readAt (Elt F) (Memref.whole cc0_scratch3 : Memref sig .scVector .vmem S128 .i32).view
          (Rect.unit (s := S128) (k0_off2 k) S16.size (k0_off2_inb k)).toLoadRect c) hcast) (broadcast S16 7#32)) hsl) hpos
      = IntOp.andi (c (lanePos k lane)) 7#32 := by
  rw [lane_core_and, read_lane3]

/-- The first list's, under the short names. -/
theorem lane_shr (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (shrsi (shapeCast S16
        (View.readAt (Elt F) (Memref.whole cc0_scratch0 : Memref sig .scVector .vmem S128 .i32).view
          (Rect.unit (s := S128) (k0_off2 k) S16.size (k0_off2_inb k)).toLoadRect c) hcast) (broadcast S16 3#32)) hsl) hpos
      = IntOp.shrsi .vector (c (ix1 (⟨16 * k.val + lane.val, lane_pos_lt k lane⟩ : Fin 128))) 3#32 :=
  lane_shr0 c k lane hcast hsl hpos

theorem lane_and (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (andi (shapeCast S16
        (View.readAt (Elt F) (Memref.whole cc0_scratch0 : Memref sig .scVector .vmem S128 .i32).view
          (Rect.unit (s := S128) (k0_off2 k) S16.size (k0_off2_inb k)).toLoadRect c) hcast) (broadcast S16 7#32)) hsl) hpos
      = IntOp.andi (c (ix1 (⟨16 * k.val + lane.val, lane_pos_lt k lane⟩ : Fin 128))) 7#32 :=
  lane_and0 c k lane hcast hsl hpos

/-! ## The destination row of a copy: row `16 k + l` of the row buffer -/

/-- The row offset the issue loop computes for lane constant `c` at trip `k`, in closed form: no wrap below 128. -/
theorem dstoff_eq (k : Fin k0_t1_loop.trips) (c : BitVec 32) (hc : c.toNat < 16) :
    (![(Scalar.addi (Scalar.muli (Scf.iv 0#32 1#32 k) 16#32) c).toNat, 0] : Fin 2 → ℕ) = ![16 * k.val + c.toNat, 0] := by
  have hk : k.val < 8 := Nat.lt_of_lt_of_le k.isLt k0_t1_abs.2.1
  have e : (Scalar.addi (Scalar.muli (Scf.iv 0#32 1#32 k) 16#32) c).toNat = 16 * k.val + c.toNat := by
    unfold Scalar.addi Scalar.muli IntOp.addi IntOp.muli Scf.iv
    simp only [BitVec.toNat_add, BitVec.toNat_mul, BitVec.toNat_ofNat]
    omega
  rw [e]

example (k : Fin k0_t1_loop.trips) : k0_off5 k = ![16 * k.val + 0, 0] := dstoff_eq k 0#32 (by decide)
example (k : Fin k0_t1_loop.trips) (c : BitVec 32) (hc : c.toNat < 16) : k0_off11 k c = ![16 * k.val + c.toNat, 0] := dstoff_eq k c hc
example (k : Fin k0_t1_loop.trips) : k0_off129 k = ![16 * k.val + 15, 0] := dstoff_eq k 15#32 (by decide)

end Cert.KernelIdeal.TileGather

end
-- ==== Proof.TileIssueLoop.lean ====
/-
  The gather's issue loop: eight trips of sixteen entries, four row copies per entry. One trip, at a symbolic trip
  number: the sixteen entries' rows and tokens are taken off the run of entries still waiting, each of the 64 copies is
  issued as the batch's next transfer (its side condition from the index word's range, its delivery from the word's
  value), and the run from the next trip's first entry on is handed over.
-/
import proofs.«206817_g64347200028782_cont_9to1_m_612_22_alg».proof.Proof.TileIssueInv
import proofs.«206817_g64347200028782_cont_9to1_m_612_22_alg».proof.Proof.TileLanes
import proofs.«206817_g64347200028782_cont_9to1_m_612_22_alg».proof.Proof.Words

set_option pp.maxSteps 4000
set_option pp.deepTerms false

noncomputable section

namespace Cert.KernelIdeal.TileGather

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes Cert.KernelIdeal.TileCore Cert.KernelIdeal.TileVals Cert.KSpec Cert.Spec
open Idealize.ShloMosaic.ValueIdx

variable [FloatOps F] (d : Dev nD) (L : grid0.Coords) (X : Tabs F)

set_option maxHeartbeats 4000000 in
theorem issue_step (c0 : Buf (Elt F) ((thr d L).loc cc0_scratch0)) (c1 : Buf (Elt F) ((thr d L).loc cc0_scratch1)) (c2 : Buf (Elt F) ((thr d L).loc cc0_scratch2)) (c3 : Buf (Elt F) ((thr d L).loc cc0_scratch3))
    (g4 g5 g6 g7 : FVec F S128x64 .f32)
    (hV0 : ∀ e : Fin 128, c0 (ix1 e) = X.I0 (ix1 (rowOfEntry L e))) (hV1 : ∀ e : Fin 128, c1 (ix1 e) = X.I1 (ix1 (rowOfEntry L e)))
    (hV2 : ∀ e : Fin 128, c2 (ix1 e) = X.I3 (ix1 (rowOfEntry L e))) (hV3 : ∀ e : Fin 128, c3 (ix1 e) = X.I4 (ix1 (rowOfEntry L e)))
    (hI0 : ∀ i, (c0 i).toNat < 100000) (hI1 : ∀ i, (c1 i).toNat < 200) (hI2 : ∀ i, (c2 i).toNat < 100000) (hI3 : ∀ i, (c3 i).toNat < 10000)
    (k : Fin k0_t1_loop.trips) (acc : PUnit) :
    issueInv d L X c0 c1 c2 c3 g4 g5 g6 g7 k.val acc
      ⊢ wp frame (wpE (defs₀ (F := F)) 𝒱₀ (thr d L) none) Set.univ (k0_t1_body (F := F) L (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v10_scv) (Memref.isWhole_whole _) (Memref.whole main_v0_scv) (Memref.isWhole_whole _) (Memref.whole main_v1_scv) (Memref.isWhole_whole _) (Memref.whole main_v3_scv) (Memref.isWhole_whole _) (Memref.whole main_v4_scv) (Memref.isWhole_whole _) (Memref.whole main_v11_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scoped0 cc0_scoped1 cc0_scoped2 cc0_scoped3 cc0_scoped4 cc0_scoped5 k acc)
          (fun _ => issueInv d L X c0 c1 c2 c3 g4 g5 g6 g7 (k.val + 1) ⟨⟩) := by
  have hk8 : k.val < 8 := lt_of_lt_of_le k.isLt Gen.k0_t1_abs.2.1
  have e64 : 64 * k.val + 63 + 1 = 64 * (k.val + 1) := by omega
  have e16 : 16 * k.val + 1 + 1 + 1 + 1 + 1 + 1 + 1 + 1 + 1 + 1 + 1 + 1 + 1 + 1 + 1 + 1 = 16 * (k.val + 1) := by omega
  unfold issueInv
  iterate 16 rw [Ring.bigSep_rangeSet_head (Φ := bundle d L X g4 g5 g6 g7) (by omega) (by omega)]
  unfold bundle
  iintro ⟨HB, H0, H1, H2, H3, ⟨Hr0_0, Hr1_0, Hr2_0, Hr3_0, Ht0_0, Ht1_0, Ht2_0, Ht3_0⟩, ⟨Hr0_1, Hr1_1, Hr2_1, Hr3_1, Ht0_1, Ht1_1, Ht2_1, Ht3_1⟩, ⟨Hr0_2, Hr1_2, Hr2_2, Hr3_2, Ht0_2, Ht1_2, Ht2_2, Ht3_2⟩, ⟨Hr0_3, Hr1_3, Hr2_3, Hr3_3, Ht0_3, Ht1_3, Ht2_3, Ht3_3⟩, ⟨Hr0_4, Hr1_4, Hr2_4, Hr3_4, Ht0_4, Ht1_4, Ht2_4, Ht3_4⟩, ⟨Hr0_5, Hr1_5, Hr2_5, Hr3_5, Ht0_5, Ht1_5, Ht2_5, Ht3_5⟩, ⟨Hr0_6, Hr1_6, Hr2_6, Hr3_6, Ht0_6, Ht1_6, Ht2_6, Ht3_6⟩, ⟨Hr0_7, Hr1_7, Hr2_7, Hr3_7, Ht0_7, Ht1_7, Ht2_7, Ht3_7⟩, ⟨Hr0_8, Hr1_8, Hr2_8, Hr3_8, Ht0_8, Ht1_8, Ht2_8, Ht3_8⟩, ⟨Hr0_9, Hr1_9, Hr2_9, Hr3_9, Ht0_9, Ht1_9, Ht2_9, Ht3_9⟩, ⟨Hr0_10, Hr1_10, Hr2_10, Hr3_10, Ht0_10, Ht1_10, Ht2_10, Ht3_10⟩, ⟨Hr0_11, Hr1_11, Hr2_11, Hr3_11, Ht0_11, Ht1_11, Ht2_11, Ht3_11⟩, ⟨Hr0_12, Hr1_12, Hr2_12, Hr3_12, Ht0_12, Ht1_12, Ht2_12, Ht3_12⟩, ⟨Hr0_13, Hr1_13, Hr2_13, Hr3_13, Ht0_13, Ht1_13, Ht2_13, Ht3_13⟩, ⟨Hr0_14, Hr1_14, Hr2_14, Hr3_14, Ht0_14, Ht1_14, Ht2_14, Ht3_14⟩, ⟨Hr0_15, Hr1_15, Hr2_15, Hr3_15, Ht0_15, Ht1_15, Ht2_15, Ht3_15⟩, Hrest⟩
  sl_exec (disch := exact Cert.Words.chk_of _ _ _ _ (hI0 _) (by decide) rfl rfl)
  iapply (issue0 d L X g4 ⟨16 * k.val + 0, by omega⟩ _ _ _ _ rfl _ _ (dstoff_eq k 0#32 (by decide)) (c0 (ix1 ⟨16 * k.val + 0, by omega⟩)) (hV0 _) (hI0 _) (lane_shr0 c0 k 0 _ (by decide) _) (lane_and0 c0 k 0 _ (by decide) _) (64 * k.val + 0) (by show 64 * k.val + 0 = 4 * (16 * k.val + 0) + 0; omega) _) $$ [Ht0_0 Hr0_0 HB]
  · isplitl [Ht0_0]; · iexact Ht0_0
    isplitl [Hr0_0]; · iexact Hr0_0
    iexact HB
  iintro HB
  sl_exec (disch := exact Cert.Words.chk_of _ _ _ _ (hI1 _) (by decide) rfl rfl)
  iapply (issue1 d L X g5 ⟨16 * k.val + 0, by omega⟩ _ _ _ _ rfl _ _ (dstoff_eq k 0#32 (by decide)) (c1 (ix1 ⟨16 * k.val + 0, by omega⟩)) (hV1 _) (hI1 _) (lane_shr1 c1 k 0 _ (by decide) _) (lane_and1 c1 k 0 _ (by decide) _) (64 * k.val + 1) (by show 64 * k.val + 1 = 4 * (16 * k.val + 0) + 1; omega) _) $$ [Ht1_0 Hr1_0 HB]
  · isplitl [Ht1_0]; · iexact Ht1_0
    isplitl [Hr1_0]; · iexact Hr1_0
    iexact HB
  iintro HB
  sl_exec (disch := exact Cert.Words.chk_of _ _ _ _ (hI2 _) (by decide) rfl rfl)
  iapply (issue2 d L X g6 ⟨16 * k.val + 0, by omega⟩ _ _ _ _ rfl _ _ (dstoff_eq k 0#32 (by decide)) (c2 (ix1 ⟨16 * k.val + 0, by omega⟩)) (hV2 _) (hI2 _) (lane_shr2 c2 k 0 _ (by decide) _) (lane_and2 c2 k 0 _ (by decide) _) (64 * k.val + 2) (by show 64 * k.val + 2 = 4 * (16 * k.val + 0) + 2; omega) _) $$ [Ht2_0 Hr2_0 HB]
  · isplitl [Ht2_0]; · iexact Ht2_0
    isplitl [Hr2_0]; · iexact Hr2_0
    iexact HB
  iintro HB
  sl_exec (disch := exact Cert.Words.chk_of _ _ _ _ (hI3 _) (by decide) rfl rfl)
  iapply (issue3 d L X g7 ⟨16 * k.val + 0, by omega⟩ _ _ _ _ rfl _ _ (dstoff_eq k 0#32 (by decide)) (c3 (ix1 ⟨16 * k.val + 0, by omega⟩)) (hV3 _) (hI3 _) (lane_shr3 c3 k 0 _ (by decide) _) (lane_and3 c3 k 0 _ (by decide) _) (64 * k.val + 3) (by show 64 * k.val + 3 = 4 * (16 * k.val + 0) + 3; omega) _) $$ [Ht3_0 Hr3_0 HB]
  · isplitl [Ht3_0]; · iexact Ht3_0
    isplitl [Hr3_0]; · iexact Hr3_0
    iexact HB
  iintro HB
  sl_exec (disch := exact Cert.Words.chk_of _ _ _ _ (hI0 _) (by decide) rfl rfl)
  iapply (issue0 d L X g4 ⟨16 * k.val + 1, by omega⟩ _ _ _ _ rfl _ _ (dstoff_eq k 1#32 (by decide)) (c0 (ix1 ⟨16 * k.val + 1, by omega⟩)) (hV0 _) (hI0 _) (lane_shr0 c0 k 1 _ (by decide) _) (lane_and0 c0 k 1 _ (by decide) _) (64 * k.val + 4) (by show 64 * k.val + 4 = 4 * (16 * k.val + 1) + 0; omega) _) $$ [Ht0_1 Hr0_1 HB]
  · isplitl [Ht0_1]; · iexact Ht0_1
    isplitl [Hr0_1]; · iexact Hr0_1
    iexact HB
  iintro HB
  sl_exec (disch := exact Cert.Words.chk_of _ _ _ _ (hI1 _) (by decide) rfl rfl)
  iapply (issue1 d L X g5 ⟨16 * k.val + 1, by omega⟩ _ _ _ _ rfl _ _ (dstoff_eq k 1#32 (by decide)) (c1 (ix1 ⟨16 * k.val + 1, by omega⟩)) (hV1 _) (hI1 _) (lane_shr1 c1 k 1 _ (by decide) _) (lane_and1 c1 k 1 _ (by decide) _) (64 * k.val + 5) (by show 64 * k.val + 5 = 4 * (16 * k.val + 1) + 1; omega) _) $$ [Ht1_1 Hr1_1 HB]
  · isplitl [Ht1_1]; · iexact Ht1_1
    isplitl [Hr1_1]; · iexact Hr1_1
    iexact HB
  iintro HB
  sl_exec (disch := exact Cert.Words.chk_of _ _ _ _ (hI2 _) (by decide) rfl rfl)
  iapply (issue2 d L X g6 ⟨16 * k.val + 1, by omega⟩ _ _ _ _ rfl _ _ (dstoff_eq k 1#32 (by decide)) (c2 (ix1 ⟨16 * k.val + 1, by omega⟩)) (hV2 _) (hI2 _) (lane_shr2 c2 k 1 _ (by decide) _) (lane_and2 c2 k 1 _ (by decide) _) (64 * k.val + 6) (by show 64 * k.val + 6 = 4 * (16 * k.val + 1) + 2; omega) _) $$ [Ht2_1 Hr2_1 HB]
  · isplitl [Ht2_1]; · iexact Ht2_1
    isplitl [Hr2_1]; · iexact Hr2_1
    iexact HB
  iintro HB
  sl_exec (disch := exact Cert.Words.chk_of _ _ _ _ (hI3 _) (by decide) rfl rfl)
  iapply (issue3 d L X g7 ⟨16 * k.val + 1, by omega⟩ _ _ _ _ rfl _ _ (dstoff_eq k 1#32 (by decide)) (c3 (ix1 ⟨16 * k.val + 1, by omega⟩)) (hV3 _) (hI3 _) (lane_shr3 c3 k 1 _ (by decide) _) (lane_and3 c3 k 1 _ (by decide) _) (64 * k.val + 7) (by show 64 * k.val + 7 = 4 * (16 * k.val + 1) + 3; omega) _) $$ [Ht3_1 Hr3_1 HB]
  · isplitl [Ht3_1]; · iexact Ht3_1
    isplitl [Hr3_1]; · iexact Hr3_1
    iexact HB
  iintro HB
  sl_exec (disch := exact Cert.Words.chk_of _ _ _ _ (hI0 _) (by decide) rfl rfl)
  iapply (issue0 d L X g4 ⟨16 * k.val + 2, by omega⟩ _ _ _ _ rfl _ _ (dstoff_eq k 2#32 (by decide)) (c0 (ix1 ⟨16 * k.val + 2, by omega⟩)) (hV0 _) (hI0 _) (lane_shr0 c0 k 2 _ (by decide) _) (lane_and0 c0 k 2 _ (by decide) _) (64 * k.val + 8) (by show 64 * k.val + 8 = 4 * (16 * k.val + 2) + 0; omega) _) $$ [Ht0_2 Hr0_2 HB]
  · isplitl [Ht0_2]; · iexact Ht0_2
    isplitl [Hr0_2]; · iexact Hr0_2
    iexact HB
  iintro HB
  sl_exec (disch := exact Cert.Words.chk_of _ _ _ _ (hI1 _) (by decide) rfl rfl)
  iapply (issue1 d L X g5 ⟨16 * k.val + 2, by omega⟩ _ _ _ _ rfl _ _ (dstoff_eq k 2#32 (by decide)) (c1 (ix1 ⟨16 * k.val + 2, by omega⟩)) (hV1 _) (hI1 _) (lane_shr1 c1 k 2 _ (by decide) _) (lane_and1 c1 k 2 _ (by decide) _) (64 * k.val + 9) (by show 64 * k.val + 9 = 4 * (16 * k.val + 2) + 1; omega) _) $$ [Ht1_2 Hr1_2 HB]
  · isplitl [Ht1_2]; · iexact Ht1_2
    isplitl [Hr1_2]; · iexact Hr1_2
    iexact HB
  iintro HB
  sl_exec (disch := exact Cert.Words.chk_of _ _ _ _ (hI2 _) (by decide) rfl rfl)
  iapply (issue2 d L X g6 ⟨16 * k.val + 2, by omega⟩ _ _ _ _ rfl _ _ (dstoff_eq k 2#32 (by decide)) (c2 (ix1 ⟨16 * k.val + 2, by omega⟩)) (hV2 _) (hI2 _) (lane_shr2 c2 k 2 _ (by decide) _) (lane_and2 c2 k 2 _ (by decide) _) (64 * k.val + 10) (by show 64 * k.val + 10 = 4 * (16 * k.val + 2) + 2; omega) _) $$ [Ht2_2 Hr2_2 HB]
  · isplitl [Ht2_2]; · iexact Ht2_2
    isplitl [Hr2_2]; · iexact Hr2_2
    iexact HB
  iintro HB
  sl_exec (disch := exact Cert.Words.chk_of _ _ _ _ (hI3 _) (by decide) rfl rfl)
  iapply (issue3 d L X g7 ⟨16 * k.val + 2, by omega⟩ _ _ _ _ rfl _ _ (dstoff_eq k 2#32 (by decide)) (c3 (ix1 ⟨16 * k.val + 2, by omega⟩)) (hV3 _) (hI3 _) (lane_shr3 c3 k 2 _ (by decide) _) (lane_and3 c3 k 2 _ (by decide) _) (64 * k.val + 11) (by show 64 * k.val + 11 = 4 * (16 * k.val + 2) + 3; omega) _) $$ [Ht3_2 Hr3_2 HB]
  · isplitl [Ht3_2]; · iexact Ht3_2
    isplitl [Hr3_2]; · iexact Hr3_2
    iexact HB
  iintro HB
  sl_exec (disch := exact Cert.Words.chk_of _ _ _ _ (hI0 _) (by decide) rfl rfl)
  iapply (issue0 d L X g4 ⟨16 * k.val + 3, by omega⟩ _ _ _ _ rfl _ _ (dstoff_eq k 3#32 (by decide)) (c0 (ix1 ⟨16 * k.val + 3, by omega⟩)) (hV0 _) (hI0 _) (lane_shr0 c0 k 3 _ (by decide) _) (lane_and0 c0 k 3 _ (by decide) _) (64 * k.val + 12) (by show 64 * k.val + 12 = 4 * (16 * k.val + 3) + 0; omega) _) $$ [Ht0_3 Hr0_3 HB]
  · isplitl [Ht0_3]; · iexact Ht0_3
    isplitl [Hr0_3]; · iexact Hr0_3
    iexact HB
  iintro HB
  sl_exec (disch := exact Cert.Words.chk_of _ _ _ _ (hI1 _) (by decide) rfl rfl)
  iapply (issue1 d L X g5 ⟨16 * k.val + 3, by omega⟩ _ _ _ _ rfl _ _ (dstoff_eq k 3#32 (by decide)) (c1 (ix1 ⟨16 * k.val + 3, by omega⟩)) (hV1 _) (hI1 _) (lane_shr1 c1 k 3 _ (by decide) _) (lane_and1 c1 k 3 _ (by decide) _) (64 * k.val + 13) (by show 64 * k.val + 13 = 4 * (16 * k.val + 3) + 1; omega) _) $$ [Ht1_3 Hr1_3 HB]
  · isplitl [Ht1_3]; · iexact Ht1_3
    isplitl [Hr1_3]; · iexact Hr1_3
    iexact HB
  iintro HB
  sl_exec (disch := exact Cert.Words.chk_of _ _ _ _ (hI2 _) (by decide) rfl rfl)
  iapply (issue2 d L X g6 ⟨16 * k.val + 3, by omega⟩ _ _ _ _ rfl _ _ (dstoff_eq k 3#32 (by decide)) (c2 (ix1 ⟨16 * k.val + 3, by omega⟩)) (hV2 _) (hI2 _) (lane_shr2 c2 k 3 _ (by decide) _) (lane_and2 c2 k 3 _ (by decide) _) (64 * k.val + 14) (by show 64 * k.val + 14 = 4 * (16 * k.val + 3) + 2; omega) _) $$ [Ht2_3 Hr2_3 HB]
  · isplitl [Ht2_3]; · iexact Ht2_3
    isplitl [Hr2_3]; · iexact Hr2_3
    iexact HB
  iintro HB
  sl_exec (disch := exact Cert.Words.chk_of _ _ _ _ (hI3 _) (by decide) rfl rfl)
  iapply (issue3 d L X g7 ⟨16 * k.val + 3, by omega⟩ _ _ _ _ rfl _ _ (dstoff_eq k 3#32 (by decide)) (c3 (ix1 ⟨16 * k.val + 3, by omega⟩)) (hV3 _) (hI3 _) (lane_shr3 c3 k 3 _ (by decide) _) (lane_and3 c3 k 3 _ (by decide) _) (64 * k.val + 15) (by show 64 * k.val + 15 = 4 * (16 * k.val + 3) + 3; omega) _) $$ [Ht3_3 Hr3_3 HB]
  · isplitl [Ht3_3]; · iexact Ht3_3
    isplitl [Hr3_3]; · iexact Hr3_3
    iexact HB
  iintro HB
  sl_exec (disch := exact Cert.Words.chk_of _ _ _ _ (hI0 _) (by decide) rfl rfl)
  iapply (issue0 d L X g4 ⟨16 * k.val + 4, by omega⟩ _ _ _ _ rfl _ _ (dstoff_eq k 4#32 (by decide)) (c0 (ix1 ⟨16 * k.val + 4, by omega⟩)) (hV0 _) (hI0 _) (lane_shr0 c0 k 4 _ (by decide) _) (lane_and0 c0 k 4 _ (by decide) _) (64 * k.val + 16) (by show 64 * k.val + 16 = 4 * (16 * k.val + 4) + 0; omega) _) $$ [Ht0_4 Hr0_4 HB]
  · isplitl [Ht0_4]; · iexact Ht0_4
    isplitl [Hr0_4]; · iexact Hr0_4
    iexact HB
  iintro HB
  sl_exec (disch := exact Cert.Words.chk_of _ _ _ _ (hI1 _) (by decide) rfl rfl)
  iapply (issue1 d L X g5 ⟨16 * k.val + 4, by omega⟩ _ _ _ _ rfl _ _ (dstoff_eq k 4#32 (by decide)) (c1 (ix1 ⟨16 * k.val + 4, by omega⟩)) (hV1 _) (hI1 _) (lane_shr1 c1 k 4 _ (by decide) _) (lane_and1 c1 k 4 _ (by decide) _) (64 * k.val + 17) (by show 64 * k.val + 17 = 4 * (16 * k.val + 4) + 1; omega) _) $$ [Ht1_4 Hr1_4 HB]
  · isplitl [Ht1_4]; · iexact Ht1_4
    isplitl [Hr1_4]; · iexact Hr1_4
    iexact HB
  iintro HB
  sl_exec (disch := exact Cert.Words.chk_of _ _ _ _ (hI2 _) (by decide) rfl rfl)
  iapply (issue2 d L X g6 ⟨16 * k.val + 4, by omega⟩ _ _ _ _ rfl _ _ (dstoff_eq k 4#32 (by decide)) (c2 (ix1 ⟨16 * k.val + 4, by omega⟩)) (hV2 _) (hI2 _) (lane_shr2 c2 k 4 _ (by decide) _) (lane_and2 c2 k 4 _ (by decide) _) (64 * k.val + 18) (by show 64 * k.val + 18 = 4 * (16 * k.val + 4) + 2; omega) _) $$ [Ht2_4 Hr2_4 HB]
  · isplitl [Ht2_4]; · iexact Ht2_4
    isplitl [Hr2_4]; · iexact Hr2_4
    iexact HB
  iintro HB
  sl_exec (disch := exact Cert.Words.chk_of _ _ _ _ (hI3 _) (by decide) rfl rfl)
  iapply (issue3 d L X g7 ⟨16 * k.val + 4, by omega⟩ _ _ _ _ rfl _ _ (dstoff_eq k 4#32 (by decide)) (c3 (ix1 ⟨16 * k.val + 4, by omega⟩)) (hV3 _) (hI3 _) (lane_shr3 c3 k 4 _ (by decide) _) (lane_and3 c3 k 4 _ (by decide) _) (64 * k.val + 19) (by show 64 * k.val + 19 = 4 * (16 * k.val + 4) + 3; omega) _) $$ [Ht3_4 Hr3_4 HB]
  · isplitl [Ht3_4]; · iexact Ht3_4
    isplitl [Hr3_4]; · iexact Hr3_4
    iexact HB
  iintro HB
  sl_exec (disch := exact Cert.Words.chk_of _ _ _ _ (hI0 _) (by decide) rfl rfl)
  iapply (issue0 d L X g4 ⟨16 * k.val + 5, by omega⟩ _ _ _ _ rfl _ _ (dstoff_eq k 5#32 (by decide)) (c0 (ix1 ⟨16 * k.val + 5, by omega⟩)) (hV0 _) (hI0 _) (lane_shr0 c0 k 5 _ (by decide) _) (lane_and0 c0 k 5 _ (by decide) _) (64 * k.val + 20) (by show 64 * k.val + 20 = 4 * (16 * k.val + 5) + 0; omega) _) $$ [Ht0_5 Hr0_5 HB]
  · isplitl [Ht0_5]; · iexact Ht0_5
    isplitl [Hr0_5]; · iexact Hr0_5
    iexact HB
  iintro HB
  sl_exec (disch := exact Cert.Words.chk_of _ _ _ _ (hI1 _) (by decide) rfl rfl)
  iapply (issue1 d L X g5 ⟨16 * k.val + 5, by omega⟩ _ _ _ _ rfl _ _ (dstoff_eq k 5#32 (by decide)) (c1 (ix1 ⟨16 * k.val + 5, by omega⟩)) (hV1 _) (hI1 _) (lane_shr1 c1 k 5 _ (by decide) _) (lane_and1 c1 k 5 _ (by decide) _) (64 * k.val + 21) (by show 64 * k.val + 21 = 4 * (16 * k.val + 5) + 1; omega) _) $$ [Ht1_5 Hr1_5 HB]
  · isplitl [Ht1_5]; · iexact Ht1_5
    isplitl [Hr1_5]; · iexact Hr1_5
    iexact HB
  iintro HB
  sl_exec (disch := exact Cert.Words.chk_of _ _ _ _ (hI2 _) (by decide) rfl rfl)
  iapply (issue2 d L X g6 ⟨16 * k.val + 5, by omega⟩ _ _ _ _ rfl _ _ (dstoff_eq k 5#32 (by decide)) (c2 (ix1 ⟨16 * k.val + 5, by omega⟩)) (hV2 _) (hI2 _) (lane_shr2 c2 k 5 _ (by decide) _) (lane_and2 c2 k 5 _ (by decide) _) (64 * k.val + 22) (by show 64 * k.val + 22 = 4 * (16 * k.val + 5) + 2; omega) _) $$ [Ht2_5 Hr2_5 HB]
  · isplitl [Ht2_5]; · iexact Ht2_5
    isplitl [Hr2_5]; · iexact Hr2_5
    iexact HB
  iintro HB
  sl_exec (disch := exact Cert.Words.chk_of _ _ _ _ (hI3 _) (by decide) rfl rfl)
  iapply (issue3 d L X g7 ⟨16 * k.val + 5, by omega⟩ _ _ _ _ rfl _ _ (dstoff_eq k 5#32 (by decide)) (c3 (ix1 ⟨16 * k.val + 5, by omega⟩)) (hV3 _) (hI3 _) (lane_shr3 c3 k 5 _ (by decide) _) (lane_and3 c3 k 5 _ (by decide) _) (64 * k.val + 23) (by show 64 * k.val + 23 = 4 * (16 * k.val + 5) + 3; omega) _) $$ [Ht3_5 Hr3_5 HB]
  · isplitl [Ht3_5]; · iexact Ht3_5
    isplitl [Hr3_5]; · iexact Hr3_5
    iexact HB
  iintro HB
  sl_exec (disch := exact Cert.Words.chk_of _ _ _ _ (hI0 _) (by decide) rfl rfl)
  iapply (issue0 d L X g4 ⟨16 * k.val + 6, by omega⟩ _ _ _ _ rfl _ _ (dstoff_eq k 6#32 (by decide)) (c0 (ix1 ⟨16 * k.val + 6, by omega⟩)) (hV0 _) (hI0 _) (lane_shr0 c0 k 6 _ (by decide) _) (lane_and0 c0 k 6 _ (by decide) _) (64 * k.val + 24) (by show 64 * k.val + 24 = 4 * (16 * k.val + 6) + 0; omega) _) $$ [Ht0_6 Hr0_6 HB]
  · isplitl [Ht0_6]; · iexact Ht0_6
    isplitl [Hr0_6]; · iexact Hr0_6
    iexact HB
  iintro HB
  sl_exec (disch := exact Cert.Words.chk_of _ _ _ _ (hI1 _) (by decide) rfl rfl)
  iapply (issue1 d L X g5 ⟨16 * k.val + 6, by omega⟩ _ _ _ _ rfl _ _ (dstoff_eq k 6#32 (by decide)) (c1 (ix1 ⟨16 * k.val + 6, by omega⟩)) (hV1 _) (hI1 _) (lane_shr1 c1 k 6 _ (by decide) _) (lane_and1 c1 k 6 _ (by decide) _) (64 * k.val + 25) (by show 64 * k.val + 25 = 4 * (16 * k.val + 6) + 1; omega) _) $$ [Ht1_6 Hr1_6 HB]
  · isplitl [Ht1_6]; · iexact Ht1_6
    isplitl [Hr1_6]; · iexact Hr1_6
    iexact HB
  iintro HB
  sl_exec (disch := exact Cert.Words.chk_of _ _ _ _ (hI2 _) (by decide) rfl rfl)
  iapply (issue2 d L X g6 ⟨16 * k.val + 6, by omega⟩ _ _ _ _ rfl _ _ (dstoff_eq k 6#32 (by decide)) (c2 (ix1 ⟨16 * k.val + 6, by omega⟩)) (hV2 _) (hI2 _) (lane_shr2 c2 k 6 _ (by decide) _) (lane_and2 c2 k 6 _ (by decide) _) (64 * k.val + 26) (by show 64 * k.val + 26 = 4 * (16 * k.val + 6) + 2; omega) _) $$ [Ht2_6 Hr2_6 HB]
  · isplitl [Ht2_6]; · iexact Ht2_6
    isplitl [Hr2_6]; · iexact Hr2_6
    iexact HB
  iintro HB
  sl_exec (disch := exact Cert.Words.chk_of _ _ _ _ (hI3 _) (by decide) rfl rfl)
  iapply (issue3 d L X g7 ⟨16 * k.val + 6, by omega⟩ _ _ _ _ rfl _ _ (dstoff_eq k 6#32 (by decide)) (c3 (ix1 ⟨16 * k.val + 6, by omega⟩)) (hV3 _) (hI3 _) (lane_shr3 c3 k 6 _ (by decide) _) (lane_and3 c3 k 6 _ (by decide) _) (64 * k.val + 27) (by show 64 * k.val + 27 = 4 * (16 * k.val + 6) + 3; omega) _) $$ [Ht3_6 Hr3_6 HB]
  · isplitl [Ht3_6]; · iexact Ht3_6
    isplitl [Hr3_6]; · iexact Hr3_6
    iexact HB
  iintro HB
  sl_exec (disch := exact Cert.Words.chk_of _ _ _ _ (hI0 _) (by decide) rfl rfl)
  iapply (issue0 d L X g4 ⟨16 * k.val + 7, by omega⟩ _ _ _ _ rfl _ _ (dstoff_eq k 7#32 (by decide)) (c0 (ix1 ⟨16 * k.val + 7, by omega⟩)) (hV0 _) (hI0 _) (lane_shr0 c0 k 7 _ (by decide) _) (lane_and0 c0 k 7 _ (by decide) _) (64 * k.val + 28) (by show 64 * k.val + 28 = 4 * (16 * k.val + 7) + 0; omega) _) $$ [Ht0_7 Hr0_7 HB]
  · isplitl [Ht0_7]; · iexact Ht0_7
    isplitl [Hr0_7]; · iexact Hr0_7
    iexact HB
  iintro HB
  sl_exec (disch := exact Cert.Words.chk_of _ _ _ _ (hI1 _) (by decide) rfl rfl)
  iapply (issue1 d L X g5 ⟨16 * k.val + 7, by omega⟩ _ _ _ _ rfl _ _ (dstoff_eq k 7#32 (by decide)) (c1 (ix1 ⟨16 * k.val + 7, by omega⟩)) (hV1 _) (hI1 _) (lane_shr1 c1 k 7 _ (by decide) _) (lane_and1 c1 k 7 _ (by decide) _) (64 * k.val + 29) (by show 64 * k.val + 29 = 4 * (16 * k.val + 7) + 1; omega) _) $$ [Ht1_7 Hr1_7 HB]
  · isplitl [Ht1_7]; · iexact Ht1_7
    isplitl [Hr1_7]; · iexact Hr1_7
    iexact HB
  iintro HB
  sl_exec (disch := exact Cert.Words.chk_of _ _ _ _ (hI2 _) (by decide) rfl rfl)
  iapply (issue2 d L X g6 ⟨16 * k.val + 7, by omega⟩ _ _ _ _ rfl _ _ (dstoff_eq k 7#32 (by decide)) (c2 (ix1 ⟨16 * k.val + 7, by omega⟩)) (hV2 _) (hI2 _) (lane_shr2 c2 k 7 _ (by decide) _) (lane_and2 c2 k 7 _ (by decide) _) (64 * k.val + 30) (by show 64 * k.val + 30 = 4 * (16 * k.val + 7) + 2; omega) _) $$ [Ht2_7 Hr2_7 HB]
  · isplitl [Ht2_7]; · iexact Ht2_7
    isplitl [Hr2_7]; · iexact Hr2_7
    iexact HB
  iintro HB
  sl_exec (disch := exact Cert.Words.chk_of _ _ _ _ (hI3 _) (by decide) rfl rfl)
  iapply (issue3 d L X g7 ⟨16 * k.val + 7, by omega⟩ _ _ _ _ rfl _ _ (dstoff_eq k 7#32 (by decide)) (c3 (ix1 ⟨16 * k.val + 7, by omega⟩)) (hV3 _) (hI3 _) (lane_shr3 c3 k 7 _ (by decide) _) (lane_and3 c3 k 7 _ (by decide) _) (64 * k.val + 31) (by show 64 * k.val + 31 = 4 * (16 * k.val + 7) + 3; omega) _) $$ [Ht3_7 Hr3_7 HB]
  · isplitl [Ht3_7]; · iexact Ht3_7
    isplitl [Hr3_7]; · iexact Hr3_7
    iexact HB
  iintro HB
  sl_exec (disch := exact Cert.Words.chk_of _ _ _ _ (hI0 _) (by decide) rfl rfl)
  iapply (issue0 d L X g4 ⟨16 * k.val + 8, by omega⟩ _ _ _ _ rfl _ _ (dstoff_eq k 8#32 (by decide)) (c0 (ix1 ⟨16 * k.val + 8, by omega⟩)) (hV0 _) (hI0 _) (lane_shr0 c0 k 8 _ (by decide) _) (lane_and0 c0 k 8 _ (by decide) _) (64 * k.val + 32) (by show 64 * k.val + 32 = 4 * (16 * k.val + 8) + 0; omega) _) $$ [Ht0_8 Hr0_8 HB]
  · isplitl [Ht0_8]; · iexact Ht0_8
    isplitl [Hr0_8]; · iexact Hr0_8
    iexact HB
  iintro HB
  sl_exec (disch := exact Cert.Words.chk_of _ _ _ _ (hI1 _) (by decide) rfl rfl)
  iapply (issue1 d L X g5 ⟨16 * k.val + 8, by omega⟩ _ _ _ _ rfl _ _ (dstoff_eq k 8#32 (by decide)) (c1 (ix1 ⟨16 * k.val + 8, by omega⟩)) (hV1 _) (hI1 _) (lane_shr1 c1 k 8 _ (by decide) _) (lane_and1 c1 k 8 _ (by decide) _) (64 * k.val + 33) (by show 64 * k.val + 33 = 4 * (16 * k.val + 8) + 1; omega) _) $$ [Ht1_8 Hr1_8 HB]
  · isplitl [Ht1_8]; · iexact Ht1_8
    isplitl [Hr1_8]; · iexact Hr1_8
    iexact HB
  iintro HB
  sl_exec (disch := exact Cert.Words.chk_of _ _ _ _ (hI2 _) (by decide) rfl rfl)
  iapply (issue2 d L X g6 ⟨16 * k.val + 8, by omega⟩ _ _ _ _ rfl _ _ (dstoff_eq k 8#32 (by decide)) (c2 (ix1 ⟨16 * k.val + 8, by omega⟩)) (hV2 _) (hI2 _) (lane_shr2 c2 k 8 _ (by decide) _) (lane_and2 c2 k 8 _ (by decide) _) (64 * k.val + 34) (by show 64 * k.val + 34 = 4 * (16 * k.val + 8) + 2; omega) _) $$ [Ht2_8 Hr2_8 HB]
  · isplitl [Ht2_8]; · iexact Ht2_8
    isplitl [Hr2_8]; · iexact Hr2_8
    iexact HB
  iintro HB
  sl_exec (disch := exact Cert.Words.chk_of _ _ _ _ (hI3 _) (by decide) rfl rfl)
  iapply (issue3 d L X g7 ⟨16 * k.val + 8, by omega⟩ _ _ _ _ rfl _ _ (dstoff_eq k 8#32 (by decide)) (c3 (ix1 ⟨16 * k.val + 8, by omega⟩)) (hV3 _) (hI3 _) (lane_shr3 c3 k 8 _ (by decide) _) (lane_and3 c3 k 8 _ (by decide) _) (64 * k.val + 35) (by show 64 * k.val + 35 = 4 * (16 * k.val + 8) + 3; omega) _) $$ [Ht3_8 Hr3_8 HB]
  · isplitl [Ht3_8]; · iexact Ht3_8
    isplitl [Hr3_8]; · iexact Hr3_8
    iexact HB
  iintro HB
  sl_exec (disch := exact Cert.Words.chk_of _ _ _ _ (hI0 _) (by decide) rfl rfl)
  iapply (issue0 d L X g4 ⟨16 * k.val + 9, by omega⟩ _ _ _ _ rfl _ _ (dstoff_eq k 9#32 (by decide)) (c0 (ix1 ⟨16 * k.val + 9, by omega⟩)) (hV0 _) (hI0 _) (lane_shr0 c0 k 9 _ (by decide) _) (lane_and0 c0 k 9 _ (by decide) _) (64 * k.val + 36) (by show 64 * k.val + 36 = 4 * (16 * k.val + 9) + 0; omega) _) $$ [Ht0_9 Hr0_9 HB]
  · isplitl [Ht0_9]; · iexact Ht0_9
    isplitl [Hr0_9]; · iexact Hr0_9
    iexact HB
  iintro HB
  sl_exec (disch := exact Cert.Words.chk_of _ _ _ _ (hI1 _) (by decide) rfl rfl)
  iapply (issue1 d L X g5 ⟨16 * k.val + 9, by omega⟩ _ _ _ _ rfl _ _ (dstoff_eq k 9#32 (by decide)) (c1 (ix1 ⟨16 * k.val + 9, by omega⟩)) (hV1 _) (hI1 _) (lane_shr1 c1 k 9 _ (by decide) _) (lane_and1 c1 k 9 _ (by decide) _) (64 * k.val + 37) (by show 64 * k.val + 37 = 4 * (16 * k.val + 9) + 1; omega) _) $$ [Ht1_9 Hr1_9 HB]
  · isplitl [Ht1_9]; · iexact Ht1_9
    isplitl [Hr1_9]; · iexact Hr1_9
    iexact HB
  iintro HB
  sl_exec (disch := exact Cert.Words.chk_of _ _ _ _ (hI2 _) (by decide) rfl rfl)
  iapply (issue2 d L X g6 ⟨16 * k.val + 9, by omega⟩ _ _ _ _ rfl _ _ (dstoff_eq k 9#32 (by decide)) (c2 (ix1 ⟨16 * k.val + 9, by omega⟩)) (hV2 _) (hI2 _) (lane_shr2 c2 k 9 _ (by decide) _) (lane_and2 c2 k 9 _ (by decide) _) (64 * k.val + 38) (by show 64 * k.val + 38 = 4 * (16 * k.val + 9) + 2; omega) _) $$ [Ht2_9 Hr2_9 HB]
  · isplitl [Ht2_9]; · iexact Ht2_9
    isplitl [Hr2_9]; · iexact Hr2_9
    iexact HB
  iintro HB
  sl_exec (disch := exact Cert.Words.chk_of _ _ _ _ (hI3 _) (by decide) rfl rfl)
  iapply (issue3 d L X g7 ⟨16 * k.val + 9, by omega⟩ _ _ _ _ rfl _ _ (dstoff_eq k 9#32 (by decide)) (c3 (ix1 ⟨16 * k.val + 9, by omega⟩)) (hV3 _) (hI3 _) (lane_shr3 c3 k 9 _ (by decide) _) (lane_and3 c3 k 9 _ (by decide) _) (64 * k.val + 39) (by show 64 * k.val + 39 = 4 * (16 * k.val + 9) + 3; omega) _) $$ [Ht3_9 Hr3_9 HB]
  · isplitl [Ht3_9]; · iexact Ht3_9
    isplitl [Hr3_9]; · iexact Hr3_9
    iexact HB
  iintro HB
  sl_exec (disch := exact Cert.Words.chk_of _ _ _ _ (hI0 _) (by decide) rfl rfl)
  iapply (issue0 d L X g4 ⟨16 * k.val + 10, by omega⟩ _ _ _ _ rfl _ _ (dstoff_eq k 10#32 (by decide)) (c0 (ix1 ⟨16 * k.val + 10, by omega⟩)) (hV0 _) (hI0 _) (lane_shr0 c0 k 10 _ (by decide) _) (lane_and0 c0 k 10 _ (by decide) _) (64 * k.val + 40) (by show 64 * k.val + 40 = 4 * (16 * k.val + 10) + 0; omega) _) $$ [Ht0_10 Hr0_10 HB]
  · isplitl [Ht0_10]; · iexact Ht0_10
    isplitl [Hr0_10]; · iexact Hr0_10
    iexact HB
  iintro HB
  sl_exec (disch := exact Cert.Words.chk_of _ _ _ _ (hI1 _) (by decide) rfl rfl)
  iapply (issue1 d L X g5 ⟨16 * k.val + 10, by omega⟩ _ _ _ _ rfl _ _ (dstoff_eq k 10#32 (by decide)) (c1 (ix1 ⟨16 * k.val + 10, by omega⟩)) (hV1 _) (hI1 _) (lane_shr1 c1 k 10 _ (by decide) _) (lane_and1 c1 k 10 _ (by decide) _) (64 * k.val + 41) (by show 64 * k.val + 41 = 4 * (16 * k.val + 10) + 1; omega) _) $$ [Ht1_10 Hr1_10 HB]
  · isplitl [Ht1_10]; · iexact Ht1_10
    isplitl [Hr1_10]; · iexact Hr1_10
    iexact HB
  iintro HB
  sl_exec (disch := exact Cert.Words.chk_of _ _ _ _ (hI2 _) (by decide) rfl rfl)
  iapply (issue2 d L X g6 ⟨16 * k.val + 10, by omega⟩ _ _ _ _ rfl _ _ (dstoff_eq k 10#32 (by decide)) (c2 (ix1 ⟨16 * k.val + 10, by omega⟩)) (hV2 _) (hI2 _) (lane_shr2 c2 k 10 _ (by decide) _) (lane_and2 c2 k 10 _ (by decide) _) (64 * k.val + 42) (by show 64 * k.val + 42 = 4 * (16 * k.val + 10) + 2; omega) _) $$ [Ht2_10 Hr2_10 HB]
  · isplitl [Ht2_10]; · iexact Ht2_10
    isplitl [Hr2_10]; · iexact Hr2_10
    iexact HB
  iintro HB
  sl_exec (disch := exact Cert.Words.chk_of _ _ _ _ (hI3 _) (by decide) rfl rfl)
  iapply (issue3 d L X g7 ⟨16 * k.val + 10, by omega⟩ _ _ _ _ rfl _ _ (dstoff_eq k 10#32 (by decide)) (c3 (ix1 ⟨16 * k.val + 10, by omega⟩)) (hV3 _) (hI3 _) (lane_shr3 c3 k 10 _ (by decide) _) (lane_and3 c3 k 10 _ (by decide) _) (64 * k.val + 43) (by show 64 * k.val + 43 = 4 * (16 * k.val + 10) + 3; omega) _) $$ [Ht3_10 Hr3_10 HB]
  · isplitl [Ht3_10]; · iexact Ht3_10
    isplitl [Hr3_10]; · iexact Hr3_10
    iexact HB
  iintro HB
  sl_exec (disch := exact Cert.Words.chk_of _ _ _ _ (hI0 _) (by decide) rfl rfl)
  iapply (issue0 d L X g4 ⟨16 * k.val + 11, by omega⟩ _ _ _ _ rfl _ _ (dstoff_eq k 11#32 (by decide)) (c0 (ix1 ⟨16 * k.val + 11, by omega⟩)) (hV0 _) (hI0 _) (lane_shr0 c0 k 11 _ (by decide) _) (lane_and0 c0 k 11 _ (by decide) _) (64 * k.val + 44) (by show 64 * k.val + 44 = 4 * (16 * k.val + 11) + 0; omega) _) $$ [Ht0_11 Hr0_11 HB]
  · isplitl [Ht0_11]; · iexact Ht0_11
    isplitl [Hr0_11]; · iexact Hr0_11
    iexact HB
  iintro HB
  sl_exec (disch := exact Cert.Words.chk_of _ _ _ _ (hI1 _) (by decide) rfl rfl)
  iapply (issue1 d L X g5 ⟨16 * k.val + 11, by omega⟩ _ _ _ _ rfl _ _ (dstoff_eq k 11#32 (by decide)) (c1 (ix1 ⟨16 * k.val + 11, by omega⟩)) (hV1 _) (hI1 _) (lane_shr1 c1 k 11 _ (by decide) _) (lane_and1 c1 k 11 _ (by decide) _) (64 * k.val + 45) (by show 64 * k.val + 45 = 4 * (16 * k.val + 11) + 1; omega) _) $$ [Ht1_11 Hr1_11 HB]
  · isplitl [Ht1_11]; · iexact Ht1_11
    isplitl [Hr1_11]; · iexact Hr1_11
    iexact HB
  iintro HB
  sl_exec (disch := exact Cert.Words.chk_of _ _ _ _ (hI2 _) (by decide) rfl rfl)
  iapply (issue2 d L X g6 ⟨16 * k.val + 11, by omega⟩ _ _ _ _ rfl _ _ (dstoff_eq k 11#32 (by decide)) (c2 (ix1 ⟨16 * k.val + 11, by omega⟩)) (hV2 _) (hI2 _) (lane_shr2 c2 k 11 _ (by decide) _) (lane_and2 c2 k 11 _ (by decide) _) (64 * k.val + 46) (by show 64 * k.val + 46 = 4 * (16 * k.val + 11) + 2; omega) _) $$ [Ht2_11 Hr2_11 HB]
  · isplitl [Ht2_11]; · iexact Ht2_11
    isplitl [Hr2_11]; · iexact Hr2_11
    iexact HB
  iintro HB
  sl_exec (disch := exact Cert.Words.chk_of _ _ _ _ (hI3 _) (by decide) rfl rfl)
  iapply (issue3 d L X g7 ⟨16 * k.val + 11, by omega⟩ _ _ _ _ rfl _ _ (dstoff_eq k 11#32 (by decide)) (c3 (ix1 ⟨16 * k.val + 11, by omega⟩)) (hV3 _) (hI3 _) (lane_shr3 c3 k 11 _ (by decide) _) (lane_and3 c3 k 11 _ (by decide) _) (64 * k.val + 47) (by show 64 * k.val + 47 = 4 * (16 * k.val + 11) + 3; omega) _) $$ [Ht3_11 Hr3_11 HB]
  · isplitl [Ht3_11]; · iexact Ht3_11
    isplitl [Hr3_11]; · iexact Hr3_11
    iexact HB
  iintro HB
  sl_exec (disch := exact Cert.Words.chk_of _ _ _ _ (hI0 _) (by decide) rfl rfl)
  iapply (issue0 d L X g4 ⟨16 * k.val + 12, by omega⟩ _ _ _ _ rfl _ _ (dstoff_eq k 12#32 (by decide)) (c0 (ix1 ⟨16 * k.val + 12, by omega⟩)) (hV0 _) (hI0 _) (lane_shr0 c0 k 12 _ (by decide) _) (lane_and0 c0 k 12 _ (by decide) _) (64 * k.val + 48) (by show 64 * k.val + 48 = 4 * (16 * k.val + 12) + 0; omega) _) $$ [Ht0_12 Hr0_12 HB]
  · isplitl [Ht0_12]; · iexact Ht0_12
    isplitl [Hr0_12]; · iexact Hr0_12
    iexact HB
  iintro HB
  sl_exec (disch := exact Cert.Words.chk_of _ _ _ _ (hI1 _) (by decide) rfl rfl)
  iapply (issue1 d L X g5 ⟨16 * k.val + 12, by omega⟩ _ _ _ _ rfl _ _ (dstoff_eq k 12#32 (by decide)) (c1 (ix1 ⟨16 * k.val + 12, by omega⟩)) (hV1 _) (hI1 _) (lane_shr1 c1 k 12 _ (by decide) _) (lane_and1 c1 k 12 _ (by decide) _) (64 * k.val + 49) (by show 64 * k.val + 49 = 4 * (16 * k.val + 12) + 1; omega) _) $$ [Ht1_12 Hr1_12 HB]
  · isplitl [Ht1_12]; · iexact Ht1_12
    isplitl [Hr1_12]; · iexact Hr1_12
    iexact HB
  iintro HB
  sl_exec (disch := exact Cert.Words.chk_of _ _ _ _ (hI2 _) (by decide) rfl rfl)
  iapply (issue2 d L X g6 ⟨16 * k.val + 12, by omega⟩ _ _ _ _ rfl _ _ (dstoff_eq k 12#32 (by decide)) (c2 (ix1 ⟨16 * k.val + 12, by omega⟩)) (hV2 _) (hI2 _) (lane_shr2 c2 k 12 _ (by decide) _) (lane_and2 c2 k 12 _ (by decide) _) (64 * k.val + 50) (by show 64 * k.val + 50 = 4 * (16 * k.val + 12) + 2; omega) _) $$ [Ht2_12 Hr2_12 HB]
  · isplitl [Ht2_12]; · iexact Ht2_12
    isplitl [Hr2_12]; · iexact Hr2_12
    iexact HB
  iintro HB
  sl_exec (disch := exact Cert.Words.chk_of _ _ _ _ (hI3 _) (by decide) rfl rfl)
  iapply (issue3 d L X g7 ⟨16 * k.val + 12, by omega⟩ _ _ _ _ rfl _ _ (dstoff_eq k 12#32 (by decide)) (c3 (ix1 ⟨16 * k.val + 12, by omega⟩)) (hV3 _) (hI3 _) (lane_shr3 c3 k 12 _ (by decide) _) (lane_and3 c3 k 12 _ (by decide) _) (64 * k.val + 51) (by show 64 * k.val + 51 = 4 * (16 * k.val + 12) + 3; omega) _) $$ [Ht3_12 Hr3_12 HB]
  · isplitl [Ht3_12]; · iexact Ht3_12
    isplitl [Hr3_12]; · iexact Hr3_12
    iexact HB
  iintro HB
  sl_exec (disch := exact Cert.Words.chk_of _ _ _ _ (hI0 _) (by decide) rfl rfl)
  iapply (issue0 d L X g4 ⟨16 * k.val + 13, by omega⟩ _ _ _ _ rfl _ _ (dstoff_eq k 13#32 (by decide)) (c0 (ix1 ⟨16 * k.val + 13, by omega⟩)) (hV0 _) (hI0 _) (lane_shr0 c0 k 13 _ (by decide) _) (lane_and0 c0 k 13 _ (by decide) _) (64 * k.val + 52) (by show 64 * k.val + 52 = 4 * (16 * k.val + 13) + 0; omega) _) $$ [Ht0_13 Hr0_13 HB]
  · isplitl [Ht0_13]; · iexact Ht0_13
    isplitl [Hr0_13]; · iexact Hr0_13
    iexact HB
  iintro HB
  sl_exec (disch := exact Cert.Words.chk_of _ _ _ _ (hI1 _) (by decide) rfl rfl)
  iapply (issue1 d L X g5 ⟨16 * k.val + 13, by omega⟩ _ _ _ _ rfl _ _ (dstoff_eq k 13#32 (by decide)) (c1 (ix1 ⟨16 * k.val + 13, by omega⟩)) (hV1 _) (hI1 _) (lane_shr1 c1 k 13 _ (by decide) _) (lane_and1 c1 k 13 _ (by decide) _) (64 * k.val + 53) (by show 64 * k.val + 53 = 4 * (16 * k.val + 13) + 1; omega) _) $$ [Ht1_13 Hr1_13 HB]
  · isplitl [Ht1_13]; · iexact Ht1_13
    isplitl [Hr1_13]; · iexact Hr1_13
    iexact HB
  iintro HB
  sl_exec (disch := exact Cert.Words.chk_of _ _ _ _ (hI2 _) (by decide) rfl rfl)
  iapply (issue2 d L X g6 ⟨16 * k.val + 13, by omega⟩ _ _ _ _ rfl _ _ (dstoff_eq k 13#32 (by decide)) (c2 (ix1 ⟨16 * k.val + 13, by omega⟩)) (hV2 _) (hI2 _) (lane_shr2 c2 k 13 _ (by decide) _) (lane_and2 c2 k 13 _ (by decide) _) (64 * k.val + 54) (by show 64 * k.val + 54 = 4 * (16 * k.val + 13) + 2; omega) _) $$ [Ht2_13 Hr2_13 HB]
  · isplitl [Ht2_13]; · iexact Ht2_13
    isplitl [Hr2_13]; · iexact Hr2_13
    iexact HB
  iintro HB
  sl_exec (disch := exact Cert.Words.chk_of _ _ _ _ (hI3 _) (by decide) rfl rfl)
  iapply (issue3 d L X g7 ⟨16 * k.val + 13, by omega⟩ _ _ _ _ rfl _ _ (dstoff_eq k 13#32 (by decide)) (c3 (ix1 ⟨16 * k.val + 13, by omega⟩)) (hV3 _) (hI3 _) (lane_shr3 c3 k 13 _ (by decide) _) (lane_and3 c3 k 13 _ (by decide) _) (64 * k.val + 55) (by show 64 * k.val + 55 = 4 * (16 * k.val + 13) + 3; omega) _) $$ [Ht3_13 Hr3_13 HB]
  · isplitl [Ht3_13]; · iexact Ht3_13
    isplitl [Hr3_13]; · iexact Hr3_13
    iexact HB
  iintro HB
  sl_exec (disch := exact Cert.Words.chk_of _ _ _ _ (hI0 _) (by decide) rfl rfl)
  iapply (issue0 d L X g4 ⟨16 * k.val + 14, by omega⟩ _ _ _ _ rfl _ _ (dstoff_eq k 14#32 (by decide)) (c0 (ix1 ⟨16 * k.val + 14, by omega⟩)) (hV0 _) (hI0 _) (lane_shr0 c0 k 14 _ (by decide) _) (lane_and0 c0 k 14 _ (by decide) _) (64 * k.val + 56) (by show 64 * k.val + 56 = 4 * (16 * k.val + 14) + 0; omega) _) $$ [Ht0_14 Hr0_14 HB]
  · isplitl [Ht0_14]; · iexact Ht0_14
    isplitl [Hr0_14]; · iexact Hr0_14
    iexact HB
  iintro HB
  sl_exec (disch := exact Cert.Words.chk_of _ _ _ _ (hI1 _) (by decide) rfl rfl)
  iapply (issue1 d L X g5 ⟨16 * k.val + 14, by omega⟩ _ _ _ _ rfl _ _ (dstoff_eq k 14#32 (by decide)) (c1 (ix1 ⟨16 * k.val + 14, by omega⟩)) (hV1 _) (hI1 _) (lane_shr1 c1 k 14 _ (by decide) _) (lane_and1 c1 k 14 _ (by decide) _) (64 * k.val + 57) (by show 64 * k.val + 57 = 4 * (16 * k.val + 14) + 1; omega) _) $$ [Ht1_14 Hr1_14 HB]
  · isplitl [Ht1_14]; · iexact Ht1_14
    isplitl [Hr1_14]; · iexact Hr1_14
    iexact HB
  iintro HB
  sl_exec (disch := exact Cert.Words.chk_of _ _ _ _ (hI2 _) (by decide) rfl rfl)
  iapply (issue2 d L X g6 ⟨16 * k.val + 14, by omega⟩ _ _ _ _ rfl _ _ (dstoff_eq k 14#32 (by decide)) (c2 (ix1 ⟨16 * k.val + 14, by omega⟩)) (hV2 _) (hI2 _) (lane_shr2 c2 k 14 _ (by decide) _) (lane_and2 c2 k 14 _ (by decide) _) (64 * k.val + 58) (by show 64 * k.val + 58 = 4 * (16 * k.val + 14) + 2; omega) _) $$ [Ht2_14 Hr2_14 HB]
  · isplitl [Ht2_14]; · iexact Ht2_14
    isplitl [Hr2_14]; · iexact Hr2_14
    iexact HB
  iintro HB
  sl_exec (disch := exact Cert.Words.chk_of _ _ _ _ (hI3 _) (by decide) rfl rfl)
  iapply (issue3 d L X g7 ⟨16 * k.val + 14, by omega⟩ _ _ _ _ rfl _ _ (dstoff_eq k 14#32 (by decide)) (c3 (ix1 ⟨16 * k.val + 14, by omega⟩)) (hV3 _) (hI3 _) (lane_shr3 c3 k 14 _ (by decide) _) (lane_and3 c3 k 14 _ (by decide) _) (64 * k.val + 59) (by show 64 * k.val + 59 = 4 * (16 * k.val + 14) + 3; omega) _) $$ [Ht3_14 Hr3_14 HB]
  · isplitl [Ht3_14]; · iexact Ht3_14
    isplitl [Hr3_14]; · iexact Hr3_14
    iexact HB
  iintro HB
  sl_exec (disch := exact Cert.Words.chk_of _ _ _ _ (hI0 _) (by decide) rfl rfl)
  iapply (issue0 d L X g4 ⟨16 * k.val + 15, by omega⟩ _ _ _ _ rfl _ _ (dstoff_eq k 15#32 (by decide)) (c0 (ix1 ⟨16 * k.val + 15, by omega⟩)) (hV0 _) (hI0 _) (lane_shr0 c0 k 15 _ (by decide) _) (lane_and0 c0 k 15 _ (by decide) _) (64 * k.val + 60) (by show 64 * k.val + 60 = 4 * (16 * k.val + 15) + 0; omega) _) $$ [Ht0_15 Hr0_15 HB]
  · isplitl [Ht0_15]; · iexact Ht0_15
    isplitl [Hr0_15]; · iexact Hr0_15
    iexact HB
  iintro HB
  sl_exec (disch := exact Cert.Words.chk_of _ _ _ _ (hI1 _) (by decide) rfl rfl)
  iapply (issue1 d L X g5 ⟨16 * k.val + 15, by omega⟩ _ _ _ _ rfl _ _ (dstoff_eq k 15#32 (by decide)) (c1 (ix1 ⟨16 * k.val + 15, by omega⟩)) (hV1 _) (hI1 _) (lane_shr1 c1 k 15 _ (by decide) _) (lane_and1 c1 k 15 _ (by decide) _) (64 * k.val + 61) (by show 64 * k.val + 61 = 4 * (16 * k.val + 15) + 1; omega) _) $$ [Ht1_15 Hr1_15 HB]
  · isplitl [Ht1_15]; · iexact Ht1_15
    isplitl [Hr1_15]; · iexact Hr1_15
    iexact HB
  iintro HB
  sl_exec (disch := exact Cert.Words.chk_of _ _ _ _ (hI2 _) (by decide) rfl rfl)
  iapply (issue2 d L X g6 ⟨16 * k.val + 15, by omega⟩ _ _ _ _ rfl _ _ (dstoff_eq k 15#32 (by decide)) (c2 (ix1 ⟨16 * k.val + 15, by omega⟩)) (hV2 _) (hI2 _) (lane_shr2 c2 k 15 _ (by decide) _) (lane_and2 c2 k 15 _ (by decide) _) (64 * k.val + 62) (by show 64 * k.val + 62 = 4 * (16 * k.val + 15) + 2; omega) _) $$ [Ht2_15 Hr2_15 HB]
  · isplitl [Ht2_15]; · iexact Ht2_15
    isplitl [Hr2_15]; · iexact Hr2_15
    iexact HB
  iintro HB
  sl_exec (disch := exact Cert.Words.chk_of _ _ _ _ (hI3 _) (by decide) rfl rfl)
  iapply (issue3 d L X g7 ⟨16 * k.val + 15, by omega⟩ _ _ _ _ rfl _ _ (dstoff_eq k 15#32 (by decide)) (c3 (ix1 ⟨16 * k.val + 15, by omega⟩)) (hV3 _) (hI3 _) (lane_shr3 c3 k 15 _ (by decide) _) (lane_and3 c3 k 15 _ (by decide) _) (64 * k.val + 63) (by show 64 * k.val + 63 = 4 * (16 * k.val + 15) + 3; omega) _) $$ [Ht3_15 Hr3_15 HB]
  · isplitl [Ht3_15]; · iexact Ht3_15
    isplitl [Hr3_15]; · iexact Hr3_15
    iexact HB
  iintro HB
  sl_exec
  sl_step
  isplitl [HB]
  · iapply (Entails.of_eq (congrArg (fun n => batch d L X n 0) e64)) $$ HB
  isplitl [H0]; · iexact H0
  isplitl [H1]; · iexact H1
  isplitl [H2]; · iexact H2
  isplitl [H3]; · iexact H3
  iapply (Entails.of_eq (congrArg (fun n => bigSep (Ring.rangeSet 128 n 128) (fun e : Fin 128 => iprop(rowAt4 d L e g4 ∗ rowAt5 d L e g5 ∗ rowAt6 d L e g6 ∗ rowAt7 d L e g7 ∗ tok0 d L X e.val ∗ tok1 d L X e.val ∗ tok2 d L X e.val ∗ tok3 d L X e.val))) e16)) $$ Hrest

end Cert.KernelIdeal.TileGather

end
-- ==== Proof.TileBundles.lean ====
/-
  Before the first trip of the issue loop every entry still holds what its four copies need: the four row buffers are
  cut into their 128 rows, each table's read share into 128 tokens (what is left of the share after the tokens is
  let go), and the eight families are zipped entry by entry.
-/
import proofs.«206817_g64347200028782_cont_9to1_m_612_22_alg».proof.Proof.TileIssueInv
import proofs.«206817_g64347200028782_cont_9to1_m_612_22_alg».proof.Proof.TileGatherLib

noncomputable section

namespace Cert.KernelIdeal.TileGather

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes Cert.KernelIdeal.TileCore Cert.KernelIdeal.TileVals Cert.KSpec Cert.Spec
open Idealize.ShloMosaic.ValueIdx

variable [FloatOps F] (d : Dev nD) (L : grid0.Coords) (X : Tabs F)

/-- A table's read share gives one token per entry. -/
theorem toks0 : inT5 d L X ⊢ (bigSep Finset.univ fun e : Fin 128 => tok0 d L X e.val : sProp 𝕄) :=
  (Transfers.pointsTo_toks_split (rshare L) 128).trans sep_elim_right
theorem toks1 : inT6 d L X ⊢ (bigSep Finset.univ fun e : Fin 128 => tok1 d L X e.val : sProp 𝕄) :=
  (Transfers.pointsTo_toks_split (rshare L) 128).trans sep_elim_right
theorem toks2 : inT7 d L X ⊢ (bigSep Finset.univ fun e : Fin 128 => tok2 d L X e.val : sProp 𝕄) :=
  (Transfers.pointsTo_toks_split (rshare L) 128).trans sep_elim_right
theorem toks3 : inT8 d L X ⊢ (bigSep Finset.univ fun e : Fin 128 => tok3 d L X e.val : sProp 𝕄) :=
  (Transfers.pointsTo_toks_split (rshare L) 128).trans sep_elim_right

/-- The entries' bundles are the eight families side by side. -/
theorem bundles_eq (g4 g5 g6 g7 : FVec F S128x64 .f32) :
    (bigSep Finset.univ (bundle d L X g4 g5 g6 g7) : sProp 𝕄)
      = iprop((bigSep Finset.univ fun e : Fin 128 => rowAt4 d L e g4) ∗ (bigSep Finset.univ fun e : Fin 128 => rowAt5 d L e g5)
          ∗ (bigSep Finset.univ fun e : Fin 128 => rowAt6 d L e g6) ∗ (bigSep Finset.univ fun e : Fin 128 => rowAt7 d L e g7)
          ∗ (bigSep Finset.univ fun e : Fin 128 => tok0 d L X e.val) ∗ (bigSep Finset.univ fun e : Fin 128 => tok1 d L X e.val)
          ∗ (bigSep Finset.univ fun e : Fin 128 => tok2 d L X e.val) ∗ (bigSep Finset.univ fun e : Fin 128 => tok3 d L X e.val)) := by
  unfold bundle
  rw [bigSep_sep', bigSep_sep', bigSep_sep', bigSep_sep', bigSep_sep', bigSep_sep', bigSep_sep']

theorem bundles_intro (g4 g5 g6 g7 : FVec F S128x64 .f32) :
    iprop(sc4 d L g4 ∗ sc5 d L g5 ∗ sc6 d L g6 ∗ sc7 d L g7 ∗ inT5 d L X ∗ inT6 d L X ∗ inT7 d L X ∗ inT8 d L X)
      ⊢ (bigSep (Ring.rangeSet 128 (16 * 0) 128) (bundle d L X g4 g5 g6 g7) : sProp 𝕄) := by
  rw [show (16 * 0 : ℕ) = 0 from rfl, Ring.rangeSet_univ, bundles_eq, rows_eq4, rows_eq5, rows_eq6, rows_eq7]
  exact sep_mono_right (sep_mono_right (sep_mono_right (sep_mono_right
    (BIClass.sep_mono (toks0 d L X) (BIClass.sep_mono (toks1 d L X) (BIClass.sep_mono (toks2 d L X) (toks3 d L X)))))))

end Cert.KernelIdeal.TileGather

end
-- ==== Proof.TileTail.lean ====
/-
  Three facts about the end of a task's run.

  The last worker (number 31) overwrites the last row of its tails buffer with sublane 1 of the special tile before the
  rows are combined; the test it makes on its grid coordinates is true exactly for that worker. After the 128 trips of
  the row-combining loop the staging buffer holds the kernel's result on the worker's 128 rows, and the copy of the staging
  buffer onto those rows of the output array leaves the kernel's result function there.
-/
import proofs.«206817_g64347200028782_cont_9to1_m_612_22_alg».proof.Proof.TileVals
import proofs.«206817_g64347200028782_cont_9to1_m_612_22_alg».proof.Proof.TileGatherLib

noncomputable section

namespace Cert.KernelIdeal.TileTail

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.KernelIdeal.TileRes Cert.KernelIdeal.TileCore Cert.KernelIdeal.TileVals Cert.KernelIdeal.TileGather Cert.KSpec Cert.Spec
open Idealize.ShloMosaic.ValueIdx

/-! ## The last worker's test -/

/-- The word `2 s + c` of the grid point compared with 31, as the kernel computes it, is true exactly for worker 31. -/
theorem cond_iff : ∀ L : grid0.Coords,
    (Scalar.cmpi CmpIPredicate.ne (Scalar.extui (Scalar.cmpi CmpIPredicate.eq
        (Scalar.addi (Scalar.muli (BitVec.ofNat 32 (L 1).val) 2#32) (BitVec.ofNat 32 (L 0).val)) 31#32)) 0#32 = 1#1)
      ↔ 2 * (L 1).val + (L 0).val = 31 := by decide +kernel

theorem cond_iff_wid (L : grid0.Coords) :
    (Scalar.cmpi CmpIPredicate.ne (Scalar.extui (Scalar.cmpi CmpIPredicate.eq
        (Scalar.addi (Scalar.muli (BitVec.ofNat 32 (L 1).val) 2#32) (BitVec.ofNat 32 (L 0).val)) 31#32)) 0#32 = 1#1)
      ↔ wid L = 31 := cond_iff L

variable [FloatOps F]

/-! ## The special row patched into the tails buffer -/

section Patch

variable (inb : ∀ a, (![127, 0] : Fin 2 → ℕ) a + S1x64.size a ≤ S128x64.size a)
  (inb3 : ∀ a, (![0, 1, 0] : Fin 3 → ℕ) a + S1x1x64.size a ≤ S1x8x64.size a)

/-- Sublane 1 of the special tile, as a 64-entry vector. -/
abbrev srcS : Memref sig .scVector .hbm S64 .f32 :=
  ((Memref.whole main_v10_scv : Memref sig .scVector .hbm S1x8x64 .f32).slice
    (Rect.unit (s := S1x8x64) ![0, 1, 0] S1x1x64.size inb3) (fun _ => rfl)).squeeze S64 squeezes_S1x1x64_S64

omit [FloatOps F] in
theorem srcS_emb (k : Fin 64) : (srcS inb3).view.emb (ix1 k) = ix3 (0 : Fin 1) (1 : Fin 8) k := by
  show (Rect.unit (s := S1x8x64) ![0, 1, 0] S1x1x64.size inb3).emb (Shape.reshapeEquiv _ (ix1 k)) = _
  refine (congrArg (Rect.unit (s := S1x8x64) ![0, 1, 0] S1x1x64.size inb3).emb (reshape_1x1x64 _ k)).trans ?_
  funext a; apply Fin.ext
  match a with
  | ⟨0, _⟩ => show 0 + 1 * 0 = 0; omega
  | ⟨1, _⟩ => show 1 + 1 * 0 = 1; omega
  | ⟨2, _⟩ => show 0 + 1 * k.val = k.val; omega

omit [FloatOps F] in
theorem mem_row127 (idx : S128x64.Idx) : idx ∈ rowSet (127 : Fin 128) ↔ (idx 0).val = 127 := by
  unfold rowSet
  rw [Rect.mem_set_unit]
  have h0 : (idx 0).val < 128 := (idx 0).isLt
  have h1 : (idx 1).val < 64 := (idx 1).isLt
  constructor
  · intro h
    have := h 0
    have h2 : 127 ≤ (idx 0).val := this.1
    omega
  · intro h a
    match a with
    | ⟨0, _⟩ => exact ⟨by show 127 ≤ (idx 0).val; omega, by show (idx 0).val < 127 + 1; omega⟩
    | ⟨1, _⟩ => exact ⟨Nat.zero_le _, by show (idx 1).val < 0 + 64; omega⟩

/-- The copy of sublane 1 of the special tile onto the last row of a row buffer: that row becomes the sublane, the other
    rows stay. -/
theorem patch6 (T10 : FVec F S1x8x64 .f32) (G : FVec F S128x64 .f32) :
    View.write (Elt F) (dst6 ![127, 0] inb).view G (ReadAs.same.apply (View.read (Elt F) (srcS inb3).view T10)) Finset.univ
      = fun idx => if (idx 0).val = 127 then T10 (ix3 (0 : Fin 1) (1 : Fin 8) (idx 1)) else G idx := by
  funext idx
  by_cases h : (idx 0).val = 127
  · rw [if_pos h]
    have hidx : idx ∈ rowSet (127 : Fin 128) := (mem_row127 idx).mpr h
    rw [← dst6_set (127 : Fin 128) ![127, 0] inb rfl] at hidx
    obtain ⟨x, -, rfl⟩ := Finset.mem_map.mp hidx
    obtain ⟨k, rfl⟩ : ∃ k : Fin 64, x = ix1 k := ⟨x 0, eq_ix1 x⟩
    rw [View.write_emb_of_mem _ _ (Finset.mem_univ _), ReadAs.apply_same, View.read_apply, srcS_emb inb3,
      dst6_emb (127 : Fin 128) ![127, 0] inb rfl]
    rfl
  · rw [if_neg h]
    refine View.write_of_not_mem _ _ _ ?_
    rw [View.setOn_univ, dst6_set (127 : Fin 128) ![127, 0] inb rfl]
    exact fun hm => h ((mem_row127 idx).mp hm)

/-- The tails buffer as the rows are combined, whichever way the last worker's test went. -/
theorem tails_patched (L : grid0.Coords) (X : Tabs F) (c : Prop) [Decidable c] (hc : c ↔ wid L = 31) :
    (if h : c then View.write (Elt F) (dst6 ![127, 0] inb).view (G6 L X) (ReadAs.same.apply (View.read (Elt F) (srcS inb3).view X.T10)) Finset.univ
      else G6 L X) = G6' L X := by
  by_cases hcw : c
  · rw [dif_pos hcw, patch6 inb inb3]
    have hw : wid L = 31 := hc.mp hcw
    funext idx
    unfold G6'
    by_cases h127 : (idx 0).val = 127
    · rw [if_pos h127, if_pos ⟨hw, h127⟩]
    · rw [if_neg h127, if_neg (fun h => h127 h.2)]
  · rw [dif_neg hcw]
    funext idx
    unfold G6'
    rw [if_neg (fun h => hcw (hc.mpr h.1))]

end Patch

/-! ## The copy-out -/

/-- The staging buffer done on all 128 rows, copied onto the worker's rows of the output array, is the kernel's result
    function there. -/
theorem out_value (L : grid0.Coords) (X : Tabs F) (g8 : FVec F S128x192 .f32) (f₀ : FVec F S4096x192 .f32) :
    ∀ idx ∈ (outSlice L).view.set,
      View.write (Elt F) (outSlice L).view f₀ (ReadAs.same.apply
        (View.read (Elt F) (Memref.whole cc0_scratch8 : Memref sig .scVector .vmem S128x192 .f32).view (R8 L X g8 128))) Finset.univ idx
        = X.out idx := by
  intro idx hidx
  obtain ⟨x, -, rfl⟩ := Finset.mem_map.mp hidx
  rw [View.write_emb_of_mem _ _ (Finset.mem_univ _), ReadAs.apply_same, View.read_whole]
  have hx0 : (x 0).val < 128 := (x 0).isLt
  have hL0 : (L 0).val < 2 := (L 0).isLt
  have hL1 : (L 1).val < 16 := (L 1).isLt
  have e0 : (outSlice L).view.emb x 0 = rowOfEntry L (x 0) := by
    apply Fin.ext
    show (k0_off148 L) 0 + 1 * (x 0).val = base L + (x 0).val
    rw [k0_off148_eq]
    show 256 * (L 1).val + 128 * (L 0).val + 1 * (x 0).val = base L + (x 0).val
    unfold base wid; omega
  have e1 : (outSlice L).view.emb x 1 = x 1 := by
    apply Fin.ext
    show (k0_off148 L) 1 + 1 * (x 1).val = (x 1).val
    rw [k0_off148_eq]
    show 0 + 1 * (x 1).val = (x 1).val
    omega
  show R8 L X g8 128 x = Kat X.T5 X.T6 X.T7 X.T8 X.T10 X.I0 X.I1 X.I3 X.I4 ((outSlice L).view.emb x 0) ((outSlice L).view.emb x 1)
  rw [e0, e1]
  unfold R8
  rw [if_pos hx0]

end Cert.KernelIdeal.TileTail

end
-- ==== Proof.TileCore.lean ====
/-
  One task's run, from its named resources: the four index lists copied in, the gather issued and drained, the special
  row patched in on the last worker, the rows combined, the staging buffer copied out.
-/
import proofs.«206817_g64347200028782_cont_9to1_m_612_22_alg».proof.Proof.TileDrain
import proofs.«206817_g64347200028782_cont_9to1_m_612_22_alg».proof.Proof.TileRows
import proofs.«206817_g64347200028782_cont_9to1_m_612_22_alg».proof.Proof.TileIssueLoop
import proofs.«206817_g64347200028782_cont_9to1_m_612_22_alg».proof.Proof.TileBundles
import proofs.«206817_g64347200028782_cont_9to1_m_612_22_alg».proof.Proof.TileTail

set_option pp.maxSteps 6000
set_option pp.deepTerms false

noncomputable section

namespace Cert.KernelIdeal.TileCore

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.KernelIdeal.TileRes Cert.KernelIdeal.TileVals Cert.KernelIdeal.TileGather Cert.KernelIdeal.TileRows Cert.KSpec Cert.Spec
open Idealize.ShloMosaic.ValueIdx

variable [FloatOps F]

theorem t1_trips : k0_t1_loop.trips = 8 := by decide +kernel
theorem t3_trips : k0_t3_loop.trips = 128 := by decide +kernel

/-- Before any row is combined the staging buffer is as it was. -/
theorem R8_zero (L : grid0.Coords) (X : Tabs F) (g8 : FVec F S128x192 .f32) : R8 L X g8 0 = g8 := by
  funext idx; unfold R8; rw [if_neg (Nat.not_lt_zero _)]

/-- The tails buffer after the guarded patch is the buffer the rows are combined from. -/
theorem tails_key (d : Dev nD) (L : grid0.Coords) (X : Tabs F) (c : Prop) [Decidable c] (hc : c ↔ wid L = 31) (inb) (inb3) :
    (((Memref.whole cc0_scratch6 : Memref sig .scVector .vmem S128x64 .f32).view.loc (thr d L) ↦{fullShare}
        (if h : c then View.write (Elt F) (dst6 ![127, 0] inb).view (G6 L X)
            (ReadAs.same.apply (View.read (Elt F) (Cert.KernelIdeal.TileTail.srcS inb3).view X.T10)) Finset.univ else G6 L X)) : sProp 𝕄)
      ⊢ sc6 d L (G6' L X) := by
  rw [Cert.KernelIdeal.TileTail.tails_patched inb inb3 L X c hc]

/-- A thread's recorded waits, packed with a property every one of them has. -/
theorem owes_ex (t : Thread nD τ) (O : CellTallies nD τ sig (HIx 1)) (Wf : Waits sig (HIx 1)) (P : SemLoc sig × HIx 1 → Prop) (h : ∀ p ∈ Wf, P p) :
    (owes t O Wf : sProp 𝕄) ⊢ iprop(∃ W', ⌜∀ p ∈ W', P p⌝ ∗ owes t O W') := by
  iintro HO; iexists Wf; isplitr
  · ipureintro; exact h
  · iexact HO

/-- The waits a guarded copy and one more copy add are waits at no index. -/
theorem waits_ok (c : Prop) [Decidable c] (x y : SemLoc sig × HIx 1) (hx : x.2 = none) (hy : y.2 = none) (W W1 : Waits sig (HIx 1))
    (hW1 : ∀ p ∈ W1, p ∈ W ∨ p.2 = none) : ∀ p ∈ insert x (if _h : c then insert y W1 else W1), p ∈ W ∨ p.2 = none := by
  intro p hp
  rcases Finset.mem_insert.mp hp with rfl | hp
  · exact .inr hx
  · split at hp
    · rcases Finset.mem_insert.mp hp with rfl | hp
      · exact .inr hy
      · exact hW1 p hp
    · exact hW1 p hp

set_option maxHeartbeats 4000000 in
theorem body_core [∀ e, Nonempty (Elt F e)] (X : Tabs F) (hX : Cert.KSpec.ListsInRange X.I0 X.I1 X.I3 X.I4) : BodyCore X := by
  intro d L f₀ O W g0 g1 g2 g3 g4 g5 g6 g7 g8
  unfold kernelAt
  simp only [cc0__emb_kernel_eq_skeleton]; unfold cc0__emb_kernel_skel
  simp only [k0_part24_eq_skeleton]; unfold k0_part24_skel
  iintro ⟨Hmw, HT5, HT6, HT7, HT8, HT10, HI0, HI1, HI3, HI4, Hout, H0, H1, H2, H3, H4, H5, H6, H7, H8, Hs9, Hr0, Hr1, Hr2, Hr3, Hr4, Hr5, HO⟩
  sl_exec
  generalize hc0 : View.write (Elt F) (Memref.whole cc0_scratch0 : Memref sig .scVector .vmem S128 .i32).view g0 _ Finset.univ = c0
  generalize hc1 : View.write (Elt F) (Memref.whole cc0_scratch1 : Memref sig .scVector .vmem S128 .i32).view g1 _ Finset.univ = c1
  generalize hc2 : View.write (Elt F) (Memref.whole cc0_scratch2 : Memref sig .scVector .vmem S128 .i32).view g2 _ Finset.univ = c2
  generalize hc3 : View.write (Elt F) (Memref.whole cc0_scratch3 : Memref sig .scVector .vmem S128 .i32).view g3 _ Finset.univ = c3
  have hV0 : ∀ e : Fin 128, c0 (ix1 e) = X.I0 (ix1 (rowOfEntry L e)) := by intro e; rw [← hc0]; exact idx_copy0 L X.I0 g0 e
  have hV1 : ∀ e : Fin 128, c1 (ix1 e) = X.I1 (ix1 (rowOfEntry L e)) := by intro e; rw [← hc1]; exact idx_copy1 L X.I1 g1 e
  have hV2 : ∀ e : Fin 128, c2 (ix1 e) = X.I3 (ix1 (rowOfEntry L e)) := by intro e; rw [← hc2]; exact idx_copy2 L X.I3 g2 e
  have hV3 : ∀ e : Fin 128, c3 (ix1 e) = X.I4 (ix1 (rowOfEntry L e)) := by intro e; rw [← hc3]; exact idx_copy3 L X.I4 g3 e
  have hI0 : ∀ i, (c0 i).toNat < 100000 := by intro i; obtain ⟨e, rfl⟩ : ∃ e : Fin 128, i = ix1 e := ⟨i 0, eq_ix1 i⟩; rw [hV0]; exact hX.h _
  have hI1 : ∀ i, (c1 i).toNat < 200 := by intro i; obtain ⟨e, rfl⟩ : ∃ e : Fin 128, i = ix1 e := ⟨i 0, eq_ix1 i⟩; rw [hV1]; exact hX.r _
  have hI2 : ∀ i, (c2 i).toNat < 100000 := by intro i; obtain ⟨e, rfl⟩ : ∃ e : Fin 128, i = ix1 e := ⟨i 0, eq_ix1 i⟩; rw [hV2]; exact hX.t _
  have hI3 : ∀ i, (c3 i).toNat < 10000 := by intro i; obtain ⟨e, rfl⟩ : ∃ e : Fin 128, i = ix1 e := ⟨i 0, eq_ix1 i⟩; rw [hV3]; exact hX.n _
  -- the gather's batch, and the entries' rows and read tokens
  imod (Transfers.batch_alloc' (EC (F := F)) (thr d L) (none : HIx 1) NN (D4 d L X) (sm := SemLoc.dma cc0_scratch9.sem) (E := Set.univ)) $$ Hs9 with HB
  ihave Hb := (bundles_intro d L X g4 g5 g6 g7) $$ [H4 H5 H6 H7 HT5 HT6 HT7 HT8]
  · isplitl [H4]; · iexact H4
    isplitl [H5]; · iexact H5
    isplitl [H6]; · iexact H6
    isplitl [H7]; · iexact H7
    isplitl [HT5]; · iexact HT5
    isplitl [HT6]; · iexact HT6
    isplitl [HT7]; · iexact HT7
    iexact HT8
  simp only [bind_assoc]
  sl_for (issueInv d L X c0 c1 c2 c3 g4 g5 g6 g7) $$ [HB H0 H1 H2 H3 Hb]
  case region =>
    intro k acc
    exact issue_step d L X c0 c1 c2 c3 g4 g5 g6 g7 hV0 hV1 hV2 hV3 hI0 hI1 hI2 hI3 k acc
  · unfold issueInv
    isplitl [HB]; · iexact HB
    isplitl [H0]; · iexact H0
    isplitl [H1]; · iexact H1
    isplitl [H2]; · iexact H2
    isplitl [H3]; · iexact H3
    iexact Hb
  iintro %acc HI
  ihave HI' := (show issueInv d L X c0 c1 c2 c3 g4 g5 g6 g7 k0_t1_loop.trips acc ⊢ iprop(batch d L X 512 0 ∗ sc0 d L c0 ∗ sc1 d L c1 ∗ sc2 d L c2 ∗ sc3 d L c3) from by
      unfold issueInv; rw [t1_trips]
      iintro ⟨HB, H0, H1, H2, H3, -⟩
      isplitl [HB]; · iexact HB
      isplitl [H0]; · iexact H0
      isplitl [H1]; · iexact H1
      isplitl [H2]; · iexact H2
      iexact H3) $$ HI
  icases HI' with ⟨HB, H0, H1, H2, H3⟩
  sl_for (drainInv d L X O W) $$ [HB HO Hmw]
  case region =>
    intro k acc
    exact drain_step d L X O W k acc
  · unfold drainInv
    rw [if_pos (by decide : 0 < 128)]
    isplitr; · ipureintro; omega
    isplitl [Hmw]; · iexact Hmw
    isplitl [HO]
    · iexists (insert (SemLoc.dma cc0_scoped3.sem, (default : HIx 1)) (insert (SemLoc.dma cc0_scoped2.sem, (default : HIx 1)) (insert (SemLoc.dma cc0_scoped1.sem, (default : HIx 1)) (insert (SemLoc.dma cc0_scoped0.sem, (default : HIx 1)) W)))); isplitr
      · ipureintro; intro p hp
        simp only [Finset.mem_insert] at hp
        rcases hp with rfl | rfl | rfl | rfl | hp
        · exact .inr rfl
        · exact .inr rfl
        · exact .inr rfl
        · exact .inr rfl
        · exact .inl hp
      · iexact HO
    rw [show 4 * 0 * NN = 0 from rfl]
    iexact HB
  iintro %acc2 HL
  ihave HL' := (show drainInv d L X O W k0_t2_loop.trips acc2 ⊢ iprop(Transfers.MayWaits (thr d L) (none : HIx 1) O
        ∗ (∃ W', ⌜∀ p ∈ W', p ∈ W ∨ p.2 = none⌝ ∗ owes (thr d L) O W') ∗ semVal (cell d L cc0_scratch9) 0 ∗ bigSep Finset.univ (D4 d L X)) from by
      unfold drainInv; rw [t2_trips, if_neg (Nat.lt_irrefl _)]
      iintro ⟨-, Hmw, HO, Hc, Hall⟩
      isplitl [Hmw]; · iexact Hmw
      isplitl [HO]; · iexact HO
      isplitl [Hc] <;> iassumption) $$ HL
  icases HL' with ⟨Hmw, ⟨%W1, %hW1, HO⟩, Hs9, Hall⟩
  ihave Hj := (deliveries_join d L X) $$ Hall
  icases Hj with ⟨H4, H5, H6, H7⟩
  -- the last worker patches the special row into the tails buffer
  sl_exec
  ihave H6' : sc6 d L (G6' L X) $$ [H6]
  · iapply (tails_key d L X _ (Cert.KernelIdeal.TileTail.cond_iff_wid L) inb_S128x64_S1x64_127_0 inb_S1x8x64_S1x1x64_0_1_0)
    iexact H6
  -- the rows combined
  sl_for (rowInv d L X g8) $$ [H4 H5 H6' H7 H8]
  case region =>
    intro k acc
    exact row_step d L X g8 k acc
  · unfold rowInv
    isplitl [H4]; · iexact H4
    isplitl [H5]; · iexact H5
    isplitl [H6']; · iexact H6'
    isplitl [H7]; · iexact H7
    rw [R8_zero]; iexact H8
  iintro %acc3 HR
  ihave HR' := (show rowInv d L X g8 k0_t3_loop.trips acc3 ⊢ iprop(sc4 d L (G4 L X) ∗ sc5 d L (G5 L X) ∗ sc6 d L (G6' L X) ∗ sc7 d L (G7 L X) ∗ sc8 d L (R8 L X g8 128)) from by
      unfold rowInv; rw [t3_trips]) $$ HR
  icases HR' with ⟨H4, H5, H6, H7, H8⟩
  -- the staging buffer copied out
  sl_exec
  sl_step
  isplitl [Hout]
  · have hw : (outSlice L).view.writes (Elt F) (f₀ : Buf (Elt F) ((outSlice L).view.loc (thr d L)))
        [⟨Rect.whole S128x192, ReadAs.same.apply (View.read (Elt F) (Memref.whole cc0_scratch8 : Memref sig .scVector .vmem S128x192 .f32).view (R8 L X g8 128))⟩]
        = (outSlice L).view.write (Elt F) f₀ (ReadAs.same.apply (View.read (Elt F) (Memref.whole cc0_scratch8 : Memref sig .scVector .vmem S128x192 .f32).view (R8 L X g8 128))) Finset.univ := by
      rw [← View.write_univ_eq_writes_whole, View.writes_nil]
    iapply (Entails.of_eq (pointsTo_congr (ℓ := (outSlice L).view.loc (thr d L)) (q := fullShare)
      (fun idx h => (congrFun hw idx).trans (Cert.KernelIdeal.TileTail.out_value L X g8 f₀ idx h))))
    iexact Hout
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [Hs9]; · iexact Hs9
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  iapply (owes_ex (thr d L) O _ (fun p => p ∈ W ∨ p.2 = none) ?hfin) $$ HO
  case hfin => exact waits_ok _ _ _ rfl rfl W W1 hW1

end Cert.KernelIdeal.TileCore

end
-- ==== Proof.BTile.lean ====
/-
  The SparseCore call as the launch theorem sees it, and what one vector subcore's task is handed and hands back.

  The call runs on 2 SparseCores × 16 vector subcores. Worker `(c, s)` has number `2 s + c` and owns rows
  `128 (2 s + c) … 128 (2 s + c) + 127` of the 4096 × 192 output. Every worker reads the nine input arrays (five
  tables, four index lists) and writes only its own 128 output rows. So a task is handed a read share of each of the
  nine arrays and its 128 output rows outright, and hands back those rows holding the kernel's result function there.
-/
import proofs.«206817_g64347200028782_cont_9to1_m_612_22_alg».proof.Kernel
import proofs.«206817_g64347200028782_cont_9to1_m_612_22_alg».proof.Proof.Gen.Kernel
import proofs.«206817_g64347200028782_cont_9to1_m_612_22_alg».proof.Proof.Gen.Kernel.Skeleton
import proofs.«206817_g64347200028782_cont_9to1_m_612_22_alg».proof.Proof.KSpec
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev t5Loc (d : Dev nD) : Loc nD τ sig := (SparseCore.T d).loc main_v5
abbrev t6Loc (d : Dev nD) : Loc nD τ sig := (SparseCore.T d).loc main_v6
abbrev t7Loc (d : Dev nD) : Loc nD τ sig := (SparseCore.T d).loc main_v7
abbrev t8Loc (d : Dev nD) : Loc nD τ sig := (SparseCore.T d).loc main_v8
abbrev t10Loc (d : Dev nD) : Loc nD τ sig := (SparseCore.T d).loc main_v10
abbrev i0Loc (d : Dev nD) : Loc nD τ sig := (SparseCore.T d).loc main_v0
abbrev i1Loc (d : Dev nD) : Loc nD τ sig := (SparseCore.T d).loc main_v1
abbrev i3Loc (d : Dev nD) : Loc nD τ sig := (SparseCore.T d).loc main_v3
abbrev i4Loc (d : Dev nD) : Loc nD τ sig := (SparseCore.T d).loc main_v4
abbrev oLoc (d : Dev nD) : Loc nD τ sig := (SparseCore.T d).loc main_v11

/-- The contents of the nine arrays the kernel reads. -/
structure Tabs (F : FTy → Type) where
  T5 : FVec F S12500x8x64 .f32
  T6 : FVec F S25x8x64 .f32
  T7 : FVec F S12500x8x64 .f32
  T8 : FVec F S1250x8x64 .f32
  T10 : FVec F S1x8x64 .f32
  I0 : IVec S4096 32
  I1 : IVec S4096 32
  I3 : IVec S4096 32
  I4 : IVec S4096 32

variable [FloatOps F]

/-- The kernel's result function of those contents. -/
def Tabs.out (X : Tabs F) : FVec F S4096x192 .f32 := Cert.KSpec.Kout X.T5 X.T6 X.T7 X.T8 X.T10 X.I0 X.I1 X.I3 X.I4

abbrev oV : Memref sig .scVector .hbm S4096x192 .f32 := Memref.whole main_v11_scv

/-- Worker `L`'s rows of the output, as the kernel slices them. -/
abbrev outRect (L : grid0.Coords) : Rect S4096x192 := Rect.unit (s := S4096x192) (k0_off148 L) S128x192.size (k0_off148_inb L)
abbrev outSlice (L : grid0.Coords) : Memref sig .scVector .hbm S128x192 .f32 := (oV).slice (outRect L) (fun _ => rfl)
abbrev outRows (L : grid0.Coords) : Finset S4096x192.Idx := (outSlice L).view.set

/-- The grid point of worker `(c, s)`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The read share worker `L` holds of each input array: the call's share cut in two for the SparseCores, each half in
    sixteen for its vector subcores. -/
def rshare (L : grid0.Coords) : PosShare TreeShare :=
  Transfers.shareTokN (Transfers.shareTokN fullShare (L 0).val) (L 1).val

section
variable (d : Dev nD) (L : grid0.Coords) (X : Tabs F)

/-- What worker `L`'s task is handed: a read share of the nine arrays at contents `X`, its output rows at `f₀`. -/
def tileIn (f₀ : FVec F S4096x192 .f32) : sProp 𝕄 :=
  iprop((t5Loc d ↦{rshare L} (X.T5 : Buf (Elt F) (t5Loc d))) ∗ (t6Loc d ↦{rshare L} (X.T6 : Buf (Elt F) (t6Loc d)))
    ∗ (t7Loc d ↦{rshare L} (X.T7 : Buf (Elt F) (t7Loc d))) ∗ (t8Loc d ↦{rshare L} (X.T8 : Buf (Elt F) (t8Loc d)))
    ∗ (t10Loc d ↦{rshare L} (X.T10 : Buf (Elt F) (t10Loc d)))
    ∗ (i0Loc d ↦{rshare L} (X.I0 : Buf (Elt F) (i0Loc d))) ∗ (i1Loc d ↦{rshare L} (X.I1 : Buf (Elt F) (i1Loc d)))
    ∗ (i3Loc d ↦{rshare L} (X.I3 : Buf (Elt F) (i3Loc d))) ∗ (i4Loc d ↦{rshare L} (X.I4 : Buf (Elt F) (i4Loc d)))
    ∗ (oLoc d ↦[outRows L]{fullShare} (f₀ : Buf (Elt F) (oLoc d))))

/-- What it hands back: its output rows holding the kernel's result function. -/
def tileOut : sProp 𝕄 := oLoc d ↦[outRows L]{fullShare} (X.out : Buf (Elt F) (oLoc d))

end

/-- The kernel function on worker `L`, called as the body table calls it. -/
abbrev kernelAt (L : grid0.Coords) :=
  cc0__emb_kernel (F := F) L (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v10_scv) (Memref.isWhole_whole _) (Memref.whole main_v0_scv) (Memref.isWhole_whole _) (Memref.whole main_v1_scv) (Memref.isWhole_whole _) (Memref.whole main_v3_scv) (Memref.isWhole_whole _) (Memref.whole main_v4_scv) (Memref.isWhole_whole _) (Memref.whole main_v11_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scoped0 cc0_scoped1 cc0_scoped2 cc0_scoped3 cc0_scoped4 cc0_scoped5

/-- One task, run: from what it is handed and the vector subcore's own scratch and semaphores to what it hands back,
    for index lists that name rows inside the tables. -/
def TileBody (X : Tabs F) : Prop :=
  ∀ (d : Dev nD) (L : grid0.Coords) (f₀ : FVec F S4096x192 .f32) (O : CellTallies nD τ sig (HIx 1)) (W : Waits sig (HIx 1)), (∀ g, O g none = 0) →
    iprop(levAts (K (F := F)).L (K (F := F)).lev ∗ emp ∗ tileIn d L X f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (kernelAt (F := F) L)
          fun _ => iprop(tileOut d L X ∗ scopedBufs (V d (cV L) (jV L)) ∗ scopedSems0 (V d (cV L) (jV L))
            ∗ ∃ W', ⌜∀ p ∈ W', p ∈ W ∨ p.2 = none⌝ ∗ owes (V d (cV L) (jV L)) O W')

end Cert.Kernel.Tile

end
-- ==== Proof.BLaunchHost.lean ====
/-
  The host operations of @main that stand before the SparseCore call: the straight line they form, the buffers the
  TensorCore holds while they run, and what each buffer holds once they have run — the argument arrays untouched,
  the nine arrays the call reads as pure terms of the arguments, the call's result array as the launch left it.
-/
import proofs.«206817_g64347200028782_cont_9to1_m_612_22_alg».proof.Kernel
import proofs.«206817_g64347200028782_cont_9to1_m_612_22_alg».proof.Proof.Gen.Kernel
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Launch

open Cert.Kernel Cert.Kernel.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The host operations of @main before the call, in program order. -/
def hostOps : List (HloOp τ sig (Elt F)) :=
  [ StableHlo.binary main_arg5 main_arg9 main_v0 ((fun a b => concatenate S4096 0 [⟨S4095, a⟩, ⟨S1, b⟩] concatenates_S4095_S1_S4096_d0) : (⟨S4095, .i32⟩ : BufTy).Contents (Elt F) → (⟨S1, .i32⟩ : BufTy).Contents (Elt F) → (⟨S4096, .i32⟩ : BufTy).Contents (Elt F)),
    StableHlo.binary main_arg6 main_arg10 main_v1 ((fun a b => concatenate S4096 0 [⟨S4095, a⟩, ⟨S1, b⟩] concatenates_S4095_S1_S4096_d0) : (⟨S4095, .i32⟩ : BufTy).Contents (Elt F) → (⟨S1, .i32⟩ : BufTy).Contents (Elt F) → (⟨S4096, .i32⟩ : BufTy).Contents (Elt F)),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.binary main_arg7 main_v2 main_v3 ((fun a b => concatenate S4096 0 [⟨S4095, a⟩, ⟨S1, b⟩] concatenates_S4095_S1_S4096_d0) : (⟨S4095, .i32⟩ : BufTy).Contents (Elt F) → (⟨S1, .i32⟩ : BufTy).Contents (Elt F) → (⟨S4096, .i32⟩ : BufTy).Contents (Elt F)),
    StableHlo.binary main_arg8 main_arg11 main_v4 ((fun a b => concatenate S4096 0 [⟨S4095, a⟩, ⟨S1, b⟩] concatenates_S4095_S1_S4096_d0) : (⟨S4095, .i32⟩ : BufTy).Contents (Elt F) → (⟨S1, .i32⟩ : BufTy).Contents (Elt F) → (⟨S4096, .i32⟩ : BufTy).Contents (Elt F)),
    StableHlo.reshape main_arg0 main_v5 rfl shapeCasts_S100000x64_S12500x8x64,
    StableHlo.reshape main_arg1 main_v6 rfl shapeCasts_S200x64_S25x8x64,
    StableHlo.reshape main_arg2 main_v7 rfl shapeCasts_S100000x64_S12500x8x64,
    StableHlo.reshape main_arg3 main_v8 rfl shapeCasts_S10000x64_S1250x8x64,
    StableHlo.nullary main_c_0 (constantI S_ 32 0#32),
    StableHlo.TRef.unary (StableHlo.TRef.of main_c_0 : StableHlo.TRef sig ⟨S_, .i32⟩) main_call0.v0 (sitofp .f32),
    StableHlo.TRef.binary (StableHlo.TRef.of main_arg4 : StableHlo.TRef sig ⟨S2x64, .f32⟩) main_call0.v0 main_call0.v1 (fun x v => pad S8x64 ![0, 0] ![6, 0] ![0, 0] x v pads_S2x64_S8x64_060_000 h_S_),
    StableHlo.reshape main_v9 main_v10 rfl shapeCasts_S8x64_S1x8x64 ]

theorem main_eq (d : Dev nD) : main (F := F) d = StableHlo.seq (hostOps (F := F)) >>= fun _ => (sc (F := F)).run d 0 >>= fun _ => pure ⟨⟩ := rfl

theorem hostOps_sub : ∀ op ∈ hostOps (F := F), op.bufs ⊆ StableHlo.tcRefs τ sig :=
  List.forall_mem_cons.2 ⟨StableHlo.binary_bufs_sub _ _ _ _ _ _ _, List.forall_mem_cons.2 ⟨StableHlo.binary_bufs_sub _ _ _ _ _ _ _, List.forall_mem_cons.2 ⟨StableHlo.nullary_bufs_sub _ _ _, List.forall_mem_cons.2 ⟨StableHlo.unary_bufs_sub _ _ _ _ _, List.forall_mem_cons.2 ⟨StableHlo.binary_bufs_sub _ _ _ _ _ _ _, List.forall_mem_cons.2 ⟨StableHlo.binary_bufs_sub _ _ _ _ _ _ _, List.forall_mem_cons.2 ⟨StableHlo.reshape_bufs_sub _ _ _ _ _ _, List.forall_mem_cons.2 ⟨StableHlo.reshape_bufs_sub _ _ _ _ _ _, List.forall_mem_cons.2 ⟨StableHlo.reshape_bufs_sub _ _ _ _ _ _, List.forall_mem_cons.2 ⟨StableHlo.reshape_bufs_sub _ _ _ _ _ _, List.forall_mem_cons.2 ⟨StableHlo.nullary_bufs_sub _ _ _, List.forall_mem_cons.2 ⟨StableHlo.unary_bufs_sub _ _ _ _ _, List.forall_mem_cons.2 ⟨StableHlo.binary_bufs_sub _ _ _ _ _ _ _, List.forall_mem_cons.2 ⟨StableHlo.reshape_bufs_sub _ _ _ _ _ _, fun _ h => absurd h List.not_mem_nil⟩⟩⟩⟩⟩⟩⟩⟩⟩⟩⟩⟩⟩⟩

theorem hostOps_fresh : ∀ op ∈ hostOps (F := F), op.fresh = ∅ :=
  List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, fun _ h => absurd h List.not_mem_nil⟩⟩⟩⟩⟩⟩⟩⟩⟩⟩⟩⟩⟩⟩

variable (m : (ℓ : Loc nD τ sig) → Buf (Elt F) ℓ)

/-- The launch memory as device `d`'s buffer contents. -/
def V0 (d : Dev nD) : Valuation τ sig (Elt F) := fun b => m (d, b)

local notation "𝕄" => MT nD τ sig (SparseCore.Cfg.HIx 1) (Elt F) ℕ (URounds (GSem nD τ sig) ℕ × Counters) ℕ

omit [FloatOps F] in
theorem refs_univ : (Finset.univ : Finset (Ref sig .tc)) = {main_arg0, main_arg1, main_arg2, main_arg3, main_arg4, main_arg5, main_arg6, main_arg7, main_arg8, main_arg9, main_arg10, main_arg11, main_v0, main_v1, main_c, main_v2, main_v3, main_v4, main_v5, main_v6, main_v7, main_v8, main_c_0, main_call0_v0, main_v9, main_v10, main_v11} := by decide

set_option maxHeartbeats 4000000 in
omit [FloatOps F] in
/-- The TensorCore's buffers held whole, one by one. -/
theorem held_list (d : Dev nD) (W : Valuation τ sig (Elt F)) :
    (StableHlo.held (SparseCore.T d) (StableHlo.tcRefs τ sig) W : sProp 𝕄)
      = iprop(((SparseCore.T d).loc main_arg0 ↦{fullShare} W (Proc.devRef .tc main_arg0))
      ∗ ((SparseCore.T d).loc main_arg1 ↦{fullShare} W (Proc.devRef .tc main_arg1))
      ∗ ((SparseCore.T d).loc main_arg2 ↦{fullShare} W (Proc.devRef .tc main_arg2))
      ∗ ((SparseCore.T d).loc main_arg3 ↦{fullShare} W (Proc.devRef .tc main_arg3))
      ∗ ((SparseCore.T d).loc main_arg4 ↦{fullShare} W (Proc.devRef .tc main_arg4))
      ∗ ((SparseCore.T d).loc main_arg5 ↦{fullShare} W (Proc.devRef .tc main_arg5))
      ∗ ((SparseCore.T d).loc main_arg6 ↦{fullShare} W (Proc.devRef .tc main_arg6))
      ∗ ((SparseCore.T d).loc main_arg7 ↦{fullShare} W (Proc.devRef .tc main_arg7))
      ∗ ((SparseCore.T d).loc main_arg8 ↦{fullShare} W (Proc.devRef .tc main_arg8))
      ∗ ((SparseCore.T d).loc main_arg9 ↦{fullShare} W (Proc.devRef .tc main_arg9))
      ∗ ((SparseCore.T d).loc main_arg10 ↦{fullShare} W (Proc.devRef .tc main_arg10))
      ∗ ((SparseCore.T d).loc main_arg11 ↦{fullShare} W (Proc.devRef .tc main_arg11))
      ∗ ((SparseCore.T d).loc main_v0 ↦{fullShare} W (Proc.devRef .tc main_v0))
      ∗ ((SparseCore.T d).loc main_v1 ↦{fullShare} W (Proc.devRef .tc main_v1))
      ∗ ((SparseCore.T d).loc main_c ↦{fullShare} W (Proc.devRef .tc main_c))
      ∗ ((SparseCore.T d).loc main_v2 ↦{fullShare} W (Proc.devRef .tc main_v2))
      ∗ ((SparseCore.T d).loc main_v3 ↦{fullShare} W (Proc.devRef .tc main_v3))
      ∗ ((SparseCore.T d).loc main_v4 ↦{fullShare} W (Proc.devRef .tc main_v4))
      ∗ ((SparseCore.T d).loc main_v5 ↦{fullShare} W (Proc.devRef .tc main_v5))
      ∗ ((SparseCore.T d).loc main_v6 ↦{fullShare} W (Proc.devRef .tc main_v6))
      ∗ ((SparseCore.T d).loc main_v7 ↦{fullShare} W (Proc.devRef .tc main_v7))
      ∗ ((SparseCore.T d).loc main_v8 ↦{fullShare} W (Proc.devRef .tc main_v8))
      ∗ ((SparseCore.T d).loc main_c_0 ↦{fullShare} W (Proc.devRef .tc main_c_0))
      ∗ ((SparseCore.T d).loc main_call0_v0 ↦{fullShare} W (Proc.devRef .tc main_call0_v0))
      ∗ ((SparseCore.T d).loc main_v9 ↦{fullShare} W (Proc.devRef .tc main_v9))
      ∗ ((SparseCore.T d).loc main_v10 ↦{fullShare} W (Proc.devRef .tc main_v10))
      ∗ ((SparseCore.T d).loc main_v11 ↦{fullShare} W (Proc.devRef .tc main_v11))) := by
  unfold StableHlo.held StableHlo.tcRefs
  rw [bigSep_map, refs_univ]
  iterate 26 rw [SparseCore.bigSep_insert' (by decide +kernel)]
  rw [bigSep_singleton]
  rfl

omit [FloatOps F] in
/-- What the launch deals the TensorCore of its arrays is all of them, whole. -/
theorem unscoped_held (d : Dev nD) :
    (unscopedBufs d (fun b => m ((SparseCore.T d).loc b)) : sProp 𝕄) = StableHlo.held (SparseCore.T d) (StableHlo.tcRefs τ sig) (V0 m d) := by
  unfold unscopedBufs StableHlo.held StableHlo.tcRefs
  rw [bigSep_map, show (Finset.univ.filter fun b : Ref sig .tc => ¬ b.isScoped) = Finset.univ by decide]
  rfl

theorem after_main_v5 (d : Dev nD) :
    StableHlo.after (hostOps (F := F)) (V0 m d) (Proc.devRef .tc main_v5) = (shapeCast S12500x8x64 (V0 m d (Proc.devRef .tc main_arg0)) shapeCasts_S100000x64_S12500x8x64 : (main_v5 : Ref sig .tc).ty.Contents (Elt F)) := by
  unfold hostOps; after_results <;> rfl
theorem after_main_v6 (d : Dev nD) :
    StableHlo.after (hostOps (F := F)) (V0 m d) (Proc.devRef .tc main_v6) = (shapeCast S25x8x64 (V0 m d (Proc.devRef .tc main_arg1)) shapeCasts_S200x64_S25x8x64 : (main_v6 : Ref sig .tc).ty.Contents (Elt F)) := by
  unfold hostOps; after_results <;> rfl
theorem after_main_v7 (d : Dev nD) :
    StableHlo.after (hostOps (F := F)) (V0 m d) (Proc.devRef .tc main_v7) = (shapeCast S12500x8x64 (V0 m d (Proc.devRef .tc main_arg2)) shapeCasts_S100000x64_S12500x8x64 : (main_v7 : Ref sig .tc).ty.Contents (Elt F)) := by
  unfold hostOps; after_results <;> rfl
theorem after_main_v8 (d : Dev nD) :
    StableHlo.after (hostOps (F := F)) (V0 m d) (Proc.devRef .tc main_v8) = (shapeCast S1250x8x64 (V0 m d (Proc.devRef .tc main_arg3)) shapeCasts_S10000x64_S1250x8x64 : (main_v8 : Ref sig .tc).ty.Contents (Elt F)) := by
  unfold hostOps; after_results <;> rfl
theorem after_main_v10 (d : Dev nD) :
    StableHlo.after (hostOps (F := F)) (V0 m d) (Proc.devRef .tc main_v10) = (shapeCast S1x8x64 (pad S8x64 ![0, 0] ![6, 0] ![0, 0] (V0 m d (Proc.devRef .tc main_arg4)) (sitofp .f32 (constantI S_ 32 0#32)) pads_S2x64_S8x64_060_000 h_S_) shapeCasts_S8x64_S1x8x64 : (main_v10 : Ref sig .tc).ty.Contents (Elt F)) := by
  unfold hostOps; after_results <;> rfl
theorem after_main_v0 (d : Dev nD) :
    StableHlo.after (hostOps (F := F)) (V0 m d) (Proc.devRef .tc main_v0) = (concatenate S4096 0 [⟨S4095, V0 m d (Proc.devRef .tc main_arg5)⟩, ⟨S1, V0 m d (Proc.devRef .tc main_arg9)⟩] concatenates_S4095_S1_S4096_d0 : (main_v0 : Ref sig .tc).ty.Contents (Elt F)) := by
  unfold hostOps; after_results <;> rfl
theorem after_main_v1 (d : Dev nD) :
    StableHlo.after (hostOps (F := F)) (V0 m d) (Proc.devRef .tc main_v1) = (concatenate S4096 0 [⟨S4095, V0 m d (Proc.devRef .tc main_arg6)⟩, ⟨S1, V0 m d (Proc.devRef .tc main_arg10)⟩] concatenates_S4095_S1_S4096_d0 : (main_v1 : Ref sig .tc).ty.Contents (Elt F)) := by
  unfold hostOps; after_results <;> rfl
theorem after_main_v3 (d : Dev nD) :
    StableHlo.after (hostOps (F := F)) (V0 m d) (Proc.devRef .tc main_v3) = (concatenate S4096 0 [⟨S4095, V0 m d (Proc.devRef .tc main_arg7)⟩, ⟨S1, broadcastInDim S1 ![] bcast_S_S1 (constantI S_ 32 0#32)⟩] concatenates_S4095_S1_S4096_d0 : (main_v3 : Ref sig .tc).ty.Contents (Elt F)) := by
  unfold hostOps; after_results <;> rfl
theorem after_main_v4 (d : Dev nD) :
    StableHlo.after (hostOps (F := F)) (V0 m d) (Proc.devRef .tc main_v4) = (concatenate S4096 0 [⟨S4095, V0 m d (Proc.devRef .tc main_arg8)⟩, ⟨S1, V0 m d (Proc.devRef .tc main_arg11)⟩] concatenates_S4095_S1_S4096_d0 : (main_v4 : Ref sig .tc).ty.Contents (Elt F)) := by
  unfold hostOps; after_results <;> rfl
theorem after_main_arg0 (d : Dev nD) : StableHlo.after (hostOps (F := F)) (V0 m d) (Proc.devRef .tc main_arg0) = V0 m d (Proc.devRef .tc main_arg0) := by
  unfold hostOps; after_results
theorem after_main_arg1 (d : Dev nD) : StableHlo.after (hostOps (F := F)) (V0 m d) (Proc.devRef .tc main_arg1) = V0 m d (Proc.devRef .tc main_arg1) := by
  unfold hostOps; after_results
theorem after_main_arg2 (d : Dev nD) : StableHlo.after (hostOps (F := F)) (V0 m d) (Proc.devRef .tc main_arg2) = V0 m d (Proc.devRef .tc main_arg2) := by
  unfold hostOps; after_results
theorem after_main_arg3 (d : Dev nD) : StableHlo.after (hostOps (F := F)) (V0 m d) (Proc.devRef .tc main_arg3) = V0 m d (Proc.devRef .tc main_arg3) := by
  unfold hostOps; after_results
theorem after_main_arg4 (d : Dev nD) : StableHlo.after (hostOps (F := F)) (V0 m d) (Proc.devRef .tc main_arg4) = V0 m d (Proc.devRef .tc main_arg4) := by
  unfold hostOps; after_results
theorem after_main_arg5 (d : Dev nD) : StableHlo.after (hostOps (F := F)) (V0 m d) (Proc.devRef .tc main_arg5) = V0 m d (Proc.devRef .tc main_arg5) := by
  unfold hostOps; after_results
theorem after_main_arg6 (d : Dev nD) : StableHlo.after (hostOps (F := F)) (V0 m d) (Proc.devRef .tc main_arg6) = V0 m d (Proc.devRef .tc main_arg6) := by
  unfold hostOps; after_results
theorem after_main_arg7 (d : Dev nD) : StableHlo.after (hostOps (F := F)) (V0 m d) (Proc.devRef .tc main_arg7) = V0 m d (Proc.devRef .tc main_arg7) := by
  unfold hostOps; after_results
theorem after_main_arg8 (d : Dev nD) : StableHlo.after (hostOps (F := F)) (V0 m d) (Proc.devRef .tc main_arg8) = V0 m d (Proc.devRef .tc main_arg8) := by
  unfold hostOps; after_results
theorem after_main_arg9 (d : Dev nD) : StableHlo.after (hostOps (F := F)) (V0 m d) (Proc.devRef .tc main_arg9) = V0 m d (Proc.devRef .tc main_arg9) := by
  unfold hostOps; after_results
theorem after_main_arg10 (d : Dev nD) : StableHlo.after (hostOps (F := F)) (V0 m d) (Proc.devRef .tc main_arg10) = V0 m d (Proc.devRef .tc main_arg10) := by
  unfold hostOps; after_results
theorem after_main_arg11 (d : Dev nD) : StableHlo.after (hostOps (F := F)) (V0 m d) (Proc.devRef .tc main_arg11) = V0 m d (Proc.devRef .tc main_arg11) := by
  unfold hostOps; after_results
theorem after_main_v11 (d : Dev nD) : StableHlo.after (hostOps (F := F)) (V0 m d) (Proc.devRef .tc main_v11) = V0 m d (Proc.devRef .tc main_v11) := by
  unfold hostOps; after_results

end Cert.Kernel.Launch

end
-- ==== Proof.BLaunch.lean ====
/-
  The launch of the SparseCore program.

  @main runs on each device's TensorCore: fourteen host operations build, from the twelve argument arrays, the nine arrays
  the one SparseCore call reads — the four tables regrouped in tiles of eight rows, the two special rows padded to one
  tile, the four index lists each with one word appended — and then the call runs on 2 SparseCores × 16 vector subcores.
  The call is handed a read share of each of the nine arrays, cut in two for the SparseCores and each half in sixteen
  for its vector subcores, and the result array cut into the 32 blocks of 128 rows the workers own: block
  `2 s + c` to worker `(c, s)`. The blocks are pairwise disjoint and cover the array, so the 32 blocks handed back,
  each holding the kernel's result function on its rows, are the whole result array holding that one function.
  The argument arrays are never written: they end as they were launched.
-/
import proofs.«206817_g64347200028782_cont_9to1_m_612_22_alg».proof.Proof.BTile
import proofs.«206817_g64347200028782_cont_9to1_m_612_22_alg».proof.Proof.HostArgs
import proofs.«206817_g64347200028782_cont_9to1_m_612_22_alg».proof.Proof.BLaunchHost

noncomputable section

namespace Cert.Kernel.Launch

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The nine arrays the call reads, as functions of the arguments -/

/-- What the host operations before the call leave in the nine arrays the call reads. -/
def hostTabs (a0 : FVec F S100000x64 .f32) (a1 : FVec F S200x64 .f32) (a2 : FVec F S100000x64 .f32) (a3 : FVec F S10000x64 .f32)
    (a4 : FVec F S2x64 .f32) (a5 a6 a7 a8 : IVec S4095 32) (a9 a10 a11 : IVec S1 32) : Tabs F where
  T5 := Cert.HostArgs.RS shapeCasts_S100000x64_S12500x8x64 a0
  T6 := Cert.HostArgs.RS shapeCasts_S200x64_S25x8x64 a1
  T7 := Cert.HostArgs.RS shapeCasts_S100000x64_S12500x8x64 a2
  T8 := Cert.HostArgs.RS shapeCasts_S10000x64_S1250x8x64 a3
  T10 := Cert.HostArgs.PAD pads_S2x64_S8x64_060_000 h_S_ shapeCasts_S8x64_S1x8x64 a4
  I0 := Cert.HostArgs.cat concatenates_S4095_S1_S4096_d0 a5 a9
  I1 := Cert.HostArgs.cat concatenates_S4095_S1_S4096_d0 a6 a10
  I3 := Cert.HostArgs.cat concatenates_S4095_S1_S4096_d0 a7 (Cert.HostArgs.zero1 bcast_S_S1)
  I4 := Cert.HostArgs.cat concatenates_S4095_S1_S4096_d0 a8 a11

variable (m : (ℓ : Loc nD τ sig) → Buf (Elt F) ℓ) (ρ : Dev nD → PrngReg)

/-- The nine arrays on device `d`, from the launch memory. -/
abbrev XT (d : Dev nD) : Tabs F :=
  hostTabs (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11))

/-! ## What the handshakes carry -/

theorem nCore_grid : (K (F := F)).nCore 0 = grid0.bound 0 := rfl
theorem nSub_grid : (K (F := F)).nSub 0 = grid0.bound 1 := rfl

/-- The call hands SparseCore `c` its sixteen tasks' shares and blocks and gets the sixteen blocks back; the
    sequencer hands task `(c, i)` on and back unchanged. -/
def P : (K (F := F)).Pay (nD := nD) (Val := Elt F) (Name := ℕ) (U := UU) where
  st := fun q d c => match q with
    | 0 => bigSep Finset.univ fun i : Fin ((K (F := F)).nSub 0) =>
        tileIn d (coordsV (Fin.cast nCore_grid c) (Fin.cast nSub_grid i)) (XT m d) (m (oLoc d))
  dn := fun q d c => match q with
    | 0 => bigSep Finset.univ fun i : Fin ((K (F := F)).nSub 0) =>
        tileOut d (coordsV (Fin.cast nCore_grid c) (Fin.cast nSub_grid i)) (XT m d)
  go := fun q d c i => match q with
    | 0 => tileIn d (coordsV (Fin.cast nCore_grid c) (Fin.cast nSub_grid i)) (XT m d) (m (oLoc d))
  td := fun q d c i => match q with
    | 0 => tileOut d (coordsV (Fin.cast nCore_grid c) (Fin.cast nSub_grid i)) (XT m d)
  x := fun _ _ => iprop(emp)

omit [FloatOps F] in
instance tileIn_storable (d : Dev nD) (L : grid0.Coords) (X : Tabs F) (f₀ : FVec F S4096x192 .f32) :
    BI.Storable (upEmb : UEmb _ 𝕄) (tileIn d L X f₀) := by unfold tileIn; infer_instance
instance tileOut_storable (d : Dev nD) (L : grid0.Coords) (X : Tabs F) :
    BI.Storable (upEmb : UEmb _ 𝕄) (tileOut d L X) := by unfold tileOut; infer_instance

instance P_storable : (P (F := F) m).IsStorable where
  st q d c := match q with
    | 0 => (inferInstance : BI.Storable (upEmb : UEmb _ 𝕄) (bigSep Finset.univ fun i : Fin ((K (F := F)).nSub 0) =>
        tileIn d (coordsV (Fin.cast nCore_grid c) (Fin.cast nSub_grid i)) (XT m d) (m (oLoc d))))
  dn q d c := match q with
    | 0 => (inferInstance : BI.Storable (upEmb : UEmb _ 𝕄) (bigSep Finset.univ fun i : Fin ((K (F := F)).nSub 0) =>
        tileOut d (coordsV (Fin.cast nCore_grid c) (Fin.cast nSub_grid i)) (XT m d)))
  go q d c i := match q with
    | 0 => (inferInstance : BI.Storable (upEmb : UEmb _ 𝕄) (tileIn d (coordsV (Fin.cast nCore_grid c) (Fin.cast nSub_grid i)) (XT m d) (m (oLoc d))))
  td q d c i := match q with
    | 0 => (inferInstance : BI.Storable (upEmb : UEmb _ 𝕄) (tileOut d (coordsV (Fin.cast nCore_grid c) (Fin.cast nSub_grid i)) (XT m d)))

/-! ## The launch theorem's obligations -/

theorem defs₀_vector (c : Fin τ.nSC) (s : Fin τ.nSub) :
    defs₀ (F := F) (.scVector c s) 0 ()
      = SparseCore.onTile hcore0 hsub0 (fun c s => kernelAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : ∀ d : Dev nD, TileBody (XT m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d d (coordsV ⟨_, hc.1⟩ ⟨_, hc.2⟩) (m (oLoc d)) O W hO).trans (wp_mono frame _ _ fun _ => obl_post)

theorem vecSplit : (K (F := F)).VecSplit' (P m) 0 := by
  intro d c
  have h : ((P m).st 0 d c : sProp 𝕄) = bigSep Finset.univ fun i : Fin ((K (F := F)).nSub 0) => (P m).go 0 d c i := rfl
  have h' : ((P m).dn 0 d c : sProp 𝕄) = bigSep Finset.univ fun i : Fin ((K (F := F)).nSub 0) => (P m).td 0 d c i := rfl
  rw [h, h']
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The result array in 32 blocks of 128 rows -/

omit [FloatOps F] in
theorem outRows_eq (L : grid0.Coords) : outRows L = (outRect L).set := by
  show ((View.whole (main_v11_scv : Ref sig .scVector)).slice (outRect L)).set = _
  exact View.set_slice_whole _ _

omit [FloatOps F] in
/-- Row `r`, column `k` lies in worker `(c, i)`'s block exactly when `r` lies in `[128 (2 i + c), 128 (2 i + c) + 128)`. -/
theorem mem_outRows (c : Fin (grid0.bound 0)) (i : Fin (grid0.bound 1)) (j : S4096x192.Idx) :
    j ∈ outRows (coordsV c i) ↔ 256 * i.val + 128 * c.val ≤ (j 0).val ∧ (j 0).val < 256 * i.val + 128 * c.val + 128 := by
  rw [outRows_eq, Rect.mem_set_unit, k0_off148_eq]
  constructor
  · intro h; exact h 0
  · intro h a
    match a with
    | ⟨0, _⟩ => exact h
    | ⟨1, _⟩ =>
      have h1 : (j 1).val < 192 := (j 1).isLt
      exact ⟨Nat.zero_le _, show (j 1).val < 0 + 192 by omega⟩

/-- The 32 workers as pairs. -/
abbrev rowsOf (p : Fin (grid0.bound 0) × Fin (grid0.bound 1)) : Finset S4096x192.Idx := outRows (coordsV p.1 p.2)

omit [FloatOps F] in
theorem rows_disjoint : ∀ p ∈ (Finset.univ : Finset (Fin (grid0.bound 0) × Fin (grid0.bound 1))), ∀ p' ∈ (Finset.univ : Finset (Fin (grid0.bound 0) × Fin (grid0.bound 1))),
    p ≠ p' → Disjoint (rowsOf p) (rowsOf p') := by
  intro p _ p' _ hne
  refine Finset.disjoint_left.mpr fun j hj hj' => hne ?_
  have h1 := (mem_outRows p.1 p.2 j).mp hj
  have h2 := (mem_outRows p'.1 p'.2 j).mp hj'
  have hc : p.1.val < 2 := p.1.isLt
  have hc' : p'.1.val < 2 := p'.1.isLt
  exact Prod.ext (Fin.ext (by omega)) (Fin.ext (by omega))

omit [FloatOps F] in
theorem rows_cover : (Finset.univ : Finset (Fin (grid0.bound 0) × Fin (grid0.bound 1))).biUnion rowsOf = Finset.univ := by
  refine Finset.eq_univ_iff_forall.mpr fun j => Finset.mem_biUnion.mpr ?_
  have hj : (j 0).val < 4096 := (j 0).isLt
  refine ⟨(⟨(j 0).val / 128 % 2, Nat.mod_lt _ (by decide)⟩, ⟨(j 0).val / 256, by show (j 0).val / 256 < 16; omega⟩), Finset.mem_univ _, ?_⟩
  refine (mem_outRows _ _ j).mpr ?_
  show 256 * ((j 0).val / 256) + 128 * ((j 0).val / 128 % 2) ≤ (j 0).val ∧ (j 0).val < 256 * ((j 0).val / 256) + 128 * ((j 0).val / 128 % 2) + 128
  omega

omit [FloatOps F] in
/-- The result array whole is its 32 blocks, at any one contents. -/
theorem oPts_rows (d : Dev nD) (f : Buf (Elt F) (oLoc d)) :
    (oLoc d ↦{fullShare} f : sProp 𝕄)
      = bigSep Finset.univ fun c : Fin (grid0.bound 0) => bigSep Finset.univ fun i : Fin (grid0.bound 1) => oLoc d ↦[outRows (coordsV c i)]{fullShare} f := by
  rw [← bigSep_univ_prod (fun p : Fin (grid0.bound 0) × Fin (grid0.bound 1) => (oLoc d ↦[rowsOf p]{fullShare} f : sProp 𝕄)),
    ← pointsTo_biUnion Finset.univ (ℓ := oLoc d) rowsOf rows_disjoint, rows_cover]

/-! ## The read shares -/

omit [FloatOps F] in
/-- An array held whole gives every worker its read share (what is left over is dropped). -/
theorem share_cut (ℓ : Loc nD τ sig) (f : Buf (Elt F) ℓ) :
    (ℓ ↦{fullShare} f : sProp 𝕄)
      ⊢ bigSep Finset.univ fun c : Fin (grid0.bound 0) => bigSep Finset.univ fun i : Fin (grid0.bound 1) => ℓ ↦{rshare (coordsV c i)} f :=
  (Transfers.pointsTo_toks_split fullShare 2).trans (sep_elim_right.trans (bigSep_mono fun c _ =>
    (Transfers.pointsTo_toks_split (Transfers.shareTokN fullShare c.val) 16).trans sep_elim_right))

/-- The ten arrays whole give the 32 workers what their tasks are handed. -/
theorem st_intro (d : Dev nD) (X : Tabs F) (f₀ : FVec F S4096x192 .f32) :
    iprop((t5Loc d ↦{fullShare} (X.T5 : Buf (Elt F) (t5Loc d)))
        ∗ (t6Loc d ↦{fullShare} (X.T6 : Buf (Elt F) (t6Loc d)))
        ∗ (t7Loc d ↦{fullShare} (X.T7 : Buf (Elt F) (t7Loc d)))
        ∗ (t8Loc d ↦{fullShare} (X.T8 : Buf (Elt F) (t8Loc d)))
        ∗ (t10Loc d ↦{fullShare} (X.T10 : Buf (Elt F) (t10Loc d)))
        ∗ (i0Loc d ↦{fullShare} (X.I0 : Buf (Elt F) (i0Loc d)))
        ∗ (i1Loc d ↦{fullShare} (X.I1 : Buf (Elt F) (i1Loc d)))
        ∗ (i3Loc d ↦{fullShare} (X.I3 : Buf (Elt F) (i3Loc d)))
        ∗ (i4Loc d ↦{fullShare} (X.I4 : Buf (Elt F) (i4Loc d)))
        ∗ (oLoc d ↦{fullShare} (f₀ : Buf (Elt F) (oLoc d))))
      ⊢ (bigSep Finset.univ fun c : Fin (grid0.bound 0) => bigSep Finset.univ fun i : Fin (grid0.bound 1) => tileIn d (coordsV c i) X f₀ : sProp 𝕄) := by
  unfold tileIn
  simp only [bigSep_sep']
  rw [← oPts_rows]
  iintro ⟨H5, H6, H7, H8, H10, H0, H1, H3, H4, Ho⟩
  isplitl [H5]; · iapply (share_cut _ _); iexact H5
  isplitl [H6]; · iapply (share_cut _ _); iexact H6
  isplitl [H7]; · iapply (share_cut _ _); iexact H7
  isplitl [H8]; · iapply (share_cut _ _); iexact H8
  isplitl [H10]; · iapply (share_cut _ _); iexact H10
  isplitl [H0]; · iapply (share_cut _ _); iexact H0
  isplitl [H1]; · iapply (share_cut _ _); iexact H1
  isplitl [H3]; · iapply (share_cut _ _); iexact H3
  isplitl [H4]; · iapply (share_cut _ _); iexact H4
  iexact Ho

theorem st0_eq (d : Dev nD) :
    (bigSep Finset.univ fun c : Fin ((K (F := F)).nCore 0) => (P m).st 0 d c)
      = bigSep Finset.univ fun c : Fin (grid0.bound 0) => bigSep Finset.univ fun i : Fin (grid0.bound 1) => tileIn d (coordsV c i) (XT m d) (m (oLoc d)) :=
  bigSep_congr fun _ _ => rfl

/-- The 32 blocks handed back are the result array whole, at the kernel's result function. -/
theorem dn0_eq (d : Dev nD) :
    (bigSep Finset.univ fun c : Fin ((K (F := F)).nCore 0) => (P m).dn 0 d c) = (oLoc d ↦{fullShare} ((XT m d).out : Buf (Elt F) (oLoc d)) : sProp 𝕄) := by
  rw [oPts_rows]
  exact bigSep_congr fun _ _ => rfl

/-! ## @main on the TensorCore -/

/-- The twelve argument arrays at their launch contents. -/
abbrev ARGS (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ ((SparseCore.T d).loc main_arg5 ↦{fullShare} m ((SparseCore.T d).loc main_arg5))
    ∗ ((SparseCore.T d).loc main_arg6 ↦{fullShare} m ((SparseCore.T d).loc main_arg6))
    ∗ ((SparseCore.T d).loc main_arg7 ↦{fullShare} m ((SparseCore.T d).loc main_arg7))
    ∗ ((SparseCore.T d).loc main_arg8 ↦{fullShare} m ((SparseCore.T d).loc main_arg8))
    ∗ ((SparseCore.T d).loc main_arg9 ↦{fullShare} m ((SparseCore.T d).loc main_arg9))
    ∗ ((SparseCore.T d).loc main_arg10 ↦{fullShare} m ((SparseCore.T d).loc main_arg10))
    ∗ ((SparseCore.T d).loc main_arg11 ↦{fullShare} m ((SparseCore.T d).loc main_arg11)))

/-- What @main leaves the claim: the result array at the kernel's result function, the arguments as launched. -/
abbrev FIN (d : Dev nD) : sProp 𝕄 := iprop((oLoc d ↦{fullShare} ((XT m d).out : Buf (Elt F) (oLoc d))) ∗ ARGS m d)

/-- After the host operations: the nine arrays the call reads at `XT`, the result array as launched, the arguments as launched. -/
theorem held_after (d : Dev nD) :
    (StableHlo.held (SparseCore.T d) (StableHlo.tcRefs τ sig) (StableHlo.after (hostOps (F := F)) (V0 m d)) : sProp 𝕄)
      ⊢ iprop(((t5Loc d ↦{fullShare} ((XT m d).T5 : Buf (Elt F) (t5Loc d)))
        ∗ (t6Loc d ↦{fullShare} ((XT m d).T6 : Buf (Elt F) (t6Loc d)))
        ∗ (t7Loc d ↦{fullShare} ((XT m d).T7 : Buf (Elt F) (t7Loc d)))
        ∗ (t8Loc d ↦{fullShare} ((XT m d).T8 : Buf (Elt F) (t8Loc d)))
        ∗ (t10Loc d ↦{fullShare} ((XT m d).T10 : Buf (Elt F) (t10Loc d)))
        ∗ (i0Loc d ↦{fullShare} ((XT m d).I0 : Buf (Elt F) (i0Loc d)))
        ∗ (i1Loc d ↦{fullShare} ((XT m d).I1 : Buf (Elt F) (i1Loc d)))
        ∗ (i3Loc d ↦{fullShare} ((XT m d).I3 : Buf (Elt F) (i3Loc d)))
        ∗ (i4Loc d ↦{fullShare} ((XT m d).I4 : Buf (Elt F) (i4Loc d)))
        ∗ (oLoc d ↦{fullShare} m (oLoc d))) ∗ ARGS m d) := by
  rw [held_list, after_main_arg0 m d, after_main_arg1 m d, after_main_arg2 m d, after_main_arg3 m d, after_main_arg4 m d, after_main_arg5 m d, after_main_arg6 m d, after_main_arg7 m d, after_main_arg8 m d, after_main_arg9 m d, after_main_arg10 m d, after_main_arg11 m d, after_main_v0 m d, after_main_v1 m d, after_main_v3 m d, after_main_v4 m d, after_main_v5 m d, after_main_v6 m d, after_main_v7 m d, after_main_v8 m d, after_main_v10 m d, after_main_v11 m d]
  iintro ⟨H_arg0, H_arg1, H_arg2, H_arg3, H_arg4, H_arg5, H_arg6, H_arg7, H_arg8, H_arg9, H_arg10, H_arg11, H_v0, H_v1, -, -, H_v3, H_v4, H_v5, H_v6, H_v7, H_v8, -, -, -, H_v10, H_v11⟩
  isplitr [H_arg0 H_arg1 H_arg2 H_arg3 H_arg4 H_arg5 H_arg6 H_arg7 H_arg8 H_arg9 H_arg10 H_arg11]
  · isplitl [H_v5]; · iexact H_v5
    isplitl [H_v6]; · iexact H_v6
    isplitl [H_v7]; · iexact H_v7
    isplitl [H_v8]; · iexact H_v8
    isplitl [H_v10]; · iexact H_v10
    isplitl [H_v0]; · iexact H_v0
    isplitl [H_v1]; · iexact H_v1
    isplitl [H_v3]; · iexact H_v3
    isplitl [H_v4]; · iexact H_v4
    iexact H_v11
  · isplitl [H_arg0]; · iexact H_arg0
    isplitl [H_arg1]; · iexact H_arg1
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg10]; · iexact H_arg10
    iexact H_arg11

/-- @main on device `d`'s TensorCore: the host operations as one straight line over all its arrays held whole, the
    call from the shares and blocks, the blocks back as the whole result array; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d (StableHlo.tcRefs τ sig) _ (hostOps (F := F)) hostOps_sub hostOps_fresh (V0 m d)) $$ [Hb Hheld]
  · isplitl [Hb]; · iexact Hb
    iexact Hheld
  iintro ⟨Hb, Hheld⟩
  ihave Hh := (held_after m d) $$ Hheld
  icases Hh with ⟨Hin, Hargs⟩
  simp only [wp_bind, wp_pure]
  iapply ((K (F := F)).wp_run (D (F := F)) 𝒱 (EH := EH) (P := P m) κ d 0) $$ [Hst Hin Hargs]
  isplitr; · iexact Hctx
  isplitl [Hst]; · iexact Hst
  isplitl [Hin]
  · rw [st0_eq]
    iapply (st_intro d (XT m d) (m (oLoc d))); iexact Hin
  iintro ⟨Hst, Hdn⟩
  ihave Hdn' := (Entails.of_eq (dn0_eq m d)) $$ Hdn
  imodintro
  isplitl [Hst]; · iexact Hst
  isplitl [Hdn']; · iexact Hdn'
  iexact Hargs

/-- What the final memory holds on device `d`. -/
def fq (d : Dev nD) (s' : Phys nD τ sig (Elt F)) : Prop :=
  s'.mem.mem (oLoc d) = ((XT m d).out : Buf (Elt F) (oLoc d))
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)
    ∧ s'.mem.mem ((SparseCore.T d).loc main_arg6) = m ((SparseCore.T d).loc main_arg6)
    ∧ s'.mem.mem ((SparseCore.T d).loc main_arg7) = m ((SparseCore.T d).loc main_arg7)
    ∧ s'.mem.mem ((SparseCore.T d).loc main_arg8) = m ((SparseCore.T d).loc main_arg8)
    ∧ s'.mem.mem ((SparseCore.T d).loc main_arg9) = m ((SparseCore.T d).loc main_arg9)
    ∧ s'.mem.mem ((SparseCore.T d).loc main_arg10) = m ((SparseCore.T d).loc main_arg10)
    ∧ s'.mem.mem ((SparseCore.T d).loc main_arg11) = m ((SparseCore.T d).loc main_arg11)

theorem hfin (d : Dev nD) (s' : Phys nD τ sig (Elt F)) : iprop(FIN m d ∗ SI s') ⊢ (⌜fq m d s'⌝ : sProp 𝕄) := by
  iintro ⟨⟨Ho, A0, A1, A2, A3, A4, A5, A6, A7, A8, A9, A10, A11⟩, HSI⟩
  ihave H := (persistent_entails_right (SI_pointsTo_agree (st := s') (ℓ := oLoc d) (I := Finset.univ) (q := fullShare) (f := ((XT m d).out : Buf (Elt F) (oLoc d))))) $$ [HSI Ho]
  · isplitl [HSI] <;> iassumption
  icases H with ⟨%ho, HSI, -⟩
  ihave H := (persistent_entails_right (SI_pointsTo_agree (st := s') (ℓ := (SparseCore.T d).loc main_arg0) (I := Finset.univ) (q := fullShare) (f := m ((SparseCore.T d).loc main_arg0)))) $$ [HSI A0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI A1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI A2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI A3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI A4]
  · isplitl [HSI] <;> iassumption
  icases H with ⟨%h4, HSI, -⟩
  ihave H := (persistent_entails_right (SI_pointsTo_agree (st := s') (ℓ := (SparseCore.T d).loc main_arg5) (I := Finset.univ) (q := fullShare) (f := m ((SparseCore.T d).loc main_arg5)))) $$ [HSI A5]
  · isplitl [HSI] <;> iassumption
  icases H with ⟨%h5, HSI, -⟩
  ihave H := (persistent_entails_right (SI_pointsTo_agree (st := s') (ℓ := (SparseCore.T d).loc main_arg6) (I := Finset.univ) (q := fullShare) (f := m ((SparseCore.T d).loc main_arg6)))) $$ [HSI A6]
  · isplitl [HSI] <;> iassumption
  icases H with ⟨%h6, HSI, -⟩
  ihave H := (persistent_entails_right (SI_pointsTo_agree (st := s') (ℓ := (SparseCore.T d).loc main_arg7) (I := Finset.univ) (q := fullShare) (f := m ((SparseCore.T d).loc main_arg7)))) $$ [HSI A7]
  · isplitl [HSI] <;> iassumption
  icases H with ⟨%h7, HSI, -⟩
  ihave H := (persistent_entails_right (SI_pointsTo_agree (st := s') (ℓ := (SparseCore.T d).loc main_arg8) (I := Finset.univ) (q := fullShare) (f := m ((SparseCore.T d).loc main_arg8)))) $$ [HSI A8]
  · isplitl [HSI] <;> iassumption
  icases H with ⟨%h8, HSI, -⟩
  ihave H := (persistent_entails_right (SI_pointsTo_agree (st := s') (ℓ := (SparseCore.T d).loc main_arg9) (I := Finset.univ) (q := fullShare) (f := m ((SparseCore.T d).loc main_arg9)))) $$ [HSI A9]
  · isplitl [HSI] <;> iassumption
  icases H with ⟨%h9, HSI, -⟩
  ihave H := (persistent_entails_right (SI_pointsTo_agree (st := s') (ℓ := (SparseCore.T d).loc main_arg10) (I := Finset.univ) (q := fullShare) (f := m ((SparseCore.T d).loc main_arg10)))) $$ [HSI A10]
  · isplitl [HSI] <;> iassumption
  icases H with ⟨%h10, HSI, -⟩
  ihave H := (SI_pointsTo_agree (st := s') (ℓ := (SparseCore.T d).loc main_arg11) (I := Finset.univ) (q := fullShare) (f := m ((SparseCore.T d).loc main_arg11))) $$ [HSI A11]
  · isplitl [HSI] <;> iassumption
  icases H with %h11
  ipureintro
  exact ⟨funext fun i => ho i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i), funext fun i => h11 i (Finset.mem_univ i)⟩

/-! ## The program's run -/

theorem run_main [∀ e, Nonempty (Elt F e)]
    (hbody : ∀ d : Dev nD, TileBody (hostTabs (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)))) :
    θ_run (Cert.Kernel.defs (F := F)) (Cert.Kernel.threads (F := F)) ⟨m, fun _ => 0, ρ⟩
      (fun r => ∀ c : Dev nD, r.2.mem ((c.tc : Thread nD τ).loc main_v11) = (hostTabs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).out
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Kernel.Launch

end
-- ==== Proof.BTileRes.lean ====
/-
  A vector subcore's own storage, named: its nine scratch buffers (four index lists of 128 words, four gathered-row
  buffers of 128 × 64, the 128 × 192 staging buffer of output rows) and its seven DMA semaphores (the gather's and one
  per synchronous copy), each split off the subcore's pool of buffers and of semaphore cells.
-/
import proofs.«206817_g64347200028782_cont_9to1_m_612_22_alg».proof.Proof.BTile

noncomputable section

namespace Cert.Kernel.TileRes

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- Worker `L`'s thread. -/
abbrev thr : Thread nD τ := V d (cV L) (jV L)

abbrev bref (r : Ref sig .scVector) : DevRef τ sig := (Proc.scVector (cV L) (jV L)).devRef r
abbrev cell (s : DmaSems sig S_) : GSem nD τ sig := (V d (cV L) (jV L), .dma s.sem)

/-- The nine scratch buffers, as device references. -/
def bufSet : Finset (DevRef τ sig) := {bref L cc0_scratch0, bref L cc0_scratch1, bref L cc0_scratch2, bref L cc0_scratch3, bref L cc0_scratch4, bref L cc0_scratch5, bref L cc0_scratch6, bref L cc0_scratch7, bref L cc0_scratch8}
/-- The seven DMA semaphore cells. -/
def cellSet : Finset (GSem nD τ sig) := {cell d L cc0_scratch9, cell d L cc0_scoped0, cell d L cc0_scoped1, cell d L cc0_scoped2, cell d L cc0_scoped3, cell d L cc0_scoped4, cell d L cc0_scoped5}

theorem bufSet_sub : bufSet L ⊆ ownRefs (τ := τ) (.scVector (cV L) (jV L)) := by
  intro b hb
  simp only [bufSet, Finset.mem_insert, Finset.mem_singleton] at hb
  rcases hb with rfl | rfl | rfl | rfl | rfl | rfl | rfl | rfl | rfl <;>
    exact SparseCore.Cfg.mem_ownRefs_of_owner rfl

theorem cellSet_sub : cellSet d L ⊆ ownCells (V d (cV L) (jV L)) := by
  intro g hg
  simp only [cellSet, Finset.mem_insert, Finset.mem_singleton] at hg
  rcases hg with rfl | rfl | rfl | rfl | rfl | rfl | rfl
  · exact mem_ownCells.mpr ⟨rfl, by show (SemLoc.dma cc0_scratch9.sem : SemLoc sig).isScoped .scVector = true; decide⟩
  · exact mem_ownCells.mpr ⟨rfl, by show (SemLoc.dma cc0_scoped0.sem : SemLoc sig).isScoped .scVector = true; decide⟩
  · exact mem_ownCells.mpr ⟨rfl, by show (SemLoc.dma cc0_scoped1.sem : SemLoc sig).isScoped .scVector = true; decide⟩
  · exact mem_ownCells.mpr ⟨rfl, by show (SemLoc.dma cc0_scoped2.sem : SemLoc sig).isScoped .scVector = true; decide⟩
  · exact mem_ownCells.mpr ⟨rfl, by show (SemLoc.dma cc0_scoped3.sem : SemLoc sig).isScoped .scVector = true; decide⟩
  · exact mem_ownCells.mpr ⟨rfl, by show (SemLoc.dma cc0_scoped4.sem : SemLoc sig).isScoped .scVector = true; decide⟩
  · exact mem_ownCells.mpr ⟨rfl, by show (SemLoc.dma cc0_scoped5.sem : SemLoc sig).isScoped .scVector = true; decide⟩

/-! ## The pools split -/

/-- Separating conjunction reassociated, as an equation. -/
theorem sep_assoc_eq (P Q R : sProp 𝕄) : (iprop((P ∗ Q) ∗ R) : sProp 𝕄) = iprop(P ∗ Q ∗ R) :=
  Idealize.SL.BI.equiv_iff.mp ⟨Idealize.SL.BI.sep_assoc, Idealize.SL.BI.sep_assoc'⟩

/-- Distinct buffer names are distinct device references of the subcore. -/
theorem bref_ne {r r' : Ref sig .scVector} (h : r ≠ r') : bref L r ≠ bref L r' :=
  fun e => h (Proc.devRef_injective _ e)

/-- The subcore's pool of buffers: the nine scratch buffers, each whole at some contents, and the rest. -/
theorem ownBufs_split :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ bigSep (ownRefs (τ := τ) (.scVector (cV L) (jV L)) \ bufSet L) fun b => iprop(∃ f, ((d, b) : Loc nD τ sig) ↦{fullShare} f)) := by
  have h0 : bref L cc0_scratch0 ∉ ({bref L cc0_scratch1, bref L cc0_scratch2, bref L cc0_scratch3, bref L cc0_scratch4, bref L cc0_scratch5, bref L cc0_scratch6, bref L cc0_scratch7, bref L cc0_scratch8} : Finset (DevRef τ sig)) := by
    simp only [Finset.mem_insert, Finset.mem_singleton, not_or]
    exact ⟨bref_ne L (show (cc0_scratch0 : Ref sig .scVector) ≠ cc0_scratch1 by decide),
      bref_ne L (show (cc0_scratch0 : Ref sig .scVector) ≠ cc0_scratch2 by decide),
      bref_ne L (show (cc0_scratch0 : Ref sig .scVector) ≠ cc0_scratch3 by decide),
      bref_ne L (show (cc0_scratch0 : Ref sig .scVector) ≠ cc0_scratch4 by decide),
      bref_ne L (show (cc0_scratch0 : Ref sig .scVector) ≠ cc0_scratch5 by decide),
      bref_ne L (show (cc0_scratch0 : Ref sig .scVector) ≠ cc0_scratch6 by decide),
      bref_ne L (show (cc0_scratch0 : Ref sig .scVector) ≠ cc0_scratch7 by decide),
      bref_ne L (show (cc0_scratch0 : Ref sig .scVector) ≠ cc0_scratch8 by decide)⟩
  have h1 : bref L cc0_scratch1 ∉ ({bref L cc0_scratch2, bref L cc0_scratch3, bref L cc0_scratch4, bref L cc0_scratch5, bref L cc0_scratch6, bref L cc0_scratch7, bref L cc0_scratch8} : Finset (DevRef τ sig)) := by
    simp only [Finset.mem_insert, Finset.mem_singleton, not_or]
    exact ⟨bref_ne L (show (cc0_scratch1 : Ref sig .scVector) ≠ cc0_scratch2 by decide),
      bref_ne L (show (cc0_scratch1 : Ref sig .scVector) ≠ cc0_scratch3 by decide),
      bref_ne L (show (cc0_scratch1 : Ref sig .scVector) ≠ cc0_scratch4 by decide),
      bref_ne L (show (cc0_scratch1 : Ref sig .scVector) ≠ cc0_scratch5 by decide),
      bref_ne L (show (cc0_scratch1 : Ref sig .scVector) ≠ cc0_scratch6 by decide),
      bref_ne L (show (cc0_scratch1 : Ref sig .scVector) ≠ cc0_scratch7 by decide),
      bref_ne L (show (cc0_scratch1 : Ref sig .scVector) ≠ cc0_scratch8 by decide)⟩
  have h2 : bref L cc0_scratch2 ∉ ({bref L cc0_scratch3, bref L cc0_scratch4, bref L cc0_scratch5, bref L cc0_scratch6, bref L cc0_scratch7, bref L cc0_scratch8} : Finset (DevRef τ sig)) := by
    simp only [Finset.mem_insert, Finset.mem_singleton, not_or]
    exact ⟨bref_ne L (show (cc0_scratch2 : Ref sig .scVector) ≠ cc0_scratch3 by decide),
      bref_ne L (show (cc0_scratch2 : Ref sig .scVector) ≠ cc0_scratch4 by decide),
      bref_ne L (show (cc0_scratch2 : Ref sig .scVector) ≠ cc0_scratch5 by decide),
      bref_ne L (show (cc0_scratch2 : Ref sig .scVector) ≠ cc0_scratch6 by decide),
      bref_ne L (show (cc0_scratch2 : Ref sig .scVector) ≠ cc0_scratch7 by decide),
      bref_ne L (show (cc0_scratch2 : Ref sig .scVector) ≠ cc0_scratch8 by decide)⟩
  have h3 : bref L cc0_scratch3 ∉ ({bref L cc0_scratch4, bref L cc0_scratch5, bref L cc0_scratch6, bref L cc0_scratch7, bref L cc0_scratch8} : Finset (DevRef τ sig)) := by
    simp only [Finset.mem_insert, Finset.mem_singleton, not_or]
    exact ⟨bref_ne L (show (cc0_scratch3 : Ref sig .scVector) ≠ cc0_scratch4 by decide),
      bref_ne L (show (cc0_scratch3 : Ref sig .scVector) ≠ cc0_scratch5 by decide),
      bref_ne L (show (cc0_scratch3 : Ref sig .scVector) ≠ cc0_scratch6 by decide),
      bref_ne L (show (cc0_scratch3 : Ref sig .scVector) ≠ cc0_scratch7 by decide),
      bref_ne L (show (cc0_scratch3 : Ref sig .scVector) ≠ cc0_scratch8 by decide)⟩
  have h4 : bref L cc0_scratch4 ∉ ({bref L cc0_scratch5, bref L cc0_scratch6, bref L cc0_scratch7, bref L cc0_scratch8} : Finset (DevRef τ sig)) := by
    simp only [Finset.mem_insert, Finset.mem_singleton, not_or]
    exact ⟨bref_ne L (show (cc0_scratch4 : Ref sig .scVector) ≠ cc0_scratch5 by decide),
      bref_ne L (show (cc0_scratch4 : Ref sig .scVector) ≠ cc0_scratch6 by decide),
      bref_ne L (show (cc0_scratch4 : Ref sig .scVector) ≠ cc0_scratch7 by decide),
      bref_ne L (show (cc0_scratch4 : Ref sig .scVector) ≠ cc0_scratch8 by decide)⟩
  have h5 : bref L cc0_scratch5 ∉ ({bref L cc0_scratch6, bref L cc0_scratch7, bref L cc0_scratch8} : Finset (DevRef τ sig)) := by
    simp only [Finset.mem_insert, Finset.mem_singleton, not_or]
    exact ⟨bref_ne L (show (cc0_scratch5 : Ref sig .scVector) ≠ cc0_scratch6 by decide),
      bref_ne L (show (cc0_scratch5 : Ref sig .scVector) ≠ cc0_scratch7 by decide),
      bref_ne L (show (cc0_scratch5 : Ref sig .scVector) ≠ cc0_scratch8 by decide)⟩
  have h6 : bref L cc0_scratch6 ∉ ({bref L cc0_scratch7, bref L cc0_scratch8} : Finset (DevRef τ sig)) := by
    simp only [Finset.mem_insert, Finset.mem_singleton, not_or]
    exact ⟨bref_ne L (show (cc0_scratch6 : Ref sig .scVector) ≠ cc0_scratch7 by decide),
      bref_ne L (show (cc0_scratch6 : Ref sig .scVector) ≠ cc0_scratch8 by decide)⟩
  have h7 : bref L cc0_scratch7 ∉ ({bref L cc0_scratch8} : Finset (DevRef τ sig)) := by
    simp only [Finset.mem_insert, Finset.mem_singleton, not_or]
    exact bref_ne L (show (cc0_scratch7 : Ref sig .scVector) ≠ cc0_scratch8 by decide)
  unfold SparseCore.Cfg.ownBufs
  rw [SparseCore.bigSep_sdiff_split' (bufSet_sub L)]
  unfold bufSet
  rw [SparseCore.bigSep_insert' h0, SparseCore.bigSep_insert' h1, SparseCore.bigSep_insert' h2, SparseCore.bigSep_insert' h3,
    SparseCore.bigSep_insert' h4, SparseCore.bigSep_insert' h5, SparseCore.bigSep_insert' h6, SparseCore.bigSep_insert' h7,
    bigSep_singleton]
  simp only [sep_assoc_eq]

/-- The subcore's pool of semaphore cells: the seven DMA semaphores at zero, and the rest. -/
theorem ownSems0_split :
    (ownSems0 (V d (cV L) (jV L)) : sProp 𝕄)
      = iprop(semVal (cell d L cc0_scratch9) 0 ∗ semVal (cell d L cc0_scoped0) 0 ∗ semVal (cell d L cc0_scoped1) 0 ∗ semVal (cell d L cc0_scoped2) 0 ∗ semVal (cell d L cc0_scoped3) 0 ∗ semVal (cell d L cc0_scoped4) 0 ∗ semVal (cell d L cc0_scoped5) 0
          ∗ bigSep (ownCells (V d (cV L) (jV L)) \ cellSet d L) fun g => semVal g 0) := by
  have h0 : cell d L cc0_scratch9 ∉ ({cell d L cc0_scoped0, cell d L cc0_scoped1, cell d L cc0_scoped2, cell d L cc0_scoped3, cell d L cc0_scoped4, cell d L cc0_scoped5} : Finset (GSem nD τ sig)) := by
    simp only [Finset.mem_insert, Finset.mem_singleton, Prod.mk.injEq, true_and, SemLoc.dma.injEq]; decide
  have h1 : cell d L cc0_scoped0 ∉ ({cell d L cc0_scoped1, cell d L cc0_scoped2, cell d L cc0_scoped3, cell d L cc0_scoped4, cell d L cc0_scoped5} : Finset (GSem nD τ sig)) := by
    simp only [Finset.mem_insert, Finset.mem_singleton, Prod.mk.injEq, true_and, SemLoc.dma.injEq]; decide
  have h2 : cell d L cc0_scoped1 ∉ ({cell d L cc0_scoped2, cell d L cc0_scoped3, cell d L cc0_scoped4, cell d L cc0_scoped5} : Finset (GSem nD τ sig)) := by
    simp only [Finset.mem_insert, Finset.mem_singleton, Prod.mk.injEq, true_and, SemLoc.dma.injEq]; decide
  have h3 : cell d L cc0_scoped2 ∉ ({cell d L cc0_scoped3, cell d L cc0_scoped4, cell d L cc0_scoped5} : Finset (GSem nD τ sig)) := by
    simp only [Finset.mem_insert, Finset.mem_singleton, Prod.mk.injEq, true_and, SemLoc.dma.injEq]; decide
  have h4 : cell d L cc0_scoped3 ∉ ({cell d L cc0_scoped4, cell d L cc0_scoped5} : Finset (GSem nD τ sig)) := by
    simp only [Finset.mem_insert, Finset.mem_singleton, Prod.mk.injEq, true_and, SemLoc.dma.injEq]; decide
  have h5 : cell d L cc0_scoped4 ∉ ({cell d L cc0_scoped5} : Finset (GSem nD τ sig)) := by
    simp only [Finset.mem_insert, Finset.mem_singleton, Prod.mk.injEq, true_and, SemLoc.dma.injEq]; decide
  unfold SparseCore.Cfg.ownSems0
  rw [SparseCore.bigSep_sdiff_split' (cellSet_sub d L)]
  unfold cellSet
  rw [SparseCore.bigSep_insert' h0, SparseCore.bigSep_insert' h1, SparseCore.bigSep_insert' h2, SparseCore.bigSep_insert' h3,
    SparseCore.bigSep_insert' h4, SparseCore.bigSep_insert' h5, bigSep_singleton]
  simp only [sep_assoc_eq]

end Cert.Kernel.TileRes

end
-- ==== Proof.BTileCoreStmt.lean ====
/-
  One task's run stated over its resources laid out by name: the nine input arrays as the task addresses them (each at
  the task's read share), its output rows, its nine scratch buffers whole, its seven DMA semaphore cells at zero.
-/
import proofs.«206817_g64347200028782_cont_9to1_m_612_22_alg».proof.Proof.BTileRes

noncomputable section

namespace Cert.Kernel.TileCore

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Kernel.TileRes

variable [FloatOps F] (d : Dev nD) (L : grid0.Coords) (X : Tabs F)

/-- An input array as the task addresses it, at the task's read share. -/
abbrev inT5 : sProp 𝕄 := (Memref.whole main_v5_scv : Memref sig .scVector .hbm S12500x8x64 .f32).view.loc (thr d L) ↦{rshare L} (X.T5 : Buf (Elt F) ((Memref.whole main_v5_scv : Memref sig .scVector .hbm S12500x8x64 .f32).view.loc (thr d L)))
abbrev inT6 : sProp 𝕄 := (Memref.whole main_v6_scv : Memref sig .scVector .hbm S25x8x64 .f32).view.loc (thr d L) ↦{rshare L} (X.T6 : Buf (Elt F) ((Memref.whole main_v6_scv : Memref sig .scVector .hbm S25x8x64 .f32).view.loc (thr d L)))
abbrev inT7 : sProp 𝕄 := (Memref.whole main_v7_scv : Memref sig .scVector .hbm S12500x8x64 .f32).view.loc (thr d L) ↦{rshare L} (X.T7 : Buf (Elt F) ((Memref.whole main_v7_scv : Memref sig .scVector .hbm S12500x8x64 .f32).view.loc (thr d L)))
abbrev inT8 : sProp 𝕄 := (Memref.whole main_v8_scv : Memref sig .scVector .hbm S1250x8x64 .f32).view.loc (thr d L) ↦{rshare L} (X.T8 : Buf (Elt F) ((Memref.whole main_v8_scv : Memref sig .scVector .hbm S1250x8x64 .f32).view.loc (thr d L)))
abbrev inT10 : sProp 𝕄 := (Memref.whole main_v10_scv : Memref sig .scVector .hbm S1x8x64 .f32).view.loc (thr d L) ↦{rshare L} (X.T10 : Buf (Elt F) ((Memref.whole main_v10_scv : Memref sig .scVector .hbm S1x8x64 .f32).view.loc (thr d L)))
abbrev inI0 : sProp 𝕄 := (Memref.whole main_v0_scv : Memref sig .scVector .hbm S4096 .i32).view.loc (thr d L) ↦{rshare L} (X.I0 : Buf (Elt F) ((Memref.whole main_v0_scv : Memref sig .scVector .hbm S4096 .i32).view.loc (thr d L)))
abbrev inI1 : sProp 𝕄 := (Memref.whole main_v1_scv : Memref sig .scVector .hbm S4096 .i32).view.loc (thr d L) ↦{rshare L} (X.I1 : Buf (Elt F) ((Memref.whole main_v1_scv : Memref sig .scVector .hbm S4096 .i32).view.loc (thr d L)))
abbrev inI3 : sProp 𝕄 := (Memref.whole main_v3_scv : Memref sig .scVector .hbm S4096 .i32).view.loc (thr d L) ↦{rshare L} (X.I3 : Buf (Elt F) ((Memref.whole main_v3_scv : Memref sig .scVector .hbm S4096 .i32).view.loc (thr d L)))
abbrev inI4 : sProp 𝕄 := (Memref.whole main_v4_scv : Memref sig .scVector .hbm S4096 .i32).view.loc (thr d L) ↦{rshare L} (X.I4 : Buf (Elt F) ((Memref.whole main_v4_scv : Memref sig .scVector .hbm S4096 .i32).view.loc (thr d L)))

/-- A scratch buffer whole at `f`. -/
abbrev sc0 (f : Buf (Elt F) ((thr d L).loc cc0_scratch0)) : sProp 𝕄 := (Memref.whole cc0_scratch0 : Memref sig .scVector .vmem S128 .i32).view.loc (thr d L) ↦{fullShare} f
abbrev sc1 (f : Buf (Elt F) ((thr d L).loc cc0_scratch1)) : sProp 𝕄 := (Memref.whole cc0_scratch1 : Memref sig .scVector .vmem S128 .i32).view.loc (thr d L) ↦{fullShare} f
abbrev sc2 (f : Buf (Elt F) ((thr d L).loc cc0_scratch2)) : sProp 𝕄 := (Memref.whole cc0_scratch2 : Memref sig .scVector .vmem S128 .i32).view.loc (thr d L) ↦{fullShare} f
abbrev sc3 (f : Buf (Elt F) ((thr d L).loc cc0_scratch3)) : sProp 𝕄 := (Memref.whole cc0_scratch3 : Memref sig .scVector .vmem S128 .i32).view.loc (thr d L) ↦{fullShare} f
abbrev sc4 (f : Buf (Elt F) ((thr d L).loc cc0_scratch4)) : sProp 𝕄 := (Memref.whole cc0_scratch4 : Memref sig .scVector .vmem S128x64 .f32).view.loc (thr d L) ↦{fullShare} f
abbrev sc5 (f : Buf (Elt F) ((thr d L).loc cc0_scratch5)) : sProp 𝕄 := (Memref.whole cc0_scratch5 : Memref sig .scVector .vmem S128x64 .f32).view.loc (thr d L) ↦{fullShare} f
abbrev sc6 (f : Buf (Elt F) ((thr d L).loc cc0_scratch6)) : sProp 𝕄 := (Memref.whole cc0_scratch6 : Memref sig .scVector .vmem S128x64 .f32).view.loc (thr d L) ↦{fullShare} f
abbrev sc7 (f : Buf (Elt F) ((thr d L).loc cc0_scratch7)) : sProp 𝕄 := (Memref.whole cc0_scratch7 : Memref sig .scVector .vmem S128x64 .f32).view.loc (thr d L) ↦{fullShare} f
abbrev sc8 (f : Buf (Elt F) ((thr d L).loc cc0_scratch8)) : sProp 𝕄 := (Memref.whole cc0_scratch8 : Memref sig .scVector .vmem S128x192 .f32).view.loc (thr d L) ↦{fullShare} f

/-- The task's output rows at `f`, as the task addresses them. -/
abbrev outAt (f : FVec F S4096x192 .f32) : sProp 𝕄 :=
  (outSlice L).view.loc (thr d L) ↦[(outSlice L).view.set]{fullShare} (f : Buf (Elt F) ((outSlice L).view.loc (thr d L)))

/-- The run, from named resources to named resources. -/
def BodyCore : Prop :=
  ∀ (d : Dev nD) (L : grid0.Coords) (f₀ : FVec F S4096x192 .f32)
    (O : CellTallies nD τ sig (HIx 1)) (W : Waits sig (HIx 1))
    (g0 : Buf (Elt F) ((thr d L).loc cc0_scratch0)) (g1 : Buf (Elt F) ((thr d L).loc cc0_scratch1)) (g2 : Buf (Elt F) ((thr d L).loc cc0_scratch2)) (g3 : Buf (Elt F) ((thr d L).loc cc0_scratch3)) (g4 : Buf (Elt F) ((thr d L).loc cc0_scratch4)) (g5 : Buf (Elt F) ((thr d L).loc cc0_scratch5)) (g6 : Buf (Elt F) ((thr d L).loc cc0_scratch6)) (g7 : Buf (Elt F) ((thr d L).loc cc0_scratch7)) (g8 : Buf (Elt F) ((thr d L).loc cc0_scratch8)),
    iprop(Transfers.MayWaits (thr d L) (none : HIx 1) O
        ∗ inT5 d L X ∗ inT6 d L X ∗ inT7 d L X ∗ inT8 d L X ∗ inT10 d L X ∗ inI0 d L X ∗ inI1 d L X ∗ inI3 d L X ∗ inI4 d L X
        ∗ outAt d L f₀
        ∗ sc0 d L g0 ∗ sc1 d L g1 ∗ sc2 d L g2 ∗ sc3 d L g3 ∗ sc4 d L g4 ∗ sc5 d L g5 ∗ sc6 d L g6 ∗ sc7 d L g7 ∗ sc8 d L g8
        ∗ semVal (cell d L cc0_scratch9) 0 ∗ semVal (cell d L cc0_scoped0) 0 ∗ semVal (cell d L cc0_scoped1) 0 ∗ semVal (cell d L cc0_scoped2) 0 ∗ semVal (cell d L cc0_scoped3) 0 ∗ semVal (cell d L cc0_scoped4) 0 ∗ semVal (cell d L cc0_scoped5) 0
        ∗ owes (thr d L) O W)
      ⊢ wp frame (wpE (defs₀ (F := F)) 𝒱₀ (thr d L) none) Set.univ (kernelAt (F := F) L)
          fun _ => iprop(outAt d L X.out
            ∗ (∃ f, sc0 d L f) ∗ (∃ f, sc1 d L f) ∗ (∃ f, sc2 d L f) ∗ (∃ f, sc3 d L f) ∗ (∃ f, sc4 d L f) ∗ (∃ f, sc5 d L f) ∗ (∃ f, sc6 d L f) ∗ (∃ f, sc7 d L f) ∗ (∃ f, sc8 d L f)
            ∗ semVal (cell d L cc0_scratch9) 0 ∗ semVal (cell d L cc0_scoped0) 0 ∗ semVal (cell d L cc0_scoped1) 0 ∗ semVal (cell d L cc0_scoped2) 0 ∗ semVal (cell d L cc0_scoped3) 0 ∗ semVal (cell d L cc0_scoped4) 0 ∗ semVal (cell d L cc0_scoped5) 0
            ∗ ∃ W', ⌜∀ p ∈ W', p ∈ W ∨ p.2 = none⌝ ∗ owes (thr d L) O W')

end Cert.Kernel.TileCore

end
-- ==== Proof.BTileWrap.lean ====
/-
  One task's run over the vector subcore's pools, from its run over named resources: the pools are split into the
  nine scratch buffers and seven semaphore cells the task uses and the rest, the task is run on the named ones, and the
  rest is framed around the run and joined back.
-/
import proofs.«206817_g64347200028782_cont_9to1_m_612_22_alg».proof.Proof.BTileCoreStmt

noncomputable section

namespace Cert.Kernel.TileWrap

open Cert.Kernel Cert.Kernel.Gen Cert.Kernel.Tile Cert.Kernel.TileRes Cert.Kernel.TileCore

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (X : Tabs F)

/-- The task run over the subcore's pools, from its run over the named resources. -/
theorem tile_body (X : Tabs F) (hcore : BodyCore X) : TileBody X := by
  intro d L f₀ O W hO
  rw [(K (F := F)).scopedBufs_V facts d (cV L) (jV L), SparseCore.Cfg.scopedSems0_V (Val := Elt F) d (cV L) (jV L),
    ownSems0_split, ownBufs_split]
  unfold tileIn tileOut
  iintro ⟨#Hlv, -, ⟨H5, H6, H7, H8, H10, H0, H1, H3, H4, Ho⟩,
    ⟨⟨%g0, B0⟩, ⟨%g1, B1⟩, ⟨%g2, B2⟩, ⟨%g3, B3⟩, ⟨%g4, B4⟩, ⟨%g5, B5⟩, ⟨%g6, B6⟩, ⟨%g7, B7⟩, ⟨%g8, B8⟩, Hbufs⟩, ⟨C0, C1, C2, C3, C4, C5, C6, Hsems⟩, HO⟩
  ihave Hmw := (show levAts (K (F := F)).L (K (F := F)).lev ⊢ Transfers.MayWaits (thr d L) (none : HIx 1) O from
    (K (F := F)).mayWaits_none (thr := thr d L) hO) $$ Hlv
  iapply (wp_wand_r Idealize.ShloMosaic.frame (wpE (defs₀ (F := F)) 𝒱₀ (thr d L) none) Set.univ)
  isplitl [H5 H6 H7 H8 H10 H0 H1 H3 H4 Ho B0 B1 B2 B3 B4 B5 B6 B7 B8 C0 C1 C2 C3 C4 C5 C6 HO]
  · iapply (hcore d L f₀ O W g0 g1 g2 g3 g4 g5 g6 g7 g8)
    isplitr; · iexact Hmw
    isplitl [H5]; · iexact H5
    isplitl [H6]; · iexact H6
    isplitl [H7]; · iexact H7
    isplitl [H8]; · iexact H8
    isplitl [H10]; · iexact H10
    isplitl [H0]; · iexact H0
    isplitl [H1]; · iexact H1
    isplitl [H3]; · iexact H3
    isplitl [H4]; · iexact H4
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [C0]; · iexact C0
    isplitl [C1]; · iexact C1
    isplitl [C2]; · iexact C2
    isplitl [C3]; · iexact C3
    isplitl [C4]; · iexact C4
    isplitl [C5]; · iexact C5
    isplitl [C6]; · iexact C6
    iexact HO
  iintro %_ ⟨Ho, ⟨%f0, B0⟩, ⟨%f1, B1⟩, ⟨%f2, B2⟩, ⟨%f3, B3⟩, ⟨%f4, B4⟩, ⟨%f5, B5⟩, ⟨%f6, B6⟩, ⟨%f7, B7⟩, ⟨%f8, B8⟩, C0, C1, C2, C3, C4, C5, C6, ⟨%W', HO⟩⟩
  isplitl [Ho]; · iexact Ho
  isplitl [B0 B1 B2 B3 B4 B5 B6 B7 B8 Hbufs]
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexists _; iexact B7
    isplitl [B8]; · iexists _; iexact B8
    iexact Hbufs
  isplitl [C0 C1 C2 C3 C4 C5 C6 Hsems]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact Hsems
  iexists W'; iexact HO

end Cert.Kernel.TileWrap

end
-- ==== Proof.BTileVals.lean ====
/-
  The contents of a task's scratch buffers at the stages of its run, as whole-buffer functions of the nine input arrays.

  Worker `L` handles output rows `base L … base L + 127`, `base L = 128 (2 s + c)`. After the gather, row `e` of the four
  row buffers holds the table rows named by the index words at position `base L + e`; on the last worker the last row
  of the tails buffer is then overwritten by sublane 1 of the special tile; the staging buffer is filled row by row with
  the three 64-wide thirds of the output.
-/
import proofs.«206817_g64347200028782_cont_9to1_m_612_22_alg».proof.Proof.BTileCoreStmt

noncomputable section

namespace Cert.Kernel.TileVals

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Kernel.TileRes Cert.Kernel.TileCore Cert.KSpec Cert.Spec
open Idealize.ShloMosaic.ValueIdx

variable [FloatOps F] (L : grid0.Coords) (X : Tabs F)

/-- The worker's number, `2 s + c`, and its first output row. -/
def wid : ℕ := 2 * (L 1).val + (L 0).val
def base : ℕ := 128 * wid L
theorem wid_lt : wid L < 32 := by
  have h0 : (L 0).val < 2 := (L 0).isLt
  have h1 : (L 1).val < 16 := (L 1).isLt
  unfold wid; omega
theorem base_add_lt (e : Fin 128) : base L + e.val < 4096 := by
  have := wid_lt L; have := e.isLt; unfold base; omega

/-- Output row of the worker's entry `e`. -/
def rowOfEntry (e : Fin 128) : Fin 4096 := ⟨base L + e.val, base_add_lt L e⟩

/-- The row buffers after the gather: heads, relations, tails, names. -/
def G4 : FVec F S128x64 .f32 := fun idx => tileRow 12500 (by decide) X.T5 (X.I0 (ix1 (rowOfEntry L (idx 0)))) (idx 1)
def G5 : FVec F S128x64 .f32 := fun idx => tileRow 25 (by decide) X.T6 (X.I1 (ix1 (rowOfEntry L (idx 0)))) (idx 1)
def G6 : FVec F S128x64 .f32 := fun idx => tileRow 12500 (by decide) X.T7 (X.I3 (ix1 (rowOfEntry L (idx 0)))) (idx 1)
def G7 : FVec F S128x64 .f32 := fun idx => tileRow 1250 (by decide) X.T8 (X.I4 (ix1 (rowOfEntry L (idx 0)))) (idx 1)

/-- The tails buffer as the rows are combined: on the last worker its last row is sublane 1 of the special tile. -/
def G6' : FVec F S128x64 .f32 := fun idx =>
  if wid L = 31 ∧ (idx 0).val = 127 then X.T10 (ix3 (0 : Fin 1) (1 : Fin 8) (idx 1)) else G6 L X idx

/-- The staging buffer before row `k` is combined: rows below `k` hold the kernel's result, the others what they held. -/
def R8 (g8 : FVec F S128x192 .f32) (k : ℕ) : FVec F S128x192 .f32 := fun idx =>
  if (idx 0).val < k then Kat X.T5 X.T6 X.T7 X.T8 X.T10 X.I0 X.I1 X.I3 X.I4 (rowOfEntry L (idx 0)) (idx 1) else g8 idx

end Cert.Kernel.TileVals

end
-- ==== Proof.BTileGather0.lean ====
/-
  The gather as a batch of 512 row copies on one DMA semaphore: the vocabulary.

  Copy number `t` (in issue order) lands entry `t / 4`'s row of table `t mod 4` (heads, relations, tails, names) in row
  `t / 4` of that table's row buffer. What a copy delivers when the batch is drained is stated by its number: the
  destination row holding the row buffer's after-gather function there.
-/
import proofs.«206817_g64347200028782_cont_9to1_m_612_22_alg».proof.Proof.BTileVals
import Idealize.ShloMosaic.Lib.Ring

noncomputable section

namespace Cert.Kernel.TileGather

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Kernel.TileRes Cert.Kernel.TileCore Cert.Kernel.TileVals Cert.KSpec Cert.Spec
open Idealize.ShloMosaic.ValueIdx

variable [FloatOps F] (d : Dev nD) (L : grid0.Coords) (X : Tabs F)

/-- The transfers' counters inside the certificate's resource algebra. -/
abbrev EC : UEmb Counters (MT nD τ sig (HIx 1) (Elt F) ℕ UU ℕ) := countersEmb (U := UU)

/-- Row `e` of a 128 × 64 row buffer, as a set of its indices. -/
theorem row_inb (e : Fin 128) : ∀ a, (![e.val, 0] : Fin 2 → Nat) a + S1x64.size a ≤ S128x64.size a := by
  have := e.isLt; intro a; fin_cases a
  · show e.val + 1 ≤ 128; omega
  · show 0 + 64 ≤ 64; omega
abbrev rowRect (e : Fin 128) : Rect S128x64 := Rect.unit (s := S128x64) ![e.val, 0] S1x64.size (row_inb e)
def rowSet (e : Fin 128) : Finset S128x64.Idx := (rowRect e).set

/-- The four row buffers' locations and after-gather functions, by table number (0 heads, 1 relations, 2 tails, 3 names). -/
def bufLoc : Fin 4 → Loc nD τ sig
  | 0 => (thr d L).loc cc0_scratch4
  | 1 => (thr d L).loc cc0_scratch5
  | 2 => (thr d L).loc cc0_scratch6
  | 3 => (thr d L).loc cc0_scratch7

/-- Row `e` of a row buffer held at `f`. -/
abbrev rowAt4 (e : Fin 128) (f : FVec F S128x64 .f32) : sProp 𝕄 := (thr d L).loc cc0_scratch4 ↦[rowSet e]{fullShare} (f : Buf (Elt F) ((thr d L).loc cc0_scratch4))
abbrev rowAt5 (e : Fin 128) (f : FVec F S128x64 .f32) : sProp 𝕄 := (thr d L).loc cc0_scratch5 ↦[rowSet e]{fullShare} (f : Buf (Elt F) ((thr d L).loc cc0_scratch5))
abbrev rowAt6 (e : Fin 128) (f : FVec F S128x64 .f32) : sProp 𝕄 := (thr d L).loc cc0_scratch6 ↦[rowSet e]{fullShare} (f : Buf (Elt F) ((thr d L).loc cc0_scratch6))
abbrev rowAt7 (e : Fin 128) (f : FVec F S128x64 .f32) : sProp 𝕄 := (thr d L).loc cc0_scratch7 ↦[rowSet e]{fullShare} (f : Buf (Elt F) ((thr d L).loc cc0_scratch7))

/-- What copy number `t` delivers. -/
def deliv (t : ℕ) : sProp 𝕄 :=
  if h : t / 4 < 128 then
    (if t % 4 = 0 then rowAt4 d L ⟨t / 4, h⟩ (G4 L X)
     else if t % 4 = 1 then rowAt5 d L ⟨t / 4, h⟩ (G5 L X)
     else if t % 4 = 2 then rowAt6 d L ⟨t / 4, h⟩ (G6 L X)
     else rowAt7 d L ⟨t / 4, h⟩ (G7 L X))
  else iprop(emp)

def D4 : Fin 512 → sProp 𝕄 := fun t => deliv d L X t.val

instance deliv_storable (t : ℕ) : BI.Storable (upEmb : UEmb _ 𝕄) (deliv d L X t) := by
  unfold deliv; split
  · split; · infer_instance
    split; · infer_instance
    split <;> infer_instance
  · infer_instance
instance D4_storable (t : Fin 512) : BI.Storable (upEmb : UEmb _ 𝕄) (D4 d L X t) := by unfold D4; infer_instance

end Cert.Kernel.TileGather

end
-- ==== Proof.BTileGatherLib.lean ====
/-
  The gather's pure facts: a row buffer as its 128 rows, the 512 deliveries joined back into the four row buffers, the
  index scratch after its copy, and the value one row copy lands.
-/
import proofs.«206817_g64347200028782_cont_9to1_m_612_22_alg».proof.Proof.BTileGather0
import proofs.«206817_g64347200028782_cont_9to1_m_612_22_alg».proof.Proof.Words

noncomputable section

namespace Cert.Kernel.TileGather

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Kernel.TileRes Cert.Kernel.TileCore Cert.Kernel.TileVals Cert.KSpec Cert.Spec
open Idealize.ShloMosaic.ValueIdx

variable [FloatOps F] (d : Dev nD) (L : grid0.Coords) (X : Tabs F)

/-! ## The index scratch after its copy -/

/-- Where worker L's 128-word slice of an index list starts: its first output row. -/
theorem off1_eq : k0_off1 L = ![base L] := by
  rw [Gen.k0_off1_eq]; unfold base wid
  congr 1; omega

/-- Entry e of index scratch 0 after the copy of worker L's slice of its index list: the list's word at the
    worker's output row e. -/
theorem idx_copy0 (I : IVec S4096 32) (g0 : IVec S128 32) (e : Fin 128) :
    (View.write (Elt F) (Memref.whole cc0_scratch0 : Memref sig .scVector .vmem S128 .i32).view g0
      (ReadAs.same.apply (View.read (Elt F) ((Memref.whole main_v0_scv : Memref sig .scVector .hbm S4096 .i32).slice
        (Rect.unit (s := S4096) (k0_off1 L) S128.size (k0_off1_inb L)) (fun _ => rfl)).view I)) Finset.univ : IVec S128 32) (ix1 e)
      = I (ix1 (rowOfEntry L e)) := by
  change (View.whole (cc0_scratch0 : Ref sig .scVector)).write (Elt F) g0 _ Finset.univ (ix1 e) = _
  rw [View.write_whole_univ, ReadAs.apply_same, View.read_apply]
  have he : ((Memref.whole main_v0_scv : Memref sig .scVector .hbm S4096 .i32).slice
      (Rect.unit (s := S4096) (k0_off1 L) S128.size (k0_off1_inb L)) (fun _ => rfl)).view.emb (ix1 e) = ix1 (rowOfEntry L e) := by
    funext a; apply Fin.ext
    match a with
    | ⟨0, _⟩ =>
      show (k0_off1 L) 0 + 1 * e.val = base L + e.val
      rw [off1_eq]; show base L + 1 * e.val = _; omega
  rw [he]; rfl

/-- Entry e of index scratch 1 after the copy of worker L's slice of its index list: the list's word at the
    worker's output row e. -/
theorem idx_copy1 (I : IVec S4096 32) (g0 : IVec S128 32) (e : Fin 128) :
    (View.write (Elt F) (Memref.whole cc0_scratch1 : Memref sig .scVector .vmem S128 .i32).view g0
      (ReadAs.same.apply (View.read (Elt F) ((Memref.whole main_v1_scv : Memref sig .scVector .hbm S4096 .i32).slice
        (Rect.unit (s := S4096) (k0_off1 L) S128.size (k0_off1_inb L)) (fun _ => rfl)).view I)) Finset.univ : IVec S128 32) (ix1 e)
      = I (ix1 (rowOfEntry L e)) := by
  change (View.whole (cc0_scratch1 : Ref sig .scVector)).write (Elt F) g0 _ Finset.univ (ix1 e) = _
  rw [View.write_whole_univ, ReadAs.apply_same, View.read_apply]
  have he : ((Memref.whole main_v1_scv : Memref sig .scVector .hbm S4096 .i32).slice
      (Rect.unit (s := S4096) (k0_off1 L) S128.size (k0_off1_inb L)) (fun _ => rfl)).view.emb (ix1 e) = ix1 (rowOfEntry L e) := by
    funext a; apply Fin.ext
    match a with
    | ⟨0, _⟩ =>
      show (k0_off1 L) 0 + 1 * e.val = base L + e.val
      rw [off1_eq]; show base L + 1 * e.val = _; omega
  rw [he]; rfl

/-- Entry e of index scratch 2 after the copy of worker L's slice of its index list: the list's word at the
    worker's output row e. -/
theorem idx_copy2 (I : IVec S4096 32) (g0 : IVec S128 32) (e : Fin 128) :
    (View.write (Elt F) (Memref.whole cc0_scratch2 : Memref sig .scVector .vmem S128 .i32).view g0
      (ReadAs.same.apply (View.read (Elt F) ((Memref.whole main_v3_scv : Memref sig .scVector .hbm S4096 .i32).slice
        (Rect.unit (s := S4096) (k0_off1 L) S128.size (k0_off1_inb L)) (fun _ => rfl)).view I)) Finset.univ : IVec S128 32) (ix1 e)
      = I (ix1 (rowOfEntry L e)) := by
  change (View.whole (cc0_scratch2 : Ref sig .scVector)).write (Elt F) g0 _ Finset.univ (ix1 e) = _
  rw [View.write_whole_univ, ReadAs.apply_same, View.read_apply]
  have he : ((Memref.whole main_v3_scv : Memref sig .scVector .hbm S4096 .i32).slice
      (Rect.unit (s := S4096) (k0_off1 L) S128.size (k0_off1_inb L)) (fun _ => rfl)).view.emb (ix1 e) = ix1 (rowOfEntry L e) := by
    funext a; apply Fin.ext
    match a with
    | ⟨0, _⟩ =>
      show (k0_off1 L) 0 + 1 * e.val = base L + e.val
      rw [off1_eq]; show base L + 1 * e.val = _; omega
  rw [he]; rfl

/-- Entry e of index scratch 3 after the copy of worker L's slice of its index list: the list's word at the
    worker's output row e. -/
theorem idx_copy3 (I : IVec S4096 32) (g0 : IVec S128 32) (e : Fin 128) :
    (View.write (Elt F) (Memref.whole cc0_scratch3 : Memref sig .scVector .vmem S128 .i32).view g0
      (ReadAs.same.apply (View.read (Elt F) ((Memref.whole main_v4_scv : Memref sig .scVector .hbm S4096 .i32).slice
        (Rect.unit (s := S4096) (k0_off1 L) S128.size (k0_off1_inb L)) (fun _ => rfl)).view I)) Finset.univ : IVec S128 32) (ix1 e)
      = I (ix1 (rowOfEntry L e)) := by
  change (View.whole (cc0_scratch3 : Ref sig .scVector)).write (Elt F) g0 _ Finset.univ (ix1 e) = _
  rw [View.write_whole_univ, ReadAs.apply_same, View.read_apply]
  have he : ((Memref.whole main_v4_scv : Memref sig .scVector .hbm S4096 .i32).slice
      (Rect.unit (s := S4096) (k0_off1 L) S128.size (k0_off1_inb L)) (fun _ => rfl)).view.emb (ix1 e) = ix1 (rowOfEntry L e) := by
    funext a; apply Fin.ext
    match a with
    | ⟨0, _⟩ =>
      show (k0_off1 L) 0 + 1 * e.val = base L + e.val
      rw [off1_eq]; show base L + 1 * e.val = _; omega
  rw [he]; rfl

/-! ## One row copy -/

/-- A 64-entry vector regrouped as one row of 64: entry k sits at row 0, column k. -/
theorem reshape_1x64 (h : (⟨1, ![64]⟩ : Shape).numel = (⟨2, ![1, 64]⟩ : Shape).numel) (k : Fin 64) :
    Shape.reshapeEquiv h (ix1 k) = ix2 (0 : Fin 1) k := by
  apply Shape.reshapeEquiv_eq_of_rowMajor
  rw [Shape.rowMajor_val_two, Shape.rowMajor_val_one]
  show 0 * 64 + k.val = k.val
  omega

/-- A 64-entry vector regrouped as one row of one tile: entry k sits at tile 0, row 0, column k. -/
theorem reshape_1x1x64 (h : (⟨1, ![64]⟩ : Shape).numel = (⟨3, ![1, 1, 64]⟩ : Shape).numel) (k : Fin 64) :
    Shape.reshapeEquiv h (ix1 k) = ix3 (0 : Fin 1) (0 : Fin 1) k := by
  apply Shape.reshapeEquiv_eq_of_rowMajor
  rw [Shape.rowMajor_val_three, Shape.rowMajor_val_one]
  show (0 * 1 + 0) * 64 + k.val = k.val
  omega

/-- The bounds a row copy's source offsets carry: the tile number below the number of tiles, the sublane below 8. -/
theorem off3_bounds {n : ℕ} (o3 : Fin 3 → ℕ) (v w : BitVec 32) (ho : o3 = ![v.toNat, w.toNat, 0])
    (inb3 : ∀ a, o3 a + S1x1x64.size a ≤ (⟨3, ![n, 8, 64]⟩ : Shape).size a) : v.toNat < n ∧ w.toNat < 8 := by
  subst ho
  have h0 := inb3 0; have h1 := inb3 1
  change v.toNat + 1 ≤ n at h0; change w.toNat + 1 ≤ 8 at h1
  omega

/-- A table row named by its tile and sublane words, when those are the quotient and remainder by eight of an index
    word below the number of rows: the table's row at that word. -/
theorem tileRow_of_words {n : ℕ} (hn : 0 < n) (T : FVec F ⟨3, ![n, 8, 64]⟩ .f32) (x v w : BitVec 32)
    (hx : x.toNat < 8 * n) (hx31 : x.toNat < 2 ^ 31) (hv : v = IntOp.shrsi .vector x 3#32) (hw : w = IntOp.andi x 7#32)
    (hvn : v.toNat < n) (hw8 : w.toNat < 8) (k : Fin 64) :
    T (ix3 ⟨v.toNat, hvn⟩ ⟨w.toNat, hw8⟩ k) = tileRow n hn T x k := by
  subst hv hw
  unfold tileRow
  have h1 := Cert.Words.shrsi3_toNat x hx31
  have h2 := Cert.Words.andi7_toNat x
  have h3 : x.toNat / 8 < n := by omega
  congr 1
  refine congrArg₂ (fun a b => ix3 a b k) (Fin.ext ?_) (Fin.ext ?_)
  · show (IntOp.shrsi .vector x 3#32).toNat = x.toNat / 8 % n
    rw [h1, Nat.mod_eq_of_lt h3]
  · show (IntOp.andi x 7#32).toNat = x.toNat % 8
    exact h2

section Row4
variable (o3 : Fin 3 → ℕ) (inb3 : ∀ a, o3 a + S1x1x64.size a ≤ S12500x8x64.size a) (v w : BitVec 32)
  (e : Fin 128) (off : Fin 2 → ℕ) (inb : ∀ a, off a + S1x64.size a ≤ S128x64.size a)

/-- The source of a heads-row copy: one sublane of one tile of the table, as a 64-entry vector. -/
abbrev src4 : Memref sig .scVector .hbm S64 .f32 :=
  ((Memref.whole main_v5_scv : Memref sig .scVector .hbm S12500x8x64 .f32).slice
    (Rect.unit (s := S12500x8x64) o3 S1x1x64.size inb3) (fun _ => rfl)).squeeze S64 squeezes_S1x1x64_S64
/-- Its destination: one row of the row buffer, as a 64-entry vector. -/
abbrev dst4 : Memref sig .scVector .vmem S64 .f32 :=
  ((Memref.whole cc0_scratch4 : Memref sig .scVector .vmem S128x64 .f32).slice
    (Rect.unit (s := S128x64) off S1x64.size inb) (fun _ => rfl)).squeeze S64 squeezes_S1x64_S64

/-- The destination is row e of the row buffer. -/
theorem dst4_set (heq : off = ![e.val, 0]) : (dst4 off inb).view.set = rowSet e := by
  subst heq
  show (((View.whole (cc0_scratch4 : Ref sig .scVector)).slice _).reshape S64 _).set = _
  rw [View.set_reshape, View.set_slice_whole]
  rfl

theorem dst4_emb (heq : off = ![e.val, 0]) (k : Fin 64) : (dst4 off inb).view.emb (ix1 k) = ix2 e k := by
  subst heq
  show (Rect.unit (s := S128x64) ![e.val, 0] S1x64.size inb).emb (Shape.reshapeEquiv _ (ix1 k)) = _
  refine (congrArg (Rect.unit (s := S128x64) ![e.val, 0] S1x64.size inb).emb (reshape_1x64 _ k)).trans ?_
  funext a; apply Fin.ext
  match a with
  | ⟨0, _⟩ => show e.val + 1 * 0 = e.val; omega
  | ⟨1, _⟩ => show 0 + 1 * k.val = k.val; omega

theorem src4_emb (ho : o3 = ![v.toNat, w.toNat, 0]) (hv : v.toNat < 12500) (hw : w.toNat < 8) (k : Fin 64) :
    (src4 o3 inb3).view.emb (ix1 k) = ix3 ⟨v.toNat, hv⟩ ⟨w.toNat, hw⟩ k := by
  subst ho
  show (Rect.unit (s := S12500x8x64) ![v.toNat, w.toNat, 0] S1x1x64.size inb3).emb (Shape.reshapeEquiv _ (ix1 k)) = _
  refine (congrArg (Rect.unit (s := S12500x8x64) ![v.toNat, w.toNat, 0] S1x1x64.size inb3).emb (reshape_1x1x64 _ k)).trans ?_
  funext a; apply Fin.ext
  match a with
  | ⟨0, _⟩ => show v.toNat + 1 * 0 = v.toNat; omega
  | ⟨1, _⟩ => show w.toNat + 1 * 0 = w.toNat; omega
  | ⟨2, _⟩ => show 0 + 1 * k.val = k.val; omega

/-- What a heads-row copy lands in row e: the table's row at tile v, sublane w. -/
theorem row_write4 (ho : o3 = ![v.toNat, w.toNat, 0]) (hv : v.toNat < 12500) (hw : w.toNat < 8) (heq : off = ![e.val, 0])
    (T : FVec F S12500x8x64 .f32) (g : FVec F S128x64 .f32) (idx : S128x64.Idx) (hidx : idx ∈ rowSet e) :
    (dst4 off inb).view.write (Elt F) g (ReadAs.same.apply ((src4 o3 inb3).view.read (Elt F) T)) Finset.univ idx
      = T (ix3 ⟨v.toNat, hv⟩ ⟨w.toNat, hw⟩ (idx 1)) := by
  rw [← dst4_set e off inb heq] at hidx
  obtain ⟨x, -, rfl⟩ := Finset.mem_map.mp hidx
  obtain ⟨k, rfl⟩ : ∃ k : Fin 64, x = ix1 k := ⟨x 0, eq_ix1 x⟩
  rw [View.write_emb_of_mem _ _ (Finset.mem_univ _), ReadAs.apply_same, View.read_apply, src4_emb o3 inb3 v w ho hv hw,
    dst4_emb e off inb heq]
  rfl

/-- The same with the tile and sublane words computed from an index word below the number of rows: the row the
    word names. -/
theorem row_write4_word (x : BitVec 32) (hx : x.toNat < 100000) (hvx : v = IntOp.shrsi .vector x 3#32) (hwx : w = IntOp.andi x 7#32)
    (ho : o3 = ![v.toNat, w.toNat, 0]) (heq : off = ![e.val, 0])
    (T : FVec F S12500x8x64 .f32) (g : FVec F S128x64 .f32) (idx : S128x64.Idx) (hidx : idx ∈ rowSet e) :
    (dst4 off inb).view.write (Elt F) g (ReadAs.same.apply ((src4 o3 inb3).view.read (Elt F) T)) Finset.univ idx
      = tileRow 12500 (by decide) T x (idx 1) := by
  obtain ⟨hv, hw⟩ := off3_bounds (n := 12500) o3 v w ho inb3
  rw [row_write4 o3 inb3 v w e off inb ho hv hw heq T g idx hidx]
  exact tileRow_of_words (by decide) T x v w (by omega) (by omega) hvx hwx hv hw (idx 1)

end Row4

section Row5
variable (o3 : Fin 3 → ℕ) (inb3 : ∀ a, o3 a + S1x1x64.size a ≤ S25x8x64.size a) (v w : BitVec 32)
  (e : Fin 128) (off : Fin 2 → ℕ) (inb : ∀ a, off a + S1x64.size a ≤ S128x64.size a)

/-- The source of a relations-row copy: one sublane of one tile of the table, as a 64-entry vector. -/
abbrev src5 : Memref sig .scVector .hbm S64 .f32 :=
  ((Memref.whole main_v6_scv : Memref sig .scVector .hbm S25x8x64 .f32).slice
    (Rect.unit (s := S25x8x64) o3 S1x1x64.size inb3) (fun _ => rfl)).squeeze S64 squeezes_S1x1x64_S64
/-- Its destination: one row of the row buffer, as a 64-entry vector. -/
abbrev dst5 : Memref sig .scVector .vmem S64 .f32 :=
  ((Memref.whole cc0_scratch5 : Memref sig .scVector .vmem S128x64 .f32).slice
    (Rect.unit (s := S128x64) off S1x64.size inb) (fun _ => rfl)).squeeze S64 squeezes_S1x64_S64

/-- The destination is row e of the row buffer. -/
theorem dst5_set (heq : off = ![e.val, 0]) : (dst5 off inb).view.set = rowSet e := by
  subst heq
  show (((View.whole (cc0_scratch5 : Ref sig .scVector)).slice _).reshape S64 _).set = _
  rw [View.set_reshape, View.set_slice_whole]
  rfl

theorem dst5_emb (heq : off = ![e.val, 0]) (k : Fin 64) : (dst5 off inb).view.emb (ix1 k) = ix2 e k := by
  subst heq
  show (Rect.unit (s := S128x64) ![e.val, 0] S1x64.size inb).emb (Shape.reshapeEquiv _ (ix1 k)) = _
  refine (congrArg (Rect.unit (s := S128x64) ![e.val, 0] S1x64.size inb).emb (reshape_1x64 _ k)).trans ?_
  funext a; apply Fin.ext
  match a with
  | ⟨0, _⟩ => show e.val + 1 * 0 = e.val; omega
  | ⟨1, _⟩ => show 0 + 1 * k.val = k.val; omega

theorem src5_emb (ho : o3 = ![v.toNat, w.toNat, 0]) (hv : v.toNat < 25) (hw : w.toNat < 8) (k : Fin 64) :
    (src5 o3 inb3).view.emb (ix1 k) = ix3 ⟨v.toNat, hv⟩ ⟨w.toNat, hw⟩ k := by
  subst ho
  show (Rect.unit (s := S25x8x64) ![v.toNat, w.toNat, 0] S1x1x64.size inb3).emb (Shape.reshapeEquiv _ (ix1 k)) = _
  refine (congrArg (Rect.unit (s := S25x8x64) ![v.toNat, w.toNat, 0] S1x1x64.size inb3).emb (reshape_1x1x64 _ k)).trans ?_
  funext a; apply Fin.ext
  match a with
  | ⟨0, _⟩ => show v.toNat + 1 * 0 = v.toNat; omega
  | ⟨1, _⟩ => show w.toNat + 1 * 0 = w.toNat; omega
  | ⟨2, _⟩ => show 0 + 1 * k.val = k.val; omega

/-- What a relations-row copy lands in row e: the table's row at tile v, sublane w. -/
theorem row_write5 (ho : o3 = ![v.toNat, w.toNat, 0]) (hv : v.toNat < 25) (hw : w.toNat < 8) (heq : off = ![e.val, 0])
    (T : FVec F S25x8x64 .f32) (g : FVec F S128x64 .f32) (idx : S128x64.Idx) (hidx : idx ∈ rowSet e) :
    (dst5 off inb).view.write (Elt F) g (ReadAs.same.apply ((src5 o3 inb3).view.read (Elt F) T)) Finset.univ idx
      = T (ix3 ⟨v.toNat, hv⟩ ⟨w.toNat, hw⟩ (idx 1)) := by
  rw [← dst5_set e off inb heq] at hidx
  obtain ⟨x, -, rfl⟩ := Finset.mem_map.mp hidx
  obtain ⟨k, rfl⟩ : ∃ k : Fin 64, x = ix1 k := ⟨x 0, eq_ix1 x⟩
  rw [View.write_emb_of_mem _ _ (Finset.mem_univ _), ReadAs.apply_same, View.read_apply, src5_emb o3 inb3 v w ho hv hw,
    dst5_emb e off inb heq]
  rfl

/-- The same with the tile and sublane words computed from an index word below the number of rows: the row the
    word names. -/
theorem row_write5_word (x : BitVec 32) (hx : x.toNat < 200) (hvx : v = IntOp.shrsi .vector x 3#32) (hwx : w = IntOp.andi x 7#32)
    (ho : o3 = ![v.toNat, w.toNat, 0]) (heq : off = ![e.val, 0])
    (T : FVec F S25x8x64 .f32) (g : FVec F S128x64 .f32) (idx : S128x64.Idx) (hidx : idx ∈ rowSet e) :
    (dst5 off inb).view.write (Elt F) g (ReadAs.same.apply ((src5 o3 inb3).view.read (Elt F) T)) Finset.univ idx
      = tileRow 25 (by decide) T x (idx 1) := by
  obtain ⟨hv, hw⟩ := off3_bounds (n := 25) o3 v w ho inb3
  rw [row_write5 o3 inb3 v w e off inb ho hv hw heq T g idx hidx]
  exact tileRow_of_words (by decide) T x v w (by omega) (by omega) hvx hwx hv hw (idx 1)

end Row5

section Row6
variable (o3 : Fin 3 → ℕ) (inb3 : ∀ a, o3 a + S1x1x64.size a ≤ S12500x8x64.size a) (v w : BitVec 32)
  (e : Fin 128) (off : Fin 2 → ℕ) (inb : ∀ a, off a + S1x64.size a ≤ S128x64.size a)

/-- The source of a tails-row copy: one sublane of one tile of the table, as a 64-entry vector. -/
abbrev src6 : Memref sig .scVector .hbm S64 .f32 :=
  ((Memref.whole main_v7_scv : Memref sig .scVector .hbm S12500x8x64 .f32).slice
    (Rect.unit (s := S12500x8x64) o3 S1x1x64.size inb3) (fun _ => rfl)).squeeze S64 squeezes_S1x1x64_S64
/-- Its destination: one row of the row buffer, as a 64-entry vector. -/
abbrev dst6 : Memref sig .scVector .vmem S64 .f32 :=
  ((Memref.whole cc0_scratch6 : Memref sig .scVector .vmem S128x64 .f32).slice
    (Rect.unit (s := S128x64) off S1x64.size inb) (fun _ => rfl)).squeeze S64 squeezes_S1x64_S64

/-- The destination is row e of the row buffer. -/
theorem dst6_set (heq : off = ![e.val, 0]) : (dst6 off inb).view.set = rowSet e := by
  subst heq
  show (((View.whole (cc0_scratch6 : Ref sig .scVector)).slice _).reshape S64 _).set = _
  rw [View.set_reshape, View.set_slice_whole]
  rfl

theorem dst6_emb (heq : off = ![e.val, 0]) (k : Fin 64) : (dst6 off inb).view.emb (ix1 k) = ix2 e k := by
  subst heq
  show (Rect.unit (s := S128x64) ![e.val, 0] S1x64.size inb).emb (Shape.reshapeEquiv _ (ix1 k)) = _
  refine (congrArg (Rect.unit (s := S128x64) ![e.val, 0] S1x64.size inb).emb (reshape_1x64 _ k)).trans ?_
  funext a; apply Fin.ext
  match a with
  | ⟨0, _⟩ => show e.val + 1 * 0 = e.val; omega
  | ⟨1, _⟩ => show 0 + 1 * k.val = k.val; omega

theorem src6_emb (ho : o3 = ![v.toNat, w.toNat, 0]) (hv : v.toNat < 12500) (hw : w.toNat < 8) (k : Fin 64) :
    (src6 o3 inb3).view.emb (ix1 k) = ix3 ⟨v.toNat, hv⟩ ⟨w.toNat, hw⟩ k := by
  subst ho
  show (Rect.unit (s := S12500x8x64) ![v.toNat, w.toNat, 0] S1x1x64.size inb3).emb (Shape.reshapeEquiv _ (ix1 k)) = _
  refine (congrArg (Rect.unit (s := S12500x8x64) ![v.toNat, w.toNat, 0] S1x1x64.size inb3).emb (reshape_1x1x64 _ k)).trans ?_
  funext a; apply Fin.ext
  match a with
  | ⟨0, _⟩ => show v.toNat + 1 * 0 = v.toNat; omega
  | ⟨1, _⟩ => show w.toNat + 1 * 0 = w.toNat; omega
  | ⟨2, _⟩ => show 0 + 1 * k.val = k.val; omega

/-- What a tails-row copy lands in row e: the table's row at tile v, sublane w. -/
theorem row_write6 (ho : o3 = ![v.toNat, w.toNat, 0]) (hv : v.toNat < 12500) (hw : w.toNat < 8) (heq : off = ![e.val, 0])
    (T : FVec F S12500x8x64 .f32) (g : FVec F S128x64 .f32) (idx : S128x64.Idx) (hidx : idx ∈ rowSet e) :
    (dst6 off inb).view.write (Elt F) g (ReadAs.same.apply ((src6 o3 inb3).view.read (Elt F) T)) Finset.univ idx
      = T (ix3 ⟨v.toNat, hv⟩ ⟨w.toNat, hw⟩ (idx 1)) := by
  rw [← dst6_set e off inb heq] at hidx
  obtain ⟨x, -, rfl⟩ := Finset.mem_map.mp hidx
  obtain ⟨k, rfl⟩ : ∃ k : Fin 64, x = ix1 k := ⟨x 0, eq_ix1 x⟩
  rw [View.write_emb_of_mem _ _ (Finset.mem_univ _), ReadAs.apply_same, View.read_apply, src6_emb o3 inb3 v w ho hv hw,
    dst6_emb e off inb heq]
  rfl

/-- The same with the tile and sublane words computed from an index word below the number of rows: the row the
    word names. -/
theorem row_write6_word (x : BitVec 32) (hx : x.toNat < 100000) (hvx : v = IntOp.shrsi .vector x 3#32) (hwx : w = IntOp.andi x 7#32)
    (ho : o3 = ![v.toNat, w.toNat, 0]) (heq : off = ![e.val, 0])
    (T : FVec F S12500x8x64 .f32) (g : FVec F S128x64 .f32) (idx : S128x64.Idx) (hidx : idx ∈ rowSet e) :
    (dst6 off inb).view.write (Elt F) g (ReadAs.same.apply ((src6 o3 inb3).view.read (Elt F) T)) Finset.univ idx
      = tileRow 12500 (by decide) T x (idx 1) := by
  obtain ⟨hv, hw⟩ := off3_bounds (n := 12500) o3 v w ho inb3
  rw [row_write6 o3 inb3 v w e off inb ho hv hw heq T g idx hidx]
  exact tileRow_of_words (by decide) T x v w (by omega) (by omega) hvx hwx hv hw (idx 1)

end Row6

section Row7
variable (o3 : Fin 3 → ℕ) (inb3 : ∀ a, o3 a + S1x1x64.size a ≤ S1250x8x64.size a) (v w : BitVec 32)
  (e : Fin 128) (off : Fin 2 → ℕ) (inb : ∀ a, off a + S1x64.size a ≤ S128x64.size a)

/-- The source of a names-row copy: one sublane of one tile of the table, as a 64-entry vector. -/
abbrev src7 : Memref sig .scVector .hbm S64 .f32 :=
  ((Memref.whole main_v8_scv : Memref sig .scVector .hbm S1250x8x64 .f32).slice
    (Rect.unit (s := S1250x8x64) o3 S1x1x64.size inb3) (fun _ => rfl)).squeeze S64 squeezes_S1x1x64_S64
/-- Its destination: one row of the row buffer, as a 64-entry vector. -/
abbrev dst7 : Memref sig .scVector .vmem S64 .f32 :=
  ((Memref.whole cc0_scratch7 : Memref sig .scVector .vmem S128x64 .f32).slice
    (Rect.unit (s := S128x64) off S1x64.size inb) (fun _ => rfl)).squeeze S64 squeezes_S1x64_S64

/-- The destination is row e of the row buffer. -/
theorem dst7_set (heq : off = ![e.val, 0]) : (dst7 off inb).view.set = rowSet e := by
  subst heq
  show (((View.whole (cc0_scratch7 : Ref sig .scVector)).slice _).reshape S64 _).set = _
  rw [View.set_reshape, View.set_slice_whole]
  rfl

theorem dst7_emb (heq : off = ![e.val, 0]) (k : Fin 64) : (dst7 off inb).view.emb (ix1 k) = ix2 e k := by
  subst heq
  show (Rect.unit (s := S128x64) ![e.val, 0] S1x64.size inb).emb (Shape.reshapeEquiv _ (ix1 k)) = _
  refine (congrArg (Rect.unit (s := S128x64) ![e.val, 0] S1x64.size inb).emb (reshape_1x64 _ k)).trans ?_
  funext a; apply Fin.ext
  match a with
  | ⟨0, _⟩ => show e.val + 1 * 0 = e.val; omega
  | ⟨1, _⟩ => show 0 + 1 * k.val = k.val; omega

theorem src7_emb (ho : o3 = ![v.toNat, w.toNat, 0]) (hv : v.toNat < 1250) (hw : w.toNat < 8) (k : Fin 64) :
    (src7 o3 inb3).view.emb (ix1 k) = ix3 ⟨v.toNat, hv⟩ ⟨w.toNat, hw⟩ k := by
  subst ho
  show (Rect.unit (s := S1250x8x64) ![v.toNat, w.toNat, 0] S1x1x64.size inb3).emb (Shape.reshapeEquiv _ (ix1 k)) = _
  refine (congrArg (Rect.unit (s := S1250x8x64) ![v.toNat, w.toNat, 0] S1x1x64.size inb3).emb (reshape_1x1x64 _ k)).trans ?_
  funext a; apply Fin.ext
  match a with
  | ⟨0, _⟩ => show v.toNat + 1 * 0 = v.toNat; omega
  | ⟨1, _⟩ => show w.toNat + 1 * 0 = w.toNat; omega
  | ⟨2, _⟩ => show 0 + 1 * k.val = k.val; omega

/-- What a names-row copy lands in row e: the table's row at tile v, sublane w. -/
theorem row_write7 (ho : o3 = ![v.toNat, w.toNat, 0]) (hv : v.toNat < 1250) (hw : w.toNat < 8) (heq : off = ![e.val, 0])
    (T : FVec F S1250x8x64 .f32) (g : FVec F S128x64 .f32) (idx : S128x64.Idx) (hidx : idx ∈ rowSet e) :
    (dst7 off inb).view.write (Elt F) g (ReadAs.same.apply ((src7 o3 inb3).view.read (Elt F) T)) Finset.univ idx
      = T (ix3 ⟨v.toNat, hv⟩ ⟨w.toNat, hw⟩ (idx 1)) := by
  rw [← dst7_set e off inb heq] at hidx
  obtain ⟨x, -, rfl⟩ := Finset.mem_map.mp hidx
  obtain ⟨k, rfl⟩ : ∃ k : Fin 64, x = ix1 k := ⟨x 0, eq_ix1 x⟩
  rw [View.write_emb_of_mem _ _ (Finset.mem_univ _), ReadAs.apply_same, View.read_apply, src7_emb o3 inb3 v w ho hv hw,
    dst7_emb e off inb heq]
  rfl

/-- The same with the tile and sublane words computed from an index word below the number of rows: the row the
    word names. -/
theorem row_write7_word (x : BitVec 32) (hx : x.toNat < 10000) (hvx : v = IntOp.shrsi .vector x 3#32) (hwx : w = IntOp.andi x 7#32)
    (ho : o3 = ![v.toNat, w.toNat, 0]) (heq : off = ![e.val, 0])
    (T : FVec F S1250x8x64 .f32) (g : FVec F S128x64 .f32) (idx : S128x64.Idx) (hidx : idx ∈ rowSet e) :
    (dst7 off inb).view.write (Elt F) g (ReadAs.same.apply ((src7 o3 inb3).view.read (Elt F) T)) Finset.univ idx
      = tileRow 1250 (by decide) T x (idx 1) := by
  obtain ⟨hv, hw⟩ := off3_bounds (n := 1250) o3 v w ho inb3
  rw [row_write7 o3 inb3 v w e off inb ho hv hw heq T g idx hidx]
  exact tileRow_of_words (by decide) T x v w (by omega) (by omega) hvx hwx hv hw (idx 1)

end Row7

/-! ## A row buffer as its 128 rows -/

/-- Row e of a row buffer is the indices whose row coordinate is e. -/
theorem mem_rowSet (e : Fin 128) (idx : S128x64.Idx) : idx ∈ rowSet e ↔ (idx 0).val = e.val := by
  unfold rowSet
  rw [Rect.mem_set_unit]
  constructor
  · intro h
    have h0 := h 0
    change e.val ≤ (idx 0).val ∧ (idx 0).val < e.val + 1 at h0
    omega
  · intro h a
    match a with
    | ⟨0, _⟩ => show e.val ≤ (idx 0).val ∧ (idx 0).val < e.val + 1; omega
    | ⟨1, _⟩ => show 0 ≤ (idx 1).val ∧ (idx 1).val < 0 + 64; exact ⟨Nat.zero_le _, by have := (idx 1).isLt; simpa using this⟩

theorem rowSet_disjoint : ∀ e e' : Fin 128, e ≠ e' → Disjoint (rowSet e) (rowSet e') := fun e e' hne => by
  rw [Finset.disjoint_left]; intro y hy hy'; rw [mem_rowSet] at hy hy'; exact hne (Fin.ext (by omega))

theorem rowSet_cover : Finset.univ.biUnion rowSet = (Finset.univ : Finset S128x64.Idx) := by
  ext y; simp only [Finset.mem_biUnion, Finset.mem_univ, true_and, iff_true]; exact ⟨y 0, (mem_rowSet _ _).mpr rfl⟩

/-- Row buffer 4 held whole is held row by row. -/
theorem rows_eq4 (g : FVec F S128x64 .f32) :
    (sc4 d L g : sProp 𝕄) = bigSep Finset.univ fun e : Fin 128 => rowAt4 d L e g := by
  have h := Ring.pointsTo_blocks (nD := nD) (τ := τ) (sig := sig) (Ix := HIx 1) (Val := Elt F) (Name := ℕ) (U := UU) (Lvl := ℕ)
    (ℓ := (thr d L).loc cc0_scratch4) (q := fullShare)
    (I := fun e : Fin 128 => (rowSet e : Finset (Idx ((thr d L).loc cc0_scratch4))))
    (fun e e' hne => rowSet_disjoint e e' hne) rowSet_cover (g : Buf (Elt F) ((thr d L).loc cc0_scratch4))
  exact h

theorem rows_split4 (g : FVec F S128x64 .f32) :
    sc4 d L g ⊢ (bigSep Finset.univ fun e : Fin 128 => rowAt4 d L e g : sProp 𝕄) :=
  Entails.of_eq (rows_eq4 d L g)

/-- Row buffer 5 held whole is held row by row. -/
theorem rows_eq5 (g : FVec F S128x64 .f32) :
    (sc5 d L g : sProp 𝕄) = bigSep Finset.univ fun e : Fin 128 => rowAt5 d L e g := by
  have h := Ring.pointsTo_blocks (nD := nD) (τ := τ) (sig := sig) (Ix := HIx 1) (Val := Elt F) (Name := ℕ) (U := UU) (Lvl := ℕ)
    (ℓ := (thr d L).loc cc0_scratch5) (q := fullShare)
    (I := fun e : Fin 128 => (rowSet e : Finset (Idx ((thr d L).loc cc0_scratch5))))
    (fun e e' hne => rowSet_disjoint e e' hne) rowSet_cover (g : Buf (Elt F) ((thr d L).loc cc0_scratch5))
  exact h

theorem rows_split5 (g : FVec F S128x64 .f32) :
    sc5 d L g ⊢ (bigSep Finset.univ fun e : Fin 128 => rowAt5 d L e g : sProp 𝕄) :=
  Entails.of_eq (rows_eq5 d L g)

/-- Row buffer 6 held whole is held row by row. -/
theorem rows_eq6 (g : FVec F S128x64 .f32) :
    (sc6 d L g : sProp 𝕄) = bigSep Finset.univ fun e : Fin 128 => rowAt6 d L e g := by
  have h := Ring.pointsTo_blocks (nD := nD) (τ := τ) (sig := sig) (Ix := HIx 1) (Val := Elt F) (Name := ℕ) (U := UU) (Lvl := ℕ)
    (ℓ := (thr d L).loc cc0_scratch6) (q := fullShare)
    (I := fun e : Fin 128 => (rowSet e : Finset (Idx ((thr d L).loc cc0_scratch6))))
    (fun e e' hne => rowSet_disjoint e e' hne) rowSet_cover (g : Buf (Elt F) ((thr d L).loc cc0_scratch6))
  exact h

theorem rows_split6 (g : FVec F S128x64 .f32) :
    sc6 d L g ⊢ (bigSep Finset.univ fun e : Fin 128 => rowAt6 d L e g : sProp 𝕄) :=
  Entails.of_eq (rows_eq6 d L g)

/-- Row buffer 7 held whole is held row by row. -/
theorem rows_eq7 (g : FVec F S128x64 .f32) :
    (sc7 d L g : sProp 𝕄) = bigSep Finset.univ fun e : Fin 128 => rowAt7 d L e g := by
  have h := Ring.pointsTo_blocks (nD := nD) (τ := τ) (sig := sig) (Ix := HIx 1) (Val := Elt F) (Name := ℕ) (U := UU) (Lvl := ℕ)
    (ℓ := (thr d L).loc cc0_scratch7) (q := fullShare)
    (I := fun e : Fin 128 => (rowSet e : Finset (Idx ((thr d L).loc cc0_scratch7))))
    (fun e e' hne => rowSet_disjoint e e' hne) rowSet_cover (g : Buf (Elt F) ((thr d L).loc cc0_scratch7))
  exact h

theorem rows_split7 (g : FVec F S128x64 .f32) :
    sc7 d L g ⊢ (bigSep Finset.univ fun e : Fin 128 => rowAt7 d L e g : sProp 𝕄) :=
  Entails.of_eq (rows_eq7 d L g)

/-! ## The 512 deliveries joined back -/

/-- What copy number t delivers, for t's entry known: one of the four rows of that entry, by t's remainder modulo 4. -/
theorem deliv_eq (t : ℕ) (e : Fin 128) (he : t / 4 = e.val) :
    deliv d L X t = (if t % 4 = 0 then rowAt4 d L e (G4 L X) else if t % 4 = 1 then rowAt5 d L e (G5 L X)
      else if t % 4 = 2 then rowAt6 d L e (G6 L X) else rowAt7 d L e (G7 L X)) := by
  unfold deliv
  have h : t / 4 < 128 := he ▸ e.isLt
  rw [dif_pos h]
  have e1 : (⟨t / 4, h⟩ : Fin 128) = e := Fin.ext he
  rw [e1]

/-- A separating conjunction over four indices. -/
theorem bigSep_fin_four (Φ : Fin 4 → sProp 𝕄) :
    bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

/-- The four copies of entry e deliver its row of each row buffer. -/
theorem deliv_entry (e : Fin 128) :
    (bigSep Finset.univ fun a : Fin 4 => D4 d L X (finProdFinEquiv (e, a)) : sProp 𝕄)
      = iprop(rowAt4 d L e (G4 L X) ∗ rowAt5 d L e (G5 L X) ∗ rowAt6 d L e (G6 L X) ∗ rowAt7 d L e (G7 L X)) := by
  rw [bigSep_fin_four]
  have h0 : D4 d L X (finProdFinEquiv (e, (0 : Fin 4))) = rowAt4 d L e (G4 L X) := by
    show deliv d L X (0 + 4 * e.val) = _
    rw [deliv_eq d L X _ e (by omega), if_pos (by omega)]
  have h1 : D4 d L X (finProdFinEquiv (e, (1 : Fin 4))) = rowAt5 d L e (G5 L X) := by
    show deliv d L X (1 + 4 * e.val) = _
    rw [deliv_eq d L X _ e (by omega), if_neg (by omega), if_pos (by omega)]
  have h2 : D4 d L X (finProdFinEquiv (e, (2 : Fin 4))) = rowAt6 d L e (G6 L X) := by
    show deliv d L X (2 + 4 * e.val) = _
    rw [deliv_eq d L X _ e (by omega), if_neg (by omega), if_neg (by omega), if_pos (by omega)]
  have h3 : D4 d L X (finProdFinEquiv (e, (3 : Fin 4))) = rowAt7 d L e (G7 L X) := by
    show deliv d L X (3 + 4 * e.val) = _
    rw [deliv_eq d L X _ e (by omega), if_neg (by omega), if_neg (by omega), if_neg (by omega)]
  rw [h0, h1, h2, h3]

/-- A separating conjunction of pairs is the pair of separating conjunctions. -/
theorem bigSep_sep' {I : Type} (s : Finset I) (Φ Ψ : I → sProp 𝕄) :
    bigSep s (fun i => iprop(Φ i ∗ Ψ i)) = iprop(bigSep s Φ ∗ bigSep s Ψ) := BI.bigSep_sep s Φ Ψ

/-- The 512 deliveries are the four row buffers whole, each at its after-gather function. -/
theorem deliveries_eq :
    (bigSep Finset.univ (D4 d L X) : sProp 𝕄)
      = iprop(sc4 d L (G4 L X) ∗ sc5 d L (G5 L X) ∗ sc6 d L (G6 L X) ∗ sc7 d L (G7 L X)) := by
  rw [BI.bigSep_univ_equiv (finProdFinEquiv : Fin 128 × Fin 4 ≃ Fin 512) (D4 d L X), BI.bigSep_univ_prod]
  simp only [deliv_entry]
  rw [rows_eq4, rows_eq5, rows_eq6, rows_eq7]
  rw [bigSep_sep', bigSep_sep', bigSep_sep']

theorem deliveries_join :
    bigSep Finset.univ (D4 d L X) ⊢ (iprop(sc4 d L (G4 L X) ∗ sc5 d L (G5 L X) ∗ sc6 d L (G6 L X) ∗ sc7 d L (G7 L X)) : sProp 𝕄) :=
  Entails.of_eq (deliveries_eq d L X)

end Cert.Kernel.TileGather

end
-- ==== Proof.BTileIssue.lean ====
/-
  One row copy of the gather, issued: the next transfer of the batch. Copy number `4 e + a` reads the row of table `a`
  named by the index word at entry `e` (tile `word / 8`, sublane `word mod 8`) and writes row `e` of the table's row
  buffer; what it will deliver is that row holding the after-gather function of the buffer.
-/
import proofs.«206817_g64347200028782_cont_9to1_m_612_22_alg».proof.Proof.BTileGatherLib

noncomputable section

namespace Cert.Kernel.TileGather

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Kernel.TileRes Cert.Kernel.TileCore Cert.Kernel.TileVals Cert.KSpec Cert.Spec
open Idealize.ShloMosaic.ValueIdx

variable [FloatOps F] (d : Dev nD) (L : grid0.Coords) (X : Tabs F)

/-- An index of row `e` has row coordinate `e`. -/
theorem row_of_mem (e : Fin 128) (idx : S128x64.Idx) (h : idx ∈ rowSet e) : idx 0 = e := by
  unfold rowSet at h
  rw [Rect.mem_set_unit] at h
  have h0 : e.val ≤ (idx 0).val ∧ (idx 0).val < e.val + 1 := h 0
  exact Fin.ext (by omega)

/-- One row's credit on the gather's semaphore (64 words of 32 bits). -/
abbrev NN : ℕ := 2048

/-- The gather's batch: 512 copies, `j` issued, `u` units consumed by waits. -/
abbrev batch (j u : ℕ) : sProp 𝕄 :=
  Transfers.Batch (EC (F := F)) (thr d L) (SemLoc.dma cc0_scratch9.sem) (none : HIx 1) NN (D4 d L X) j u

/-- Copy number `4 e + 0`: entry `e`'s row of table 0 into row `e` of its row buffer. -/
theorem issue0 (g : FVec F S128x64 .f32) (e : Fin 128) (v w : BitVec 32)
    (offs : Fin 3 → ℕ) (inbs : ∀ a, offs a + S1x1x64.size a ≤ S12500x8x64.size a) (hoffs : offs = ![v.toNat, w.toNat, 0])
    (off : Fin 2 → ℕ) (inb : ∀ a, off a + S1x64.size a ≤ S128x64.size a) (heq : off = ![e.val, 0])
    (x : BitVec 32) (hx : x = X.I0 (ix1 (rowOfEntry L e))) (hxlt : x.toNat < 100000) (hv : v = IntOp.shrsi .vector x 3#32) (hw : w = IntOp.andi x 7#32)
    (j : ℕ) (hj : j = 4 * e.val + 0) (q : PosShare TreeShare)
    {α : Type} {kont : PUnit → Prog (TpuEff nD τ sig (Elt F) Λ₀ (thr d L).2) α} {Q : α → sProp 𝕄}
    {hs hd hsem} :
    iprop(((Memref.whole main_v5_scv : Memref sig .scVector .hbm S12500x8x64 .f32).view.loc (thr d L) ↦{q} (X.T5 : Buf (Elt F) ((Memref.whole main_v5_scv : Memref sig .scVector .hbm S12500x8x64 .f32).view.loc (thr d L))))
        ∗ rowAt4 d L e g ∗ batch d L X j 0)
      ⊢ iprop((batch d L X (j + 1) 0 -∗ wp frame (wpE (defs₀ (F := F)) 𝒱₀ (thr d L) none) Set.univ (kont ⟨⟩) Q)
          -∗ wp frame (wpE (defs₀ (F := F)) 𝒱₀ (thr d L) none) Set.univ
              (.op (.enqueueDmaAs (((Memref.whole main_v5_scv : Memref sig .scVector .hbm S12500x8x64 .f32).slice (Rect.unit (s := S12500x8x64) offs S1x1x64.size inbs) (fun _ => rfl)).squeeze S64 squeezes_S1x1x64_S64)
                 (.here (((Memref.whole cc0_scratch4 : Memref sig .scVector .vmem S128x64 .f32).slice (Rect.unit (s := S128x64) off S1x64.size inb) (fun _ => rfl)).squeeze S64 squeezes_S1x64_S64))
                 .same (SemLoc.dma cc0_scratch9.sem) hs hd hsem) kont) Q) := by
  subst heq hj
  have hjlt : 4 * e.val + 0 < 512 := by have := e.isLt; omega
  have hD : iprop(((((Memref.whole cc0_scratch4 : Memref sig .scVector .vmem S128x64 .f32).slice (Rect.unit (s := S128x64) ![e.val, 0] S1x64.size inb) (fun _ => rfl)).squeeze S64 squeezes_S1x64_S64).view.loc (thr d L)
            ↦[(((Memref.whole cc0_scratch4 : Memref sig .scVector .vmem S128x64 .f32).slice (Rect.unit (s := S128x64) ![e.val, 0] S1x64.size inb) (fun _ => rfl)).squeeze S64 squeezes_S1x64_S64).view.set]{fullShare}
              ((((Memref.whole cc0_scratch4 : Memref sig .scVector .vmem S128x64 .f32).slice (Rect.unit (s := S128x64) ![e.val, 0] S1x64.size inb) (fun _ => rfl)).squeeze S64 squeezes_S1x64_S64).view.write (Elt F) g
                (ReadAs.same.apply ((((Memref.whole main_v5_scv : Memref sig .scVector .hbm S12500x8x64 .f32).slice (Rect.unit (s := S12500x8x64) offs S1x1x64.size inbs) (fun _ => rfl)).squeeze S64 squeezes_S1x1x64_S64).view.read (Elt F) X.T5)) Finset.univ))
          ∗ ((((Memref.whole main_v5_scv : Memref sig .scVector .hbm S12500x8x64 .f32).slice (Rect.unit (s := S12500x8x64) offs S1x1x64.size inbs) (fun _ => rfl)).squeeze S64 squeezes_S1x1x64_S64).view.loc (thr d L) ↦[(((Memref.whole main_v5_scv : Memref sig .scVector .hbm S12500x8x64 .f32).slice (Rect.unit (s := S12500x8x64) offs S1x1x64.size inbs) (fun _ => rfl)).squeeze S64 squeezes_S1x1x64_S64).view.set]{q} X.T5))
        ⊢ D4 d L X ⟨4 * e.val + 0, hjlt⟩ := by
    have hdiv : (4 * e.val + 0) / 4 = e.val := by omega
    have hmod : (4 * e.val + 0) % 4 = 0 := by omega
    have helt : e.val < 128 := e.isLt
    have hval : ∀ idx ∈ rowSet e, (dst4 ![e.val, 0] inb).view.write (Elt F) g (ReadAs.same.apply ((src4 offs inbs).view.read (Elt F) X.T5)) Finset.univ idx = G4 L X idx := by
      intro idx hidx
      rw [row_write4_word offs inbs v w e ![e.val, 0] inb x hxlt hv hw hoffs rfl X.T5 g idx hidx, hx]
      show tileRow _ _ _ (X.I0 (ix1 (rowOfEntry L e))) (idx 1) = tileRow _ _ _ (X.I0 (ix1 (rowOfEntry L (idx 0)))) (idx 1)
      rw [row_of_mem e idx hidx]
    have heqn : ((dst4 ![e.val, 0] inb).view.loc (thr d L) ↦[(dst4 ![e.val, 0] inb).view.set]{fullShare}
          ((dst4 ![e.val, 0] inb).view.write (Elt F) g (ReadAs.same.apply ((src4 offs inbs).view.read (Elt F) X.T5)) Finset.univ) : sProp 𝕄)
        = rowAt4 d L e (G4 L X) := by
      rw [dst4_set e ![e.val, 0] inb rfl, pointsTo_congr hval]
    iintro ⟨Hd, -⟩
    unfold D4 deliv
    simp only [hdiv, hmod, helt, ↓reduceDIte, Fin.eta, OfNat.ofNat_ne_zero, OfNat.ofNat_ne_one, ↓reduceIte, Nat.reduceEqDiff, Nat.succ_ne_zero, one_ne_zero]
    iapply (Entails.of_eq heqn) $$ Hd
  iintro ⟨Hs, Hd, HB⟩
  ihave Hs' := (pointsTo_split_subset (Finset.subset_univ (((Memref.whole main_v5_scv : Memref sig .scVector .hbm S12500x8x64 .f32).slice (Rect.unit (s := S12500x8x64) offs S1x1x64.size inbs) (fun _ => rfl)).squeeze S64 squeezes_S1x1x64_S64).view.set)).1 $$ Hs
  icases Hs' with ⟨Hs1, -⟩
  iapply (Transfers.wp_dmaBatch (EC (F := F)) 𝒱₀ (thr d L) none (none : HIx 1) NN rfl (Finset.Subset.refl _) hjlt (Nat.zero_le _) hD) $$ [Hs1 Hd HB]
  isplitl [Hs1]; · iexact Hs1
  isplitl [Hd]
  · have heq2 : (rowAt4 d L e g : sProp 𝕄) = ((dst4 ![e.val, 0] inb).view.loc (thr d L) ↦[(dst4 ![e.val, 0] inb).view.set]{fullShare} g) := by
      rw [dst4_set e ![e.val, 0] inb rfl]
    iapply (Entails.of_eq heq2) $$ Hd
  iexact HB

/-- Copy number `4 e + 1`: entry `e`'s row of table 1 into row `e` of its row buffer. -/
theorem issue1 (g : FVec F S128x64 .f32) (e : Fin 128) (v w : BitVec 32)
    (offs : Fin 3 → ℕ) (inbs : ∀ a, offs a + S1x1x64.size a ≤ S25x8x64.size a) (hoffs : offs = ![v.toNat, w.toNat, 0])
    (off : Fin 2 → ℕ) (inb : ∀ a, off a + S1x64.size a ≤ S128x64.size a) (heq : off = ![e.val, 0])
    (x : BitVec 32) (hx : x = X.I1 (ix1 (rowOfEntry L e))) (hxlt : x.toNat < 200) (hv : v = IntOp.shrsi .vector x 3#32) (hw : w = IntOp.andi x 7#32)
    (j : ℕ) (hj : j = 4 * e.val + 1) (q : PosShare TreeShare)
    {α : Type} {kont : PUnit → Prog (TpuEff nD τ sig (Elt F) Λ₀ (thr d L).2) α} {Q : α → sProp 𝕄}
    {hs hd hsem} :
    iprop(((Memref.whole main_v6_scv : Memref sig .scVector .hbm S25x8x64 .f32).view.loc (thr d L) ↦{q} (X.T6 : Buf (Elt F) ((Memref.whole main_v6_scv : Memref sig .scVector .hbm S25x8x64 .f32).view.loc (thr d L))))
        ∗ rowAt5 d L e g ∗ batch d L X j 0)
      ⊢ iprop((batch d L X (j + 1) 0 -∗ wp frame (wpE (defs₀ (F := F)) 𝒱₀ (thr d L) none) Set.univ (kont ⟨⟩) Q)
          -∗ wp frame (wpE (defs₀ (F := F)) 𝒱₀ (thr d L) none) Set.univ
              (.op (.enqueueDmaAs (((Memref.whole main_v6_scv : Memref sig .scVector .hbm S25x8x64 .f32).slice (Rect.unit (s := S25x8x64) offs S1x1x64.size inbs) (fun _ => rfl)).squeeze S64 squeezes_S1x1x64_S64)
                 (.here (((Memref.whole cc0_scratch5 : Memref sig .scVector .vmem S128x64 .f32).slice (Rect.unit (s := S128x64) off S1x64.size inb) (fun _ => rfl)).squeeze S64 squeezes_S1x64_S64))
                 .same (SemLoc.dma cc0_scratch9.sem) hs hd hsem) kont) Q) := by
  subst heq hj
  have hjlt : 4 * e.val + 1 < 512 := by have := e.isLt; omega
  have hD : iprop(((((Memref.whole cc0_scratch5 : Memref sig .scVector .vmem S128x64 .f32).slice (Rect.unit (s := S128x64) ![e.val, 0] S1x64.size inb) (fun _ => rfl)).squeeze S64 squeezes_S1x64_S64).view.loc (thr d L)
            ↦[(((Memref.whole cc0_scratch5 : Memref sig .scVector .vmem S128x64 .f32).slice (Rect.unit (s := S128x64) ![e.val, 0] S1x64.size inb) (fun _ => rfl)).squeeze S64 squeezes_S1x64_S64).view.set]{fullShare}
              ((((Memref.whole cc0_scratch5 : Memref sig .scVector .vmem S128x64 .f32).slice (Rect.unit (s := S128x64) ![e.val, 0] S1x64.size inb) (fun _ => rfl)).squeeze S64 squeezes_S1x64_S64).view.write (Elt F) g
                (ReadAs.same.apply ((((Memref.whole main_v6_scv : Memref sig .scVector .hbm S25x8x64 .f32).slice (Rect.unit (s := S25x8x64) offs S1x1x64.size inbs) (fun _ => rfl)).squeeze S64 squeezes_S1x1x64_S64).view.read (Elt F) X.T6)) Finset.univ))
          ∗ ((((Memref.whole main_v6_scv : Memref sig .scVector .hbm S25x8x64 .f32).slice (Rect.unit (s := S25x8x64) offs S1x1x64.size inbs) (fun _ => rfl)).squeeze S64 squeezes_S1x1x64_S64).view.loc (thr d L) ↦[(((Memref.whole main_v6_scv : Memref sig .scVector .hbm S25x8x64 .f32).slice (Rect.unit (s := S25x8x64) offs S1x1x64.size inbs) (fun _ => rfl)).squeeze S64 squeezes_S1x1x64_S64).view.set]{q} X.T6))
        ⊢ D4 d L X ⟨4 * e.val + 1, hjlt⟩ := by
    have hdiv : (4 * e.val + 1) / 4 = e.val := by omega
    have hmod : (4 * e.val + 1) % 4 = 1 := by omega
    have helt : e.val < 128 := e.isLt
    have hval : ∀ idx ∈ rowSet e, (dst5 ![e.val, 0] inb).view.write (Elt F) g (ReadAs.same.apply ((src5 offs inbs).view.read (Elt F) X.T6)) Finset.univ idx = G5 L X idx := by
      intro idx hidx
      rw [row_write5_word offs inbs v w e ![e.val, 0] inb x hxlt hv hw hoffs rfl X.T6 g idx hidx, hx]
      show tileRow _ _ _ (X.I1 (ix1 (rowOfEntry L e))) (idx 1) = tileRow _ _ _ (X.I1 (ix1 (rowOfEntry L (idx 0)))) (idx 1)
      rw [row_of_mem e idx hidx]
    have heqn : ((dst5 ![e.val, 0] inb).view.loc (thr d L) ↦[(dst5 ![e.val, 0] inb).view.set]{fullShare}
          ((dst5 ![e.val, 0] inb).view.write (Elt F) g (ReadAs.same.apply ((src5 offs inbs).view.read (Elt F) X.T6)) Finset.univ) : sProp 𝕄)
        = rowAt5 d L e (G5 L X) := by
      rw [dst5_set e ![e.val, 0] inb rfl, pointsTo_congr hval]
    iintro ⟨Hd, -⟩
    unfold D4 deliv
    simp only [hdiv, hmod, helt, ↓reduceDIte, Fin.eta, OfNat.ofNat_ne_zero, OfNat.ofNat_ne_one, ↓reduceIte, Nat.reduceEqDiff, Nat.succ_ne_zero, one_ne_zero]
    iapply (Entails.of_eq heqn) $$ Hd
  iintro ⟨Hs, Hd, HB⟩
  ihave Hs' := (pointsTo_split_subset (Finset.subset_univ (((Memref.whole main_v6_scv : Memref sig .scVector .hbm S25x8x64 .f32).slice (Rect.unit (s := S25x8x64) offs S1x1x64.size inbs) (fun _ => rfl)).squeeze S64 squeezes_S1x1x64_S64).view.set)).1 $$ Hs
  icases Hs' with ⟨Hs1, -⟩
  iapply (Transfers.wp_dmaBatch (EC (F := F)) 𝒱₀ (thr d L) none (none : HIx 1) NN rfl (Finset.Subset.refl _) hjlt (Nat.zero_le _) hD) $$ [Hs1 Hd HB]
  isplitl [Hs1]; · iexact Hs1
  isplitl [Hd]
  · have heq2 : (rowAt5 d L e g : sProp 𝕄) = ((dst5 ![e.val, 0] inb).view.loc (thr d L) ↦[(dst5 ![e.val, 0] inb).view.set]{fullShare} g) := by
      rw [dst5_set e ![e.val, 0] inb rfl]
    iapply (Entails.of_eq heq2) $$ Hd
  iexact HB

/-- Copy number `4 e + 2`: entry `e`'s row of table 2 into row `e` of its row buffer. -/
theorem issue2 (g : FVec F S128x64 .f32) (e : Fin 128) (v w : BitVec 32)
    (offs : Fin 3 → ℕ) (inbs : ∀ a, offs a + S1x1x64.size a ≤ S12500x8x64.size a) (hoffs : offs = ![v.toNat, w.toNat, 0])
    (off : Fin 2 → ℕ) (inb : ∀ a, off a + S1x64.size a ≤ S128x64.size a) (heq : off = ![e.val, 0])
    (x : BitVec 32) (hx : x = X.I3 (ix1 (rowOfEntry L e))) (hxlt : x.toNat < 100000) (hv : v = IntOp.shrsi .vector x 3#32) (hw : w = IntOp.andi x 7#32)
    (j : ℕ) (hj : j = 4 * e.val + 2) (q : PosShare TreeShare)
    {α : Type} {kont : PUnit → Prog (TpuEff nD τ sig (Elt F) Λ₀ (thr d L).2) α} {Q : α → sProp 𝕄}
    {hs hd hsem} :
    iprop(((Memref.whole main_v7_scv : Memref sig .scVector .hbm S12500x8x64 .f32).view.loc (thr d L) ↦{q} (X.T7 : Buf (Elt F) ((Memref.whole main_v7_scv : Memref sig .scVector .hbm S12500x8x64 .f32).view.loc (thr d L))))
        ∗ rowAt6 d L e g ∗ batch d L X j 0)
      ⊢ iprop((batch d L X (j + 1) 0 -∗ wp frame (wpE (defs₀ (F := F)) 𝒱₀ (thr d L) none) Set.univ (kont ⟨⟩) Q)
          -∗ wp frame (wpE (defs₀ (F := F)) 𝒱₀ (thr d L) none) Set.univ
              (.op (.enqueueDmaAs (((Memref.whole main_v7_scv : Memref sig .scVector .hbm S12500x8x64 .f32).slice (Rect.unit (s := S12500x8x64) offs S1x1x64.size inbs) (fun _ => rfl)).squeeze S64 squeezes_S1x1x64_S64)
                 (.here (((Memref.whole cc0_scratch6 : Memref sig .scVector .vmem S128x64 .f32).slice (Rect.unit (s := S128x64) off S1x64.size inb) (fun _ => rfl)).squeeze S64 squeezes_S1x64_S64))
                 .same (SemLoc.dma cc0_scratch9.sem) hs hd hsem) kont) Q) := by
  subst heq hj
  have hjlt : 4 * e.val + 2 < 512 := by have := e.isLt; omega
  have hD : iprop(((((Memref.whole cc0_scratch6 : Memref sig .scVector .vmem S128x64 .f32).slice (Rect.unit (s := S128x64) ![e.val, 0] S1x64.size inb) (fun _ => rfl)).squeeze S64 squeezes_S1x64_S64).view.loc (thr d L)
            ↦[(((Memref.whole cc0_scratch6 : Memref sig .scVector .vmem S128x64 .f32).slice (Rect.unit (s := S128x64) ![e.val, 0] S1x64.size inb) (fun _ => rfl)).squeeze S64 squeezes_S1x64_S64).view.set]{fullShare}
              ((((Memref.whole cc0_scratch6 : Memref sig .scVector .vmem S128x64 .f32).slice (Rect.unit (s := S128x64) ![e.val, 0] S1x64.size inb) (fun _ => rfl)).squeeze S64 squeezes_S1x64_S64).view.write (Elt F) g
                (ReadAs.same.apply ((((Memref.whole main_v7_scv : Memref sig .scVector .hbm S12500x8x64 .f32).slice (Rect.unit (s := S12500x8x64) offs S1x1x64.size inbs) (fun _ => rfl)).squeeze S64 squeezes_S1x1x64_S64).view.read (Elt F) X.T7)) Finset.univ))
          ∗ ((((Memref.whole main_v7_scv : Memref sig .scVector .hbm S12500x8x64 .f32).slice (Rect.unit (s := S12500x8x64) offs S1x1x64.size inbs) (fun _ => rfl)).squeeze S64 squeezes_S1x1x64_S64).view.loc (thr d L) ↦[(((Memref.whole main_v7_scv : Memref sig .scVector .hbm S12500x8x64 .f32).slice (Rect.unit (s := S12500x8x64) offs S1x1x64.size inbs) (fun _ => rfl)).squeeze S64 squeezes_S1x1x64_S64).view.set]{q} X.T7))
        ⊢ D4 d L X ⟨4 * e.val + 2, hjlt⟩ := by
    have hdiv : (4 * e.val + 2) / 4 = e.val := by omega
    have hmod : (4 * e.val + 2) % 4 = 2 := by omega
    have helt : e.val < 128 := e.isLt
    have hval : ∀ idx ∈ rowSet e, (dst6 ![e.val, 0] inb).view.write (Elt F) g (ReadAs.same.apply ((src6 offs inbs).view.read (Elt F) X.T7)) Finset.univ idx = G6 L X idx := by
      intro idx hidx
      rw [row_write6_word offs inbs v w e ![e.val, 0] inb x hxlt hv hw hoffs rfl X.T7 g idx hidx, hx]
      show tileRow _ _ _ (X.I3 (ix1 (rowOfEntry L e))) (idx 1) = tileRow _ _ _ (X.I3 (ix1 (rowOfEntry L (idx 0)))) (idx 1)
      rw [row_of_mem e idx hidx]
    have heqn : ((dst6 ![e.val, 0] inb).view.loc (thr d L) ↦[(dst6 ![e.val, 0] inb).view.set]{fullShare}
          ((dst6 ![e.val, 0] inb).view.write (Elt F) g (ReadAs.same.apply ((src6 offs inbs).view.read (Elt F) X.T7)) Finset.univ) : sProp 𝕄)
        = rowAt6 d L e (G6 L X) := by
      rw [dst6_set e ![e.val, 0] inb rfl, pointsTo_congr hval]
    iintro ⟨Hd, -⟩
    unfold D4 deliv
    simp only [hdiv, hmod, helt, ↓reduceDIte, Fin.eta, OfNat.ofNat_ne_zero, OfNat.ofNat_ne_one, ↓reduceIte, Nat.reduceEqDiff, Nat.succ_ne_zero, one_ne_zero]
    iapply (Entails.of_eq heqn) $$ Hd
  iintro ⟨Hs, Hd, HB⟩
  ihave Hs' := (pointsTo_split_subset (Finset.subset_univ (((Memref.whole main_v7_scv : Memref sig .scVector .hbm S12500x8x64 .f32).slice (Rect.unit (s := S12500x8x64) offs S1x1x64.size inbs) (fun _ => rfl)).squeeze S64 squeezes_S1x1x64_S64).view.set)).1 $$ Hs
  icases Hs' with ⟨Hs1, -⟩
  iapply (Transfers.wp_dmaBatch (EC (F := F)) 𝒱₀ (thr d L) none (none : HIx 1) NN rfl (Finset.Subset.refl _) hjlt (Nat.zero_le _) hD) $$ [Hs1 Hd HB]
  isplitl [Hs1]; · iexact Hs1
  isplitl [Hd]
  · have heq2 : (rowAt6 d L e g : sProp 𝕄) = ((dst6 ![e.val, 0] inb).view.loc (thr d L) ↦[(dst6 ![e.val, 0] inb).view.set]{fullShare} g) := by
      rw [dst6_set e ![e.val, 0] inb rfl]
    iapply (Entails.of_eq heq2) $$ Hd
  iexact HB

/-- Copy number `4 e + 3`: entry `e`'s row of table 3 into row `e` of its row buffer. -/
theorem issue3 (g : FVec F S128x64 .f32) (e : Fin 128) (v w : BitVec 32)
    (offs : Fin 3 → ℕ) (inbs : ∀ a, offs a + S1x1x64.size a ≤ S1250x8x64.size a) (hoffs : offs = ![v.toNat, w.toNat, 0])
    (off : Fin 2 → ℕ) (inb : ∀ a, off a + S1x64.size a ≤ S128x64.size a) (heq : off = ![e.val, 0])
    (x : BitVec 32) (hx : x = X.I4 (ix1 (rowOfEntry L e))) (hxlt : x.toNat < 10000) (hv : v = IntOp.shrsi .vector x 3#32) (hw : w = IntOp.andi x 7#32)
    (j : ℕ) (hj : j = 4 * e.val + 3) (q : PosShare TreeShare)
    {α : Type} {kont : PUnit → Prog (TpuEff nD τ sig (Elt F) Λ₀ (thr d L).2) α} {Q : α → sProp 𝕄}
    {hs hd hsem} :
    iprop(((Memref.whole main_v8_scv : Memref sig .scVector .hbm S1250x8x64 .f32).view.loc (thr d L) ↦{q} (X.T8 : Buf (Elt F) ((Memref.whole main_v8_scv : Memref sig .scVector .hbm S1250x8x64 .f32).view.loc (thr d L))))
        ∗ rowAt7 d L e g ∗ batch d L X j 0)
      ⊢ iprop((batch d L X (j + 1) 0 -∗ wp frame (wpE (defs₀ (F := F)) 𝒱₀ (thr d L) none) Set.univ (kont ⟨⟩) Q)
          -∗ wp frame (wpE (defs₀ (F := F)) 𝒱₀ (thr d L) none) Set.univ
              (.op (.enqueueDmaAs (((Memref.whole main_v8_scv : Memref sig .scVector .hbm S1250x8x64 .f32).slice (Rect.unit (s := S1250x8x64) offs S1x1x64.size inbs) (fun _ => rfl)).squeeze S64 squeezes_S1x1x64_S64)
                 (.here (((Memref.whole cc0_scratch7 : Memref sig .scVector .vmem S128x64 .f32).slice (Rect.unit (s := S128x64) off S1x64.size inb) (fun _ => rfl)).squeeze S64 squeezes_S1x64_S64))
                 .same (SemLoc.dma cc0_scratch9.sem) hs hd hsem) kont) Q) := by
  subst heq hj
  have hjlt : 4 * e.val + 3 < 512 := by have := e.isLt; omega
  have hD : iprop(((((Memref.whole cc0_scratch7 : Memref sig .scVector .vmem S128x64 .f32).slice (Rect.unit (s := S128x64) ![e.val, 0] S1x64.size inb) (fun _ => rfl)).squeeze S64 squeezes_S1x64_S64).view.loc (thr d L)
            ↦[(((Memref.whole cc0_scratch7 : Memref sig .scVector .vmem S128x64 .f32).slice (Rect.unit (s := S128x64) ![e.val, 0] S1x64.size inb) (fun _ => rfl)).squeeze S64 squeezes_S1x64_S64).view.set]{fullShare}
              ((((Memref.whole cc0_scratch7 : Memref sig .scVector .vmem S128x64 .f32).slice (Rect.unit (s := S128x64) ![e.val, 0] S1x64.size inb) (fun _ => rfl)).squeeze S64 squeezes_S1x64_S64).view.write (Elt F) g
                (ReadAs.same.apply ((((Memref.whole main_v8_scv : Memref sig .scVector .hbm S1250x8x64 .f32).slice (Rect.unit (s := S1250x8x64) offs S1x1x64.size inbs) (fun _ => rfl)).squeeze S64 squeezes_S1x1x64_S64).view.read (Elt F) X.T8)) Finset.univ))
          ∗ ((((Memref.whole main_v8_scv : Memref sig .scVector .hbm S1250x8x64 .f32).slice (Rect.unit (s := S1250x8x64) offs S1x1x64.size inbs) (fun _ => rfl)).squeeze S64 squeezes_S1x1x64_S64).view.loc (thr d L) ↦[(((Memref.whole main_v8_scv : Memref sig .scVector .hbm S1250x8x64 .f32).slice (Rect.unit (s := S1250x8x64) offs S1x1x64.size inbs) (fun _ => rfl)).squeeze S64 squeezes_S1x1x64_S64).view.set]{q} X.T8))
        ⊢ D4 d L X ⟨4 * e.val + 3, hjlt⟩ := by
    have hdiv : (4 * e.val + 3) / 4 = e.val := by omega
    have hmod : (4 * e.val + 3) % 4 = 3 := by omega
    have helt : e.val < 128 := e.isLt
    have hval : ∀ idx ∈ rowSet e, (dst7 ![e.val, 0] inb).view.write (Elt F) g (ReadAs.same.apply ((src7 offs inbs).view.read (Elt F) X.T8)) Finset.univ idx = G7 L X idx := by
      intro idx hidx
      rw [row_write7_word offs inbs v w e ![e.val, 0] inb x hxlt hv hw hoffs rfl X.T8 g idx hidx, hx]
      show tileRow _ _ _ (X.I4 (ix1 (rowOfEntry L e))) (idx 1) = tileRow _ _ _ (X.I4 (ix1 (rowOfEntry L (idx 0)))) (idx 1)
      rw [row_of_mem e idx hidx]
    have heqn : ((dst7 ![e.val, 0] inb).view.loc (thr d L) ↦[(dst7 ![e.val, 0] inb).view.set]{fullShare}
          ((dst7 ![e.val, 0] inb).view.write (Elt F) g (ReadAs.same.apply ((src7 offs inbs).view.read (Elt F) X.T8)) Finset.univ) : sProp 𝕄)
        = rowAt7 d L e (G7 L X) := by
      rw [dst7_set e ![e.val, 0] inb rfl, pointsTo_congr hval]
    iintro ⟨Hd, -⟩
    unfold D4 deliv
    simp only [hdiv, hmod, helt, ↓reduceDIte, Fin.eta, OfNat.ofNat_ne_zero, OfNat.ofNat_ne_one, ↓reduceIte, Nat.reduceEqDiff, Nat.succ_ne_zero, one_ne_zero]
    iapply (Entails.of_eq heqn) $$ Hd
  iintro ⟨Hs, Hd, HB⟩
  ihave Hs' := (pointsTo_split_subset (Finset.subset_univ (((Memref.whole main_v8_scv : Memref sig .scVector .hbm S1250x8x64 .f32).slice (Rect.unit (s := S1250x8x64) offs S1x1x64.size inbs) (fun _ => rfl)).squeeze S64 squeezes_S1x1x64_S64).view.set)).1 $$ Hs
  icases Hs' with ⟨Hs1, -⟩
  iapply (Transfers.wp_dmaBatch (EC (F := F)) 𝒱₀ (thr d L) none (none : HIx 1) NN rfl (Finset.Subset.refl _) hjlt (Nat.zero_le _) hD) $$ [Hs1 Hd HB]
  isplitl [Hs1]; · iexact Hs1
  isplitl [Hd]
  · have heq2 : (rowAt7 d L e g : sProp 𝕄) = ((dst7 ![e.val, 0] inb).view.loc (thr d L) ↦[(dst7 ![e.val, 0] inb).view.set]{fullShare} g) := by
      rw [dst7_set e ![e.val, 0] inb rfl]
    iapply (Entails.of_eq heq2) $$ Hd
  iexact HB

end Cert.Kernel.TileGather

end
-- ==== Proof.BTileDrain.lean ====
/-
  The gather's drain loop: 128 trips of four waits, each for one row's credit; the very last wait hands every copy's
  delivery back at once.
-/
import proofs.«206817_g64347200028782_cont_9to1_m_612_22_alg».proof.Proof.BTileIssue

set_option pp.maxSteps 4000
set_option pp.deepTerms false

noncomputable section

namespace Cert.Kernel.TileGather

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Kernel.TileRes Cert.Kernel.TileCore Cert.Kernel.TileVals Cert.KSpec Cert.Spec
open Idealize.ShloMosaic.ValueIdx

variable [FloatOps F] (d : Dev nD) (L : grid0.Coords) (X : Tabs F)

theorem t2_trips : k0_t2_loop.trips = 128 := by decide +kernel

/-- Before trip `k` of the drain: the waits so far recorded; before the last trip has run the batch with `4 k` rows'
    credit consumed, after it the semaphore back at zero and every delivery. -/
def drainInv (O : CellTallies nD τ sig (HIx 1)) (W : Waits sig (HIx 1)) (k : ℕ) (_ : PUnit) : sProp 𝕄 :=
  iprop(⌜k ≤ 128⌝ ∗ Transfers.MayWaits (thr d L) (none : HIx 1) O
    ∗ (∃ W', ⌜∀ p ∈ W', p ∈ W ∨ p.2 = none⌝ ∗ owes (thr d L) O W')
    ∗ (if k < 128 then batch d L X 512 (4 * k * NN)
       else iprop(semVal (cell d L cc0_scratch9) 0 ∗ bigSep Finset.univ (D4 d L X))))

theorem drain_step (O : CellTallies nD τ sig (HIx 1)) (W : Waits sig (HIx 1)) (k : Fin k0_t2_loop.trips) (acc : PUnit) :
    drainInv d L X O W k.val acc
      ⊢ wp frame (wpE (defs₀ (F := F)) 𝒱₀ (thr d L) none) Set.univ (k0_t2_body (F := F) L (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v10_scv) (Memref.isWhole_whole _) (Memref.whole main_v0_scv) (Memref.isWhole_whole _) (Memref.whole main_v1_scv) (Memref.isWhole_whole _) (Memref.whole main_v3_scv) (Memref.isWhole_whole _) (Memref.whole main_v4_scv) (Memref.isWhole_whole _) (Memref.whole main_v11_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scoped0 cc0_scoped1 cc0_scoped2 cc0_scoped3 cc0_scoped4 cc0_scoped5 k acc)
          (fun _ => drainInv d L X O W (k.val + 1) ⟨⟩) := by
  have hk : k.val < 128 := lt_of_lt_of_eq k.isLt t2_trips
  unfold drainInv
  simp only [if_pos hk]
  rcases Nat.lt_or_ge (k.val + 1) 128 with h1 | h1
  · simp only [if_pos h1]
    iintro ⟨-, Hmw, ⟨%W', %hW', HO⟩, HB⟩
    unfold k0_t2_body
    sl_exec
    sl_step
    isplitr; · ipureintro; omega
    isplitl [Hmw]; · iexact Hmw
    isplitl [HO]
    · iexists (insert (SemLoc.dma cc0_scratch9.sem, (default : HIx 1)) (insert (SemLoc.dma cc0_scratch9.sem, (default : HIx 1)) (insert (SemLoc.dma cc0_scratch9.sem, (default : HIx 1)) (insert (SemLoc.dma cc0_scratch9.sem, (default : HIx 1)) W')))); isplitr
      · ipureintro; intro p hp
        simp only [Finset.mem_insert] at hp
        rcases hp with rfl | rfl | rfl | rfl | hp
        · exact .inr rfl
        · exact .inr rfl
        · exact .inr rfl
        · exact .inr rfl
        · exact hW' p hp
      · iexact HO
    rw [show 4 * (k.val + 1) * NN = 4 * k.val * NN + NN + NN + NN + NN by simp only [NN]; omega]
    iexact HB
  · simp only [if_neg (Nat.not_lt.mpr h1)]
    iintro ⟨-, Hmw, ⟨%W', %hW', HO⟩, HB⟩
    unfold k0_t2_body
    sl_exec
    sl_step
    isplitr; · ipureintro; omega
    isplitl [Hmw]; · iexact Hmw
    isplitl [HO]
    · iexists (insert (SemLoc.dma cc0_scratch9.sem, (default : HIx 1)) (insert (SemLoc.dma cc0_scratch9.sem, (default : HIx 1)) (insert (SemLoc.dma cc0_scratch9.sem, (default : HIx 1)) (insert (SemLoc.dma cc0_scratch9.sem, (default : HIx 1)) W')))); isplitr
      · ipureintro; intro p hp
        simp only [Finset.mem_insert] at hp
        rcases hp with rfl | rfl | rfl | rfl | hp
        · exact .inr rfl
        · exact .inr rfl
        · exact .inr rfl
        · exact .inr rfl
        · exact hW' p hp
      · iexact HO
    isplitl [HB]; · iexact HB
    iexact HB_all

end Cert.Kernel.TileGather

end
-- ==== Proof.BTileRows.lean ====
/-
  One trip of the row-combining loop of a task.

  Trip `k` reads row `k` of the four row buffers (heads, relations, tails, names) in four pieces of sixteen lanes and
  writes row `k` of the 128 × 192 staging buffer in twelve: columns 0–63 names + heads, columns 64–127 relations,
  columns 128–191 names + tails. Rows below `k` of the staging buffer already hold the kernel's result; after the
  trip so does row `k`, and the rows above are untouched.
-/
import proofs.«206817_g64347200028782_cont_9to1_m_612_22_alg».proof.Proof.BTileVals
import Idealize.ShloMosaic.Lib.Writes
import Idealize.ShloMosaic.Lib.Pipeline.Value

noncomputable section

namespace Cert.Kernel.TileRows

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Kernel.TileRes Cert.Kernel.TileCore Cert.Kernel.TileVals Cert.KSpec Cert.Spec
open Idealize.ShloMosaic.ValueIdx

variable [FloatOps F]

/-- Before trip `k`: the four row buffers at their gathered contents, the staging buffer done below row `k`. -/
def rowInv (d : Dev nD) (L : grid0.Coords) (X : Tabs F) (g8 : FVec F S128x192 .f32) (k : ℕ) (_ : PUnit) : sProp 𝕄 :=
  iprop(sc4 d L (G4 L X : Buf (Elt F) ((thr d L).loc cc0_scratch4)) ∗ sc5 d L (G5 L X : Buf (Elt F) ((thr d L).loc cc0_scratch5))
    ∗ sc6 d L (G6' L X : Buf (Elt F) ((thr d L).loc cc0_scratch6)) ∗ sc7 d L (G7 L X : Buf (Elt F) ((thr d L).loc cc0_scratch7))
    ∗ sc8 d L (R8 L X g8 k : Buf (Elt F) ((thr d L).loc cc0_scratch8)))

/-! ## Sixteen lanes as one row of sixteen, and back -/

theorem cast16 {α : Type} (a : S1x16.Idx → α) (x : S1x16.Idx) :
    shapeCast S16 a shapeCasts_S1x16_S16 (Shape.reshapeEquiv shapeCasts_S16_S1x16 x) = a x :=
  congrFun (shapeCast_shapeCast a shapeCasts_S1x16_S16 shapeCasts_S16_S1x16) x

/-- Two rows of sixteen added lane by lane. -/
theorem pay_add (a b : S1x16.Idx → F .f32) (x : S1x16.Idx) :
    shapeCast S1x16 (addf (shapeCast S16 a shapeCasts_S1x16_S16) (shapeCast S16 b shapeCasts_S1x16_S16) : FVec F S16 .f32) shapeCasts_S16_S1x16 x
      = FloatOps.addf (a x) (b x) := by
  show FloatOps.addf (shapeCast S16 a shapeCasts_S1x16_S16 (Shape.reshapeEquiv shapeCasts_S16_S1x16 x))
      (shapeCast S16 b shapeCasts_S1x16_S16 (Shape.reshapeEquiv shapeCasts_S16_S1x16 x)) = _
  rw [cast16, cast16]

theorem pay_id {α : Type} (a : S1x16.Idx → α) (x : S1x16.Idx) :
    shapeCast S1x16 (shapeCast S16 a shapeCasts_S1x16_S16) shapeCasts_S16_S1x16 x = a x :=
  congrFun (shapeCast_shapeCast a shapeCasts_S1x16_S16 shapeCasts_S16_S1x16) x

section Values

variable (L : grid0.Coords) (X : Tabs F) (g8 : FVec F S128x192 .f32)

/-! ## What the row buffers and the staging buffer hold at row `k` -/

theorem G7_at (idx : S128x64.Idx) (r : Fin 128) (c : Fin 64) (h0 : (idx 0).val = r.val) (h1 : (idx 1).val = c.val) :
    G7 L X idx = tileRow 1250 (by decide) X.T8 (X.I4 (ix1 (rowOfEntry L r))) c := by
  have e0 : idx 0 = r := Fin.ext h0
  have e1 : idx 1 = c := Fin.ext h1
  unfold G7; rw [e0, e1]
theorem G4_at (idx : S128x64.Idx) (r : Fin 128) (c : Fin 64) (h0 : (idx 0).val = r.val) (h1 : (idx 1).val = c.val) :
    G4 L X idx = tileRow 12500 (by decide) X.T5 (X.I0 (ix1 (rowOfEntry L r))) c := by
  have e0 : idx 0 = r := Fin.ext h0
  have e1 : idx 1 = c := Fin.ext h1
  unfold G4; rw [e0, e1]
theorem G5_at (idx : S128x64.Idx) (r : Fin 128) (c : Fin 64) (h0 : (idx 0).val = r.val) (h1 : (idx 1).val = c.val) :
    G5 L X idx = tileRow 25 (by decide) X.T6 (X.I1 (ix1 (rowOfEntry L r))) c := by
  have e0 : idx 0 = r := Fin.ext h0
  have e1 : idx 1 = c := Fin.ext h1
  unfold G5; rw [e0, e1]
theorem G6'_at (idx : S128x64.Idx) (r : Fin 128) (c : Fin 64) (h0 : (idx 0).val = r.val) (h1 : (idx 1).val = c.val) :
    G6' L X idx = if (rowOfEntry L r).val < 4095 then tileRow 12500 (by decide) X.T7 (X.I3 (ix1 (rowOfEntry L r))) c
      else X.T10 (ix3 (0 : Fin 1) (1 : Fin 8) c) := by
  have e0 : idx 0 = r := Fin.ext h0
  have e1 : idx 1 = c := Fin.ext h1
  have hw := wid_lt L
  have hr := r.isLt
  unfold G6' G6
  rw [e0, e1]
  by_cases h : wid L = 31 ∧ r.val = 127
  · rw [if_pos h, if_neg (by show ¬ (base L + r.val < 4095); unfold base; omega)]
  · rw [if_neg h, if_pos (by show base L + r.val < 4095; unfold base; omega)]

/-- Row `k` of the staging buffer once it is combined, by thirds. -/
theorem R8_at (k : Fin 128) (y : S128x192.Idx) (h0 : (y 0).val = k.val) :
    R8 L X g8 (k.val + 1) y = Kat X.T5 X.T6 X.T7 X.T8 X.T10 X.I0 X.I1 X.I3 X.I4 (rowOfEntry L k) (y 1) := by
  have e0 : y 0 = k := Fin.ext h0
  unfold R8; rw [if_pos (by omega), e0]

/-! ## The kernel's result by thirds of a row -/

theorem Kat_nh (r : Fin 4096) (c : Fin 192) (c' : Fin 64) (h : c.val < 64) (hc : c'.val = c.val) :
    Kat X.T5 X.T6 X.T7 X.T8 X.T10 X.I0 X.I1 X.I3 X.I4 r c
      = FloatOps.addf (tileRow 1250 (by decide) X.T8 (X.I4 (ix1 r)) c') (tileRow 12500 (by decide) X.T5 (X.I0 (ix1 r)) c') := by
  have e : col64 c = c' := Fin.ext (by show c.val % 64 = c'.val; omega)
  unfold Kat; simp only [e]; rw [if_pos h]
theorem Kat_r (r : Fin 4096) (c : Fin 192) (c' : Fin 64) (h : 64 ≤ c.val) (h' : c.val < 128) (hc : c'.val + 64 = c.val) :
    Kat X.T5 X.T6 X.T7 X.T8 X.T10 X.I0 X.I1 X.I3 X.I4 r c = tileRow 25 (by decide) X.T6 (X.I1 (ix1 r)) c' := by
  have e : col64 c = c' := Fin.ext (by show c.val % 64 = c'.val; omega)
  unfold Kat; simp only [e]; rw [if_neg (by omega), if_pos h']
theorem Kat_nt (r : Fin 4096) (c : Fin 192) (c' : Fin 64) (h : 128 ≤ c.val) (hc : c'.val + 128 = c.val) :
    Kat X.T5 X.T6 X.T7 X.T8 X.T10 X.I0 X.I1 X.I3 X.I4 r c
      = FloatOps.addf (tileRow 1250 (by decide) X.T8 (X.I4 (ix1 r)) c')
          (if r.val < 4095 then tileRow 12500 (by decide) X.T7 (X.I3 (ix1 r)) c' else X.T10 (ix3 (0 : Fin 1) (1 : Fin 8) c')) := by
  have hlt := c.isLt
  have e : col64 c = c' := Fin.ext (by show c.val % 64 = c'.val; omega)
  unfold Kat; simp only [e]; rw [if_neg (by omega), if_neg (by omega)]

/-! ## One sixteen-lane piece of row `k` is the kernel's result there -/

section Pieces

variable (d : Dev nD) (k : Fin 128) (c0 : ℕ)
  (o8 : Fin 2 → ℕ) (i8 : ∀ a, o8 a + S1x16.size a ≤ S128x192.size a)
  (o4 : Fin 2 → ℕ) (i4 : ∀ a, o4 a + S1x16.size a ≤ S128x64.size a) (h4 : o4 = ![k.val, c0]) (x : S1x16.Idx)

include h4

theorem piece_nh (hc0 : c0 + 16 ≤ 64) (h8 : o8 = ![k.val, c0]) :
    FloatOps.addf (View.readAt (Elt F) (Memref.whole cc0_scratch7 : Memref sig .scVector .vmem S128x64 .f32).view (Rect.unit (s := S128x64) o4 S1x16.size i4).toLoadRect (G7 L X : Buf (Elt F) ((Memref.whole cc0_scratch7 : Memref sig .scVector .vmem S128x64 .f32).view.loc (thr d L))) x) (View.readAt (Elt F) (Memref.whole cc0_scratch4 : Memref sig .scVector .vmem S128x64 .f32).view (Rect.unit (s := S128x64) o4 S1x16.size i4).toLoadRect (G4 L X : Buf (Elt F) ((Memref.whole cc0_scratch4 : Memref sig .scVector .vmem S128x64 .f32).view.loc (thr d L))) x)
      = R8 L X g8 (k.val + 1) ((Rect.unit (s := S128x192) o8 S1x16.size i8).emb x) := by
  show FloatOps.addf (G7 L X ((Rect.unit (s := S128x64) o4 S1x16.size i4).emb x)) (G4 L X ((Rect.unit (s := S128x64) o4 S1x16.size i4).emb x)) = _
  subst h8; subst h4
  have hx1 : (x 1).val < 16 := (x 1).isLt
  have hx0 : (x 0).val = 0 := Nat.lt_one_iff.mp (x 0).isLt
  have hc' : c0 + (x 1).val < 64 := by omega
  rw [R8_at L X g8 k _ (by show k.val + 1 * (x 0).val = k.val; omega),
    G7_at L X _ k ⟨c0 + (x 1).val, hc'⟩ (by show k.val + 1 * (x 0).val = k.val; omega) (by show c0 + 1 * (x 1).val = c0 + (x 1).val; omega),
    G4_at L X _ k ⟨c0 + (x 1).val, hc'⟩ (by show k.val + 1 * (x 0).val = k.val; omega) (by show c0 + 1 * (x 1).val = c0 + (x 1).val; omega)]
  exact (Kat_nh X _ _ ⟨c0 + (x 1).val, hc'⟩ (by show c0 + 1 * (x 1).val < 64; omega) (by show c0 + (x 1).val = c0 + 1 * (x 1).val; omega)).symm

theorem piece_r (hc0 : c0 + 16 ≤ 64) (h8 : o8 = ![k.val, 64 + c0]) :
    (View.readAt (Elt F) (Memref.whole cc0_scratch5 : Memref sig .scVector .vmem S128x64 .f32).view (Rect.unit (s := S128x64) o4 S1x16.size i4).toLoadRect (G5 L X : Buf (Elt F) ((Memref.whole cc0_scratch5 : Memref sig .scVector .vmem S128x64 .f32).view.loc (thr d L))) x)
      = R8 L X g8 (k.val + 1) ((Rect.unit (s := S128x192) o8 S1x16.size i8).emb x) := by
  show G5 L X ((Rect.unit (s := S128x64) o4 S1x16.size i4).emb x) = _
  subst h8; subst h4
  have hx1 : (x 1).val < 16 := (x 1).isLt
  have hx0 : (x 0).val = 0 := Nat.lt_one_iff.mp (x 0).isLt
  have hc' : c0 + (x 1).val < 64 := by omega
  rw [R8_at L X g8 k _ (by show k.val + 1 * (x 0).val = k.val; omega),
    G5_at L X _ k ⟨c0 + (x 1).val, hc'⟩ (by show k.val + 1 * (x 0).val = k.val; omega) (by show c0 + 1 * (x 1).val = c0 + (x 1).val; omega)]
  exact (Kat_r X _ _ ⟨c0 + (x 1).val, hc'⟩ (by show 64 ≤ 64 + c0 + 1 * (x 1).val; omega) (by show 64 + c0 + 1 * (x 1).val < 128; omega)
      (by show c0 + (x 1).val + 64 = 64 + c0 + 1 * (x 1).val; omega)).symm

theorem piece_nt (hc0 : c0 + 16 ≤ 64) (h8 : o8 = ![k.val, 128 + c0]) :
    FloatOps.addf (View.readAt (Elt F) (Memref.whole cc0_scratch7 : Memref sig .scVector .vmem S128x64 .f32).view (Rect.unit (s := S128x64) o4 S1x16.size i4).toLoadRect (G7 L X : Buf (Elt F) ((Memref.whole cc0_scratch7 : Memref sig .scVector .vmem S128x64 .f32).view.loc (thr d L))) x) (View.readAt (Elt F) (Memref.whole cc0_scratch6 : Memref sig .scVector .vmem S128x64 .f32).view (Rect.unit (s := S128x64) o4 S1x16.size i4).toLoadRect (G6' L X : Buf (Elt F) ((Memref.whole cc0_scratch6 : Memref sig .scVector .vmem S128x64 .f32).view.loc (thr d L))) x)
      = R8 L X g8 (k.val + 1) ((Rect.unit (s := S128x192) o8 S1x16.size i8).emb x) := by
  show FloatOps.addf (G7 L X ((Rect.unit (s := S128x64) o4 S1x16.size i4).emb x)) (G6' L X ((Rect.unit (s := S128x64) o4 S1x16.size i4).emb x)) = _
  subst h8; subst h4
  have hx1 : (x 1).val < 16 := (x 1).isLt
  have hx0 : (x 0).val = 0 := Nat.lt_one_iff.mp (x 0).isLt
  have hc' : c0 + (x 1).val < 64 := by omega
  rw [R8_at L X g8 k _ (by show k.val + 1 * (x 0).val = k.val; omega),
    G7_at L X _ k ⟨c0 + (x 1).val, hc'⟩ (by show k.val + 1 * (x 0).val = k.val; omega) (by show c0 + 1 * (x 1).val = c0 + (x 1).val; omega),
    G6'_at L X _ k ⟨c0 + (x 1).val, hc'⟩ (by show k.val + 1 * (x 0).val = k.val; omega) (by show c0 + 1 * (x 1).val = c0 + (x 1).val; omega)]
  exact (Kat_nt X _ _ ⟨c0 + (x 1).val, hc'⟩ (by show 128 ≤ 128 + c0 + 1 * (x 1).val; omega)
      (by show c0 + (x 1).val + 128 = 128 + c0 + 1 * (x 1).val; omega)).symm

end Pieces

/-! ## Reading the staging buffer after a list of stores -/

omit [FloatOps F] in
theorem writes8_of_pieces (f : (Memref.whole cc0_scratch8 : Memref sig .scVector .vmem S128x192 .f32).view.ty.Contents (Elt F))
    (G : S128x192.Idx → Elt F .f32) (Lst : List (View.Piece (Elt F) S128x192 .f32))
    (hG : ∀ p ∈ Lst, ∀ x : p.1.shape.Idx, p.2 x = G (p.1.emb x)) (y : S128x192.Idx) (hcov : ∃ p ∈ Lst, y ∈ p.1.set) :
    (Memref.whole cc0_scratch8 : Memref sig .scVector .vmem S128x192 .f32).view.writes (Elt F) f Lst y = G y :=
  View.read_writes_apply_of_pieces (Val := Elt F) (Memref.whole cc0_scratch8 : Memref sig .scVector .vmem S128x192 .f32).view f G Lst hG y hcov

omit [FloatOps F] in
theorem writes8_of_not_mem (f : (Memref.whole cc0_scratch8 : Memref sig .scVector .vmem S128x192 .f32).view.ty.Contents (Elt F))
    (Lst : List (View.Piece (Elt F) S128x192 .f32)) (y : S128x192.Idx) (hn : ∀ p ∈ Lst, y ∉ p.1.set) :
    (Memref.whole cc0_scratch8 : Memref sig .scVector .vmem S128x192 .f32).view.writes (Elt F) f Lst y = f y :=
  View.read_writes_apply_of_forall_not_mem (Val := Elt F) (Memref.whole cc0_scratch8 : Memref sig .scVector .vmem S128x192 .f32).view f y Lst hn

/-! ## The trip -/

omit [FloatOps F] in
theorem sc8_congr (d : Dev nD) (f g : Buf (Elt F) ((thr d L).loc cc0_scratch8)) (h : ∀ y, f y = g y) :
    (sc8 d L f : sProp 𝕄) ⊢ sc8 d L g := Entails.of_eq (pointsTo_congr fun i _ => h i)

end Values

/-- Trip `k` of the row-combining loop: from the staging buffer done below row `k` to done below row `k + 1`, the four
    row buffers read and kept. -/
theorem row_step [∀ e, Nonempty (Elt F e)] (d : Dev nD) (L : grid0.Coords) (X : Tabs F) (g8 : FVec F S128x192 .f32)
    (k : Fin k0_t3_loop.trips) (acc : PUnit) :
    rowInv d L X g8 k.val acc ⊢ wp frame (wpE (defs₀ (F := F)) 𝒱₀ (thr d L) none) Set.univ
      (k0_t3_body (F := F) L (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v10_scv) (Memref.isWhole_whole _) (Memref.whole main_v0_scv) (Memref.isWhole_whole _) (Memref.whole main_v1_scv) (Memref.isWhole_whole _) (Memref.whole main_v3_scv) (Memref.isWhole_whole _) (Memref.whole main_v4_scv) (Memref.isWhole_whole _) (Memref.whole main_v11_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scoped0 cc0_scoped1 cc0_scoped2 cc0_scoped3 cc0_scoped4 cc0_scoped5 k acc)
      (fun _ => rowInv d L X g8 (k.val + 1) ⟨⟩) := by
  unfold rowInv
  iintro ⟨H4, H5, H6, H7, H8⟩
  unfold k0_t3_body
  sl_exec
  sl_step
  isplitl [H4]; · iexact H4
  isplitl [H5]; · iexact H5
  isplitl [H6]; · iexact H6
  isplitl [H7]; · iexact H7
  iapply (sc8_congr L d _ _ ?_) $$ H8
  intro y
  sl_unfold_run_names
  have hk : k.val < 128 := k.isLt
  let kk : Fin 128 := ⟨k.val, hk⟩
  by_cases hy : (y 0).val = k.val
  · -- row `k`: every element lies under one of the twelve pieces, and each piece is the result there
    have hc : (y 1).val < 192 := (y 1).isLt
    have mem : ∀ (o : Fin 2 → ℕ) (i : ∀ a, o a + S1x16.size a ≤ S128x192.size a) (c0 : ℕ), o = ![k.val, c0] → c0 ≤ (y 1).val → (y 1).val < c0 + 16 →
        y ∈ (Rect.unit (s := S128x192) o S1x16.size i).set := by
      intro o i c0 ho h1 h2; subst ho
      rw [Rect.mem_set_unit]; intro a
      match a with
      | ⟨0, _⟩ => exact ⟨by show k.val ≤ (y 0).val; omega, by show (y 0).val < k.val + 1; omega⟩
      | ⟨1, _⟩ => exact ⟨h1, h2⟩
    refine writes8_of_pieces _ (R8 L X g8 (k.val + 1)) _ ?hG y ?hcov
    case hG =>
      exact List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nt L X g8 kk 48 _ _ _ _ (k0_off144_eq k) x (by decide) (k0_off147_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_id (α := F .f32) _ x).trans ?_
        exact piece_r L X g8 kk 48 _ _ _ _ (k0_off144_eq k) x (by decide) (k0_off146_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nh L X g8 kk 48 _ _ _ _ (k0_off144_eq k) x (by decide) (k0_off145_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nt L X g8 kk 32 _ _ _ _ (k0_off140_eq k) x (by decide) (k0_off143_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_id (α := F .f32) _ x).trans ?_
        exact piece_r L X g8 kk 32 _ _ _ _ (k0_off140_eq k) x (by decide) (k0_off142_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nh L X g8 kk 32 _ _ _ _ (k0_off140_eq k) x (by decide) (k0_off141_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nt L X g8 kk 16 _ _ _ _ (k0_off136_eq k) x (by decide) (k0_off139_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_id (α := F .f32) _ x).trans ?_
        exact piece_r L X g8 kk 16 _ _ _ _ (k0_off136_eq k) x (by decide) (k0_off138_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nh L X g8 kk 16 _ _ _ _ (k0_off136_eq k) x (by decide) (k0_off137_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nt L X g8 kk 0 _ _ _ _ (k0_off132_eq k) x (by decide) (k0_off135_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_id (α := F .f32) _ x).trans ?_
        exact piece_r L X g8 kk 0 _ _ _ _ (k0_off132_eq k) x (by decide) (k0_off134_eq k), List.forall_mem_cons.2 ⟨fun (x : S1x16.Idx) => by
        dsimp only [k0_pay139, k0_pay140, k0_pay141, k0_pay142, k0_pay143, k0_pay144, k0_pay145, k0_pay146, k0_pay147, k0_pay148, k0_pay149, k0_pay150, k0_pay151, k0_pay152, k0_pay153, k0_pay156, k0_pay157, k0_pay158]
        refine (pay_add (F := F) _ _ x).trans ?_
        exact piece_nh L X g8 kk 0 _ _ _ _ (k0_off132_eq k) x (by decide) (k0_off133_eq k), fun _ h => absurd h List.not_mem_nil⟩⟩⟩⟩⟩⟩⟩⟩⟩⟩⟩⟩
    case hcov =>
      by_cases h0 : (y 1).val < 16
      · exact ⟨_, .tail _ (.tail _ (.tail _ (.tail _ (.tail _ (.tail _ (.tail _ (.tail _ (.tail _ (.tail _ (.tail _ (.head _))))))))))), mem _ (k0_off133_inb k) 0 (k0_off133_eq k) (by omega) (by omega)⟩
      by_cases h1 : (y 1).val < 32
      · exact ⟨_, .tail _ (.tail _ (.tail _ (.tail _ (.tail _ (.tail _ (.tail _ (.tail _ (.head _)))))))), mem _ (k0_off137_inb k) 16 (k0_off137_eq k) (by omega) (by omega)⟩
      by_cases h2 : (y 1).val < 48
      · exact ⟨_, .tail _ (.tail _ (.tail _ (.tail _ (.tail _ (.head _))))), mem _ (k0_off141_inb k) 32 (k0_off141_eq k) (by omega) (by omega)⟩
      by_cases h3 : (y 1).val < 64
      · exact ⟨_, .tail _ (.tail _ (.head _)), mem _ (k0_off145_inb k) 48 (k0_off145_eq k) (by omega) (by omega)⟩
      by_cases h4 : (y 1).val < 80
      · exact ⟨_, .tail _ (.tail _ (.tail _ (.tail _ (.tail _ (.tail _ (.tail _ (.tail _ (.tail _ (.tail _ (.head _)))))))))), mem _ (k0_off134_inb k) 64 (k0_off134_eq k) (by omega) (by omega)⟩
      by_cases h5 : (y 1).val < 96
      · exact ⟨_, .tail _ (.tail _ (.tail _ (.tail _ (.tail _ (.tail _ (.tail _ (.head _))))))), mem _ (k0_off138_inb k) 80 (k0_off138_eq k) (by omega) (by omega)⟩
      by_cases h6 : (y 1).val < 112
      · exact ⟨_, .tail _ (.tail _ (.tail _ (.tail _ (.head _)))), mem _ (k0_off142_inb k) 96 (k0_off142_eq k) (by omega) (by omega)⟩
      by_cases h7 : (y 1).val < 128
      · exact ⟨_, .tail _ (.head _), mem _ (k0_off146_inb k) 112 (k0_off146_eq k) (by omega) (by omega)⟩
      by_cases h8 : (y 1).val < 144
      · exact ⟨_, .tail _ (.tail _ (.tail _ (.tail _ (.tail _ (.tail _ (.tail _ (.tail _ (.tail _ (.head _))))))))), mem _ (k0_off135_inb k) 128 (k0_off135_eq k) (by omega) (by omega)⟩
      by_cases h9 : (y 1).val < 160
      · exact ⟨_, .tail _ (.tail _ (.tail _ (.tail _ (.tail _ (.tail _ (.head _)))))), mem _ (k0_off139_inb k) 144 (k0_off139_eq k) (by omega) (by omega)⟩
      by_cases h10 : (y 1).val < 176
      · exact ⟨_, .tail _ (.tail _ (.tail _ (.head _))), mem _ (k0_off143_inb k) 160 (k0_off143_eq k) (by omega) (by omega)⟩
      exact ⟨_, .head _, mem _ (k0_off147_inb k) 176 (k0_off147_eq k) (by omega) (by omega)⟩
  · -- the other rows: no piece touches them
    have nmem : ∀ (o : Fin 2 → ℕ) (i : ∀ a, o a + S1x16.size a ≤ S128x192.size a) (c0 : ℕ), o = ![k.val, c0] →
        y ∉ (Rect.unit (s := S128x192) o S1x16.size i).set := by
      intro o i c0 ho hm; subst ho
      have h0 := (Rect.mem_set_unit.mp hm) 0
      have h1 : k.val ≤ (y 0).val := h0.1
      have h2 : (y 0).val < k.val + 1 := h0.2
      exact hy (by omega)
    refine (writes8_of_not_mem _ _ y ?hn).trans ?_
    case hn =>
      exact List.forall_mem_cons.2 ⟨nmem _ (k0_off147_inb k) _ (k0_off147_eq k), List.forall_mem_cons.2 ⟨nmem _ (k0_off146_inb k) _ (k0_off146_eq k), List.forall_mem_cons.2 ⟨nmem _ (k0_off145_inb k) _ (k0_off145_eq k), List.forall_mem_cons.2 ⟨nmem _ (k0_off143_inb k) _ (k0_off143_eq k), List.forall_mem_cons.2 ⟨nmem _ (k0_off142_inb k) _ (k0_off142_eq k), List.forall_mem_cons.2 ⟨nmem _ (k0_off141_inb k) _ (k0_off141_eq k), List.forall_mem_cons.2 ⟨nmem _ (k0_off139_inb k) _ (k0_off139_eq k), List.forall_mem_cons.2 ⟨nmem _ (k0_off138_inb k) _ (k0_off138_eq k), List.forall_mem_cons.2 ⟨nmem _ (k0_off137_inb k) _ (k0_off137_eq k), List.forall_mem_cons.2 ⟨nmem _ (k0_off135_inb k) _ (k0_off135_eq k), List.forall_mem_cons.2 ⟨nmem _ (k0_off134_inb k) _ (k0_off134_eq k), List.forall_mem_cons.2 ⟨nmem _ (k0_off133_inb k) _ (k0_off133_eq k), fun _ h => absurd h List.not_mem_nil⟩⟩⟩⟩⟩⟩⟩⟩⟩⟩⟩⟩
    show R8 L X g8 k.val y = R8 L X g8 (k.val + 1) y
    unfold R8
    by_cases hlt : (y 0).val < k.val
    · rw [if_pos hlt, if_pos (by omega)]
    · rw [if_neg hlt, if_neg (by omega)]

end Cert.Kernel.TileRows

end
-- ==== Proof.BTileIssueInv.lean ====
/-
  The gather's issue loop: eight trips of sixteen entries, four row copies per entry.
-/
import proofs.«206817_g64347200028782_cont_9to1_m_612_22_alg».proof.Proof.BTileIssue
import proofs.«206817_g64347200028782_cont_9to1_m_612_22_alg».proof.Proof.Words

set_option pp.maxSteps 4000
set_option pp.deepTerms false

noncomputable section

namespace Cert.Kernel.TileGather

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Kernel.TileRes Cert.Kernel.TileCore Cert.Kernel.TileVals Cert.KSpec Cert.Spec
open Idealize.ShloMosaic.ValueIdx

variable [FloatOps F] (d : Dev nD) (L : grid0.Coords) (X : Tabs F)

/-- Read token number `e` of a table: the task's share of it cut by entry. -/
abbrev tok0 (e : ℕ) : sProp 𝕄 := (Memref.whole main_v5_scv : Memref sig .scVector .hbm S12500x8x64 .f32).view.loc (thr d L) ↦{Transfers.shareTokN (rshare L) e} (X.T5 : Buf (Elt F) ((Memref.whole main_v5_scv : Memref sig .scVector .hbm S12500x8x64 .f32).view.loc (thr d L)))
abbrev tok1 (e : ℕ) : sProp 𝕄 := (Memref.whole main_v6_scv : Memref sig .scVector .hbm S25x8x64 .f32).view.loc (thr d L) ↦{Transfers.shareTokN (rshare L) e} (X.T6 : Buf (Elt F) ((Memref.whole main_v6_scv : Memref sig .scVector .hbm S25x8x64 .f32).view.loc (thr d L)))
abbrev tok2 (e : ℕ) : sProp 𝕄 := (Memref.whole main_v7_scv : Memref sig .scVector .hbm S12500x8x64 .f32).view.loc (thr d L) ↦{Transfers.shareTokN (rshare L) e} (X.T7 : Buf (Elt F) ((Memref.whole main_v7_scv : Memref sig .scVector .hbm S12500x8x64 .f32).view.loc (thr d L)))
abbrev tok3 (e : ℕ) : sProp 𝕄 := (Memref.whole main_v8_scv : Memref sig .scVector .hbm S1250x8x64 .f32).view.loc (thr d L) ↦{Transfers.shareTokN (rshare L) e} (X.T8 : Buf (Elt F) ((Memref.whole main_v8_scv : Memref sig .scVector .hbm S1250x8x64 .f32).view.loc (thr d L)))

/-- What entry `e`'s four copies need: row `e` of each row buffer and a read token of each table. -/
def bundle (g4 g5 g6 g7 : FVec F S128x64 .f32) (e : Fin 128) : sProp 𝕄 :=
  iprop(rowAt4 d L e g4 ∗ rowAt5 d L e g5 ∗ rowAt6 d L e g6 ∗ rowAt7 d L e g7 ∗ tok0 d L X e.val ∗ tok1 d L X e.val ∗ tok2 d L X e.val ∗ tok3 d L X e.val)

/-- Before trip `k`: `64 k` copies issued, none waited for; the index lists as copied in; the entries from `16 k` on
    still holding their rows and tokens. -/
def issueInv (c0 : Buf (Elt F) ((thr d L).loc cc0_scratch0)) (c1 : Buf (Elt F) ((thr d L).loc cc0_scratch1)) (c2 : Buf (Elt F) ((thr d L).loc cc0_scratch2)) (c3 : Buf (Elt F) ((thr d L).loc cc0_scratch3))
    (g4 g5 g6 g7 : FVec F S128x64 .f32) (k : ℕ) (_ : PUnit) : sProp 𝕄 :=
  iprop(batch d L X (64 * k) 0 ∗ sc0 d L c0 ∗ sc1 d L c1 ∗ sc2 d L c2 ∗ sc3 d L c3
    ∗ bigSep (Ring.rangeSet 128 (16 * k) 128) (bundle d L X g4 g5 g6 g7))

end Cert.Kernel.TileGather

end
-- ==== Proof.BTileLanes.lean ====
/-
  The index words as the first loop reads them. Trip `k` loads sixteen consecutive words of each index list, starting
  at word `16 k`, shifts them right by 3 (arithmetically) and masks them with 7, and takes lane `l` of either result:
  that is the word at position `16 k + l` of the list, shifted or masked.
-/
import proofs.«206817_g64347200028782_cont_9to1_m_612_22_alg».proof.Proof.BTileGather0

noncomputable section

namespace Cert.Kernel.TileGather

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Kernel.TileRes Cert.Kernel.TileCore Cert.Kernel.TileVals Cert.KSpec Cert.Spec
open Idealize.ShloMosaic.ValueIdx

variable [FloatOps F]

/-- Position `16 k + l` is inside the 128-word list. -/
theorem lane_pos_lt (k : Fin k0_t1_loop.trips) (lane : Fin 16) : 16 * k.val + lane.val < 128 := by
  have hk : k.val < 8 := Nat.lt_of_lt_of_le k.isLt k0_t1_abs.2.1
  have hl := lane.isLt
  omega

/-- The position as an index of the list. -/
abbrev lanePos (k : Fin k0_t1_loop.trips) (lane : Fin 16) : S128.Idx := ix1 (⟨16 * k.val + lane.val, lane_pos_lt k lane⟩ : Fin 128)

/-! ## Lane `l` of the sixteen words, shifted or masked -/

theorem lane_core_shr (R : IVec S16 32) (lane : Fin 16) (hcast : S16.ShapeCasts S16) (hsl : S16.Slices ![lane.val] S1)
    (hpos : ∀ a, (![0] : Fin S1.rank → Nat) a < S1.size a) :
    extractAt ![0] (extractStridedSlice S1 ![lane.val] (shrsi (shapeCast S16 R hcast) (broadcast S16 3#32)) hsl) hpos
      = IntOp.shrsi .vector (R (ix1 lane)) 3#32 := by
  rw [show shapeCast S16 R hcast = R from funext fun i => congrArg R (Shape.reshapeEquiv_self _ i)]
  unfold extractAt extractStridedSlice shrsi broadcast
  congr 2
  funext a
  match a with
  | ⟨0, _⟩ => rfl

theorem lane_core_and (R : IVec S16 32) (lane : Fin 16) (hcast : S16.ShapeCasts S16) (hsl : S16.Slices ![lane.val] S1)
    (hpos : ∀ a, (![0] : Fin S1.rank → Nat) a < S1.size a) :
    extractAt ![0] (extractStridedSlice S1 ![lane.val] (andi (shapeCast S16 R hcast) (broadcast S16 7#32)) hsl) hpos
      = IntOp.andi (R (ix1 lane)) 7#32 := by
  rw [show shapeCast S16 R hcast = R from funext fun i => congrArg R (Shape.reshapeEquiv_self _ i)]
  unfold extractAt extractStridedSlice andi broadcast
  congr 2
  funext a
  match a with
  | ⟨0, _⟩ => rfl

/-! ## The sixteen words of trip `k` -/

theorem read_lane0 (c : IVec S128 32) (k : Fin k0_t1_loop.trips) (lane : Fin 16) :
    View.readAt (Elt F) (Memref.whole cc0_scratch0 : Memref sig .scVector .vmem S128 .i32).view
        (Rect.unit (s := S128) (k0_off2 k) S16.size (k0_off2_inb k)).toLoadRect c (ix1 lane)
      = c (lanePos k lane) := by
  rw [View.readAt_apply, View.read_apply]
  show c _ = c _
  congr 1
  funext a
  match a with
  | ⟨0, _⟩ =>
    refine Fin.ext ?_
    show (k0_off2 k) 0 + 1 * lane.val = 16 * k.val + lane.val
    rw [k0_off2_eq]
    show 16 * k.val + 1 * lane.val = 16 * k.val + lane.val
    omega

theorem read_lane1 (c : IVec S128 32) (k : Fin k0_t1_loop.trips) (lane : Fin 16) :
    View.readAt (Elt F) (Memref.whole cc0_scratch1 : Memref sig .scVector .vmem S128 .i32).view
        (Rect.unit (s := S128) (k0_off2 k) S16.size (k0_off2_inb k)).toLoadRect c (ix1 lane)
      = c (lanePos k lane) := by
  rw [View.readAt_apply, View.read_apply]
  show c _ = c _
  congr 1
  funext a
  match a with
  | ⟨0, _⟩ =>
    refine Fin.ext ?_
    show (k0_off2 k) 0 + 1 * lane.val = 16 * k.val + lane.val
    rw [k0_off2_eq]
    show 16 * k.val + 1 * lane.val = 16 * k.val + lane.val
    omega

theorem read_lane2 (c : IVec S128 32) (k : Fin k0_t1_loop.trips) (lane : Fin 16) :
    View.readAt (Elt F) (Memref.whole cc0_scratch2 : Memref sig .scVector .vmem S128 .i32).view
        (Rect.unit (s := S128) (k0_off2 k) S16.size (k0_off2_inb k)).toLoadRect c (ix1 lane)
      = c (lanePos k lane) := by
  rw [View.readAt_apply, View.read_apply]
  show c _ = c _
  congr 1
  funext a
  match a with
  | ⟨0, _⟩ =>
    refine Fin.ext ?_
    show (k0_off2 k) 0 + 1 * lane.val = 16 * k.val + lane.val
    rw [k0_off2_eq]
    show 16 * k.val + 1 * lane.val = 16 * k.val + lane.val
    omega

theorem read_lane3 (c : IVec S128 32) (k : Fin k0_t1_loop.trips) (lane : Fin 16) :
    View.readAt (Elt F) (Memref.whole cc0_scratch3 : Memref sig .scVector .vmem S128 .i32).view
        (Rect.unit (s := S128) (k0_off2 k) S16.size (k0_off2_inb k)).toLoadRect c (ix1 lane)
      = c (lanePos k lane) := by
  rw [View.readAt_apply, View.read_apply]
  show c _ = c _
  congr 1
  funext a
  match a with
  | ⟨0, _⟩ =>
    refine Fin.ext ?_
    show (k0_off2 k) 0 + 1 * lane.val = 16 * k.val + lane.val
    rw [k0_off2_eq]
    show 16 * k.val + 1 * lane.val = 16 * k.val + lane.val
    omega

/-! ## The lane words of the four index lists -/

theorem lane_shr0 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (shrsi (shapeCast S16
        (View.readAt (Elt F) (Memref.whole cc0_scratch0 : Memref sig .scVector .vmem S128 .i32).view
          (Rect.unit (s := S128) (k0_off2 k) S16.size (k0_off2_inb k)).toLoadRect c) hcast) (broadcast S16 3#32)) hsl) hpos
      = IntOp.shrsi .vector (c (lanePos k lane)) 3#32 := by
  rw [lane_core_shr, read_lane0]

theorem lane_and0 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (andi (shapeCast S16
        (View.readAt (Elt F) (Memref.whole cc0_scratch0 : Memref sig .scVector .vmem S128 .i32).view
          (Rect.unit (s := S128) (k0_off2 k) S16.size (k0_off2_inb k)).toLoadRect c) hcast) (broadcast S16 7#32)) hsl) hpos
      = IntOp.andi (c (lanePos k lane)) 7#32 := by
  rw [lane_core_and, read_lane0]

theorem lane_shr1 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (shrsi (shapeCast S16
        (View.readAt (Elt F) (Memref.whole cc0_scratch1 : Memref sig .scVector .vmem S128 .i32).view
          (Rect.unit (s := S128) (k0_off2 k) S16.size (k0_off2_inb k)).toLoadRect c) hcast) (broadcast S16 3#32)) hsl) hpos
      = IntOp.shrsi .vector (c (lanePos k lane)) 3#32 := by
  rw [lane_core_shr, read_lane1]

theorem lane_and1 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (andi (shapeCast S16
        (View.readAt (Elt F) (Memref.whole cc0_scratch1 : Memref sig .scVector .vmem S128 .i32).view
          (Rect.unit (s := S128) (k0_off2 k) S16.size (k0_off2_inb k)).toLoadRect c) hcast) (broadcast S16 7#32)) hsl) hpos
      = IntOp.andi (c (lanePos k lane)) 7#32 := by
  rw [lane_core_and, read_lane1]

theorem lane_shr2 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (shrsi (shapeCast S16
        (View.readAt (Elt F) (Memref.whole cc0_scratch2 : Memref sig .scVector .vmem S128 .i32).view
          (Rect.unit (s := S128) (k0_off2 k) S16.size (k0_off2_inb k)).toLoadRect c) hcast) (broadcast S16 3#32)) hsl) hpos
      = IntOp.shrsi .vector (c (lanePos k lane)) 3#32 := by
  rw [lane_core_shr, read_lane2]

theorem lane_and2 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (andi (shapeCast S16
        (View.readAt (Elt F) (Memref.whole cc0_scratch2 : Memref sig .scVector .vmem S128 .i32).view
          (Rect.unit (s := S128) (k0_off2 k) S16.size (k0_off2_inb k)).toLoadRect c) hcast) (broadcast S16 7#32)) hsl) hpos
      = IntOp.andi (c (lanePos k lane)) 7#32 := by
  rw [lane_core_and, read_lane2]

theorem lane_shr3 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (shrsi (shapeCast S16
        (View.readAt (Elt F) (Memref.whole cc0_scratch3 : Memref sig .scVector .vmem S128 .i32).view
          (Rect.unit (s := S128) (k0_off2 k) S16.size (k0_off2_inb k)).toLoadRect c) hcast) (broadcast S16 3#32)) hsl) hpos
      = IntOp.shrsi .vector (c (lanePos k lane)) 3#32 := by
  rw [lane_core_shr, read_lane3]

theorem lane_and3 (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (andi (shapeCast S16
        (View.readAt (Elt F) (Memref.whole cc0_scratch3 : Memref sig .scVector .vmem S128 .i32).view
          (Rect.unit (s := S128) (k0_off2 k) S16.size (k0_off2_inb k)).toLoadRect c) hcast) (broadcast S16 7#32)) hsl) hpos
      = IntOp.andi (c (lanePos k lane)) 7#32 := by
  rw [lane_core_and, read_lane3]

/-- The first list's, under the short names. -/
theorem lane_shr (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (shrsi (shapeCast S16
        (View.readAt (Elt F) (Memref.whole cc0_scratch0 : Memref sig .scVector .vmem S128 .i32).view
          (Rect.unit (s := S128) (k0_off2 k) S16.size (k0_off2_inb k)).toLoadRect c) hcast) (broadcast S16 3#32)) hsl) hpos
      = IntOp.shrsi .vector (c (ix1 (⟨16 * k.val + lane.val, lane_pos_lt k lane⟩ : Fin 128))) 3#32 :=
  lane_shr0 c k lane hcast hsl hpos

theorem lane_and (c : IVec S128 32) (k : Fin k0_t1_loop.trips) (lane : Fin 16) (hcast : S16.ShapeCasts S16)
    (hsl : S16.Slices ![lane.val] S1) (hpos : ∀ a, (![0] : Fin S1.rank → Nat) a < S1.size a) :
    extractAt ![0] (extractStridedSlice S1 ![lane.val] (andi (shapeCast S16
        (View.readAt (Elt F) (Memref.whole cc0_scratch0 : Memref sig .scVector .vmem S128 .i32).view
          (Rect.unit (s := S128) (k0_off2 k) S16.size (k0_off2_inb k)).toLoadRect c) hcast) (broadcast S16 7#32)) hsl) hpos
      = IntOp.andi (c (ix1 (⟨16 * k.val + lane.val, lane_pos_lt k lane⟩ : Fin 128))) 7#32 :=
  lane_and0 c k lane hcast hsl hpos

/-! ## The destination row of a copy: row `16 k + l` of the row buffer -/

/-- The row offset the issue loop computes for lane constant `c` at trip `k`, in closed form: no wrap below 128. -/
theorem dstoff_eq (k : Fin k0_t1_loop.trips) (c : BitVec 32) (hc : c.toNat < 16) :
    (![(Scalar.addi (Scalar.muli (Scf.iv 0#32 1#32 k) 16#32) c).toNat, 0] : Fin 2 → ℕ) = ![16 * k.val + c.toNat, 0] := by
  have hk : k.val < 8 := Nat.lt_of_lt_of_le k.isLt k0_t1_abs.2.1
  have e : (Scalar.addi (Scalar.muli (Scf.iv 0#32 1#32 k) 16#32) c).toNat = 16 * k.val + c.toNat := by
    unfold Scalar.addi Scalar.muli IntOp.addi IntOp.muli Scf.iv
    simp only [BitVec.toNat_add, BitVec.toNat_mul, BitVec.toNat_ofNat]
    omega
  rw [e]

example (k : Fin k0_t1_loop.trips) : k0_off5 k = ![16 * k.val + 0, 0] := dstoff_eq k 0#32 (by decide)
example (k : Fin k0_t1_loop.trips) (c : BitVec 32) (hc : c.toNat < 16) : k0_off11 k c = ![16 * k.val + c.toNat, 0] := dstoff_eq k c hc
example (k : Fin k0_t1_loop.trips) : k0_off129 k = ![16 * k.val + 15, 0] := dstoff_eq k 15#32 (by decide)

end Cert.Kernel.TileGather

end
-- ==== Proof.BTileIssueLoop.lean ====
/-
  The gather's issue loop: eight trips of sixteen entries, four row copies per entry. One trip, at a symbolic trip
  number: the sixteen entries' rows and tokens are taken off the run of entries still waiting, each of the 64 copies is
  issued as the batch's next transfer (its side condition from the index word's range, its delivery from the word's
  value), and the run from the next trip's first entry on is handed over.
-/
import proofs.«206817_g64347200028782_cont_9to1_m_612_22_alg».proof.Proof.BTileIssueInv
import proofs.«206817_g64347200028782_cont_9to1_m_612_22_alg».proof.Proof.BTileLanes
import proofs.«206817_g64347200028782_cont_9to1_m_612_22_alg».proof.Proof.Words

set_option pp.maxSteps 4000
set_option pp.deepTerms false

noncomputable section

namespace Cert.Kernel.TileGather

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Kernel.TileRes Cert.Kernel.TileCore Cert.Kernel.TileVals Cert.KSpec Cert.Spec
open Idealize.ShloMosaic.ValueIdx

variable [FloatOps F] (d : Dev nD) (L : grid0.Coords) (X : Tabs F)

set_option maxHeartbeats 4000000 in
theorem issue_step (c0 : Buf (Elt F) ((thr d L).loc cc0_scratch0)) (c1 : Buf (Elt F) ((thr d L).loc cc0_scratch1)) (c2 : Buf (Elt F) ((thr d L).loc cc0_scratch2)) (c3 : Buf (Elt F) ((thr d L).loc cc0_scratch3))
    (g4 g5 g6 g7 : FVec F S128x64 .f32)
    (hV0 : ∀ e : Fin 128, c0 (ix1 e) = X.I0 (ix1 (rowOfEntry L e))) (hV1 : ∀ e : Fin 128, c1 (ix1 e) = X.I1 (ix1 (rowOfEntry L e)))
    (hV2 : ∀ e : Fin 128, c2 (ix1 e) = X.I3 (ix1 (rowOfEntry L e))) (hV3 : ∀ e : Fin 128, c3 (ix1 e) = X.I4 (ix1 (rowOfEntry L e)))
    (hI0 : ∀ i, (c0 i).toNat < 100000) (hI1 : ∀ i, (c1 i).toNat < 200) (hI2 : ∀ i, (c2 i).toNat < 100000) (hI3 : ∀ i, (c3 i).toNat < 10000)
    (k : Fin k0_t1_loop.trips) (acc : PUnit) :
    issueInv d L X c0 c1 c2 c3 g4 g5 g6 g7 k.val acc
      ⊢ wp frame (wpE (defs₀ (F := F)) 𝒱₀ (thr d L) none) Set.univ (k0_t1_body (F := F) L (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v10_scv) (Memref.isWhole_whole _) (Memref.whole main_v0_scv) (Memref.isWhole_whole _) (Memref.whole main_v1_scv) (Memref.isWhole_whole _) (Memref.whole main_v3_scv) (Memref.isWhole_whole _) (Memref.whole main_v4_scv) (Memref.isWhole_whole _) (Memref.whole main_v11_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scoped0 cc0_scoped1 cc0_scoped2 cc0_scoped3 cc0_scoped4 cc0_scoped5 k acc)
          (fun _ => issueInv d L X c0 c1 c2 c3 g4 g5 g6 g7 (k.val + 1) ⟨⟩) := by
  have hk8 : k.val < 8 := lt_of_lt_of_le k.isLt Gen.k0_t1_abs.2.1
  have e64 : 64 * k.val + 63 + 1 = 64 * (k.val + 1) := by omega
  have e16 : 16 * k.val + 1 + 1 + 1 + 1 + 1 + 1 + 1 + 1 + 1 + 1 + 1 + 1 + 1 + 1 + 1 + 1 = 16 * (k.val + 1) := by omega
  unfold issueInv
  iterate 16 rw [Ring.bigSep_rangeSet_head (Φ := bundle d L X g4 g5 g6 g7) (by omega) (by omega)]
  unfold bundle
  iintro ⟨HB, H0, H1, H2, H3, ⟨Hr0_0, Hr1_0, Hr2_0, Hr3_0, Ht0_0, Ht1_0, Ht2_0, Ht3_0⟩, ⟨Hr0_1, Hr1_1, Hr2_1, Hr3_1, Ht0_1, Ht1_1, Ht2_1, Ht3_1⟩, ⟨Hr0_2, Hr1_2, Hr2_2, Hr3_2, Ht0_2, Ht1_2, Ht2_2, Ht3_2⟩, ⟨Hr0_3, Hr1_3, Hr2_3, Hr3_3, Ht0_3, Ht1_3, Ht2_3, Ht3_3⟩, ⟨Hr0_4, Hr1_4, Hr2_4, Hr3_4, Ht0_4, Ht1_4, Ht2_4, Ht3_4⟩, ⟨Hr0_5, Hr1_5, Hr2_5, Hr3_5, Ht0_5, Ht1_5, Ht2_5, Ht3_5⟩, ⟨Hr0_6, Hr1_6, Hr2_6, Hr3_6, Ht0_6, Ht1_6, Ht2_6, Ht3_6⟩, ⟨Hr0_7, Hr1_7, Hr2_7, Hr3_7, Ht0_7, Ht1_7, Ht2_7, Ht3_7⟩, ⟨Hr0_8, Hr1_8, Hr2_8, Hr3_8, Ht0_8, Ht1_8, Ht2_8, Ht3_8⟩, ⟨Hr0_9, Hr1_9, Hr2_9, Hr3_9, Ht0_9, Ht1_9, Ht2_9, Ht3_9⟩, ⟨Hr0_10, Hr1_10, Hr2_10, Hr3_10, Ht0_10, Ht1_10, Ht2_10, Ht3_10⟩, ⟨Hr0_11, Hr1_11, Hr2_11, Hr3_11, Ht0_11, Ht1_11, Ht2_11, Ht3_11⟩, ⟨Hr0_12, Hr1_12, Hr2_12, Hr3_12, Ht0_12, Ht1_12, Ht2_12, Ht3_12⟩, ⟨Hr0_13, Hr1_13, Hr2_13, Hr3_13, Ht0_13, Ht1_13, Ht2_13, Ht3_13⟩, ⟨Hr0_14, Hr1_14, Hr2_14, Hr3_14, Ht0_14, Ht1_14, Ht2_14, Ht3_14⟩, ⟨Hr0_15, Hr1_15, Hr2_15, Hr3_15, Ht0_15, Ht1_15, Ht2_15, Ht3_15⟩, Hrest⟩
  sl_exec (disch := exact Cert.Words.chk_of _ _ _ _ (hI0 _) (by decide) rfl rfl)
  iapply (issue0 d L X g4 ⟨16 * k.val + 0, by omega⟩ _ _ _ _ rfl _ _ (dstoff_eq k 0#32 (by decide)) (c0 (ix1 ⟨16 * k.val + 0, by omega⟩)) (hV0 _) (hI0 _) (lane_shr0 c0 k 0 _ (by decide) _) (lane_and0 c0 k 0 _ (by decide) _) (64 * k.val + 0) (by show 64 * k.val + 0 = 4 * (16 * k.val + 0) + 0; omega) _) $$ [Ht0_0 Hr0_0 HB]
  · isplitl [Ht0_0]; · iexact Ht0_0
    isplitl [Hr0_0]; · iexact Hr0_0
    iexact HB
  iintro HB
  sl_exec (disch := exact Cert.Words.chk_of _ _ _ _ (hI1 _) (by decide) rfl rfl)
  iapply (issue1 d L X g5 ⟨16 * k.val + 0, by omega⟩ _ _ _ _ rfl _ _ (dstoff_eq k 0#32 (by decide)) (c1 (ix1 ⟨16 * k.val + 0, by omega⟩)) (hV1 _) (hI1 _) (lane_shr1 c1 k 0 _ (by decide) _) (lane_and1 c1 k 0 _ (by decide) _) (64 * k.val + 1) (by show 64 * k.val + 1 = 4 * (16 * k.val + 0) + 1; omega) _) $$ [Ht1_0 Hr1_0 HB]
  · isplitl [Ht1_0]; · iexact Ht1_0
    isplitl [Hr1_0]; · iexact Hr1_0
    iexact HB
  iintro HB
  sl_exec (disch := exact Cert.Words.chk_of _ _ _ _ (hI2 _) (by decide) rfl rfl)
  iapply (issue2 d L X g6 ⟨16 * k.val + 0, by omega⟩ _ _ _ _ rfl _ _ (dstoff_eq k 0#32 (by decide)) (c2 (ix1 ⟨16 * k.val + 0, by omega⟩)) (hV2 _) (hI2 _) (lane_shr2 c2 k 0 _ (by decide) _) (lane_and2 c2 k 0 _ (by decide) _) (64 * k.val + 2) (by show 64 * k.val + 2 = 4 * (16 * k.val + 0) + 2; omega) _) $$ [Ht2_0 Hr2_0 HB]
  · isplitl [Ht2_0]; · iexact Ht2_0
    isplitl [Hr2_0]; · iexact Hr2_0
    iexact HB
  iintro HB
  sl_exec (disch := exact Cert.Words.chk_of _ _ _ _ (hI3 _) (by decide) rfl rfl)
  iapply (issue3 d L X g7 ⟨16 * k.val + 0, by omega⟩ _ _ _ _ rfl _ _ (dstoff_eq k 0#32 (by decide)) (c3 (ix1 ⟨16 * k.val + 0, by omega⟩)) (hV3 _) (hI3 _) (lane_shr3 c3 k 0 _ (by decide) _) (lane_and3 c3 k 0 _ (by decide) _) (64 * k.val + 3) (by show 64 * k.val + 3 = 4 * (16 * k.val + 0) + 3; omega) _) $$ [Ht3_0 Hr3_0 HB]
  · isplitl [Ht3_0]; · iexact Ht3_0
    isplitl [Hr3_0]; · iexact Hr3_0
    iexact HB
  iintro HB
  sl_exec (disch := exact Cert.Words.chk_of _ _ _ _ (hI0 _) (by decide) rfl rfl)
  iapply (issue0 d L X g4 ⟨16 * k.val + 1, by omega⟩ _ _ _ _ rfl _ _ (dstoff_eq k 1#32 (by decide)) (c0 (ix1 ⟨16 * k.val + 1, by omega⟩)) (hV0 _) (hI0 _) (lane_shr0 c0 k 1 _ (by decide) _) (lane_and0 c0 k 1 _ (by decide) _) (64 * k.val + 4) (by show 64 * k.val + 4 = 4 * (16 * k.val + 1) + 0; omega) _) $$ [Ht0_1 Hr0_1 HB]
  · isplitl [Ht0_1]; · iexact Ht0_1
    isplitl [Hr0_1]; · iexact Hr0_1
    iexact HB
  iintro HB
  sl_exec (disch := exact Cert.Words.chk_of _ _ _ _ (hI1 _) (by decide) rfl rfl)
  iapply (issue1 d L X g5 ⟨16 * k.val + 1, by omega⟩ _ _ _ _ rfl _ _ (dstoff_eq k 1#32 (by decide)) (c1 (ix1 ⟨16 * k.val + 1, by omega⟩)) (hV1 _) (hI1 _) (lane_shr1 c1 k 1 _ (by decide) _) (lane_and1 c1 k 1 _ (by decide) _) (64 * k.val + 5) (by show 64 * k.val + 5 = 4 * (16 * k.val + 1) + 1; omega) _) $$ [Ht1_1 Hr1_1 HB]
  · isplitl [Ht1_1]; · iexact Ht1_1
    isplitl [Hr1_1]; · iexact Hr1_1
    iexact HB
  iintro HB
  sl_exec (disch := exact Cert.Words.chk_of _ _ _ _ (hI2 _) (by decide) rfl rfl)
  iapply (issue2 d L X g6 ⟨16 * k.val + 1, by omega⟩ _ _ _ _ rfl _ _ (dstoff_eq k 1#32 (by decide)) (c2 (ix1 ⟨16 * k.val + 1, by omega⟩)) (hV2 _) (hI2 _) (lane_shr2 c2 k 1 _ (by decide) _) (lane_and2 c2 k 1 _ (by decide) _) (64 * k.val + 6) (by show 64 * k.val + 6 = 4 * (16 * k.val + 1) + 2; omega) _) $$ [Ht2_1 Hr2_1 HB]
  · isplitl [Ht2_1]; · iexact Ht2_1
    isplitl [Hr2_1]; · iexact Hr2_1
    iexact HB
  iintro HB
  sl_exec (disch := exact Cert.Words.chk_of _ _ _ _ (hI3 _) (by decide) rfl rfl)
  iapply (issue3 d L X g7 ⟨16 * k.val + 1, by omega⟩ _ _ _ _ rfl _ _ (dstoff_eq k 1#32 (by decide)) (c3 (ix1 ⟨16 * k.val + 1, by omega⟩)) (hV3 _) (hI3 _) (lane_shr3 c3 k 1 _ (by decide) _) (lane_and3 c3 k 1 _ (by decide) _) (64 * k.val + 7) (by show 64 * k.val + 7 = 4 * (16 * k.val + 1) + 3; omega) _) $$ [Ht3_1 Hr3_1 HB]
  · isplitl [Ht3_1]; · iexact Ht3_1
    isplitl [Hr3_1]; · iexact Hr3_1
    iexact HB
  iintro HB
  sl_exec (disch := exact Cert.Words.chk_of _ _ _ _ (hI0 _) (by decide) rfl rfl)
  iapply (issue0 d L X g4 ⟨16 * k.val + 2, by omega⟩ _ _ _ _ rfl _ _ (dstoff_eq k 2#32 (by decide)) (c0 (ix1 ⟨16 * k.val + 2, by omega⟩)) (hV0 _) (hI0 _) (lane_shr0 c0 k 2 _ (by decide) _) (lane_and0 c0 k 2 _ (by decide) _) (64 * k.val + 8) (by show 64 * k.val + 8 = 4 * (16 * k.val + 2) + 0; omega) _) $$ [Ht0_2 Hr0_2 HB]
  · isplitl [Ht0_2]; · iexact Ht0_2
    isplitl [Hr0_2]; · iexact Hr0_2
    iexact HB
  iintro HB
  sl_exec (disch := exact Cert.Words.chk_of _ _ _ _ (hI1 _) (by decide) rfl rfl)
  iapply (issue1 d L X g5 ⟨16 * k.val + 2, by omega⟩ _ _ _ _ rfl _ _ (dstoff_eq k 2#32 (by decide)) (c1 (ix1 ⟨16 * k.val + 2, by omega⟩)) (hV1 _) (hI1 _) (lane_shr1 c1 k 2 _ (by decide) _) (lane_and1 c1 k 2 _ (by decide) _) (64 * k.val + 9) (by show 64 * k.val + 9 = 4 * (16 * k.val + 2) + 1; omega) _) $$ [Ht1_2 Hr1_2 HB]
  · isplitl [Ht1_2]; · iexact Ht1_2
    isplitl [Hr1_2]; · iexact Hr1_2
    iexact HB
  iintro HB
  sl_exec (disch := exact Cert.Words.chk_of _ _ _ _ (hI2 _) (by decide) rfl rfl)
  iapply (issue2 d L X g6 ⟨16 * k.val + 2, by omega⟩ _ _ _ _ rfl _ _ (dstoff_eq k 2#32 (by decide)) (c2 (ix1 ⟨16 * k.val + 2, by omega⟩)) (hV2 _) (hI2 _) (lane_shr2 c2 k 2 _ (by decide) _) (lane_and2 c2 k 2 _ (by decide) _) (64 * k.val + 10) (by show 64 * k.val + 10 = 4 * (16 * k.val + 2) + 2; omega) _) $$ [Ht2_2 Hr2_2 HB]
  · isplitl [Ht2_2]; · iexact Ht2_2
    isplitl [Hr2_2]; · iexact Hr2_2
    iexact HB
  iintro HB
  sl_exec (disch := exact Cert.Words.chk_of _ _ _ _ (hI3 _) (by decide) rfl rfl)
  iapply (issue3 d L X g7 ⟨16 * k.val + 2, by omega⟩ _ _ _ _ rfl _ _ (dstoff_eq k 2#32 (by decide)) (c3 (ix1 ⟨16 * k.val + 2, by omega⟩)) (hV3 _) (hI3 _) (lane_shr3 c3 k 2 _ (by decide) _) (lane_and3 c3 k 2 _ (by decide) _) (64 * k.val + 11) (by show 64 * k.val + 11 = 4 * (16 * k.val + 2) + 3; omega) _) $$ [Ht3_2 Hr3_2 HB]
  · isplitl [Ht3_2]; · iexact Ht3_2
    isplitl [Hr3_2]; · iexact Hr3_2
    iexact HB
  iintro HB
  sl_exec (disch := exact Cert.Words.chk_of _ _ _ _ (hI0 _) (by decide) rfl rfl)
  iapply (issue0 d L X g4 ⟨16 * k.val + 3, by omega⟩ _ _ _ _ rfl _ _ (dstoff_eq k 3#32 (by decide)) (c0 (ix1 ⟨16 * k.val + 3, by omega⟩)) (hV0 _) (hI0 _) (lane_shr0 c0 k 3 _ (by decide) _) (lane_and0 c0 k 3 _ (by decide) _) (64 * k.val + 12) (by show 64 * k.val + 12 = 4 * (16 * k.val + 3) + 0; omega) _) $$ [Ht0_3 Hr0_3 HB]
  · isplitl [Ht0_3]; · iexact Ht0_3
    isplitl [Hr0_3]; · iexact Hr0_3
    iexact HB
  iintro HB
  sl_exec (disch := exact Cert.Words.chk_of _ _ _ _ (hI1 _) (by decide) rfl rfl)
  iapply (issue1 d L X g5 ⟨16 * k.val + 3, by omega⟩ _ _ _ _ rfl _ _ (dstoff_eq k 3#32 (by decide)) (c1 (ix1 ⟨16 * k.val + 3, by omega⟩)) (hV1 _) (hI1 _) (lane_shr1 c1 k 3 _ (by decide) _) (lane_and1 c1 k 3 _ (by decide) _) (64 * k.val + 13) (by show 64 * k.val + 13 = 4 * (16 * k.val + 3) + 1; omega) _) $$ [Ht1_3 Hr1_3 HB]
  · isplitl [Ht1_3]; · iexact Ht1_3
    isplitl [Hr1_3]; · iexact Hr1_3
    iexact HB
  iintro HB
  sl_exec (disch := exact Cert.Words.chk_of _ _ _ _ (hI2 _) (by decide) rfl rfl)
  iapply (issue2 d L X g6 ⟨16 * k.val + 3, by omega⟩ _ _ _ _ rfl _ _ (dstoff_eq k 3#32 (by decide)) (c2 (ix1 ⟨16 * k.val + 3, by omega⟩)) (hV2 _) (hI2 _) (lane_shr2 c2 k 3 _ (by decide) _) (lane_and2 c2 k 3 _ (by decide) _) (64 * k.val + 14) (by show 64 * k.val + 14 = 4 * (16 * k.val + 3) + 2; omega) _) $$ [Ht2_3 Hr2_3 HB]
  · isplitl [Ht2_3]; · iexact Ht2_3
    isplitl [Hr2_3]; · iexact Hr2_3
    iexact HB
  iintro HB
  sl_exec (disch := exact Cert.Words.chk_of _ _ _ _ (hI3 _) (by decide) rfl rfl)
  iapply (issue3 d L X g7 ⟨16 * k.val + 3, by omega⟩ _ _ _ _ rfl _ _ (dstoff_eq k 3#32 (by decide)) (c3 (ix1 ⟨16 * k.val + 3, by omega⟩)) (hV3 _) (hI3 _) (lane_shr3 c3 k 3 _ (by decide) _) (lane_and3 c3 k 3 _ (by decide) _) (64 * k.val + 15) (by show 64 * k.val + 15 = 4 * (16 * k.val + 3) + 3; omega) _) $$ [Ht3_3 Hr3_3 HB]
  · isplitl [Ht3_3]; · iexact Ht3_3
    isplitl [Hr3_3]; · iexact Hr3_3
    iexact HB
  iintro HB
  sl_exec (disch := exact Cert.Words.chk_of _ _ _ _ (hI0 _) (by decide) rfl rfl)
  iapply (issue0 d L X g4 ⟨16 * k.val + 4, by omega⟩ _ _ _ _ rfl _ _ (dstoff_eq k 4#32 (by decide)) (c0 (ix1 ⟨16 * k.val + 4, by omega⟩)) (hV0 _) (hI0 _) (lane_shr0 c0 k 4 _ (by decide) _) (lane_and0 c0 k 4 _ (by decide) _) (64 * k.val + 16) (by show 64 * k.val + 16 = 4 * (16 * k.val + 4) + 0; omega) _) $$ [Ht0_4 Hr0_4 HB]
  · isplitl [Ht0_4]; · iexact Ht0_4
    isplitl [Hr0_4]; · iexact Hr0_4
    iexact HB
  iintro HB
  sl_exec (disch := exact Cert.Words.chk_of _ _ _ _ (hI1 _) (by decide) rfl rfl)
  iapply (issue1 d L X g5 ⟨16 * k.val + 4, by omega⟩ _ _ _ _ rfl _ _ (dstoff_eq k 4#32 (by decide)) (c1 (ix1 ⟨16 * k.val + 4, by omega⟩)) (hV1 _) (hI1 _) (lane_shr1 c1 k 4 _ (by decide) _) (lane_and1 c1 k 4 _ (by decide) _) (64 * k.val + 17) (by show 64 * k.val + 17 = 4 * (16 * k.val + 4) + 1; omega) _) $$ [Ht1_4 Hr1_4 HB]
  · isplitl [Ht1_4]; · iexact Ht1_4
    isplitl [Hr1_4]; · iexact Hr1_4
    iexact HB
  iintro HB
  sl_exec (disch := exact Cert.Words.chk_of _ _ _ _ (hI2 _) (by decide) rfl rfl)
  iapply (issue2 d L X g6 ⟨16 * k.val + 4, by omega⟩ _ _ _ _ rfl _ _ (dstoff_eq k 4#32 (by decide)) (c2 (ix1 ⟨16 * k.val + 4, by omega⟩)) (hV2 _) (hI2 _) (lane_shr2 c2 k 4 _ (by decide) _) (lane_and2 c2 k 4 _ (by decide) _) (64 * k.val + 18) (by show 64 * k.val + 18 = 4 * (16 * k.val + 4) + 2; omega) _) $$ [Ht2_4 Hr2_4 HB]
  · isplitl [Ht2_4]; · iexact Ht2_4
    isplitl [Hr2_4]; · iexact Hr2_4
    iexact HB
  iintro HB
  sl_exec (disch := exact Cert.Words.chk_of _ _ _ _ (hI3 _) (by decide) rfl rfl)
  iapply (issue3 d L X g7 ⟨16 * k.val + 4, by omega⟩ _ _ _ _ rfl _ _ (dstoff_eq k 4#32 (by decide)) (c3 (ix1 ⟨16 * k.val + 4, by omega⟩)) (hV3 _) (hI3 _) (lane_shr3 c3 k 4 _ (by decide) _) (lane_and3 c3 k 4 _ (by decide) _) (64 * k.val + 19) (by show 64 * k.val + 19 = 4 * (16 * k.val + 4) + 3; omega) _) $$ [Ht3_4 Hr3_4 HB]
  · isplitl [Ht3_4]; · iexact Ht3_4
    isplitl [Hr3_4]; · iexact Hr3_4
    iexact HB
  iintro HB
  sl_exec (disch := exact Cert.Words.chk_of _ _ _ _ (hI0 _) (by decide) rfl rfl)
  iapply (issue0 d L X g4 ⟨16 * k.val + 5, by omega⟩ _ _ _ _ rfl _ _ (dstoff_eq k 5#32 (by decide)) (c0 (ix1 ⟨16 * k.val + 5, by omega⟩)) (hV0 _) (hI0 _) (lane_shr0 c0 k 5 _ (by decide) _) (lane_and0 c0 k 5 _ (by decide) _) (64 * k.val + 20) (by show 64 * k.val + 20 = 4 * (16 * k.val + 5) + 0; omega) _) $$ [Ht0_5 Hr0_5 HB]
  · isplitl [Ht0_5]; · iexact Ht0_5
    isplitl [Hr0_5]; · iexact Hr0_5
    iexact HB
  iintro HB
  sl_exec (disch := exact Cert.Words.chk_of _ _ _ _ (hI1 _) (by decide) rfl rfl)
  iapply (issue1 d L X g5 ⟨16 * k.val + 5, by omega⟩ _ _ _ _ rfl _ _ (dstoff_eq k 5#32 (by decide)) (c1 (ix1 ⟨16 * k.val + 5, by omega⟩)) (hV1 _) (hI1 _) (lane_shr1 c1 k 5 _ (by decide) _) (lane_and1 c1 k 5 _ (by decide) _) (64 * k.val + 21) (by show 64 * k.val + 21 = 4 * (16 * k.val + 5) + 1; omega) _) $$ [Ht1_5 Hr1_5 HB]
  · isplitl [Ht1_5]; · iexact Ht1_5
    isplitl [Hr1_5]; · iexact Hr1_5
    iexact HB
  iintro HB
  sl_exec (disch := exact Cert.Words.chk_of _ _ _ _ (hI2 _) (by decide) rfl rfl)
  iapply (issue2 d L X g6 ⟨16 * k.val + 5, by omega⟩ _ _ _ _ rfl _ _ (dstoff_eq k 5#32 (by decide)) (c2 (ix1 ⟨16 * k.val + 5, by omega⟩)) (hV2 _) (hI2 _) (lane_shr2 c2 k 5 _ (by decide) _) (lane_and2 c2 k 5 _ (by decide) _) (64 * k.val + 22) (by show 64 * k.val + 22 = 4 * (16 * k.val + 5) + 2; omega) _) $$ [Ht2_5 Hr2_5 HB]
  · isplitl [Ht2_5]; · iexact Ht2_5
    isplitl [Hr2_5]; · iexact Hr2_5
    iexact HB
  iintro HB
  sl_exec (disch := exact Cert.Words.chk_of _ _ _ _ (hI3 _) (by decide) rfl rfl)
  iapply (issue3 d L X g7 ⟨16 * k.val + 5, by omega⟩ _ _ _ _ rfl _ _ (dstoff_eq k 5#32 (by decide)) (c3 (ix1 ⟨16 * k.val + 5, by omega⟩)) (hV3 _) (hI3 _) (lane_shr3 c3 k 5 _ (by decide) _) (lane_and3 c3 k 5 _ (by decide) _) (64 * k.val + 23) (by show 64 * k.val + 23 = 4 * (16 * k.val + 5) + 3; omega) _) $$ [Ht3_5 Hr3_5 HB]
  · isplitl [Ht3_5]; · iexact Ht3_5
    isplitl [Hr3_5]; · iexact Hr3_5
    iexact HB
  iintro HB
  sl_exec (disch := exact Cert.Words.chk_of _ _ _ _ (hI0 _) (by decide) rfl rfl)
  iapply (issue0 d L X g4 ⟨16 * k.val + 6, by omega⟩ _ _ _ _ rfl _ _ (dstoff_eq k 6#32 (by decide)) (c0 (ix1 ⟨16 * k.val + 6, by omega⟩)) (hV0 _) (hI0 _) (lane_shr0 c0 k 6 _ (by decide) _) (lane_and0 c0 k 6 _ (by decide) _) (64 * k.val + 24) (by show 64 * k.val + 24 = 4 * (16 * k.val + 6) + 0; omega) _) $$ [Ht0_6 Hr0_6 HB]
  · isplitl [Ht0_6]; · iexact Ht0_6
    isplitl [Hr0_6]; · iexact Hr0_6
    iexact HB
  iintro HB
  sl_exec (disch := exact Cert.Words.chk_of _ _ _ _ (hI1 _) (by decide) rfl rfl)
  iapply (issue1 d L X g5 ⟨16 * k.val + 6, by omega⟩ _ _ _ _ rfl _ _ (dstoff_eq k 6#32 (by decide)) (c1 (ix1 ⟨16 * k.val + 6, by omega⟩)) (hV1 _) (hI1 _) (lane_shr1 c1 k 6 _ (by decide) _) (lane_and1 c1 k 6 _ (by decide) _) (64 * k.val + 25) (by show 64 * k.val + 25 = 4 * (16 * k.val + 6) + 1; omega) _) $$ [Ht1_6 Hr1_6 HB]
  · isplitl [Ht1_6]; · iexact Ht1_6
    isplitl [Hr1_6]; · iexact Hr1_6
    iexact HB
  iintro HB
  sl_exec (disch := exact Cert.Words.chk_of _ _ _ _ (hI2 _) (by decide) rfl rfl)
  iapply (issue2 d L X g6 ⟨16 * k.val + 6, by omega⟩ _ _ _ _ rfl _ _ (dstoff_eq k 6#32 (by decide)) (c2 (ix1 ⟨16 * k.val + 6, by omega⟩)) (hV2 _) (hI2 _) (lane_shr2 c2 k 6 _ (by decide) _) (lane_and2 c2 k 6 _ (by decide) _) (64 * k.val + 26) (by show 64 * k.val + 26 = 4 * (16 * k.val + 6) + 2; omega) _) $$ [Ht2_6 Hr2_6 HB]
  · isplitl [Ht2_6]; · iexact Ht2_6
    isplitl [Hr2_6]; · iexact Hr2_6
    iexact HB
  iintro HB
  sl_exec (disch := exact Cert.Words.chk_of _ _ _ _ (hI3 _) (by decide) rfl rfl)
  iapply (issue3 d L X g7 ⟨16 * k.val + 6, by omega⟩ _ _ _ _ rfl _ _ (dstoff_eq k 6#32 (by decide)) (c3 (ix1 ⟨16 * k.val + 6, by omega⟩)) (hV3 _) (hI3 _) (lane_shr3 c3 k 6 _ (by decide) _) (lane_and3 c3 k 6 _ (by decide) _) (64 * k.val + 27) (by show 64 * k.val + 27 = 4 * (16 * k.val + 6) + 3; omega) _) $$ [Ht3_6 Hr3_6 HB]
  · isplitl [Ht3_6]; · iexact Ht3_6
    isplitl [Hr3_6]; · iexact Hr3_6
    iexact HB
  iintro HB
  sl_exec (disch := exact Cert.Words.chk_of _ _ _ _ (hI0 _) (by decide) rfl rfl)
  iapply (issue0 d L X g4 ⟨16 * k.val + 7, by omega⟩ _ _ _ _ rfl _ _ (dstoff_eq k 7#32 (by decide)) (c0 (ix1 ⟨16 * k.val + 7, by omega⟩)) (hV0 _) (hI0 _) (lane_shr0 c0 k 7 _ (by decide) _) (lane_and0 c0 k 7 _ (by decide) _) (64 * k.val + 28) (by show 64 * k.val + 28 = 4 * (16 * k.val + 7) + 0; omega) _) $$ [Ht0_7 Hr0_7 HB]
  · isplitl [Ht0_7]; · iexact Ht0_7
    isplitl [Hr0_7]; · iexact Hr0_7
    iexact HB
  iintro HB
  sl_exec (disch := exact Cert.Words.chk_of _ _ _ _ (hI1 _) (by decide) rfl rfl)
  iapply (issue1 d L X g5 ⟨16 * k.val + 7, by omega⟩ _ _ _ _ rfl _ _ (dstoff_eq k 7#32 (by decide)) (c1 (ix1 ⟨16 * k.val + 7, by omega⟩)) (hV1 _) (hI1 _) (lane_shr1 c1 k 7 _ (by decide) _) (lane_and1 c1 k 7 _ (by decide) _) (64 * k.val + 29) (by show 64 * k.val + 29 = 4 * (16 * k.val + 7) + 1; omega) _) $$ [Ht1_7 Hr1_7 HB]
  · isplitl [Ht1_7]; · iexact Ht1_7
    isplitl [Hr1_7]; · iexact Hr1_7
    iexact HB
  iintro HB
  sl_exec (disch := exact Cert.Words.chk_of _ _ _ _ (hI2 _) (by decide) rfl rfl)
  iapply (issue2 d L X g6 ⟨16 * k.val + 7, by omega⟩ _ _ _ _ rfl _ _ (dstoff_eq k 7#32 (by decide)) (c2 (ix1 ⟨16 * k.val + 7, by omega⟩)) (hV2 _) (hI2 _) (lane_shr2 c2 k 7 _ (by decide) _) (lane_and2 c2 k 7 _ (by decide) _) (64 * k.val + 30) (by show 64 * k.val + 30 = 4 * (16 * k.val + 7) + 2; omega) _) $$ [Ht2_7 Hr2_7 HB]
  · isplitl [Ht2_7]; · iexact Ht2_7
    isplitl [Hr2_7]; · iexact Hr2_7
    iexact HB
  iintro HB
  sl_exec (disch := exact Cert.Words.chk_of _ _ _ _ (hI3 _) (by decide) rfl rfl)
  iapply (issue3 d L X g7 ⟨16 * k.val + 7, by omega⟩ _ _ _ _ rfl _ _ (dstoff_eq k 7#32 (by decide)) (c3 (ix1 ⟨16 * k.val + 7, by omega⟩)) (hV3 _) (hI3 _) (lane_shr3 c3 k 7 _ (by decide) _) (lane_and3 c3 k 7 _ (by decide) _) (64 * k.val + 31) (by show 64 * k.val + 31 = 4 * (16 * k.val + 7) + 3; omega) _) $$ [Ht3_7 Hr3_7 HB]
  · isplitl [Ht3_7]; · iexact Ht3_7
    isplitl [Hr3_7]; · iexact Hr3_7
    iexact HB
  iintro HB
  sl_exec (disch := exact Cert.Words.chk_of _ _ _ _ (hI0 _) (by decide) rfl rfl)
  iapply (issue0 d L X g4 ⟨16 * k.val + 8, by omega⟩ _ _ _ _ rfl _ _ (dstoff_eq k 8#32 (by decide)) (c0 (ix1 ⟨16 * k.val + 8, by omega⟩)) (hV0 _) (hI0 _) (lane_shr0 c0 k 8 _ (by decide) _) (lane_and0 c0 k 8 _ (by decide) _) (64 * k.val + 32) (by show 64 * k.val + 32 = 4 * (16 * k.val + 8) + 0; omega) _) $$ [Ht0_8 Hr0_8 HB]
  · isplitl [Ht0_8]; · iexact Ht0_8
    isplitl [Hr0_8]; · iexact Hr0_8
    iexact HB
  iintro HB
  sl_exec (disch := exact Cert.Words.chk_of _ _ _ _ (hI1 _) (by decide) rfl rfl)
  iapply (issue1 d L X g5 ⟨16 * k.val + 8, by omega⟩ _ _ _ _ rfl _ _ (dstoff_eq k 8#32 (by decide)) (c1 (ix1 ⟨16 * k.val + 8, by omega⟩)) (hV1 _) (hI1 _) (lane_shr1 c1 k 8 _ (by decide) _) (lane_and1 c1 k 8 _ (by decide) _) (64 * k.val + 33) (by show 64 * k.val + 33 = 4 * (16 * k.val + 8) + 1; omega) _) $$ [Ht1_8 Hr1_8 HB]
  · isplitl [Ht1_8]; · iexact Ht1_8
    isplitl [Hr1_8]; · iexact Hr1_8
    iexact HB
  iintro HB
  sl_exec (disch := exact Cert.Words.chk_of _ _ _ _ (hI2 _) (by decide) rfl rfl)
  iapply (issue2 d L X g6 ⟨16 * k.val + 8, by omega⟩ _ _ _ _ rfl _ _ (dstoff_eq k 8#32 (by decide)) (c2 (ix1 ⟨16 * k.val + 8, by omega⟩)) (hV2 _) (hI2 _) (lane_shr2 c2 k 8 _ (by decide) _) (lane_and2 c2 k 8 _ (by decide) _) (64 * k.val + 34) (by show 64 * k.val + 34 = 4 * (16 * k.val + 8) + 2; omega) _) $$ [Ht2_8 Hr2_8 HB]
  · isplitl [Ht2_8]; · iexact Ht2_8
    isplitl [Hr2_8]; · iexact Hr2_8
    iexact HB
  iintro HB
  sl_exec (disch := exact Cert.Words.chk_of _ _ _ _ (hI3 _) (by decide) rfl rfl)
  iapply (issue3 d L X g7 ⟨16 * k.val + 8, by omega⟩ _ _ _ _ rfl _ _ (dstoff_eq k 8#32 (by decide)) (c3 (ix1 ⟨16 * k.val + 8, by omega⟩)) (hV3 _) (hI3 _) (lane_shr3 c3 k 8 _ (by decide) _) (lane_and3 c3 k 8 _ (by decide) _) (64 * k.val + 35) (by show 64 * k.val + 35 = 4 * (16 * k.val + 8) + 3; omega) _) $$ [Ht3_8 Hr3_8 HB]
  · isplitl [Ht3_8]; · iexact Ht3_8
    isplitl [Hr3_8]; · iexact Hr3_8
    iexact HB
  iintro HB
  sl_exec (disch := exact Cert.Words.chk_of _ _ _ _ (hI0 _) (by decide) rfl rfl)
  iapply (issue0 d L X g4 ⟨16 * k.val + 9, by omega⟩ _ _ _ _ rfl _ _ (dstoff_eq k 9#32 (by decide)) (c0 (ix1 ⟨16 * k.val + 9, by omega⟩)) (hV0 _) (hI0 _) (lane_shr0 c0 k 9 _ (by decide) _) (lane_and0 c0 k 9 _ (by decide) _) (64 * k.val + 36) (by show 64 * k.val + 36 = 4 * (16 * k.val + 9) + 0; omega) _) $$ [Ht0_9 Hr0_9 HB]
  · isplitl [Ht0_9]; · iexact Ht0_9
    isplitl [Hr0_9]; · iexact Hr0_9
    iexact HB
  iintro HB
  sl_exec (disch := exact Cert.Words.chk_of _ _ _ _ (hI1 _) (by decide) rfl rfl)
  iapply (issue1 d L X g5 ⟨16 * k.val + 9, by omega⟩ _ _ _ _ rfl _ _ (dstoff_eq k 9#32 (by decide)) (c1 (ix1 ⟨16 * k.val + 9, by omega⟩)) (hV1 _) (hI1 _) (lane_shr1 c1 k 9 _ (by decide) _) (lane_and1 c1 k 9 _ (by decide) _) (64 * k.val + 37) (by show 64 * k.val + 37 = 4 * (16 * k.val + 9) + 1; omega) _) $$ [Ht1_9 Hr1_9 HB]
  · isplitl [Ht1_9]; · iexact Ht1_9
    isplitl [Hr1_9]; · iexact Hr1_9
    iexact HB
  iintro HB
  sl_exec (disch := exact Cert.Words.chk_of _ _ _ _ (hI2 _) (by decide) rfl rfl)
  iapply (issue2 d L X g6 ⟨16 * k.val + 9, by omega⟩ _ _ _ _ rfl _ _ (dstoff_eq k 9#32 (by decide)) (c2 (ix1 ⟨16 * k.val + 9, by omega⟩)) (hV2 _) (hI2 _) (lane_shr2 c2 k 9 _ (by decide) _) (lane_and2 c2 k 9 _ (by decide) _) (64 * k.val + 38) (by show 64 * k.val + 38 = 4 * (16 * k.val + 9) + 2; omega) _) $$ [Ht2_9 Hr2_9 HB]
  · isplitl [Ht2_9]; · iexact Ht2_9
    isplitl [Hr2_9]; · iexact Hr2_9
    iexact HB
  iintro HB
  sl_exec (disch := exact Cert.Words.chk_of _ _ _ _ (hI3 _) (by decide) rfl rfl)
  iapply (issue3 d L X g7 ⟨16 * k.val + 9, by omega⟩ _ _ _ _ rfl _ _ (dstoff_eq k 9#32 (by decide)) (c3 (ix1 ⟨16 * k.val + 9, by omega⟩)) (hV3 _) (hI3 _) (lane_shr3 c3 k 9 _ (by decide) _) (lane_and3 c3 k 9 _ (by decide) _) (64 * k.val + 39) (by show 64 * k.val + 39 = 4 * (16 * k.val + 9) + 3; omega) _) $$ [Ht3_9 Hr3_9 HB]
  · isplitl [Ht3_9]; · iexact Ht3_9
    isplitl [Hr3_9]; · iexact Hr3_9
    iexact HB
  iintro HB
  sl_exec (disch := exact Cert.Words.chk_of _ _ _ _ (hI0 _) (by decide) rfl rfl)
  iapply (issue0 d L X g4 ⟨16 * k.val + 10, by omega⟩ _ _ _ _ rfl _ _ (dstoff_eq k 10#32 (by decide)) (c0 (ix1 ⟨16 * k.val + 10, by omega⟩)) (hV0 _) (hI0 _) (lane_shr0 c0 k 10 _ (by decide) _) (lane_and0 c0 k 10 _ (by decide) _) (64 * k.val + 40) (by show 64 * k.val + 40 = 4 * (16 * k.val + 10) + 0; omega) _) $$ [Ht0_10 Hr0_10 HB]
  · isplitl [Ht0_10]; · iexact Ht0_10
    isplitl [Hr0_10]; · iexact Hr0_10
    iexact HB
  iintro HB
  sl_exec (disch := exact Cert.Words.chk_of _ _ _ _ (hI1 _) (by decide) rfl rfl)
  iapply (issue1 d L X g5 ⟨16 * k.val + 10, by omega⟩ _ _ _ _ rfl _ _ (dstoff_eq k 10#32 (by decide)) (c1 (ix1 ⟨16 * k.val + 10, by omega⟩)) (hV1 _) (hI1 _) (lane_shr1 c1 k 10 _ (by decide) _) (lane_and1 c1 k 10 _ (by decide) _) (64 * k.val + 41) (by show 64 * k.val + 41 = 4 * (16 * k.val + 10) + 1; omega) _) $$ [Ht1_10 Hr1_10 HB]
  · isplitl [Ht1_10]; · iexact Ht1_10
    isplitl [Hr1_10]; · iexact Hr1_10
    iexact HB
  iintro HB
  sl_exec (disch := exact Cert.Words.chk_of _ _ _ _ (hI2 _) (by decide) rfl rfl)
  iapply (issue2 d L X g6 ⟨16 * k.val + 10, by omega⟩ _ _ _ _ rfl _ _ (dstoff_eq k 10#32 (by decide)) (c2 (ix1 ⟨16 * k.val + 10, by omega⟩)) (hV2 _) (hI2 _) (lane_shr2 c2 k 10 _ (by decide) _) (lane_and2 c2 k 10 _ (by decide) _) (64 * k.val + 42) (by show 64 * k.val + 42 = 4 * (16 * k.val + 10) + 2; omega) _) $$ [Ht2_10 Hr2_10 HB]
  · isplitl [Ht2_10]; · iexact Ht2_10
    isplitl [Hr2_10]; · iexact Hr2_10
    iexact HB
  iintro HB
  sl_exec (disch := exact Cert.Words.chk_of _ _ _ _ (hI3 _) (by decide) rfl rfl)
  iapply (issue3 d L X g7 ⟨16 * k.val + 10, by omega⟩ _ _ _ _ rfl _ _ (dstoff_eq k 10#32 (by decide)) (c3 (ix1 ⟨16 * k.val + 10, by omega⟩)) (hV3 _) (hI3 _) (lane_shr3 c3 k 10 _ (by decide) _) (lane_and3 c3 k 10 _ (by decide) _) (64 * k.val + 43) (by show 64 * k.val + 43 = 4 * (16 * k.val + 10) + 3; omega) _) $$ [Ht3_10 Hr3_10 HB]
  · isplitl [Ht3_10]; · iexact Ht3_10
    isplitl [Hr3_10]; · iexact Hr3_10
    iexact HB
  iintro HB
  sl_exec (disch := exact Cert.Words.chk_of _ _ _ _ (hI0 _) (by decide) rfl rfl)
  iapply (issue0 d L X g4 ⟨16 * k.val + 11, by omega⟩ _ _ _ _ rfl _ _ (dstoff_eq k 11#32 (by decide)) (c0 (ix1 ⟨16 * k.val + 11, by omega⟩)) (hV0 _) (hI0 _) (lane_shr0 c0 k 11 _ (by decide) _) (lane_and0 c0 k 11 _ (by decide) _) (64 * k.val + 44) (by show 64 * k.val + 44 = 4 * (16 * k.val + 11) + 0; omega) _) $$ [Ht0_11 Hr0_11 HB]
  · isplitl [Ht0_11]; · iexact Ht0_11
    isplitl [Hr0_11]; · iexact Hr0_11
    iexact HB
  iintro HB
  sl_exec (disch := exact Cert.Words.chk_of _ _ _ _ (hI1 _) (by decide) rfl rfl)
  iapply (issue1 d L X g5 ⟨16 * k.val + 11, by omega⟩ _ _ _ _ rfl _ _ (dstoff_eq k 11#32 (by decide)) (c1 (ix1 ⟨16 * k.val + 11, by omega⟩)) (hV1 _) (hI1 _) (lane_shr1 c1 k 11 _ (by decide) _) (lane_and1 c1 k 11 _ (by decide) _) (64 * k.val + 45) (by show 64 * k.val + 45 = 4 * (16 * k.val + 11) + 1; omega) _) $$ [Ht1_11 Hr1_11 HB]
  · isplitl [Ht1_11]; · iexact Ht1_11
    isplitl [Hr1_11]; · iexact Hr1_11
    iexact HB
  iintro HB
  sl_exec (disch := exact Cert.Words.chk_of _ _ _ _ (hI2 _) (by decide) rfl rfl)
  iapply (issue2 d L X g6 ⟨16 * k.val + 11, by omega⟩ _ _ _ _ rfl _ _ (dstoff_eq k 11#32 (by decide)) (c2 (ix1 ⟨16 * k.val + 11, by omega⟩)) (hV2 _) (hI2 _) (lane_shr2 c2 k 11 _ (by decide) _) (lane_and2 c2 k 11 _ (by decide) _) (64 * k.val + 46) (by show 64 * k.val + 46 = 4 * (16 * k.val + 11) + 2; omega) _) $$ [Ht2_11 Hr2_11 HB]
  · isplitl [Ht2_11]; · iexact Ht2_11
    isplitl [Hr2_11]; · iexact Hr2_11
    iexact HB
  iintro HB
  sl_exec (disch := exact Cert.Words.chk_of _ _ _ _ (hI3 _) (by decide) rfl rfl)
  iapply (issue3 d L X g7 ⟨16 * k.val + 11, by omega⟩ _ _ _ _ rfl _ _ (dstoff_eq k 11#32 (by decide)) (c3 (ix1 ⟨16 * k.val + 11, by omega⟩)) (hV3 _) (hI3 _) (lane_shr3 c3 k 11 _ (by decide) _) (lane_and3 c3 k 11 _ (by decide) _) (64 * k.val + 47) (by show 64 * k.val + 47 = 4 * (16 * k.val + 11) + 3; omega) _) $$ [Ht3_11 Hr3_11 HB]
  · isplitl [Ht3_11]; · iexact Ht3_11
    isplitl [Hr3_11]; · iexact Hr3_11
    iexact HB
  iintro HB
  sl_exec (disch := exact Cert.Words.chk_of _ _ _ _ (hI0 _) (by decide) rfl rfl)
  iapply (issue0 d L X g4 ⟨16 * k.val + 12, by omega⟩ _ _ _ _ rfl _ _ (dstoff_eq k 12#32 (by decide)) (c0 (ix1 ⟨16 * k.val + 12, by omega⟩)) (hV0 _) (hI0 _) (lane_shr0 c0 k 12 _ (by decide) _) (lane_and0 c0 k 12 _ (by decide) _) (64 * k.val + 48) (by show 64 * k.val + 48 = 4 * (16 * k.val + 12) + 0; omega) _) $$ [Ht0_12 Hr0_12 HB]
  · isplitl [Ht0_12]; · iexact Ht0_12
    isplitl [Hr0_12]; · iexact Hr0_12
    iexact HB
  iintro HB
  sl_exec (disch := exact Cert.Words.chk_of _ _ _ _ (hI1 _) (by decide) rfl rfl)
  iapply (issue1 d L X g5 ⟨16 * k.val + 12, by omega⟩ _ _ _ _ rfl _ _ (dstoff_eq k 12#32 (by decide)) (c1 (ix1 ⟨16 * k.val + 12, by omega⟩)) (hV1 _) (hI1 _) (lane_shr1 c1 k 12 _ (by decide) _) (lane_and1 c1 k 12 _ (by decide) _) (64 * k.val + 49) (by show 64 * k.val + 49 = 4 * (16 * k.val + 12) + 1; omega) _) $$ [Ht1_12 Hr1_12 HB]
  · isplitl [Ht1_12]; · iexact Ht1_12
    isplitl [Hr1_12]; · iexact Hr1_12
    iexact HB
  iintro HB
  sl_exec (disch := exact Cert.Words.chk_of _ _ _ _ (hI2 _) (by decide) rfl rfl)
  iapply (issue2 d L X g6 ⟨16 * k.val + 12, by omega⟩ _ _ _ _ rfl _ _ (dstoff_eq k 12#32 (by decide)) (c2 (ix1 ⟨16 * k.val + 12, by omega⟩)) (hV2 _) (hI2 _) (lane_shr2 c2 k 12 _ (by decide) _) (lane_and2 c2 k 12 _ (by decide) _) (64 * k.val + 50) (by show 64 * k.val + 50 = 4 * (16 * k.val + 12) + 2; omega) _) $$ [Ht2_12 Hr2_12 HB]
  · isplitl [Ht2_12]; · iexact Ht2_12
    isplitl [Hr2_12]; · iexact Hr2_12
    iexact HB
  iintro HB
  sl_exec (disch := exact Cert.Words.chk_of _ _ _ _ (hI3 _) (by decide) rfl rfl)
  iapply (issue3 d L X g7 ⟨16 * k.val + 12, by omega⟩ _ _ _ _ rfl _ _ (dstoff_eq k 12#32 (by decide)) (c3 (ix1 ⟨16 * k.val + 12, by omega⟩)) (hV3 _) (hI3 _) (lane_shr3 c3 k 12 _ (by decide) _) (lane_and3 c3 k 12 _ (by decide) _) (64 * k.val + 51) (by show 64 * k.val + 51 = 4 * (16 * k.val + 12) + 3; omega) _) $$ [Ht3_12 Hr3_12 HB]
  · isplitl [Ht3_12]; · iexact Ht3_12
    isplitl [Hr3_12]; · iexact Hr3_12
    iexact HB
  iintro HB
  sl_exec (disch := exact Cert.Words.chk_of _ _ _ _ (hI0 _) (by decide) rfl rfl)
  iapply (issue0 d L X g4 ⟨16 * k.val + 13, by omega⟩ _ _ _ _ rfl _ _ (dstoff_eq k 13#32 (by decide)) (c0 (ix1 ⟨16 * k.val + 13, by omega⟩)) (hV0 _) (hI0 _) (lane_shr0 c0 k 13 _ (by decide) _) (lane_and0 c0 k 13 _ (by decide) _) (64 * k.val + 52) (by show 64 * k.val + 52 = 4 * (16 * k.val + 13) + 0; omega) _) $$ [Ht0_13 Hr0_13 HB]
  · isplitl [Ht0_13]; · iexact Ht0_13
    isplitl [Hr0_13]; · iexact Hr0_13
    iexact HB
  iintro HB
  sl_exec (disch := exact Cert.Words.chk_of _ _ _ _ (hI1 _) (by decide) rfl rfl)
  iapply (issue1 d L X g5 ⟨16 * k.val + 13, by omega⟩ _ _ _ _ rfl _ _ (dstoff_eq k 13#32 (by decide)) (c1 (ix1 ⟨16 * k.val + 13, by omega⟩)) (hV1 _) (hI1 _) (lane_shr1 c1 k 13 _ (by decide) _) (lane_and1 c1 k 13 _ (by decide) _) (64 * k.val + 53) (by show 64 * k.val + 53 = 4 * (16 * k.val + 13) + 1; omega) _) $$ [Ht1_13 Hr1_13 HB]
  · isplitl [Ht1_13]; · iexact Ht1_13
    isplitl [Hr1_13]; · iexact Hr1_13
    iexact HB
  iintro HB
  sl_exec (disch := exact Cert.Words.chk_of _ _ _ _ (hI2 _) (by decide) rfl rfl)
  iapply (issue2 d L X g6 ⟨16 * k.val + 13, by omega⟩ _ _ _ _ rfl _ _ (dstoff_eq k 13#32 (by decide)) (c2 (ix1 ⟨16 * k.val + 13, by omega⟩)) (hV2 _) (hI2 _) (lane_shr2 c2 k 13 _ (by decide) _) (lane_and2 c2 k 13 _ (by decide) _) (64 * k.val + 54) (by show 64 * k.val + 54 = 4 * (16 * k.val + 13) + 2; omega) _) $$ [Ht2_13 Hr2_13 HB]
  · isplitl [Ht2_13]; · iexact Ht2_13
    isplitl [Hr2_13]; · iexact Hr2_13
    iexact HB
  iintro HB
  sl_exec (disch := exact Cert.Words.chk_of _ _ _ _ (hI3 _) (by decide) rfl rfl)
  iapply (issue3 d L X g7 ⟨16 * k.val + 13, by omega⟩ _ _ _ _ rfl _ _ (dstoff_eq k 13#32 (by decide)) (c3 (ix1 ⟨16 * k.val + 13, by omega⟩)) (hV3 _) (hI3 _) (lane_shr3 c3 k 13 _ (by decide) _) (lane_and3 c3 k 13 _ (by decide) _) (64 * k.val + 55) (by show 64 * k.val + 55 = 4 * (16 * k.val + 13) + 3; omega) _) $$ [Ht3_13 Hr3_13 HB]
  · isplitl [Ht3_13]; · iexact Ht3_13
    isplitl [Hr3_13]; · iexact Hr3_13
    iexact HB
  iintro HB
  sl_exec (disch := exact Cert.Words.chk_of _ _ _ _ (hI0 _) (by decide) rfl rfl)
  iapply (issue0 d L X g4 ⟨16 * k.val + 14, by omega⟩ _ _ _ _ rfl _ _ (dstoff_eq k 14#32 (by decide)) (c0 (ix1 ⟨16 * k.val + 14, by omega⟩)) (hV0 _) (hI0 _) (lane_shr0 c0 k 14 _ (by decide) _) (lane_and0 c0 k 14 _ (by decide) _) (64 * k.val + 56) (by show 64 * k.val + 56 = 4 * (16 * k.val + 14) + 0; omega) _) $$ [Ht0_14 Hr0_14 HB]
  · isplitl [Ht0_14]; · iexact Ht0_14
    isplitl [Hr0_14]; · iexact Hr0_14
    iexact HB
  iintro HB
  sl_exec (disch := exact Cert.Words.chk_of _ _ _ _ (hI1 _) (by decide) rfl rfl)
  iapply (issue1 d L X g5 ⟨16 * k.val + 14, by omega⟩ _ _ _ _ rfl _ _ (dstoff_eq k 14#32 (by decide)) (c1 (ix1 ⟨16 * k.val + 14, by omega⟩)) (hV1 _) (hI1 _) (lane_shr1 c1 k 14 _ (by decide) _) (lane_and1 c1 k 14 _ (by decide) _) (64 * k.val + 57) (by show 64 * k.val + 57 = 4 * (16 * k.val + 14) + 1; omega) _) $$ [Ht1_14 Hr1_14 HB]
  · isplitl [Ht1_14]; · iexact Ht1_14
    isplitl [Hr1_14]; · iexact Hr1_14
    iexact HB
  iintro HB
  sl_exec (disch := exact Cert.Words.chk_of _ _ _ _ (hI2 _) (by decide) rfl rfl)
  iapply (issue2 d L X g6 ⟨16 * k.val + 14, by omega⟩ _ _ _ _ rfl _ _ (dstoff_eq k 14#32 (by decide)) (c2 (ix1 ⟨16 * k.val + 14, by omega⟩)) (hV2 _) (hI2 _) (lane_shr2 c2 k 14 _ (by decide) _) (lane_and2 c2 k 14 _ (by decide) _) (64 * k.val + 58) (by show 64 * k.val + 58 = 4 * (16 * k.val + 14) + 2; omega) _) $$ [Ht2_14 Hr2_14 HB]
  · isplitl [Ht2_14]; · iexact Ht2_14
    isplitl [Hr2_14]; · iexact Hr2_14
    iexact HB
  iintro HB
  sl_exec (disch := exact Cert.Words.chk_of _ _ _ _ (hI3 _) (by decide) rfl rfl)
  iapply (issue3 d L X g7 ⟨16 * k.val + 14, by omega⟩ _ _ _ _ rfl _ _ (dstoff_eq k 14#32 (by decide)) (c3 (ix1 ⟨16 * k.val + 14, by omega⟩)) (hV3 _) (hI3 _) (lane_shr3 c3 k 14 _ (by decide) _) (lane_and3 c3 k 14 _ (by decide) _) (64 * k.val + 59) (by show 64 * k.val + 59 = 4 * (16 * k.val + 14) + 3; omega) _) $$ [Ht3_14 Hr3_14 HB]
  · isplitl [Ht3_14]; · iexact Ht3_14
    isplitl [Hr3_14]; · iexact Hr3_14
    iexact HB
  iintro HB
  sl_exec (disch := exact Cert.Words.chk_of _ _ _ _ (hI0 _) (by decide) rfl rfl)
  iapply (issue0 d L X g4 ⟨16 * k.val + 15, by omega⟩ _ _ _ _ rfl _ _ (dstoff_eq k 15#32 (by decide)) (c0 (ix1 ⟨16 * k.val + 15, by omega⟩)) (hV0 _) (hI0 _) (lane_shr0 c0 k 15 _ (by decide) _) (lane_and0 c0 k 15 _ (by decide) _) (64 * k.val + 60) (by show 64 * k.val + 60 = 4 * (16 * k.val + 15) + 0; omega) _) $$ [Ht0_15 Hr0_15 HB]
  · isplitl [Ht0_15]; · iexact Ht0_15
    isplitl [Hr0_15]; · iexact Hr0_15
    iexact HB
  iintro HB
  sl_exec (disch := exact Cert.Words.chk_of _ _ _ _ (hI1 _) (by decide) rfl rfl)
  iapply (issue1 d L X g5 ⟨16 * k.val + 15, by omega⟩ _ _ _ _ rfl _ _ (dstoff_eq k 15#32 (by decide)) (c1 (ix1 ⟨16 * k.val + 15, by omega⟩)) (hV1 _) (hI1 _) (lane_shr1 c1 k 15 _ (by decide) _) (lane_and1 c1 k 15 _ (by decide) _) (64 * k.val + 61) (by show 64 * k.val + 61 = 4 * (16 * k.val + 15) + 1; omega) _) $$ [Ht1_15 Hr1_15 HB]
  · isplitl [Ht1_15]; · iexact Ht1_15
    isplitl [Hr1_15]; · iexact Hr1_15
    iexact HB
  iintro HB
  sl_exec (disch := exact Cert.Words.chk_of _ _ _ _ (hI2 _) (by decide) rfl rfl)
  iapply (issue2 d L X g6 ⟨16 * k.val + 15, by omega⟩ _ _ _ _ rfl _ _ (dstoff_eq k 15#32 (by decide)) (c2 (ix1 ⟨16 * k.val + 15, by omega⟩)) (hV2 _) (hI2 _) (lane_shr2 c2 k 15 _ (by decide) _) (lane_and2 c2 k 15 _ (by decide) _) (64 * k.val + 62) (by show 64 * k.val + 62 = 4 * (16 * k.val + 15) + 2; omega) _) $$ [Ht2_15 Hr2_15 HB]
  · isplitl [Ht2_15]; · iexact Ht2_15
    isplitl [Hr2_15]; · iexact Hr2_15
    iexact HB
  iintro HB
  sl_exec (disch := exact Cert.Words.chk_of _ _ _ _ (hI3 _) (by decide) rfl rfl)
  iapply (issue3 d L X g7 ⟨16 * k.val + 15, by omega⟩ _ _ _ _ rfl _ _ (dstoff_eq k 15#32 (by decide)) (c3 (ix1 ⟨16 * k.val + 15, by omega⟩)) (hV3 _) (hI3 _) (lane_shr3 c3 k 15 _ (by decide) _) (lane_and3 c3 k 15 _ (by decide) _) (64 * k.val + 63) (by show 64 * k.val + 63 = 4 * (16 * k.val + 15) + 3; omega) _) $$ [Ht3_15 Hr3_15 HB]
  · isplitl [Ht3_15]; · iexact Ht3_15
    isplitl [Hr3_15]; · iexact Hr3_15
    iexact HB
  iintro HB
  sl_exec
  sl_step
  isplitl [HB]
  · iapply (Entails.of_eq (congrArg (fun n => batch d L X n 0) e64)) $$ HB
  isplitl [H0]; · iexact H0
  isplitl [H1]; · iexact H1
  isplitl [H2]; · iexact H2
  isplitl [H3]; · iexact H3
  iapply (Entails.of_eq (congrArg (fun n => bigSep (Ring.rangeSet 128 n 128) (fun e : Fin 128 => iprop(rowAt4 d L e g4 ∗ rowAt5 d L e g5 ∗ rowAt6 d L e g6 ∗ rowAt7 d L e g7 ∗ tok0 d L X e.val ∗ tok1 d L X e.val ∗ tok2 d L X e.val ∗ tok3 d L X e.val))) e16)) $$ Hrest

end Cert.Kernel.TileGather

end
-- ==== Proof.BTileBundles.lean ====
/-
  Before the first trip of the issue loop every entry still holds what its four copies need: the four row buffers are
  cut into their 128 rows, each table's read share into 128 tokens (what is left of the share after the tokens is
  let go), and the eight families are zipped entry by entry.
-/
import proofs.«206817_g64347200028782_cont_9to1_m_612_22_alg».proof.Proof.BTileIssueInv
import proofs.«206817_g64347200028782_cont_9to1_m_612_22_alg».proof.Proof.BTileGatherLib

noncomputable section

namespace Cert.Kernel.TileGather

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Kernel.TileRes Cert.Kernel.TileCore Cert.Kernel.TileVals Cert.KSpec Cert.Spec
open Idealize.ShloMosaic.ValueIdx

variable [FloatOps F] (d : Dev nD) (L : grid0.Coords) (X : Tabs F)

/-- A table's read share gives one token per entry. -/
theorem toks0 : inT5 d L X ⊢ (bigSep Finset.univ fun e : Fin 128 => tok0 d L X e.val : sProp 𝕄) :=
  (Transfers.pointsTo_toks_split (rshare L) 128).trans sep_elim_right
theorem toks1 : inT6 d L X ⊢ (bigSep Finset.univ fun e : Fin 128 => tok1 d L X e.val : sProp 𝕄) :=
  (Transfers.pointsTo_toks_split (rshare L) 128).trans sep_elim_right
theorem toks2 : inT7 d L X ⊢ (bigSep Finset.univ fun e : Fin 128 => tok2 d L X e.val : sProp 𝕄) :=
  (Transfers.pointsTo_toks_split (rshare L) 128).trans sep_elim_right
theorem toks3 : inT8 d L X ⊢ (bigSep Finset.univ fun e : Fin 128 => tok3 d L X e.val : sProp 𝕄) :=
  (Transfers.pointsTo_toks_split (rshare L) 128).trans sep_elim_right

/-- The entries' bundles are the eight families side by side. -/
theorem bundles_eq (g4 g5 g6 g7 : FVec F S128x64 .f32) :
    (bigSep Finset.univ (bundle d L X g4 g5 g6 g7) : sProp 𝕄)
      = iprop((bigSep Finset.univ fun e : Fin 128 => rowAt4 d L e g4) ∗ (bigSep Finset.univ fun e : Fin 128 => rowAt5 d L e g5)
          ∗ (bigSep Finset.univ fun e : Fin 128 => rowAt6 d L e g6) ∗ (bigSep Finset.univ fun e : Fin 128 => rowAt7 d L e g7)
          ∗ (bigSep Finset.univ fun e : Fin 128 => tok0 d L X e.val) ∗ (bigSep Finset.univ fun e : Fin 128 => tok1 d L X e.val)
          ∗ (bigSep Finset.univ fun e : Fin 128 => tok2 d L X e.val) ∗ (bigSep Finset.univ fun e : Fin 128 => tok3 d L X e.val)) := by
  unfold bundle
  rw [bigSep_sep', bigSep_sep', bigSep_sep', bigSep_sep', bigSep_sep', bigSep_sep', bigSep_sep']

theorem bundles_intro (g4 g5 g6 g7 : FVec F S128x64 .f32) :
    iprop(sc4 d L g4 ∗ sc5 d L g5 ∗ sc6 d L g6 ∗ sc7 d L g7 ∗ inT5 d L X ∗ inT6 d L X ∗ inT7 d L X ∗ inT8 d L X)
      ⊢ (bigSep (Ring.rangeSet 128 (16 * 0) 128) (bundle d L X g4 g5 g6 g7) : sProp 𝕄) := by
  rw [show (16 * 0 : ℕ) = 0 from rfl, Ring.rangeSet_univ, bundles_eq, rows_eq4, rows_eq5, rows_eq6, rows_eq7]
  exact sep_mono_right (sep_mono_right (sep_mono_right (sep_mono_right
    (BIClass.sep_mono (toks0 d L X) (BIClass.sep_mono (toks1 d L X) (BIClass.sep_mono (toks2 d L X) (toks3 d L X)))))))

end Cert.Kernel.TileGather

end
-- ==== Proof.BTileTail.lean ====
/-
  Three facts about the end of a task's run.

  The last worker (number 31) overwrites the last row of its tails buffer with sublane 1 of the special tile before the
  rows are combined; the test it makes on its grid coordinates is true exactly for that worker. After the 128 trips of
  the row-combining loop the staging buffer holds the kernel's result on the worker's 128 rows, and the copy of the staging
  buffer onto those rows of the output array leaves the kernel's result function there.
-/
import proofs.«206817_g64347200028782_cont_9to1_m_612_22_alg».proof.Proof.BTileVals
import proofs.«206817_g64347200028782_cont_9to1_m_612_22_alg».proof.Proof.BTileGatherLib

noncomputable section

namespace Cert.Kernel.TileTail

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Cert.Kernel.TileRes Cert.Kernel.TileCore Cert.Kernel.TileVals Cert.Kernel.TileGather Cert.KSpec Cert.Spec
open Idealize.ShloMosaic.ValueIdx

/-! ## The last worker's test -/

/-- The word `2 s + c` of the grid point compared with 31, as the kernel computes it, is true exactly for worker 31. -/
theorem cond_iff : ∀ L : grid0.Coords,
    (Scalar.cmpi CmpIPredicate.ne (Scalar.extui (Scalar.cmpi CmpIPredicate.eq
        (Scalar.addi (Scalar.muli (BitVec.ofNat 32 (L 1).val) 2#32) (BitVec.ofNat 32 (L 0).val)) 31#32)) 0#32 = 1#1)
      ↔ 2 * (L 1).val + (L 0).val = 31 := by decide +kernel

theorem cond_iff_wid (L : grid0.Coords) :
    (Scalar.cmpi CmpIPredicate.ne (Scalar.extui (Scalar.cmpi CmpIPredicate.eq
        (Scalar.addi (Scalar.muli (BitVec.ofNat 32 (L 1).val) 2#32) (BitVec.ofNat 32 (L 0).val)) 31#32)) 0#32 = 1#1)
      ↔ wid L = 31 := cond_iff L

variable [FloatOps F]

/-! ## The special row patched into the tails buffer -/

section Patch

variable (inb : ∀ a, (![127, 0] : Fin 2 → ℕ) a + S1x64.size a ≤ S128x64.size a)
  (inb3 : ∀ a, (![0, 1, 0] : Fin 3 → ℕ) a + S1x1x64.size a ≤ S1x8x64.size a)

/-- Sublane 1 of the special tile, as a 64-entry vector. -/
abbrev srcS : Memref sig .scVector .hbm S64 .f32 :=
  ((Memref.whole main_v10_scv : Memref sig .scVector .hbm S1x8x64 .f32).slice
    (Rect.unit (s := S1x8x64) ![0, 1, 0] S1x1x64.size inb3) (fun _ => rfl)).squeeze S64 squeezes_S1x1x64_S64

omit [FloatOps F] in
theorem srcS_emb (k : Fin 64) : (srcS inb3).view.emb (ix1 k) = ix3 (0 : Fin 1) (1 : Fin 8) k := by
  show (Rect.unit (s := S1x8x64) ![0, 1, 0] S1x1x64.size inb3).emb (Shape.reshapeEquiv _ (ix1 k)) = _
  refine (congrArg (Rect.unit (s := S1x8x64) ![0, 1, 0] S1x1x64.size inb3).emb (reshape_1x1x64 _ k)).trans ?_
  funext a; apply Fin.ext
  match a with
  | ⟨0, _⟩ => show 0 + 1 * 0 = 0; omega
  | ⟨1, _⟩ => show 1 + 1 * 0 = 1; omega
  | ⟨2, _⟩ => show 0 + 1 * k.val = k.val; omega

omit [FloatOps F] in
theorem mem_row127 (idx : S128x64.Idx) : idx ∈ rowSet (127 : Fin 128) ↔ (idx 0).val = 127 := by
  unfold rowSet
  rw [Rect.mem_set_unit]
  have h0 : (idx 0).val < 128 := (idx 0).isLt
  have h1 : (idx 1).val < 64 := (idx 1).isLt
  constructor
  · intro h
    have := h 0
    have h2 : 127 ≤ (idx 0).val := this.1
    omega
  · intro h a
    match a with
    | ⟨0, _⟩ => exact ⟨by show 127 ≤ (idx 0).val; omega, by show (idx 0).val < 127 + 1; omega⟩
    | ⟨1, _⟩ => exact ⟨Nat.zero_le _, by show (idx 1).val < 0 + 64; omega⟩

/-- The copy of sublane 1 of the special tile onto the last row of a row buffer: that row becomes the sublane, the other
    rows stay. -/
theorem patch6 (T10 : FVec F S1x8x64 .f32) (G : FVec F S128x64 .f32) :
    View.write (Elt F) (dst6 ![127, 0] inb).view G (ReadAs.same.apply (View.read (Elt F) (srcS inb3).view T10)) Finset.univ
      = fun idx => if (idx 0).val = 127 then T10 (ix3 (0 : Fin 1) (1 : Fin 8) (idx 1)) else G idx := by
  funext idx
  by_cases h : (idx 0).val = 127
  · rw [if_pos h]
    have hidx : idx ∈ rowSet (127 : Fin 128) := (mem_row127 idx).mpr h
    rw [← dst6_set (127 : Fin 128) ![127, 0] inb rfl] at hidx
    obtain ⟨x, -, rfl⟩ := Finset.mem_map.mp hidx
    obtain ⟨k, rfl⟩ : ∃ k : Fin 64, x = ix1 k := ⟨x 0, eq_ix1 x⟩
    rw [View.write_emb_of_mem _ _ (Finset.mem_univ _), ReadAs.apply_same, View.read_apply, srcS_emb inb3,
      dst6_emb (127 : Fin 128) ![127, 0] inb rfl]
    rfl
  · rw [if_neg h]
    refine View.write_of_not_mem _ _ _ ?_
    rw [View.setOn_univ, dst6_set (127 : Fin 128) ![127, 0] inb rfl]
    exact fun hm => h ((mem_row127 idx).mp hm)

/-- The tails buffer as the rows are combined, whichever way the last worker's test went. -/
theorem tails_patched (L : grid0.Coords) (X : Tabs F) (c : Prop) [Decidable c] (hc : c ↔ wid L = 31) :
    (if h : c then View.write (Elt F) (dst6 ![127, 0] inb).view (G6 L X) (ReadAs.same.apply (View.read (Elt F) (srcS inb3).view X.T10)) Finset.univ
      else G6 L X) = G6' L X := by
  by_cases hcw : c
  · rw [dif_pos hcw, patch6 inb inb3]
    have hw : wid L = 31 := hc.mp hcw
    funext idx
    unfold G6'
    by_cases h127 : (idx 0).val = 127
    · rw [if_pos h127, if_pos ⟨hw, h127⟩]
    · rw [if_neg h127, if_neg (fun h => h127 h.2)]
  · rw [dif_neg hcw]
    funext idx
    unfold G6'
    rw [if_neg (fun h => hcw (hc.mpr h.1))]

end Patch

/-! ## The copy-out -/

/-- The staging buffer done on all 128 rows, copied onto the worker's rows of the output array, is the kernel's result
    function there. -/
theorem out_value (L : grid0.Coords) (X : Tabs F) (g8 : FVec F S128x192 .f32) (f₀ : FVec F S4096x192 .f32) :
    ∀ idx ∈ (outSlice L).view.set,
      View.write (Elt F) (outSlice L).view f₀ (ReadAs.same.apply
        (View.read (Elt F) (Memref.whole cc0_scratch8 : Memref sig .scVector .vmem S128x192 .f32).view (R8 L X g8 128))) Finset.univ idx
        = X.out idx := by
  intro idx hidx
  obtain ⟨x, -, rfl⟩ := Finset.mem_map.mp hidx
  rw [View.write_emb_of_mem _ _ (Finset.mem_univ _), ReadAs.apply_same, View.read_whole]
  have hx0 : (x 0).val < 128 := (x 0).isLt
  have hL0 : (L 0).val < 2 := (L 0).isLt
  have hL1 : (L 1).val < 16 := (L 1).isLt
  have e0 : (outSlice L).view.emb x 0 = rowOfEntry L (x 0) := by
    apply Fin.ext
    show (k0_off148 L) 0 + 1 * (x 0).val = base L + (x 0).val
    rw [k0_off148_eq]
    show 256 * (L 1).val + 128 * (L 0).val + 1 * (x 0).val = base L + (x 0).val
    unfold base wid; omega
  have e1 : (outSlice L).view.emb x 1 = x 1 := by
    apply Fin.ext
    show (k0_off148 L) 1 + 1 * (x 1).val = (x 1).val
    rw [k0_off148_eq]
    show 0 + 1 * (x 1).val = (x 1).val
    omega
  show R8 L X g8 128 x = Kat X.T5 X.T6 X.T7 X.T8 X.T10 X.I0 X.I1 X.I3 X.I4 ((outSlice L).view.emb x 0) ((outSlice L).view.emb x 1)
  rw [e0, e1]
  unfold R8
  rw [if_pos hx0]

end Cert.Kernel.TileTail

end
-- ==== Proof.BTileCore.lean ====
/-
  One task's run, from its named resources: the four index lists copied in, the gather issued and drained, the special
  row patched in on the last worker, the rows combined, the staging buffer copied out.
-/
import proofs.«206817_g64347200028782_cont_9to1_m_612_22_alg».proof.Proof.BTileDrain
import proofs.«206817_g64347200028782_cont_9to1_m_612_22_alg».proof.Proof.BTileRows
import proofs.«206817_g64347200028782_cont_9to1_m_612_22_alg».proof.Proof.BTileIssueLoop
import proofs.«206817_g64347200028782_cont_9to1_m_612_22_alg».proof.Proof.BTileBundles
import proofs.«206817_g64347200028782_cont_9to1_m_612_22_alg».proof.Proof.BTileTail

set_option pp.maxSteps 6000
set_option pp.deepTerms false

noncomputable section

namespace Cert.Kernel.TileCore

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Kernel.TileRes Cert.Kernel.TileVals Cert.Kernel.TileGather Cert.Kernel.TileRows Cert.KSpec Cert.Spec
open Idealize.ShloMosaic.ValueIdx

variable [FloatOps F]

theorem t1_trips : k0_t1_loop.trips = 8 := by decide +kernel
theorem t3_trips : k0_t3_loop.trips = 128 := by decide +kernel

/-- Before any row is combined the staging buffer is as it was. -/
theorem R8_zero (L : grid0.Coords) (X : Tabs F) (g8 : FVec F S128x192 .f32) : R8 L X g8 0 = g8 := by
  funext idx; unfold R8; rw [if_neg (Nat.not_lt_zero _)]

/-- The tails buffer after the guarded patch is the buffer the rows are combined from. -/
theorem tails_key (d : Dev nD) (L : grid0.Coords) (X : Tabs F) (c : Prop) [Decidable c] (hc : c ↔ wid L = 31) (inb) (inb3) :
    (((Memref.whole cc0_scratch6 : Memref sig .scVector .vmem S128x64 .f32).view.loc (thr d L) ↦{fullShare}
        (if h : c then View.write (Elt F) (dst6 ![127, 0] inb).view (G6 L X)
            (ReadAs.same.apply (View.read (Elt F) (Cert.Kernel.TileTail.srcS inb3).view X.T10)) Finset.univ else G6 L X)) : sProp 𝕄)
      ⊢ sc6 d L (G6' L X) := by
  rw [Cert.Kernel.TileTail.tails_patched inb inb3 L X c hc]

/-- A thread's recorded waits, packed with a property every one of them has. -/
theorem owes_ex (t : Thread nD τ) (O : CellTallies nD τ sig (HIx 1)) (Wf : Waits sig (HIx 1)) (P : SemLoc sig × HIx 1 → Prop) (h : ∀ p ∈ Wf, P p) :
    (owes t O Wf : sProp 𝕄) ⊢ iprop(∃ W', ⌜∀ p ∈ W', P p⌝ ∗ owes t O W') := by
  iintro HO; iexists Wf; isplitr
  · ipureintro; exact h
  · iexact HO

/-- The waits a guarded copy and one more copy add are waits at no index. -/
theorem waits_ok (c : Prop) [Decidable c] (x y : SemLoc sig × HIx 1) (hx : x.2 = none) (hy : y.2 = none) (W W1 : Waits sig (HIx 1))
    (hW1 : ∀ p ∈ W1, p ∈ W ∨ p.2 = none) : ∀ p ∈ insert x (if _h : c then insert y W1 else W1), p ∈ W ∨ p.2 = none := by
  intro p hp
  rcases Finset.mem_insert.mp hp with rfl | hp
  · exact .inr hx
  · split at hp
    · rcases Finset.mem_insert.mp hp with rfl | hp
      · exact .inr hy
      · exact hW1 p hp
    · exact hW1 p hp

set_option maxHeartbeats 4000000 in
theorem body_core [∀ e, Nonempty (Elt F e)] (X : Tabs F) (hX : Cert.KSpec.ListsInRange X.I0 X.I1 X.I3 X.I4) : BodyCore X := by
  intro d L f₀ O W g0 g1 g2 g3 g4 g5 g6 g7 g8
  unfold kernelAt
  simp only [cc0__emb_kernel_eq_skeleton]; unfold cc0__emb_kernel_skel
  simp only [k0_part24_eq_skeleton]; unfold k0_part24_skel
  iintro ⟨Hmw, HT5, HT6, HT7, HT8, HT10, HI0, HI1, HI3, HI4, Hout, H0, H1, H2, H3, H4, H5, H6, H7, H8, Hs9, Hr0, Hr1, Hr2, Hr3, Hr4, Hr5, HO⟩
  sl_exec
  generalize hc0 : View.write (Elt F) (Memref.whole cc0_scratch0 : Memref sig .scVector .vmem S128 .i32).view g0 _ Finset.univ = c0
  generalize hc1 : View.write (Elt F) (Memref.whole cc0_scratch1 : Memref sig .scVector .vmem S128 .i32).view g1 _ Finset.univ = c1
  generalize hc2 : View.write (Elt F) (Memref.whole cc0_scratch2 : Memref sig .scVector .vmem S128 .i32).view g2 _ Finset.univ = c2
  generalize hc3 : View.write (Elt F) (Memref.whole cc0_scratch3 : Memref sig .scVector .vmem S128 .i32).view g3 _ Finset.univ = c3
  have hV0 : ∀ e : Fin 128, c0 (ix1 e) = X.I0 (ix1 (rowOfEntry L e)) := by intro e; rw [← hc0]; exact idx_copy0 L X.I0 g0 e
  have hV1 : ∀ e : Fin 128, c1 (ix1 e) = X.I1 (ix1 (rowOfEntry L e)) := by intro e; rw [← hc1]; exact idx_copy1 L X.I1 g1 e
  have hV2 : ∀ e : Fin 128, c2 (ix1 e) = X.I3 (ix1 (rowOfEntry L e)) := by intro e; rw [← hc2]; exact idx_copy2 L X.I3 g2 e
  have hV3 : ∀ e : Fin 128, c3 (ix1 e) = X.I4 (ix1 (rowOfEntry L e)) := by intro e; rw [← hc3]; exact idx_copy3 L X.I4 g3 e
  have hI0 : ∀ i, (c0 i).toNat < 100000 := by intro i; obtain ⟨e, rfl⟩ : ∃ e : Fin 128, i = ix1 e := ⟨i 0, eq_ix1 i⟩; rw [hV0]; exact hX.h _
  have hI1 : ∀ i, (c1 i).toNat < 200 := by intro i; obtain ⟨e, rfl⟩ : ∃ e : Fin 128, i = ix1 e := ⟨i 0, eq_ix1 i⟩; rw [hV1]; exact hX.r _
  have hI2 : ∀ i, (c2 i).toNat < 100000 := by intro i; obtain ⟨e, rfl⟩ : ∃ e : Fin 128, i = ix1 e := ⟨i 0, eq_ix1 i⟩; rw [hV2]; exact hX.t _
  have hI3 : ∀ i, (c3 i).toNat < 10000 := by intro i; obtain ⟨e, rfl⟩ : ∃ e : Fin 128, i = ix1 e := ⟨i 0, eq_ix1 i⟩; rw [hV3]; exact hX.n _
  -- the gather's batch, and the entries' rows and read tokens
  imod (Transfers.batch_alloc' (EC (F := F)) (thr d L) (none : HIx 1) NN (D4 d L X) (sm := SemLoc.dma cc0_scratch9.sem) (E := Set.univ)) $$ Hs9 with HB
  ihave Hb := (bundles_intro d L X g4 g5 g6 g7) $$ [H4 H5 H6 H7 HT5 HT6 HT7 HT8]
  · isplitl [H4]; · iexact H4
    isplitl [H5]; · iexact H5
    isplitl [H6]; · iexact H6
    isplitl [H7]; · iexact H7
    isplitl [HT5]; · iexact HT5
    isplitl [HT6]; · iexact HT6
    isplitl [HT7]; · iexact HT7
    iexact HT8
  simp only [bind_assoc]
  sl_for (issueInv d L X c0 c1 c2 c3 g4 g5 g6 g7) $$ [HB H0 H1 H2 H3 Hb]
  case region =>
    intro k acc
    exact issue_step d L X c0 c1 c2 c3 g4 g5 g6 g7 hV0 hV1 hV2 hV3 hI0 hI1 hI2 hI3 k acc
  · unfold issueInv
    isplitl [HB]; · iexact HB
    isplitl [H0]; · iexact H0
    isplitl [H1]; · iexact H1
    isplitl [H2]; · iexact H2
    isplitl [H3]; · iexact H3
    iexact Hb
  iintro %acc HI
  ihave HI' := (show issueInv d L X c0 c1 c2 c3 g4 g5 g6 g7 k0_t1_loop.trips acc ⊢ iprop(batch d L X 512 0 ∗ sc0 d L c0 ∗ sc1 d L c1 ∗ sc2 d L c2 ∗ sc3 d L c3) from by
      unfold issueInv; rw [t1_trips]
      iintro ⟨HB, H0, H1, H2, H3, -⟩
      isplitl [HB]; · iexact HB
      isplitl [H0]; · iexact H0
      isplitl [H1]; · iexact H1
      isplitl [H2]; · iexact H2
      iexact H3) $$ HI
  icases HI' with ⟨HB, H0, H1, H2, H3⟩
  sl_for (drainInv d L X O W) $$ [HB HO Hmw]
  case region =>
    intro k acc
    exact drain_step d L X O W k acc
  · unfold drainInv
    rw [if_pos (by decide : 0 < 128)]
    isplitr; · ipureintro; omega
    isplitl [Hmw]; · iexact Hmw
    isplitl [HO]
    · iexists (insert (SemLoc.dma cc0_scoped3.sem, (default : HIx 1)) (insert (SemLoc.dma cc0_scoped2.sem, (default : HIx 1)) (insert (SemLoc.dma cc0_scoped1.sem, (default : HIx 1)) (insert (SemLoc.dma cc0_scoped0.sem, (default : HIx 1)) W)))); isplitr
      · ipureintro; intro p hp
        simp only [Finset.mem_insert] at hp
        rcases hp with rfl | rfl | rfl | rfl | hp
        · exact .inr rfl
        · exact .inr rfl
        · exact .inr rfl
        · exact .inr rfl
        · exact .inl hp
      · iexact HO
    rw [show 4 * 0 * NN = 0 from rfl]
    iexact HB
  iintro %acc2 HL
  ihave HL' := (show drainInv d L X O W k0_t2_loop.trips acc2 ⊢ iprop(Transfers.MayWaits (thr d L) (none : HIx 1) O
        ∗ (∃ W', ⌜∀ p ∈ W', p ∈ W ∨ p.2 = none⌝ ∗ owes (thr d L) O W') ∗ semVal (cell d L cc0_scratch9) 0 ∗ bigSep Finset.univ (D4 d L X)) from by
      unfold drainInv; rw [t2_trips, if_neg (Nat.lt_irrefl _)]
      iintro ⟨-, Hmw, HO, Hc, Hall⟩
      isplitl [Hmw]; · iexact Hmw
      isplitl [HO]; · iexact HO
      isplitl [Hc] <;> iassumption) $$ HL
  icases HL' with ⟨Hmw, ⟨%W1, %hW1, HO⟩, Hs9, Hall⟩
  ihave Hj := (deliveries_join d L X) $$ Hall
  icases Hj with ⟨H4, H5, H6, H7⟩
  -- the last worker patches the special row into the tails buffer
  sl_exec
  ihave H6' : sc6 d L (G6' L X) $$ [H6]
  · iapply (tails_key d L X _ (Cert.Kernel.TileTail.cond_iff_wid L) inb_S128x64_S1x64_127_0 inb_S1x8x64_S1x1x64_0_1_0)
    iexact H6
  -- the rows combined
  sl_for (rowInv d L X g8) $$ [H4 H5 H6' H7 H8]
  case region =>
    intro k acc
    exact row_step d L X g8 k acc
  · unfold rowInv
    isplitl [H4]; · iexact H4
    isplitl [H5]; · iexact H5
    isplitl [H6']; · iexact H6'
    isplitl [H7]; · iexact H7
    rw [R8_zero]; iexact H8
  iintro %acc3 HR
  ihave HR' := (show rowInv d L X g8 k0_t3_loop.trips acc3 ⊢ iprop(sc4 d L (G4 L X) ∗ sc5 d L (G5 L X) ∗ sc6 d L (G6' L X) ∗ sc7 d L (G7 L X) ∗ sc8 d L (R8 L X g8 128)) from by
      unfold rowInv; rw [t3_trips]) $$ HR
  icases HR' with ⟨H4, H5, H6, H7, H8⟩
  -- the staging buffer copied out
  sl_exec
  sl_step
  isplitl [Hout]
  · have hw : (outSlice L).view.writes (Elt F) (f₀ : Buf (Elt F) ((outSlice L).view.loc (thr d L)))
        [⟨Rect.whole S128x192, ReadAs.same.apply (View.read (Elt F) (Memref.whole cc0_scratch8 : Memref sig .scVector .vmem S128x192 .f32).view (R8 L X g8 128))⟩]
        = (outSlice L).view.write (Elt F) f₀ (ReadAs.same.apply (View.read (Elt F) (Memref.whole cc0_scratch8 : Memref sig .scVector .vmem S128x192 .f32).view (R8 L X g8 128))) Finset.univ := by
      rw [← View.write_univ_eq_writes_whole, View.writes_nil]
    iapply (Entails.of_eq (pointsTo_congr (ℓ := (outSlice L).view.loc (thr d L)) (q := fullShare)
      (fun idx h => (congrFun hw idx).trans (Cert.Kernel.TileTail.out_value L X g8 f₀ idx h))))
    iexact Hout
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [Hs9]; · iexact Hs9
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  iapply (owes_ex (thr d L) O _ (fun p => p ∈ W ∨ p.2 = none) ?hfin) $$ HO
  case hfin => exact waits_ok _ _ _ rfl rfl W W1 hW1

end Cert.Kernel.TileCore

end
-- ==== Proof.lean ====
/-
  The proof of `Cert.Claim`: the three programs run and leave their arguments alone, and at the ideal instance the
  kernel and the reference end with the same 4096 × 192 array.

  WHAT IS COMPUTED. Five tables of 64-wide rows (heads, relations, tails, names, and two special rows) and seven lists
  of index words (4095 head, relation, tail and name indices; one head, relation and name index of a question). Output
  row `r < 4095` is, in three 64-wide blocks, `names[n_r] + heads[h_r]`, `relations[l_r]`, `names[n_r] + tails[t_r]`;
  output row 4095 is the same for the question's words, with the tails row replaced by special row 1. Apart from the two
  sums per element this is data movement, and the claim is that the two programs move the same data: both results are
  the one array `Cert.Spec.G` of the twelve arguments. The precondition (every index word inside its table) is what makes
  either program's way of reading a row — the reference's `take` with its wrap of negative words and its fill for words
  out of range, the kernel's split of a word into a tile number and a row of the tile — read exactly the row the word
  names.

  HOW THE PROOF IS CUT.
  • The reference (`RefRunOps`, `RefRunVals`, `RefRun`): its host operations in order, as a list; the program is that
    straight line, runs to the end from any memory, leaves its arguments unchanged (`RefClaims.frame_ri`) and leaves in its
    result buffer the operations' composed term of the arguments. `RefValue.result_eq` (with `RefValueScatter`, `…Rows`,
    `…Cols`, `…Take`): index by index that term is `Spec.G` — the two writes decide by the row, the concatenations by the
    column block, and each `take` reads the row its word names.
  • The precondition read back as plain inequalities on the index words: `PreFacts.inRange`.
  • The kernel program's host side: before the call it regroups each table in tiles of eight rows, appends the question's
    word to each list (a zero word to the tails list) and pads the special rows to one tile (`Launch.hostTabs`); the
    kernel's result function `KSpec.Kout` of those nine arrays is `Spec.G` of the arguments (`KValue.kout_eq`), and the
    appended lists still name rows inside their tables (`KValue.lists_inRange`).
  • The launch (`Launch.run_main`): the call's thirty-two tasks, one per vector subcore, each own 128 rows of the output;
    if every task, from its rows and a read share of the nine arrays, ends with its rows at `Kout`, the program runs and
    ends with the whole result at `Kout` and its arguments unchanged.
  • One task (`TileWrap.tile_body` from `TileCore.body_core`): copy in the four index lists' 128 words, issue the 512 row
    copies they name and wait for them, overwrite the last tails row by the special row on the last task, add the names
    rows to the heads and tails rows into the staging buffer, copy the 128 finished rows out.
  • The same three steps word for word for the program before idealization (`Cert.Kernel…`, modules `B…`): its frame
    claim needs the run only, at the bit-exact instance.
-/
import proofs.«206817_g64347200028782_cont_9to1_m_612_22_alg».proof.Defs
import proofs.«206817_g64347200028782_cont_9to1_m_612_22_alg».proof.Proof.Gen.Kernel
import proofs.«206817_g64347200028782_cont_9to1_m_612_22_alg».proof.Proof.Gen.Kernel.Skeleton
import proofs.«206817_g64347200028782_cont_9to1_m_612_22_alg».proof.Proof.Gen.KernelIdeal
import proofs.«206817_g64347200028782_cont_9to1_m_612_22_alg».proof.Proof.Gen.KernelIdeal.Skeleton
import proofs.«206817_g64347200028782_cont_9to1_m_612_22_alg».proof.Proof.Gen.ReferenceIdeal
import proofs.«206817_g64347200028782_cont_9to1_m_612_22_alg».proof.Proof.Gen.Pre_input_domain
import proofs.«206817_g64347200028782_cont_9to1_m_612_22_alg».proof.Proof.RefClaims
import proofs.«206817_g64347200028782_cont_9to1_m_612_22_alg».proof.Proof.RefValue
import proofs.«206817_g64347200028782_cont_9to1_m_612_22_alg».proof.Proof.PreFacts
import proofs.«206817_g64347200028782_cont_9to1_m_612_22_alg».proof.Proof.KValue
import proofs.«206817_g64347200028782_cont_9to1_m_612_22_alg».proof.Proof.Launch
import proofs.«206817_g64347200028782_cont_9to1_m_612_22_alg».proof.Proof.TileWrap
import proofs.«206817_g64347200028782_cont_9to1_m_612_22_alg».proof.Proof.TileCore
import proofs.«206817_g64347200028782_cont_9to1_m_612_22_alg».proof.Proof.BLaunch
import proofs.«206817_g64347200028782_cont_9to1_m_612_22_alg».proof.Proof.BTileWrap
import proofs.«206817_g64347200028782_cont_9to1_m_612_22_alg».proof.Proof.BTileCore
import Idealize.ShloMosaic.Adequacy
import Idealize.ShloMosaic.Init

noncomputable section

namespace Cert.Proof

open Idealize.ShloMosaic Idealize.SL.Sem

/-- Every element type has a value, at either instance: an integer element is a word, an ideal float an extended real,
    a bit-exact float a word. -/
instance nonemptyIdeal : ∀ e, Nonempty (Elt Ideal e) := fun e => by
  cases e <;> first | exact ⟨(0 : BitVec _)⟩ | exact ⟨(0 : EReal)⟩
instance nonemptyBits : ∀ e, Nonempty (Elt Bits e) := fun e => by
  cases e <;> exact ⟨(0 : BitVec _)⟩

/-! ## The idealized kernel -/

/-- Under the precondition every task of the call does its part: the lists it reads name rows inside the tables. -/
theorem tiles_ki (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Tile.TileBody (Cert.KernelIdeal.Launch.hostTabs (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) :=
  Cert.KernelIdeal.TileWrap.tile_body _ (Cert.KernelIdeal.TileCore.body_core _
    (Cert.KValue.lists_inRange Cert.KernelIdeal.Gen.concatenates_S4095_S1_S4096_d0 Cert.KernelIdeal.Gen.bcast_S_S1 _ _ _ _ _ _ _ (Cert.PreFacts.inRange _ _ _ _ _ _ _ _ _ _ _ _ (hpre c))))

theorem frame_ki : Cert.frame_KernelIdeal := fun m ρ hpre =>
  (θ_run (Cert.KernelIdeal.defs (F := Ideal)) _ _).mono (fun _ h c => (h c).2)
    (Cert.KernelIdeal.Launch.run_main (F := Ideal) m ρ (tiles_ki m hpre))

/-! ## The two results are one array -/

theorem algebraic : Cert.algebraic_KernelIdeal_ReferenceIdeal := by
  intro m ρ m' ρ' hpre hagree
  refine ⟨fun c => (Cert.KernelIdeal.Launch.hostTabs (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).out,
    Cert.KernelIdeal.Launch.run_main (F := Ideal) m ρ (tiles_ki m hpre), ?_⟩
  refine (θ_run (Cert.ReferenceIdeal.defs (F := Ideal)) _ _).mono (fun _ h c => ⟨(h c).1.trans ?_, (h c).2⟩)
    (Cert.ReferenceIdeal.RefRun.run m' ρ')
  have hr := Cert.PreFacts.inRange _ _ _ _ _ _ _ _ _ _ _ _ (hpre c)
  obtain ⟨e0, e1, e2, e3, e4, e5, e6, e7, e8, e9, e10, e11⟩ := hagree c
  rw [e0, e1, e2, e3, e4, e5, e6, e7, e8, e9, e10, e11, Cert.ReferenceIdeal.RefValue.result_eq _ _ _ _ _ _ _ _ _ _ _ _ hr]
  exact (Cert.KValue.kout_eq Cert.KernelIdeal.Gen.concatenates_S4095_S1_S4096_d0 Cert.KernelIdeal.Gen.bcast_S_S1
    Cert.KernelIdeal.Gen.shapeCasts_S100000x64_S12500x8x64 Cert.KernelIdeal.Gen.shapeCasts_S200x64_S25x8x64
    Cert.KernelIdeal.Gen.shapeCasts_S10000x64_S1250x8x64 Cert.KernelIdeal.Gen.pads_S2x64_S8x64_060_000 Cert.KernelIdeal.Gen.h_S_
    Cert.KernelIdeal.Gen.shapeCasts_S8x64_S1x8x64 _ _ _ _ _ _ _ _ _ _ _ _ hr).symm

/-! ## The kernel before idealization -/

theorem tiles_k (m : (ℓ : Loc Cert.Kernel.nD Cert.Kernel.τ Cert.Kernel.sig) → Buf (Elt Bits) ℓ)
    (hpre : Cert.Pre_Kernel m) (c : Dev Cert.Kernel.nD) :
    Cert.Kernel.Tile.TileBody (Cert.Kernel.Launch.hostTabs (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) :=
  Cert.Kernel.TileWrap.tile_body _ (Cert.Kernel.TileCore.body_core _
    (Cert.KValue.lists_inRange Cert.Kernel.Gen.concatenates_S4095_S1_S4096_d0 Cert.Kernel.Gen.bcast_S_S1 _ _ _ _ _ _ _ (Cert.PreFacts.inRange _ _ _ _ _ _ _ _ _ _ _ _ (hpre c))))

theorem frame_k : Cert.frame_Kernel := fun m ρ hpre =>
  (θ_run (Cert.Kernel.defs (F := Bits)) _ _).mono (fun _ h c => (h c).2)
    (Cert.Kernel.Launch.run_main (F := Bits) m ρ (tiles_k m hpre))

/-! ## The claim -/

theorem claim : Cert.Claim :=
  ⟨Cert.Kernel.Gen.facts, Cert.KernelIdeal.Gen.facts, Cert.ReferenceIdeal.Gen.facts, Cert.Pre_input_domain.Gen.facts,
    frame_k, frame_ki, Cert.Proof.RefClaims.frame_ri, trivial, algebraic⟩

end Cert.Proof

end
